-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S128x64 : Shape := ⟨2, ![128, 64]⟩
abbrev S128x1 : Shape := ⟨2, ![128, 1]⟩
abbrev S64x128 : Shape := ⟨2, ![64, 128]⟩
abbrev S64x1 : Shape := ⟨2, ![64, 1]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S64x128 : S_.BroadcastsInDim S64x128 (![] : Fin 0 → Fin S64x128.rank)
  reducesTo_S64x128_S_d0_1 : S64x128.ReducesTo [0, 1] S_
  bcast_S_S64x1 : S_.BroadcastsInDim S64x1 (![] : Fin 0 → Fin S64x1.rank)
  reducesTo_S64x1_S_d0_1 : S64x1.ReducesTo [0, 1] S_

variable [Facts]

def fn_part5 {F : FTy → Type} [FloatOps F] (main_arg18 : FVec F S64x1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  main_v93

def fn_part4 {F : FTy → Type} [FloatOps F] (main_arg14 : FVec F S128x1 .f32) (main_arg15 : FVec F S128x1 .f32) (main_arg16 : FVec F S64x128 .f32) (main_arg17 : FVec F S64x1 .f32) (main_arg18 : FVec F S64x1 .f32) (main_v63 : IVec S_ 1) (main_v67 : IVec S_ 1) : IVec S_ 1 :=
  let main_v68 : IVec S_ 1 := andi main_v63 main_v67
  let main_v69 : FVec F S128x1 .f32 := Host.absf main_arg14
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S128x1 .f32 := Host.absf main_arg15
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S64x128 .f32 := Host.absf main_arg16
  let main_cst_30 : FVec F S_ .f32 := constant S_ .f32 0x7F800000#32
  let main_v80 : FVec F S64x128 .f32 := broadcastInDim S64x128 ![] bcast_S_S64x128 main_cst_30
  let main_v81 : IVec S64x128 1 := cmpf .olt main_v79 main_v80
  let main_c_31 : IVec S_ 1 := constantI S_ 1 1#1
  let main_v82 : IVec S_ 1 := (fun x v => Host.reduce IntOp.andi x v reducesTo_S64x128_S_d0_1 h_S_) main_v81 main_c_31
  let main_v83 : IVec S_ 1 := andi main_v78 main_v82
  let main_v84 : FVec F S64x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64x1 .f32) (main_arg12 : FVec F S64x1 .f32) (main_arg13 : FVec F S128x64 .f32) (main_arg14 : FVec F S128x1 .f32) (main_arg15 : FVec F S128x1 .f32) (main_arg16 : FVec F S64x128 .f32) (main_arg17 : FVec F S64x1 .f32) (main_arg18 : FVec F S64x1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S64x1 .f32 := Host.absf main_arg12
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S128x64 .f32 := Host.absf main_arg13
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg14 main_arg15 main_arg16 main_arg17 main_arg18 main_v63 main_v67

def fn_part2 {F : FTy → Type} [FloatOps F] (main_arg7 : FVec F S128x64 .f32) (main_arg8 : FVec F S128x1 .f32) (main_arg9 : FVec F S128x1 .f32) (main_arg10 : FVec F S64x128 .f32) (main_arg11 : FVec F S64x1 .f32) (main_arg12 : FVec F S64x1 .f32) (main_arg13 : FVec F S128x64 .f32) (main_arg14 : FVec F S128x1 .f32) (main_arg15 : FVec F S128x1 .f32) (main_arg16 : FVec F S64x128 .f32) (main_arg17 : FVec F S64x1 .f32) (main_arg18 : FVec F S64x1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_arg18 main_v48 main_v49 main_v50

def fn_part1 {F : FTy → Type} [FloatOps F] (main_arg4 : FVec F S64x128 .f32) (main_arg5 : FVec F S64x1 .f32) (main_arg6 : FVec F S64x1 .f32) (main_arg7 : FVec F S128x64 .f32) (main_arg8 : FVec F S128x1 .f32) (main_arg9 : FVec F S128x1 .f32) (main_arg10 : FVec F S64x128 .f32) (main_arg11 : FVec F S64x1 .f32) (main_arg12 : FVec F S64x1 .f32) (main_arg13 : FVec F S128x64 .f32) (main_arg14 : FVec F S128x1 .f32) (main_arg15 : FVec F S128x1 .f32) (main_arg16 : FVec F S64x128 .f32) (main_arg17 : FVec F S64x1 .f32) (main_arg18 : FVec F S64x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S32x64x64x64 .f32) (main_arg1 : FVec F S128x64 .f32) (main_arg2 : FVec F S128x1 .f32) (main_arg3 : FVec F S128x1 .f32) (main_arg4 : FVec F S64x128 .f32) (main_arg5 : FVec F S64x1 .f32) (main_arg6 : FVec F S64x1 .f32) (main_arg7 : FVec F S128x64 .f32) (main_arg8 : FVec F S128x1 .f32) (main_arg9 : FVec F S128x1 .f32) (main_arg10 : FVec F S64x128 .f32) (main_arg11 : FVec F S64x1 .f32) (main_arg12 : FVec F S64x1 .f32) (main_arg13 : FVec F S128x64 .f32) (main_arg14 : FVec F S128x1 .f32) (main_arg15 : FVec F S128x1 .f32) (main_arg16 : FVec F S64x128 .f32) (main_arg17 : FVec F S64x1 .f32) (main_arg18 : FVec F S64x1 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S32x64x64x64 : Shape := ⟨4, ![32, 64, 64, 64]⟩
abbrev S128x64 : Shape := ⟨2, ![128, 64]⟩
abbrev S128x1 : Shape := ⟨2, ![128, 1]⟩
abbrev S64x128 : Shape := ⟨2, ![64, 128]⟩
abbrev S64x1 : Shape := ⟨2, ![64, 1]⟩
abbrev S32x64x4096 : Shape := ⟨3, ![32, 64, 4096]⟩
abbrev S2x128x1 : Shape := ⟨3, ![2, 128, 1]⟩
abbrev S2x64x4096 : Shape := ⟨3, ![2, 64, 4096]⟩
abbrev S1x128x1 : Shape := ⟨3, ![1, 128, 1]⟩
abbrev S1x64x4096 : Shape := ⟨3, ![1, 64, 4096]⟩
abbrev S64x4096 : Shape := ⟨2, ![64, 4096]⟩
abbrev S128x4096 : Shape := ⟨2, ![128, 4096]⟩
abbrev S128 : Shape := ⟨1, ![128]⟩
abbrev S_ : Shape := ⟨0, ![]⟩
abbrev S2x64x1 : Shape := ⟨3, ![2, 64, 1]⟩
abbrev S1x64x1 : Shape := ⟨3, ![1, 64, 1]⟩
abbrev S64 : Shape := ⟨1, ![64]⟩

abbrev nBuf : Space → Nat
  | .hbm => 175
  | .vmem => 68
  | .smem => 0
  | _ => 0

abbrev hbmTy0_0 (i : Nat) : BufTy := match i % 128 with
  | 0 => ⟨S32x64x64x64, .f32⟩
  | 1 => ⟨S128x64, .f32⟩
  | 2 => ⟨S128x1, .f32⟩
  | 3 => ⟨S128x1, .f32⟩
  | 4 => ⟨S64x128, .f32⟩
  | 5 => ⟨S64x1, .f32⟩
  | 6 => ⟨S64x1, .f32⟩
  | 7 => ⟨S128x64, .f32⟩
  | 8 => ⟨S128x1, .f32⟩
  | 9 => ⟨S128x1, .f32⟩
  | 10 => ⟨S64x128, .f32⟩
  | 11 => ⟨S64x1, .f32⟩
  | 12 => ⟨S64x1, .f32⟩
  | 13 => ⟨S128x64, .f32⟩
  | 14 => ⟨S128x1, .f32⟩
  | 15 => ⟨S128x1, .f32⟩
  | 16 => ⟨S64x128, .f32⟩
  | 17 => ⟨S64x1, .f32⟩
  | 18 => ⟨S64x1, .f32⟩
  | 19 => ⟨S32x64x4096, .f32⟩
  | 20 => ⟨S2x128x1, .f32⟩
  | 21 => ⟨S2x128x1, .f32⟩
  | 22 => ⟨S_, .f32⟩
  | 23 => ⟨S128x1, .f32⟩
  | 24 => ⟨S_, .f32⟩
  | 25 => ⟨S128x1, .f32⟩
  | 26 => ⟨S_, .f32⟩
  | 27 => ⟨S128x1, .f32⟩
  | 28 => ⟨S128x1, .f32⟩
  | 29 => ⟨S_, .f32⟩
  | 30 => ⟨S128x1, .f32⟩
  | 31 => ⟨S128x1, .f32⟩
  | 32 => ⟨S128x1, .f32⟩
  | 33 => ⟨S128x1, .f32⟩
  | 34 => ⟨S_, .f32⟩
  | 35 => ⟨S128x1, .f32⟩
  | 36 => ⟨S128x1, .f32⟩
  | 37 => ⟨S_, .f32⟩
  | 38 => ⟨S128x1, .f32⟩
  | 39 => ⟨S128x1, .f32⟩
  | 40 => ⟨S128x1, .f32⟩
  | 41 => ⟨S128x1, .f32⟩
  | 42 => ⟨S128x1, .f32⟩
  | 43 => ⟨S128x1, .f32⟩
  | 44 => ⟨S128x64, .f32⟩
  | 45 => ⟨S128x64, .f32⟩
  | 46 => ⟨S32x64x4096, .f32⟩
  | 47 => ⟨S2x64x1, .f32⟩
  | 48 => ⟨S2x64x1, .f32⟩
  | 49 => ⟨S_, .f32⟩
  | 50 => ⟨S64x1, .f32⟩
  | 51 => ⟨S_, .f32⟩
  | 52 => ⟨S64x1, .f32⟩
  | 53 => ⟨S_, .f32⟩
  | 54 => ⟨S64x1, .f32⟩
  | 55 => ⟨S64x1, .f32⟩
  | 56 => ⟨S_, .f32⟩
  | 57 => ⟨S64x1, .f32⟩
  | 58 => ⟨S64x1, .f32⟩
  | 59 => ⟨S64x1, .f32⟩
  | 60 => ⟨S64x1, .f32⟩
  | 61 => ⟨S_, .f32⟩
  | 62 => ⟨S64x1, .f32⟩
  | 63 => ⟨S64x1, .f32⟩
  | 64 => ⟨S_, .f32⟩
  | 65 => ⟨S64x1, .f32⟩
  | 66 => ⟨S64x1, .f32⟩
  | 67 => ⟨S64x1, .f32⟩
  | 68 => ⟨S64x1, .f32⟩
  | 69 => ⟨S64x1, .f32⟩
  | 70 => ⟨S64x1, .f32⟩
  | 71 => ⟨S2x128x1, .f32⟩
  | 72 => ⟨S2x128x1, .f32⟩
  | 73 => ⟨S_, .f32⟩
  | 74 => ⟨S128x1, .f32⟩
  | 75 => ⟨S_, .f32⟩
  | 76 => ⟨S128x1, .f32⟩
  | 77 => ⟨S_, .f32⟩
  | 78 => ⟨S128x1, .f32⟩
  | 79 => ⟨S128x1, .f32⟩
  | 80 => ⟨S_, .f32⟩
  | 81 => ⟨S128x1, .f32⟩
  | 82 => ⟨S128x1, .f32⟩
  | 83 => ⟨S128x1, .f32⟩
  | 84 => ⟨S128x1, .f32⟩
  | 85 => ⟨S_, .f32⟩
  | 86 => ⟨S128x1, .f32⟩
  | 87 => ⟨S128x1, .f32⟩
  | 88 => ⟨S_, .f32⟩
  | 89 => ⟨S128x1, .f32⟩
  | 90 => ⟨S128x1, .f32⟩
  | 91 => ⟨S128x1, .f32⟩
  | 92 => ⟨S128x1, .f32⟩
  | 93 => ⟨S128x1, .f32⟩
  | 94 => ⟨S128x1, .f32⟩
  | 95 => ⟨S128x64, .f32⟩
  | 96 => ⟨S128x64, .f32⟩
  | 97 => ⟨S32x64x4096, .f32⟩
  | 98 => ⟨S2x64x1, .f32⟩
  | 99 => ⟨S2x64x1, .f32⟩
  | 100 => ⟨S_, .f32⟩
  | 101 => ⟨S64x1, .f32⟩
  | 102 => ⟨S_, .f32⟩
  | 103 => ⟨S64x1, .f32⟩
  | 104 => ⟨S_, .f32⟩
  | 105 => ⟨S64x1, .f32⟩
  | 106 => ⟨S64x1, .f32⟩
  | 107 => ⟨S_, .f32⟩
  | 108 => ⟨S64x1, .f32⟩
  | 109 => ⟨S64x1, .f32⟩
  | 110 => ⟨S64x1, .f32⟩
  | 111 => ⟨S64x1, .f32⟩
  | 112 => ⟨S_, .f32⟩
  | 113 => ⟨S64x1, .f32⟩
  | 114 => ⟨S64x1, .f32⟩
  | 115 => ⟨S_, .f32⟩
  | 116 => ⟨S64x1, .f32⟩
  | 117 => ⟨S64x1, .f32⟩
  | 118 => ⟨S64x1, .f32⟩
  | 119 => ⟨S64x1, .f32⟩
  | 120 => ⟨S64x1, .f32⟩
  | 121 => ⟨S64x1, .f32⟩
  | 122 => ⟨S2x128x1, .f32⟩
  | 123 => ⟨S2x128x1, .f32⟩
  | 124 => ⟨S_, .f32⟩
  | 125 => ⟨S128x1, .f32⟩
  | 126 => ⟨S_, .f32⟩
  | 127 => ⟨S128x1, .f32⟩
  | _ => ⟨S32x64x64x64, .f32⟩

abbrev hbmTy0_1 (i : Nat) : BufTy := match i % 128 with
  | 0 => ⟨S_, .f32⟩
  | 1 => ⟨S128x1, .f32⟩
  | 2 => ⟨S128x1, .f32⟩
  | 3 => ⟨S_, .f32⟩
  | 4 => ⟨S128x1, .f32⟩
  | 5 => ⟨S128x1, .f32⟩
  | 6 => ⟨S128x1, .f32⟩
  | 7 => ⟨S128x1, .f32⟩
  | 8 => ⟨S_, .f32⟩
  | 9 => ⟨S128x1, .f32⟩
  | 10 => ⟨S128x1, .f32⟩
  | 11 => ⟨S_, .f32⟩
  | 12 => ⟨S128x1, .f32⟩
  | 13 => ⟨S128x1, .f32⟩
  | 14 => ⟨S128x1, .f32⟩
  | 15 => ⟨S128x1, .f32⟩
  | 16 => ⟨S128x1, .f32⟩
  | 17 => ⟨S128x1, .f32⟩
  | 18 => ⟨S128x64, .f32⟩
  | 19 => ⟨S128x64, .f32⟩
  | 20 => ⟨S32x64x4096, .f32⟩
  | 21 => ⟨S2x64x1, .f32⟩
  | 22 => ⟨S2x64x1, .f32⟩
  | 23 => ⟨S_, .f32⟩
  | 24 => ⟨S64x1, .f32⟩
  | 25 => ⟨S_, .f32⟩
  | 26 => ⟨S64x1, .f32⟩
  | 27 => ⟨S_, .f32⟩
  | 28 => ⟨S64x1, .f32⟩
  | 29 => ⟨S64x1, .f32⟩
  | 30 => ⟨S_, .f32⟩
  | 31 => ⟨S64x1, .f32⟩
  | 32 => ⟨S64x1, .f32⟩
  | 33 => ⟨S64x1, .f32⟩
  | 34 => ⟨S64x1, .f32⟩
  | 35 => ⟨S_, .f32⟩
  | 36 => ⟨S64x1, .f32⟩
  | 37 => ⟨S64x1, .f32⟩
  | 38 => ⟨S_, .f32⟩
  | 39 => ⟨S64x1, .f32⟩
  | 40 => ⟨S64x1, .f32⟩
  | 41 => ⟨S64x1, .f32⟩
  | 42 => ⟨S64x1, .f32⟩
  | 43 => ⟨S64x1, .f32⟩
  | 44 => ⟨S64x1, .f32⟩
  | 45 => ⟨S32x64x4096, .f32⟩
  | 46 => ⟨S32x64x64x64, .f32⟩
  | _ => ⟨S32x64x64x64, .f32⟩

abbrev hbmTy (i : Nat) : BufTy := match i / 128 with
  | 0 => hbmTy0_0 i
  | 1 => hbmTy0_1 i
  | _ => ⟨S32x64x64x64, .f32⟩

abbrev bufTy : (tb : Table) → Fin (tcTables nBuf tb) → BufTy
  | .hbm, ⟨i, _⟩ => hbmTy i
  | .local _ .vmem, ⟨0, _⟩ => ⟨S2x64x4096, .f32⟩
  | .local _ .vmem, ⟨1, _⟩ => ⟨S2x64x4096, .f32⟩
  | .local _ .vmem, ⟨2, _⟩ => ⟨S128x64, .f32⟩
  | .local _ .vmem, ⟨3, _⟩ => ⟨S1x128x1, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S2x64x4096, .f32⟩
  | .local _ .vmem, ⟨8, _⟩ => ⟨S2x64x4096, .f32⟩
  | .local _ .vmem, ⟨9, _⟩ => ⟨S128x64, .f32⟩
  | .local _ .vmem, ⟨10, _⟩ => ⟨S128x1, .f32⟩
  | .local _ .vmem, ⟨11, _⟩ => ⟨S64x128, .f32⟩
  | .local _ .vmem, ⟨12, _⟩ => ⟨S2x64x4096, .f32⟩
  | .local _ .vmem, ⟨13, _⟩ => ⟨S2x64x4096, .f32⟩
  | .local _ .vmem, ⟨14, _⟩ => ⟨S1x64x1, .f32⟩
  | .local _ .vmem, ⟨15, _⟩ => ⟨S1x64x1, .f32⟩
  | .local _ .vmem, ⟨16, _⟩ => ⟨S1x64x1, .f32⟩
  | .local _ .vmem, ⟨17, _⟩ => ⟨S1x64x1, .f32⟩
  | .local _ .vmem, ⟨18, _⟩ => ⟨S2x64x4096, .f32⟩
  | .local _ .vmem, ⟨19, _⟩ => ⟨S2x64x4096, .f32⟩
  | .local _ .vmem, ⟨20, _⟩ => ⟨S128x64, .f32⟩
  | .local _ .vmem, ⟨21, _⟩ => ⟨S64x1, .f32⟩
  | .local _ .vmem, ⟨22, _⟩ => ⟨S64x1, .f32⟩
  | .local _ .vmem, ⟨23, _⟩ => ⟨S1x128x1, .f32⟩
  | .local _ .vmem, ⟨24, _⟩ => ⟨S1x128x1, .f32⟩
  | .local _ .vmem, ⟨25, _⟩ => ⟨S1x128x1, .f32⟩
  | .local _ .vmem, ⟨26, _⟩ => ⟨S1x128x1, .f32⟩
  | .local _ .vmem, ⟨27, _⟩ => ⟨S2x64x4096, .f32⟩
  | .local _ .vmem, ⟨28, _⟩ => ⟨S2x64x4096, .f32⟩
  | .local _ .vmem, ⟨29, _⟩ => ⟨S128x64, .f32⟩
  | .local _ .vmem, ⟨30, _⟩ => ⟨S128x1, .f32⟩
  | .local _ .vmem, ⟨31, _⟩ => ⟨S64x128, .f32⟩
  | .local _ .vmem, ⟨32, _⟩ => ⟨S64x1, .f32⟩
  | .local _ .vmem, ⟨33, _⟩ => ⟨S64x1, .f32⟩
  | .local _ .vmem, ⟨34, _⟩ => ⟨S2x64x4096, .f32⟩
  | .local _ .vmem, ⟨35, _⟩ => ⟨S2x64x4096, .f32⟩
  | .local _ .vmem, ⟨36, _⟩ => ⟨S1x64x1, .f32⟩
  | .local _ .vmem, ⟨37, _⟩ => ⟨S1x64x1, .f32⟩
  | .local _ .vmem, ⟨38, _⟩ => ⟨S1x64x1, .f32⟩
  | .local _ .vmem, ⟨39, _⟩ => ⟨S1x64x1, .f32⟩
  | .local _ .vmem, ⟨40, _⟩ => ⟨S2x64x4096, .f32⟩
  | .local _ .vmem, ⟨41, _⟩ => ⟨S2x64x4096, .f32⟩
  | .local _ .vmem, ⟨42, _⟩ => ⟨S128x64, .f32⟩
  | .local _ .vmem, ⟨43, _⟩ => ⟨S64x1, .f32⟩
  | .local _ .vmem, ⟨44, _⟩ => ⟨S64x1, .f32⟩
  | .local _ .vmem, ⟨45, _⟩ => ⟨S1x128x1, .f32⟩
  | .local _ .vmem, ⟨46, _⟩ => ⟨S1x128x1, .f32⟩
  | .local _ .vmem, ⟨47, _⟩ => ⟨S1x128x1, .f32⟩
  | .local _ .vmem, ⟨48, _⟩ => ⟨S1x128x1, .f32⟩
  | .local _ .vmem, ⟨49, _⟩ => ⟨S2x64x4096, .f32⟩
  | .local _ .vmem, ⟨50, _⟩ => ⟨S2x64x4096, .f32⟩
  | .local _ .vmem, ⟨51, _⟩ => ⟨S128x64, .f32⟩
  | .local _ .vmem, ⟨52, _⟩ => ⟨S128x1, .f32⟩
  | .local _ .vmem, ⟨53, _⟩ => ⟨S64x128, .f32⟩
  | .local _ .vmem, ⟨54, _⟩ => ⟨S64x1, .f32⟩
  | .local _ .vmem, ⟨55, _⟩ => ⟨S64x1, .f32⟩
  | .local _ .vmem, ⟨56, _⟩ => ⟨S2x64x4096, .f32⟩
  | .local _ .vmem, ⟨57, _⟩ => ⟨S2x64x4096, .f32⟩
  | .local _ .vmem, ⟨58, _⟩ => ⟨S1x64x1, .f32⟩
  | .local _ .vmem, ⟨59, _⟩ => ⟨S1x64x1, .f32⟩
  | .local _ .vmem, ⟨60, _⟩ => ⟨S1x64x1, .f32⟩
  | .local _ .vmem, ⟨61, _⟩ => ⟨S1x64x1, .f32⟩
  | .local _ .vmem, ⟨62, _⟩ => ⟨S2x64x4096, .f32⟩
  | .local _ .vmem, ⟨63, _⟩ => ⟨S2x64x4096, .f32⟩
  | .local _ .vmem, ⟨64, _⟩ => ⟨S64x1, .f32⟩
  | .local _ .vmem, ⟨65, _⟩ => ⟨S64x1, .f32⟩
  | .local _ .vmem, ⟨66, _⟩ => ⟨S2x64x4096, .f32⟩
  | .local _ .vmem, ⟨67, _⟩ => ⟨S2x64x4096, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1_0 : Ref sig .tc := ⟨.hbm, 20, rfl⟩
abbrev main_v1_1 : Ref sig .tc := ⟨.hbm, 21, rfl⟩
abbrev main_cst : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_3 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20_0 : Ref sig .tc := ⟨.hbm, 46, rfl⟩
abbrev main_v20_1 : Ref sig .tc := ⟨.hbm, 47, rfl⟩
abbrev main_v20_2 : Ref sig .tc := ⟨.hbm, 48, rfl⟩
abbrev main_cst_5 : Ref sig .tc := ⟨.hbm, 49, rfl⟩
abbrev main_v21 : Ref sig .tc := ⟨.hbm, 50, rfl⟩
abbrev main_cst_6 : Ref sig .tc := ⟨.hbm, 51, rfl⟩
abbrev main_v22 : Ref sig .tc := ⟨.hbm, 52, rfl⟩
abbrev main_cst_7 : Ref sig .tc := ⟨.hbm, 53, rfl⟩
abbrev main_v23 : Ref sig .tc := ⟨.hbm, 54, rfl⟩
abbrev main_v24 : Ref sig .tc := ⟨.hbm, 55, rfl⟩
abbrev main_cst_8 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_9 : Ref sig .tc := ⟨.hbm, 61, rfl⟩
abbrev main_v29 : Ref sig .tc := ⟨.hbm, 62, rfl⟩
abbrev main_v30 : Ref sig .tc := ⟨.hbm, 63, rfl⟩
abbrev main_cst_10 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37_0 : Ref sig .tc := ⟨.hbm, 71, rfl⟩
abbrev main_v37_1 : Ref sig .tc := ⟨.hbm, 72, rfl⟩
abbrev main_cst_11 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_cst_13 : Ref sig .tc := ⟨.hbm, 77, rfl⟩
abbrev main_v40 : Ref sig .tc := ⟨.hbm, 78, rfl⟩
abbrev main_v41 : Ref sig .tc := ⟨.hbm, 79, rfl⟩
abbrev main_cst_14 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_15 : Ref sig .tc := ⟨.hbm, 85, rfl⟩
abbrev main_v46 : Ref sig .tc := ⟨.hbm, 86, rfl⟩
abbrev main_v47 : Ref sig .tc := ⟨.hbm, 87, rfl⟩
abbrev main_cst_16 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56_0 : Ref sig .tc := ⟨.hbm, 97, rfl⟩
abbrev main_v56_1 : Ref sig .tc := ⟨.hbm, 98, rfl⟩
abbrev main_v56_2 : Ref sig .tc := ⟨.hbm, 99, rfl⟩
abbrev main_cst_17 : Ref sig .tc := ⟨.hbm, 100, rfl⟩
abbrev main_v57 : Ref sig .tc := ⟨.hbm, 101, rfl⟩
abbrev main_cst_18 : Ref sig .tc := ⟨.hbm, 102, rfl⟩
abbrev main_v58 : Ref sig .tc := ⟨.hbm, 103, rfl⟩
abbrev main_cst_19 : Ref sig .tc := ⟨.hbm, 104, rfl⟩
abbrev main_v59 : Ref sig .tc := ⟨.hbm, 105, rfl⟩
abbrev main_v60 : Ref sig .tc := ⟨.hbm, 106, rfl⟩
abbrev main_cst_20 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_21 : Ref sig .tc := ⟨.hbm, 112, rfl⟩
abbrev main_v65 : Ref sig .tc := ⟨.hbm, 113, rfl⟩
abbrev main_v66 : Ref sig .tc := ⟨.hbm, 114, rfl⟩
abbrev main_cst_22 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73_0 : Ref sig .tc := ⟨.hbm, 122, rfl⟩
abbrev main_v73_1 : Ref sig .tc := ⟨.hbm, 123, rfl⟩
abbrev main_cst_23 : Ref sig .tc := ⟨.hbm, 124, rfl⟩
abbrev main_v74 : Ref sig .tc := ⟨.hbm, 125, rfl⟩
abbrev main_cst_24 : Ref sig .tc := ⟨.hbm, 126, rfl⟩
abbrev main_v75 : Ref sig .tc := ⟨.hbm, 127, rfl⟩
abbrev main_cst_25 : Ref sig .tc := ⟨.hbm, 128, rfl⟩
abbrev main_v76 : Ref sig .tc := ⟨.hbm, 129, rfl⟩
abbrev main_v77 : Ref sig .tc := ⟨.hbm, 130, rfl⟩
abbrev main_cst_26 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_cst_27 : Ref sig .tc := ⟨.hbm, 136, rfl⟩
abbrev main_v82 : Ref sig .tc := ⟨.hbm, 137, rfl⟩
abbrev main_v83 : Ref sig .tc := ⟨.hbm, 138, rfl⟩
abbrev main_cst_28 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92_0 : Ref sig .tc := ⟨.hbm, 148, rfl⟩
abbrev main_v92_1 : Ref sig .tc := ⟨.hbm, 149, rfl⟩
abbrev main_v92_2 : Ref sig .tc := ⟨.hbm, 150, rfl⟩
abbrev main_cst_29 : Ref sig .tc := ⟨.hbm, 151, rfl⟩
abbrev main_v93 : Ref sig .tc := ⟨.hbm, 152, rfl⟩
abbrev main_cst_30 : Ref sig .tc := ⟨.hbm, 153, rfl⟩
abbrev main_v94 : Ref sig .tc := ⟨.hbm, 154, rfl⟩
abbrev main_cst_31 : Ref sig .tc := ⟨.hbm, 155, rfl⟩
abbrev main_v95 : Ref sig .tc := ⟨.hbm, 156, rfl⟩
abbrev main_v96 : Ref sig .tc := ⟨.hbm, 157, rfl⟩
abbrev main_cst_32 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_33 : Ref sig .tc := ⟨.hbm, 163, rfl⟩
abbrev main_v101 : Ref sig .tc := ⟨.hbm, 164, rfl⟩
abbrev main_v102 : Ref sig .tc := ⟨.hbm, 165, rfl⟩
abbrev main_cst_34 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg4_1 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_stg7_1 : Ref sig .tc := ⟨.vmem, 59, rfl⟩
abbrev cc5_stg8_0 : Ref sig .tc := ⟨.vmem, 60, rfl⟩
abbrev cc5_stg8_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem4_1 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem6_1 : DmaSem sig := 57
abbrev cc5_sem7_0 : DmaSem sig := 58
abbrev cc5_sem7_1 : DmaSem sig := 59
abbrev cc5_sem8_0 : DmaSem sig := 60
abbrev cc5_sem8_1 : DmaSem sig := 61
abbrev cc6_sem0_0 : DmaSem sig := 62
abbrev cc6_sem0_1 : DmaSem sig := 63
abbrev cc6_sem1_0 : DmaSem sig := 64
abbrev cc6_sem2_0 : DmaSem sig := 65
abbrev cc6_sem3_0 : DmaSem sig := 66
abbrev cc6_sem3_1 : DmaSem sig := 67

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2x64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x64x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2x64x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x128x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x128x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev grid3 : Pipeline.Grid := ⟨2, ![2, 8], ![false, false]⟩

def cc3_transform_0 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2x64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S2x64x4096 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x64x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x64x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨2, ![2, 8], ![false, false]⟩

def cc4_transform_0 (i : grid4.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2x64x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x128x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S1x128x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev grid5 : Pipeline.Grid := ⟨2, ![2, 8], ![false, false]⟩

def cc5_transform_0 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_8 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S2x64x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S128x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S64x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S64x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S2x64x4096 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x64x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev stage5_8 : Fin 2 → Memref sig .tc .vmem S1x64x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, false]

abbrev grid6 : Pipeline.Grid := ⟨2, ![2, 8], ![false, false]⟩

def cc6_transform_0 (i : grid6.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage6_0 : Fin 2 → Memref sig .tc .vmem S2x64x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S2x64x4096 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

class Facts₀ : Prop where
  shapeCasts_S32x64x64x64_S32x64x4096 : S32x64x64x64.ShapeCasts S32x64x4096
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S128x64_S128x64_0_0 : ∀ a, (![0, 0] : Fin 2 → Nat) a + S128x64.size a ≤ S128x64.size a
  h_S128x64 : 0 < S128x64.numel
  inb_S2x64x4096_S1x64x4096_0_0_0 : ∀ a, (![0, 0, 0] : Fin 3 → Nat) a + S1x64x4096.size a ≤ S2x64x4096.size a
  h_S1x64x4096 : 0 < S1x64x4096.numel
  shapeCasts_S1x64x4096_S64x4096 : S1x64x4096.ShapeCasts S64x4096
  reduces_S128x4096_S128 : S128x4096.Reduces [1] S128
  shapeCasts_S128_S128x1 : S128.ShapeCasts S128x1
  inb_S2x64x4096_S1x64x4096_1_0_0 : ∀ a, (![1, 0, 0] : Fin 3 → Nat) a + S1x64x4096.size a ≤ S2x64x4096.size a
  reducesTo_S2x128x1_S128x1_d0 : S2x128x1.ReducesTo [0] S128x1
  h_S_ : 0 < S_.numel
  bcast_S_S128x1 : S_.BroadcastsInDim S128x1 (![] : Fin 0 → Fin S128x1.rank)
  bcast_S128x1_S128x64_0_1 : S128x1.BroadcastsInDim S128x64 (![0, 1] : Fin 2 → Fin S128x64.rank)
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S128x64_S128x64 : S128x64.ShapeCasts S128x64
  inb_S64x128_S64x128_0_0 : ∀ a, (![0, 0] : Fin 2 → Nat) a + S64x128.size a ≤ S64x128.size a
  h_S64x128 : 0 < S64x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  shapeCasts_S64x4096_S1x64x4096 : S64x4096.ShapeCasts S1x64x4096
  reduces_S64x4096_S64 : S64x4096.Reduces [1] S64
  shapeCasts_S64_S64x1 : S64.ShapeCasts S64x1
  reducesTo_S2x64x1_S64x1_d0 : S2x64x1.ReducesTo [0] S64x1
  bcast_S_S64x1 : S_.BroadcastsInDim S64x1 (![] : Fin 0 → Fin S64x1.rank)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  shapeCasts_S32x64x4096_S32x64x64x64 : S32x64x4096.ShapeCasts S32x64x64x64
  dot_S128x64_S64x4096_S128x4096_1_0_0_1_n_n_wf : DotDims.WF S128x64 S64x4096 S128x4096 [1] [0] [0] [1] [] []
  dot_S64x128_S128x4096_S64x4096_1_0_0_1_n_n_wf : DotDims.WF S64x128 S128x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x4096.size a ≤ S32x64x4096.size a
  hwx0_0 : ∀ i : grid0.Coords, EltTy.bits .f32 = 32 ∨ (Rect.block (s := S32x64x4096) S2x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x128x1.size a
  hwx0_2 : ∀ i : grid0.Coords, EltTy.bits .f32 = 32 ∨ (Rect.block (s := S2x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x4096.size a ≤ S32x64x4096.size a
  hwx1_0 : ∀ i : grid1.Coords, EltTy.bits .f32 = 32 ∨ (Rect.block (s := S32x64x4096) S2x64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x64x4096.size a ≤ S32x64x4096.size a
  hwx1_4 : ∀ i : grid1.Coords, EltTy.bits .f32 = 32 ∨ (Rect.block (s := S32x64x4096) S2x64x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1.size a ≤ S2x64x1.size a
  hwx1_5 : ∀ i : grid1.Coords, EltTy.bits .f32 = 32 ∨ (Rect.block (s := S2x64x1) S1x64x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x1.size a ≤ S2x64x1.size a
  hwx1_6 : ∀ i : grid1.Coords, EltTy.bits .f32 = 32 ∨ (Rect.block (s := S2x64x1) S1x64x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x64x4096.size a ≤ S32x64x4096.size a
  hwx2_0 : ∀ i : grid2.Coords, EltTy.bits .f32 = 32 ∨ (Rect.block (s := S32x64x4096) S2x64x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x128x1.size a ≤ S2x128x1.size a
  hwx2_4 : ∀ i : grid2.Coords, EltTy.bits .f32 = 32 ∨ (Rect.block (s := S2x128x1) S1x128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x128x1.size a ≤ S2x128x1.size a
  hwx2_5 : ∀ i : grid2.Coords, EltTy.bits .f32 = 32 ∨ (Rect.block (s := S2x128x1) S1x128x1.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x64x4096.size a ≤ S32x64x4096.size a
  hwx3_0 : ∀ i : grid3.Coords, EltTy.bits .f32 = 32 ∨ (Rect.block (s := S32x64x4096) S2x64x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2x64x4096.size a ≤ S32x64x4096.size a
  hwx3_6 : ∀ i : grid3.Coords, EltTy.bits .f32 = 32 ∨ (Rect.block (s := S32x64x4096) S2x64x4096.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x64x1.size a ≤ S2x64x1.size a
  hwx3_7 : ∀ i : grid3.Coords, EltTy.bits .f32 = 32 ∨ (Rect.block (s := S2x64x1) S1x64x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x64x1.size a ≤ S2x64x1.size a
  hwx3_8 : ∀ i : grid3.Coords, EltTy.bits .f32 = 32 ∨ (Rect.block (s := S2x64x1) S1x64x1.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2x64x4096.size a ≤ S32x64x4096.size a
  hwx4_0 : ∀ i : grid4.Coords, EltTy.bits .f32 = 32 ∨ (Rect.block (s := S32x64x4096) S2x64x4096.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x128x1.size a ≤ S2x128x1.size a
  hwx4_4 : ∀ i : grid4.Coords, EltTy.bits .f32 = 32 ∨ (Rect.block (s := S2x128x1) S1x128x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x128x1.size a ≤ S2x128x1.size a
  hwx4_5 : ∀ i : grid4.Coords, EltTy.bits .f32 = 32 ∨ (Rect.block (s := S2x128x1) S1x128x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2x64x4096.size a ≤ S32x64x4096.size a
  hwx5_0 : ∀ i : grid5.Coords, EltTy.bits .f32 = 32 ∨ (Rect.block (s := S32x64x4096) S2x64x4096.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x1.size a ≤ S128x1.size a
  hwx5_2 : ∀ i : grid5.Coords, EltTy.bits .f32 = 32 ∨ (Rect.block (s := S128x1) S128x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x1.size a ≤ S64x1.size a
  hwx5_4 : ∀ i : grid5.Coords, EltTy.bits .f32 = 32 ∨ (Rect.block (s := S64x1) S64x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x1.size a ≤ S64x1.size a
  hwx5_5 : ∀ i : grid5.Coords, EltTy.bits .f32 = 32 ∨ (Rect.block (s := S64x1) S64x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2x64x4096.size a ≤ S32x64x4096.size a
  hwx5_6 : ∀ i : grid5.Coords, EltTy.bits .f32 = 32 ∨ (Rect.block (s := S32x64x4096) S2x64x4096.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1x64x1.size a ≤ S2x64x1.size a
  hwx5_7 : ∀ i : grid5.Coords, EltTy.bits .f32 = 32 ∨ (Rect.block (s := S2x64x1) S1x64x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1x64x1.size a ≤ S2x64x1.size a
  hwx5_8 : ∀ i : grid5.Coords, EltTy.bits .f32 = 32 ∨ (Rect.block (s := S2x64x1) S1x64x1.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2x64x4096.size a ≤ S32x64x4096.size a
  hwx6_0 : ∀ i : grid6.Coords, EltTy.bits .f32 = 32 ∨ (Rect.block (s := S32x64x4096) S2x64x4096.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2x64x4096.size a ≤ S32x64x4096.size a
  hwx6_3 : ∀ i : grid6.Coords, EltTy.bits .f32 = 32 ∨ (Rect.block (s := S32x64x4096) S2x64x4096.size (cc6_transform_3 i) (hinb6_3 i)).WholeWords (EltTy.packing .f32)

variable [Facts₀]

def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf

abbrev win0_0 : Pipeline.Window sig grid0 :=
  Pipeline.Window.ofSpec (Memref.whole main_v0) S2x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S2x64x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S1x64x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_2) S1x64x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20_0) S2x64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37_0) S1x128x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37_1) S1x128x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v20_0) S2x64x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56_0) S2x64x4096.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v56_1) S1x64x1.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v56_2) S1x64x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v56_0) S2x64x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73_0) S1x128x1.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v73_1) S1x128x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v56_0) S2x64x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S128x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S64x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S64x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92_0) S2x64x4096.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v92_1) S1x64x1.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v92_2) S1x64x1.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v92_0) S2x64x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v108) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S2x64x4096.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S32x64x64x64 : Shape := ⟨4, ![32, 64, 64, 64]⟩
abbrev S128x64 : Shape := ⟨2, ![128, 64]⟩
abbrev S128x1 : Shape := ⟨2, ![128, 1]⟩
abbrev S64x128 : Shape := ⟨2, ![64, 128]⟩
abbrev S64x1 : Shape := ⟨2, ![64, 1]⟩
abbrev S64x32x64x64 : Shape := ⟨4, ![64, 32, 64, 64]⟩
abbrev S64x131072 : Shape := ⟨2, ![64, 131072]⟩
abbrev S2x128x1 : Shape := ⟨3, ![2, 128, 1]⟩
abbrev S64x16384 : Shape := ⟨2, ![64, 16384]⟩
abbrev S1x128x1 : Shape := ⟨3, ![1, 128, 1]⟩
abbrev S128x16384 : Shape := ⟨2, ![128, 16384]⟩
abbrev S128 : Shape := ⟨1, ![128]⟩
abbrev S_ : Shape := ⟨0, ![]⟩
abbrev S2x64x1 : Shape := ⟨3, ![2, 64, 1]⟩
abbrev S1x64x1 : Shape := ⟨3, ![1, 64, 1]⟩
abbrev S64 : Shape := ⟨1, ![64]⟩

abbrev nBuf : Space → Nat
  | .hbm => 182
  | .vmem => 68
  | .smem => 0
  | _ => 0

abbrev hbmTy0_0 (i : Nat) : BufTy := match i % 128 with
  | 0 => ⟨S32x64x64x64, .f32⟩
  | 1 => ⟨S128x64, .f32⟩
  | 2 => ⟨S128x1, .f32⟩
  | 3 => ⟨S128x1, .f32⟩
  | 4 => ⟨S64x128, .f32⟩
  | 5 => ⟨S64x1, .f32⟩
  | 6 => ⟨S64x1, .f32⟩
  | 7 => ⟨S128x64, .f32⟩
  | 8 => ⟨S128x1, .f32⟩
  | 9 => ⟨S128x1, .f32⟩
  | 10 => ⟨S64x128, .f32⟩
  | 11 => ⟨S64x1, .f32⟩
  | 12 => ⟨S64x1, .f32⟩
  | 13 => ⟨S128x64, .f32⟩
  | 14 => ⟨S128x1, .f32⟩
  | 15 => ⟨S128x1, .f32⟩
  | 16 => ⟨S64x128, .f32⟩
  | 17 => ⟨S64x1, .f32⟩
  | 18 => ⟨S64x1, .f32⟩
  | 19 => ⟨S64x32x64x64, .f32⟩
  | 20 => ⟨S64x131072, .f32⟩
  | 21 => ⟨S2x128x1, .f32⟩
  | 22 => ⟨S2x128x1, .f32⟩
  | 23 => ⟨S_, .f32⟩
  | 24 => ⟨S128x1, .f32⟩
  | 25 => ⟨S_, .f32⟩
  | 26 => ⟨S128x1, .f32⟩
  | 27 => ⟨S_, .f32⟩
  | 28 => ⟨S128x1, .f32⟩
  | 29 => ⟨S128x1, .f32⟩
  | 30 => ⟨S_, .f32⟩
  | 31 => ⟨S128x1, .f32⟩
  | 32 => ⟨S128x1, .f32⟩
  | 33 => ⟨S128x1, .f32⟩
  | 34 => ⟨S128x1, .f32⟩
  | 35 => ⟨S_, .f32⟩
  | 36 => ⟨S128x1, .f32⟩
  | 37 => ⟨S128x1, .f32⟩
  | 38 => ⟨S_, .f32⟩
  | 39 => ⟨S128x1, .f32⟩
  | 40 => ⟨S128x1, .f32⟩
  | 41 => ⟨S128x1, .f32⟩
  | 42 => ⟨S128x1, .f32⟩
  | 43 => ⟨S128x1, .f32⟩
  | 44 => ⟨S128x1, .f32⟩
  | 45 => ⟨S128x64, .f32⟩
  | 46 => ⟨S128x64, .f32⟩
  | 47 => ⟨S2x64x1, .f32⟩
  | 48 => ⟨S2x64x1, .f32⟩
  | 49 => ⟨S_, .f32⟩
  | 50 => ⟨S64x1, .f32⟩
  | 51 => ⟨S_, .f32⟩
  | 52 => ⟨S64x1, .f32⟩
  | 53 => ⟨S_, .f32⟩
  | 54 => ⟨S64x1, .f32⟩
  | 55 => ⟨S64x1, .f32⟩
  | 56 => ⟨S_, .f32⟩
  | 57 => ⟨S64x1, .f32⟩
  | 58 => ⟨S64x1, .f32⟩
  | 59 => ⟨S64x1, .f32⟩
  | 60 => ⟨S64x1, .f32⟩
  | 61 => ⟨S_, .f32⟩
  | 62 => ⟨S64x1, .f32⟩
  | 63 => ⟨S64x1, .f32⟩
  | 64 => ⟨S_, .f32⟩
  | 65 => ⟨S64x1, .f32⟩
  | 66 => ⟨S64x1, .f32⟩
  | 67 => ⟨S64x1, .f32⟩
  | 68 => ⟨S64x1, .f32⟩
  | 69 => ⟨S64x1, .f32⟩
  | 70 => ⟨S64x1, .f32⟩
  | 71 => ⟨S64x128, .f32⟩
  | 72 => ⟨S64x128, .f32⟩
  | 73 => ⟨S64x131072, .f32⟩
  | 74 => ⟨S2x128x1, .f32⟩
  | 75 => ⟨S2x128x1, .f32⟩
  | 76 => ⟨S_, .f32⟩
  | 77 => ⟨S128x1, .f32⟩
  | 78 => ⟨S_, .f32⟩
  | 79 => ⟨S128x1, .f32⟩
  | 80 => ⟨S_, .f32⟩
  | 81 => ⟨S128x1, .f32⟩
  | 82 => ⟨S128x1, .f32⟩
  | 83 => ⟨S_, .f32⟩
  | 84 => ⟨S128x1, .f32⟩
  | 85 => ⟨S128x1, .f32⟩
  | 86 => ⟨S128x1, .f32⟩
  | 87 => ⟨S128x1, .f32⟩
  | 88 => ⟨S_, .f32⟩
  | 89 => ⟨S128x1, .f32⟩
  | 90 => ⟨S128x1, .f32⟩
  | 91 => ⟨S_, .f32⟩
  | 92 => ⟨S128x1, .f32⟩
  | 93 => ⟨S128x1, .f32⟩
  | 94 => ⟨S128x1, .f32⟩
  | 95 => ⟨S128x1, .f32⟩
  | 96 => ⟨S128x1, .f32⟩
  | 97 => ⟨S128x1, .f32⟩
  | 98 => ⟨S128x64, .f32⟩
  | 99 => ⟨S128x64, .f32⟩
  | 100 => ⟨S2x64x1, .f32⟩
  | 101 => ⟨S2x64x1, .f32⟩
  | 102 => ⟨S_, .f32⟩
  | 103 => ⟨S64x1, .f32⟩
  | 104 => ⟨S_, .f32⟩
  | 105 => ⟨S64x1, .f32⟩
  | 106 => ⟨S_, .f32⟩
  | 107 => ⟨S64x1, .f32⟩
  | 108 => ⟨S64x1, .f32⟩
  | 109 => ⟨S_, .f32⟩
  | 110 => ⟨S64x1, .f32⟩
  | 111 => ⟨S64x1, .f32⟩
  | 112 => ⟨S64x1, .f32⟩
  | 113 => ⟨S64x1, .f32⟩
  | 114 => ⟨S_, .f32⟩
  | 115 => ⟨S64x1, .f32⟩
  | 116 => ⟨S64x1, .f32⟩
  | 117 => ⟨S_, .f32⟩
  | 118 => ⟨S64x1, .f32⟩
  | 119 => ⟨S64x1, .f32⟩
  | 120 => ⟨S64x1, .f32⟩
  | 121 => ⟨S64x1, .f32⟩
  | 122 => ⟨S64x1, .f32⟩
  | 123 => ⟨S64x1, .f32⟩
  | 124 => ⟨S64x128, .f32⟩
  | 125 => ⟨S64x128, .f32⟩
  | 126 => ⟨S64x131072, .f32⟩
  | 127 => ⟨S2x128x1, .f32⟩
  | _ => ⟨S32x64x64x64, .f32⟩

abbrev hbmTy0_1 (i : Nat) : BufTy := match i % 128 with
  | 0 => ⟨S2x128x1, .f32⟩
  | 1 => ⟨S_, .f32⟩
  | 2 => ⟨S128x1, .f32⟩
  | 3 => ⟨S_, .f32⟩
  | 4 => ⟨S128x1, .f32⟩
  | 5 => ⟨S_, .f32⟩
  | 6 => ⟨S128x1, .f32⟩
  | 7 => ⟨S128x1, .f32⟩
  | 8 => ⟨S_, .f32⟩
  | 9 => ⟨S128x1, .f32⟩
  | 10 => ⟨S128x1, .f32⟩
  | 11 => ⟨S128x1, .f32⟩
  | 12 => ⟨S128x1, .f32⟩
  | 13 => ⟨S_, .f32⟩
  | 14 => ⟨S128x1, .f32⟩
  | 15 => ⟨S128x1, .f32⟩
  | 16 => ⟨S_, .f32⟩
  | 17 => ⟨S128x1, .f32⟩
  | 18 => ⟨S128x1, .f32⟩
  | 19 => ⟨S128x1, .f32⟩
  | 20 => ⟨S128x1, .f32⟩
  | 21 => ⟨S128x1, .f32⟩
  | 22 => ⟨S128x1, .f32⟩
  | 23 => ⟨S128x64, .f32⟩
  | 24 => ⟨S128x64, .f32⟩
  | 25 => ⟨S2x64x1, .f32⟩
  | 26 => ⟨S2x64x1, .f32⟩
  | 27 => ⟨S_, .f32⟩
  | 28 => ⟨S64x1, .f32⟩
  | 29 => ⟨S_, .f32⟩
  | 30 => ⟨S64x1, .f32⟩
  | 31 => ⟨S_, .f32⟩
  | 32 => ⟨S64x1, .f32⟩
  | 33 => ⟨S64x1, .f32⟩
  | 34 => ⟨S_, .f32⟩
  | 35 => ⟨S64x1, .f32⟩
  | 36 => ⟨S64x1, .f32⟩
  | 37 => ⟨S64x1, .f32⟩
  | 38 => ⟨S64x1, .f32⟩
  | 39 => ⟨S_, .f32⟩
  | 40 => ⟨S64x1, .f32⟩
  | 41 => ⟨S64x1, .f32⟩
  | 42 => ⟨S_, .f32⟩
  | 43 => ⟨S64x1, .f32⟩
  | 44 => ⟨S64x1, .f32⟩
  | 45 => ⟨S64x1, .f32⟩
  | 46 => ⟨S64x1, .f32⟩
  | 47 => ⟨S64x1, .f32⟩
  | 48 => ⟨S64x1, .f32⟩
  | 49 => ⟨S64x128, .f32⟩
  | 50 => ⟨S64x128, .f32⟩
  | 51 => ⟨S64x131072, .f32⟩
  | 52 => ⟨S64x32x64x64, .f32⟩
  | 53 => ⟨S32x64x64x64, .f32⟩
  | _ => ⟨S32x64x64x64, .f32⟩

abbrev hbmTy (i : Nat) : BufTy := match i / 128 with
  | 0 => hbmTy0_0 i
  | 1 => hbmTy0_1 i
  | _ => ⟨S32x64x64x64, .f32⟩

abbrev bufTy : (tb : Table) → Fin (tcTables nBuf tb) → BufTy
  | .hbm, ⟨i, _⟩ => hbmTy i
  | .local _ .vmem, ⟨0, _⟩ => ⟨S64x16384, .f32⟩
  | .local _ .vmem, ⟨1, _⟩ => ⟨S64x16384, .f32⟩
  | .local _ .vmem, ⟨2, _⟩ => ⟨S128x64, .f32⟩
  | .local _ .vmem, ⟨3, _⟩ => ⟨S1x128x1, .f32⟩
  | .local _ .vmem, ⟨4, _⟩ => ⟨S1x128x1, .f32⟩
  | .local _ .vmem, ⟨5, _⟩ => ⟨S1x128x1, .f32⟩
  | .local _ .vmem, ⟨6, _⟩ => ⟨S1x128x1, .f32⟩
  | .local _ .vmem, ⟨7, _⟩ => ⟨S64x16384, .f32⟩
  | .local _ .vmem, ⟨8, _⟩ => ⟨S64x16384, .f32⟩
  | .local _ .vmem, ⟨9, _⟩ => ⟨S128x64, .f32⟩
  | .local _ .vmem, ⟨10, _⟩ => ⟨S128x1, .f32⟩
  | .local _ .vmem, ⟨11, _⟩ => ⟨S64x128, .f32⟩
  | .local _ .vmem, ⟨12, _⟩ => ⟨S1x64x1, .f32⟩
  | .local _ .vmem, ⟨13, _⟩ => ⟨S1x64x1, .f32⟩
  | .local _ .vmem, ⟨14, _⟩ => ⟨S1x64x1, .f32⟩
  | .local _ .vmem, ⟨15, _⟩ => ⟨S1x64x1, .f32⟩
  | .local _ .vmem, ⟨16, _⟩ => ⟨S64x16384, .f32⟩
  | .local _ .vmem, ⟨17, _⟩ => ⟨S64x16384, .f32⟩
  | .local _ .vmem, ⟨18, _⟩ => ⟨S128x64, .f32⟩
  | .local _ .vmem, ⟨19, _⟩ => ⟨S128x1, .f32⟩
  | .local _ .vmem, ⟨20, _⟩ => ⟨S64x128, .f32⟩
  | .local _ .vmem, ⟨21, _⟩ => ⟨S64x1, .f32⟩
  | .local _ .vmem, ⟨22, _⟩ => ⟨S128x64, .f32⟩
  | .local _ .vmem, ⟨23, _⟩ => ⟨S64x16384, .f32⟩
  | .local _ .vmem, ⟨24, _⟩ => ⟨S64x16384, .f32⟩
  | .local _ .vmem, ⟨25, _⟩ => ⟨S1x128x1, .f32⟩
  | .local _ .vmem, ⟨26, _⟩ => ⟨S1x128x1, .f32⟩
  | .local _ .vmem, ⟨27, _⟩ => ⟨S1x128x1, .f32⟩
  | .local _ .vmem, ⟨28, _⟩ => ⟨S1x128x1, .f32⟩
  | .local _ .vmem, ⟨29, _⟩ => ⟨S64x16384, .f32⟩
  | .local _ .vmem, ⟨30, _⟩ => ⟨S64x16384, .f32⟩
  | .local _ .vmem, ⟨31, _⟩ => ⟨S128x64, .f32⟩
  | .local _ .vmem, ⟨32, _⟩ => ⟨S128x1, .f32⟩
  | .local _ .vmem, ⟨33, _⟩ => ⟨S64x128, .f32⟩
  | .local _ .vmem, ⟨34, _⟩ => ⟨S1x64x1, .f32⟩
  | .local _ .vmem, ⟨35, _⟩ => ⟨S1x64x1, .f32⟩
  | .local _ .vmem, ⟨36, _⟩ => ⟨S1x64x1, .f32⟩
  | .local _ .vmem, ⟨37, _⟩ => ⟨S1x64x1, .f32⟩
  | .local _ .vmem, ⟨38, _⟩ => ⟨S64x16384, .f32⟩
  | .local _ .vmem, ⟨39, _⟩ => ⟨S64x16384, .f32⟩
  | .local _ .vmem, ⟨40, _⟩ => ⟨S128x64, .f32⟩
  | .local _ .vmem, ⟨41, _⟩ => ⟨S128x1, .f32⟩
  | .local _ .vmem, ⟨42, _⟩ => ⟨S64x128, .f32⟩
  | .local _ .vmem, ⟨43, _⟩ => ⟨S64x1, .f32⟩
  | .local _ .vmem, ⟨44, _⟩ => ⟨S128x64, .f32⟩
  | .local _ .vmem, ⟨45, _⟩ => ⟨S64x16384, .f32⟩
  | .local _ .vmem, ⟨46, _⟩ => ⟨S64x16384, .f32⟩
  | .local _ .vmem, ⟨47, _⟩ => ⟨S1x128x1, .f32⟩
  | .local _ .vmem, ⟨48, _⟩ => ⟨S1x128x1, .f32⟩
  | .local _ .vmem, ⟨49, _⟩ => ⟨S1x128x1, .f32⟩
  | .local _ .vmem, ⟨50, _⟩ => ⟨S1x128x1, .f32⟩
  | .local _ .vmem, ⟨51, _⟩ => ⟨S64x16384, .f32⟩
  | .local _ .vmem, ⟨52, _⟩ => ⟨S64x16384, .f32⟩
  | .local _ .vmem, ⟨53, _⟩ => ⟨S128x64, .f32⟩
  | .local _ .vmem, ⟨54, _⟩ => ⟨S128x1, .f32⟩
  | .local _ .vmem, ⟨55, _⟩ => ⟨S64x128, .f32⟩
  | .local _ .vmem, ⟨56, _⟩ => ⟨S1x64x1, .f32⟩
  | .local _ .vmem, ⟨57, _⟩ => ⟨S1x64x1, .f32⟩
  | .local _ .vmem, ⟨58, _⟩ => ⟨S1x64x1, .f32⟩
  | .local _ .vmem, ⟨59, _⟩ => ⟨S1x64x1, .f32⟩
  | .local _ .vmem, ⟨60, _⟩ => ⟨S64x16384, .f32⟩
  | .local _ .vmem, ⟨61, _⟩ => ⟨S64x16384, .f32⟩
  | .local _ .vmem, ⟨62, _⟩ => ⟨S128x64, .f32⟩
  | .local _ .vmem, ⟨63, _⟩ => ⟨S128x1, .f32⟩
  | .local _ .vmem, ⟨64, _⟩ => ⟨S64x128, .f32⟩
  | .local _ .vmem, ⟨65, _⟩ => ⟨S64x1, .f32⟩
  | .local _ .vmem, ⟨66, _⟩ => ⟨S64x16384, .f32⟩
  | .local _ .vmem, ⟨67, _⟩ => ⟨S64x16384, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_cst : Ref sig .tc := ⟨.hbm, 23, rfl⟩
abbrev main_v3 : Ref sig .tc := ⟨.hbm, 24, rfl⟩
abbrev main_cst_0 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21_0 : Ref sig .tc := ⟨.hbm, 47, rfl⟩
abbrev main_v21_1 : Ref sig .tc := ⟨.hbm, 48, rfl⟩
abbrev main_cst_5 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_v25 : Ref sig .tc := ⟨.hbm, 55, rfl⟩
abbrev main_cst_8 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40_0 : Ref sig .tc := ⟨.hbm, 73, rfl⟩
abbrev main_v40_1 : Ref sig .tc := ⟨.hbm, 74, rfl⟩
abbrev main_v40_2 : Ref sig .tc := ⟨.hbm, 75, rfl⟩
abbrev main_cst_11 : Ref sig .tc := ⟨.hbm, 76, rfl⟩
abbrev main_v41 : Ref sig .tc := ⟨.hbm, 77, rfl⟩
abbrev main_cst_12 : Ref sig .tc := ⟨.hbm, 78, rfl⟩
abbrev main_v42 : Ref sig .tc := ⟨.hbm, 79, rfl⟩
abbrev main_cst_13 : Ref sig .tc := ⟨.hbm, 80, rfl⟩
abbrev main_v43 : Ref sig .tc := ⟨.hbm, 81, rfl⟩
abbrev main_v44 : Ref sig .tc := ⟨.hbm, 82, rfl⟩
abbrev main_cst_14 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_15 : Ref sig .tc := ⟨.hbm, 88, rfl⟩
abbrev main_v49 : Ref sig .tc := ⟨.hbm, 89, rfl⟩
abbrev main_v50 : Ref sig .tc := ⟨.hbm, 90, rfl⟩
abbrev main_cst_16 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59_0 : Ref sig .tc := ⟨.hbm, 100, rfl⟩
abbrev main_v59_1 : Ref sig .tc := ⟨.hbm, 101, rfl⟩
abbrev main_cst_17 : Ref sig .tc := ⟨.hbm, 102, rfl⟩
abbrev main_v60 : Ref sig .tc := ⟨.hbm, 103, rfl⟩
abbrev main_cst_18 : Ref sig .tc := ⟨.hbm, 104, rfl⟩
abbrev main_v61 : Ref sig .tc := ⟨.hbm, 105, rfl⟩
abbrev main_cst_19 : Ref sig .tc := ⟨.hbm, 106, rfl⟩
abbrev main_v62 : Ref sig .tc := ⟨.hbm, 107, rfl⟩
abbrev main_v63 : Ref sig .tc := ⟨.hbm, 108, rfl⟩
abbrev main_cst_20 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78_0 : Ref sig .tc := ⟨.hbm, 126, rfl⟩
abbrev main_v78_1 : Ref sig .tc := ⟨.hbm, 127, rfl⟩
abbrev main_v78_2 : Ref sig .tc := ⟨.hbm, 128, rfl⟩
abbrev main_cst_23 : Ref sig .tc := ⟨.hbm, 129, rfl⟩
abbrev main_v79 : Ref sig .tc := ⟨.hbm, 130, rfl⟩
abbrev main_cst_24 : Ref sig .tc := ⟨.hbm, 131, rfl⟩
abbrev main_v80 : Ref sig .tc := ⟨.hbm, 132, rfl⟩
abbrev main_cst_25 : Ref sig .tc := ⟨.hbm, 133, rfl⟩
abbrev main_v81 : Ref sig .tc := ⟨.hbm, 134, rfl⟩
abbrev main_v82 : Ref sig .tc := ⟨.hbm, 135, rfl⟩
abbrev main_cst_26 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_27 : Ref sig .tc := ⟨.hbm, 141, rfl⟩
abbrev main_v87 : Ref sig .tc := ⟨.hbm, 142, rfl⟩
abbrev main_v88 : Ref sig .tc := ⟨.hbm, 143, rfl⟩
abbrev main_cst_28 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97_0 : Ref sig .tc := ⟨.hbm, 153, rfl⟩
abbrev main_v97_1 : Ref sig .tc := ⟨.hbm, 154, rfl⟩
abbrev main_cst_29 : Ref sig .tc := ⟨.hbm, 155, rfl⟩
abbrev main_v98 : Ref sig .tc := ⟨.hbm, 156, rfl⟩
abbrev main_cst_30 : Ref sig .tc := ⟨.hbm, 157, rfl⟩
abbrev main_v99 : Ref sig .tc := ⟨.hbm, 158, rfl⟩
abbrev main_cst_31 : Ref sig .tc := ⟨.hbm, 159, rfl⟩
abbrev main_v100 : Ref sig .tc := ⟨.hbm, 160, rfl⟩
abbrev main_v101 : Ref sig .tc := ⟨.hbm, 161, rfl⟩
abbrev main_cst_32 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_33 : Ref sig .tc := ⟨.hbm, 167, rfl⟩
abbrev main_v106 : Ref sig .tc := ⟨.hbm, 168, rfl⟩
abbrev main_v107 : Ref sig .tc := ⟨.hbm, 169, rfl⟩
abbrev main_cst_34 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg6_1 : Ref sig .tc := ⟨.vmem, 46, rfl⟩
abbrev cc4_stg7_0 : Ref sig .tc := ⟨.vmem, 47, rfl⟩
abbrev cc4_stg7_1 : Ref sig .tc := ⟨.vmem, 48, rfl⟩
abbrev cc4_stg8_0 : Ref sig .tc := ⟨.vmem, 49, rfl⟩
abbrev cc4_stg8_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem6_1 : DmaSem sig := 46
abbrev cc4_sem7_0 : DmaSem sig := 47
abbrev cc4_sem7_1 : DmaSem sig := 48
abbrev cc4_sem8_0 : DmaSem sig := 49
abbrev cc4_sem8_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem5_1 : DmaSem sig := 67

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S64x16384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x128x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x128x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x16384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x64x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x64x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S64x16384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S64x16384 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x128x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S1x128x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S64x16384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S128x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 2 → Memref sig .tc .vmem S1x64x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S1x64x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage6_0 : Fin 2 → Memref sig .tc .vmem S64x16384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S128x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 1 → Memref sig .tc .vmem S64x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 2 → Memref sig .tc .vmem S64x16384 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

class Facts₀ : Prop where
  transposes_S32x64x64x64_S64x32x64x64_1_0_2_3 : S32x64x64x64.Transposes [1, 0, 2, 3] S64x32x64x64
  shapeCasts_S64x32x64x64_S64x131072 : S64x32x64x64.ShapeCasts S64x131072
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S128x64_S128x64_0_0 : ∀ a, (![0, 0] : Fin 2 → Nat) a + S128x64.size a ≤ S128x64.size a
  h_S128x64 : 0 < S128x64.numel
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  reduces_S128x16384_S128 : S128x16384.Reduces [1] S128
  shapeCasts_S128_S128x1 : S128.ShapeCasts S128x1
  reducesTo_S2x128x1_S128x1_d0 : S2x128x1.ReducesTo [0] S128x1
  h_S_ : 0 < S_.numel
  bcast_S_S128x1 : S_.BroadcastsInDim S128x1 (![] : Fin 0 → Fin S128x1.rank)
  bcast_S128x1_S128x64_0_1 : S128x1.BroadcastsInDim S128x64 (![0, 1] : Fin 2 → Fin S128x64.rank)
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  inb_S64x128_S64x128_0_0 : ∀ a, (![0, 0] : Fin 2 → Nat) a + S64x128.size a ≤ S64x128.size a
  h_S64x128 : 0 < S64x128.numel
  reduces_S64x16384_S64 : S64x16384.Reduces [1] S64
  shapeCasts_S64_S64x1 : S64.ShapeCasts S64x1
  reducesTo_S2x64x1_S64x1_d0 : S2x64x1.ReducesTo [0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x16384 : S64x1.Broadcasts S64x16384
  shapeCasts_S64x131072_S64x32x64x64 : S64x131072.ShapeCasts S64x32x64x64
  transposes_S64x32x64x64_S32x64x64x64_1_0_2_3 : S64x32x64x64.Transposes [1, 0, 2, 3] S32x64x64x64
  dot_S128x64_S64x16384_S128x16384_1_0_0_1_n_n_wf : DotDims.WF S128x64 S64x16384 S128x16384 [1] [0] [0] [1] [] []
  dot_S64x128_S128x16384_S64x16384_1_0_0_1_n_n_wf : DotDims.WF S64x128 S128x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S64x131072.size a
  hwx0_0 : ∀ i : grid0.Coords, EltTy.bits .f32 = 32 ∨ (Rect.block (s := S64x131072) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x128x1.size a
  hwx0_2 : ∀ i : grid0.Coords, EltTy.bits .f32 = 32 ∨ (Rect.block (s := S2x128x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x16384.size a ≤ S64x131072.size a
  hwx1_0 : ∀ i : grid1.Coords, EltTy.bits .f32 = 32 ∨ (Rect.block (s := S64x131072) S64x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x1.size a ≤ S2x64x1.size a
  hwx1_4 : ∀ i : grid1.Coords, EltTy.bits .f32 = 32 ∨ (Rect.block (s := S2x64x1) S1x64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1.size a ≤ S2x64x1.size a
  hwx1_5 : ∀ i : grid1.Coords, EltTy.bits .f32 = 32 ∨ (Rect.block (s := S2x64x1) S1x64x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x16384.size a ≤ S64x131072.size a
  hwx2_0 : ∀ i : grid2.Coords, EltTy.bits .f32 = 32 ∨ (Rect.block (s := S64x131072) S64x16384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x16384.size a ≤ S64x131072.size a
  hwx2_6 : ∀ i : grid2.Coords, EltTy.bits .f32 = 32 ∨ (Rect.block (s := S64x131072) S64x16384.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x128x1.size a ≤ S2x128x1.size a
  hwx2_7 : ∀ i : grid2.Coords, EltTy.bits .f32 = 32 ∨ (Rect.block (s := S2x128x1) S1x128x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x128x1.size a ≤ S2x128x1.size a
  hwx2_8 : ∀ i : grid2.Coords, EltTy.bits .f32 = 32 ∨ (Rect.block (s := S2x128x1) S1x128x1.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x16384.size a ≤ S64x131072.size a
  hwx3_0 : ∀ i : grid3.Coords, EltTy.bits .f32 = 32 ∨ (Rect.block (s := S64x131072) S64x16384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x64x1.size a ≤ S2x64x1.size a
  hwx3_4 : ∀ i : grid3.Coords, EltTy.bits .f32 = 32 ∨ (Rect.block (s := S2x64x1) S1x64x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x64x1.size a ≤ S2x64x1.size a
  hwx3_5 : ∀ i : grid3.Coords, EltTy.bits .f32 = 32 ∨ (Rect.block (s := S2x64x1) S1x64x1.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x16384.size a ≤ S64x131072.size a
  hwx4_0 : ∀ i : grid4.Coords, EltTy.bits .f32 = 32 ∨ (Rect.block (s := S64x131072) S64x16384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x16384.size a ≤ S64x131072.size a
  hwx4_6 : ∀ i : grid4.Coords, EltTy.bits .f32 = 32 ∨ (Rect.block (s := S64x131072) S64x16384.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1x128x1.size a ≤ S2x128x1.size a
  hwx4_7 : ∀ i : grid4.Coords, EltTy.bits .f32 = 32 ∨ (Rect.block (s := S2x128x1) S1x128x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x128x1.size a ≤ S2x128x1.size a
  hwx4_8 : ∀ i : grid4.Coords, EltTy.bits .f32 = 32 ∨ (Rect.block (s := S2x128x1) S1x128x1.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S64x16384.size a ≤ S64x131072.size a
  hwx5_0 : ∀ i : grid5.Coords, EltTy.bits .f32 = 32 ∨ (Rect.block (s := S64x131072) S64x16384.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x1.size a ≤ S128x1.size a
  hwx5_2 : ∀ i : grid5.Coords, EltTy.bits .f32 = 32 ∨ (Rect.block (s := S128x1) S128x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x64x1.size a ≤ S2x64x1.size a
  hwx5_4 : ∀ i : grid5.Coords, EltTy.bits .f32 = 32 ∨ (Rect.block (s := S2x64x1) S1x64x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1x64x1.size a ≤ S2x64x1.size a
  hwx5_5 : ∀ i : grid5.Coords, EltTy.bits .f32 = 32 ∨ (Rect.block (s := S2x64x1) S1x64x1.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S64x16384.size a ≤ S64x131072.size a
  hwx6_0 : ∀ i : grid6.Coords, EltTy.bits .f32 = 32 ∨ (Rect.block (s := S64x131072) S64x16384.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x1.size a ≤ S128x1.size a
  hwx6_2 : ∀ i : grid6.Coords, EltTy.bits .f32 = 32 ∨ (Rect.block (s := S128x1) S128x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x1.size a ≤ S64x1.size a
  hwx6_4 : ∀ i : grid6.Coords, EltTy.bits .f32 = 32 ∨ (Rect.block (s := S64x1) S64x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S64x16384.size a ≤ S64x131072.size a
  hwx6_5 : ∀ i : grid6.Coords, EltTy.bits .f32 = 32 ∨ (Rect.block (s := S64x131072) S64x16384.size (cc6_transform_5 i) (hinb6_5 i)).WholeWords (EltTy.packing .f32)

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def dot_S64x128_S128x16384_S64x16384_1_0_0_1_n_n : DotDims S64x128 S128x16384 S64x16384 where
  lhsContracting := [1]
  rhsContracting := [0]
  lhsNonContracting := [0]
  rhsNonContracting := [1]
  lhsBatch := []
  rhsBatch := []
  wf := dot_S64x128_S128x16384_S64x16384_1_0_0_1_n_n_wf

abbrev win0_0 : Pipeline.Window sig grid0 :=
  Pipeline.Window.ofSpec (Memref.whole main_v1) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S64x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S1x64x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S1x64x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1) S64x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S64x16384.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S1x128x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v40_2) S1x128x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v40_0) S64x16384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59_0) S1x64x1.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v59_1) S1x64x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v40_0) S64x16384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S64x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78_0) S64x16384.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v78_1) S1x128x1.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v78_2) S1x128x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v78_0) S64x16384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S128x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97_0) S1x64x1.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v97_1) S1x64x1.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v78_0) S64x16384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S128x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v115) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v113) S64x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v116) S64x16384.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== Proof.RunK.lean ====
/-
  The run of the idealized kernel with its result named: every weakly fair execution from the launch memory
  terminates without a fault, the argument arrays end as launched, and the result buffer ends at the last
  boundary's contents — the fold of the host stretches and of the regions' write-backs from the launch memory.
-/
import proofs.«126831_g2000503633499865_pallasbulk_555_4_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the frame's launch over the segments, with the last thread state read at the result buffer too. -/
theorem run : θ_run defs (onTc (τ := τ) (main (F := F))) ⟨m, fun _ => 0, ρ⟩ (fun r => ∀ c : Dev nD,
      r.2.mem ((c.tc : Thread nD τ).loc main_v110) = W15 m ρ c (Proc.devRef .tc main_v110)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v110 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c)⟩)

end Cert.KernelIdeal.RunVal

end
-- ==== Proof.RunR.lean ====
/-
  The run of the idealized reference with its result named: every weakly fair execution from the launch memory
  terminates without a fault, the argument arrays end as launched, and the result buffer ends at the last
  boundary's contents — the fold of the host stretches and of the regions' write-backs from the launch memory.
-/
import proofs.«126831_g2000503633499865_pallasbulk_555_4_alg».proof.Proof.Gen.ReferenceIdeal.Frame

set_option maxRecDepth 16384

noncomputable section

namespace Cert.ReferenceIdeal.RunVal

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the frame's launch over the segments, with the last thread state read at the result buffer too. -/
theorem run : θ_run defs (onTc (τ := τ) (main (F := F))) ⟨m, fun _ => 0, ρ⟩ (fun r => ∀ c : Dev nD,
      r.2.mem ((c.tc : Thread nD τ).loc main_v118) = W15 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v118 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c)⟩)

end Cert.ReferenceIdeal.RunVal

end
-- ==== Proof.NetSpec.lean ====
/-
  The mathematics the two programs share, over the extended reals.

  One block of the network takes an activation A (input channels x pixels) and computes
    y1 = W1 A,  (s1, t1) = the batch-normalisation scale and shift of y1 (from its per-channel sum and sum of squares over
    all pixels),  z1 = lrelu ((W1 · s1) A + t1),  y2 = W2 z1,  (s2, t2) likewise from y2,
  and hands on lrelu (s2 · y2 + t2). The kernel applies the second scale AFTER the product, y2 · s2; the reference folds it
  into the weights first, (W2 · s2) z1. The two agree because a real factor moves across a finite sum of products of reals
  — a law that fails at the infinities, so every quantity is first shown to be a real number: finite inputs stay finite
  because the variance is clamped at zero and a positive epsilon is added before the reciprocal square root.
-/
import Idealize.ShloMosaic.PureOps.Ideal
import Idealize.ShloMosaic.PureOps.Ideal.Laws

noncomputable section

open scoped BigOperators

namespace Cert.Net

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  rcases max_choice a b with h | h <;> rw [h] <;> assumption

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  choose! g hg using h
  exact ⟨∑ i ∈ s, g i, by rw [coe_sum]; exact Finset.sum_congr rfl hg⟩

/-- A real factor moves across a finite sum of products of reals. -/
theorem scale_sum {ι : Type*} [Fintype ι] (a w : ι → EReal) (n : EReal) (ha : ∀ k, IsReal (a k))
    (hw : ∀ k, IsReal (w k)) (hn : IsReal n) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

/-! ## The constants: the pixel count, the epsilon, the rectifier's slope -/

/-- What the proofs use of the three float constants: the count is a nonzero real, the epsilon a positive real, the slope a
    real. -/
structure Consts (N eps slope : EReal) : Prop where
  hN : ∃ r : ℝ, r ≠ 0 ∧ N = (r : EReal)
  heps : ∃ r : ℝ, 0 < r ∧ eps = (r : EReal)
  hslope : IsReal slope

section
variable (N eps slope : EReal)

/-- The leaky rectifier: the larger of z and slope · z. -/
def lrelu (z : EReal) : EReal := max z (slope * z)

/-- The batch-normalisation scale of a channel from its sum and sum of squares over N pixels:
    gamma / sqrt (max (ssq / N - (sum / N)², 0) + eps). -/
def scaleOf (sum ssq g : EReal) : EReal :=
  g * Ideal.rsqrt (max (Ideal.div ssq N - Ideal.div sum N * Ideal.div sum N) 0 + eps)

/-- The shift: beta - mean · scale. -/
def shiftOf (sum ssq g b : EReal) : EReal := b - Ideal.div sum N * scaleOf N eps sum ssq g

variable {N eps slope}

theorem lrelu_real (h : Consts N eps slope) {z : EReal} (hz : IsReal z) : IsReal (lrelu slope z) :=
  hz.max (h.hslope.mul hz)

theorem div_real (h : Consts N eps slope) {x : EReal} (hx : IsReal x) : IsReal (Ideal.div x N) := by
  obtain ⟨r, hr, rfl⟩ := h.hN
  rw [Ideal.div_coe hr]
  exact hx.mul (IsReal.coe _)

theorem rsqrt_real {x : ℝ} (hx : 0 < x) : IsReal (Ideal.rsqrt (x : EReal)) := by
  rw [Ideal.rsqrt_coe, if_neg (not_lt.mpr hx.le), if_neg hx.ne']
  exact IsReal.coe _

theorem scaleOf_real (h : Consts N eps slope) {sum ssq g : EReal} (hs : IsReal sum) (hq : IsReal ssq) (hg : IsReal g) :
    IsReal (scaleOf N eps sum ssq g) := by
  unfold scaleOf
  refine hg.mul ?_
  obtain ⟨v, hv⟩ := ((div_real h hq).sub ((div_real h hs).mul (div_real h hs)))
  obtain ⟨e, he, rfl⟩ := h.heps
  rw [hv]
  have : max ((v : EReal)) 0 + (e : EReal) = ((max v 0 + e : ℝ) : EReal) := by
    rw [EReal.coe_add, EReal.coe_strictMono.monotone.map_max, EReal.coe_zero]
  rw [this]
  exact rsqrt_real (by have := le_max_right v 0; linarith)

theorem shiftOf_real (h : Consts N eps slope) {sum ssq g b : EReal} (hs : IsReal sum) (hq : IsReal ssq) (hg : IsReal g)
    (hb : IsReal b) : IsReal (shiftOf N eps sum ssq g b) :=
  hb.sub ((div_real h hs).mul (scaleOf_real h hs hq hg))

end

/-! ## One block -/

section Block
variable {P K C D : Type} [Fintype P] [Fintype K] [Fintype C] [Fintype D]
variable (N eps slope : EReal)

/-- A 1x1 convolution: a matrix product over the channel axis, pixel by pixel. -/
def conv {C K : Type} [Fintype K] (W : C → K → EReal) (A : K → P → EReal) (c : C) (x : P) : EReal := ∑ k, W c k * A k x

/-- The per-channel sum over all pixels. -/
def tot {C : Type} (Y : C → P → EReal) (c : C) : EReal := ∑ x, Y c x

/-- The per-channel sum of squares over all pixels. -/
def tot2 {C : Type} (Y : C → P → EReal) (c : C) : EReal := ∑ x, Y c x * Y c x

/-- The scale of a layer's batch normalisation from its pre-normalisation output. -/
def bnScale {C : Type} (Y : C → P → EReal) (g : C → EReal) (c : C) : EReal := scaleOf N eps (tot Y c) (tot2 Y c) (g c)

/-- The shift of a layer's batch normalisation. -/
def bnShift {C : Type} (Y : C → P → EReal) (g b : C → EReal) (c : C) : EReal := shiftOf N eps (tot Y c) (tot2 Y c) (g c) (b c)

/-- The first layer of a block with its normalisation folded into the weights and the rectifier applied. -/
def layer1 (W1 : C → K → EReal) (g1 b1 : C → EReal) (A : K → P → EReal) (c : C) (x : P) : EReal :=
  lrelu slope (conv (fun c k => W1 c k * bnScale N eps (conv W1 A) g1 c) A c x + bnShift N eps (conv W1 A) g1 b1 c)

/-- The second layer's output before its normalisation. -/
def pre2 (W1 : C → K → EReal) (g1 b1 : C → EReal) (W2 : D → C → EReal) (A : K → P → EReal) : D → P → EReal :=
  conv W2 (layer1 N eps slope W1 g1 b1 A)

/-- What the block hands on, the scale applied after the product (the kernel's form). -/
def blockOutK (W1 : C → K → EReal) (g1 b1 : C → EReal) (W2 : D → C → EReal) (g2 b2 : D → EReal) (A : K → P → EReal)
    (d : D) (x : P) : EReal :=
  lrelu slope (pre2 N eps slope W1 g1 b1 W2 A d x * bnScale N eps (pre2 N eps slope W1 g1 b1 W2 A) g2 d
    + bnShift N eps (pre2 N eps slope W1 g1 b1 W2 A) g2 b2 d)

/-- What the block hands on, the scale folded into the second layer's weights (the reference's form). -/
def blockOutR (W1 : C → K → EReal) (g1 b1 : C → EReal) (W2 : D → C → EReal) (g2 b2 : D → EReal) (A : K → P → EReal)
    (d : D) (x : P) : EReal :=
  lrelu slope (conv (fun d c => W2 d c * bnScale N eps (pre2 N eps slope W1 g1 b1 W2 A) g2 d)
      (layer1 N eps slope W1 g1 b1 A) d x
    + bnShift N eps (pre2 N eps slope W1 g1 b1 W2 A) g2 b2 d)

variable {N eps slope}

theorem conv_real {C K : Type} [Fintype K] {W : C → K → EReal} {A : K → P → EReal} (hW : ∀ c k, IsReal (W c k))
    (hA : ∀ k x, IsReal (A k x)) (c : C) (x : P) : IsReal (conv W A c x) :=
  IsReal.sum _ _ fun k _ => (hW c k).mul (hA k x)

theorem tot_real {C : Type} {Y : C → P → EReal} (hY : ∀ c x, IsReal (Y c x)) (c : C) : IsReal (tot Y c) :=
  IsReal.sum _ _ fun x _ => hY c x

theorem tot2_real {C : Type} {Y : C → P → EReal} (hY : ∀ c x, IsReal (Y c x)) (c : C) : IsReal (tot2 Y c) :=
  IsReal.sum _ _ fun x _ => (hY c x).mul (hY c x)

theorem bnScale_real (h : Consts N eps slope) {C : Type} {Y : C → P → EReal} {g : C → EReal} (hY : ∀ c x, IsReal (Y c x))
    (hg : ∀ c, IsReal (g c)) (c : C) : IsReal (bnScale N eps Y g c) :=
  scaleOf_real h (tot_real hY c) (tot2_real hY c) (hg c)

theorem bnShift_real (h : Consts N eps slope) {C : Type} {Y : C → P → EReal} {g b : C → EReal} (hY : ∀ c x, IsReal (Y c x))
    (hg : ∀ c, IsReal (g c)) (hb : ∀ c, IsReal (b c)) (c : C) : IsReal (bnShift N eps Y g b c) :=
  shiftOf_real h (tot_real hY c) (tot2_real hY c) (hg c) (hb c)

theorem layer1_real (h : Consts N eps slope) {W1 : C → K → EReal} {g1 b1 : C → EReal} {A : K → P → EReal}
    (hW1 : ∀ c k, IsReal (W1 c k)) (hg1 : ∀ c, IsReal (g1 c)) (hb1 : ∀ c, IsReal (b1 c)) (hA : ∀ k x, IsReal (A k x))
    (c : C) (x : P) : IsReal (layer1 N eps slope W1 g1 b1 A c x) :=
  lrelu_real h ((conv_real (fun c k => (hW1 c k).mul (bnScale_real h (conv_real hW1 hA) hg1 c)) hA c x).add
    (bnShift_real h (conv_real hW1 hA) hg1 hb1 c))

theorem pre2_real (h : Consts N eps slope) {W1 : C → K → EReal} {g1 b1 : C → EReal} {W2 : D → C → EReal}
    {A : K → P → EReal} (hW1 : ∀ c k, IsReal (W1 c k)) (hg1 : ∀ c, IsReal (g1 c)) (hb1 : ∀ c, IsReal (b1 c))
    (hW2 : ∀ d c, IsReal (W2 d c)) (hA : ∀ k x, IsReal (A k x)) (d : D) (x : P) :
    IsReal (pre2 N eps slope W1 g1 b1 W2 A d x) :=
  conv_real hW2 (layer1_real h hW1 hg1 hb1 hA) d x

/-- The two forms of a block's output agree on real data: the second scale moves across the product. -/
theorem blockOut_eq (h : Consts N eps slope) {W1 : C → K → EReal} {g1 b1 : C → EReal} {W2 : D → C → EReal}
    {g2 b2 : D → EReal} {A : K → P → EReal} (hW1 : ∀ c k, IsReal (W1 c k)) (hg1 : ∀ c, IsReal (g1 c))
    (hb1 : ∀ c, IsReal (b1 c)) (hW2 : ∀ d c, IsReal (W2 d c)) (hg2 : ∀ d, IsReal (g2 d)) (hA : ∀ k x, IsReal (A k x)) :
    blockOutK N eps slope W1 g1 b1 W2 g2 b2 A = blockOutR N eps slope W1 g1 b1 W2 g2 b2 A := by
  funext d x
  unfold blockOutK blockOutR
  congr 2
  unfold pre2 conv
  exact (scale_sum _ _ _ (fun c => hW2 d c) (fun c => layer1_real h hW1 hg1 hb1 hA c x)
    (bnScale_real h (pre2_real h hW1 hg1 hb1 hW2 hA) hg2 d)).symm

/-- A block's output is real on real data. -/
theorem blockOutK_real (h : Consts N eps slope) {W1 : C → K → EReal} {g1 b1 : C → EReal} {W2 : D → C → EReal}
    {g2 b2 : D → EReal} {A : K → P → EReal} (hW1 : ∀ c k, IsReal (W1 c k)) (hg1 : ∀ c, IsReal (g1 c))
    (hb1 : ∀ c, IsReal (b1 c)) (hW2 : ∀ d c, IsReal (W2 d c)) (hg2 : ∀ d, IsReal (g2 d)) (hb2 : ∀ d, IsReal (b2 d))
    (hA : ∀ k x, IsReal (A k x)) (d : D) (x : P) : IsReal (blockOutK N eps slope W1 g1 b1 W2 g2 b2 A d x) :=
  lrelu_real h (((pre2_real h hW1 hg1 hb1 hW2 hA d x).mul (bnScale_real h (pre2_real h hW1 hg1 hb1 hW2 hA) hg2 d)).add
    (bnShift_real h (pre2_real h hW1 hg1 hb1 hW2 hA) hg2 hb2 d))

end Block

/-! ## Three blocks -/

section Net
variable {P K C : Type} [Fintype P] [Fintype K] [Fintype C]
variable (N eps slope : EReal)

/-- The weights of one block: two 1x1 convolutions, each with its normalisation's gamma and beta. The block maps K channels
    to K channels through C hidden ones. -/
structure BlockParams (K C : Type) where
  W1 : C → K → EReal
  g1 : C → EReal
  b1 : C → EReal
  W2 : K → C → EReal
  g2 : K → EReal
  b2 : K → EReal

/-- Every weight is a real number. -/
structure BlockParams.Real (q : BlockParams K C) : Prop where
  hW1 : ∀ c k, IsReal (q.W1 c k)
  hg1 : ∀ c, IsReal (q.g1 c)
  hb1 : ∀ c, IsReal (q.b1 c)
  hW2 : ∀ d c, IsReal (q.W2 d c)
  hg2 : ∀ d, IsReal (q.g2 d)
  hb2 : ∀ d, IsReal (q.b2 d)

/-- One block, the kernel's form. -/
def stepK (q : BlockParams K C) (A : K → P → EReal) : K → P → EReal :=
  blockOutK N eps slope q.W1 q.g1 q.b1 q.W2 q.g2 q.b2 A

/-- One block, the reference's form. -/
def stepR (q : BlockParams K C) (A : K → P → EReal) : K → P → EReal :=
  blockOutR N eps slope q.W1 q.g1 q.b1 q.W2 q.g2 q.b2 A

variable {N eps slope}

theorem step_eq (h : Consts N eps slope) {q : BlockParams K C} (hq : q.Real) {A : K → P → EReal}
    (hA : ∀ k x, IsReal (A k x)) : stepK N eps slope q A = stepR N eps slope q A :=
  blockOut_eq h hq.hW1 hq.hg1 hq.hb1 hq.hW2 hq.hg2 hA

theorem stepK_real (h : Consts N eps slope) {q : BlockParams K C} (hq : q.Real) {A : K → P → EReal}
    (hA : ∀ k x, IsReal (A k x)) (d : K) (x : P) : IsReal (stepK N eps slope q A d x) :=
  blockOutK_real h hq.hW1 hq.hg1 hq.hb1 hq.hW2 hq.hg2 hq.hb2 hA d x

/-- Three blocks in the kernel's form and in the reference's form agree on real inputs. -/
theorem net_eq (h : Consts N eps slope) {q0 q1 q2 : BlockParams K C} (h0 : q0.Real) (h1 : q1.Real) (h2 : q2.Real)
    {A : K → P → EReal} (hA : ∀ k x, IsReal (A k x)) :
    stepK N eps slope q2 (stepK N eps slope q1 (stepK N eps slope q0 A))
      = stepR N eps slope q2 (stepR N eps slope q1 (stepR N eps slope q0 A)) := by
  rw [← step_eq h h0 hA, ← step_eq h h1 (stepK_real h h0 hA),
    ← step_eq h h2 (stepK_real h h1 (stepK_real h h0 hA))]

end Net

end Cert.Net

end
-- ==== Proof.HostFold.lean ====
/-
  The host operations between two kernel launches, as array functions and read at an index.
  From the per-core partial sums (a [2, C, 1] array each for the sum and the sum of squares) the host adds the two cores,
  divides by the pixel count, forms the clamped variance, and produces the normalisation's scale gamma / sqrt (var + eps),
  its shift beta - mean · scale, and a weight matrix with each row multiplied by its scale.
-/
import Idealize.ShloMosaic.Lib.IdealHost
import Idealize.ShloMosaic.Lib.ValueIdx
import Idealize.ShloMosaic.Lib.Pipeline.Value
import Idealize.ShloMosaic.PureOps.Ideal.Laws
import proofs.«126831_g2000503633499865_pallasbulk_555_4_alg».proof.Proof.NetSpec

noncomputable section

open scoped BigOperators

namespace Cert.HostFold

open Idealize.ShloMosaic Idealize.ShloMosaic.ValueIdx

/-- Two per-core partial sums added by the host from zero. -/
theorem reduce_cores_apply {C : ℕ} (acc : FVec Ideal ⟨3, ![2, C, 1]⟩ .f32) (init : (⟨0, ![]⟩ : Shape).Idx → Ideal .f32)
    (h0 : init ix0 = 0) (h' : (⟨3, ![2, C, 1]⟩ : Shape).ReducesTo [0] ⟨2, ![C, 1]⟩)
    (h : (⟨3, ![2, C, 1]⟩ : Shape).Reduces [0] ⟨2, ![C, 1]⟩) (hu : 0 < (⟨0, ![]⟩ : Shape).numel) (ch : Fin C) (u : Fin 1) :
    Host.reduceAdd acc init h' hu (ix2 ch u) = ∑ core : Fin 2, acc (ix3 core ch u) := by
  rw [hostReduceAdd_apply, Ideal.hostReduceAdd_single h' h]
  have e0 : init (Shape.Idx.first hu) = 0 := by rw [eq_ix0 (Shape.Idx.first hu)]; exact h0
  rw [e0, zero_add]
  refine Finset.sum_congr rfl fun core _ => congrArg acc ?_
  funext ax; apply Fin.ext
  match ax with
  | ⟨0, _⟩ => rfl
  | ⟨1, _⟩ => rfl
  | ⟨2, _⟩ => rfl

/-- The pixel count 131072, the epsilon, as the programs spell them. -/
abbrev Ncount : EReal := Ideal.ofBits .f32 0x48000000#32
abbrev epsv : EReal := Ideal.ofBits .f32 0x3727C5AC#32

section
variable {C : ℕ} (hr : (⟨3, ![2, C, 1]⟩ : Shape).ReducesTo [0] ⟨2, ![C, 1]⟩) (hu : 0 < (⟨0, ![]⟩ : Shape).numel)
  (hb : (⟨0, ![]⟩ : Shape).BroadcastsInDim ⟨2, ![C, 1]⟩ (![] : Fin 0 → Fin 2))

/-- The mean of a channel: the two cores' partial sums added, over the pixel count. -/
def meanVec (asum : FVec Ideal ⟨3, ![2, C, 1]⟩ .f32) : FVec Ideal ⟨2, ![C, 1]⟩ .f32 :=
  Host.divf (Host.reduceAdd asum (constant (F := Ideal) ⟨0, ![]⟩ .f32 0x00000000#32) hr hu)
    (broadcastInDim ⟨2, ![C, 1]⟩ ![] hb (constant (F := Ideal) ⟨0, ![]⟩ .f32 0x48000000#32))

/-- The normalisation's scale per channel. -/
def scaleVec (asum assq : FVec Ideal ⟨3, ![2, C, 1]⟩ .f32) (g : FVec Ideal ⟨2, ![C, 1]⟩ .f32) : FVec Ideal ⟨2, ![C, 1]⟩ .f32 :=
  mulf g (Host.rsqrt (addf (maximumf (subf (meanVec hr hu hb assq) (mulf (meanVec hr hu hb asum) (meanVec hr hu hb asum)))
      (broadcastInDim ⟨2, ![C, 1]⟩ ![] hb (constant (F := Ideal) ⟨0, ![]⟩ .f32 0x00000000#32)))
    (broadcastInDim ⟨2, ![C, 1]⟩ ![] hb (constant (F := Ideal) ⟨0, ![]⟩ .f32 0x3727C5AC#32))))

/-- The normalisation's shift per channel. -/
def shiftVec (asum assq : FVec Ideal ⟨3, ![2, C, 1]⟩ .f32) (g b : FVec Ideal ⟨2, ![C, 1]⟩ .f32) : FVec Ideal ⟨2, ![C, 1]⟩ .f32 :=
  subf b (mulf (meanVec hr hu hb asum) (scaleVec hr hu hb asum assq g))

theorem meanVec_apply (hR : (⟨3, ![2, C, 1]⟩ : Shape).Reduces [0] ⟨2, ![C, 1]⟩) (asum : FVec Ideal ⟨3, ![2, C, 1]⟩ .f32) (ch : Fin C) (u : Fin 1) :
    meanVec hr hu hb asum (ix2 ch u) = Ideal.div (∑ core : Fin 2, asum (ix3 core ch u)) Ncount := by
  unfold meanVec
  rw [hostDivf_apply, reduce_cores_apply asum _ (by rw [constant_apply]; exact Ideal.ofBits_zero_f32) hr hR hu,
    broadcastInDim_scalar_apply, constant_apply]

theorem scaleVec_apply (hR : (⟨3, ![2, C, 1]⟩ : Shape).Reduces [0] ⟨2, ![C, 1]⟩) (asum assq : FVec Ideal ⟨3, ![2, C, 1]⟩ .f32) (g : FVec Ideal ⟨2, ![C, 1]⟩ .f32) (ch : Fin C) (u : Fin 1) :
    scaleVec hr hu hb asum assq g (ix2 ch u)
      = Net.scaleOf Ncount epsv (∑ core : Fin 2, asum (ix3 core ch u)) (∑ core : Fin 2, assq (ix3 core ch u)) (g (ix2 ch u)) := by
  unfold scaleVec Net.scaleOf
  show g (ix2 ch u) * Ideal.rsqrt (max (meanVec hr hu hb assq (ix2 ch u) - meanVec hr hu hb asum (ix2 ch u) * meanVec hr hu hb asum (ix2 ch u))
      (broadcastInDim ⟨2, ![C, 1]⟩ ![] hb (constant (F := Ideal) ⟨0, ![]⟩ .f32 0x00000000#32) (ix2 ch u))
    + broadcastInDim ⟨2, ![C, 1]⟩ ![] hb (constant (F := Ideal) ⟨0, ![]⟩ .f32 0x3727C5AC#32) (ix2 ch u)) = _
  rw [meanVec_apply hr hu hb hR, meanVec_apply hr hu hb hR, broadcastInDim_scalar_apply, broadcastInDim_scalar_apply,
    constant_apply, constant_apply, Ideal.ofBits_zero_f32]

theorem shiftVec_apply (hR : (⟨3, ![2, C, 1]⟩ : Shape).Reduces [0] ⟨2, ![C, 1]⟩) (asum assq : FVec Ideal ⟨3, ![2, C, 1]⟩ .f32) (g b : FVec Ideal ⟨2, ![C, 1]⟩ .f32) (ch : Fin C) (u : Fin 1) :
    shiftVec hr hu hb asum assq g b (ix2 ch u)
      = Net.shiftOf Ncount epsv (∑ core : Fin 2, asum (ix3 core ch u)) (∑ core : Fin 2, assq (ix3 core ch u)) (g (ix2 ch u))
          (b (ix2 ch u)) := by
  unfold shiftVec Net.shiftOf
  show b (ix2 ch u) - meanVec hr hu hb asum (ix2 ch u) * scaleVec hr hu hb asum assq g (ix2 ch u) = _
  rw [meanVec_apply hr hu hb hR, scaleVec_apply hr hu hb hR]

end

/-- A weight matrix with each row multiplied by that row's scale. -/
def scaleRows {C K : ℕ} (hbw : (⟨2, ![C, 1]⟩ : Shape).BroadcastsInDim ⟨2, ![C, K]⟩ (![0, 1] : Fin 2 → Fin 2))
    (W : FVec Ideal ⟨2, ![C, K]⟩ .f32) (s : FVec Ideal ⟨2, ![C, 1]⟩ .f32) : FVec Ideal ⟨2, ![C, K]⟩ .f32 :=
  mulf W (broadcastInDim ⟨2, ![C, K]⟩ ![0, 1] hbw s)

theorem scaleRows_apply {C K : ℕ} (hbw : (⟨2, ![C, 1]⟩ : Shape).BroadcastsInDim ⟨2, ![C, K]⟩ (![0, 1] : Fin 2 → Fin 2))
    (W : FVec Ideal ⟨2, ![C, K]⟩ .f32) (s : FVec Ideal ⟨2, ![C, 1]⟩ .f32) (ch : Fin C) (k : Fin K) :
    scaleRows hbw W s (ix2 ch k) = W (ix2 ch k) * s (ix2 ch 0) := by
  unfold scaleRows
  rw [mulf_apply]
  congr 1
  refine broadcastInDim_apply _ hbw s _ _ (fun a => ?_)
  match a with
  | ⟨0, _⟩ =>
    show ch.val = if C = 1 then 0 else ch.val
    split
    · have := ch.isLt; omega
    · rfl
  | ⟨1, _⟩ => rfl

end Cert.HostFold

end
-- ==== Proof.KStats0Pay.lean ====
/-
  Region 0 of the idealized kernel (the statistics pass of the first layer): the arithmetic of one grid point, read at
  an index over the extended reals. The body computes, for each of the block's two rows, y = W · a (a 128×64 by
  64×4096 product) and adds to two per-channel accumulators the lane sums of y and of y². Here: the operations one by
  one at an index (the product as a sum over the contracted coordinate, the lane reduction as a sum over the lanes, the
  unit-axis shape casts), then each stored value of the body at (u, ch, w) as accumulator + lane sum.
-/
import proofs.«126831_g2000503633499865_pallasbulk_555_4_alg».proof.Proof.Gen.KernelIdeal.Skeleton
import Idealize.ShloMosaic.Lib.ValueLayout
import Idealize.ShloMosaic.PureOps.Ideal.Laws

noncomputable section

open Idealize.ShloMosaic Idealize.ShloMosaic.ValueIdx
open scoped BigOperators

namespace Cert.KernelIdeal.KStats0

open Cert.KernelIdeal Cert.KernelIdeal.Gen

/-! ## The operations at an index -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The 128×64 by 64×4096 product into the zero matrix, at `(ch, p)`: the sum over the contracted coordinate. -/
theorem matmul_at (v3 : FVec Ideal S128x64 .f32) (v5 : FVec Ideal S64x4096 .f32) (ch : Fin 128) (p : Fin 4096) :
    matmul dot_S128x64_S64x4096_S128x4096_1_0_0_1_n_n none v3 v5 (constant S128x4096 .f32 0x00000000#32) (ix2 ch p)
      = ∑ k : Fin 64, v3 (ix2 ch k) * v5 (ix2 k p) := by
  refine (Ideal.matmul_constant_zero_apply dot_S128x64_S64x4096_S128x4096_1_0_0_1_n_n none v3 v5 (ix2 ch p)).trans ?_
  rw [← Equiv.sum_comp (contrEquiv1 dot_S128x64_S64x4096_S128x4096_1_0_0_1_n_n 64 rfl rfl).symm]
  refine Finset.sum_congr rfl fun c _ => ?_
  have c2 := contrEquiv1_symm_val dot_S128x64_S64x4096_S128x4096_1_0_0_1_n_n 64 rfl rfl c
  have l2 : dot_S128x64_S64x4096_S128x4096_1_0_0_1_n_n.lhsIdx (ix2 ch p)
      ((contrEquiv1 dot_S128x64_S64x4096_S128x4096_1_0_0_1_n_n 64 rfl rfl).symm c) = ix2 ch c := by
    funext ax; apply Fin.ext
    match ax with
    | ⟨0, _⟩ => simp [DotDims.lhsIdx, dot_S128x64_S64x4096_S128x4096_1_0_0_1_n_n]; rfl
    | ⟨1, _⟩ => simp [DotDims.lhsIdx, dot_S128x64_S64x4096_S128x4096_1_0_0_1_n_n]; exact c2
  have r2 : dot_S128x64_S64x4096_S128x4096_1_0_0_1_n_n.rhsIdx (ix2 ch p)
      ((contrEquiv1 dot_S128x64_S64x4096_S128x4096_1_0_0_1_n_n 64 rfl rfl).symm c) = ix2 c p := by
    funext ax; apply Fin.ext
    match ax with
    | ⟨0, _⟩ => simp [DotDims.rhsIdx, dot_S128x64_S64x4096_S128x4096_1_0_0_1_n_n]; exact c2
    | ⟨1, _⟩ => simp [DotDims.rhsIdx, dot_S128x64_S64x4096_S128x4096_1_0_0_1_n_n]; rfl
  rw [l2, r2]

/-- The lane reduction of a 128×4096 matrix, at `ch`: the sum over the 4096 lanes. -/
theorem rowsum_at (src : FVec Ideal S128x4096 .f32) (ch : Fin 128) :
    multiReduction .add [1] S128 src 0x00000000#32 reduces_S128x4096_S128 (.inl rfl) rfl (ix1 ch)
      = ∑ p : Fin 4096, src (ix2 ch p) := by
  refine (Ideal.multiReduction_add_single src 0x00000000#32 reduces_S128x4096_S128 (.inl rfl) rfl (ix1 ch)).trans ?_
  refine Finset.sum_congr rfl fun p _ => congrArg src ?_
  funext a
  match a with
  | ⟨0, _⟩ => rfl
  | ⟨1, _⟩ => rfl

/-- An accumulator block `[1,128,1]` read as a column, plus the lane sums of a 128×4096 matrix, at `(ch, w)`. -/
theorem acccol_at (y : FVec Ideal S128x4096 .f32) (v : Vec Ideal S1x128x1 .f32) (ch : Fin 128) (w : Fin 1) :
    addf (shapeCast S128x1 v shapeCasts_S1x128x1_S128x1)
      (shapeCast S128x1 (multiReduction .add [1] S128 y 0x00000000#32 reduces_S128x4096_S128 (.inl rfl) rfl)
        shapeCasts_S128_S128x1) (ix2 ch w)
      = v (ix3 (0 : Fin 1) ch w) + ∑ p : Fin 4096, y (ix2 ch p) := by
  refine (addf_apply _ _ _).trans ?_
  refine congrArg₂ (· + ·) ?_ ?_
  · exact shapeCast_1ab_ab_apply v shapeCasts_S1x128x1_S128x1 ch w
  · exact (shapeCast_a_a1_apply _ shapeCasts_S128_S128x1 ch w).trans (rowsum_at y ch)

/-- The same stored back as a block `[1,128,1]`, at `(u, ch, w)`. -/
theorem accsum_at (y : FVec Ideal S128x4096 .f32) (v : Vec Ideal S1x128x1 .f32) (u : Fin 1) (ch : Fin 128) (w : Fin 1) :
    shapeCast S1x128x1 (addf (shapeCast S128x1 v shapeCasts_S1x128x1_S128x1)
      (shapeCast S128x1 (multiReduction .add [1] S128 y 0x00000000#32 reduces_S128x4096_S128 (.inl rfl) rfl)
        shapeCasts_S128_S128x1)) shapeCasts_S128x1_S1x128x1 (ix3 u ch w)
      = v (ix3 (0 : Fin 1) ch w) + ∑ p : Fin 4096, y (ix2 ch p) :=
  (shapeCast_ab_1ab_apply _ shapeCasts_S128x1_S1x128x1 u ch w).trans (acccol_at y v ch w)

/-- A column `[a, 1]` broadcast along the lanes to `[a, b]` reads, at `(i, j)`, the column at `(i, 0)`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The body's stored values at an index -/

/-- y = W · a for one row of the block, at `(ch, p)`. -/
theorem pay5_at (v3 : Vec Ideal S128x64 .f32) (v4 : Vec Ideal S1x64x4096 .f32) (ch : Fin 128) (p : Fin 4096) :
    k0_pay5 (F := Ideal) v3 v4 (ix2 ch p) = ∑ k : Fin 64, v3 (ix2 ch k) * v4 (ix3 (0 : Fin 1) k p) := by
  refine (matmul_at v3 (shapeCast S64x4096 v4 shapeCasts_S1x64x4096_S64x4096) ch p).trans ?_
  refine Finset.sum_congr rfl fun k _ => congrArg (v3 (ix2 ch k) * ·) ?_
  exact shapeCast_1ab_ab_apply v4 shapeCasts_S1x64x4096_S64x4096 k p

/-- The same for the block's second row (the body's second product). -/
theorem pay8_at (v3 : Vec Ideal S128x64 .f32) (v24 : Vec Ideal S1x64x4096 .f32) (ch : Fin 128) (p : Fin 4096) :
    k0_pay8 (F := Ideal) v3 v24 (ix2 ch p) = ∑ k : Fin 64, v3 (ix2 ch k) * v24 (ix3 (0 : Fin 1) k p) := by
  refine (matmul_at v3 (shapeCast S64x4096 v24 shapeCasts_S1x64x4096_S64x4096) ch p).trans ?_
  refine Finset.sum_congr rfl fun k _ => congrArg (v3 (ix2 ch k) * ·) ?_
  exact shapeCast_1ab_ab_apply v24 shapeCasts_S1x64x4096_S64x4096 k p

/-- The zero block the first point of a core stores into the sum accumulator. -/
theorem pay3_at (u : Fin 1) (ch : Fin 128) (w : Fin 1) :
    k0_pay3 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The zero block the first point of a core stores into the sum-of-squares accumulator. -/
theorem pay4_at (u : Fin 1) (ch : Fin 128) (w : Fin 1) :
    k0_pay4 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The sum accumulator after the block's first row: what it held plus the lane sums of y. -/
theorem pay6_at (v3 : Vec Ideal S128x64 .f32) (v4 : Vec Ideal S1x64x4096 .f32) (v7 : Vec Ideal S1x128x1 .f32)
    (u : Fin 1) (ch : Fin 128) (w : Fin 1) :
    k0_pay6 (F := Ideal) v3 v4 v7 (ix3 u ch w)
      = v7 (ix3 (0 : Fin 1) ch w) + ∑ p : Fin 4096, ∑ k : Fin 64, v3 (ix2 ch k) * v4 (ix3 (0 : Fin 1) k p) :=
  (accsum_at (k0_pay5 v3 v4) v7 u ch w).trans
    (congrArg (v7 (ix3 (0 : Fin 1) ch w) + ·) (Finset.sum_congr rfl fun p _ => pay5_at v3 v4 ch p))

/-- The sum accumulator after the block's second row, `y` that row's product. -/
theorem pay1_at (v26 : FVec Ideal S128x4096 .f32) (v27 : Vec Ideal S1x128x1 .f32) (u : Fin 1) (ch : Fin 128) (w : Fin 1) :
    k0_pay1 (F := Ideal) v26 v27 (ix3 u ch w) = v27 (ix3 (0 : Fin 1) ch w) + ∑ p : Fin 4096, v26 (ix2 ch p) :=
  accsum_at v26 v27 u ch w

/-- The sum-of-squares accumulator after the block's first row. -/
theorem pay7_at (v3 : Vec Ideal S128x64 .f32) (v4 : Vec Ideal S1x64x4096 .f32) (v15 : Vec Ideal S1x128x1 .f32)
    (u : Fin 1) (ch : Fin 128) (w : Fin 1) :
    k0_pay7 (F := Ideal) v3 v4 v15 (ix3 u ch w)
      = v15 (ix3 (0 : Fin 1) ch w) + ∑ p : Fin 4096,
          (∑ k : Fin 64, v3 (ix2 ch k) * v4 (ix3 (0 : Fin 1) k p)) * (∑ k : Fin 64, v3 (ix2 ch k) * v4 (ix3 (0 : Fin 1) k p)) :=
  (accsum_at (mulf (k0_pay5 v3 v4) (k0_pay5 v3 v4)) v15 u ch w).trans
    (congrArg (v15 (ix3 (0 : Fin 1) ch w) + ·) (Finset.sum_congr rfl fun p _ =>
      (mulf_apply _ _ _).trans (by rw [pay5_at v3 v4 ch p])))

/-- The sum-of-squares accumulator after the block's second row, `y` that row's product. -/
theorem pay2_at (v26 : FVec Ideal S128x4096 .f32) (v35 : Vec Ideal S1x128x1 .f32) (u : Fin 1) (ch : Fin 128) (w : Fin 1) :
    k0_pay2 (F := Ideal) v26 v35 (ix3 u ch w)
      = v35 (ix3 (0 : Fin 1) ch w) + ∑ p : Fin 4096, v26 (ix2 ch p) * v26 (ix2 ch p) :=
  (accsum_at (mulf v26 v26) v35 u ch w).trans
    (congrArg (v35 (ix3 (0 : Fin 1) ch w) + ·) (Finset.sum_congr rfl fun p _ => mulf_apply _ _ _))

/-! ## One grid point: both rows of the block -/

/-- Row 0 of the block, as the body loads it. -/
abbrev R0 : Rect S2x64x4096 := Rect.unit (s := S2x64x4096) ![0, 0, 0] S1x64x4096.size inb_S2x64x4096_S1x64x4096_0_0_0
/-- Row 1 of the block, as the body loads it. -/
abbrev R1 : Rect S2x64x4096 := Rect.unit (s := S2x64x4096) ![1, 0, 0] S1x64x4096.size inb_S2x64x4096_S1x64x4096_1_0_0

/-- The load of row 0 reads the block at `(0, k, p)`. -/
theorem ld_row0 {α : Type} (x0 : S2x64x4096.Idx → α) (u : Fin 1) (k : Fin 64) (p : Fin 4096) :
    (fun x => x0 (R0.idx x)) (ix3 u k p) = x0 (ix3 (0 : Fin 2) k p) := by
  refine congrArg x0 (funext fun a => Fin.ext ?_)
  have hu : u.val = 0 := by omega
  match a with
  | ⟨0, _⟩ => show 0 + 1 * u.val = 0; omega
  | ⟨1, _⟩ => show 0 + 1 * k.val = k.val; omega
  | ⟨2, _⟩ => show 0 + 1 * p.val = p.val; omega

/-- The load of row 1 reads the block at `(1, k, p)`. -/
theorem ld_row1 {α : Type} (x0 : S2x64x4096.Idx → α) (u : Fin 1) (k : Fin 64) (p : Fin 4096) :
    (fun x => x0 (R1.idx x)) (ix3 u k p) = x0 (ix3 (1 : Fin 2) k p) := by
  refine congrArg x0 (funext fun a => Fin.ext ?_)
  have hu : u.val = 0 := by omega
  match a with
  | ⟨0, _⟩ => show 1 + 1 * u.val = 1; omega
  | ⟨1, _⟩ => show 0 + 1 * k.val = k.val; omega
  | ⟨2, _⟩ => show 0 + 1 * p.val = p.val; omega

/-- The lane sum of y = W · a for row `i` of a block, at channel `ch`. -/
def Sblk (x1 : S128x64.Idx → EReal) (x0 : S2x64x4096.Idx → EReal) (i : Fin 2) (ch : Fin 128) : EReal :=
  ∑ p : Fin 4096, ∑ k : Fin 64, x1 (ix2 ch k) * x0 (ix3 i k p)

/-- The lane sum of y² for row `i` of a block, at channel `ch`. -/
def Qblk (x1 : S128x64.Idx → EReal) (x0 : S2x64x4096.Idx → EReal) (i : Fin 2) (ch : Fin 128) : EReal :=
  ∑ p : Fin 4096, (∑ k : Fin 64, x1 (ix2 ch k) * x0 (ix3 i k p)) * (∑ k : Fin 64, x1 (ix2 ch k) * x0 (ix3 i k p))

/-- What one grid point leaves in the sum accumulator that held `acc`: the two read-modify-writes of the body. -/
def stepS (x1 : Vec Ideal S128x64 .f32) (x0 : Vec Ideal S2x64x4096 .f32) (acc : Vec Ideal S1x128x1 .f32) :
    Vec Ideal S1x128x1 .f32 :=
  k0_pay1 (k0_pay8 x1 (View.ld x0 R1)) (k0_pay6 x1 (View.ld x0 R0) acc)

/-- What one grid point leaves in the sum-of-squares accumulator that held `acc`. -/
def stepQ (x1 : Vec Ideal S128x64 .f32) (x0 : Vec Ideal S2x64x4096 .f32) (acc : Vec Ideal S1x128x1 .f32) :
    Vec Ideal S1x128x1 .f32 :=
  k0_pay2 (k0_pay8 x1 (View.ld x0 R1)) (k0_pay7 x1 (View.ld x0 R0) acc)

/-- One grid point adds to the sum accumulator the lane sums of the block's two rows, row 0 first. -/
theorem stepS_at (x1 : Vec Ideal S128x64 .f32) (x0 : Vec Ideal S2x64x4096 .f32) (acc : Vec Ideal S1x128x1 .f32)
    (u : Fin 1) (ch : Fin 128) (w : Fin 1) :
    stepS x1 x0 acc (ix3 u ch w) = (acc (ix3 (0 : Fin 1) ch w) + Sblk x1 x0 0 ch) + Sblk x1 x0 1 ch := by
  unfold stepS
  refine (pay1_at _ _ u ch w).trans ?_
  refine congrArg₂ (· + ·) ?_ ?_
  · refine (pay6_at x1 (View.ld x0 R0) acc (0 : Fin 1) ch w).trans ?_
    refine congrArg (acc (ix3 (0 : Fin 1) ch w) + ·) ?_
    exact Finset.sum_congr rfl fun p _ => Finset.sum_congr rfl fun k _ =>
      congrArg (x1 (ix2 ch k) * ·) (ld_row0 x0 (0 : Fin 1) k p)
  · refine Finset.sum_congr rfl fun p _ => (pay8_at x1 (View.ld x0 R1) ch p).trans ?_
    exact Finset.sum_congr rfl fun k _ => congrArg (x1 (ix2 ch k) * ·) (ld_row1 x0 (0 : Fin 1) k p)

/-- One grid point adds to the sum-of-squares accumulator the lane sums of y² of the block's two rows, row 0 first. -/
theorem stepQ_at (x1 : Vec Ideal S128x64 .f32) (x0 : Vec Ideal S2x64x4096 .f32) (acc : Vec Ideal S1x128x1 .f32)
    (u : Fin 1) (ch : Fin 128) (w : Fin 1) :
    stepQ x1 x0 acc (ix3 u ch w) = (acc (ix3 (0 : Fin 1) ch w) + Qblk x1 x0 0 ch) + Qblk x1 x0 1 ch := by
  unfold stepQ
  refine (pay2_at _ _ u ch w).trans ?_
  refine congrArg₂ (· + ·) ?_ ?_
  · refine (pay7_at x1 (View.ld x0 R0) acc (0 : Fin 1) ch w).trans ?_
    refine congrArg (acc (ix3 (0 : Fin 1) ch w) + ·) ?_
    refine Finset.sum_congr rfl fun p _ => ?_
    have e : (∑ k : Fin 64, x1 (ix2 ch k) * (View.ld x0 R0) (ix3 (0 : Fin 1) k p))
        = ∑ k : Fin 64, x1 (ix2 ch k) * x0 (ix3 (0 : Fin 2) k p) :=
      Finset.sum_congr rfl fun k _ => congrArg (x1 (ix2 ch k) * ·) (ld_row0 x0 (0 : Fin 1) k p)
    rw [e]
  · refine Finset.sum_congr rfl fun p _ => ?_
    have e : k0_pay8 (F := Ideal) x1 (View.ld x0 R1) (ix2 ch p) = ∑ k : Fin 64, x1 (ix2 ch k) * x0 (ix3 (1 : Fin 2) k p) :=
      (pay8_at x1 (View.ld x0 R1) ch p).trans
        (Finset.sum_congr rfl fun k _ => congrArg (x1 (ix2 ch k) * ·) (ld_row1 x0 (0 : Fin 1) k p))
    rw [e]

end Cert.KernelIdeal.KStats0

end
-- ==== Proof.KStats0Val.lean ====
/-
  Region 0 of the idealized kernel (the statistics pass of the first layer), its VALUE: what the two per-core
  accumulator arrays [2,128,1] end holding, as functions of the activation [32,64,4096] and the weights [128,64] the
  region finds. At (core, ch, 0): the sum over the core's eight grid points j, the block's two rows i and the 4096
  lanes p of y = ∑ₖ W[ch,k] · a[(core·8+j)·2+i, k, p] (window 2), and of y² (window 3).
  The road: each control case's stored pieces read back as the one-point step (`stepS`, `stepQ`); the staging
  buffers' contents after each point by induction on the point; the flushing point's block; the blocks cover the array.
-/
import proofs.«126831_g2000503633499865_pallasbulk_555_4_alg».proof.Proof.Gen.KernelIdeal.Frame
import proofs.«126831_g2000503633499865_pallasbulk_555_4_alg».proof.Proof.KStats0Pay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KStats0

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-! ## The control cases' stored pieces, read back -/

/-- A later point of a core: the sum accumulator that held `xo2` is left at the one-point step of it. -/
theorem out_B_2 (c : Dev nD) (i : grid0.Coords) (a2 : Memref sig .tc .vmem S2x64x4096 .f32) (h2 : a2.IsWhole) (a3 : Memref sig .tc .vmem S128x64 .f32) (h3 : a3.IsWhole) (a4 : Memref sig .tc .vmem S1x128x1 .f32) (h4 : a4.IsWhole) (a5 : Memref sig .tc .vmem S1x128x1 .f32) (h5 : a5.IsWhole) (hc : ¬cond0_0 i)
    (x0 : Vec Ideal S2x64x4096 .f32) (x1 : Vec Ideal S128x64 .f32) (xo2 xo3 : Vec Ideal S1x128x1 .f32) :
    out0_B_2 c i a2 h2 a3 h3 a4 h4 a5 h5 hc x0 x1 xo2 xo3 = stepS x1 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.readCov_unit_zero (S := S1x128x1) _ hz3, View.readCov_cons_toLoadRect]
  rfl

/-- A later point of a core: the sum-of-squares accumulator that held `xo3` is left at the one-point step of it. -/
theorem out_B_3 (c : Dev nD) (i : grid0.Coords) (a2 : Memref sig .tc .vmem S2x64x4096 .f32) (h2 : a2.IsWhole) (a3 : Memref sig .tc .vmem S128x64 .f32) (h3 : a3.IsWhole) (a4 : Memref sig .tc .vmem S1x128x1 .f32) (h4 : a4.IsWhole) (a5 : Memref sig .tc .vmem S1x128x1 .f32) (h5 : a5.IsWhole) (hc : ¬cond0_0 i)
    (x0 : Vec Ideal S2x64x4096 .f32) (x1 : Vec Ideal S128x64 .f32) (xo2 xo3 : Vec Ideal S1x128x1 .f32) :
    out0_B_3 c i a2 h2 a3 h3 a4 h4 a5 h5 hc x0 x1 xo2 xo3 = stepQ x1 x0 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.readCov_unit_zero (S := S1x128x1) _ hz3, View.readCov_cons_toLoadRect]
  rfl

/-- The first point of a core: the sum accumulator is zeroed, then stepped. -/
theorem out_A_2 (c : Dev nD) (i : grid0.Coords) (a2 : Memref sig .tc .vmem S2x64x4096 .f32) (h2 : a2.IsWhole) (a3 : Memref sig .tc .vmem S128x64 .f32) (h3 : a3.IsWhole) (a4 : Memref sig .tc .vmem S1x128x1 .f32) (h4 : a4.IsWhole) (a5 : Memref sig .tc .vmem S1x128x1 .f32) (h5 : a5.IsWhole) (hc : cond0_0 i)
    (x0 : Vec Ideal S2x64x4096 .f32) (x1 : Vec Ideal S128x64 .f32) :
    out0_A_2 c i a2 h2 a3 h3 a4 h4 a5 h5 hc x0 x1 = stepS x1 x0 (k0_pay3 (F := Ideal)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x128x1) hz3]
  simp only [View.readAt_eq_ld, h2.read_unread, h3.read_unread,
    View.ld_unit_zero (S := S1x128x1) hz3, View.ld_unit_zero (S := S128x64) hz2,
    View.readCov_unit_zero (S := S1x128x1) _ hz3, View.readCov_cons_toLoadRect]
  rfl

/-- The first point of a core: the sum-of-squares accumulator is zeroed, then stepped. -/
theorem out_A_3 (c : Dev nD) (i : grid0.Coords) (a2 : Memref sig .tc .vmem S2x64x4096 .f32) (h2 : a2.IsWhole) (a3 : Memref sig .tc .vmem S128x64 .f32) (h3 : a3.IsWhole) (a4 : Memref sig .tc .vmem S1x128x1 .f32) (h4 : a4.IsWhole) (a5 : Memref sig .tc .vmem S1x128x1 .f32) (h5 : a5.IsWhole) (hc : cond0_0 i)
    (x0 : Vec Ideal S2x64x4096 .f32) (x1 : Vec Ideal S128x64 .f32) :
    out0_A_3 c i a2 h2 a3 h3 a4 h4 a5 h5 hc x0 x1 = stepQ x1 x0 (k0_pay4 (F := Ideal)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x128x1) hz3]
  simp only [View.readAt_eq_ld, h2.read_unread, h3.read_unread,
    View.ld_unit_zero (S := S1x128x1) hz3, View.ld_unit_zero (S := S128x64) hz2,
    View.readCov_unit_zero (S := S1x128x1) _ hz3, View.readCov_cons_toLoadRect]
  rfl

/-! ## The blocks a point reads, as elements of the arrays -/

variable (V : (c : Dev nD) → (b : Ref sig .tc) → Buf (Elt Ideal) ((c : Thread nD τ).loc b))

/-- The printed index maps, decided over the grid: the activation's block at point `t` is rows 2t, 2t+1; the weights'
    block is the whole array; the accumulators' block is row t / 8. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- Row `2n + i` of the activation: row `i` of the block at point `n`. -/
def rowAt (n : ℕ) (i : Fin 2) (h : n < 16) : Fin 32 := ⟨n * 2 + i.val, by have := i.isLt; omega⟩

/-- The activation's block at point `t`, at `(i, k, p)`: the array at row `2t + i`. -/
theorem blkA_at (c : Dev nD) (t : Fin cfg0.N) (ht : t.val < 16) (i : Fin 2) (k : Fin 64) (p : Fin 4096) :
    iblk0 V c 0 t (ix3 i k p) = V c (Pipeline.arrRef spec0 0) (ix3 (rowAt t.val i ht) k p) := by
  obtain ⟨e0, e1, e2, -⟩ := idx_facts t
  show V c (Pipeline.arrRef spec0 0) (((cfg0.win 0).blk t).view.emb (ix3 i k p)) = _
  refine congrArg _ (funext fun a => Fin.ext ?_)
  match a with
  | ⟨0, _⟩ => show win0_0.index t (0 : Fin 3) * 2 + 1 * i.val = t.val * 2 + i.val; rw [e0]; omega
  | ⟨1, _⟩ => show win0_0.index t (1 : Fin 3) * 64 + 1 * k.val = k.val; rw [e1]; omega
  | ⟨2, _⟩ => show win0_0.index t (2 : Fin 3) * 4096 + 1 * p.val = p.val; rw [e2]; omega

/-- The weights' block at any point is the array. -/
theorem blkW_at (c : Dev nD) (t : Fin cfg0.N) (ch : Fin 128) (k : Fin 64) :
    iblk0 V c 1 t (ix2 ch k) = V c (Pipeline.arrRef spec0 1) (ix2 ch k) := by
  obtain ⟨-, -, -, e0, e1, -⟩ := idx_facts t
  show V c (Pipeline.arrRef spec0 1) (((cfg0.win 1).blk t).view.emb (ix2 ch k)) = _
  refine congrArg _ (funext fun a => Fin.ext ?_)
  match a with
  | ⟨0, _⟩ => show win0_1.index t (0 : Fin 2) * 128 + 1 * ch.val = ch.val; rw [e0]; omega
  | ⟨1, _⟩ => show win0_1.index t (1 : Fin 2) * 64 + 1 * k.val = k.val; rw [e1]; omega

/-! ## The value, index by index -/

/-- The lane sum of y = W · a for row `r` of the activation, at channel `ch`. -/
def S (a : S32x64x4096.Idx → EReal) (w : S128x64.Idx → EReal) (r : Fin 32) (ch : Fin 128) : EReal :=
  ∑ p : Fin 4096, ∑ k : Fin 64, w (ix2 ch k) * a (ix3 r k p)

/-- The lane sum of y² for row `r` of the activation, at channel `ch`. -/
def Q (a : S32x64x4096.Idx → EReal) (w : S128x64.Idx → EReal) (r : Fin 32) (ch : Fin 128) : EReal :=
  ∑ p : Fin 4096, (∑ k : Fin 64, w (ix2 ch k) * a (ix3 r k p)) * (∑ k : Fin 64, w (ix2 ch k) * a (ix3 r k p))

/-- Row `(core·8 + j)·2 + i` of the activation: row `i` of the block at point `j` of core `core`. -/
def row (core : Fin 2) (j : Fin 8) (i : Fin 2) : Fin 32 :=
  ⟨(core.val * 8 + j.val) * 2 + i.val, by have := core.isLt; have := j.isLt; have := i.isLt; omega⟩

/-- WINDOW 2's array after the region: per core and channel, the sum over the core's points and the block's rows of the
    lane sums of y. -/
def GK0_2 (a : S32x64x4096.Idx → EReal) (w : S128x64.Idx → EReal) : S2x128x1.Idx → EReal :=
  fun idx => ∑ j : Fin 8, (S a w (row (idx 0) j 0) (idx 1) + S a w (row (idx 0) j 1) (idx 1))

/-- WINDOW 3's array after the region: the same of y². -/
def GK0_3 (a : S32x64x4096.Idx → EReal) (w : S128x64.Idx → EReal) : S2x128x1.Idx → EReal :=
  fun idx => ∑ j : Fin 8, (Q a w (row (idx 0) j 0) (idx 1) + Q a w (row (idx 0) j 1) (idx 1))

/-- y at `(ch, p)` for row `i` of a block. -/
def dotb (x1 : S128x64.Idx → EReal) (x0 : S2x64x4096.Idx → EReal) (i : Fin 2) (ch : Fin 128) (p : Fin 4096) : EReal :=
  ∑ k : Fin 64, x1 (ix2 ch k) * x0 (ix3 i k p)

/-- y at `(ch, p)` for row `r` of the activation. -/
def dota (a : S32x64x4096.Idx → EReal) (w : S128x64.Idx → EReal) (r : Fin 32) (ch : Fin 128) (p : Fin 4096) : EReal :=
  ∑ k : Fin 64, w (ix2 ch k) * a (ix3 r k p)

/-- One row's product, block against array. -/
theorem dot_eq (c : Dev nD) (t : Fin cfg0.N) (ht : t.val < 16) (i : Fin 2) (ch : Fin 128) (p : Fin 4096) :
    dotb (iblk0 V c 1 t) (iblk0 V c 0 t) i ch p
      = dota (V c (Pipeline.arrRef spec0 0)) (V c (Pipeline.arrRef spec0 1)) (rowAt t.val i ht) ch p := by
  unfold dotb dota
  exact Finset.sum_congr rfl fun k _ => by rw [blkW_at V c t ch k, blkA_at V c t ht i k p]

/-- A block's lane sum is the array's at the block's row. -/
theorem Sblk_eq (c : Dev nD) (t : Fin cfg0.N) (ht : t.val < 16) (i : Fin 2) (ch : Fin 128) :
    Sblk (iblk0 V c 1 t) (iblk0 V c 0 t) i ch
      = S (V c (Pipeline.arrRef spec0 0)) (V c (Pipeline.arrRef spec0 1)) (rowAt t.val i ht) ch := by
  unfold Sblk S
  exact Finset.sum_congr rfl fun p _ => dot_eq V c t ht i ch p

theorem Qblk_eq (c : Dev nD) (t : Fin cfg0.N) (ht : t.val < 16) (i : Fin 2) (ch : Fin 128) :
    Qblk (iblk0 V c 1 t) (iblk0 V c 0 t) i ch
      = Q (V c (Pipeline.arrRef spec0 0)) (V c (Pipeline.arrRef spec0 1)) (rowAt t.val i ht) ch := by
  unfold Qblk Q
  exact Finset.sum_congr rfl fun p _ => congrArg₂ (· * ·) (dot_eq V c t ht i ch p) (dot_eq V c t ht i ch p)

/-- Point `n`'s addend to the sum accumulator: the lane sums of its block's two rows. -/
def MS (a : S32x64x4096.Idx → EReal) (w : S128x64.Idx → EReal) (n : ℕ) (ch : Fin 128) : EReal :=
  if h : n < 16 then S a w (rowAt n 0 h) ch + S a w (rowAt n 1 h) ch else 0

/-- Point `n`'s addend to the sum-of-squares accumulator. -/
def MQ (a : S32x64x4096.Idx → EReal) (w : S128x64.Idx → EReal) (n : ℕ) (ch : Fin 128) : EReal :=
  if h : n < 16 then Q a w (rowAt n 0 h) ch + Q a w (rowAt n 1 h) ch else 0

/-! ## What the staging buffers hold after each point -/

/-- At the first point of a core the sum accumulator holds zero plus the point's addend; -/
theorem sum_A (c : Dev nD) (t : Fin cfg0.N) (h0 : t.val % 8 = 0) (u : Fin 1) (ch : Fin 128) (w : Fin 1) :
    (outsAt0 V c t.val t.isLt).1 (ix3 u ch w)
      = Ideal.ofBits .f32 0x00000000#32 + MS (V c (Pipeline.arrRef spec0 0)) (V c (Pipeline.arrRef spec0 1)) t.val ch := by
  have ht : t.val < 16 := lt_of_lt_of_eq t.isLt (show cfg0.N = 16 from N_0)
  rw [outsAt0_A V c t h0]
  dsimp only
  rw [out_A_2 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)]
  rw [stepS_at, pay3_at, Sblk_eq V c t ht, Sblk_eq V c t ht, add_assoc]
  unfold MS
  rw [dif_pos ht]

/-- at a later point what it held plus the point's addend. -/
theorem sum_B (c : Dev nD) (t : Fin cfg0.N) (h0 : ¬t.val % 8 = 0) (u : Fin 1) (ch : Fin 128) (w : Fin 1) :
    (outsAt0 V c t.val t.isLt).1 (ix3 u ch w)
      = (outsAt0 V c (t.val - 1) (Nat.lt_of_le_of_lt (Nat.sub_le _ _) t.isLt)).1 (ix3 (0 : Fin 1) ch w)
        + MS (V c (Pipeline.arrRef spec0 0)) (V c (Pipeline.arrRef spec0 1)) t.val ch := by
  have ht : t.val < 16 := lt_of_lt_of_eq t.isLt (show cfg0.N = 16 from N_0)
  rw [outsAt0_B V c t h0]
  dsimp only
  rw [out_B_2 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)]
  rw [stepS_at, Sblk_eq V c t ht, Sblk_eq V c t ht, add_assoc]
  unfold MS
  rw [dif_pos ht]

theorem ssq_A (c : Dev nD) (t : Fin cfg0.N) (h0 : t.val % 8 = 0) (u : Fin 1) (ch : Fin 128) (w : Fin 1) :
    (outsAt0 V c t.val t.isLt).2 (ix3 u ch w)
      = Ideal.ofBits .f32 0x00000000#32 + MQ (V c (Pipeline.arrRef spec0 0)) (V c (Pipeline.arrRef spec0 1)) t.val ch := by
  have ht : t.val < 16 := lt_of_lt_of_eq t.isLt (show cfg0.N = 16 from N_0)
  rw [outsAt0_A V c t h0]
  dsimp only
  rw [out_A_3 c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)]
  rw [stepQ_at, pay4_at, Qblk_eq V c t ht, Qblk_eq V c t ht, add_assoc]
  unfold MQ
  rw [dif_pos ht]

theorem ssq_B (c : Dev nD) (t : Fin cfg0.N) (h0 : ¬t.val % 8 = 0) (u : Fin 1) (ch : Fin 128) (w : Fin 1) :
    (outsAt0 V c t.val t.isLt).2 (ix3 u ch w)
      = (outsAt0 V c (t.val - 1) (Nat.lt_of_le_of_lt (Nat.sub_le _ _) t.isLt)).2 (ix3 (0 : Fin 1) ch w)
        + MQ (V c (Pipeline.arrRef spec0 0)) (V c (Pipeline.arrRef spec0 1)) t.val ch := by
  have ht : t.val < 16 := lt_of_lt_of_eq t.isLt (show cfg0.N = 16 from N_0)
  rw [outsAt0_B V c t h0]
  dsimp only
  rw [out_B_3 c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t)]
  rw [stepQ_at, Qblk_eq V c t ht, Qblk_eq V c t ht, add_assoc]
  unfold MQ
  rw [dif_pos ht]

/-- THE SUM ACCUMULATOR after point `n`: zero plus the addends of the core's points up to `n`. -/
theorem sum_inv (c : Dev nD) (ch : Fin 128) : ∀ (n : ℕ) (hn : n < cfg0.N) (u w : Fin 1),
    (outsAt0 V c n hn).1 (ix3 u ch w)
      = Ideal.ofBits .f32 0x00000000#32 + ∑ s ∈ Finset.range (n % 8 + 1),
          MS (V c (Pipeline.arrRef spec0 0)) (V c (Pipeline.arrRef spec0 1)) (n / 8 * 8 + s) ch := by
  have hA : ∀ (n : ℕ) (hn : n < cfg0.N), n % 8 = 0 → ∀ (u w : Fin 1),
      (outsAt0 V c n hn).1 (ix3 u ch w)
        = Ideal.ofBits .f32 0x00000000#32 + ∑ s ∈ Finset.range (n % 8 + 1),
            MS (V c (Pipeline.arrRef spec0 0)) (V c (Pipeline.arrRef spec0 1)) (n / 8 * 8 + s) ch := by
    intro n hn h0 u w
    rw [sum_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [sum_B V c ⟨m + 1, hn⟩ h0 u ch w]
      show (outsAt0 V c m _).1 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

/-- THE SUM-OF-SQUARES ACCUMULATOR after point `n`. -/
theorem ssq_inv (c : Dev nD) (ch : Fin 128) : ∀ (n : ℕ) (hn : n < cfg0.N) (u w : Fin 1),
    (outsAt0 V c n hn).2 (ix3 u ch w)
      = Ideal.ofBits .f32 0x00000000#32 + ∑ s ∈ Finset.range (n % 8 + 1),
          MQ (V c (Pipeline.arrRef spec0 0)) (V c (Pipeline.arrRef spec0 1)) (n / 8 * 8 + s) ch := by
  have hA : ∀ (n : ℕ) (hn : n < cfg0.N), n % 8 = 0 → ∀ (u w : Fin 1),
      (outsAt0 V c n hn).2 (ix3 u ch w)
        = Ideal.ofBits .f32 0x00000000#32 + ∑ s ∈ Finset.range (n % 8 + 1),
            MQ (V c (Pipeline.arrRef spec0 0)) (V c (Pipeline.arrRef spec0 1)) (n / 8 * 8 + s) ch := by
    intro n hn h0 u w
    rw [ssq_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [ssq_B V c ⟨m + 1, hn⟩ h0 u ch w]
      show (outsAt0 V c m _).2 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

/-- The eight addends of a core, as the sum over its points. -/
theorem sum_core (a : S32x64x4096.Idx → EReal) (w : S128x64.Idx → EReal) (core : Fin 2) (ch : Fin 128) :
    Ideal.ofBits .f32 0x00000000#32 + ∑ s ∈ Finset.range 8, MS a w (core.val * 8 + s) ch
      = ∑ j : Fin 8, (S a w (row core j 0) ch + S a w (row core j 1) ch) := by
  rw [Ideal.ofBits_zero_f32, zero_add, Finset.sum_range]
  refine Finset.sum_congr rfl fun j _ => ?_
  have h : core.val * 8 + j.val < 16 := by have := core.isLt; have := j.isLt; omega
  unfold MS
  rw [dif_pos h]
  rfl

theorem ssq_core (a : S32x64x4096.Idx → EReal) (w : S128x64.Idx → EReal) (core : Fin 2) (ch : Fin 128) :
    Ideal.ofBits .f32 0x00000000#32 + ∑ s ∈ Finset.range 8, MQ a w (core.val * 8 + s) ch
      = ∑ j : Fin 8, (Q a w (row core j 0) ch + Q a w (row core j 1) ch) := by
  rw [Ideal.ofBits_zero_f32, zero_add, Finset.sum_range]
  refine Finset.sum_congr rfl fun j _ => ?_
  have h : core.val * 8 + j.val < 16 := by have := core.isLt; have := j.isLt; omega
  unfold MQ
  rw [dif_pos h]
  rfl

/-! ## From the flushed blocks to the arrays -/

/-- WHAT A FLUSHING POINT WRITES BACK to window 2 is its block of `GK0_2`. -/
theorem flushed_2 (c : Dev nD) (t : Fin cfg0.N) (hf : (cfg0.win 2).flush t = true) :
    (dat0 V c).flushed 2 t = ((cfg0.win 2).blk t).view.read (Elt Ideal)
      (GK0_2 (V c (Pipeline.arrRef spec0 0)) (V c (Pipeline.arrRef spec0 1))) := by
  have hN : t.val < 16 := lt_of_lt_of_eq t.isLt (show cfg0.N = 16 from N_0)
  have h7 : t.val % 8 = 7 := (flush0_2 t).mp hf
  obtain ⟨-, -, -, -, -, e0, e1, e2, -⟩ := idx_facts t
  show (cfg0.win 2).cut (grid0.coords t) ((dat0 V c).after 2 t) = _
  rw [after0_2]
  funext y
  obtain ⟨u, ch, w, rfl⟩ : ∃ (u : Fin 1) (ch : Fin 128) (w : Fin 1), y = ix3 u ch w := ⟨y 0, y 1, y 2, eq_ix3 y⟩
  show (outsAt0 V c t.val t.isLt).1 (ix3 u ch w)
    = GK0_2 (V c (Pipeline.arrRef spec0 0)) (V c (Pipeline.arrRef spec0 1)) (((cfg0.win 2).blk t).view.emb (ix3 u ch w))
  have hemb : ((cfg0.win 2).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win0_2.index t (0 : Fin 3) * 1 + 1 * u.val = t.val / 8; rw [e0]; omega
    | ⟨1, _⟩ => show win0_2.index t (1 : Fin 3) * 128 + 1 * ch.val = ch.val; rw [e1]; omega
    | ⟨2, _⟩ => show win0_2.index t (2 : Fin 3) * 1 + 1 * w.val = 0; rw [e2]; omega
  rw [hemb, sum_inv V c ch t.val t.isLt u w, h7]
  exact sum_core (V c (Pipeline.arrRef spec0 0)) (V c (Pipeline.arrRef spec0 1)) (⟨t.val / 8, by omega⟩ : Fin 2) ch

/-- WHAT A FLUSHING POINT WRITES BACK to window 3 is its block of `GK0_3`. -/
theorem flushed_3 (c : Dev nD) (t : Fin cfg0.N) (hf : (cfg0.win 3).flush t = true) :
    (dat0 V c).flushed 3 t = ((cfg0.win 3).blk t).view.read (Elt Ideal)
      (GK0_3 (V c (Pipeline.arrRef spec0 0)) (V c (Pipeline.arrRef spec0 1))) := by
  have hN : t.val < 16 := lt_of_lt_of_eq t.isLt (show cfg0.N = 16 from N_0)
  have h7 : t.val % 8 = 7 := (flush0_3 t).mp hf
  obtain ⟨-, -, -, -, -, -, -, -, e0, e1, e2⟩ := idx_facts t
  show (cfg0.win 3).cut (grid0.coords t) ((dat0 V c).after 3 t) = _
  rw [after0_3]
  funext y
  obtain ⟨u, ch, w, rfl⟩ : ∃ (u : Fin 1) (ch : Fin 128) (w : Fin 1), y = ix3 u ch w := ⟨y 0, y 1, y 2, eq_ix3 y⟩
  show (outsAt0 V c t.val t.isLt).2 (ix3 u ch w)
    = GK0_3 (V c (Pipeline.arrRef spec0 0)) (V c (Pipeline.arrRef spec0 1)) (((cfg0.win 3).blk t).view.emb (ix3 u ch w))
  have hemb : ((cfg0.win 3).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win0_3.index t (0 : Fin 3) * 1 + 1 * u.val = t.val / 8; rw [e0]; omega
    | ⟨1, _⟩ => show win0_3.index t (1 : Fin 3) * 128 + 1 * ch.val = ch.val; rw [e1]; omega
    | ⟨2, _⟩ => show win0_3.index t (2 : Fin 3) * 1 + 1 * w.val = 0; rw [e2]; omega
  rw [hemb, ssq_inv V c ch t.val t.isLt u w, h7]
  exact ssq_core (V c (Pipeline.arrRef spec0 0)) (V c (Pipeline.arrRef spec0 1)) (⟨t.val / 8, by omega⟩ : Fin 2) ch

/-- The last point of core `r`. -/
def lastPt (r : Fin 2) : Fin cfg0.N := ⟨r.val * 8 + 7, by rw [show cfg0.N = 16 from N_0]; have := r.isLt; omega⟩

/-- Every index of window 2's array is in the block of its row's last point. -/
theorem cover_2 (i : S2x128x1.Idx) :
    ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 1 := (i 2).isLt
  refine ⟨lastPt ⟨(i 0).val, h0⟩, (flush0_2 _).mpr (by show ((i 0).val * 8 + 7) % 8 = 7; omega), ?_⟩
  obtain ⟨-, -, -, -, -, e0, e1, e2, -⟩ := idx_facts (lastPt ⟨(i 0).val, h0⟩)
  have ev : (lastPt ⟨(i 0).val, h0⟩).val / 8 = (i 0).val := by show ((i 0).val * 8 + 7) / 8 = (i 0).val; omega
  show i ∈ ((View.whole main_v1_0).slice (win0_2.rect (lastPt ⟨(i 0).val, h0⟩))).set
  rw [View.set_slice_whole, Rect.mem_set_unit]
  intro a
  match a with
  | ⟨0, _⟩ =>
    show win0_2.index (lastPt ⟨(i 0).val, h0⟩) (0 : Fin 3) * 1 ≤ (i 0).val
      ∧ (i 0).val < win0_2.index (lastPt ⟨(i 0).val, h0⟩) (0 : Fin 3) * 1 + 1
    rw [e0, ev]; omega
  | ⟨1, _⟩ =>
    show win0_2.index (lastPt ⟨(i 0).val, h0⟩) (1 : Fin 3) * 128 ≤ (i 1).val
      ∧ (i 1).val < win0_2.index (lastPt ⟨(i 0).val, h0⟩) (1 : Fin 3) * 128 + 128
    rw [e1]; omega
  | ⟨2, _⟩ =>
    show win0_2.index (lastPt ⟨(i 0).val, h0⟩) (2 : Fin 3) * 1 ≤ (i 2).val
      ∧ (i 2).val < win0_2.index (lastPt ⟨(i 0).val, h0⟩) (2 : Fin 3) * 1 + 1
    rw [e2]; omega

/-- Every index of window 3's array is in the block of its row's last point. -/
theorem cover_3 (i : S2x128x1.Idx) :
    ∃ t : Fin cfg0.N, (cfg0.win 3).flush t = true ∧ i ∈ ((cfg0.win 3).blk t).view.set := by
  have h0 : (i 0).val < 2 := (i 0).isLt
  have h1 : (i 1).val < 128 := (i 1).isLt
  have h2 : (i 2).val < 1 := (i 2).isLt
  refine ⟨lastPt ⟨(i 0).val, h0⟩, (flush0_3 _).mpr (by show ((i 0).val * 8 + 7) % 8 = 7; omega), ?_⟩
  obtain ⟨-, -, -, -, -, -, -, -, e0, e1, e2⟩ := idx_facts (lastPt ⟨(i 0).val, h0⟩)
  have ev : (lastPt ⟨(i 0).val, h0⟩).val / 8 = (i 0).val := by show ((i 0).val * 8 + 7) / 8 = (i 0).val; omega
  show i ∈ ((View.whole main_v1_1).slice (win0_3.rect (lastPt ⟨(i 0).val, h0⟩))).set
  rw [View.set_slice_whole, Rect.mem_set_unit]
  intro a
  match a with
  | ⟨0, _⟩ =>
    show win0_3.index (lastPt ⟨(i 0).val, h0⟩) (0 : Fin 3) * 1 ≤ (i 0).val
      ∧ (i 0).val < win0_3.index (lastPt ⟨(i 0).val, h0⟩) (0 : Fin 3) * 1 + 1
    rw [e0, ev]; omega
  | ⟨1, _⟩ =>
    show win0_3.index (lastPt ⟨(i 0).val, h0⟩) (1 : Fin 3) * 128 ≤ (i 1).val
      ∧ (i 1).val < win0_3.index (lastPt ⟨(i 0).val, h0⟩) (1 : Fin 3) * 128 + 128
    rw [e1]; omega
  | ⟨2, _⟩ =>
    show win0_3.index (lastPt ⟨(i 0).val, h0⟩) (2 : Fin 3) * 1 ≤ (i 2).val
      ∧ (i 2).val < win0_3.index (lastPt ⟨(i 0).val, h0⟩) (2 : Fin 3) * 1 + 1
    rw [e2]; omega

/-- WINDOW 2's ARRAY AFTER THE REGION. -/
theorem arrAt_2 (c : Dev nD) :
    (dat0 V c).arrAt 2 cfg0.N = GK0_2 (V c (Pipeline.arrRef spec0 0)) (V c (Pipeline.arrRef spec0 1)) :=
  (dat0 V c).arrAt_eq_of_cover 2 _ (flushed_2 V c) cover_2

/-- WINDOW 3's ARRAY AFTER THE REGION. -/
theorem arrAt_3 (c : Dev nD) :
    (dat0 V c).arrAt 3 cfg0.N = GK0_3 (V c (Pipeline.arrRef spec0 0)) (V c (Pipeline.arrRef spec0 1)) :=
  (dat0 V c).arrAt_eq_of_cover 3 _ (flushed_3 V c) cover_3

end Cert.KernelIdeal.KStats0

end
-- ==== Proof.NetArgs.lean ====
/-
  The arrays of both programs as the mathematics reads them: a pixel is a pair (batch row, position) with position
  = h · 64 + w; the input [32, 64, 64, 64] is a function of (channel, pixel); a block's six argument arrays are its weights;
  and a function of (channel, pixel) is laid back out as a [32, 64, 64, 64] array.
-/
import proofs.«126831_g2000503633499865_pallasbulk_555_4_alg».proof.Proof.NetSpec
import Idealize.ShloMosaic.Lib.ValueIdx

noncomputable section

namespace Cert.Net

open Idealize.ShloMosaic Idealize.ShloMosaic.ValueIdx

/-- A pixel: the batch row and the position h · 64 + w inside the 64 x 64 image. -/
abbrev Px := Fin 32 × Fin 4096

/-- The image coordinates of a position. -/
def hOf (p : Fin 4096) : Fin 64 := ⟨p.val / 64, by have := p.isLt; omega⟩
def wOf (p : Fin 4096) : Fin 64 := ⟨p.val % 64, by omega⟩

/-- The position of image coordinates. -/
def posOf (h w : Fin 64) : Fin 4096 := ⟨h.val * 64 + w.val, by have := h.isLt; have := w.isLt; omega⟩

/-- The column of a pixel in the [channels, 32 · 4096] layout: batch row · 4096 + position. -/
def colOf (n : Fin 32) (p : Fin 4096) : Fin 131072 := ⟨n.val * 4096 + p.val, by have := n.isLt; have := p.isLt; omega⟩

theorem colOf_val (n : Fin 32) (p : Fin 4096) : (colOf n p).val = n.val * 4096 + p.val := rfl

/-- The input array as a function of (channel, pixel). -/
def Xof (x : (⟨4, ![32, 64, 64, 64]⟩ : Shape).Idx → EReal) : Fin 64 → Px → EReal :=
  fun k px => x (ix4 px.1 k (hOf px.2) (wOf px.2))

/-- A block's weights from its six argument arrays. -/
def qOf (w1 : (⟨2, ![128, 64]⟩ : Shape).Idx → EReal) (g1 b1 : (⟨2, ![128, 1]⟩ : Shape).Idx → EReal)
    (w2 : (⟨2, ![64, 128]⟩ : Shape).Idx → EReal) (g2 b2 : (⟨2, ![64, 1]⟩ : Shape).Idx → EReal) :
    BlockParams (Fin 64) (Fin 128) where
  W1 := fun c k => w1 (ix2 c k)
  g1 := fun c => g1 (ix2 c 0)
  b1 := fun c => b1 (ix2 c 0)
  W2 := fun d c => w2 (ix2 d c)
  g2 := fun d => g2 (ix2 d 0)
  b2 := fun d => b2 (ix2 d 0)

/-- A function of (channel, pixel) laid out as a [32, 64, 64, 64] array. -/
def outOf (A : Fin 64 → Px → EReal) : (⟨4, ![32, 64, 64, 64]⟩ : Shape).Idx → EReal :=
  fun i => A (i 1) (i 0, posOf (i 2) (i 3))

theorem Xof_real {x : (⟨4, ![32, 64, 64, 64]⟩ : Shape).Idx → EReal} (hx : ∀ i, IsReal (x i)) (k : Fin 64) (px : Px) :
    IsReal (Xof x k px) := hx _

theorem qOf_real {w1 : (⟨2, ![128, 64]⟩ : Shape).Idx → EReal} {g1 b1 : (⟨2, ![128, 1]⟩ : Shape).Idx → EReal}
    {w2 : (⟨2, ![64, 128]⟩ : Shape).Idx → EReal} {g2 b2 : (⟨2, ![64, 1]⟩ : Shape).Idx → EReal}
    (h1 : ∀ i, IsReal (w1 i)) (h2 : ∀ i, IsReal (g1 i)) (h3 : ∀ i, IsReal (b1 i)) (h4 : ∀ i, IsReal (w2 i))
    (h5 : ∀ i, IsReal (g2 i)) (h6 : ∀ i, IsReal (b2 i)) : (qOf w1 g1 b1 w2 g2 b2).Real :=
  ⟨fun _ _ => h1 _, fun _ => h2 _, fun _ => h3 _, fun _ _ => h4 _, fun _ => h5 _, fun _ => h6 _⟩

end Cert.Net

end
-- ==== Proof.NetConsts.lean ====
/-
  The three float constants of both programs, read at the ideal values: 131072 (the pixel count 32 · 64 · 64), the
  normalisation's epsilon (the float nearest 1e-5, a positive real) and the rectifier's slope (the float nearest 0.2, a real).
-/
import proofs.«126831_g2000503633499865_pallasbulk_555_4_alg».proof.Proof.NetSpec

noncomputable section

namespace Cert.Net

open Idealize.ShloMosaic

/-- The count's pattern denotes 131072 = 2^17. -/
theorem count_val : Ideal.ofBits .f32 0x48000000#32 = ((131072 : ℝ) : EReal) := by
  simp [Ideal.ofBits, Ideal.ieee]
  rw [← EReal.coe_mul]
  congr 1
  norm_num

/-- The epsilon's pattern denotes a positive real. -/
theorem eps_val : ∃ r : ℝ, 0 < r ∧ Ideal.ofBits .f32 0x3727C5AC#32 = (r : EReal) := by
  refine ⟨_, ?_, by simp [Ideal.ofBits, Ideal.ieee]; rfl⟩
  positivity

/-- The slope's pattern denotes a real. -/
theorem slope_val : IsReal (Ideal.ofBits .f32 0x3E4CCCCD#32) := by
  refine ⟨_, by simp [Ideal.ofBits, Ideal.ieee]; rfl⟩

/-- The constants as the algebra needs them. -/
theorem consts : Consts (Ideal.ofBits .f32 0x48000000#32) (Ideal.ofBits .f32 0x3727C5AC#32)
    (Ideal.ofBits .f32 0x3E4CCCCD#32) where
  hN := ⟨131072, by norm_num, count_val⟩
  heps := eps_val
  hslope := slope_val

/-- The three constants, named. -/
abbrev Nc : EReal := Ideal.ofBits .f32 0x48000000#32
abbrev epsc : EReal := Ideal.ofBits .f32 0x3727C5AC#32
abbrev slopec : EReal := Ideal.ofBits .f32 0x3E4CCCCD#32

end Cert.Net

end
-- ==== Proof.NetIndex.lean ====
/-
  Re-indexing the pixel sums. Both programs sum over all 32 · 4096 pixels, each in its own nesting:
  the kernel per core (2), per grid step (8), per batch row of the block (2), per position (4096), batch row
  (core · 8 + step) · 2 + row; the reference per core (2), per grid step (4), per column of the block (16384), column
  (core · 4 + step) · 16384 + q of the [channels, 32 · 4096] layout, column = batch · 4096 + position.
  Sums in a commutative monoid do not depend on the nesting.
-/
import Idealize.ShloMosaic.PureOps.Ideal

open scoped BigOperators
open Finset

namespace Cert.Net

variable {M : Type*} [AddCommMonoid M]

/-- A sum over a · b consecutive naturals, cut into a runs of length b. -/
theorem sum_range_mul (a b : ℕ) (H : ℕ → M) : ∑ i ∈ range (a * b), H i = ∑ x ∈ range a, ∑ y ∈ range b, H (x * b + y) := by
  induction a with
  | zero => simp
  | succ a ih => rw [Nat.succ_mul, Finset.sum_range_add, ih, Finset.sum_range_succ]

/-- The kernel's nesting of the batch rows: 2 cores of 8 steps of 2 rows are the 32 rows. -/
theorem sum_rows (F : ℕ → M) :
    ∑ c ∈ range 2, ∑ j ∈ range 8, (F ((c * 8 + j) * 2) + F ((c * 8 + j) * 2 + 1)) = ∑ n ∈ range 32, F n := by
  have h1 : ∀ t : ℕ, F (t * 2) + F (t * 2 + 1) = ∑ i ∈ range 2, F (t * 2 + i) := fun t => by
    simp [Finset.sum_range_succ]
  simp_rw [h1]
  rw [← sum_range_mul 2 8 (fun t => ∑ i ∈ range 2, F (t * 2 + i)), ← sum_range_mul (2 * 8) 2 F]

/-- The reference's nesting of the columns against the batch-by-position nesting: both are all 131072 columns. -/
theorem sum_cols (H : ℕ → M) :
    ∑ c ∈ range 2, ∑ j ∈ range 4, ∑ q ∈ range 16384, H ((c * 4 + j) * 16384 + q)
      = ∑ n ∈ range 32, ∑ p ∈ range 4096, H (n * 4096 + p) := by
  rw [← sum_range_mul 2 4 (fun t => ∑ q ∈ range 16384, H (t * 16384 + q)), ← sum_range_mul (2 * 4) 16384 H,
    ← sum_range_mul 32 4096 H]

/-- A function on Fin n as a function on the naturals (zero outside). -/
def ext0 {n : ℕ} (f : Fin n → M) : ℕ → M := fun i => if h : i < n then f ⟨i, h⟩ else 0

theorem ext0_val {n : ℕ} (f : Fin n → M) (x : Fin n) : ext0 f x.val = f x := by
  unfold ext0; rw [dif_pos x.isLt]

theorem sum_fin_eq_range {n : ℕ} (f : Fin n → M) : ∑ x : Fin n, f x = ∑ i ∈ range n, ext0 f i := by
  rw [← Fin.sum_univ_eq_sum_range]
  exact Finset.sum_congr rfl fun x _ => (ext0_val f x).symm

/-- The kernel's nesting over the batch rows, over Fin: 2 cores of 8 steps of 2 rows are the 32 rows. -/
theorem sum_rows_fin (f : Fin 32 → M) (row : Fin 2 → Fin 8 → Fin 2 → Fin 32)
    (hrow : ∀ c j i, (row c j i).val = (c.val * 8 + j.val) * 2 + i.val) :
    ∑ c : Fin 2, ∑ j : Fin 8, (f (row c j 0) + f (row c j 1)) = ∑ n : Fin 32, f n := by
  rw [sum_fin_eq_range f, ← sum_rows (ext0 f), ← Fin.sum_univ_eq_sum_range]
  refine Finset.sum_congr rfl fun c _ => ?_
  rw [← Fin.sum_univ_eq_sum_range]
  refine Finset.sum_congr rfl fun j _ => ?_
  rw [← ext0_val f (row c j 0), ← ext0_val f (row c j 1), hrow, hrow]
  rfl

/-- The reference's nesting over the columns against the batch-by-position nesting, over Fin. -/
theorem sum_cols_fin (h : Fin 131072 → M) (col : Fin 2 → Fin 4 → Fin 16384 → Fin 131072)
    (hcol : ∀ c j q, (col c j q).val = (c.val * 4 + j.val) * 16384 + q.val)
    (colOf : Fin 32 → Fin 4096 → Fin 131072) (hcolOf : ∀ n p, (colOf n p).val = n.val * 4096 + p.val) :
    ∑ c : Fin 2, ∑ j : Fin 4, ∑ q : Fin 16384, h (col c j q) = ∑ n : Fin 32, ∑ p : Fin 4096, h (colOf n p) := by
  have e := sum_cols (ext0 h)
  rw [← Fin.sum_univ_eq_sum_range, ← Fin.sum_univ_eq_sum_range] at e
  refine (Eq.trans ?_ e).trans ?_
  · refine Finset.sum_congr rfl fun c _ => ?_
    rw [← Fin.sum_univ_eq_sum_range]
    refine Finset.sum_congr rfl fun j _ => ?_
    rw [← Fin.sum_univ_eq_sum_range]
    refine Finset.sum_congr rfl fun q _ => ?_
    rw [← ext0_val h (col c j q), hcol]
  · refine Finset.sum_congr rfl fun n _ => ?_
    rw [← Fin.sum_univ_eq_sum_range]
    refine Finset.sum_congr rfl fun p _ => ?_
    rw [← ext0_val h (colOf n p), hcolOf]

end Cert.Net
-- ==== Proof.KFlowA.lean ====
/-
  The idealized kernel's run, read as mathematics — first part: the input, the first statistics pass and the host
  operations after it.
  The input array reshaped to [32, 64, 4096] is the input as a function of (channel, pixel). The first region's two
  accumulators, added over the two cores, are the per-channel sum and sum of squares of the first convolution over all
  pixels; the host operations that follow turn them into the first normalisation's scale and shift and fold the scale
  into the first convolution's weights.
-/
import proofs.«126831_g2000503633499865_pallasbulk_555_4_alg».proof.Proof.Gen.KernelIdeal.Frame
import proofs.«126831_g2000503633499865_pallasbulk_555_4_alg».proof.Proof.HostFold
import proofs.«126831_g2000503633499865_pallasbulk_555_4_alg».proof.Proof.KStats0Val
import proofs.«126831_g2000503633499865_pallasbulk_555_4_alg».proof.Proof.NetArgs
import proofs.«126831_g2000503633499865_pallasbulk_555_4_alg».proof.Proof.NetConsts
import proofs.«126831_g2000503633499865_pallasbulk_555_4_alg».proof.Proof.NetIndex
import Idealize.ShloMosaic.Lib.StableHlo.Run
import Idealize.ShloMosaic.Lib.Pipeline.Value
import Idealize.ShloMosaic.Lib.ValueIdx
set_option maxRecDepth 16384
noncomputable section
namespace Cert.KernelIdeal.Flow
open Cert.KernelIdeal Cert.KernelIdeal.Gen
open Idealize.ShloMosaic Idealize.ShloMosaic.TcCoe Idealize.ShloMosaic.ValueIdx Idealize.SL.Sem
variable (m : (ℓ : Loc nD τ sig) → Buf (Elt Ideal) ℓ) (ρ : Dev nD → PrngReg) (c : Dev nD)

theorem v0_eq : V1 (F := Ideal) m ρ c main_v0 = shapeCast S32x64x4096 (m ((c : Thread nD τ).loc main_arg0)) shapeCasts_S32x64x64x64_S32x64x4096 := by
  show StableHlo.after hostOps0 (W0 m ρ c) (Proc.devRef .tc main_v0) = _
  after_results
  rfl

theorem v0_at (n : Fin 32) (k : Fin 64) (p : Fin 4096) :
    V1 (F := Ideal) m ρ c main_v0 (ix3 n k p) = Net.Xof (m ((c : Thread nD τ).loc main_arg0)) k (n, p) := by
  rw [v0_eq]
  unfold Net.Xof
  refine shapeCast_apply _ _ _ _ ?_
  show (S32x64x64x64.rowMajor (ix4 n k (Net.hOf p) (Net.wOf p))).val = (S32x64x4096.rowMajor (ix3 n k p)).val
  rw [Shape.rowMajor_val_four, Shape.rowMajor_val_three]
  show ((n.val * 64 + k.val) * 64 + p.val / 64) * 64 + p.val % 64 = (n.val * 64 + k.val) * 4096 + p.val
  omega

/-- A buffer's contents as an array of extended reals over a literal shape. -/
abbrev arr (S : Shape) (f : S.Idx → EReal) : S.Idx → EReal := f

/-- The input as channels x pixels, and the three blocks' weights, from the launch memory. -/
abbrev X : Fin 64 → Net.Px → EReal := Net.Xof (m ((c : Thread nD τ).loc main_arg0))
abbrev q0 : Net.BlockParams (Fin 64) (Fin 128) :=
  Net.qOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem v1_arg1 : V1 (F := Ideal) m ρ c main_arg1 = m ((c : Thread nD τ).loc main_arg1) := by
  show StableHlo.after hostOps0 (W0 m ρ c) (Proc.devRef .tc main_arg1) = _
  after_results

theorem acc0_sum : W2 (F := Ideal) m ρ c (Proc.devRef .tc main_v1_0)
    = KStats0.GK0_2 (V1 m ρ c main_v0) (V1 m ρ c main_arg1) :=
  (W2_arr m ρ c 2).trans (KStats0.arrAt_2 (V1 m ρ) c)

theorem sum1 (ch : Fin 128) (u : Fin 1) :
    ∑ core : Fin 2, arr S2x128x1 (W2 (F := Ideal) m ρ c (Proc.devRef .tc main_v1_0)) (ix3 core ch u)
      = Net.tot (Net.conv (q0 m c).W1 (X m c)) ch := by
  unfold arr
  rw [acc0_sum]
  show ∑ core : Fin 2, ∑ j : Fin 8, (KStats0.S (V1 m ρ c main_v0) (V1 m ρ c main_arg1) (KStats0.row core j 0) ch
      + KStats0.S (V1 m ρ c main_v0) (V1 m ρ c main_arg1) (KStats0.row core j 1) ch) = _
  rw [Net.sum_rows_fin (fun n => KStats0.S (V1 m ρ c main_v0) (V1 m ρ c main_arg1) n ch) KStats0.row (fun _ _ _ => rfl)]
  unfold Net.tot
  rw [Fintype.sum_prod_type]
  refine Finset.sum_congr rfl fun n _ => ?_
  unfold KStats0.S Net.conv
  refine Finset.sum_congr rfl fun p _ => Finset.sum_congr rfl fun k _ => ?_
  rw [v0_at, v1_arg1]
  rfl

theorem acc0_ssq : W2 (F := Ideal) m ρ c (Proc.devRef .tc main_v1_1)
    = KStats0.GK0_3 (V1 m ρ c main_v0) (V1 m ρ c main_arg1) :=
  (W2_arr m ρ c 3).trans (KStats0.arrAt_3 (V1 m ρ) c)

theorem ssq1 (ch : Fin 128) (u : Fin 1) :
    ∑ core : Fin 2, arr S2x128x1 (W2 (F := Ideal) m ρ c (Proc.devRef .tc main_v1_1)) (ix3 core ch u)
      = Net.tot2 (Net.conv (q0 m c).W1 (X m c)) ch := by
  unfold arr
  rw [acc0_ssq]
  show ∑ core : Fin 2, ∑ j : Fin 8, (KStats0.Q (V1 m ρ c main_v0) (V1 m ρ c main_arg1) (KStats0.row core j 0) ch
      + KStats0.Q (V1 m ρ c main_v0) (V1 m ρ c main_arg1) (KStats0.row core j 1) ch) = _
  rw [Net.sum_rows_fin (fun n => KStats0.Q (V1 m ρ c main_v0) (V1 m ρ c main_arg1) n ch) KStats0.row (fun _ _ _ => rfl)]
  unfold Net.tot2
  rw [Fintype.sum_prod_type]
  refine Finset.sum_congr rfl fun n _ => ?_
  unfold KStats0.Q Net.conv
  refine Finset.sum_congr rfl fun p _ => ?_
  congr 1 <;> exact Finset.sum_congr rfl fun k _ => by rw [v0_at, v1_arg1]; rfl

/-- An argument array no region and no host operation has written yet. -/
theorem w2_arg (b : Ref sig .tc) (hb : ∀ w, Pipeline.arrRef spec0 w ≠ b)
    (h0 : StableHlo.after hostOps0 (W0 (F := Ideal) m ρ c) (Proc.devRef .tc b) = W0 m ρ c (Proc.devRef .tc b)) :
    W2 (F := Ideal) m ρ c (Proc.devRef .tc b) = W0 m ρ c (Proc.devRef .tc b) :=
  (W2_of_ne m ρ c b hb).trans h0

theorem w2_arg2 : W2 (F := Ideal) m ρ c (Proc.devRef .tc main_arg2) = m ((c : Thread nD τ).loc main_arg2) :=
  w2_arg m ρ c main_arg2 (by decide) (by after_results)
theorem w2_arg3 : W2 (F := Ideal) m ρ c (Proc.devRef .tc main_arg3) = m ((c : Thread nD τ).loc main_arg3) :=
  w2_arg m ρ c main_arg3 (by decide) (by after_results)
theorem w2_arg1 : W2 (F := Ideal) m ρ c (Proc.devRef .tc main_arg1) = m ((c : Thread nD τ).loc main_arg1) :=
  (W2_arr m ρ c 1).trans ((((dat0 (V1 m ρ) c).arrAt_in 1 rfl _).trans (A_eq0 (V1 m ρ) c 1)).trans (v1_arg1 m ρ c))

set_option maxHeartbeats 4000000 in
theorem v15_eq : V3 (F := Ideal) m ρ c main_v15
    = HostFold.scaleVec reducesTo_S2x128x1_S128x1_d0 h_S_ bcast_S_S128x1
        (W2 m ρ c (Proc.devRef .tc main_v1_0)) (W2 m ρ c (Proc.devRef .tc main_v1_1)) (W2 m ρ c (Proc.devRef .tc main_arg2)) := by
  show StableHlo.after hostOps1 (W2 m ρ c) (Proc.devRef .tc main_v15) = _
  after_results_simp
  rfl

theorem v15_at (ch : Fin 128) :
    V3 (F := Ideal) m ρ c main_v15 (ix2 ch 0)
      = Net.bnScale Net.Nc Net.epsc (Net.conv (q0 m c).W1 (X m c)) (q0 m c).g1 ch := by
  rw [v15_eq, HostFold.scaleVec_apply _ _ _ (by decide)]
  have e1 := sum1 m ρ c ch 0
  have e2 := ssq1 m ρ c ch 0
  unfold arr at e1 e2
  rw [e1, e2, w2_arg2]
  rfl

set_option maxHeartbeats 4000000 in
theorem v17_eq : V3 (F := Ideal) m ρ c main_v17
    = HostFold.shiftVec reducesTo_S2x128x1_S128x1_d0 h_S_ bcast_S_S128x1
        (W2 m ρ c (Proc.devRef .tc main_v1_0)) (W2 m ρ c (Proc.devRef .tc main_v1_1)) (W2 m ρ c (Proc.devRef .tc main_arg2))
        (W2 m ρ c (Proc.devRef .tc main_arg3)) := by
  show StableHlo.after hostOps1 (W2 m ρ c) (Proc.devRef .tc main_v17) = _
  after_results_simp
  rfl

theorem v17_at (ch : Fin 128) :
    V3 (F := Ideal) m ρ c main_v17 (ix2 ch 0)
      = Net.bnShift Net.Nc Net.epsc (Net.conv (q0 m c).W1 (X m c)) (q0 m c).g1 (q0 m c).b1 ch := by
  rw [v17_eq, HostFold.shiftVec_apply _ _ _ (by decide)]
  have e1 := sum1 m ρ c ch 0
  have e2 := ssq1 m ρ c ch 0
  unfold arr at e1 e2
  rw [e1, e2, w2_arg2, w2_arg3]
  rfl

set_option maxHeartbeats 4000000 in
theorem v19_eq : V3 (F := Ideal) m ρ c main_v19
    = HostFold.scaleRows bcast_S128x1_S128x64_0_1 (W2 m ρ c (Proc.devRef .tc main_arg1))
        (HostFold.scaleVec reducesTo_S2x128x1_S128x1_d0 h_S_ bcast_S_S128x1
          (W2 m ρ c (Proc.devRef .tc main_v1_0)) (W2 m ρ c (Proc.devRef .tc main_v1_1)) (W2 m ρ c (Proc.devRef .tc main_arg2))) := by
  show StableHlo.after hostOps1 (W2 m ρ c) (Proc.devRef .tc main_v19) = _
  after_results_simp
  rfl

theorem v19_at (ch : Fin 128) (k : Fin 64) :
    V3 (F := Ideal) m ρ c main_v19 (ix2 ch k)
      = (q0 m c).W1 ch k * Net.bnScale Net.Nc Net.epsc (Net.conv (q0 m c).W1 (X m c)) (q0 m c).g1 ch := by
  rw [v19_eq, HostFold.scaleRows_apply, ← v15_eq, v15_at, w2_arg1]
  rfl

end Cert.KernelIdeal.Flow
end
-- ==== Proof.KKeep.lean ====
/-
  Buffers of the idealized kernel that reach a later point of the run unchanged: an argument array is written by no host
  operation and by no region (a region only reads it through an input window), and an intermediate array is written once.
-/
import proofs.«126831_g2000503633499865_pallasbulk_555_4_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Flow

open Cert.KernelIdeal Cert.KernelIdeal.Gen
open Idealize.ShloMosaic Idealize.ShloMosaic.TcCoe Idealize.SL.Sem

/-- A buffer none of a stretch's host operations writes keeps its contents across the stretch. -/
macro "host_keep" : tactic =>
  `(tactic| (refine StableHlo.after_of_forall_not_mem _ _ (List.forall_iff_forall_mem.mp ?_)
             simp only [hostOps0, hostOps1, hostOps2, hostOps3, hostOps4, hostOps5, hostOps6, hostOps7, List.Forall,
               StableHlo.nullary_writes, StableHlo.unary_writes, StableHlo.binary_writes, StableHlo.reshape_writes,
               Finset.mem_singleton]
             repeat' apply And.intro
             all_goals exact StableHlo.devRef_ne_of_ne (by decide)))

variable (m : (ℓ : Loc nD τ sig) → Buf (Elt Ideal) ℓ) (ρ : Dev nD → PrngReg) (c : Dev nD)

theorem w3_arg4 : W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := by show StableHlo.after hostOps1 (W2 m ρ c) (Proc.devRef .tc main_arg4) = _; host_keep
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = _; host_keep
    _ = m ((c : Thread nD τ).loc main_arg4) := rfl

theorem w4_arg5 : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := by show StableHlo.after hostOps1 (W2 m ρ c) (Proc.devRef .tc main_arg5) = _; host_keep
    _ = W1 m ρ c (Proc.devRef .tc main_arg5) := W2_of_ne m ρ c main_arg5 (by decide)
    _ = W0 m ρ c (Proc.devRef .tc main_arg5) := by show StableHlo.after hostOps0 (W0 m ρ c) (Proc.devRef .tc main_arg5) = _; host_keep
    _ = m ((c : Thread nD τ).loc main_arg5) := rfl

theorem w4_arg6 : W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := by show StableHlo.after hostOps1 (W2 m ρ c) (Proc.devRef .tc main_arg6) = _; host_keep
    _ = W1 m ρ c (Proc.devRef .tc main_arg6) := W2_of_ne m ρ c main_arg6 (by decide)
    _ = W0 m ρ c (Proc.devRef .tc main_arg6) := by show StableHlo.after hostOps0 (W0 m ρ c) (Proc.devRef .tc main_arg6) = _; host_keep
    _ = m ((c : Thread nD τ).loc main_arg6) := rfl

theorem w5_arg7 : W5 (F := Ideal) m ρ c (Proc.devRef .tc main_arg7) = m ((c : Thread nD τ).loc main_arg7) :=
  calc W5 (F := Ideal) m ρ c (Proc.devRef .tc main_arg7)
    _ = W4 m ρ c (Proc.devRef .tc main_arg7) := by show StableHlo.after hostOps2 (W4 m ρ c) (Proc.devRef .tc main_arg7) = _; host_keep
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; host_keep
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; host_keep
    _ = m ((c : Thread nD τ).loc main_arg7) := rfl

theorem w6_arg7 : W6 (F := Ideal) m ρ c (Proc.devRef .tc main_arg7) = m ((c : Thread nD τ).loc main_arg7) :=
  calc W6 (F := Ideal) m ρ c (Proc.devRef .tc main_arg7)
    _ = W5 m ρ c (Proc.devRef .tc main_arg7) := (W6_arr m ρ c 1).trans (((dat2 (V5 m ρ) c).arrAt_in 1 rfl _).trans (A_eq2 (V5 m ρ) c 1))
    _ = W4 m ρ c (Proc.devRef .tc main_arg7) := by show StableHlo.after hostOps2 (W4 m ρ c) (Proc.devRef .tc main_arg7) = _; host_keep
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; host_keep
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; host_keep
    _ = m ((c : Thread nD τ).loc main_arg7) := rfl

theorem w6_arg8 : W6 (F := Ideal) m ρ c (Proc.devRef .tc main_arg8) = m ((c : Thread nD τ).loc main_arg8) :=
  calc W6 (F := Ideal) m ρ c (Proc.devRef .tc main_arg8)
    _ = W5 m ρ c (Proc.devRef .tc main_arg8) := W6_of_ne m ρ c main_arg8 (by decide)
    _ = W4 m ρ c (Proc.devRef .tc main_arg8) := by show StableHlo.after hostOps2 (W4 m ρ c) (Proc.devRef .tc main_arg8) = _; host_keep
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; host_keep
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; host_keep
    _ = m ((c : Thread nD τ).loc main_arg8) := rfl

theorem w6_arg9 : W6 (F := Ideal) m ρ c (Proc.devRef .tc main_arg9) = m ((c : Thread nD τ).loc main_arg9) :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by show StableHlo.after hostOps2 (W4 m ρ c) (Proc.devRef .tc main_arg9) = _; host_keep
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; host_keep
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; host_keep
    _ = m ((c : Thread nD τ).loc main_arg9) := rfl

theorem w7_arg10 : W7 (F := Ideal) m ρ c (Proc.devRef .tc main_arg10) = m ((c : Thread nD τ).loc main_arg10) :=
  calc W7 (F := Ideal) m ρ c (Proc.devRef .tc main_arg10)
    _ = W6 m ρ c (Proc.devRef .tc main_arg10) := by show StableHlo.after hostOps3 (W6 m ρ c) (Proc.devRef .tc main_arg10) = _; host_keep
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; host_keep
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; host_keep
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; host_keep
    _ = m ((c : Thread nD τ).loc main_arg10) := rfl

theorem w8_arg11 : W8 (F := Ideal) m ρ c (Proc.devRef .tc main_arg11) = m ((c : Thread nD τ).loc main_arg11) :=
  calc W8 (F := Ideal) m ρ c (Proc.devRef .tc main_arg11)
    _ = W7 m ρ c (Proc.devRef .tc main_arg11) := W8_of_ne m ρ c main_arg11 (by decide)
    _ = W6 m ρ c (Proc.devRef .tc main_arg11) := by show StableHlo.after hostOps3 (W6 m ρ c) (Proc.devRef .tc main_arg11) = _; host_keep
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; host_keep
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; host_keep
    _ = W1 m ρ c (Proc.devRef .tc main_arg11) := W2_of_ne m ρ c main_arg11 (by decide)
    _ = W0 m ρ c (Proc.devRef .tc main_arg11) := by show StableHlo.after hostOps0 (W0 m ρ c) (Proc.devRef .tc main_arg11) = _; host_keep
    _ = m ((c : Thread nD τ).loc main_arg11) := rfl

theorem w8_arg12 : W8 (F := Ideal) m ρ c (Proc.devRef .tc main_arg12) = m ((c : Thread nD τ).loc main_arg12) :=
  calc W8 (F := Ideal) m ρ c (Proc.devRef .tc main_arg12)
    _ = W7 m ρ c (Proc.devRef .tc main_arg12) := W8_of_ne m ρ c main_arg12 (by decide)
    _ = W6 m ρ c (Proc.devRef .tc main_arg12) := by show StableHlo.after hostOps3 (W6 m ρ c) (Proc.devRef .tc main_arg12) = _; host_keep
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; host_keep
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; host_keep
    _ = W1 m ρ c (Proc.devRef .tc main_arg12) := W2_of_ne m ρ c main_arg12 (by decide)
    _ = W0 m ρ c (Proc.devRef .tc main_arg12) := by show StableHlo.after hostOps0 (W0 m ρ c) (Proc.devRef .tc main_arg12) = _; host_keep
    _ = m ((c : Thread nD τ).loc main_arg12) := rfl

theorem w9_arg13 : W9 (F := Ideal) m ρ c (Proc.devRef .tc main_arg13) = m ((c : Thread nD τ).loc main_arg13) :=
  calc W9 (F := Ideal) m ρ c (Proc.devRef .tc main_arg13)
    _ = W8 m ρ c (Proc.devRef .tc main_arg13) := by show StableHlo.after hostOps4 (W8 m ρ c) (Proc.devRef .tc main_arg13) = _; host_keep
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; host_keep
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; host_keep
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; host_keep
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; host_keep
    _ = m ((c : Thread nD τ).loc main_arg13) := rfl

theorem w10_arg13 : W10 (F := Ideal) m ρ c (Proc.devRef .tc main_arg13) = m ((c : Thread nD τ).loc main_arg13) :=
  calc W10 (F := Ideal) m ρ c (Proc.devRef .tc main_arg13)
    _ = W9 m ρ c (Proc.devRef .tc main_arg13) := (W10_arr m ρ c 1).trans (((dat4 (V9 m ρ) c).arrAt_in 1 rfl _).trans (A_eq4 (V9 m ρ) c 1))
    _ = W8 m ρ c (Proc.devRef .tc main_arg13) := by show StableHlo.after hostOps4 (W8 m ρ c) (Proc.devRef .tc main_arg13) = _; host_keep
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; host_keep
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; host_keep
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; host_keep
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; host_keep
    _ = m ((c : Thread nD τ).loc main_arg13) := rfl

theorem w10_arg14 : W10 (F := Ideal) m ρ c (Proc.devRef .tc main_arg14) = m ((c : Thread nD τ).loc main_arg14) :=
  calc W10 (F := Ideal) m ρ c (Proc.devRef .tc main_arg14)
    _ = W9 m ρ c (Proc.devRef .tc main_arg14) := W10_of_ne m ρ c main_arg14 (by decide)
    _ = W8 m ρ c (Proc.devRef .tc main_arg14) := by show StableHlo.after hostOps4 (W8 m ρ c) (Proc.devRef .tc main_arg14) = _; host_keep
    _ = W7 m ρ c (Proc.devRef .tc main_arg14) := W8_of_ne m ρ c main_arg14 (by decide)
    _ = W6 m ρ c (Proc.devRef .tc main_arg14) := by show StableHlo.after hostOps3 (W6 m ρ c) (Proc.devRef .tc main_arg14) = _; host_keep
    _ = W5 m ρ c (Proc.devRef .tc main_arg14) := W6_of_ne m ρ c main_arg14 (by decide)
    _ = W4 m ρ c (Proc.devRef .tc main_arg14) := by show StableHlo.after hostOps2 (W4 m ρ c) (Proc.devRef .tc main_arg14) = _; host_keep
    _ = W3 m ρ c (Proc.devRef .tc main_arg14) := W4_of_ne m ρ c main_arg14 (by decide)
    _ = W2 m ρ c (Proc.devRef .tc main_arg14) := by show StableHlo.after hostOps1 (W2 m ρ c) (Proc.devRef .tc main_arg14) = _; host_keep
    _ = W1 m ρ c (Proc.devRef .tc main_arg14) := W2_of_ne m ρ c main_arg14 (by decide)
    _ = W0 m ρ c (Proc.devRef .tc main_arg14) := by show StableHlo.after hostOps0 (W0 m ρ c) (Proc.devRef .tc main_arg14) = _; host_keep
    _ = m ((c : Thread nD τ).loc main_arg14) := rfl

theorem w10_arg15 : W10 (F := Ideal) m ρ c (Proc.devRef .tc main_arg15) = m ((c : Thread nD τ).loc main_arg15) :=
  calc W10 (F := Ideal) m ρ c (Proc.devRef .tc main_arg15)
    _ = W9 m ρ c (Proc.devRef .tc main_arg15) := W10_of_ne m ρ c main_arg15 (by decide)
    _ = W8 m ρ c (Proc.devRef .tc main_arg15) := by show StableHlo.after hostOps4 (W8 m ρ c) (Proc.devRef .tc main_arg15) = _; host_keep
    _ = W7 m ρ c (Proc.devRef .tc main_arg15) := W8_of_ne m ρ c main_arg15 (by decide)
    _ = W6 m ρ c (Proc.devRef .tc main_arg15) := by show StableHlo.after hostOps3 (W6 m ρ c) (Proc.devRef .tc main_arg15) = _; host_keep
    _ = W5 m ρ c (Proc.devRef .tc main_arg15) := W6_of_ne m ρ c main_arg15 (by decide)
    _ = W4 m ρ c (Proc.devRef .tc main_arg15) := by show StableHlo.after hostOps2 (W4 m ρ c) (Proc.devRef .tc main_arg15) = _; host_keep
    _ = W3 m ρ c (Proc.devRef .tc main_arg15) := W4_of_ne m ρ c main_arg15 (by decide)
    _ = W2 m ρ c (Proc.devRef .tc main_arg15) := by show StableHlo.after hostOps1 (W2 m ρ c) (Proc.devRef .tc main_arg15) = _; host_keep
    _ = W1 m ρ c (Proc.devRef .tc main_arg15) := W2_of_ne m ρ c main_arg15 (by decide)
    _ = W0 m ρ c (Proc.devRef .tc main_arg15) := by show StableHlo.after hostOps0 (W0 m ρ c) (Proc.devRef .tc main_arg15) = _; host_keep
    _ = m ((c : Thread nD τ).loc main_arg15) := rfl

theorem w11_arg16 : W11 (F := Ideal) m ρ c (Proc.devRef .tc main_arg16) = m ((c : Thread nD τ).loc main_arg16) :=
  calc W11 (F := Ideal) m ρ c (Proc.devRef .tc main_arg16)
    _ = W10 m ρ c (Proc.devRef .tc main_arg16) := by show StableHlo.after hostOps5 (W10 m ρ c) (Proc.devRef .tc main_arg16) = _; host_keep
    _ = W9 m ρ c (Proc.devRef .tc main_arg16) := W10_of_ne m ρ c main_arg16 (by decide)
    _ = W8 m ρ c (Proc.devRef .tc main_arg16) := by show StableHlo.after hostOps4 (W8 m ρ c) (Proc.devRef .tc main_arg16) = _; host_keep
    _ = W7 m ρ c (Proc.devRef .tc main_arg16) := W8_of_ne m ρ c main_arg16 (by decide)
    _ = W6 m ρ c (Proc.devRef .tc main_arg16) := by show StableHlo.after hostOps3 (W6 m ρ c) (Proc.devRef .tc main_arg16) = _; host_keep
    _ = W5 m ρ c (Proc.devRef .tc main_arg16) := W6_of_ne m ρ c main_arg16 (by decide)
    _ = W4 m ρ c (Proc.devRef .tc main_arg16) := by show StableHlo.after hostOps2 (W4 m ρ c) (Proc.devRef .tc main_arg16) = _; host_keep
    _ = W3 m ρ c (Proc.devRef .tc main_arg16) := W4_of_ne m ρ c main_arg16 (by decide)
    _ = W2 m ρ c (Proc.devRef .tc main_arg16) := by show StableHlo.after hostOps1 (W2 m ρ c) (Proc.devRef .tc main_arg16) = _; host_keep
    _ = W1 m ρ c (Proc.devRef .tc main_arg16) := W2_of_ne m ρ c main_arg16 (by decide)
    _ = W0 m ρ c (Proc.devRef .tc main_arg16) := by show StableHlo.after hostOps0 (W0 m ρ c) (Proc.devRef .tc main_arg16) = _; host_keep
    _ = m ((c : Thread nD τ).loc main_arg16) := rfl

theorem w12_arg17 : W12 (F := Ideal) m ρ c (Proc.devRef .tc main_arg17) = m ((c : Thread nD τ).loc main_arg17) :=
  calc W12 (F := Ideal) m ρ c (Proc.devRef .tc main_arg17)
    _ = W11 m ρ c (Proc.devRef .tc main_arg17) := W12_of_ne m ρ c main_arg17 (by decide)
    _ = W10 m ρ c (Proc.devRef .tc main_arg17) := by show StableHlo.after hostOps5 (W10 m ρ c) (Proc.devRef .tc main_arg17) = _; host_keep
    _ = W9 m ρ c (Proc.devRef .tc main_arg17) := W10_of_ne m ρ c main_arg17 (by decide)
    _ = W8 m ρ c (Proc.devRef .tc main_arg17) := by show StableHlo.after hostOps4 (W8 m ρ c) (Proc.devRef .tc main_arg17) = _; host_keep
    _ = W7 m ρ c (Proc.devRef .tc main_arg17) := W8_of_ne m ρ c main_arg17 (by decide)
    _ = W6 m ρ c (Proc.devRef .tc main_arg17) := by show StableHlo.after hostOps3 (W6 m ρ c) (Proc.devRef .tc main_arg17) = _; host_keep
    _ = W5 m ρ c (Proc.devRef .tc main_arg17) := W6_of_ne m ρ c main_arg17 (by decide)
    _ = W4 m ρ c (Proc.devRef .tc main_arg17) := by show StableHlo.after hostOps2 (W4 m ρ c) (Proc.devRef .tc main_arg17) = _; host_keep
    _ = W3 m ρ c (Proc.devRef .tc main_arg17) := W4_of_ne m ρ c main_arg17 (by decide)
    _ = W2 m ρ c (Proc.devRef .tc main_arg17) := by show StableHlo.after hostOps1 (W2 m ρ c) (Proc.devRef .tc main_arg17) = _; host_keep
    _ = W1 m ρ c (Proc.devRef .tc main_arg17) := W2_of_ne m ρ c main_arg17 (by decide)
    _ = W0 m ρ c (Proc.devRef .tc main_arg17) := by show StableHlo.after hostOps0 (W0 m ρ c) (Proc.devRef .tc main_arg17) = _; host_keep
    _ = m ((c : Thread nD τ).loc main_arg17) := rfl

theorem w12_arg18 : W12 (F := Ideal) m ρ c (Proc.devRef .tc main_arg18) = m ((c : Thread nD τ).loc main_arg18) :=
  calc W12 (F := Ideal) m ρ c (Proc.devRef .tc main_arg18)
    _ = W11 m ρ c (Proc.devRef .tc main_arg18) := W12_of_ne m ρ c main_arg18 (by decide)
    _ = W10 m ρ c (Proc.devRef .tc main_arg18) := by show StableHlo.after hostOps5 (W10 m ρ c) (Proc.devRef .tc main_arg18) = _; host_keep
    _ = W9 m ρ c (Proc.devRef .tc main_arg18) := W10_of_ne m ρ c main_arg18 (by decide)
    _ = W8 m ρ c (Proc.devRef .tc main_arg18) := by show StableHlo.after hostOps4 (W8 m ρ c) (Proc.devRef .tc main_arg18) = _; host_keep
    _ = W7 m ρ c (Proc.devRef .tc main_arg18) := W8_of_ne m ρ c main_arg18 (by decide)
    _ = W6 m ρ c (Proc.devRef .tc main_arg18) := by show StableHlo.after hostOps3 (W6 m ρ c) (Proc.devRef .tc main_arg18) = _; host_keep
    _ = W5 m ρ c (Proc.devRef .tc main_arg18) := W6_of_ne m ρ c main_arg18 (by decide)
    _ = W4 m ρ c (Proc.devRef .tc main_arg18) := by show StableHlo.after hostOps2 (W4 m ρ c) (Proc.devRef .tc main_arg18) = _; host_keep
    _ = W3 m ρ c (Proc.devRef .tc main_arg18) := W4_of_ne m ρ c main_arg18 (by decide)
    _ = W2 m ρ c (Proc.devRef .tc main_arg18) := by show StableHlo.after hostOps1 (W2 m ρ c) (Proc.devRef .tc main_arg18) = _; host_keep
    _ = W1 m ρ c (Proc.devRef .tc main_arg18) := W2_of_ne m ρ c main_arg18 (by decide)
    _ = W0 m ρ c (Proc.devRef .tc main_arg18) := by show StableHlo.after hostOps0 (W0 m ρ c) (Proc.devRef .tc main_arg18) = _; host_keep
    _ = m ((c : Thread nD τ).loc main_arg18) := rfl

theorem w3_v0 : W3 (F := Ideal) m ρ c (Proc.devRef .tc main_v0) = W1 m ρ c (Proc.devRef .tc main_v0) :=
  calc W3 (F := Ideal) m ρ c (Proc.devRef .tc main_v0)
    _ = W2 m ρ c (Proc.devRef .tc main_v0) := by show StableHlo.after hostOps1 (W2 m ρ c) (Proc.devRef .tc main_v0) = _; host_keep
    _ = W1 m ρ c (Proc.devRef .tc main_v0) := (W2_arr m ρ c 0).trans (((dat0 (V1 m ρ) c).arrAt_in 0 rfl _).trans (A_eq0 (V1 m ρ) c 0))

theorem w5_v20_0 : W5 (F := Ideal) m ρ c (Proc.devRef .tc main_v20_0) = W4 m ρ c (Proc.devRef .tc main_v20_0) :=
  calc W5 (F := Ideal) m ρ c (Proc.devRef .tc main_v20_0)
    _ = W4 m ρ c (Proc.devRef .tc main_v20_0) := by show StableHlo.after hostOps2 (W4 m ρ c) (Proc.devRef .tc main_v20_0) = _; host_keep

theorem w7_v20_0 : W7 (F := Ideal) m ρ c (Proc.devRef .tc main_v20_0) = W4 m ρ c (Proc.devRef .tc main_v20_0) :=
  calc W7 (F := Ideal) m ρ c (Proc.devRef .tc main_v20_0)
    _ = W6 m ρ c (Proc.devRef .tc main_v20_0) := by show StableHlo.after hostOps3 (W6 m ρ c) (Proc.devRef .tc main_v20_0) = _; host_keep
    _ = W5 m ρ c (Proc.devRef .tc main_v20_0) := (W6_arr m ρ c 0).trans (((dat2 (V5 m ρ) c).arrAt_in 0 rfl _).trans (A_eq2 (V5 m ρ) c 0))
    _ = W4 m ρ c (Proc.devRef .tc main_v20_0) := by show StableHlo.after hostOps2 (W4 m ρ c) (Proc.devRef .tc main_v20_0) = _; host_keep

theorem w7_v34 : W7 (F := Ideal) m ρ c (Proc.devRef .tc main_v34) = W5 m ρ c (Proc.devRef .tc main_v34) :=
  calc W7 (F := Ideal) m ρ c (Proc.devRef .tc main_v34)
    _ = W6 m ρ c (Proc.devRef .tc main_v34) := by show StableHlo.after hostOps3 (W6 m ρ c) (Proc.devRef .tc main_v34) = _; host_keep
    _ = W5 m ρ c (Proc.devRef .tc main_v34) := (W6_arr m ρ c 2).trans (((dat2 (V5 m ρ) c).arrAt_in 2 rfl _).trans (A_eq2 (V5 m ρ) c 2))

theorem w7_v36 : W7 (F := Ideal) m ρ c (Proc.devRef .tc main_v36) = W5 m ρ c (Proc.devRef .tc main_v36) :=
  calc W7 (F := Ideal) m ρ c (Proc.devRef .tc main_v36)
    _ = W6 m ρ c (Proc.devRef .tc main_v36) := by show StableHlo.after hostOps3 (W6 m ρ c) (Proc.devRef .tc main_v36) = _; host_keep
    _ = W5 m ρ c (Proc.devRef .tc main_v36) := (W6_arr m ρ c 3).trans (((dat2 (V5 m ρ) c).arrAt_in 3 rfl _).trans (A_eq2 (V5 m ρ) c 3))

theorem w9_v56_0 : W9 (F := Ideal) m ρ c (Proc.devRef .tc main_v56_0) = W8 m ρ c (Proc.devRef .tc main_v56_0) :=
  calc W9 (F := Ideal) m ρ c (Proc.devRef .tc main_v56_0)
    _ = W8 m ρ c (Proc.devRef .tc main_v56_0) := by show StableHlo.after hostOps4 (W8 m ρ c) (Proc.devRef .tc main_v56_0) = _; host_keep

theorem w11_v56_0 : W11 (F := Ideal) m ρ c (Proc.devRef .tc main_v56_0) = W8 m ρ c (Proc.devRef .tc main_v56_0) :=
  calc W11 (F := Ideal) m ρ c (Proc.devRef .tc main_v56_0)
    _ = W10 m ρ c (Proc.devRef .tc main_v56_0) := by show StableHlo.after hostOps5 (W10 m ρ c) (Proc.devRef .tc main_v56_0) = _; host_keep
    _ = W9 m ρ c (Proc.devRef .tc main_v56_0) := (W10_arr m ρ c 0).trans (((dat4 (V9 m ρ) c).arrAt_in 0 rfl _).trans (A_eq4 (V9 m ρ) c 0))
    _ = W8 m ρ c (Proc.devRef .tc main_v56_0) := by show StableHlo.after hostOps4 (W8 m ρ c) (Proc.devRef .tc main_v56_0) = _; host_keep

theorem w11_v70 : W11 (F := Ideal) m ρ c (Proc.devRef .tc main_v70) = W9 m ρ c (Proc.devRef .tc main_v70) :=
  calc W11 (F := Ideal) m ρ c (Proc.devRef .tc main_v70)
    _ = W10 m ρ c (Proc.devRef .tc main_v70) := by show StableHlo.after hostOps5 (W10 m ρ c) (Proc.devRef .tc main_v70) = _; host_keep
    _ = W9 m ρ c (Proc.devRef .tc main_v70) := (W10_arr m ρ c 2).trans (((dat4 (V9 m ρ) c).arrAt_in 2 rfl _).trans (A_eq4 (V9 m ρ) c 2))

theorem w11_v72 : W11 (F := Ideal) m ρ c (Proc.devRef .tc main_v72) = W9 m ρ c (Proc.devRef .tc main_v72) :=
  calc W11 (F := Ideal) m ρ c (Proc.devRef .tc main_v72)
    _ = W10 m ρ c (Proc.devRef .tc main_v72) := by show StableHlo.after hostOps5 (W10 m ρ c) (Proc.devRef .tc main_v72) = _; host_keep
    _ = W9 m ρ c (Proc.devRef .tc main_v72) := (W10_arr m ρ c 3).trans (((dat4 (V9 m ρ) c).arrAt_in 3 rfl _).trans (A_eq4 (V9 m ρ) c 3))

theorem w13_v92_0 : W13 (F := Ideal) m ρ c (Proc.devRef .tc main_v92_0) = W12 m ρ c (Proc.devRef .tc main_v92_0) :=
  calc W13 (F := Ideal) m ρ c (Proc.devRef .tc main_v92_0)
    _ = W12 m ρ c (Proc.devRef .tc main_v92_0) := by show StableHlo.after hostOps6 (W12 m ρ c) (Proc.devRef .tc main_v92_0) = _; host_keep

end Cert.KernelIdeal.Flow

end
-- ==== Proof.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.LibLayoutIdx.lean ====
/-
  HOST layout operations READ AT AN INDEX GIVEN BY COORDINATES, general in the extents and in the element type: what a
  program's host part does to its arguments before a kernel sees them.
  • Four `[A, B, K]` arrays laid side by side on the last axis (`concatenate4_last_apply`): position `i·K + f` of the result
    holds array `i` at `f`.
  • Two `[N, 1]` columns laid side by side (`concatenate2_cols_apply`), a vector made a column (`broadcastInDim_a_a1_apply`,
    `shapeCast_a_a1_apply`), and the two together: two vectors stacked as the columns of an `[N, 2]` array (`stack2_apply`).
  (The row-major reshape of `[A, K, G]` to `[A·K, G]` and a vector made a row are in the kernel-side index library and in the
  library's own layout lemmas.)
-/
import Idealize.ShloMosaic.Lib.ValueLayout

namespace Cert.LayoutIdx

open Idealize.ShloMosaic Idealize.ShloMosaic.ValueIdx

variable {α : Type}

/-! ## Four arrays side by side on the last axis -/

/-- Four `[A, B, K]` arrays concatenated on the last axis into `[A, B, n]`, read at `(a, b, j)` with `j = i·K + f`: array `i`
    at `(a, b, f)`. -/
theorem concatenate4_last_apply {A B K n : ℕ} (u0 u1 u2 u3 : (⟨3, ![A, B, K]⟩ : Shape).Idx → α)
    (h : Shape.Concatenates [⟨3, ![A, B, K]⟩, ⟨3, ![A, B, K]⟩, ⟨3, ![A, B, K]⟩, ⟨3, ![A, B, K]⟩] ⟨3, ![A, B, n]⟩ 2)
    (a : Fin A) (b : Fin B) (i : Fin 4) (f : Fin K) (j : Fin n) (hj : j.val = i.val * K + f.val) :
    concatenate ⟨3, ![A, B, n]⟩ 2
        [⟨⟨3, ![A, B, K]⟩, u0⟩, ⟨⟨3, ![A, B, K]⟩, u1⟩, ⟨⟨3, ![A, B, K]⟩, u2⟩, ⟨⟨3, ![A, B, K]⟩, u3⟩] h (ix3 a b j)
      = (![u0, u1, u2, u3] i) (ix3 a b f) := by
  have hoff : ∀ bb : Fin 3, bb.cast (rfl : (3 : ℕ) = 3) ≠ (2 : Fin 3) →
      ((ix3 a b f) bb).val = ((ix3 a b j) (bb.cast (rfl : (3 : ℕ) = 3))).val := fun bb hb => by
    match bb with
    | ⟨0, _⟩ => rfl
    | ⟨1, _⟩ => rfl
    | ⟨2, _⟩ => exact absurd (Fin.ext rfl) hb
  match i with
  | ⟨0, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 0
      (by show 0 < 4; omega) ⟨3, ![A, B, K]⟩ u0 rfl rfl _ rfl (ix3 a b f) hoff ?_
    show 0 + f.val = j.val
    rw [hj]; show 0 + f.val = 0 * K + f.val; omega
  | ⟨1, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 1
      (by show 1 < 4; omega) ⟨3, ![A, B, K]⟩ u1 rfl rfl _ rfl (ix3 a b f) hoff ?_
    show (K + 0) + f.val = j.val
    rw [hj]; show (K + 0) + f.val = 1 * K + f.val; omega
  | ⟨2, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 2
      (by show 2 < 4; omega) ⟨3, ![A, B, K]⟩ u2 rfl rfl _ rfl (ix3 a b f) hoff ?_
    show (K + (K + 0)) + f.val = j.val
    rw [hj]; show (K + (K + 0)) + f.val = 2 * K + f.val; omega
  | ⟨3, _⟩ =>
    refine concatenate_apply_piece (t := ⟨3, ![A, B, n]⟩) 2 [⟨⟨3, ![A, B, K]⟩, u0⟩, ⟨⟨3, ![A, B, K]⟩, u1⟩, ⟨⟨3, ![A, B, K]⟩, u2⟩, ⟨⟨3, ![A, B, K]⟩, u3⟩] h (ix3 a b j) 3
      (by show 3 < 4; omega) ⟨3, ![A, B, K]⟩ u3 rfl rfl _ rfl (ix3 a b f) hoff ?_
    show (K + (K + (K + 0))) + f.val = j.val
    rw [hj]; show (K + (K + (K + 0))) + f.val = 3 * K + f.val; omega

/-! ## A vector made a column, and two columns side by side -/

/-- An `[N]` array cast to `[N, 1]` reads, at `(n, u)`, the operand at `n`, whatever the unit coordinate. -/
theorem shapeCast_a_a1_apply {N : ℕ} (x : (⟨1, ![N]⟩ : Shape).Idx → α) (h : (⟨1, ![N]⟩ : Shape).ShapeCasts ⟨2, ![N, 1]⟩)
    (n : Fin N) (u : Fin 1) : shapeCast ⟨2, ![N, 1]⟩ x h (ix2 n u) = x (ix1 n) :=
  shapeCast_apply x h _ _ (by
    have hu : u.val = 0 := by omega
    rw [Shape.rowMajor_val_one, Shape.rowMajor_val_two]
    show n.val = n.val * 1 + u.val
    rw [hu, Nat.mul_one, Nat.add_zero])

/-- An `[N]` array broadcast along a new unit last axis to `[N, 1]` reads, at `(n, u)`, the operand at `n`. -/
theorem broadcastInDim_a_a1_apply {N : ℕ} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply _ h x (ix2 n u) (ix1 n) fun ax => ?_
  match ax with
  | ⟨0, _⟩ =>
    show n.val = if N = 1 then 0 else n.val
    split
    · have := n.isLt; omega
    · rfl

/-- Two `[N, 1]` columns concatenated on the last axis into `[N, 2]`, read at `(n, g)`: the first column at `n` if `g = 0`, the
    second if `g = 1`. -/
theorem concatenate2_cols_apply {N : ℕ} (x y : (⟨2, ![N, 1]⟩ : Shape).Idx → α)
    (h : Shape.Concatenates [⟨2, ![N, 1]⟩, ⟨2, ![N, 1]⟩] ⟨2, ![N, 2]⟩ 1) (n : Fin N) (g : Fin 2) :
    concatenate ⟨2, ![N, 2]⟩ 1 [⟨⟨2, ![N, 1]⟩, x⟩, ⟨⟨2, ![N, 1]⟩, y⟩] h (ix2 n g)
      = ![x (ix2 n (0 : Fin 1)), y (ix2 n (0 : Fin 1))] g := by
  match g with
  | ⟨0, _⟩ =>
    refine concatenate_pair_apply_left 1 x y h _ rfl (ix2 n (0 : Fin 1)) fun bb => ?_
    match bb with
    | ⟨0, _⟩ => rfl
    | ⟨1, _⟩ => rfl
  | ⟨1, _⟩ =>
    refine concatenate_pair_apply_right 1 x y h _ rfl rfl (ix2 n (0 : Fin 1)) (fun bb hb => ?_) rfl
    match bb with
    | ⟨0, _⟩ => rfl
    | ⟨1, _⟩ => exact absurd (Fin.ext rfl) hb

/-- Two `[N]` arrays, each broadcast to a column `[N, 1]`, concatenated into `[N, 2]`, read at `(n, g)`: the first array at `n`
    if `g = 0`, the second if `g = 1`. -/
theorem stack2_apply {N : ℕ} (x y : (⟨1, ![N]⟩ : Shape).Idx → α)
    (hb : (⟨1, ![N]⟩ : Shape).BroadcastsInDim ⟨2, ![N, 1]⟩ ![0])
    (hc : Shape.Concatenates [⟨2, ![N, 1]⟩, ⟨2, ![N, 1]⟩] ⟨2, ![N, 2]⟩ 1) (n : Fin N) (g : Fin 2) :
    concatenate ⟨2, ![N, 2]⟩ 1
        [⟨⟨2, ![N, 1]⟩, broadcastInDim ⟨2, ![N, 1]⟩ ![0] hb x⟩, ⟨⟨2, ![N, 1]⟩, broadcastInDim ⟨2, ![N, 1]⟩ ![0] hb y⟩] hc (ix2 n g)
      = ![x (ix1 n), y (ix1 n)] g := by
  rw [concatenate2_cols_apply, broadcastInDim_a_a1_apply, broadcastInDim_a_a1_apply]

end Cert.LayoutIdx
-- ==== Proof.KMain1Pay.lean ====
/-
  The fused pair of 1×1 convolutions of the first main region, one batch row at a time, read entry by entry over the
  extended reals. For a batch row `a` (64 channels by 4096 pixels) the body computes
      y₂ = W₂ · lrelu (W₁ · a + t₁),      lrelu z = max z (0.2 · z),
  two matrix products into zero accumulators with a per-row shift and the leaky rectifier between them: entry (d, p) of
  y₂ depends on column p of `a` alone. It then adds to two running columns, per output channel d, the sum over the
  pixels of y₂ and of y₂ · y₂.
-/
import proofs.«126831_g2000503633499865_pallasbulk_555_4_alg».proof.Proof.Gen.KernelIdeal.Skeleton
import proofs.«126831_g2000503633499865_pallasbulk_555_4_alg».proof.Proof.LibPayIdx
import proofs.«126831_g2000503633499865_pallasbulk_555_4_alg».proof.Proof.LibLayoutIdx
import Idealize.ShloMosaic.Lib.ValueIdx
import Idealize.ShloMosaic.Lib.ValueLayout
import Idealize.ShloMosaic.PureOps.Ideal.Laws

noncomputable section

open scoped BigOperators

namespace Cert.KMain1

open Idealize.ShloMosaic Idealize.ShloMosaic.ValueIdx Cert.KernelIdeal Cert.KernelIdeal.Gen

/-! ## The mathematics of one column -/

/-- The leaky rectifier with the slope the body carries as a literal. -/
def lrelu (z : EReal) : EReal := max z (Ideal.ofBits .f32 0x3E4CCCCD#32 * z)

/-- Hidden unit `k` of a column `a` of 64 channel values: row `k` of `W₁` against the column, shifted, rectified. -/
def hid (W1 : S128x64.Idx → EReal) (t1 : S128x1.Idx → EReal) (a : Fin 64 → EReal) (k : Fin 128) : EReal :=
  lrelu ((∑ k' : Fin 64, W1 (ix2 k k') * a k') + t1 (ix2 k (0 : Fin 1)))

/-- Output channel `d` of the column: row `d` of `W₂` against the 128 hidden units. -/
def y2 (W1 : S128x64.Idx → EReal) (t1 : S128x1.Idx → EReal) (W2 : S64x128.Idx → EReal) (a : Fin 64 → EReal)
    (d : Fin 64) : EReal :=
  ∑ k : Fin 128, W2 (ix2 d k) * hid W1 t1 a k

/-! ## Layout steps at an index -/

/-- A column `[a, 1]` broadcast along the lanes to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The sum over the lanes of an `[a, b]` array from the zero accumulator, read at row `i`. -/
theorem lanesum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ p : Fin b, src (ix2 i p) := by
  refine (Ideal.multiReduction_add_single src 0x00000000#32 h hφ hacc (ix1 i)).trans ?_
  refine Finset.sum_congr rfl fun p _ => congrArg src ?_
  funext ax; apply Fin.ext
  match ax with
  | ⟨0, _⟩ => rfl
  | ⟨1, _⟩ => rfl

/-- The rectifier on a whole vector, at an index. -/
theorem lrelu_vec_apply {s : Shape} (Z : FVec Ideal s .f32) (j : s.Idx) :
    maximumf Z (mulf (broadcast s (Scalar.ofBits .f32 0x3E4CCCCD#32)) Z) j = lrelu (Z j) := rfl

/-! ## The two products with the rectifier between, at an entry -/

/-- `W₂ · lrelu (W₁ · X + t₁)` at `(d, p)`, for any `[64, 4096]` operand `X`: the column function of column `p` of `X`. -/
theorem conv_pair_apply (w1 : FVec Ideal S128x64 .f32) (w2 : FVec Ideal S64x128 .f32) (X : FVec Ideal S64x4096 .f32)
    (t1 : FVec Ideal S128x1 .f32) (d : Fin 64) (p : Fin 4096) :
    matmul dot_S64x128_S128x4096_S64x4096_1_0_0_1_n_n none w2
      (maximumf
        (addf (matmul dot_S128x64_S64x4096_S128x4096_1_0_0_1_n_n none w1 X (constant S128x4096 .f32 0x00000000#32))
          (broadcastTo S128x4096 (shapeCast S128x1 t1 shapeCasts_S128x1_S128x1) broadcasts_S128x1_S128x4096))
        (mulf (broadcast S128x4096 (Scalar.ofBits .f32 0x3E4CCCCD#32))
          (addf (matmul dot_S128x64_S64x4096_S128x4096_1_0_0_1_n_n none w1 X (constant S128x4096 .f32 0x00000000#32))
            (broadcastTo S128x4096 (shapeCast S128x1 t1 shapeCasts_S128x1_S128x1) broadcasts_S128x1_S128x4096))))
      (constant S64x4096 .f32 0x00000000#32) (ix2 d p)
    = y2 w1 t1 w2 (fun k' => X (ix2 k' p)) d := by
  refine (Hand.matmul_plain_zero_apply dot_S64x128_S128x4096_S64x4096_1_0_0_1_n_n_wf none w2 _ d p).trans ?_
  refine Finset.sum_congr rfl fun k _ => congrArg (w2 (ix2 d k) * ·) ?_
  refine (lrelu_vec_apply _ (ix2 k p)).trans (congrArg lrelu ?_)
  refine (addf_apply _ _ _).trans (congrArg₂ (· + ·) ?_ ?_)
  · exact Hand.matmul_plain_zero_apply dot_S128x64_S64x4096_S128x4096_1_0_0_1_n_n_wf none w1 X k p
  · exact (broadcastTo_a1_ab_apply _ broadcasts_S128x1_S128x4096 k p).trans
      (congrFun (shapeCast_self t1 shapeCasts_S128x1_S128x1) _)

/-- A running column plus the lane sums of a `[64, 4096]` array, as the body writes it back, at channel `d`. -/
theorem acc_sum_apply (Y : FVec Ideal S64x4096 .f32) (acc : FVec Ideal S1x64x1 .f32) (hφ : FKind.Formats .f32)
    (hacc : (0x00000000#32 : BitVec 32) = 0x00000000#32) (u : Fin 1) (d : Fin 64) (v : Fin 1) :
    shapeCast S1x64x1
        (addf (shapeCast S64x1 acc shapeCasts_S1x64x1_S64x1)
          (shapeCast S64x1 (multiReduction .add [1] S64 Y 0x00000000#32 reduces_S64x4096_S64 hφ hacc) shapeCasts_S64_S64x1))
        shapeCasts_S64x1_S1x64x1 (ix3 u d v)
      = acc (ix3 (0 : Fin 1) d v) + ∑ p : Fin 4096, Y (ix2 d p) := by
  refine (shapeCast_ab_1ab_apply _ shapeCasts_S64x1_S1x64x1 u d v).trans ?_
  refine (addf_apply _ _ _).trans (congrArg₂ (· + ·) ?_ ?_)
  · exact shapeCast_1ab_ab_apply acc shapeCasts_S1x64x1_S64x1 d v
  · exact (Cert.LayoutIdx.shapeCast_a_a1_apply _ shapeCasts_S64_S64x1 d v).trans
      (lanesum_apply Y reduces_S64x4096_S64 hφ hacc d)

/-! ## The body's payloads at an index -/

/-- Row 0's product pair at `(d, p)`. -/
theorem pay5_apply (v3 : Vec Ideal S128x64 .f32) (v5 : Vec Ideal S64x128 .f32) (v6 : Vec Ideal S1x64x4096 .f32)
    (v9 : Vec Ideal S128x1 .f32) (d : Fin 64) (p : Fin 4096) :
    k1_pay5 v3 v5 v6 v9 (ix2 d p) = y2 v3 v9 v5 (fun k' => v6 (ix3 (0 : Fin 1) k' p)) d := by
  refine (conv_pair_apply (k1_pay4 v3) v5 (shapeCast S64x4096 v6 shapeCasts_S1x64x4096_S64x4096) v9 d p).trans ?_
  unfold k1_pay4
  rw [shapeCast_self]
  exact congrArg (fun a => y2 v3 v9 v5 a d)
    (funext fun k' => shapeCast_1ab_ab_apply v6 shapeCasts_S1x64x4096_S64x4096 k' p)

/-- Row 1's product pair at `(d, p)` (the first weight already re-laid). -/
theorem pay9_apply (v4 : FVec Ideal S128x64 .f32) (v5 : Vec Ideal S64x128 .f32) (v37 : Vec Ideal S1x64x4096 .f32)
    (v40 : Vec Ideal S128x1 .f32) (d : Fin 64) (p : Fin 4096) :
    k1_pay9 v4 v5 v37 v40 (ix2 d p) = y2 v4 v40 v5 (fun k' => v37 (ix3 (0 : Fin 1) k' p)) d :=
  (conv_pair_apply v4 v5 (shapeCast S64x4096 v37 shapeCasts_S1x64x4096_S64x4096) v40 d p).trans
    (congrArg (fun a => y2 v4 v40 v5 a d)
      (funext fun k' => shapeCast_1ab_ab_apply v37 shapeCasts_S1x64x4096_S64x4096 k' p))

theorem pay4_eq (v3 : Vec Ideal S128x64 .f32) : k1_pay4 v3 = v3 := by
  unfold k1_pay4; exact shapeCast_self v3 _

/-- What row 0 stores to the activation block, at `(u, d, p)`. -/
theorem pay6_apply (v3 : Vec Ideal S128x64 .f32) (v5 : Vec Ideal S64x128 .f32) (v6 : Vec Ideal S1x64x4096 .f32)
    (v9 : Vec Ideal S128x1 .f32) (u : Fin 1) (d : Fin 64) (p : Fin 4096) :
    k1_pay6 v3 v5 v6 v9 (ix3 u d p) = y2 v3 v9 v5 (fun k' => v6 (ix3 (0 : Fin 1) k' p)) d :=
  (shapeCast_ab_1ab_apply (k1_pay5 v3 v5 v6 v9) shapeCasts_S64x4096_S1x64x4096 u d p).trans (pay5_apply v3 v5 v6 v9 d p)

/-- What row 1 stores to the activation block, at `(u, d, p)`. -/
theorem pay10_apply (v4 : FVec Ideal S128x64 .f32) (v5 : Vec Ideal S64x128 .f32) (v37 : Vec Ideal S1x64x4096 .f32)
    (v40 : Vec Ideal S128x1 .f32) (u : Fin 1) (d : Fin 64) (p : Fin 4096) :
    k1_pay10 v4 v5 v37 v40 (ix3 u d p) = y2 v4 v40 v5 (fun k' => v37 (ix3 (0 : Fin 1) k' p)) d :=
  (shapeCast_ab_1ab_apply (k1_pay9 v4 v5 v37 v40) shapeCasts_S64x4096_S1x64x4096 u d p).trans (pay9_apply v4 v5 v37 v40 d p)

/-- The running sum after row 0. -/
theorem pay7_apply (v3 : Vec Ideal S128x64 .f32) (v5 : Vec Ideal S64x128 .f32) (v6 : Vec Ideal S1x64x4096 .f32)
    (v9 : Vec Ideal S128x1 .f32) (v20 : Vec Ideal S1x64x1 .f32) (u : Fin 1) (d : Fin 64) (v : Fin 1) :
    k1_pay7 v3 v5 v6 v9 v20 (ix3 u d v)
      = v20 (ix3 (0 : Fin 1) d v) + ∑ p : Fin 4096, y2 v3 v9 v5 (fun k' => v6 (ix3 (0 : Fin 1) k' p)) d :=
  (acc_sum_apply (k1_pay5 v3 v5 v6 v9) v20 (.inl rfl) rfl u d v).trans
    (congrArg (v20 (ix3 (0 : Fin 1) d v) + ·) (Finset.sum_congr rfl fun p _ => pay5_apply v3 v5 v6 v9 d p))

/-- The running sum after row 1. -/
theorem pay11_apply (v4 : FVec Ideal S128x64 .f32) (v5 : Vec Ideal S64x128 .f32) (v37 : Vec Ideal S1x64x4096 .f32)
    (v40 : Vec Ideal S128x1 .f32) (v51 : Vec Ideal S1x64x1 .f32) (u : Fin 1) (d : Fin 64) (v : Fin 1) :
    k1_pay11 v4 v5 v37 v40 v51 (ix3 u d v)
      = v51 (ix3 (0 : Fin 1) d v) + ∑ p : Fin 4096, y2 v4 v40 v5 (fun k' => v37 (ix3 (0 : Fin 1) k' p)) d :=
  (acc_sum_apply (k1_pay9 v4 v5 v37 v40) v51 (.inl rfl) rfl u d v).trans
    (congrArg (v51 (ix3 (0 : Fin 1) d v) + ·) (Finset.sum_congr rfl fun p _ => pay9_apply v4 v5 v37 v40 d p))

/-- The running sum of squares after row 0, over any `[64, 4096]` array `Y`. -/
theorem pay8_apply (v16 : FVec Ideal S64x4096 .f32) (v28 : Vec Ideal S1x64x1 .f32) (u : Fin 1) (d : Fin 64) (v : Fin 1) :
    k1_pay8 v16 v28 (ix3 u d v) = v28 (ix3 (0 : Fin 1) d v) + ∑ p : Fin 4096, v16 (ix2 d p) * v16 (ix2 d p) :=
  acc_sum_apply (mulf v16 v16) v28 (.inl rfl) rfl u d v

/-- The running sum of squares after row 1. -/
theorem pay1_apply (v47 : FVec Ideal S64x4096 .f32) (v59 : Vec Ideal S1x64x1 .f32) (u : Fin 1) (d : Fin 64) (v : Fin 1) :
    k1_pay1 v47 v59 (ix3 u d v) = v59 (ix3 (0 : Fin 1) d v) + ∑ p : Fin 4096, v47 (ix2 d p) * v47 (ix2 d p) :=
  acc_sum_apply (mulf v47 v47) v59 (.inl rfl) rfl u d v

/-- The zero column the first point of a core stores to the running sum, -/
theorem pay2_apply (u : Fin 1) (d : Fin 64) (v : Fin 1) :
    k1_pay2 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

/-- and to the running sum of squares. -/
theorem pay3_apply (u : Fin 1) (d : Fin 64) (v : Fin 1) :
    k1_pay3 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

end Cert.KMain1

end
-- ==== Proof.KMain1Pieces.lean ====
/-
  What one grid point of the first main region leaves in its three output buffers, as terms over the body's payloads.
  The body handles the two batch rows of its block one after the other. The activation buffer receives one store per
  row; each running column is read, increased by the row's lane sums and stored back, twice; the first point of a core
  stores a zero column first. Reading a column back right after a store of the whole column gives the stored payload, so
  what the last store leaves is a nest of payloads over the input blocks (and, off a core's first point, over the
  columns the previous point left).
-/
import proofs.«126831_g2000503633499865_pallasbulk_555_4_alg».proof.Proof.Gen.KernelIdeal.Frame
import Idealize.ShloMosaic.Lib.Pipeline.Value
import Idealize.ShloMosaic.Lib.Tactic
import Idealize.ShloMosaic.Lib.WritesUnit
import Idealize.ShloMosaic.Lib.ValueIdx

noncomputable section

namespace Cert.KMain1

open Idealize.ShloMosaic Idealize.ShloMosaic.TcCoe Idealize.ShloMosaic.ValueIdx Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Batch row 0 of a two-row block, -/
abbrev R0 : Rect S2x64x4096 := Rect.unit (s := S2x64x4096) ![0, 0, 0] S1x64x4096.size inb_S2x64x4096_S1x64x4096_0_0_0
/-- and batch row 1. -/
abbrev R1 : Rect S2x64x4096 := Rect.unit (s := S2x64x4096) ![1, 0, 0] S1x64x4096.size inb_S2x64x4096_S1x64x4096_1_0_0

/-- A buffer of two batch rows written by one store per row, row 1 last: at `(n, d, p)` it holds row `n`'s payload at
    `(0, d, p)`, whatever it held before. -/
theorem two_rows_apply (v : View sig .tc .vmem S2x64x4096 .f32) (f : v.ty.Contents (Elt F))
    (P1 P0 : Vec F S1x64x4096 .f32) (n : Fin 2) (d : Fin 64) (p : Fin 4096) :
    v.read (Elt F) (v.writes (Elt F) f [⟨R1, P1⟩, ⟨R0, P0⟩]) (ix3 n d p)
      = if n.val = 0 then P0 (ix3 (0 : Fin 1) d p) else P1 (ix3 (0 : Fin 1) d p) := by
  by_cases hn : n.val = 0
  · rw [if_pos hn]
    refine (View.read_writes_cons_unit_of_not_mem v f _ P1 _ (ix3 n d p) rfl (0 : Fin 3)
      (Or.inl (by show n.val < 1; omega))).trans ?_
    exact View.read_writes_cons_unit_of_mem v f _ P0 [] (ix3 n d p) (ix3 (0 : Fin 1) d p) rfl (fun a => by
      match a with
      | ⟨0, _⟩ => show n.val = 0 + 0; omega
      | ⟨1, _⟩ => show d.val = 0 + d.val; omega
      | ⟨2, _⟩ => show p.val = 0 + p.val; omega)
  · rw [if_neg hn]
    exact View.read_writes_cons_unit_of_mem v f _ P1 _ (ix3 n d p) (ix3 (0 : Fin 1) d p) rfl (fun a => by
      match a with
      | ⟨0, _⟩ => show n.val = 1 + 0; have := n.isLt; omega
      | ⟨1, _⟩ => show d.val = 0 + d.val; omega
      | ⟨2, _⟩ => show p.val = 0 + p.val; omega)

/-! ## A core's first point: the columns start from zero -/

theorem out_A_4_apply (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : cond1_0 i) (x0 : Vec F S2x64x4096 .f32) (x1 : Vec F S128x64 .f32) (x2 : Vec F S128x1 .f32) (x3 : Vec F S64x128 .f32) (n : Fin 2) (d : Fin 64) (p : Fin 4096) :
    out1_A_4 c i arg2 harg2 arg3 harg3 arg4 harg4 arg5 harg5 arg6 harg6 arg7 harg7 arg8 harg8 hc0 x0 x1 x2 x3 (ix3 n d p)
      = if n.val = 0 then k1_pay6 x1 x3 (View.ld x0 R0) x2 (ix3 (0 : Fin 1) d p)
        else k1_pay10 (k1_pay4 x1) x3 (View.ld x0 R1) x2 (ix3 (0 : Fin 1) d p) := by
  unfold out1_A_4 kernelRun1_A
  dsimp only
  sl_unfold_words
  simp only [View.readCov_cons_toLoadRect, View.readAt_eq_ld, harg2.read_unread, harg3.read_unread, harg4.read_unread,
    harg5.read_unread, View.ld_unit_zero (S := S128x64) hz2,
    View.ld_unit_zero (S := S128x1) hz2, View.ld_unit_zero (S := S64x128) hz2, View.ld_unit_zero (S := S1x64x1) hz3]
  exact two_rows_apply VO1_4 VO1_4.junk _ _ n d p

theorem out_A_5 (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : cond1_0 i) (x0 : Vec F S2x64x4096 .f32) (x1 : Vec F S128x64 .f32) (x2 : Vec F S128x1 .f32) (x3 : Vec F S64x128 .f32) :
    out1_A_5 c i arg2 harg2 arg3 harg3 arg4 harg4 arg5 harg5 arg6 harg6 arg7 harg7 arg8 harg8 hc0 x0 x1 x2 x3
      = k1_pay11 (k1_pay4 x1) x3 (View.ld x0 R1) x2 (k1_pay7 x1 x3 (View.ld x0 R0) x2 k1_pay2) := by
  unfold out1_A_5
  rw [View.read_writes_eq_canon _ _ _ (cover1_A_5 c i arg2 harg2 arg3 harg3 arg4 harg4 arg5 harg5 arg6 harg6 arg7 harg7 arg8 harg8 hc0 x0 x1 x2 x3)]
  unfold kernelRun1_A
  dsimp only
  sl_unfold_words
  rw [View.canon_cons_unit_zero (S := S1x64x1) hz3]
  simp only [View.readCov_cons_toLoadRect, View.readAt_eq_ld, harg2.read_unread, harg3.read_unread, harg4.read_unread,
    harg5.read_unread, View.ld_unit_zero (S := S128x64) hz2,
    View.ld_unit_zero (S := S128x1) hz2, View.ld_unit_zero (S := S64x128) hz2, View.ld_unit_zero (S := S1x64x1) hz3]

theorem out_A_6 (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : cond1_0 i) (x0 : Vec F S2x64x4096 .f32) (x1 : Vec F S128x64 .f32) (x2 : Vec F S128x1 .f32) (x3 : Vec F S64x128 .f32) :
    out1_A_6 c i arg2 harg2 arg3 harg3 arg4 harg4 arg5 harg5 arg6 harg6 arg7 harg7 arg8 harg8 hc0 x0 x1 x2 x3
      = k1_pay1 (k1_pay9 (k1_pay4 x1) x3 (View.ld x0 R1) x2) (k1_pay8 (k1_pay5 x1 x3 (View.ld x0 R0) x2) k1_pay3) := by
  unfold out1_A_6
  rw [View.read_writes_eq_canon _ _ _ (cover1_A_6 c i arg2 harg2 arg3 harg3 arg4 harg4 arg5 harg5 arg6 harg6 arg7 harg7 arg8 harg8 hc0 x0 x1 x2 x3)]
  unfold kernelRun1_A
  dsimp only
  sl_unfold_words
  rw [View.canon_cons_unit_zero (S := S1x64x1) hz3]
  simp only [View.readCov_cons_toLoadRect, View.readAt_eq_ld, harg2.read_unread, harg3.read_unread, harg4.read_unread,
    harg5.read_unread, View.ld_unit_zero (S := S128x64) hz2,
    View.ld_unit_zero (S := S128x1) hz2, View.ld_unit_zero (S := S64x128) hz2, View.ld_unit_zero (S := S1x64x1) hz3]

/-! ## The other points: the columns continue from what the previous point left -/

theorem out_B_4_apply (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : ¬cond1_0 i) (x0 : Vec F S2x64x4096 .f32) (x1 : Vec F S128x64 .f32) (x2 : Vec F S128x1 .f32) (x3 : Vec F S64x128 .f32) (xo5 : Vec F S1x64x1 .f32) (xo6 : Vec F S1x64x1 .f32) (n : Fin 2) (d : Fin 64) (p : Fin 4096) :
    out1_B_4 c i arg2 harg2 arg3 harg3 arg4 harg4 arg5 harg5 arg6 harg6 arg7 harg7 arg8 harg8 hc0 x0 x1 x2 x3 xo5 xo6 (ix3 n d p)
      = if n.val = 0 then k1_pay6 x1 x3 (View.ld x0 R0) x2 (ix3 (0 : Fin 1) d p)
        else k1_pay10 (k1_pay4 x1) x3 (View.ld x0 R1) x2 (ix3 (0 : Fin 1) d p) := by
  unfold out1_B_4 kernelRun1_B
  dsimp only
  sl_unfold_words
  simp only [View.readCov_cons_toLoadRect, View.readAt_eq_ld, harg2.read_unread, harg3.read_unread, harg4.read_unread,
    harg5.read_unread, harg7.read_unread, harg8.read_unread, View.ld_unit_zero (S := S128x64) hz2,
    View.ld_unit_zero (S := S128x1) hz2, View.ld_unit_zero (S := S64x128) hz2, View.ld_unit_zero (S := S1x64x1) hz3]
  exact two_rows_apply VO1_4 VO1_4.junk _ _ n d p

theorem out_B_5 (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : ¬cond1_0 i) (x0 : Vec F S2x64x4096 .f32) (x1 : Vec F S128x64 .f32) (x2 : Vec F S128x1 .f32) (x3 : Vec F S64x128 .f32) (xo5 : Vec F S1x64x1 .f32) (xo6 : Vec F S1x64x1 .f32) :
    out1_B_5 c i arg2 harg2 arg3 harg3 arg4 harg4 arg5 harg5 arg6 harg6 arg7 harg7 arg8 harg8 hc0 x0 x1 x2 x3 xo5 xo6
      = k1_pay11 (k1_pay4 x1) x3 (View.ld x0 R1) x2 (k1_pay7 x1 x3 (View.ld x0 R0) x2 xo5) := by
  unfold out1_B_5
  rw [View.read_writes_eq_canon _ _ _ (cover1_B_5 c i arg2 harg2 arg3 harg3 arg4 harg4 arg5 harg5 arg6 harg6 arg7 harg7 arg8 harg8 hc0 x0 x1 x2 x3 xo5 xo6)]
  unfold kernelRun1_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg7.read_unread, harg8.read_unread, View.ld_unit_zero (S := S128x64) hz2,
    View.ld_unit_zero (S := S128x1) hz2, View.ld_unit_zero (S := S64x128) hz2, View.ld_unit_zero (S := S1x64x1) hz3]

theorem out_B_6 (c : Dev nD) (i : grid1.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S2x64x4096 .f32) (harg6 : arg6.IsWhole) (arg7 : Memref sig .tc .vmem S1x64x1 .f32) (harg7 : arg7.IsWhole) (arg8 : Memref sig .tc .vmem S1x64x1 .f32) (harg8 : arg8.IsWhole) (hc0 : ¬cond1_0 i) (x0 : Vec F S2x64x4096 .f32) (x1 : Vec F S128x64 .f32) (x2 : Vec F S128x1 .f32) (x3 : Vec F S64x128 .f32) (xo5 : Vec F S1x64x1 .f32) (xo6 : Vec F S1x64x1 .f32) :
    out1_B_6 c i arg2 harg2 arg3 harg3 arg4 harg4 arg5 harg5 arg6 harg6 arg7 harg7 arg8 harg8 hc0 x0 x1 x2 x3 xo5 xo6
      = k1_pay1 (k1_pay9 (k1_pay4 x1) x3 (View.ld x0 R1) x2) (k1_pay8 (k1_pay5 x1 x3 (View.ld x0 R0) x2) xo6) := by
  unfold out1_B_6
  rw [View.read_writes_eq_canon _ _ _ (cover1_B_6 c i arg2 harg2 arg3 harg3 arg4 harg4 arg5 harg5 arg6 harg6 arg7 harg7 arg8 harg8 hc0 x0 x1 x2 x3 xo5 xo6)]
  unfold kernelRun1_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg7.read_unread, harg8.read_unread, View.ld_unit_zero (S := S128x64) hz2,
    View.ld_unit_zero (S := S128x1) hz2, View.ld_unit_zero (S := S64x128) hz2, View.ld_unit_zero (S := S1x64x1) hz3]

end Cert.KMain1

end
-- ==== Proof.KMain1Val.lean ====
/-
  The three arrays the first main region writes, as functions of the four arrays it reads. Point (core, j) of the 2 × 8
  grid handles batch rows 2(8·core + j) and 2(8·core + j) + 1: it writes their y₂ to the same rows of the activation
  array, and adds their per-channel pixel sums (of y₂ and of y₂ · y₂) to the core's running columns, which start from
  zero at j = 0 and are written to row `core` of the two [2, 64, 1] arrays after j = 7. So the activation array ends
  holding y₂ of every batch row, and each column array, at (core, d), the sum over the core's sixteen batch rows.
-/
import proofs.«126831_g2000503633499865_pallasbulk_555_4_alg».proof.Proof.Gen.KernelIdeal.Frame
import proofs.«126831_g2000503633499865_pallasbulk_555_4_alg».proof.Proof.KMain1Pay
import proofs.«126831_g2000503633499865_pallasbulk_555_4_alg».proof.Proof.KMain1Pieces
import Idealize.ShloMosaic.Lib.Pipeline.Value

noncomputable section

open scoped BigOperators

namespace Cert.KMain1

open Idealize.ShloMosaic Idealize.ShloMosaic.TcCoe Idealize.ShloMosaic.ValueIdx Idealize.SL.Sem
open Idealize.ShloMosaic.Pipeline (Dat)
open Cert.KernelIdeal Cert.KernelIdeal.Gen

/-! ## The specification -/

/-- y₂ of batch row `n` at channel `d` and pixel `p`. -/
def Y (A : S32x64x4096.Idx → EReal) (W1 : S128x64.Idx → EReal) (t1 : S128x1.Idx → EReal) (W2 : S64x128.Idx → EReal)
    (n : Fin 32) (d : Fin 64) (p : Fin 4096) : EReal :=
  y2 W1 t1 W2 (fun k' => A (ix3 n k' p)) d

/-- The activation array after the region. -/
def G4 (A : S32x64x4096.Idx → EReal) (W1 : S128x64.Idx → EReal) (t1 : S128x1.Idx → EReal) (W2 : S64x128.Idx → EReal) :
    S32x64x4096.Idx → EReal :=
  fun i => Y A W1 t1 W2 (i 0) (i 1) (i 2)

/-- The batch row that point `j` of core `core` handles as its row `i`. -/
def rowOf (core : Fin 2) (j : Fin 8) (i : Fin 2) : Fin 32 := ⟨(core.val * 8 + j.val) * 2 + i.val, by omega⟩

/-- The column of sums: at (core, d), over the core's points and their two rows, the pixel sum of y₂. -/
def G5 (A : S32x64x4096.Idx → EReal) (W1 : S128x64.Idx → EReal) (t1 : S128x1.Idx → EReal) (W2 : S64x128.Idx → EReal) :
    S2x64x1.Idx → EReal :=
  fun i => ∑ j : Fin 8, ((∑ p : Fin 4096, Y A W1 t1 W2 (rowOf (i 0) j 0) (i 1) p)
    + ∑ p : Fin 4096, Y A W1 t1 W2 (rowOf (i 0) j 1) (i 1) p)

/-- The column of sums of squares. -/
def G6 (A : S32x64x4096.Idx → EReal) (W1 : S128x64.Idx → EReal) (t1 : S128x1.Idx → EReal) (W2 : S64x128.Idx → EReal) :
    S2x64x1.Idx → EReal :=
  fun i => ∑ j : Fin 8, ((∑ p : Fin 4096, Y A W1 t1 W2 (rowOf (i 0) j 0) (i 1) p * Y A W1 t1 W2 (rowOf (i 0) j 0) (i 1) p)
    + ∑ p : Fin 4096, Y A W1 t1 W2 (rowOf (i 0) j 1) (i 1) p * Y A W1 t1 W2 (rowOf (i 0) j 1) (i 1) p)

/-! ## Bookkeeping over the naturals: a batch row by its number, a row's two sums, a running column's closed form -/

/-- Batch row number `r` (every number met is below 32). -/
def rowN (r : ℕ) : Fin 32 := ⟨r % 32, Nat.mod_lt _ (by decide)⟩

def Srow (A : S32x64x4096.Idx → EReal) (W1 : S128x64.Idx → EReal) (t1 : S128x1.Idx → EReal) (W2 : S64x128.Idx → EReal)
    (d : Fin 64) (r : ℕ) : EReal :=
  ∑ p : Fin 4096, Y A W1 t1 W2 (rowN r) d p

def Qrow (A : S32x64x4096.Idx → EReal) (W1 : S128x64.Idx → EReal) (t1 : S128x1.Idx → EReal) (W2 : S64x128.Idx → EReal)
    (d : Fin 64) (r : ℕ) : EReal :=
  ∑ p : Fin 4096, Y A W1 t1 W2 (rowN r) d p * Y A W1 t1 W2 (rowN r) d p

/-- What a running column holds after point `n`: the sum over the core's points so far of their two rows' sums. -/
def acc (f : ℕ → EReal) (n : ℕ) : EReal := ∑ q ∈ Finset.Ico (n / 8 * 8) (n + 1), (f (2 * q) + f (2 * q + 1))

theorem acc_first (f : ℕ → EReal) (n : ℕ) (h0 : n % 8 = 0) : (0 + f (2 * n)) + f (2 * n + 1) = acc f n := by
  unfold acc
  rw [show n / 8 * 8 = n from by omega, Nat.Ico_succ_singleton, Finset.sum_singleton, zero_add]

theorem acc_next (f : ℕ → EReal) (n : ℕ) (h0 : ¬n % 8 = 0) :
    (acc f (n - 1) + f (2 * n)) + f (2 * n + 1) = acc f n := by
  unfold acc
  rw [show (n - 1) / 8 * 8 = n / 8 * 8 from by omega, show n - 1 + 1 = n from by omega,
    Finset.sum_Ico_succ_top (show n / 8 * 8 ≤ n from by omega), add_assoc]

/-- After a core's last point the closed form is the sum over the core's eight points. -/
theorem acc_last (f : ℕ → EReal) (n : ℕ) (h7 : n % 8 = 7) :
    acc f n = ∑ j : Fin 8, (f (2 * (n / 8 * 8 + j.val)) + f (2 * (n / 8 * 8 + j.val) + 1)) := by
  unfold acc
  rw [Finset.sum_Ico_eq_sum_range, show n + 1 - n / 8 * 8 = 8 from by omega, Finset.sum_range]

/-! ## The blocks a point reads -/

variable (V : (c : Dev nD) → (b : Ref sig .tc) → Buf (Elt Ideal) ((c : Thread nD τ).loc b))

/-- The printed index maps over the grid: the activation windows move with the point, -/
theorem idx0 : ∀ t : Fin cfg1.N,
    win1_0.index t (0 : Fin 3) = t.val ∧ win1_0.index t (1 : Fin 3) = 0 ∧ win1_0.index t (2 : Fin 3) = 0 :=
  (by decide +kernel : ∀ t : Fin grid1.N, _)
theorem idx4 : ∀ t : Fin cfg1.N,
    win1_4.index t (0 : Fin 3) = t.val ∧ win1_4.index t (1 : Fin 3) = 0 ∧ win1_4.index t (2 : Fin 3) = 0 :=
  (by decide +kernel : ∀ t : Fin grid1.N, _)
/-- the weights stay, -/
theorem idxW : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)
/-- a column window sits at the core's row. -/
theorem idx5 : ∀ t : Fin cfg1.N,
    win1_5.index t (0 : Fin 3) = t.val / 8 ∧ win1_5.index t (1 : Fin 3) = 0 ∧ win1_5.index t (2 : Fin 3) = 0 :=
  (by decide +kernel : ∀ t : Fin grid1.N, _)
theorem idx6 : ∀ t : Fin cfg1.N,
    win1_6.index t (0 : Fin 3) = t.val / 8 ∧ win1_6.index t (1 : Fin 3) = 0 ∧ win1_6.index t (2 : Fin 3) = 0 :=
  (by decide +kernel : ∀ t : Fin grid1.N, _)

theorem ld_R0 (x0 : Vec Ideal S2x64x4096 .f32) (u : Fin 1) (k' : Fin 64) (p : Fin 4096) :
    View.ld x0 R0 (ix3 u k' p) = x0 (ix3 (0 : Fin 2) k' p) := by
  refine congrArg x0 (funext fun a => Fin.ext ?_)
  match a with
  | ⟨0, _⟩ => show 0 + 1 * u.val = 0; omega
  | ⟨1, _⟩ => show 0 + 1 * k'.val = k'.val; omega
  | ⟨2, _⟩ => show 0 + 1 * p.val = p.val; omega

theorem ld_R1 (x0 : Vec Ideal S2x64x4096 .f32) (u : Fin 1) (k' : Fin 64) (p : Fin 4096) :
    View.ld x0 R1 (ix3 u k' p) = x0 (ix3 (1 : Fin 2) k' p) := by
  refine congrArg x0 (funext fun a => Fin.ext ?_)
  match a with
  | ⟨0, _⟩ => show 1 + 1 * u.val = 1; omega
  | ⟨1, _⟩ => show 0 + 1 * k'.val = k'.val; omega
  | ⟨2, _⟩ => show 0 + 1 * p.val = p.val; omega

/-- Row `n` of the point's activation block is batch row `2t + n` of the array. -/
theorem iblk0_apply (c : Dev nD) (t : Fin cfg1.N) (n : Fin 2) (k' : Fin 64) (p : Fin 4096) :
    iblk1 V c 0 t (ix3 n k' p) = V c (Pipeline.arrRef spec1 0) (ix3 (rowN (2 * t.val + n.val)) k' p) := by
  have e0 := (idx0 t).1
  have hN : cfg1.N = 16 := N_1
  have ht := t.isLt
  unfold iblk1
  rw [View.read_apply]
  show V c (Pipeline.arrRef spec1 0) _ = _
  refine congrArg (V c (Pipeline.arrRef spec1 0)) (funext fun a => Fin.ext ?_)
  match a with
  | ⟨0, _⟩ => show win1_0.index t (0 : Fin 3) * 2 + 1 * n.val = (2 * t.val + n.val) % 32; rw [e0]; omega
  | ⟨1, _⟩ => show win1_0.index t (1 : Fin 3) * 64 + 1 * k'.val = k'.val; rw [(idx0 t).2.1]; omega
  | ⟨2, _⟩ => show win1_0.index t (2 : Fin 3) * 4096 + 1 * p.val = p.val; rw [(idx0 t).2.2]; omega

/-- The weight windows' blocks are their arrays. -/
theorem iblk_1 (c : Dev nD) (t : Fin cfg1.N) : iblk1 V c 1 t = V c (Pipeline.arrRef spec1 1) := by
  funext y
  unfold iblk1
  rw [View.read_apply]
  show V c (Pipeline.arrRef spec1 1) _ = _
  refine congrArg (V c (Pipeline.arrRef spec1 1)) (funext fun a => Fin.ext ?_)
  match a with
  | ⟨0, _⟩ => show win1_1.index t (0 : Fin 2) * 128 + 1 * (y 0).val = (y 0).val; rw [(idxW t).1]; omega
  | ⟨1, _⟩ => show win1_1.index t (1 : Fin 2) * 64 + 1 * (y 1).val = (y 1).val; rw [(idxW t).2.1]; omega

theorem iblk_2 (c : Dev nD) (t : Fin cfg1.N) : iblk1 V c 2 t = V c (Pipeline.arrRef spec1 2) := by
  funext y
  unfold iblk1
  rw [View.read_apply]
  show V c (Pipeline.arrRef spec1 2) _ = _
  refine congrArg (V c (Pipeline.arrRef spec1 2)) (funext fun a => Fin.ext ?_)
  match a with
  | ⟨0, _⟩ => show win1_2.index t (0 : Fin 2) * 128 + 1 * (y 0).val = (y 0).val; rw [(idxW t).2.2.1]; omega
  | ⟨1, _⟩ => show win1_2.index t (1 : Fin 2) * 1 + 1 * (y 1).val = (y 1).val; rw [(idxW t).2.2.2.1]; omega

theorem iblk_3 (c : Dev nD) (t : Fin cfg1.N) : iblk1 V c 3 t = V c (Pipeline.arrRef spec1 3) := by
  funext y
  unfold iblk1
  rw [View.read_apply]
  show V c (Pipeline.arrRef spec1 3) _ = _
  refine congrArg (V c (Pipeline.arrRef spec1 3)) (funext fun a => Fin.ext ?_)
  match a with
  | ⟨0, _⟩ => show win1_3.index t (0 : Fin 2) * 64 + 1 * (y 0).val = (y 0).val; rw [(idxW t).2.2.2.2.1]; omega
  | ⟨1, _⟩ => show win1_3.index t (1 : Fin 2) * 128 + 1 * (y 1).val = (y 1).val; rw [(idxW t).2.2.2.2.2]; omega

/-! ## One point's outputs over its blocks, as values -/

/-- The activation block a point leaves: y₂ of each of its two rows. -/
theorem blk4_apply (x0 : Vec Ideal S2x64x4096 .f32) (x1 : Vec Ideal S128x64 .f32) (x2 : Vec Ideal S128x1 .f32)
    (x3 : Vec Ideal S64x128 .f32) (n : Fin 2) (d : Fin 64) (p : Fin 4096) :
    (if n.val = 0 then k1_pay6 x1 x3 (View.ld x0 R0) x2 (ix3 (0 : Fin 1) d p)
      else k1_pay10 (k1_pay4 x1) x3 (View.ld x0 R1) x2 (ix3 (0 : Fin 1) d p))
      = y2 x1 x2 x3 (fun k' => x0 (ix3 n k' p)) d := by
  by_cases hn : n.val = 0
  · rw [if_pos hn, pay6_apply]
    obtain rfl : n = 0 := Fin.ext hn
    exact congrArg (fun a => y2 x1 x2 x3 a d) (funext fun k' => ld_R0 x0 0 k' p)
  · rw [if_neg hn, pay10_apply, pay4_eq]
    obtain rfl : n = 1 := Fin.ext (by have := n.isLt; omega)
    exact congrArg (fun a => y2 x1 x2 x3 a d) (funext fun k' => ld_R1 x0 0 k' p)

/-- The running sum a point leaves, over the column `xo` it found. -/
theorem sum_apply (x0 : Vec Ideal S2x64x4096 .f32) (x1 : Vec Ideal S128x64 .f32) (x2 : Vec Ideal S128x1 .f32)
    (x3 : Vec Ideal S64x128 .f32) (xo : Vec Ideal S1x64x1 .f32) (d : Fin 64) :
    k1_pay11 (k1_pay4 x1) x3 (View.ld x0 R1) x2 (k1_pay7 x1 x3 (View.ld x0 R0) x2 xo) (ix3 (0 : Fin 1) d (0 : Fin 1))
      = (xo (ix3 (0 : Fin 1) d (0 : Fin 1)) + ∑ p : Fin 4096, y2 x1 x2 x3 (fun k' => x0 (ix3 (0 : Fin 2) k' p)) d)
        + ∑ p : Fin 4096, y2 x1 x2 x3 (fun k' => x0 (ix3 (1 : Fin 2) k' p)) d := by
  rw [pay11_apply, pay7_apply, pay4_eq]
  refine congrArg₂ (· + ·) (congrArg (xo (ix3 (0 : Fin 1) d (0 : Fin 1)) + ·) ?_) ?_
  · exact Finset.sum_congr rfl fun p _ => congrArg (fun a => y2 x1 x2 x3 a d) (funext fun k' => ld_R0 x0 0 k' p)
  · exact Finset.sum_congr rfl fun p _ => congrArg (fun a => y2 x1 x2 x3 a d) (funext fun k' => ld_R1 x0 0 k' p)

/-- The running sum of squares a point leaves, over the column `xo` it found. -/
theorem ssq_apply (x0 : Vec Ideal S2x64x4096 .f32) (x1 : Vec Ideal S128x64 .f32) (x2 : Vec Ideal S128x1 .f32)
    (x3 : Vec Ideal S64x128 .f32) (xo : Vec Ideal S1x64x1 .f32) (d : Fin 64) :
    k1_pay1 (k1_pay9 (k1_pay4 x1) x3 (View.ld x0 R1) x2) (k1_pay8 (k1_pay5 x1 x3 (View.ld x0 R0) x2) xo)
        (ix3 (0 : Fin 1) d (0 : Fin 1))
      = (xo (ix3 (0 : Fin 1) d (0 : Fin 1))
          + ∑ p : Fin 4096, y2 x1 x2 x3 (fun k' => x0 (ix3 (0 : Fin 2) k' p)) d * y2 x1 x2 x3 (fun k' => x0 (ix3 (0 : Fin 2) k' p)) d)
        + ∑ p : Fin 4096, y2 x1 x2 x3 (fun k' => x0 (ix3 (1 : Fin 2) k' p)) d * y2 x1 x2 x3 (fun k' => x0 (ix3 (1 : Fin 2) k' p)) d := by
  rw [pay1_apply, pay8_apply]
  have e0 : ∀ p : Fin 4096, k1_pay5 x1 x3 (View.ld x0 R0) x2 (ix2 d p) = y2 x1 x2 x3 (fun k' => x0 (ix3 (0 : Fin 2) k' p)) d :=
    fun p => (pay5_apply x1 x3 (View.ld x0 R0) x2 d p).trans
      (congrArg (fun a => y2 x1 x2 x3 a d) (funext fun k' => ld_R0 x0 0 k' p))
  have e1 : ∀ p : Fin 4096, k1_pay9 (k1_pay4 x1) x3 (View.ld x0 R1) x2 (ix2 d p) = y2 x1 x2 x3 (fun k' => x0 (ix3 (1 : Fin 2) k' p)) d :=
    fun p => (pay9_apply (k1_pay4 x1) x3 (View.ld x0 R1) x2 d p).trans (by
      rw [pay4_eq]; exact congrArg (fun a => y2 x1 x2 x3 a d) (funext fun k' => ld_R1 x0 0 k' p))
  simp only [e0, e1]

/-! ## The running columns, point by point -/

theorem zero_col (d : Fin 64) : k1_pay2 (F := Ideal) (ix3 (0 : Fin 1) d (0 : Fin 1)) = 0 := by
  rw [pay2_apply, Ideal.ofBits_zero_f32]
theorem zero_col' (d : Fin 64) : k1_pay3 (F := Ideal) (ix3 (0 : Fin 1) d (0 : Fin 1)) = 0 := by
  rw [pay3_apply, Ideal.ofBits_zero_f32]

/-- A point's row sums in terms of the arrays. -/
theorem rows_eq (c : Dev nD) (t : Fin cfg1.N) (d : Fin 64) (n : Fin 2) (p : Fin 4096) :
    y2 (iblk1 V c 1 t) (iblk1 V c 2 t) (iblk1 V c 3 t) (fun k' => iblk1 V c 0 t (ix3 n k' p)) d
      = Y (V c (Pipeline.arrRef spec1 0)) (V c (Pipeline.arrRef spec1 1)) (V c (Pipeline.arrRef spec1 2))
          (V c (Pipeline.arrRef spec1 3)) (rowN (2 * t.val + n.val)) d p := by
  rw [iblk_1 V c t, iblk_2 V c t, iblk_3 V c t]
  unfold Y
  exact congrArg (fun a => y2 _ _ _ a d) (funext fun k' => iblk0_apply V c t n k' p)

/-- A point's two row sums in terms of the arrays (`r` the batch row's number). -/
theorem rowsum_eq (c : Dev nD) (t : Fin cfg1.N) (d : Fin 64) (m : Fin 2) (r : ℕ) (hr : r = 2 * t.val + m.val) :
    (∑ p : Fin 4096, y2 (iblk1 V c 1 t) (iblk1 V c 2 t) (iblk1 V c 3 t) (fun k' => iblk1 V c 0 t (ix3 m k' p)) d)
      = Srow (V c (Pipeline.arrRef spec1 0)) (V c (Pipeline.arrRef spec1 1)) (V c (Pipeline.arrRef spec1 2)) (V c (Pipeline.arrRef spec1 3)) d r := by
  subst hr
  exact Finset.sum_congr rfl fun p _ => rows_eq V c t d m p

theorem rowssq_eq (c : Dev nD) (t : Fin cfg1.N) (d : Fin 64) (m : Fin 2) (r : ℕ) (hr : r = 2 * t.val + m.val) :
    (∑ p : Fin 4096, y2 (iblk1 V c 1 t) (iblk1 V c 2 t) (iblk1 V c 3 t) (fun k' => iblk1 V c 0 t (ix3 m k' p)) d
        * y2 (iblk1 V c 1 t) (iblk1 V c 2 t) (iblk1 V c 3 t) (fun k' => iblk1 V c 0 t (ix3 m k' p)) d)
      = Qrow (V c (Pipeline.arrRef spec1 0)) (V c (Pipeline.arrRef spec1 1)) (V c (Pipeline.arrRef spec1 2)) (V c (Pipeline.arrRef spec1 3)) d r := by
  subst hr
  exact Finset.sum_congr rfl fun p _ => by rw [rows_eq V c t d m p]

/-! ### One point's step on each running column -/

set_option maxHeartbeats 400000 in
theorem point_A5 (c : Dev nD) (t : Fin cfg1.N) (h0 : t.val % 8 = 0) (d : Fin 64) :
    (outsAt1 V c t.val t.isLt).2.1 (ix3 (0 : Fin 1) d (0 : Fin 1))
      = ((0 : EReal) + Srow (V c (Pipeline.arrRef spec1 0)) (V c (Pipeline.arrRef spec1 1)) (V c (Pipeline.arrRef spec1 2)) (V c (Pipeline.arrRef spec1 3)) d (2 * t.val)) + Srow (V c (Pipeline.arrRef spec1 0)) (V c (Pipeline.arrRef spec1 1)) (V c (Pipeline.arrRef spec1 2)) (V c (Pipeline.arrRef spec1 3)) d (2 * t.val + 1) := by
  rw [outsAt1_A V c t h0]
  dsimp only
  rw [out_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
    sum_apply (iblk1 V c 0 t) (iblk1 V c 1 t) (iblk1 V c 2 t) (iblk1 V c 3 t) (k1_pay2 (F := Ideal)) d, zero_col,
    rowsum_eq V c t d 0 (2 * t.val) rfl, rowsum_eq V c t d 1 (2 * t.val + 1) rfl]

set_option maxHeartbeats 400000 in
theorem point_A6 (c : Dev nD) (t : Fin cfg1.N) (h0 : t.val % 8 = 0) (d : Fin 64) :
    (outsAt1 V c t.val t.isLt).2.2 (ix3 (0 : Fin 1) d (0 : Fin 1))
      = ((0 : EReal) + Qrow (V c (Pipeline.arrRef spec1 0)) (V c (Pipeline.arrRef spec1 1)) (V c (Pipeline.arrRef spec1 2)) (V c (Pipeline.arrRef spec1 3)) d (2 * t.val)) + Qrow (V c (Pipeline.arrRef spec1 0)) (V c (Pipeline.arrRef spec1 1)) (V c (Pipeline.arrRef spec1 2)) (V c (Pipeline.arrRef spec1 3)) d (2 * t.val + 1) := by
  rw [outsAt1_A V c t h0]
  dsimp only
  rw [out_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
    ssq_apply (iblk1 V c 0 t) (iblk1 V c 1 t) (iblk1 V c 2 t) (iblk1 V c 3 t) (k1_pay3 (F := Ideal)) d, zero_col',
    rowssq_eq V c t d 0 (2 * t.val) rfl, rowssq_eq V c t d 1 (2 * t.val + 1) rfl]

set_option maxHeartbeats 400000 in
theorem point_B5 (c : Dev nD) (t : Fin cfg1.N) (h0 : ¬t.val % 8 = 0) (d : Fin 64) :
    (outsAt1 V c t.val t.isLt).2.1 (ix3 (0 : Fin 1) d (0 : Fin 1))
      = ((outsAt1 V c (t.val - 1) (Nat.lt_of_le_of_lt (Nat.sub_le _ _) t.isLt)).2.1 (ix3 (0 : Fin 1) d (0 : Fin 1)) + Srow (V c (Pipeline.arrRef spec1 0)) (V c (Pipeline.arrRef spec1 1)) (V c (Pipeline.arrRef spec1 2)) (V c (Pipeline.arrRef spec1 3)) d (2 * t.val)) + Srow (V c (Pipeline.arrRef spec1 0)) (V c (Pipeline.arrRef spec1 1)) (V c (Pipeline.arrRef spec1 2)) (V c (Pipeline.arrRef spec1 3)) d (2 * t.val + 1) := by
  rw [outsAt1_B V c t h0]
  dsimp only
  rw [out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun hh => h0 ((hcond1_0 t).mp hh)) (iblk1 V c 0 t) (iblk1 V c 1 t) (iblk1 V c 2 t) (iblk1 V c 3 t) _ _,
    sum_apply (iblk1 V c 0 t) (iblk1 V c 1 t) (iblk1 V c 2 t) (iblk1 V c 3 t) _ d,
    rowsum_eq V c t d 0 (2 * t.val) rfl, rowsum_eq V c t d 1 (2 * t.val + 1) rfl]

set_option maxHeartbeats 400000 in
theorem point_B6 (c : Dev nD) (t : Fin cfg1.N) (h0 : ¬t.val % 8 = 0) (d : Fin 64) :
    (outsAt1 V c t.val t.isLt).2.2 (ix3 (0 : Fin 1) d (0 : Fin 1))
      = ((outsAt1 V c (t.val - 1) (Nat.lt_of_le_of_lt (Nat.sub_le _ _) t.isLt)).2.2 (ix3 (0 : Fin 1) d (0 : Fin 1)) + Qrow (V c (Pipeline.arrRef spec1 0)) (V c (Pipeline.arrRef spec1 1)) (V c (Pipeline.arrRef spec1 2)) (V c (Pipeline.arrRef spec1 3)) d (2 * t.val)) + Qrow (V c (Pipeline.arrRef spec1 0)) (V c (Pipeline.arrRef spec1 1)) (V c (Pipeline.arrRef spec1 2)) (V c (Pipeline.arrRef spec1 3)) d (2 * t.val + 1) := by
  rw [outsAt1_B V c t h0]
  dsimp only
  rw [out_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun hh => h0 ((hcond1_0 t).mp hh)) (iblk1 V c 0 t) (iblk1 V c 1 t) (iblk1 V c 2 t) (iblk1 V c 3 t) _ _,
    ssq_apply (iblk1 V c 0 t) (iblk1 V c 1 t) (iblk1 V c 2 t) (iblk1 V c 3 t) _ d,
    rowssq_eq V c t d 0 (2 * t.val) rfl, rowssq_eq V c t d 1 (2 * t.val + 1) rfl]

/-- THE RUNNING COLUMNS after point `n`: the closed form, by induction on the point. -/
theorem cols_eq (c : Dev nD) (d : Fin 64) : ∀ (n : ℕ) (h : n < cfg1.N),
    (outsAt1 V c n h).2.1 (ix3 (0 : Fin 1) d (0 : Fin 1)) = acc (Srow (V c (Pipeline.arrRef spec1 0)) (V c (Pipeline.arrRef spec1 1)) (V c (Pipeline.arrRef spec1 2)) (V c (Pipeline.arrRef spec1 3)) d) n
      ∧ (outsAt1 V c n h).2.2 (ix3 (0 : Fin 1) d (0 : Fin 1)) = acc (Qrow (V c (Pipeline.arrRef spec1 0)) (V c (Pipeline.arrRef spec1 1)) (V c (Pipeline.arrRef spec1 2)) (V c (Pipeline.arrRef spec1 3)) d) n := by
  intro n
  induction n using Nat.strong_induction_on with
  | _ n ih =>
    intro h
    by_cases h0 : n % 8 = 0
    · exact ⟨(point_A5 V c ⟨n, h⟩ h0 d).trans (acc_first (Srow (V c (Pipeline.arrRef spec1 0)) (V c (Pipeline.arrRef spec1 1)) (V c (Pipeline.arrRef spec1 2)) (V c (Pipeline.arrRef spec1 3)) d) n h0),
        (point_A6 V c ⟨n, h⟩ h0 d).trans (acc_first (Qrow (V c (Pipeline.arrRef spec1 0)) (V c (Pipeline.arrRef spec1 1)) (V c (Pipeline.arrRef spec1 2)) (V c (Pipeline.arrRef spec1 3)) d) n h0)⟩
    · obtain ⟨i5, i6⟩ := ih (n - 1) (by omega) (Nat.lt_of_le_of_lt (Nat.sub_le _ _) h)
      refine ⟨(point_B5 V c ⟨n, h⟩ h0 d).trans ?_, (point_B6 V c ⟨n, h⟩ h0 d).trans ?_⟩
      · show ((outsAt1 V c (n - 1) _).2.1 (ix3 (0 : Fin 1) d (0 : Fin 1)) + Srow (V c (Pipeline.arrRef spec1 0)) (V c (Pipeline.arrRef spec1 1)) (V c (Pipeline.arrRef spec1 2)) (V c (Pipeline.arrRef spec1 3)) d (2 * n))
          + Srow (V c (Pipeline.arrRef spec1 0)) (V c (Pipeline.arrRef spec1 1)) (V c (Pipeline.arrRef spec1 2)) (V c (Pipeline.arrRef spec1 3)) d (2 * n + 1) = _
        rw [i5]
        exact acc_next (Srow (V c (Pipeline.arrRef spec1 0)) (V c (Pipeline.arrRef spec1 1)) (V c (Pipeline.arrRef spec1 2)) (V c (Pipeline.arrRef spec1 3)) d) n h0
      · show ((outsAt1 V c (n - 1) _).2.2 (ix3 (0 : Fin 1) d (0 : Fin 1)) + Qrow (V c (Pipeline.arrRef spec1 0)) (V c (Pipeline.arrRef spec1 1)) (V c (Pipeline.arrRef spec1 2)) (V c (Pipeline.arrRef spec1 3)) d (2 * n))
          + Qrow (V c (Pipeline.arrRef spec1 0)) (V c (Pipeline.arrRef spec1 1)) (V c (Pipeline.arrRef spec1 2)) (V c (Pipeline.arrRef spec1 3)) d (2 * n + 1) = _
        rw [i6]
        exact acc_next (Qrow (V c (Pipeline.arrRef spec1 0)) (V c (Pipeline.arrRef spec1 1)) (V c (Pipeline.arrRef spec1 2)) (V c (Pipeline.arrRef spec1 3)) d) n h0

end Cert.KMain1

end
-- ==== Proof.KMain1Arr.lean ====
/-
  The first main region's arrays after its run: what each point writes back is a block of ONE function of the arrays
  the region reads, and the blocks written back cover each result array — the activation array by rows two at a time
  (row n is written by point n / 2), each column array by its two rows (row `core` after the core's last point).
-/
import proofs.«126831_g2000503633499865_pallasbulk_555_4_alg».proof.Proof.KMain1Val

noncomputable section

open scoped BigOperators

namespace Cert.KMain1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The activation array (window 4) -/

theorem flushed4_eq (c : Dev nD) (t : Fin cfg1.N) :
    (dat1 V c).flushed 4 t
      = ((cfg1.win 4).blk t).view.read (Elt Ideal) (G4 (V c (Pipeline.arrRef spec1 0)) (V c (Pipeline.arrRef spec1 1)) (V c (Pipeline.arrRef spec1 2)) (V c (Pipeline.arrRef spec1 3))) := by
  have hN : cfg1.N = 16 := N_1
  have ht := t.isLt
  show (cfg1.win 4).cut (grid1.coords t) ((dat1 V c).after 4 t) = _
  rw [after1_4]
  funext y
  obtain ⟨n, d, p, rfl⟩ : ∃ (n : Fin 2) (d : Fin 64) (p : Fin 4096), y = ix3 n d p := ⟨y 0, y 1, y 2, eq_ix3 y⟩
  rw [View.read_apply]
  have e : ((cfg1.win 4).blk t).view.emb (ix3 n d p) = (ix3 (rowN (2 * t.val + n.val)) d p : S32x64x4096.Idx) :=
    funext fun a => Fin.ext (by
      match a with
      | ⟨0, _⟩ => show win1_4.index t (0 : Fin 3) * 2 + 1 * n.val = (2 * t.val + n.val) % 32; rw [(idx4 t).1]; omega
      | ⟨1, _⟩ => show win1_4.index t (1 : Fin 3) * 64 + 1 * d.val = d.val; rw [(idx4 t).2.1]; omega
      | ⟨2, _⟩ => show win1_4.index t (2 : Fin 3) * 4096 + 1 * p.val = p.val; rw [(idx4 t).2.2]; omega)
  show (outsAt1 V c t.val t.isLt).1 (ix3 n d p) = G4 (V c (Pipeline.arrRef spec1 0)) (V c (Pipeline.arrRef spec1 1)) (V c (Pipeline.arrRef spec1 2)) (V c (Pipeline.arrRef spec1 3)) (((cfg1.win 4).blk t).view.emb (ix3 n d p))
  rw [e]
  show _ = Y (V c (Pipeline.arrRef spec1 0)) (V c (Pipeline.arrRef spec1 1)) (V c (Pipeline.arrRef spec1 2)) (V c (Pipeline.arrRef spec1 3)) (rowN (2 * t.val + n.val)) d p
  rw [← rows_eq V c t d n p]
  by_cases h0 : t.val % 8 = 0
  · rw [outsAt1_A V c t h0]
    dsimp only
    rw [out_A_4_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) n d p]
    exact blk4_apply (iblk1 V c 0 t) (iblk1 V c 1 t) (iblk1 V c 2 t) (iblk1 V c 3 t) n d p
  · rw [outsAt1_B V c t h0]
    dsimp only
    rw [out_B_4_apply c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun hh => h0 ((hcond1_0 t).mp hh)) (iblk1 V c 0 t) (iblk1 V c 1 t) (iblk1 V c 2 t) (iblk1 V c 3 t) _ _ n d p]
    exact blk4_apply (iblk1 V c 0 t) (iblk1 V c 1 t) (iblk1 V c 2 t) (iblk1 V c 3 t) n d p

theorem mem_blk4 (t : Fin cfg1.N) (i : S32x64x4096.Idx) :
    i ∈ ((cfg1.win 4).blk t).view.set ↔ ∀ a : Fin 3, win1_4.index t a * S2x64x4096.size a ≤ (i a).val
      ∧ (i a).val < win1_4.index t a * S2x64x4096.size a + S2x64x4096.size a := by
  show i ∈ ((View.whole main_v20_0).slice (win1_4.rect t)).set ↔ _
  rw [View.set_slice_whole, Rect.mem_set_unit]
  exact Iff.rfl

/-- THE ACTIVATION ARRAY after the region: y₂ of every batch row. -/
theorem arrAt_4 (c : Dev nD) :
    (dat1 V c).arrAt 4 cfg1.N = G4 (V c (Pipeline.arrRef spec1 0)) (V c (Pipeline.arrRef spec1 1)) (V c (Pipeline.arrRef spec1 2)) (V c (Pipeline.arrRef spec1 3)) :=
  (dat1 V c).arrAt_eq_of_cover 4 _ (fun t _ => flushed4_eq V c t) fun i => by
    have h0 : (i 0).val < 32 := (i 0).isLt
    have h1 : (i 1).val < 64 := (i 1).isLt
    have h2 : (i 2).val < 4096 := (i 2).isLt
    have hN : cfg1.N = 16 := N_1
    refine ⟨⟨(i 0).val / 2, by omega⟩, flush1_4 _, ?_⟩
    rw [mem_blk4]
    obtain ⟨e0, e1, e2⟩ := idx4 ⟨(i 0).val / 2, by omega⟩
    intro a
    match a with
    | ⟨0, _⟩ => show win1_4.index _ (0 : Fin 3) * 2 ≤ (i 0).val ∧ (i 0).val < win1_4.index _ (0 : Fin 3) * 2 + 2; rw [e0]; dsimp only; omega
    | ⟨1, _⟩ => show win1_4.index _ (1 : Fin 3) * 64 ≤ (i 1).val ∧ (i 1).val < win1_4.index _ (1 : Fin 3) * 64 + 64; rw [e1]; omega
    | ⟨2, _⟩ => show win1_4.index _ (2 : Fin 3) * 4096 ≤ (i 2).val ∧ (i 2).val < win1_4.index _ (2 : Fin 3) * 4096 + 4096; rw [e2]; omega

/-! ## The two column arrays (windows 5 and 6) -/

/-- The two batch rows of point `j` of the core of a last point `t`, by number and by (core, j, row). -/
theorem rowN_eq (t : ℕ) (ht : t < 16) (j : Fin 8) (i : Fin 2) :
    rowN (2 * (t / 8 * 8 + j.val) + i.val) = rowOf ⟨t / 8, by omega⟩ j i :=
  Fin.ext (by show (2 * (t / 8 * 8 + j.val) + i.val) % 32 = (t / 8 * 8 + j.val) * 2 + i.val; have := j.isLt; have := i.isLt; omega)

theorem flushed5_eq (c : Dev nD) (t : Fin cfg1.N) (hf : (cfg1.win 5).flush t = true) :
    (dat1 V c).flushed 5 t
      = ((cfg1.win 5).blk t).view.read (Elt Ideal) (G5 (V c (Pipeline.arrRef spec1 0)) (V c (Pipeline.arrRef spec1 1)) (V c (Pipeline.arrRef spec1 2)) (V c (Pipeline.arrRef spec1 3))) := by
  have hN : cfg1.N = 16 := N_1
  have ht : t.val < 16 := hN ▸ t.isLt
  have h7 : t.val % 8 = 7 := (flush1_5 t).mp hf
  show (cfg1.win 5).cut (grid1.coords t) ((dat1 V c).after 5 t) = _
  rw [after1_5]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg1.win 5).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win1_5.index t (0 : Fin 3) * 1 + 1 * 0 = t.val / 8; rw [(idx5 t).1]; omega
      | ⟨1, _⟩ => show win1_5.index t (1 : Fin 3) * 64 + 1 * d.val = d.val; rw [(idx5 t).2.1]; omega
      | ⟨2, _⟩ => show win1_5.index t (2 : Fin 3) * 1 + 1 * 0 = 0; rw [(idx5 t).2.2])
  show (outsAt1 V c t.val t.isLt).2.1 (ix3 (0 : Fin 1) d (0 : Fin 1))
    = G5 (V c (Pipeline.arrRef spec1 0)) (V c (Pipeline.arrRef spec1 1)) (V c (Pipeline.arrRef spec1 2)) (V c (Pipeline.arrRef spec1 3)) (((cfg1.win 5).blk t).view.emb (ix3 (0 : Fin 1) d (0 : Fin 1)))
  rw [e, (cols_eq V c d t.val t.isLt).1, acc_last _ _ h7]
  refine Finset.sum_congr rfl fun j _ => ?_
  show Srow _ _ _ _ d (2 * (t.val / 8 * 8 + j.val)) + Srow _ _ _ _ d (2 * (t.val / 8 * 8 + j.val) + 1) = _
  unfold Srow
  rw [← rowN_eq t.val ht j 0, ← rowN_eq t.val ht j 1]
  rfl

theorem flushed6_eq (c : Dev nD) (t : Fin cfg1.N) (hf : (cfg1.win 6).flush t = true) :
    (dat1 V c).flushed 6 t
      = ((cfg1.win 6).blk t).view.read (Elt Ideal) (G6 (V c (Pipeline.arrRef spec1 0)) (V c (Pipeline.arrRef spec1 1)) (V c (Pipeline.arrRef spec1 2)) (V c (Pipeline.arrRef spec1 3))) := by
  have hN : cfg1.N = 16 := N_1
  have ht : t.val < 16 := hN ▸ t.isLt
  have h7 : t.val % 8 = 7 := (flush1_6 t).mp hf
  show (cfg1.win 6).cut (grid1.coords t) ((dat1 V c).after 6 t) = _
  rw [after1_6]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg1.win 6).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win1_6.index t (0 : Fin 3) * 1 + 1 * 0 = t.val / 8; rw [(idx6 t).1]; omega
      | ⟨1, _⟩ => show win1_6.index t (1 : Fin 3) * 64 + 1 * d.val = d.val; rw [(idx6 t).2.1]; omega
      | ⟨2, _⟩ => show win1_6.index t (2 : Fin 3) * 1 + 1 * 0 = 0; rw [(idx6 t).2.2])
  show (outsAt1 V c t.val t.isLt).2.2 (ix3 (0 : Fin 1) d (0 : Fin 1))
    = G6 (V c (Pipeline.arrRef spec1 0)) (V c (Pipeline.arrRef spec1 1)) (V c (Pipeline.arrRef spec1 2)) (V c (Pipeline.arrRef spec1 3)) (((cfg1.win 6).blk t).view.emb (ix3 (0 : Fin 1) d (0 : Fin 1)))
  rw [e, (cols_eq V c d t.val t.isLt).2, acc_last _ _ h7]
  refine Finset.sum_congr rfl fun j _ => ?_
  show Qrow _ _ _ _ d (2 * (t.val / 8 * 8 + j.val)) + Qrow _ _ _ _ d (2 * (t.val / 8 * 8 + j.val) + 1) = _
  unfold Qrow
  rw [← rowN_eq t.val ht j 0, ← rowN_eq t.val ht j 1]
  rfl

theorem mem_blk5 (t : Fin cfg1.N) (i : S2x64x1.Idx) :
    i ∈ ((cfg1.win 5).blk t).view.set ↔ ∀ a : Fin 3, win1_5.index t a * S1x64x1.size a ≤ (i a).val
      ∧ (i a).val < win1_5.index t a * S1x64x1.size a + S1x64x1.size a := by
  show i ∈ ((View.whole main_v20_1).slice (win1_5.rect t)).set ↔ _
  rw [View.set_slice_whole, Rect.mem_set_unit]
  exact Iff.rfl

theorem mem_blk6 (t : Fin cfg1.N) (i : S2x64x1.Idx) :
    i ∈ ((cfg1.win 6).blk t).view.set ↔ ∀ a : Fin 3, win1_6.index t a * S1x64x1.size a ≤ (i a).val
      ∧ (i a).val < win1_6.index t a * S1x64x1.size a + S1x64x1.size a := by
  show i ∈ ((View.whole main_v20_2).slice (win1_6.rect t)).set ↔ _
  rw [View.set_slice_whole, Rect.mem_set_unit]
  exact Iff.rfl

/-- THE COLUMN OF SUMS after the region. -/
theorem arrAt_5 (c : Dev nD) :
    (dat1 V c).arrAt 5 cfg1.N = G5 (V c (Pipeline.arrRef spec1 0)) (V c (Pipeline.arrRef spec1 1)) (V c (Pipeline.arrRef spec1 2)) (V c (Pipeline.arrRef spec1 3)) :=
  (dat1 V c).arrAt_eq_of_cover 5 _ (fun t hf => flushed5_eq V c t hf) fun i => by
    have h0 : (i 0).val < 2 := (i 0).isLt
    have h1 : (i 1).val < 64 := (i 1).isLt
    have h2 : (i 2).val < 1 := (i 2).isLt
    have hN : cfg1.N = 16 := N_1
    refine ⟨⟨(i 0).val * 8 + 7, by omega⟩, (flush1_5 _).mpr (by dsimp only; omega), ?_⟩
    rw [mem_blk5]
    obtain ⟨e0, e1, e2⟩ := idx5 ⟨(i 0).val * 8 + 7, by omega⟩
    intro a
    match a with
    | ⟨0, _⟩ => show win1_5.index _ (0 : Fin 3) * 1 ≤ (i 0).val ∧ (i 0).val < win1_5.index _ (0 : Fin 3) * 1 + 1; rw [e0]; dsimp only; omega
    | ⟨1, _⟩ => show win1_5.index _ (1 : Fin 3) * 64 ≤ (i 1).val ∧ (i 1).val < win1_5.index _ (1 : Fin 3) * 64 + 64; rw [e1]; omega
    | ⟨2, _⟩ => show win1_5.index _ (2 : Fin 3) * 1 ≤ (i 2).val ∧ (i 2).val < win1_5.index _ (2 : Fin 3) * 1 + 1; rw [e2]; omega

/-- THE COLUMN OF SUMS OF SQUARES after the region. -/
theorem arrAt_6 (c : Dev nD) :
    (dat1 V c).arrAt 6 cfg1.N = G6 (V c (Pipeline.arrRef spec1 0)) (V c (Pipeline.arrRef spec1 1)) (V c (Pipeline.arrRef spec1 2)) (V c (Pipeline.arrRef spec1 3)) :=
  (dat1 V c).arrAt_eq_of_cover 6 _ (fun t hf => flushed6_eq V c t hf) fun i => by
    have h0 : (i 0).val < 2 := (i 0).isLt
    have h1 : (i 1).val < 64 := (i 1).isLt
    have h2 : (i 2).val < 1 := (i 2).isLt
    have hN : cfg1.N = 16 := N_1
    refine ⟨⟨(i 0).val * 8 + 7, by omega⟩, (flush1_6 _).mpr (by dsimp only; omega), ?_⟩
    rw [mem_blk6]
    obtain ⟨e0, e1, e2⟩ := idx6 ⟨(i 0).val * 8 + 7, by omega⟩
    intro a
    match a with
    | ⟨0, _⟩ => show win1_6.index _ (0 : Fin 3) * 1 ≤ (i 0).val ∧ (i 0).val < win1_6.index _ (0 : Fin 3) * 1 + 1; rw [e0]; dsimp only; omega
    | ⟨1, _⟩ => show win1_6.index _ (1 : Fin 3) * 64 ≤ (i 1).val ∧ (i 1).val < win1_6.index _ (1 : Fin 3) * 64 + 64; rw [e1]; omega
    | ⟨2, _⟩ => show win1_6.index _ (2 : Fin 3) * 1 ≤ (i 2).val ∧ (i 2).val < win1_6.index _ (2 : Fin 3) * 1 + 1; rw [e2]; omega

end Cert.KMain1

end
-- ==== Proof.KMain1Bridge.lean ====
/-
  The first main region in the network's own words: its activation array is the block's second 1x1 convolution
  of the rectified, shifted first one, pixel by pixel; its two column arrays, summed over the two cores, are that
  output's per-channel sum and sum of squares over all pixels — the kernel's nesting of the 32 batch rows (core, grid
  step, row of the block) re-indexed to the batch rows themselves.
-/
import proofs.«126831_g2000503633499865_pallasbulk_555_4_alg».proof.Proof.KMain1Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open Idealize.ShloMosaic Idealize.ShloMosaic.ValueIdx
open scoped BigOperators

namespace Cert.KMain1

open Cert.KernelIdeal Cert
open Cert.KMain1 (lrelu hid y2 rowOf)

/-- One entry of the region's output, arrays against functions. -/
theorem Y_net (a : S32x64x4096.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), a (ix3 n k p) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    Y a w1f t1 w2 n d p = (Net.conv W2 (fun (ch : Fin 128) (x : Net.Px) => Net.lrelu Net.slopec (Net.conv W1f A ch x + T1 ch))) d (n, p) := by
  unfold Y y2
  show _ = ∑ k : Fin 128, W2 d k * Net.lrelu Net.slopec (Net.conv W1f A k (n, p) + T1 k)
  refine Finset.sum_congr rfl fun k _ => ?_
  rw [hw2]
  refine congrArg (W2 d k * ·) ?_
  unfold hid
  rw [ht1]
  show lrelu _ = lrelu _
  refine congrArg (fun z => lrelu (z + T1 k)) ?_
  show _ = ∑ k' : Fin 64, W1f k k' * A k' (n, p)
  exact Finset.sum_congr rfl fun k' _ => congrArg₂ (· * ·) (hw1 k k') (ha n k' p)

/-- The activation array, entry by entry. -/
theorem y2_eq (a : S32x64x4096.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), a (ix3 n k p) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    G4 a w1f t1 w2 (ix3 n d p) = (Net.conv W2 (fun (ch : Fin 128) (x : Net.Px) => Net.lrelu Net.slopec (Net.conv W1f A ch x + T1 ch))) d (n, p) :=
  Y_net a w1f t1 w2 A W1f T1 W2 ha hw1 ht1 hw2 n d p

/-- The sum columns of the two cores add up to the channel's sum over all pixels. -/
theorem sum_eq (a : S32x64x4096.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), a (ix3 n k p) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G5 a w1f t1 w2 (ix3 core d u) = Net.tot (Net.conv W2 (fun (ch : Fin 128) (x : Net.Px) => Net.lrelu Net.slopec (Net.conv W1f A ch x + T1 ch))) d := by
  show ∑ core : Fin 2, ∑ j : Fin 8, ((∑ p : Fin 4096, Y a w1f t1 w2 (rowOf core j 0) d p)
    + ∑ p : Fin 4096, Y a w1f t1 w2 (rowOf core j 1) d p) = _
  rw [Net.sum_rows_fin (fun n => ∑ p : Fin 4096, Y a w1f t1 w2 n d p) rowOf (fun _ _ _ => rfl)]
  unfold Net.tot
  rw [Fintype.sum_prod_type]
  exact Finset.sum_congr rfl fun n _ => Finset.sum_congr rfl fun p _ => Y_net a w1f t1 w2 A W1f T1 W2 ha hw1 ht1 hw2 n d p

/-- The sum-of-squares columns of the two cores add up to the channel's sum of squares over all pixels. -/
theorem ssq_eq (a : S32x64x4096.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), a (ix3 n k p) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G6 a w1f t1 w2 (ix3 core d u) = Net.tot2 (Net.conv W2 (fun (ch : Fin 128) (x : Net.Px) => Net.lrelu Net.slopec (Net.conv W1f A ch x + T1 ch))) d := by
  show ∑ core : Fin 2, ∑ j : Fin 8, ((∑ p : Fin 4096, Y a w1f t1 w2 (rowOf core j 0) d p * Y a w1f t1 w2 (rowOf core j 0) d p)
    + ∑ p : Fin 4096, Y a w1f t1 w2 (rowOf core j 1) d p * Y a w1f t1 w2 (rowOf core j 1) d p) = _
  rw [Net.sum_rows_fin (fun n => ∑ p : Fin 4096, Y a w1f t1 w2 n d p * Y a w1f t1 w2 n d p) rowOf (fun _ _ _ => rfl)]
  unfold Net.tot2
  rw [Fintype.sum_prod_type]
  exact Finset.sum_congr rfl fun n _ => Finset.sum_congr rfl fun p _ =>
    congrArg₂ (· * ·) (Y_net a w1f t1 w2 A W1f T1 W2 ha hw1 ht1 hw2 n d p) (Y_net a w1f t1 w2 A W1f T1 W2 ha hw1 ht1 hw2 n d p)

end Cert.KMain1

end
-- ==== Proof.KFlowA2.lean ====
/-
  The idealized kernel's run, read as mathematics — second part: the first block's main pass and the host operations after
  it. The main pass writes the block's second convolution before its normalisation, y2 = W2 · lrelu ((W1 · s1) x + t1), and
  accumulates its per-channel sum and sum of squares; the host operations turn those into the second normalisation's scale
  and shift. What the next pass recomputes from them, lrelu (y2 · s2 + t2), is the block's output.
-/
import proofs.«126831_g2000503633499865_pallasbulk_555_4_alg».proof.Proof.KFlowA
import proofs.«126831_g2000503633499865_pallasbulk_555_4_alg».proof.Proof.KKeep
import proofs.«126831_g2000503633499865_pallasbulk_555_4_alg».proof.Proof.KMain1Arr
import proofs.«126831_g2000503633499865_pallasbulk_555_4_alg».proof.Proof.KMain1Bridge

set_option maxRecDepth 16384

noncomputable section

namespace Cert.KernelIdeal.Flow

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first block's second convolution before its normalisation. -/
abbrev Y20 : Fin 64 → Net.Px → EReal :=
  Net.pre2 Net.Nc Net.epsc Net.slopec (q0 m c).W1 (q0 m c).g1 (q0 m c).b1 (q0 m c).W2 (X m c)

theorem v3_v0_at (n : Fin 32) (k : Fin 64) (p : Fin 4096) :
    V3 (F := Ideal) m ρ c main_v0 (ix3 n k p) = X m c k (n, p) := by
  have e : V3 (F := Ideal) m ρ c main_v0 = V1 m ρ c main_v0 := w3_v0 m ρ c
  rw [e]; exact v0_at m ρ c n k p

theorem v3_arg4_at (d : Fin 64) (ch : Fin 128) :
    V3 (F := Ideal) m ρ c main_arg4 (ix2 d ch) = (q0 m c).W2 d ch := by
  have e : V3 (F := Ideal) m ρ c main_arg4 = m ((c : Thread nD τ).loc main_arg4) := w3_arg4 m ρ c
  rw [e]; rfl

theorem y20_eq : W4 (F := Ideal) m ρ c (Proc.devRef .tc main_v20_0)
    = KMain1.G4 (V3 m ρ c main_v0) (V3 m ρ c main_v19) (V3 m ρ c main_v17) (V3 m ρ c main_arg4) :=
  (W4_arr m ρ c 4).trans (KMain1.arrAt_4 (V3 m ρ) c)

theorem acc1_sum : W4 (F := Ideal) m ρ c (Proc.devRef .tc main_v20_1)
    = KMain1.G5 (V3 m ρ c main_v0) (V3 m ρ c main_v19) (V3 m ρ c main_v17) (V3 m ρ c main_arg4) :=
  (W4_arr m ρ c 5).trans (KMain1.arrAt_5 (V3 m ρ) c)

theorem acc1_ssq : W4 (F := Ideal) m ρ c (Proc.devRef .tc main_v20_2)
    = KMain1.G6 (V3 m ρ c main_v0) (V3 m ρ c main_v19) (V3 m ρ c main_v17) (V3 m ρ c main_arg4) :=
  (W4_arr m ρ c 6).trans (KMain1.arrAt_6 (V3 m ρ) c)

theorem y20_at (n : Fin 32) (d : Fin 64) (p : Fin 4096) :
    arr S32x64x4096 (W4 (F := Ideal) m ρ c (Proc.devRef .tc main_v20_0)) (ix3 n d p) = Y20 m c d (n, p) := by
  unfold arr
  rw [y20_eq]
  exact KMain1.y2_eq _ _ _ _ (X m c) _ _ (q0 m c).W2 (v3_v0_at m ρ c) (v19_at m ρ c) (v17_at m ρ c) (v3_arg4_at m ρ c) n d p

theorem sum2 (d : Fin 64) (u : Fin 1) :
    ∑ core : Fin 2, arr S2x64x1 (W4 (F := Ideal) m ρ c (Proc.devRef .tc main_v20_1)) (ix3 core d u) = Net.tot (Y20 m c) d := by
  unfold arr
  rw [acc1_sum]
  exact KMain1.sum_eq _ _ _ _ (X m c) _ _ (q0 m c).W2 (v3_v0_at m ρ c) (v19_at m ρ c) (v17_at m ρ c) (v3_arg4_at m ρ c) d u

theorem ssq2 (d : Fin 64) (u : Fin 1) :
    ∑ core : Fin 2, arr S2x64x1 (W4 (F := Ideal) m ρ c (Proc.devRef .tc main_v20_2)) (ix3 core d u) = Net.tot2 (Y20 m c) d := by
  unfold arr
  rw [acc1_ssq]
  exact KMain1.ssq_eq _ _ _ _ (X m c) _ _ (q0 m c).W2 (v3_v0_at m ρ c) (v19_at m ρ c) (v17_at m ρ c) (v3_arg4_at m ρ c) d u

set_option maxHeartbeats 4000000 in
theorem v34_eq : V5 (F := Ideal) m ρ c main_v34
    = HostFold.scaleVec reducesTo_S2x64x1_S64x1_d0 h_S_ bcast_S_S64x1
        (W4 m ρ c (Proc.devRef .tc main_v20_1)) (W4 m ρ c (Proc.devRef .tc main_v20_2)) (W4 m ρ c (Proc.devRef .tc main_arg5)) := by
  show StableHlo.after hostOps2 (W4 m ρ c) (Proc.devRef .tc main_v34) = _
  after_results_simp
  rfl

theorem v34_at (d : Fin 64) :
    V5 (F := Ideal) m ρ c main_v34 (ix2 d 0) = Net.bnScale Net.Nc Net.epsc (Y20 m c) (q0 m c).g2 d := by
  rw [v34_eq, HostFold.scaleVec_apply _ _ _ (by decide)]
  have e1 := sum2 m ρ c d 0
  have e2 := ssq2 m ρ c d 0
  unfold arr at e1 e2
  rw [e1, e2, w4_arg5]
  rfl

set_option maxHeartbeats 4000000 in
theorem v36_eq : V5 (F := Ideal) m ρ c main_v36
    = HostFold.shiftVec reducesTo_S2x64x1_S64x1_d0 h_S_ bcast_S_S64x1
        (W4 m ρ c (Proc.devRef .tc main_v20_1)) (W4 m ρ c (Proc.devRef .tc main_v20_2)) (W4 m ρ c (Proc.devRef .tc main_arg5))
        (W4 m ρ c (Proc.devRef .tc main_arg6)) := by
  show StableHlo.after hostOps2 (W4 m ρ c) (Proc.devRef .tc main_v36) = _
  after_results_simp
  rfl

theorem v36_at (d : Fin 64) :
    V5 (F := Ideal) m ρ c main_v36 (ix2 d 0) = Net.bnShift Net.Nc Net.epsc (Y20 m c) (q0 m c).g2 (q0 m c).b2 d := by
  rw [v36_eq, HostFold.shiftVec_apply _ _ _ (by decide)]
  have e1 := sum2 m ρ c d 0
  have e2 := ssq2 m ρ c d 0
  unfold arr at e1 e2
  rw [e1, e2, w4_arg5, w4_arg6]
  rfl

/-- The first block's output, as the passes of the second block recompute it from y2 and the second scale and shift. -/
theorem act1 (n : Fin 32) (k : Fin 64) (p : Fin 4096) :
    Net.lrelu Net.slopec (arr S32x64x4096 (V5 (F := Ideal) m ρ c main_v20_0) (ix3 n k p) * arr S64x1 (V5 (F := Ideal) m ρ c main_v34) (ix2 k 0)
        + arr S64x1 (V5 (F := Ideal) m ρ c main_v36) (ix2 k 0))
      = Net.stepK Net.Nc Net.epsc Net.slopec (q0 m c) (X m c) k (n, p) := by
  have e0 : V5 (F := Ideal) m ρ c main_v20_0 = W4 m ρ c (Proc.devRef .tc main_v20_0) := w5_v20_0 m ρ c
  have e1 := y20_at m ρ c n k p
  unfold arr at e1 ⊢
  rw [e0, e1, v34_at, v36_at]
  rfl

end Cert.KernelIdeal.Flow

end
-- ==== Proof.KStats2Pay.lean ====
/-
  Region 2 of the idealized kernel (the statistics pass of the second layer): the arithmetic of one grid point, read at
  an index over the extended reals. As in region 0, with the block first mapped through the per-channel affine map
  z = a·s + t and the leaky rectifier max(z, 0.2·z) before the product y = W · act.
-/
import proofs.«126831_g2000503633499865_pallasbulk_555_4_alg».proof.Proof.Gen.KernelIdeal.Skeleton
import proofs.«126831_g2000503633499865_pallasbulk_555_4_alg».proof.Proof.KStats0Pay

noncomputable section

open Idealize.ShloMosaic Idealize.ShloMosaic.ValueIdx
open scoped BigOperators

namespace Cert.KernelIdeal.KStats2

open Cert.KernelIdeal Cert.KernelIdeal.Gen
open Cert.KernelIdeal.KStats0 (shapeCast_a_a1_apply matmul_at rowsum_at acccol_at accsum_at broadcastTo_a1_ab_apply R0 R1 ld_row0 ld_row1)

/-- The affine map then the leaky rectifier on one element: z = a·s + t, then max(z, 0.2·z) (the slope the f32 word
    the kernel multiplies by). -/
def act (a s t : EReal) : EReal :=
  max (a * s + t) (Ideal.ofBits .f32 0x3E4CCCCD#32 * (a * s + t))

/-- The activated row of the block, at `(k, p)`: the element mapped by channel `k`'s scale and shift. -/
theorem act_at (v4 : Vec Ideal S1x64x4096 .f32) (v6 v10 : Vec Ideal S64x1 .f32) (k : Fin 64) (p : Fin 4096) :
    maximumf
      (addf (mulf (shapeCast S64x4096 v4 shapeCasts_S1x64x4096_S64x4096)
          (broadcastTo S64x4096 (shapeCast S64x1 v6 shapeCasts_S64x1_S64x1) broadcasts_S64x1_S64x4096))
        (broadcastTo S64x4096 (shapeCast S64x1 v10 shapeCasts_S64x1_S64x1) broadcasts_S64x1_S64x4096))
      (mulf (broadcast S64x4096 (Scalar.ofBits .f32 0x3E4CCCCD#32 : Ideal .f32))
        (addf (mulf (shapeCast S64x4096 v4 shapeCasts_S1x64x4096_S64x4096)
            (broadcastTo S64x4096 (shapeCast S64x1 v6 shapeCasts_S64x1_S64x1) broadcasts_S64x1_S64x4096))
          (broadcastTo S64x4096 (shapeCast S64x1 v10 shapeCasts_S64x1_S64x1) broadcasts_S64x1_S64x4096)))
      (ix2 k p)
      = act (v4 (ix3 (0 : Fin 1) k p)) (v6 (ix2 k (0 : Fin 1))) (v10 (ix2 k (0 : Fin 1))) := by
  have e5 : shapeCast S64x4096 v4 shapeCasts_S1x64x4096_S64x4096 (ix2 k p) = v4 (ix3 (0 : Fin 1) k p) :=
    shapeCast_1ab_ab_apply v4 shapeCasts_S1x64x4096_S64x4096 k p
  have e8 : broadcastTo S64x4096 (shapeCast S64x1 v6 shapeCasts_S64x1_S64x1) broadcasts_S64x1_S64x4096 (ix2 k p)
      = v6 (ix2 k (0 : Fin 1)) := by
    rw [shapeCast_self]; exact broadcastTo_a1_ab_apply v6 broadcasts_S64x1_S64x4096 k p
  have e12 : broadcastTo S64x4096 (shapeCast S64x1 v10 shapeCasts_S64x1_S64x1) broadcasts_S64x1_S64x4096 (ix2 k p)
      = v10 (ix2 k (0 : Fin 1)) := by
    rw [shapeCast_self]; exact broadcastTo_a1_ab_apply v10 broadcasts_S64x1_S64x4096 k p
  show max (shapeCast S64x4096 v4 shapeCasts_S1x64x4096_S64x4096 (ix2 k p)
        * broadcastTo S64x4096 (shapeCast S64x1 v6 shapeCasts_S64x1_S64x1) broadcasts_S64x1_S64x4096 (ix2 k p)
        + broadcastTo S64x4096 (shapeCast S64x1 v10 shapeCasts_S64x1_S64x1) broadcasts_S64x1_S64x4096 (ix2 k p))
      (Ideal.ofBits .f32 0x3E4CCCCD#32 * (shapeCast S64x4096 v4 shapeCasts_S1x64x4096_S64x4096 (ix2 k p)
        * broadcastTo S64x4096 (shapeCast S64x1 v6 shapeCasts_S64x1_S64x1) broadcasts_S64x1_S64x4096 (ix2 k p)
        + broadcastTo S64x4096 (shapeCast S64x1 v10 shapeCasts_S64x1_S64x1) broadcasts_S64x1_S64x4096 (ix2 k p))) = _
  rw [e5, e8, e12]
  rfl

/-- y = W · act for the block's first row, at `(ch, p)`. -/
theorem pay4_at (v3 : Vec Ideal S128x64 .f32) (v4 : Vec Ideal S1x64x4096 .f32) (v6 v10 : Vec Ideal S64x1 .f32)
    (ch : Fin 128) (p : Fin 4096) :
    k2_pay4 (F := Ideal) v3 v4 v6 v10 (ix2 ch p)
      = ∑ k : Fin 64, v3 (ix2 ch k) * act (v4 (ix3 (0 : Fin 1) k p)) (v6 (ix2 k (0 : Fin 1))) (v10 (ix2 k (0 : Fin 1))) := by
  unfold k2_pay4
  refine (matmul_at v3 _ ch p).trans ?_
  exact Finset.sum_congr rfl fun k _ => congrArg (v3 (ix2 ch k) * ·) (act_at v4 v6 v10 k p)

/-- The same for the block's second row. -/
theorem pay8_at (v3 : Vec Ideal S128x64 .f32) (v35 : Vec Ideal S1x64x4096 .f32) (v37 v41 : Vec Ideal S64x1 .f32)
    (ch : Fin 128) (p : Fin 4096) :
    k2_pay8 (F := Ideal) v3 v35 v37 v41 (ix2 ch p)
      = ∑ k : Fin 64, v3 (ix2 ch k) * act (v35 (ix3 (0 : Fin 1) k p)) (v37 (ix2 k (0 : Fin 1))) (v41 (ix2 k (0 : Fin 1))) := by
  unfold k2_pay8
  refine (matmul_at v3 _ ch p).trans ?_
  exact Finset.sum_congr rfl fun k _ => congrArg (v3 (ix2 ch k) * ·) (act_at v35 v37 v41 k p)

/-- The zero block the first point of a core stores into the sum accumulator. -/
theorem pay2_at (u : Fin 1) (ch : Fin 128) (w : Fin 1) :
    k2_pay2 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The zero block the first point of a core stores into the sum-of-squares accumulator. -/
theorem pay3_at (u : Fin 1) (ch : Fin 128) (w : Fin 1) :
    k2_pay3 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The sum accumulator after the block's first row. -/
theorem pay5_at (v3 : Vec Ideal S128x64 .f32) (v4 : Vec Ideal S1x64x4096 .f32) (v6 v10 : Vec Ideal S64x1 .f32)
    (v18 : Vec Ideal S1x128x1 .f32) (u : Fin 1) (ch : Fin 128) (w : Fin 1) :
    k2_pay5 (F := Ideal) v3 v4 v6 v10 v18 (ix3 u ch w)
      = v18 (ix3 (0 : Fin 1) ch w) + ∑ p : Fin 4096, ∑ k : Fin 64,
          v3 (ix2 ch k) * act (v4 (ix3 (0 : Fin 1) k p)) (v6 (ix2 k (0 : Fin 1))) (v10 (ix2 k (0 : Fin 1))) :=
  (accsum_at (k2_pay4 v3 v4 v6 v10) v18 u ch w).trans
    (congrArg (v18 (ix3 (0 : Fin 1) ch w) + ·) (Finset.sum_congr rfl fun p _ => pay4_at v3 v4 v6 v10 ch p))

/-- The sum accumulator after the block's second row. -/
theorem pay9_at (v3 : Vec Ideal S128x64 .f32) (v35 : Vec Ideal S1x64x4096 .f32) (v37 v41 : Vec Ideal S64x1 .f32)
    (v49 : Vec Ideal S1x128x1 .f32) (u : Fin 1) (ch : Fin 128) (w : Fin 1) :
    k2_pay9 (F := Ideal) v3 v35 v37 v41 v49 (ix3 u ch w)
      = v49 (ix3 (0 : Fin 1) ch w) + ∑ p : Fin 4096, ∑ k : Fin 64,
          v3 (ix2 ch k) * act (v35 (ix3 (0 : Fin 1) k p)) (v37 (ix2 k (0 : Fin 1))) (v41 (ix2 k (0 : Fin 1))) :=
  (accsum_at (k2_pay8 v3 v35 v37 v41) v49 u ch w).trans
    (congrArg (v49 (ix3 (0 : Fin 1) ch w) + ·) (Finset.sum_congr rfl fun p _ => pay8_at v3 v35 v37 v41 ch p))

/-- The sum-of-squares accumulator, as a column, after the block's first row. -/
theorem pay6_at (v3 : Vec Ideal S128x64 .f32) (v4 : Vec Ideal S1x64x4096 .f32) (v6 v10 : Vec Ideal S64x1 .f32)
    (v26 : Vec Ideal S1x128x1 .f32) (ch : Fin 128) (w : Fin 1) :
    k2_pay6 (F := Ideal) v3 v4 v6 v10 v26 (ix2 ch w)
      = v26 (ix3 (0 : Fin 1) ch w) + ∑ p : Fin 4096,
          (∑ k : Fin 64, v3 (ix2 ch k) * act (v4 (ix3 (0 : Fin 1) k p)) (v6 (ix2 k (0 : Fin 1))) (v10 (ix2 k (0 : Fin 1))))
          * (∑ k : Fin 64, v3 (ix2 ch k) * act (v4 (ix3 (0 : Fin 1) k p)) (v6 (ix2 k (0 : Fin 1))) (v10 (ix2 k (0 : Fin 1)))) :=
  (acccol_at (mulf (k2_pay4 v3 v4 v6 v10) (k2_pay4 v3 v4 v6 v10)) v26 ch w).trans
    (congrArg (v26 (ix3 (0 : Fin 1) ch w) + ·) (Finset.sum_congr rfl fun p _ =>
      (mulf_apply _ _ _).trans (by rw [pay4_at v3 v4 v6 v10 ch p])))

/-- The sum-of-squares accumulator, as a column, after the block's second row. -/
theorem pay10_at (v3 : Vec Ideal S128x64 .f32) (v35 : Vec Ideal S1x64x4096 .f32) (v37 v41 : Vec Ideal S64x1 .f32)
    (v57 : Vec Ideal S1x128x1 .f32) (ch : Fin 128) (w : Fin 1) :
    k2_pay10 (F := Ideal) v3 v35 v37 v41 v57 (ix2 ch w)
      = v57 (ix3 (0 : Fin 1) ch w) + ∑ p : Fin 4096,
          (∑ k : Fin 64, v3 (ix2 ch k) * act (v35 (ix3 (0 : Fin 1) k p)) (v37 (ix2 k (0 : Fin 1))) (v41 (ix2 k (0 : Fin 1))))
          * (∑ k : Fin 64, v3 (ix2 ch k) * act (v35 (ix3 (0 : Fin 1) k p)) (v37 (ix2 k (0 : Fin 1))) (v41 (ix2 k (0 : Fin 1)))) :=
  (acccol_at (mulf (k2_pay8 v3 v35 v37 v41) (k2_pay8 v3 v35 v37 v41)) v57 ch w).trans
    (congrArg (v57 (ix3 (0 : Fin 1) ch w) + ·) (Finset.sum_congr rfl fun p _ =>
      (mulf_apply _ _ _).trans (by rw [pay8_at v3 v35 v37 v41 ch p])))

/-- A column stored back as a block `[1,128,1]` (the first row's sum of squares). -/
theorem pay7_at (v31 : FVec Ideal S128x1 .f32) (u : Fin 1) (ch : Fin 128) (w : Fin 1) :
    k2_pay7 (F := Ideal) v31 (ix3 u ch w) = v31 (ix2 ch w) :=
  shapeCast_ab_1ab_apply v31 shapeCasts_S128x1_S1x128x1 u ch w

/-- A column stored back as a block `[1,128,1]` (the second row's sum of squares). -/
theorem pay1_at (v62 : FVec Ideal S128x1 .f32) (u : Fin 1) (ch : Fin 128) (w : Fin 1) :
    k2_pay1 (F := Ideal) v62 (ix3 u ch w) = v62 (ix2 ch w) :=
  shapeCast_ab_1ab_apply v62 shapeCasts_S128x1_S1x128x1 u ch w

/-! ## One grid point: both rows of the block -/

/-- The lane sum of y = W · act(a) for row `i` of a block, at channel `ch`. -/
def Sblk (x1 : S128x64.Idx → EReal) (x0 : S2x64x4096.Idx → EReal) (xs xt : S64x1.Idx → EReal) (i : Fin 2) (ch : Fin 128) : EReal :=
  ∑ p : Fin 4096, ∑ k : Fin 64, x1 (ix2 ch k) * act (x0 (ix3 i k p)) (xs (ix2 k (0 : Fin 1))) (xt (ix2 k (0 : Fin 1)))

/-- The lane sum of y² for row `i` of a block, at channel `ch`. -/
def Qblk (x1 : S128x64.Idx → EReal) (x0 : S2x64x4096.Idx → EReal) (xs xt : S64x1.Idx → EReal) (i : Fin 2) (ch : Fin 128) : EReal :=
  ∑ p : Fin 4096, (∑ k : Fin 64, x1 (ix2 ch k) * act (x0 (ix3 i k p)) (xs (ix2 k (0 : Fin 1))) (xt (ix2 k (0 : Fin 1))))
    * (∑ k : Fin 64, x1 (ix2 ch k) * act (x0 (ix3 i k p)) (xs (ix2 k (0 : Fin 1))) (xt (ix2 k (0 : Fin 1))))

/-- What one grid point leaves in the sum accumulator that held `acc`: the two read-modify-writes of the body. -/
def stepS (x1 : Vec Ideal S128x64 .f32) (x0 : Vec Ideal S2x64x4096 .f32) (xs xt : Vec Ideal S64x1 .f32)
    (acc : Vec Ideal S1x128x1 .f32) : Vec Ideal S1x128x1 .f32 :=
  k2_pay9 x1 (View.ld x0 R1) xs xt (k2_pay5 x1 (View.ld x0 R0) xs xt acc)

/-- What one grid point leaves in the sum-of-squares accumulator that held `acc`. -/
def stepQ (x1 : Vec Ideal S128x64 .f32) (x0 : Vec Ideal S2x64x4096 .f32) (xs xt : Vec Ideal S64x1 .f32)
    (acc : Vec Ideal S1x128x1 .f32) : Vec Ideal S1x128x1 .f32 :=
  k2_pay1 (k2_pay10 x1 (View.ld x0 R1) xs xt (k2_pay7 (k2_pay6 x1 (View.ld x0 R0) xs xt acc)))

/-- The product's row sum with the loaded row written as the block's row. -/
theorem sum_row0 (x1 : Vec Ideal S128x64 .f32) (x0 : Vec Ideal S2x64x4096 .f32) (xs xt : Vec Ideal S64x1 .f32)
    (ch : Fin 128) (p : Fin 4096) :
    (∑ k : Fin 64, x1 (ix2 ch k) * act ((View.ld x0 R0) (ix3 (0 : Fin 1) k p)) (xs (ix2 k (0 : Fin 1))) (xt (ix2 k (0 : Fin 1))))
      = ∑ k : Fin 64, x1 (ix2 ch k) * act (x0 (ix3 (0 : Fin 2) k p)) (xs (ix2 k (0 : Fin 1))) (xt (ix2 k (0 : Fin 1))) :=
  Finset.sum_congr rfl fun k _ => congrArg (fun a => x1 (ix2 ch k) * act a (xs (ix2 k (0 : Fin 1))) (xt (ix2 k (0 : Fin 1))))
    (ld_row0 x0 (0 : Fin 1) k p)

theorem sum_row1 (x1 : Vec Ideal S128x64 .f32) (x0 : Vec Ideal S2x64x4096 .f32) (xs xt : Vec Ideal S64x1 .f32)
    (ch : Fin 128) (p : Fin 4096) :
    (∑ k : Fin 64, x1 (ix2 ch k) * act ((View.ld x0 R1) (ix3 (0 : Fin 1) k p)) (xs (ix2 k (0 : Fin 1))) (xt (ix2 k (0 : Fin 1))))
      = ∑ k : Fin 64, x1 (ix2 ch k) * act (x0 (ix3 (1 : Fin 2) k p)) (xs (ix2 k (0 : Fin 1))) (xt (ix2 k (0 : Fin 1))) :=
  Finset.sum_congr rfl fun k _ => congrArg (fun a => x1 (ix2 ch k) * act a (xs (ix2 k (0 : Fin 1))) (xt (ix2 k (0 : Fin 1))))
    (ld_row1 x0 (0 : Fin 1) k p)

/-- One grid point adds to the sum accumulator the lane sums of the block's two rows, row 0 first. -/
theorem stepS_at (x1 : Vec Ideal S128x64 .f32) (x0 : Vec Ideal S2x64x4096 .f32) (xs xt : Vec Ideal S64x1 .f32)
    (acc : Vec Ideal S1x128x1 .f32) (u : Fin 1) (ch : Fin 128) (w : Fin 1) :
    stepS x1 x0 xs xt acc (ix3 u ch w)
      = (acc (ix3 (0 : Fin 1) ch w) + Sblk x1 x0 xs xt 0 ch) + Sblk x1 x0 xs xt 1 ch := by
  unfold stepS
  refine (pay9_at x1 (View.ld x0 R1) xs xt _ u ch w).trans ?_
  refine congrArg₂ (· + ·) ?_ ?_
  · refine (pay5_at x1 (View.ld x0 R0) xs xt acc (0 : Fin 1) ch w).trans ?_
    refine congrArg (acc (ix3 (0 : Fin 1) ch w) + ·) ?_
    exact Finset.sum_congr rfl fun p _ => sum_row0 x1 x0 xs xt ch p
  · exact Finset.sum_congr rfl fun p _ => sum_row1 x1 x0 xs xt ch p

/-- One grid point adds to the sum-of-squares accumulator the lane sums of y² of the block's two rows, row 0 first. -/
theorem stepQ_at (x1 : Vec Ideal S128x64 .f32) (x0 : Vec Ideal S2x64x4096 .f32) (xs xt : Vec Ideal S64x1 .f32)
    (acc : Vec Ideal S1x128x1 .f32) (u : Fin 1) (ch : Fin 128) (w : Fin 1) :
    stepQ x1 x0 xs xt acc (ix3 u ch w)
      = (acc (ix3 (0 : Fin 1) ch w) + Qblk x1 x0 xs xt 0 ch) + Qblk x1 x0 xs xt 1 ch := by
  unfold stepQ
  refine (pay1_at _ u ch w).trans ?_
  refine (pay10_at x1 (View.ld x0 R1) xs xt _ ch w).trans ?_
  refine congrArg₂ (· + ·) ?_ ?_
  · refine (pay7_at _ (0 : Fin 1) ch w).trans ?_
    refine (pay6_at x1 (View.ld x0 R0) xs xt acc ch w).trans ?_
    refine congrArg (acc (ix3 (0 : Fin 1) ch w) + ·) ?_
    refine Finset.sum_congr rfl fun p _ => ?_
    rw [sum_row0 x1 x0 xs xt ch p]
  · refine Finset.sum_congr rfl fun p _ => ?_
    rw [sum_row1 x1 x0 xs xt ch p]

end Cert.KernelIdeal.KStats2

end
-- ==== Proof.KStats2Val.lean ====
/-
  Region 2 of the idealized kernel (the statistics pass of the second layer), its VALUE: what the two per-core
  accumulator arrays [2,128,1] end holding, as functions of the activation [32,64,4096], the weights [128,64] and the
  per-channel scale and shift [64,1] the region finds. At (core, ch, 0): the sum over the core's eight grid points j, the
  block's two rows i and the 4096 lanes p of y = ∑ₖ W[ch,k] · act(a[(core·8+j)·2+i, k, p], s[k], t[k]) (window 4), and
  of y² (window 5), act the affine map then the leaky rectifier.
  The road: each control case's stored pieces read back as the one-point step (`stepS`, `stepQ`); the staging
  buffers' contents after each point by induction on the point; the flushing point's block; the blocks cover the array.
-/
import proofs.«126831_g2000503633499865_pallasbulk_555_4_alg».proof.Proof.Gen.KernelIdeal.Frame
import proofs.«126831_g2000503633499865_pallasbulk_555_4_alg».proof.Proof.KStats2Pay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KStats2

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-! ## The control cases' stored pieces, read back -/

/-- A later point of a core: the sum accumulator that held `xo4` is left at the one-point step of it. -/
theorem out_B_4 (c : Dev nD) (i : grid2.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : ¬cond2_0 i)
    (x0 : Vec Ideal S2x64x4096 .f32) (x1 : Vec Ideal S128x64 .f32) (x2 x3 : Vec Ideal S64x1 .f32) (xo4 xo5 : Vec Ideal S1x128x1 .f32) :
    out2_B_4 c i a2 h2 a3 h3 a4 h4 a5 h5 a6 h6 a7 h7 hc x0 x1 x2 x3 xo4 xo5 = stepS x1 x0 x2 x3 xo4 := by
  unfold out2_B_4
  rw [View.read_writes_eq_canon _ _ _ (cover2_B_4 c i a2 h2 a3 h3 a4 h4 a5 h5 a6 h6 a7 h7 hc x0 x1 x2 x3 xo4 xo5)]
  unfold kernelRun2_B
  dsimp only
  sl_unfold_words
  rw [View.canon_cons_unit_zero (S := S1x128x1) hz3]
  simp only [View.readAt_eq_ld, h2.read_unread, h3.read_unread, h4.read_unread, h5.read_unread, h6.read_unread,
    h7.read_unread, View.ld_unit_zero (S := S1x128x1) hz3, View.ld_unit_zero (S := S128x64) hz2,
    View.ld_unit_zero (S := S64x1) hz2, View.readCov_unit_zero (S := S1x128x1) _ hz3, View.readCov_cons_toLoadRect]
  rfl

/-- A later point of a core: the sum-of-squares accumulator that held `xo5` is left at the one-point step of it. -/
theorem out_B_5 (c : Dev nD) (i : grid2.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : ¬cond2_0 i)
    (x0 : Vec Ideal S2x64x4096 .f32) (x1 : Vec Ideal S128x64 .f32) (x2 x3 : Vec Ideal S64x1 .f32) (xo4 xo5 : Vec Ideal S1x128x1 .f32) :
    out2_B_5 c i a2 h2 a3 h3 a4 h4 a5 h5 a6 h6 a7 h7 hc x0 x1 x2 x3 xo4 xo5 = stepQ x1 x0 x2 x3 xo5 := by
  unfold out2_B_5
  rw [View.read_writes_eq_canon _ _ _ (cover2_B_5 c i a2 h2 a3 h3 a4 h4 a5 h5 a6 h6 a7 h7 hc x0 x1 x2 x3 xo4 xo5)]
  unfold kernelRun2_B
  dsimp only
  sl_unfold_words
  rw [View.canon_cons_unit_zero (S := S1x128x1) hz3]
  simp only [View.readAt_eq_ld, h2.read_unread, h3.read_unread, h4.read_unread, h5.read_unread, h6.read_unread,
    h7.read_unread, View.ld_unit_zero (S := S1x128x1) hz3, View.ld_unit_zero (S := S128x64) hz2,
    View.ld_unit_zero (S := S64x1) hz2, View.readCov_unit_zero (S := S1x128x1) _ hz3, View.readCov_cons_toLoadRect]
  rfl

/-- The first point of a core: the sum accumulator is zeroed, then stepped. -/
theorem out_A_4 (c : Dev nD) (i : grid2.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : cond2_0 i)
    (x0 : Vec Ideal S2x64x4096 .f32) (x1 : Vec Ideal S128x64 .f32) (x2 x3 : Vec Ideal S64x1 .f32) :
    out2_A_4 c i a2 h2 a3 h3 a4 h4 a5 h5 a6 h6 a7 h7 hc x0 x1 x2 x3 = stepS x1 x0 x2 x3 (k2_pay2 (F := Ideal)) := by
  unfold out2_A_4
  rw [View.read_writes_eq_canon _ _ _ (cover2_A_4 c i a2 h2 a3 h3 a4 h4 a5 h5 a6 h6 a7 h7 hc x0 x1 x2 x3)]
  unfold kernelRun2_A
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.ld_unit_zero (S := S64x1) hz2, View.readCov_unit_zero (S := S1x128x1) _ hz3, View.readCov_cons_toLoadRect]
  rfl

/-- The first point of a core: the sum-of-squares accumulator is zeroed, then stepped. -/
theorem out_A_5 (c : Dev nD) (i : grid2.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : cond2_0 i)
    (x0 : Vec Ideal S2x64x4096 .f32) (x1 : Vec Ideal S128x64 .f32) (x2 x3 : Vec Ideal S64x1 .f32) :
    out2_A_5 c i a2 h2 a3 h3 a4 h4 a5 h5 a6 h6 a7 h7 hc x0 x1 x2 x3 = stepQ x1 x0 x2 x3 (k2_pay3 (F := Ideal)) := by
  unfold out2_A_5
  rw [View.read_writes_eq_canon _ _ _ (cover2_A_5 c i a2 h2 a3 h3 a4 h4 a5 h5 a6 h6 a7 h7 hc x0 x1 x2 x3)]
  unfold kernelRun2_A
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.ld_unit_zero (S := S64x1) hz2, View.readCov_unit_zero (S := S1x128x1) _ hz3, View.readCov_cons_toLoadRect]
  rfl

/-! ## The blocks a point reads, as elements of the arrays -/

variable (V : (c : Dev nD) → (b : Ref sig .tc) → Buf (Elt Ideal) ((c : Thread nD τ).loc b))

/-- The printed index maps, decided over the grid: the activation's block at point `t` is rows 2t, 2t+1; the weights',
    the scale's and the shift's blocks are the whole arrays; the accumulators' block is row t / 8. -/
theorem idx_facts : ∀ t : Fin cfg2.N, win2_0.index t (0 : Fin 3) = t.val ∧ win2_0.index t (1 : Fin 3) = 0
    ∧ win2_0.index t (2 : Fin 3) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 8 ∧ win2_4.index t (1 : Fin 3) = 0 ∧ win2_4.index t (2 : Fin 3) = 0
    ∧ win2_5.index t (0 : Fin 3) = t.val / 8 ∧ win2_5.index t (1 : Fin 3) = 0 ∧ win2_5.index t (2 : Fin 3) = 0 :=
  (by decide +kernel : ∀ t : Fin grid2.N, _)

/-- Row `2n + i` of the activation: row `i` of the block at point `n`. -/
def rowAt (n : ℕ) (i : Fin 2) (h : n < 16) : Fin 32 := ⟨n * 2 + i.val, by have := i.isLt; omega⟩

/-- The activation's block at point `t`, at `(i, k, p)`: the array at row `2t + i`. -/
theorem blkA_at (c : Dev nD) (t : Fin cfg2.N) (ht : t.val < 16) (i : Fin 2) (k : Fin 64) (p : Fin 4096) :
    iblk2 V c 0 t (ix3 i k p) = V c (Pipeline.arrRef spec2 0) (ix3 (rowAt t.val i ht) k p) := by
  obtain ⟨e0, e1, e2, -⟩ := idx_facts t
  show V c (Pipeline.arrRef spec2 0) (((cfg2.win 0).blk t).view.emb (ix3 i k p)) = _
  refine congrArg _ (funext fun a => Fin.ext ?_)
  match a with
  | ⟨0, _⟩ => show win2_0.index t (0 : Fin 3) * 2 + 1 * i.val = t.val * 2 + i.val; rw [e0]; omega
  | ⟨1, _⟩ => show win2_0.index t (1 : Fin 3) * 64 + 1 * k.val = k.val; rw [e1]; omega
  | ⟨2, _⟩ => show win2_0.index t (2 : Fin 3) * 4096 + 1 * p.val = p.val; rw [e2]; omega

/-- The weights' block at any point is the array. -/
theorem blkW_at (c : Dev nD) (t : Fin cfg2.N) (ch : Fin 128) (k : Fin 64) :
    iblk2 V c 1 t (ix2 ch k) = V c (Pipeline.arrRef spec2 1) (ix2 ch k) := by
  obtain ⟨-, -, -, e0, e1, -⟩ := idx_facts t
  show V c (Pipeline.arrRef spec2 1) (((cfg2.win 1).blk t).view.emb (ix2 ch k)) = _
  refine congrArg _ (funext fun a => Fin.ext ?_)
  match a with
  | ⟨0, _⟩ => show win2_1.index t (0 : Fin 2) * 128 + 1 * ch.val = ch.val; rw [e0]; omega
  | ⟨1, _⟩ => show win2_1.index t (1 : Fin 2) * 64 + 1 * k.val = k.val; rw [e1]; omega

/-- The scale's block at any point is the array. -/
theorem blkS_at (c : Dev nD) (t : Fin cfg2.N) (k : Fin 64) (z : Fin 1) :
    iblk2 V c 2 t (ix2 k z) = V c (Pipeline.arrRef spec2 2) (ix2 k z) := by
  obtain ⟨-, -, -, -, -, f0, f1, g0, g1, -⟩ := idx_facts t
  show V c (Pipeline.arrRef spec2 2) (((cfg2.win 2).blk t).view.emb (ix2 k z)) = _
  refine congrArg _ (funext fun a => Fin.ext ?_)
  match a with
  | ⟨0, _⟩ => show win2_2.index t (0 : Fin 2) * 64 + 1 * k.val = k.val; rw [f0]; omega
  | ⟨1, _⟩ => show win2_2.index t (1 : Fin 2) * 1 + 1 * z.val = z.val; rw [f1]; omega

/-- The shift's block at any point is the array. -/
theorem blkT_at (c : Dev nD) (t : Fin cfg2.N) (k : Fin 64) (z : Fin 1) :
    iblk2 V c 3 t (ix2 k z) = V c (Pipeline.arrRef spec2 3) (ix2 k z) := by
  obtain ⟨-, -, -, -, -, f0, f1, g0, g1, -⟩ := idx_facts t
  show V c (Pipeline.arrRef spec2 3) (((cfg2.win 3).blk t).view.emb (ix2 k z)) = _
  refine congrArg _ (funext fun a => Fin.ext ?_)
  match a with
  | ⟨0, _⟩ => show win2_3.index t (0 : Fin 2) * 64 + 1 * k.val = k.val; rw [g0]; omega
  | ⟨1, _⟩ => show win2_3.index t (1 : Fin 2) * 1 + 1 * z.val = z.val; rw [g1]; omega

/-! ## The value, index by index -/

/-- The lane sum of y = W · act(a) for row `r` of the activation, at channel `ch`. -/
def S (a : S32x64x4096.Idx → EReal) (w : S128x64.Idx → EReal) (s t : S64x1.Idx → EReal) (r : Fin 32) (ch : Fin 128) : EReal :=
  ∑ p : Fin 4096, ∑ k : Fin 64, w (ix2 ch k) * act (a (ix3 r k p)) (s (ix2 k (0 : Fin 1))) (t (ix2 k (0 : Fin 1)))

/-- The lane sum of y² for row `r` of the activation, at channel `ch`. -/
def Q (a : S32x64x4096.Idx → EReal) (w : S128x64.Idx → EReal) (s t : S64x1.Idx → EReal) (r : Fin 32) (ch : Fin 128) : EReal :=
  ∑ p : Fin 4096, (∑ k : Fin 64, w (ix2 ch k) * act (a (ix3 r k p)) (s (ix2 k (0 : Fin 1))) (t (ix2 k (0 : Fin 1))))
    * (∑ k : Fin 64, w (ix2 ch k) * act (a (ix3 r k p)) (s (ix2 k (0 : Fin 1))) (t (ix2 k (0 : Fin 1))))

/-- Row `(core·8 + j)·2 + i` of the activation: row `i` of the block at point `j` of core `core`. -/
def row (core : Fin 2) (j : Fin 8) (i : Fin 2) : Fin 32 :=
  ⟨(core.val * 8 + j.val) * 2 + i.val, by have := core.isLt; have := j.isLt; have := i.isLt; omega⟩

/-- WINDOW 4's array after the region: per core and channel, the sum over the core's points and the block's rows of the
    lane sums of y. -/
def GK2_4 (a : S32x64x4096.Idx → EReal) (w : S128x64.Idx → EReal) (s t : S64x1.Idx → EReal) : S2x128x1.Idx → EReal :=
  fun idx => ∑ j : Fin 8, (S a w s t (row (idx 0) j 0) (idx 1) + S a w s t (row (idx 0) j 1) (idx 1))

/-- WINDOW 5's array after the region: the same of y². -/
def GK2_5 (a : S32x64x4096.Idx → EReal) (w : S128x64.Idx → EReal) (s t : S64x1.Idx → EReal) : S2x128x1.Idx → EReal :=
  fun idx => ∑ j : Fin 8, (Q a w s t (row (idx 0) j 0) (idx 1) + Q a w s t (row (idx 0) j 1) (idx 1))

/-- y at `(ch, p)` for row `i` of a block. -/
def dotb (x1 : S128x64.Idx → EReal) (x0 : S2x64x4096.Idx → EReal) (xs xt : S64x1.Idx → EReal) (i : Fin 2) (ch : Fin 128)
    (p : Fin 4096) : EReal :=
  ∑ k : Fin 64, x1 (ix2 ch k) * act (x0 (ix3 i k p)) (xs (ix2 k (0 : Fin 1))) (xt (ix2 k (0 : Fin 1)))

/-- y at `(ch, p)` for row `r` of the activation. -/
def dota (a : S32x64x4096.Idx → EReal) (w : S128x64.Idx → EReal) (s t : S64x1.Idx → EReal) (r : Fin 32) (ch : Fin 128)
    (p : Fin 4096) : EReal :=
  ∑ k : Fin 64, w (ix2 ch k) * act (a (ix3 r k p)) (s (ix2 k (0 : Fin 1))) (t (ix2 k (0 : Fin 1)))

/-- One row's product, block against array. -/
theorem dot_eq (c : Dev nD) (t : Fin cfg2.N) (ht : t.val < 16) (i : Fin 2) (ch : Fin 128) (p : Fin 4096) :
    dotb (iblk2 V c 1 t) (iblk2 V c 0 t) (iblk2 V c 2 t) (iblk2 V c 3 t) i ch p
      = dota (V c (Pipeline.arrRef spec2 0)) (V c (Pipeline.arrRef spec2 1)) (V c (Pipeline.arrRef spec2 2)) (V c (Pipeline.arrRef spec2 3)) (rowAt t.val i ht) ch p := by
  unfold dotb dota
  exact Finset.sum_congr rfl fun k _ => by
    rw [blkW_at V c t ch k, blkA_at V c t ht i k p, blkS_at V c t k (0 : Fin 1), blkT_at V c t k (0 : Fin 1)]

/-- A block's lane sum is the arrays' at the block's row. -/
theorem Sblk_eq (c : Dev nD) (t : Fin cfg2.N) (ht : t.val < 16) (i : Fin 2) (ch : Fin 128) :
    Sblk (iblk2 V c 1 t) (iblk2 V c 0 t) (iblk2 V c 2 t) (iblk2 V c 3 t) i ch
      = S (V c (Pipeline.arrRef spec2 0)) (V c (Pipeline.arrRef spec2 1)) (V c (Pipeline.arrRef spec2 2)) (V c (Pipeline.arrRef spec2 3)) (rowAt t.val i ht) ch := by
  unfold Sblk S
  exact Finset.sum_congr rfl fun p _ => dot_eq V c t ht i ch p

theorem Qblk_eq (c : Dev nD) (t : Fin cfg2.N) (ht : t.val < 16) (i : Fin 2) (ch : Fin 128) :
    Qblk (iblk2 V c 1 t) (iblk2 V c 0 t) (iblk2 V c 2 t) (iblk2 V c 3 t) i ch
      = Q (V c (Pipeline.arrRef spec2 0)) (V c (Pipeline.arrRef spec2 1)) (V c (Pipeline.arrRef spec2 2)) (V c (Pipeline.arrRef spec2 3)) (rowAt t.val i ht) ch := by
  unfold Qblk Q
  exact Finset.sum_congr rfl fun p _ => congrArg₂ (· * ·) (dot_eq V c t ht i ch p) (dot_eq V c t ht i ch p)

/-- Point `n`'s addend to the sum accumulator: the lane sums of its block's two rows. -/
def MS (a : S32x64x4096.Idx → EReal) (w : S128x64.Idx → EReal) (s t : S64x1.Idx → EReal) (n : ℕ) (ch : Fin 128) : EReal :=
  if h : n < 16 then S a w s t (rowAt n 0 h) ch + S a w s t (rowAt n 1 h) ch else 0

/-- Point `n`'s addend to the sum-of-squares accumulator. -/
def MQ (a : S32x64x4096.Idx → EReal) (w : S128x64.Idx → EReal) (s t : S64x1.Idx → EReal) (n : ℕ) (ch : Fin 128) : EReal :=
  if h : n < 16 then Q a w s t (rowAt n 0 h) ch + Q a w s t (rowAt n 1 h) ch else 0

/-! ## What the staging buffers hold after each point -/

theorem sum_A (c : Dev nD) (t : Fin cfg2.N) (h0 : t.val % 8 = 0) (u : Fin 1) (ch : Fin 128) (w : Fin 1) :
    (outsAt2 V c t.val t.isLt).1 (ix3 u ch w)
      = Ideal.ofBits .f32 0x00000000#32 + MS (V c (Pipeline.arrRef spec2 0)) (V c (Pipeline.arrRef spec2 1)) (V c (Pipeline.arrRef spec2 2)) (V c (Pipeline.arrRef spec2 3)) t.val ch := by
  have ht : t.val < 16 := lt_of_lt_of_eq t.isLt (show cfg2.N = 16 from N_2)
  rw [outsAt2_A V c t h0]
  dsimp only
  rw [out_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)]
  rw [stepS_at, pay2_at, Sblk_eq V c t ht, Sblk_eq V c t ht, add_assoc]
  unfold MS
  rw [dif_pos ht]

theorem sum_B (c : Dev nD) (t : Fin cfg2.N) (h0 : ¬t.val % 8 = 0) (u : Fin 1) (ch : Fin 128) (w : Fin 1) :
    (outsAt2 V c t.val t.isLt).1 (ix3 u ch w)
      = (outsAt2 V c (t.val - 1) (Nat.lt_of_le_of_lt (Nat.sub_le _ _) t.isLt)).1 (ix3 (0 : Fin 1) ch w)
        + MS (V c (Pipeline.arrRef spec2 0)) (V c (Pipeline.arrRef spec2 1)) (V c (Pipeline.arrRef spec2 2)) (V c (Pipeline.arrRef spec2 3)) t.val ch := by
  have ht : t.val < 16 := lt_of_lt_of_eq t.isLt (show cfg2.N = 16 from N_2)
  rw [outsAt2_B V c t h0]
  dsimp only
  rw [out_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)]
  rw [stepS_at, Sblk_eq V c t ht, Sblk_eq V c t ht, add_assoc]
  unfold MS
  rw [dif_pos ht]

theorem ssq_A (c : Dev nD) (t : Fin cfg2.N) (h0 : t.val % 8 = 0) (u : Fin 1) (ch : Fin 128) (w : Fin 1) :
    (outsAt2 V c t.val t.isLt).2 (ix3 u ch w)
      = Ideal.ofBits .f32 0x00000000#32 + MQ (V c (Pipeline.arrRef spec2 0)) (V c (Pipeline.arrRef spec2 1)) (V c (Pipeline.arrRef spec2 2)) (V c (Pipeline.arrRef spec2 3)) t.val ch := by
  have ht : t.val < 16 := lt_of_lt_of_eq t.isLt (show cfg2.N = 16 from N_2)
  rw [outsAt2_A V c t h0]
  dsimp only
  rw [out_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)]
  rw [stepQ_at, pay3_at, Qblk_eq V c t ht, Qblk_eq V c t ht, add_assoc]
  unfold MQ
  rw [dif_pos ht]

theorem ssq_B (c : Dev nD) (t : Fin cfg2.N) (h0 : ¬t.val % 8 = 0) (u : Fin 1) (ch : Fin 128) (w : Fin 1) :
    (outsAt2 V c t.val t.isLt).2 (ix3 u ch w)
      = (outsAt2 V c (t.val - 1) (Nat.lt_of_le_of_lt (Nat.sub_le _ _) t.isLt)).2 (ix3 (0 : Fin 1) ch w)
        + MQ (V c (Pipeline.arrRef spec2 0)) (V c (Pipeline.arrRef spec2 1)) (V c (Pipeline.arrRef spec2 2)) (V c (Pipeline.arrRef spec2 3)) t.val ch := by
  have ht : t.val < 16 := lt_of_lt_of_eq t.isLt (show cfg2.N = 16 from N_2)
  rw [outsAt2_B V c t h0]
  dsimp only
  rw [out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t)]
  rw [stepQ_at, Qblk_eq V c t ht, Qblk_eq V c t ht, add_assoc]
  unfold MQ
  rw [dif_pos ht]

/-- THE SUM ACCUMULATOR after point `n`: zero plus the addends of the core's points up to `n`. -/
theorem sum_inv (c : Dev nD) (ch : Fin 128) : ∀ (n : ℕ) (hn : n < cfg2.N) (u w : Fin 1),
    (outsAt2 V c n hn).1 (ix3 u ch w)
      = Ideal.ofBits .f32 0x00000000#32 + ∑ s ∈ Finset.range (n % 8 + 1),
          MS (V c (Pipeline.arrRef spec2 0)) (V c (Pipeline.arrRef spec2 1)) (V c (Pipeline.arrRef spec2 2)) (V c (Pipeline.arrRef spec2 3)) (n / 8 * 8 + s) ch := by
  have hA : ∀ (n : ℕ) (hn : n < cfg2.N), n % 8 = 0 → ∀ (u w : Fin 1),
      (outsAt2 V c n hn).1 (ix3 u ch w)
        = Ideal.ofBits .f32 0x00000000#32 + ∑ s ∈ Finset.range (n % 8 + 1),
            MS (V c (Pipeline.arrRef spec2 0)) (V c (Pipeline.arrRef spec2 1)) (V c (Pipeline.arrRef spec2 2)) (V c (Pipeline.arrRef spec2 3)) (n / 8 * 8 + s) ch := by
    intro n hn h0 u w
    rw [sum_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [sum_B V c ⟨m + 1, hn⟩ h0 u ch w]
      show (outsAt2 V c m _).1 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

/-- THE SUM-OF-SQUARES ACCUMULATOR after point `n`. -/
theorem ssq_inv (c : Dev nD) (ch : Fin 128) : ∀ (n : ℕ) (hn : n < cfg2.N) (u w : Fin 1),
    (outsAt2 V c n hn).2 (ix3 u ch w)
      = Ideal.ofBits .f32 0x00000000#32 + ∑ s ∈ Finset.range (n % 8 + 1),
          MQ (V c (Pipeline.arrRef spec2 0)) (V c (Pipeline.arrRef spec2 1)) (V c (Pipeline.arrRef spec2 2)) (V c (Pipeline.arrRef spec2 3)) (n / 8 * 8 + s) ch := by
  have hA : ∀ (n : ℕ) (hn : n < cfg2.N), n % 8 = 0 → ∀ (u w : Fin 1),
      (outsAt2 V c n hn).2 (ix3 u ch w)
        = Ideal.ofBits .f32 0x00000000#32 + ∑ s ∈ Finset.range (n % 8 + 1),
            MQ (V c (Pipeline.arrRef spec2 0)) (V c (Pipeline.arrRef spec2 1)) (V c (Pipeline.arrRef spec2 2)) (V c (Pipeline.arrRef spec2 3)) (n / 8 * 8 + s) ch := by
    intro n hn h0 u w
    rw [ssq_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [ssq_B V c ⟨m + 1, hn⟩ h0 u ch w]
      show (outsAt2 V c m _).2 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

/-- The eight addends of a core, as the sum over its points. -/
theorem sum_core (a : S32x64x4096.Idx → EReal) (w : S128x64.Idx → EReal) (s t : S64x1.Idx → EReal) (core : Fin 2) (ch : Fin 128) :
    Ideal.ofBits .f32 0x00000000#32 + ∑ j ∈ Finset.range 8, MS a w s t (core.val * 8 + j) ch
      = ∑ j : Fin 8, (S a w s t (row core j 0) ch + S a w s t (row core j 1) ch) := by
  rw [Ideal.ofBits_zero_f32, zero_add, Finset.sum_range]
  refine Finset.sum_congr rfl fun j _ => ?_
  have h : core.val * 8 + j.val < 16 := by have := core.isLt; have := j.isLt; omega
  unfold MS
  rw [dif_pos h]
  rfl

theorem ssq_core (a : S32x64x4096.Idx → EReal) (w : S128x64.Idx → EReal) (s t : S64x1.Idx → EReal) (core : Fin 2) (ch : Fin 128) :
    Ideal.ofBits .f32 0x00000000#32 + ∑ j ∈ Finset.range 8, MQ a w s t (core.val * 8 + j) ch
      = ∑ j : Fin 8, (Q a w s t (row core j 0) ch + Q a w s t (row core j 1) ch) := by
  rw [Ideal.ofBits_zero_f32, zero_add, Finset.sum_range]
  refine Finset.sum_congr rfl fun j _ => ?_
  have h : core.val * 8 + j.val < 16 := by have := core.isLt; have := j.isLt; omega
  unfold MQ
  rw [dif_pos h]
  rfl

/-! ## From the flushed blocks to the arrays -/

/-- WHAT A FLUSHING POINT WRITES BACK to window 4 is its block of `GK2_4`. -/
theorem flushed_4 (c : Dev nD) (t : Fin cfg2.N) (hf : (cfg2.win 4).flush t = true) :
    (dat2 V c).flushed 4 t = ((cfg2.win 4).blk t).view.read (Elt Ideal)
      (GK2_4 (V c (Pipeline.arrRef spec2 0)) (V c (Pipeline.arrRef spec2 1)) (V c (Pipeline.arrRef spec2 2)) (V c (Pipeline.arrRef spec2 3))) := by
  have hN : t.val < 16 := lt_of_lt_of_eq t.isLt (show cfg2.N = 16 from N_2)
  have h7 : t.val % 8 = 7 := (flush2_4 t).mp hf
  obtain ⟨-, -, -, -, -, -, -, -, -, e0, e1, e2, -⟩ := idx_facts t
  show (cfg2.win 4).cut (grid2.coords t) ((dat2 V c).after 4 t) = _
  rw [after2_4]
  funext y
  obtain ⟨u, ch, w, rfl⟩ : ∃ (u : Fin 1) (ch : Fin 128) (w : Fin 1), y = ix3 u ch w := ⟨y 0, y 1, y 2, eq_ix3 y⟩
  show (outsAt2 V c t.val t.isLt).1 (ix3 u ch w)
    = GK2_4 (V c (Pipeline.arrRef spec2 0)) (V c (Pipeline.arrRef spec2 1)) (V c (Pipeline.arrRef spec2 2)) (V c (Pipeline.arrRef spec2 3)) (((cfg2.win 4).blk t).view.emb (ix3 u ch w))
  have hemb : ((cfg2.win 4).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win2_4.index t (0 : Fin 3) * 1 + 1 * u.val = t.val / 8; rw [e0]; omega
    | ⟨1, _⟩ => show win2_4.index t (1 : Fin 3) * 128 + 1 * ch.val = ch.val; rw [e1]; omega
    | ⟨2, _⟩ => show win2_4.index t (2 : Fin 3) * 1 + 1 * w.val = 0; rw [e2]; omega
  rw [hemb, sum_inv V c ch t.val t.isLt u w, h7]
  exact sum_core (V c (Pipeline.arrRef spec2 0)) (V c (Pipeline.arrRef spec2 1)) (V c (Pipeline.arrRef spec2 2)) (V c (Pipeline.arrRef spec2 3)) (⟨t.val / 8, by omega⟩ : Fin 2) ch

/-- WHAT A FLUSHING POINT WRITES BACK to window 5 is its block of `GK2_5`. -/
theorem flushed_5 (c : Dev nD) (t : Fin cfg2.N) (hf : (cfg2.win 5).flush t = true) :
    (dat2 V c).flushed 5 t = ((cfg2.win 5).blk t).view.read (Elt Ideal)
      (GK2_5 (V c (Pipeline.arrRef spec2 0)) (V c (Pipeline.arrRef spec2 1)) (V c (Pipeline.arrRef spec2 2)) (V c (Pipeline.arrRef spec2 3))) := by
  have hN : t.val < 16 := lt_of_lt_of_eq t.isLt (show cfg2.N = 16 from N_2)
  have h7 : t.val % 8 = 7 := (flush2_5 t).mp hf
  obtain ⟨-, -, -, -, -, -, -, -, -, -, -, -, e0, e1, e2⟩ := idx_facts t
  show (cfg2.win 5).cut (grid2.coords t) ((dat2 V c).after 5 t) = _
  rw [after2_5]
  funext y
  obtain ⟨u, ch, w, rfl⟩ : ∃ (u : Fin 1) (ch : Fin 128) (w : Fin 1), y = ix3 u ch w := ⟨y 0, y 1, y 2, eq_ix3 y⟩
  show (outsAt2 V c t.val t.isLt).2 (ix3 u ch w)
    = GK2_5 (V c (Pipeline.arrRef spec2 0)) (V c (Pipeline.arrRef spec2 1)) (V c (Pipeline.arrRef spec2 2)) (V c (Pipeline.arrRef spec2 3)) (((cfg2.win 5).blk t).view.emb (ix3 u ch w))
  have hemb : ((cfg2.win 5).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win2_5.index t (0 : Fin 3) * 1 + 1 * u.val = t.val / 8; rw [e0]; omega
    | ⟨1, _⟩ => show win2_5.index t (1 : Fin 3) * 128 + 1 * ch.val = ch.val; rw [e1]; omega
    | ⟨2, _⟩ => show win2_5.index t (2 : Fin 3) * 1 + 1 * w.val = 0; rw [e2]; omega
  rw [hemb, ssq_inv V c ch t.val t.isLt u w, h7]
  exact ssq_core (V c (Pipeline.arrRef spec2 0)) (V c (Pipeline.arrRef spec2 1)) (V c (Pipeline.arrRef spec2 2)) (V c (Pipeline.arrRef spec2 3)) (⟨t.val / 8, by omega⟩ : Fin 2) ch

/-- The last point of core `r`. -/
def lastPt (r : Fin 2) : Fin cfg2.N := ⟨r.val * 8 + 7, by rw [show cfg2.N = 16 from N_2]; have := r.isLt; omega⟩

/-- Every index of window 4's array is in the block of its row's last point. -/
theorem cover_4 (i : S2x128x1.Idx) :
    ∃ t : Fin cfg2.N, (cfg2.win 4).flush t = true ∧ i ∈ ((cfg2.win 4).blk t).view.set := by
  have h0 : (i 0).val < 2 := (i 0).isLt
  have h1 : (i 1).val < 128 := (i 1).isLt
  have h2 : (i 2).val < 1 := (i 2).isLt
  refine ⟨lastPt ⟨(i 0).val, h0⟩, (flush2_4 _).mpr (by show ((i 0).val * 8 + 7) % 8 = 7; omega), ?_⟩
  obtain ⟨-, -, -, -, -, -, -, -, -, e0, e1, e2, -⟩ := idx_facts (lastPt ⟨(i 0).val, h0⟩)
  have ev : (lastPt ⟨(i 0).val, h0⟩).val / 8 = (i 0).val := by show ((i 0).val * 8 + 7) / 8 = (i 0).val; omega
  show i ∈ ((View.whole main_v37_0).slice (win2_4.rect (lastPt ⟨(i 0).val, h0⟩))).set
  rw [View.set_slice_whole, Rect.mem_set_unit]
  intro a
  match a with
  | ⟨0, _⟩ =>
    show win2_4.index (lastPt ⟨(i 0).val, h0⟩) (0 : Fin 3) * 1 ≤ (i 0).val
      ∧ (i 0).val < win2_4.index (lastPt ⟨(i 0).val, h0⟩) (0 : Fin 3) * 1 + 1
    rw [e0, ev]; omega
  | ⟨1, _⟩ =>
    show win2_4.index (lastPt ⟨(i 0).val, h0⟩) (1 : Fin 3) * 128 ≤ (i 1).val
      ∧ (i 1).val < win2_4.index (lastPt ⟨(i 0).val, h0⟩) (1 : Fin 3) * 128 + 128
    rw [e1]; omega
  | ⟨2, _⟩ =>
    show win2_4.index (lastPt ⟨(i 0).val, h0⟩) (2 : Fin 3) * 1 ≤ (i 2).val
      ∧ (i 2).val < win2_4.index (lastPt ⟨(i 0).val, h0⟩) (2 : Fin 3) * 1 + 1
    rw [e2]; omega

/-- Every index of window 5's array is in the block of its row's last point. -/
theorem cover_5 (i : S2x128x1.Idx) :
    ∃ t : Fin cfg2.N, (cfg2.win 5).flush t = true ∧ i ∈ ((cfg2.win 5).blk t).view.set := by
  have h0 : (i 0).val < 2 := (i 0).isLt
  have h1 : (i 1).val < 128 := (i 1).isLt
  have h2 : (i 2).val < 1 := (i 2).isLt
  refine ⟨lastPt ⟨(i 0).val, h0⟩, (flush2_5 _).mpr (by show ((i 0).val * 8 + 7) % 8 = 7; omega), ?_⟩
  obtain ⟨-, -, -, -, -, -, -, -, -, -, -, -, e0, e1, e2⟩ := idx_facts (lastPt ⟨(i 0).val, h0⟩)
  have ev : (lastPt ⟨(i 0).val, h0⟩).val / 8 = (i 0).val := by show ((i 0).val * 8 + 7) / 8 = (i 0).val; omega
  show i ∈ ((View.whole main_v37_1).slice (win2_5.rect (lastPt ⟨(i 0).val, h0⟩))).set
  rw [View.set_slice_whole, Rect.mem_set_unit]
  intro a
  match a with
  | ⟨0, _⟩ =>
    show win2_5.index (lastPt ⟨(i 0).val, h0⟩) (0 : Fin 3) * 1 ≤ (i 0).val
      ∧ (i 0).val < win2_5.index (lastPt ⟨(i 0).val, h0⟩) (0 : Fin 3) * 1 + 1
    rw [e0, ev]; omega
  | ⟨1, _⟩ =>
    show win2_5.index (lastPt ⟨(i 0).val, h0⟩) (1 : Fin 3) * 128 ≤ (i 1).val
      ∧ (i 1).val < win2_5.index (lastPt ⟨(i 0).val, h0⟩) (1 : Fin 3) * 128 + 128
    rw [e1]; omega
  | ⟨2, _⟩ =>
    show win2_5.index (lastPt ⟨(i 0).val, h0⟩) (2 : Fin 3) * 1 ≤ (i 2).val
      ∧ (i 2).val < win2_5.index (lastPt ⟨(i 0).val, h0⟩) (2 : Fin 3) * 1 + 1
    rw [e2]; omega

/-- WINDOW 4's ARRAY AFTER THE REGION. -/
theorem arrAt_4 (c : Dev nD) :
    (dat2 V c).arrAt 4 cfg2.N = GK2_4 (V c (Pipeline.arrRef spec2 0)) (V c (Pipeline.arrRef spec2 1)) (V c (Pipeline.arrRef spec2 2)) (V c (Pipeline.arrRef spec2 3)) :=
  (dat2 V c).arrAt_eq_of_cover 4 _ (flushed_4 V c) cover_4

/-- WINDOW 5's ARRAY AFTER THE REGION. -/
theorem arrAt_5 (c : Dev nD) :
    (dat2 V c).arrAt 5 cfg2.N = GK2_5 (V c (Pipeline.arrRef spec2 0)) (V c (Pipeline.arrRef spec2 1)) (V c (Pipeline.arrRef spec2 2)) (V c (Pipeline.arrRef spec2 3)) :=
  (dat2 V c).arrAt_eq_of_cover 5 _ (flushed_5 V c) cover_5

end Cert.KernelIdeal.KStats2

end
-- ==== Proof.KStats2Bridge.lean ====
/-
  Region 2 of the idealized kernel in the network's own words: the two accumulator arrays, summed over the two cores,
  are the per-channel sum and sum of squares over all pixels of the 1x1 convolution of the activated input — the kernel's
  nesting of the 32 batch rows (core, grid step, row of the block) re-indexed to the batch rows themselves.
-/
import proofs.«126831_g2000503633499865_pallasbulk_555_4_alg».proof.Proof.KStats2Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open Idealize.ShloMosaic Idealize.ShloMosaic.ValueIdx
open scoped BigOperators

namespace Cert.KernelIdeal.KStats2

open Cert.KernelIdeal Cert

/-- One output element of the convolution, array against function. -/
theorem dot_net (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (n : Fin 32) (ch : Fin 128) (p : Fin 4096) :
    (∑ k : Fin 64, w (ix2 ch k) * act (a (ix3 n k p)) (s (ix2 k (0 : Fin 1))) (t (ix2 k (0 : Fin 1)))) = Net.conv W1 A ch (n, p) := by
  unfold Net.conv
  exact Finset.sum_congr rfl fun k _ => by
      rw [hw, ← ha n k p]; rfl

/-- The sum accumulators of the two cores add up to the channel's sum over all pixels. -/
theorem sum_eq (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (ch : Fin 128) (u : Fin 1) :
    ∑ core : Fin 2, GK2_4 a w s t (ix3 core ch u) = Net.tot (Net.conv W1 A) ch := by
  show ∑ core : Fin 2, ∑ j : Fin 8, (S a w s t (row core j 0) ch + S a w s t (row core j 1) ch) = _
  rw [Net.sum_rows_fin (fun n => S a w s t n ch) row (fun _ _ _ => rfl)]
  unfold Net.tot
  rw [Fintype.sum_prod_type]
  refine Finset.sum_congr rfl fun n _ => ?_
  unfold S
  exact Finset.sum_congr rfl fun p _ => dot_net a w s t A W1 ha hw n ch p

/-- The sum-of-squares accumulators of the two cores add up to the channel's sum of squares over all pixels. -/
theorem ssq_eq (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (ch : Fin 128) (u : Fin 1) :
    ∑ core : Fin 2, GK2_5 a w s t (ix3 core ch u) = Net.tot2 (Net.conv W1 A) ch := by
  show ∑ core : Fin 2, ∑ j : Fin 8, (Q a w s t (row core j 0) ch + Q a w s t (row core j 1) ch) = _
  rw [Net.sum_rows_fin (fun n => Q a w s t n ch) row (fun _ _ _ => rfl)]
  unfold Net.tot2
  rw [Fintype.sum_prod_type]
  refine Finset.sum_congr rfl fun n _ => ?_
  unfold Q
  exact Finset.sum_congr rfl fun p _ =>
    congrArg₂ (· * ·) (dot_net a w s t A W1 ha hw n ch p) (dot_net a w s t A W1 ha hw n ch p)

end Cert.KernelIdeal.KStats2

end
-- ==== Proof.KMain3Pay.lean ====
/-
  The second main region, one batch row at a time, read entry by entry over the extended reals. The stored
  activation is first scaled, shifted and rectified per channel, x ↦ lrelu (x · s + t); then, as in the first main region,
      y₂ = W₂ · lrelu (W₁ · a + t₁),
  and the sums over the pixels of y₂ and of y₂ · y₂ are added to two running columns.
-/
import proofs.«126831_g2000503633499865_pallasbulk_555_4_alg».proof.Proof.Gen.KernelIdeal.Skeleton
import proofs.«126831_g2000503633499865_pallasbulk_555_4_alg».proof.Proof.KMain1Pay
import Idealize.ShloMosaic.Lib.ValueIdx
import Idealize.ShloMosaic.Lib.ValueLayout
import Idealize.ShloMosaic.PureOps.Ideal.Laws

noncomputable section

open scoped BigOperators

namespace Cert.KMain3

open Idealize.ShloMosaic Idealize.ShloMosaic.ValueIdx Cert.KernelIdeal Cert.KernelIdeal.Gen
open Cert.KMain1 (lrelu hid y2 conv_pair_apply acc_sum_apply broadcastTo_a1_ab_apply lrelu_vec_apply)

/-! ## The step before the products: scale, shift and rectify each channel of the stored activation -/

/-- The body's per-channel affine map followed by the rectifier, as the vector operations it is printed with. -/
abbrev actVec (X : FVec Ideal S64x4096 .f32) (s t : FVec Ideal S64x1 .f32) : FVec Ideal S64x4096 .f32 :=
  maximumf
    (addf (mulf X (broadcastTo S64x4096 (shapeCast S64x1 s shapeCasts_S64x1_S64x1) broadcasts_S64x1_S64x4096))
      (broadcastTo S64x4096 (shapeCast S64x1 t shapeCasts_S64x1_S64x1) broadcasts_S64x1_S64x4096))
    (mulf (broadcast S64x4096 (Scalar.ofBits .f32 0x3E4CCCCD#32))
      (addf (mulf X (broadcastTo S64x4096 (shapeCast S64x1 s shapeCasts_S64x1_S64x1) broadcasts_S64x1_S64x4096))
        (broadcastTo S64x4096 (shapeCast S64x1 t shapeCasts_S64x1_S64x1) broadcasts_S64x1_S64x4096)))

/-- At `(k', p)` it is `lrelu (x · s_k' + t_k')`. -/
theorem actVec_apply (X : FVec Ideal S64x4096 .f32) (s t : FVec Ideal S64x1 .f32) (k' : Fin 64) (p : Fin 4096) :
    actVec X s t (ix2 k' p) = lrelu (X (ix2 k' p) * s (ix2 k' (0 : Fin 1)) + t (ix2 k' (0 : Fin 1))) := by
  refine (lrelu_vec_apply _ (ix2 k' p)).trans (congrArg lrelu ?_)
  refine (addf_apply _ _ _).trans (congrArg₂ (· + ·) ?_ ?_)
  · refine (mulf_apply _ _ _).trans (congrArg (X (ix2 k' p) * ·) ?_)
    exact (broadcastTo_a1_ab_apply _ broadcasts_S64x1_S64x4096 k' p).trans
      (congrFun (shapeCast_self s shapeCasts_S64x1_S64x1) _)
  · exact (broadcastTo_a1_ab_apply _ broadcasts_S64x1_S64x4096 k' p).trans
      (congrFun (shapeCast_self t shapeCasts_S64x1_S64x1) _)

/-- The column the products see: channel `k'` of pixel `p` of a stored row `x`, scaled, shifted, rectified. -/
def col (x : S1x64x4096.Idx → EReal) (s t : S64x1.Idx → EReal) (p : Fin 4096) (k' : Fin 64) : EReal :=
  lrelu (x (ix3 (0 : Fin 1) k' p) * s (ix2 k' (0 : Fin 1)) + t (ix2 k' (0 : Fin 1)))

theorem actVec_row_apply (x : Vec Ideal S1x64x4096 .f32) (s t : FVec Ideal S64x1 .f32) (p : Fin 4096) :
    (fun k' => actVec (shapeCast S64x4096 x shapeCasts_S1x64x4096_S64x4096) s t (ix2 k' p)) = col x s t p :=
  funext fun k' => (actVec_apply _ s t k' p).trans
    (congrArg (fun z => lrelu (z * s (ix2 k' (0 : Fin 1)) + t (ix2 k' (0 : Fin 1))))
      (shapeCast_1ab_ab_apply x shapeCasts_S1x64x4096_S64x4096 k' p))

/-! ## The body's payloads at an index -/

theorem pay7_eq (v3 : Vec Ideal S128x64 .f32) : k3_pay7 v3 = v3 := by
  unfold k3_pay7; exact shapeCast_self v3 _

/-- Row 0's product pair at `(d, p)`. -/
theorem pay8_apply (v3 : Vec Ideal S128x64 .f32) (v5 : Vec Ideal S64x128 .f32) (v6 : Vec Ideal S1x64x4096 .f32)
    (v8 v12 : Vec Ideal S64x1 .f32) (v20 : Vec Ideal S128x1 .f32) (d : Fin 64) (p : Fin 4096) :
    k3_pay8 v3 v5 v6 v8 v12 v20 (ix2 d p) = y2 v3 v20 v5 (col v6 v8 v12 p) d := by
  refine (conv_pair_apply (k3_pay7 v3) v5 (actVec (shapeCast S64x4096 v6 shapeCasts_S1x64x4096_S64x4096) v8 v12) v20 d p).trans ?_
  rw [pay7_eq, actVec_row_apply]

/-- Row 1's product pair at `(d, p)`: the pre-activation is handed over between the two halves of the body, the slope with it. -/
theorem pay1_apply (v4 : FVec Ideal S128x64 .f32) (v5 : Vec Ideal S64x128 .f32) (v48 : Vec Ideal S1x64x4096 .f32)
    (v50 v54 : Vec Ideal S64x1 .f32) (v62 : Vec Ideal S128x1 .f32) (d : Fin 64) (p : Fin 4096) :
    k3_pay1 v5 (k3_pay12 v4 v48 v50 v54 v62) (Scalar.ofBits .f32 0x3E4CCCCD#32) (ix2 d p) = y2 v4 v62 v5 (col v48 v50 v54 p) d := by
  refine (conv_pair_apply v4 v5 (actVec (shapeCast S64x4096 v48 shapeCasts_S1x64x4096_S64x4096) v50 v54) v62 d p).trans ?_
  rw [actVec_row_apply]

/-- What row 0 stores to the activation block. -/
theorem pay9_apply (v3 : Vec Ideal S128x64 .f32) (v5 : Vec Ideal S64x128 .f32) (v6 : Vec Ideal S1x64x4096 .f32)
    (v8 v12 : Vec Ideal S64x1 .f32) (v20 : Vec Ideal S128x1 .f32) (u : Fin 1) (d : Fin 64) (p : Fin 4096) :
    k3_pay9 v3 v5 v6 v8 v12 v20 (ix3 u d p) = y2 v3 v20 v5 (col v6 v8 v12 p) d :=
  (shapeCast_ab_1ab_apply (k3_pay8 v3 v5 v6 v8 v12 v20) shapeCasts_S64x4096_S1x64x4096 u d p).trans
    (pay8_apply v3 v5 v6 v8 v12 v20 d p)

/-- What row 1 stores to the activation block, over any pre-activation `Z` and slope `σ`. -/
theorem pay2_apply (v5 : Vec Ideal S64x128 .f32) (Z : FVec Ideal S128x4096 .f32) (σ : Ideal .f32) (u : Fin 1) (d : Fin 64)
    (p : Fin 4096) : k3_pay2 v5 Z σ (ix3 u d p) = k3_pay1 v5 Z σ (ix2 d p) :=
  shapeCast_ab_1ab_apply (k3_pay1 v5 Z σ) shapeCasts_S64x4096_S1x64x4096 u d p

/-- The running sum after row 0, over any `[64, 4096]` array. -/
theorem pay10_apply (v27 : FVec Ideal S64x4096 .f32) (v31 : Vec Ideal S1x64x1 .f32) (u : Fin 1) (d : Fin 64) (v : Fin 1) :
    k3_pay10 v27 v31 (ix3 u d v) = v31 (ix3 (0 : Fin 1) d v) + ∑ p : Fin 4096, v27 (ix2 d p) :=
  acc_sum_apply v27 v31 (.inl rfl) rfl u d v

/-- The running sum of squares after row 0. -/
theorem pay11_apply (v27 : FVec Ideal S64x4096 .f32) (v39 : Vec Ideal S1x64x1 .f32) (u : Fin 1) (d : Fin 64) (v : Fin 1) :
    k3_pay11 v27 v39 (ix3 u d v) = v39 (ix3 (0 : Fin 1) d v) + ∑ p : Fin 4096, v27 (ix2 d p) * v27 (ix2 d p) :=
  acc_sum_apply (mulf v27 v27) v39 (.inl rfl) rfl u d v

/-- The running sum after row 1. -/
theorem pay3_apply (v5 : Vec Ideal S64x128 .f32) (Z : FVec Ideal S128x4096 .f32) (σ : Ideal .f32) (v73 : Vec Ideal S1x64x1 .f32)
    (u : Fin 1) (d : Fin 64) (v : Fin 1) :
    k3_pay3 v5 Z σ v73 (ix3 u d v) = v73 (ix3 (0 : Fin 1) d v) + ∑ p : Fin 4096, k3_pay1 v5 Z σ (ix2 d p) :=
  acc_sum_apply (k3_pay1 v5 Z σ) v73 (.inl rfl) rfl u d v

/-- The running sum of squares after row 1. -/
theorem pay4_apply (v5 : Vec Ideal S64x128 .f32) (Z : FVec Ideal S128x4096 .f32) (σ : Ideal .f32) (v81 : Vec Ideal S1x64x1 .f32)
    (u : Fin 1) (d : Fin 64) (v : Fin 1) :
    k3_pay4 v5 Z σ v81 (ix3 u d v)
      = v81 (ix3 (0 : Fin 1) d v) + ∑ p : Fin 4096, k3_pay1 v5 Z σ (ix2 d p) * k3_pay1 v5 Z σ (ix2 d p) :=
  acc_sum_apply (mulf (k3_pay1 v5 Z σ) (k3_pay1 v5 Z σ)) v81 (.inl rfl) rfl u d v

/-- The zero column the first point of a core stores to the running sum, -/
theorem pay5_apply (u : Fin 1) (d : Fin 64) (v : Fin 1) :
    k3_pay5 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

/-- and to the running sum of squares. -/
theorem pay6_apply (u : Fin 1) (d : Fin 64) (v : Fin 1) :
    k3_pay6 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

end Cert.KMain3

end
-- ==== Proof.KMain3Pieces.lean ====
/-
  What one grid point of the second main region leaves in its three output buffers, as terms over the body's
  payloads: as in the first main region, one store per batch row to the activation buffer, and each running column
  read, increased and stored back once per row, after a zero column at a core's first point.
-/
import proofs.«126831_g2000503633499865_pallasbulk_555_4_alg».proof.Proof.Gen.KernelIdeal.Frame
import proofs.«126831_g2000503633499865_pallasbulk_555_4_alg».proof.Proof.KMain1Pieces
import Idealize.ShloMosaic.Lib.Pipeline.Value
import Idealize.ShloMosaic.Lib.Tactic
import Idealize.ShloMosaic.Lib.WritesUnit
import Idealize.ShloMosaic.Lib.ValueIdx

noncomputable section

namespace Cert.KMain3

open Idealize.ShloMosaic Idealize.ShloMosaic.TcCoe Idealize.ShloMosaic.ValueIdx Idealize.SL.Sem Cert.KernelIdeal Cert.KernelIdeal.Gen
open Cert.KMain1 (hz2 hz3 R0 R1 two_rows_apply)

variable {F : FTy → Type} [FloatOps F]

/-! ## A core's first point: the columns start from zero -/

theorem out_A_6_apply (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond3_0 i) (x0 : Vec F S2x64x4096 .f32) (x1 : Vec F S128x64 .f32) (x2 : Vec F S128x1 .f32) (x3 : Vec F S64x128 .f32) (x4 : Vec F S64x1 .f32) (x5 : Vec F S64x1 .f32) (n : Fin 2) (d : Fin 64) (p : Fin 4096) :
    out3_A_6 c i arg2 harg2 arg3 harg3 arg4 harg4 arg5 harg5 arg6 harg6 arg7 harg7 arg8 harg8 arg9 harg9 arg10 harg10 hc0 x0 x1 x2 x3 x4 x5 (ix3 n d p)
      = if n.val = 0 then k3_pay9 x1 x3 (View.ld x0 R0) x4 x5 x2 (ix3 (0 : Fin 1) d p)
        else k3_pay2 x3 (k3_pay12 (k3_pay7 x1) (View.ld x0 R1) x4 x5 x2) (Scalar.ofBits .f32 0x3E4CCCCD#32) (ix3 (0 : Fin 1) d p) := by
  unfold out3_A_6 kernelRun3_A
  dsimp only
  sl_unfold_words
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]
  exact two_rows_apply VO3_6 VO3_6.junk _ _ n d p

theorem out_A_7 (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond3_0 i) (x0 : Vec F S2x64x4096 .f32) (x1 : Vec F S128x64 .f32) (x2 : Vec F S128x1 .f32) (x3 : Vec F S64x128 .f32) (x4 : Vec F S64x1 .f32) (x5 : Vec F S64x1 .f32) :
    out3_A_7 c i arg2 harg2 arg3 harg3 arg4 harg4 arg5 harg5 arg6 harg6 arg7 harg7 arg8 harg8 arg9 harg9 arg10 harg10 hc0 x0 x1 x2 x3 x4 x5
      = k3_pay3 x3 (k3_pay12 (k3_pay7 x1) (View.ld x0 R1) x4 x5 x2) (Scalar.ofBits .f32 0x3E4CCCCD#32) (k3_pay10 (k3_pay8 x1 x3 (View.ld x0 R0) x4 x5 x2) k3_pay5) := by
  unfold out3_A_7
  rw [View.read_writes_eq_canon _ _ _ (cover3_A_7 c i arg2 harg2 arg3 harg3 arg4 harg4 arg5 harg5 arg6 harg6 arg7 harg7 arg8 harg8 arg9 harg9 arg10 harg10 hc0 x0 x1 x2 x3 x4 x5)]
  unfold kernelRun3_A
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]

theorem out_A_8 (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond3_0 i) (x0 : Vec F S2x64x4096 .f32) (x1 : Vec F S128x64 .f32) (x2 : Vec F S128x1 .f32) (x3 : Vec F S64x128 .f32) (x4 : Vec F S64x1 .f32) (x5 : Vec F S64x1 .f32) :
    out3_A_8 c i arg2 harg2 arg3 harg3 arg4 harg4 arg5 harg5 arg6 harg6 arg7 harg7 arg8 harg8 arg9 harg9 arg10 harg10 hc0 x0 x1 x2 x3 x4 x5
      = k3_pay4 x3 (k3_pay12 (k3_pay7 x1) (View.ld x0 R1) x4 x5 x2) (Scalar.ofBits .f32 0x3E4CCCCD#32) (k3_pay11 (k3_pay8 x1 x3 (View.ld x0 R0) x4 x5 x2) k3_pay6) := by
  unfold out3_A_8
  rw [View.read_writes_eq_canon _ _ _ (cover3_A_8 c i arg2 harg2 arg3 harg3 arg4 harg4 arg5 harg5 arg6 harg6 arg7 harg7 arg8 harg8 arg9 harg9 arg10 harg10 hc0 x0 x1 x2 x3 x4 x5)]
  unfold kernelRun3_A
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]

/-! ## The other points: the columns continue from what the previous point left -/

theorem out_B_6_apply (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond3_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) (n : Fin 2) (d : Fin 64) (p : Fin 4096) :
    out3_B_6 c i arg2 harg2 arg3 harg3 arg4 harg4 arg5 harg5 arg6 harg6 arg7 harg7 arg8 harg8 arg9 harg9 arg10 harg10 hc0 x0 x1 x2 x3 x4 x5 xo7 xo8 (ix3 n d p)
      = if n.val = 0 then k3_pay9 x1 x3 (View.ld x0 R0) x4 x5 x2 (ix3 (0 : Fin 1) d p)
        else k3_pay2 x3 (k3_pay12 (k3_pay7 x1) (View.ld x0 R1) x4 x5 x2) (Scalar.ofBits .f32 0x3E4CCCCD#32) (ix3 (0 : Fin 1) d p) := by
  unfold out3_B_6 kernelRun3_B
  dsimp only
  sl_unfold_words
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]
  exact two_rows_apply VO3_6 VO3_6.junk _ _ n d p

theorem out_B_7 (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond3_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) :
    out3_B_7 c i arg2 harg2 arg3 harg3 arg4 harg4 arg5 harg5 arg6 harg6 arg7 harg7 arg8 harg8 arg9 harg9 arg10 harg10 hc0 x0 x1 x2 x3 x4 x5 xo7 xo8
      = k3_pay3 x3 (k3_pay12 (k3_pay7 x1) (View.ld x0 R1) x4 x5 x2) (Scalar.ofBits .f32 0x3E4CCCCD#32) (k3_pay10 (k3_pay8 x1 x3 (View.ld x0 R0) x4 x5 x2) xo7) := by
  unfold out3_B_7
  rw [View.read_writes_eq_canon _ _ _ (cover3_B_7 c i arg2 harg2 arg3 harg3 arg4 harg4 arg5 harg5 arg6 harg6 arg7 harg7 arg8 harg8 arg9 harg9 arg10 harg10 hc0 x0 x1 x2 x3 x4 x5 xo7 xo8)]
  unfold kernelRun3_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]

theorem out_B_8 (c : Dev nD) (i : grid3.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond3_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) :
    out3_B_8 c i arg2 harg2 arg3 harg3 arg4 harg4 arg5 harg5 arg6 harg6 arg7 harg7 arg8 harg8 arg9 harg9 arg10 harg10 hc0 x0 x1 x2 x3 x4 x5 xo7 xo8
      = k3_pay4 x3 (k3_pay12 (k3_pay7 x1) (View.ld x0 R1) x4 x5 x2) (Scalar.ofBits .f32 0x3E4CCCCD#32) (k3_pay11 (k3_pay8 x1 x3 (View.ld x0 R0) x4 x5 x2) xo8) := by
  unfold out3_B_8
  rw [View.read_writes_eq_canon _ _ _ (cover3_B_8 c i arg2 harg2 arg3 harg3 arg4 harg4 arg5 harg5 arg6 harg6 arg7 harg7 arg8 harg8 arg9 harg9 arg10 harg10 hc0 x0 x1 x2 x3 x4 x5 xo7 xo8)]
  unfold kernelRun3_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]

end Cert.KMain3

end
-- ==== Proof.KMain3Val.lean ====
/-
  The second main region's running columns, point by point. Point (core, j) of the 2 × 8 grid handles batch rows
  2(8·core + j) and 2(8·core + j) + 1 of the stored activation: each is scaled, shifted and rectified per channel, put
  through the two products, written to the same rows of the new activation array, and its per-channel pixel sums (of y₂
  and of y₂ · y₂) are added to the core's running columns, which start from zero at j = 0.
-/
import proofs.«126831_g2000503633499865_pallasbulk_555_4_alg».proof.Proof.Gen.KernelIdeal.Frame
import proofs.«126831_g2000503633499865_pallasbulk_555_4_alg».proof.Proof.KMain3Pay
import proofs.«126831_g2000503633499865_pallasbulk_555_4_alg».proof.Proof.KMain3Pieces
import proofs.«126831_g2000503633499865_pallasbulk_555_4_alg».proof.Proof.KMain1Val
import Idealize.ShloMosaic.Lib.Pipeline.Value

noncomputable section

open scoped BigOperators

namespace Cert.KMain3

open Idealize.ShloMosaic Idealize.ShloMosaic.TcCoe Idealize.ShloMosaic.ValueIdx Idealize.SL.Sem
open Idealize.ShloMosaic.Pipeline (Dat)
open Cert.KernelIdeal Cert.KernelIdeal.Gen
open Cert.KMain1 (lrelu hid y2 R0 R1 ld_R0 ld_R1 rowN rowOf acc acc_first acc_next acc_last)

/-! ## The specification -/

/-- y₂ of batch row `n` at channel `d` and pixel `p`: the stored activation `A` enters through `lrelu (A · s + t)`. -/
def Y (A : S32x64x4096.Idx → EReal) (W1 : S128x64.Idx → EReal) (t1 : S128x1.Idx → EReal) (W2 : S64x128.Idx → EReal)
    (s t : S64x1.Idx → EReal) (n : Fin 32) (d : Fin 64) (p : Fin 4096) : EReal :=
  y2 W1 t1 W2 (fun k' => lrelu (A (ix3 n k' p) * s (ix2 k' (0 : Fin 1)) + t (ix2 k' (0 : Fin 1)))) d

/-- The new activation array after the region. -/
def G6 (A : S32x64x4096.Idx → EReal) (W1 : S128x64.Idx → EReal) (t1 : S128x1.Idx → EReal) (W2 : S64x128.Idx → EReal)
    (s t : S64x1.Idx → EReal) : S32x64x4096.Idx → EReal :=
  fun i => Y A W1 t1 W2 s t (i 0) (i 1) (i 2)

/-- The column of sums: at (core, d), over the core's points and their two rows, the pixel sum of y₂. -/
def G7 (A : S32x64x4096.Idx → EReal) (W1 : S128x64.Idx → EReal) (t1 : S128x1.Idx → EReal) (W2 : S64x128.Idx → EReal)
    (s t : S64x1.Idx → EReal) : S2x64x1.Idx → EReal :=
  fun i => ∑ j : Fin 8, ((∑ p : Fin 4096, Y A W1 t1 W2 s t (rowOf (i 0) j 0) (i 1) p)
    + ∑ p : Fin 4096, Y A W1 t1 W2 s t (rowOf (i 0) j 1) (i 1) p)

/-- The column of sums of squares. -/
def G8 (A : S32x64x4096.Idx → EReal) (W1 : S128x64.Idx → EReal) (t1 : S128x1.Idx → EReal) (W2 : S64x128.Idx → EReal)
    (s t : S64x1.Idx → EReal) : S2x64x1.Idx → EReal :=
  fun i => ∑ j : Fin 8, ((∑ p : Fin 4096, Y A W1 t1 W2 s t (rowOf (i 0) j 0) (i 1) p * Y A W1 t1 W2 s t (rowOf (i 0) j 0) (i 1) p)
    + ∑ p : Fin 4096, Y A W1 t1 W2 s t (rowOf (i 0) j 1) (i 1) p * Y A W1 t1 W2 s t (rowOf (i 0) j 1) (i 1) p)

def Srow (A : S32x64x4096.Idx → EReal) (W1 : S128x64.Idx → EReal) (t1 : S128x1.Idx → EReal) (W2 : S64x128.Idx → EReal)
    (s t : S64x1.Idx → EReal) (d : Fin 64) (r : ℕ) : EReal :=
  ∑ p : Fin 4096, Y A W1 t1 W2 s t (rowN r) d p

def Qrow (A : S32x64x4096.Idx → EReal) (W1 : S128x64.Idx → EReal) (t1 : S128x1.Idx → EReal) (W2 : S64x128.Idx → EReal)
    (s t : S64x1.Idx → EReal) (d : Fin 64) (r : ℕ) : EReal :=
  ∑ p : Fin 4096, Y A W1 t1 W2 s t (rowN r) d p * Y A W1 t1 W2 s t (rowN r) d p

/-! ## The blocks a point reads -/

variable (V : (c : Dev nD) → (b : Ref sig .tc) → Buf (Elt Ideal) ((c : Thread nD τ).loc b))

/-- The printed index maps over the grid: the activation windows move with the point, -/
theorem idx0 : ∀ t : Fin cfg3.N,
    win3_0.index t (0 : Fin 3) = t.val ∧ win3_0.index t (1 : Fin 3) = 0 ∧ win3_0.index t (2 : Fin 3) = 0 :=
  (by decide +kernel : ∀ t : Fin grid3.N, _)
theorem idx6 : ∀ t : Fin cfg3.N,
    win3_6.index t (0 : Fin 3) = t.val ∧ win3_6.index t (1 : Fin 3) = 0 ∧ win3_6.index t (2 : Fin 3) = 0 :=
  (by decide +kernel : ∀ t : Fin grid3.N, _)
/-- the weights, the scale and the shift stay, -/
theorem idxW1 : ∀ t : Fin cfg3.N, win3_1.index t (0 : Fin 2) = 0 ∧ win3_1.index t (1 : Fin 2) = 0 :=
  (by decide +kernel : ∀ t : Fin grid3.N, _)
theorem idxW2 : ∀ t : Fin cfg3.N, win3_2.index t (0 : Fin 2) = 0 ∧ win3_2.index t (1 : Fin 2) = 0 :=
  (by decide +kernel : ∀ t : Fin grid3.N, _)
theorem idxW3 : ∀ t : Fin cfg3.N, win3_3.index t (0 : Fin 2) = 0 ∧ win3_3.index t (1 : Fin 2) = 0 :=
  (by decide +kernel : ∀ t : Fin grid3.N, _)
theorem idxW4 : ∀ t : Fin cfg3.N, win3_4.index t (0 : Fin 2) = 0 ∧ win3_4.index t (1 : Fin 2) = 0 :=
  (by decide +kernel : ∀ t : Fin grid3.N, _)
theorem idxW5 : ∀ t : Fin cfg3.N, win3_5.index t (0 : Fin 2) = 0 ∧ win3_5.index t (1 : Fin 2) = 0 :=
  (by decide +kernel : ∀ t : Fin grid3.N, _)
/-- a column window sits at the core's row. -/
theorem idx7 : ∀ t : Fin cfg3.N,
    win3_7.index t (0 : Fin 3) = t.val / 8 ∧ win3_7.index t (1 : Fin 3) = 0 ∧ win3_7.index t (2 : Fin 3) = 0 :=
  (by decide +kernel : ∀ t : Fin grid3.N, _)
theorem idx8 : ∀ t : Fin cfg3.N,
    win3_8.index t (0 : Fin 3) = t.val / 8 ∧ win3_8.index t (1 : Fin 3) = 0 ∧ win3_8.index t (2 : Fin 3) = 0 :=
  (by decide +kernel : ∀ t : Fin grid3.N, _)

/-- Row `n` of the point's activation block is batch row `2t + n` of the array. -/
theorem iblk0_apply (c : Dev nD) (t : Fin cfg3.N) (n : Fin 2) (k' : Fin 64) (p : Fin 4096) :
    iblk3 V c 0 t (ix3 n k' p) = V c (Pipeline.arrRef spec3 0) (ix3 (rowN (2 * t.val + n.val)) k' p) := by
  have e0 := (idx0 t).1
  have hN : cfg3.N = 16 := N_3
  have ht := t.isLt
  unfold iblk3
  rw [View.read_apply]
  show V c (Pipeline.arrRef spec3 0) _ = _
  refine congrArg (V c (Pipeline.arrRef spec3 0)) (funext fun a => Fin.ext ?_)
  match a with
  | ⟨0, _⟩ => show win3_0.index t (0 : Fin 3) * 2 + 1 * n.val = (2 * t.val + n.val) % 32; rw [e0]; omega
  | ⟨1, _⟩ => show win3_0.index t (1 : Fin 3) * 64 + 1 * k'.val = k'.val; rw [(idx0 t).2.1]; omega
  | ⟨2, _⟩ => show win3_0.index t (2 : Fin 3) * 4096 + 1 * p.val = p.val; rw [(idx0 t).2.2]; omega

/-- The other input windows' blocks are their arrays. -/
theorem iblk_1 (c : Dev nD) (t : Fin cfg3.N) : iblk3 V c 1 t = V c (Pipeline.arrRef spec3 1) := by
  funext y
  unfold iblk3
  rw [View.read_apply]
  show V c (Pipeline.arrRef spec3 1) _ = _
  refine congrArg (V c (Pipeline.arrRef spec3 1)) (funext fun a => Fin.ext ?_)
  match a with
  | ⟨0, _⟩ => show win3_1.index t (0 : Fin 2) * 128 + 1 * (y 0).val = (y 0).val; rw [(idxW1 t).1]; omega
  | ⟨1, _⟩ => show win3_1.index t (1 : Fin 2) * 64 + 1 * (y 1).val = (y 1).val; rw [(idxW1 t).2]; omega

theorem iblk_2 (c : Dev nD) (t : Fin cfg3.N) : iblk3 V c 2 t = V c (Pipeline.arrRef spec3 2) := by
  funext y
  unfold iblk3
  rw [View.read_apply]
  show V c (Pipeline.arrRef spec3 2) _ = _
  refine congrArg (V c (Pipeline.arrRef spec3 2)) (funext fun a => Fin.ext ?_)
  match a with
  | ⟨0, _⟩ => show win3_2.index t (0 : Fin 2) * 128 + 1 * (y 0).val = (y 0).val; rw [(idxW2 t).1]; omega
  | ⟨1, _⟩ => show win3_2.index t (1 : Fin 2) * 1 + 1 * (y 1).val = (y 1).val; rw [(idxW2 t).2]; omega

theorem iblk_3 (c : Dev nD) (t : Fin cfg3.N) : iblk3 V c 3 t = V c (Pipeline.arrRef spec3 3) := by
  funext y
  unfold iblk3
  rw [View.read_apply]
  show V c (Pipeline.arrRef spec3 3) _ = _
  refine congrArg (V c (Pipeline.arrRef spec3 3)) (funext fun a => Fin.ext ?_)
  match a with
  | ⟨0, _⟩ => show win3_3.index t (0 : Fin 2) * 64 + 1 * (y 0).val = (y 0).val; rw [(idxW3 t).1]; omega
  | ⟨1, _⟩ => show win3_3.index t (1 : Fin 2) * 128 + 1 * (y 1).val = (y 1).val; rw [(idxW3 t).2]; omega

theorem iblk_4 (c : Dev nD) (t : Fin cfg3.N) : iblk3 V c 4 t = V c (Pipeline.arrRef spec3 4) := by
  funext y
  unfold iblk3
  rw [View.read_apply]
  show V c (Pipeline.arrRef spec3 4) _ = _
  refine congrArg (V c (Pipeline.arrRef spec3 4)) (funext fun a => Fin.ext ?_)
  match a with
  | ⟨0, _⟩ => show win3_4.index t (0 : Fin 2) * 64 + 1 * (y 0).val = (y 0).val; rw [(idxW4 t).1]; omega
  | ⟨1, _⟩ => show win3_4.index t (1 : Fin 2) * 1 + 1 * (y 1).val = (y 1).val; rw [(idxW4 t).2]; omega

theorem iblk_5 (c : Dev nD) (t : Fin cfg3.N) : iblk3 V c 5 t = V c (Pipeline.arrRef spec3 5) := by
  funext y
  unfold iblk3
  rw [View.read_apply]
  show V c (Pipeline.arrRef spec3 5) _ = _
  refine congrArg (V c (Pipeline.arrRef spec3 5)) (funext fun a => Fin.ext ?_)
  match a with
  | ⟨0, _⟩ => show win3_5.index t (0 : Fin 2) * 64 + 1 * (y 0).val = (y 0).val; rw [(idxW5 t).1]; omega
  | ⟨1, _⟩ => show win3_5.index t (1 : Fin 2) * 1 + 1 * (y 1).val = (y 1).val; rw [(idxW5 t).2]; omega

/-! ## One point's outputs over its blocks, as values -/

/-- The column the products see, for row `n` of a two-row block. -/
def colb (x0 : S2x64x4096.Idx → EReal) (s t : S64x1.Idx → EReal) (n : Fin 2) (p : Fin 4096) (k' : Fin 64) : EReal :=
  lrelu (x0 (ix3 n k' p) * s (ix2 k' (0 : Fin 1)) + t (ix2 k' (0 : Fin 1)))

theorem col_R0 (x0 : Vec Ideal S2x64x4096 .f32) (x4 x5 : Vec Ideal S64x1 .f32) (p : Fin 4096) :
    col (View.ld x0 R0) x4 x5 p = colb x0 x4 x5 0 p :=
  funext fun k' => congrArg (fun z => lrelu (z * x4 (ix2 k' (0 : Fin 1)) + x5 (ix2 k' (0 : Fin 1)))) (ld_R0 x0 0 k' p)

theorem col_R1 (x0 : Vec Ideal S2x64x4096 .f32) (x4 x5 : Vec Ideal S64x1 .f32) (p : Fin 4096) :
    col (View.ld x0 R1) x4 x5 p = colb x0 x4 x5 1 p :=
  funext fun k' => congrArg (fun z => lrelu (z * x4 (ix2 k' (0 : Fin 1)) + x5 (ix2 k' (0 : Fin 1)))) (ld_R1 x0 0 k' p)

/-- Row 0's and row 1's products at `(d, p)` over the block. -/
theorem row0_apply (x0 : Vec Ideal S2x64x4096 .f32) (x1 : Vec Ideal S128x64 .f32) (x2 : Vec Ideal S128x1 .f32)
    (x3 : Vec Ideal S64x128 .f32) (x4 x5 : Vec Ideal S64x1 .f32) (d : Fin 64) (p : Fin 4096) :
    k3_pay8 x1 x3 (View.ld x0 R0) x4 x5 x2 (ix2 d p) = y2 x1 x2 x3 (colb x0 x4 x5 0 p) d := by
  rw [pay8_apply, col_R0]

theorem row1_apply (x0 : Vec Ideal S2x64x4096 .f32) (x1 : Vec Ideal S128x64 .f32) (x2 : Vec Ideal S128x1 .f32)
    (x3 : Vec Ideal S64x128 .f32) (x4 x5 : Vec Ideal S64x1 .f32) (d : Fin 64) (p : Fin 4096) :
    k3_pay1 x3 (k3_pay12 (k3_pay7 x1) (View.ld x0 R1) x4 x5 x2) (Scalar.ofBits .f32 0x3E4CCCCD#32) (ix2 d p) = y2 x1 x2 x3 (colb x0 x4 x5 1 p) d := by
  rw [pay1_apply, pay7_eq, col_R1]

/-- The activation block a point leaves: y₂ of each of its two rows. -/
theorem blk_apply (x0 : Vec Ideal S2x64x4096 .f32) (x1 : Vec Ideal S128x64 .f32) (x2 : Vec Ideal S128x1 .f32)
    (x3 : Vec Ideal S64x128 .f32) (x4 x5 : Vec Ideal S64x1 .f32) (n : Fin 2) (d : Fin 64) (p : Fin 4096) :
    (if n.val = 0 then k3_pay9 x1 x3 (View.ld x0 R0) x4 x5 x2 (ix3 (0 : Fin 1) d p)
      else k3_pay2 x3 (k3_pay12 (k3_pay7 x1) (View.ld x0 R1) x4 x5 x2) (Scalar.ofBits .f32 0x3E4CCCCD#32) (ix3 (0 : Fin 1) d p))
      = y2 x1 x2 x3 (colb x0 x4 x5 n p) d := by
  by_cases hn : n.val = 0
  · rw [if_pos hn, pay9_apply, col_R0]
    obtain rfl : n = 0 := Fin.ext hn
    rfl
  · rw [if_neg hn, pay2_apply, row1_apply]
    obtain rfl : n = 1 := Fin.ext (by have := n.isLt; omega)
    rfl

/-- The running sum a point leaves, over the column `xo` it found. -/
theorem sum_apply (x0 : Vec Ideal S2x64x4096 .f32) (x1 : Vec Ideal S128x64 .f32) (x2 : Vec Ideal S128x1 .f32)
    (x3 : Vec Ideal S64x128 .f32) (x4 x5 : Vec Ideal S64x1 .f32) (xo : Vec Ideal S1x64x1 .f32) (d : Fin 64) :
    k3_pay3 x3 (k3_pay12 (k3_pay7 x1) (View.ld x0 R1) x4 x5 x2) (Scalar.ofBits .f32 0x3E4CCCCD#32) (k3_pay10 (k3_pay8 x1 x3 (View.ld x0 R0) x4 x5 x2) xo) (ix3 (0 : Fin 1) d (0 : Fin 1))
      = (xo (ix3 (0 : Fin 1) d (0 : Fin 1)) + ∑ p : Fin 4096, y2 x1 x2 x3 (colb x0 x4 x5 0 p) d)
        + ∑ p : Fin 4096, y2 x1 x2 x3 (colb x0 x4 x5 1 p) d := by
  rw [pay3_apply, pay10_apply]
  simp only [row0_apply, row1_apply]

/-- The running sum of squares a point leaves, over the column `xo` it found. -/
theorem ssq_apply (x0 : Vec Ideal S2x64x4096 .f32) (x1 : Vec Ideal S128x64 .f32) (x2 : Vec Ideal S128x1 .f32)
    (x3 : Vec Ideal S64x128 .f32) (x4 x5 : Vec Ideal S64x1 .f32) (xo : Vec Ideal S1x64x1 .f32) (d : Fin 64) :
    k3_pay4 x3 (k3_pay12 (k3_pay7 x1) (View.ld x0 R1) x4 x5 x2) (Scalar.ofBits .f32 0x3E4CCCCD#32) (k3_pay11 (k3_pay8 x1 x3 (View.ld x0 R0) x4 x5 x2) xo) (ix3 (0 : Fin 1) d (0 : Fin 1))
      = (xo (ix3 (0 : Fin 1) d (0 : Fin 1))
          + ∑ p : Fin 4096, y2 x1 x2 x3 (colb x0 x4 x5 0 p) d * y2 x1 x2 x3 (colb x0 x4 x5 0 p) d)
        + ∑ p : Fin 4096, y2 x1 x2 x3 (colb x0 x4 x5 1 p) d * y2 x1 x2 x3 (colb x0 x4 x5 1 p) d := by
  rw [pay4_apply, pay11_apply]
  simp only [row0_apply, row1_apply]

/-! ## The running columns, point by point -/

theorem zero_col (d : Fin 64) : k3_pay5 (F := Ideal) (ix3 (0 : Fin 1) d (0 : Fin 1)) = 0 := by
  rw [pay5_apply, Ideal.ofBits_zero_f32]
theorem zero_col' (d : Fin 64) : k3_pay6 (F := Ideal) (ix3 (0 : Fin 1) d (0 : Fin 1)) = 0 := by
  rw [pay6_apply, Ideal.ofBits_zero_f32]

/-- A point's rows in terms of the arrays. -/
theorem rows_eq (c : Dev nD) (t : Fin cfg3.N) (d : Fin 64) (n : Fin 2) (p : Fin 4096) :
    y2 (iblk3 V c 1 t) (iblk3 V c 2 t) (iblk3 V c 3 t) (colb (iblk3 V c 0 t) (iblk3 V c 4 t) (iblk3 V c 5 t) n p) d
      = Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowN (2 * t.val + n.val)) d p := by
  rw [iblk_1 V c t, iblk_2 V c t, iblk_3 V c t, iblk_4 V c t, iblk_5 V c t]
  unfold Y
  exact congrArg (fun a => y2 _ _ _ a d) (funext fun k' =>
    congrArg (fun z => lrelu (z * V c (Pipeline.arrRef spec3 4) (ix2 k' (0 : Fin 1)) + V c (Pipeline.arrRef spec3 5) (ix2 k' (0 : Fin 1))))
      (iblk0_apply V c t n k' p))

theorem rowsum_eq (c : Dev nD) (t : Fin cfg3.N) (d : Fin 64) (m : Fin 2) (r : ℕ) (hr : r = 2 * t.val + m.val) :
    (∑ p : Fin 4096, y2 (iblk3 V c 1 t) (iblk3 V c 2 t) (iblk3 V c 3 t)
        (colb (iblk3 V c 0 t) (iblk3 V c 4 t) (iblk3 V c 5 t) m p) d)
      = Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d r := by
  subst hr
  exact Finset.sum_congr rfl fun p _ => rows_eq V c t d m p

theorem rowssq_eq (c : Dev nD) (t : Fin cfg3.N) (d : Fin 64) (m : Fin 2) (r : ℕ) (hr : r = 2 * t.val + m.val) :
    (∑ p : Fin 4096, y2 (iblk3 V c 1 t) (iblk3 V c 2 t) (iblk3 V c 3 t)
          (colb (iblk3 V c 0 t) (iblk3 V c 4 t) (iblk3 V c 5 t) m p) d
        * y2 (iblk3 V c 1 t) (iblk3 V c 2 t) (iblk3 V c 3 t)
          (colb (iblk3 V c 0 t) (iblk3 V c 4 t) (iblk3 V c 5 t) m p) d)
      = Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d r := by
  subst hr
  exact Finset.sum_congr rfl fun p _ => by rw [rows_eq V c t d m p]

/-! ### One point's step on each running column -/

set_option maxHeartbeats 400000 in
theorem point_A7 (c : Dev nD) (n : ℕ) (h : n < cfg3.N) (h0 : n % 8 = 0) (d : Fin 64) :
    (outsAt3 V c n h).2.1 (ix3 (0 : Fin 1) d (0 : Fin 1))
      = ((0 : EReal) + Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n)) + Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n + 1) := by
  rw [show outsAt3 V c n h = _ from outsAt3_A V c ⟨n, h⟩ h0]
  dsimp only
  rw [out_A_7 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) (ms3_7 ⟨n, h⟩) (hs3_7 ⟨n, h⟩) (ms3_8 ⟨n, h⟩) (hs3_8 ⟨n, h⟩) ((hcond3_0 ⟨n, h⟩).mpr h0) (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩),
    sum_apply (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) (k3_pay5 (F := Ideal)) d, zero_col,
    rowsum_eq V c ⟨n, h⟩ d 0 (2 * n) rfl, rowsum_eq V c ⟨n, h⟩ d 1 (2 * n + 1) rfl]

set_option maxHeartbeats 400000 in
theorem point_A8 (c : Dev nD) (n : ℕ) (h : n < cfg3.N) (h0 : n % 8 = 0) (d : Fin 64) :
    (outsAt3 V c n h).2.2 (ix3 (0 : Fin 1) d (0 : Fin 1))
      = ((0 : EReal) + Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n)) + Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n + 1) := by
  rw [show outsAt3 V c n h = _ from outsAt3_A V c ⟨n, h⟩ h0]
  dsimp only
  rw [out_A_8 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) (ms3_7 ⟨n, h⟩) (hs3_7 ⟨n, h⟩) (ms3_8 ⟨n, h⟩) (hs3_8 ⟨n, h⟩) ((hcond3_0 ⟨n, h⟩).mpr h0) (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩),
    ssq_apply (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) (k3_pay6 (F := Ideal)) d, zero_col',
    rowssq_eq V c ⟨n, h⟩ d 0 (2 * n) rfl, rowssq_eq V c ⟨n, h⟩ d 1 (2 * n + 1) rfl]

set_option maxHeartbeats 400000 in
theorem point_B7 (c : Dev nD) (n : ℕ) (h : n < cfg3.N) (h0 : ¬n % 8 = 0) (d : Fin 64) :
    (outsAt3 V c n h).2.1 (ix3 (0 : Fin 1) d (0 : Fin 1))
      = ((outsAt3 V c (n - 1) (Nat.lt_of_le_of_lt (Nat.sub_le _ _) h)).2.1 (ix3 (0 : Fin 1) d (0 : Fin 1)) + Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n)) + Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n + 1) := by
  rw [show outsAt3 V c n h = _ from outsAt3_B V c ⟨n, h⟩ h0]
  dsimp only
  rw [out_B_7 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) (ms3_7 ⟨n, h⟩) (hs3_7 ⟨n, h⟩) (ms3_8 ⟨n, h⟩) (hs3_8 ⟨n, h⟩) (fun hh => h0 ((hcond3_0 ⟨n, h⟩).mp hh)) (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) _ _,
    sum_apply (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) _ d,
    rowsum_eq V c ⟨n, h⟩ d 0 (2 * n) rfl, rowsum_eq V c ⟨n, h⟩ d 1 (2 * n + 1) rfl]

set_option maxHeartbeats 400000 in
theorem point_B8 (c : Dev nD) (n : ℕ) (h : n < cfg3.N) (h0 : ¬n % 8 = 0) (d : Fin 64) :
    (outsAt3 V c n h).2.2 (ix3 (0 : Fin 1) d (0 : Fin 1))
      = ((outsAt3 V c (n - 1) (Nat.lt_of_le_of_lt (Nat.sub_le _ _) h)).2.2 (ix3 (0 : Fin 1) d (0 : Fin 1)) + Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n)) + Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * n + 1) := by
  rw [show outsAt3 V c n h = _ from outsAt3_B V c ⟨n, h⟩ h0]
  dsimp only
  rw [out_B_8 c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) (ms3_7 ⟨n, h⟩) (hs3_7 ⟨n, h⟩) (ms3_8 ⟨n, h⟩) (hs3_8 ⟨n, h⟩) (fun hh => h0 ((hcond3_0 ⟨n, h⟩).mp hh)) (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) _ _,
    ssq_apply (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) _ d,
    rowssq_eq V c ⟨n, h⟩ d 0 (2 * n) rfl, rowssq_eq V c ⟨n, h⟩ d 1 (2 * n + 1) rfl]

/-- THE RUNNING COLUMNS after point `n`: the closed form, by induction on the point. -/
theorem cols_eq (c : Dev nD) (d : Fin 64) : ∀ (n : ℕ) (h : n < cfg3.N),
    (outsAt3 V c n h).2.1 (ix3 (0 : Fin 1) d (0 : Fin 1)) = acc (Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d) n
      ∧ (outsAt3 V c n h).2.2 (ix3 (0 : Fin 1) d (0 : Fin 1)) = acc (Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d) n := by
  intro n
  induction n using Nat.strong_induction_on with
  | _ n ih =>
    intro h
    by_cases h0 : n % 8 = 0
    · exact ⟨(point_A7 V c n h h0 d).trans (acc_first _ n h0), (point_A8 V c n h h0 d).trans (acc_first _ n h0)⟩
    · obtain ⟨i7, i8⟩ := ih (n - 1) (by omega) (Nat.lt_of_le_of_lt (Nat.sub_le _ _) h)
      constructor
      · rw [point_B7 V c n h h0 d, i7]
        exact acc_next _ n h0
      · rw [point_B8 V c n h h0 d, i8]
        exact acc_next _ n h0

end Cert.KMain3

end
-- ==== Proof.KMain3Arr.lean ====
/-
  The second main region's arrays after its run: what each point writes back is a block of ONE function of the arrays
  the region reads, and the blocks written back cover each result array — the activation array by rows two at a time
  (row n is written by point n / 2), each column array by its two rows (row `core` after the core's last point).
-/
import proofs.«126831_g2000503633499865_pallasbulk_555_4_alg».proof.Proof.KMain3Val
import proofs.«126831_g2000503633499865_pallasbulk_555_4_alg».proof.Proof.KMain1Arr

noncomputable section

open scoped BigOperators

namespace Cert.KMain3

open Idealize.ShloMosaic Idealize.ShloMosaic.TcCoe Idealize.ShloMosaic.ValueIdx Idealize.SL.Sem
open Idealize.ShloMosaic.Pipeline (Dat)
open Cert.KernelIdeal Cert.KernelIdeal.Gen
open Cert.KMain1 (lrelu hid y2 R0 R1 rowN rowOf acc acc_last rowN_eq)

variable (V : (c : Dev nD) → (b : Ref sig .tc) → Buf (Elt Ideal) ((c : Thread nD τ).loc b))

/-! ## The activation array (window 6) -/

set_option maxHeartbeats 1000000 in
theorem flushed6_eq (c : Dev nD) (t : Fin cfg3.N) :
    (dat3 V c).flushed 6 t
      = ((cfg3.win 6).blk t).view.read (Elt Ideal) (G6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  have hN : cfg3.N = 16 := N_3
  have ht := t.isLt
  show (cfg3.win 6).cut (grid3.coords t) ((dat3 V c).after 6 t) = _
  rw [after3_6]
  funext y
  obtain ⟨n, d, p, rfl⟩ : ∃ (n : Fin 2) (d : Fin 64) (p : Fin 4096), y = ix3 n d p := ⟨y 0, y 1, y 2, eq_ix3 y⟩
  rw [View.read_apply]
  have e : ((cfg3.win 6).blk t).view.emb (ix3 n d p) = (ix3 (rowN (2 * t.val + n.val)) d p : S32x64x4096.Idx) :=
    funext fun a => Fin.ext (by
      match a with
      | ⟨0, _⟩ => show win3_6.index t (0 : Fin 3) * 2 + 1 * n.val = (2 * t.val + n.val) % 32; rw [(idx6 t).1]; omega
      | ⟨1, _⟩ => show win3_6.index t (1 : Fin 3) * 64 + 1 * d.val = d.val; rw [(idx6 t).2.1]; omega
      | ⟨2, _⟩ => show win3_6.index t (2 : Fin 3) * 4096 + 1 * p.val = p.val; rw [(idx6 t).2.2]; omega)
  show (outsAt3 V c t.val t.isLt).1 (ix3 n d p) = G6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix3 n d p))
  rw [e]
  show _ = Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowN (2 * t.val + n.val)) d p
  rw [← rows_eq V c t d n p]
  by_cases h0 : t.val % 8 = 0
  · rw [outsAt3_A V c t h0]
    dsimp only
    rw [out_A_6_apply c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t) n d p]
    exact blk_apply (iblk3 V c 0 t) (iblk3 V c 1 t) (iblk3 V c 2 t) (iblk3 V c 3 t) (iblk3 V c 4 t) (iblk3 V c 5 t) n d p
  · rw [outsAt3_B V c t h0]
    dsimp only
    rw [out_B_6_apply c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun hh => h0 ((hcond3_0 t).mp hh)) (iblk3 V c 0 t) (iblk3 V c 1 t) (iblk3 V c 2 t) (iblk3 V c 3 t) (iblk3 V c 4 t) (iblk3 V c 5 t) _ _ n d p]
    exact blk_apply (iblk3 V c 0 t) (iblk3 V c 1 t) (iblk3 V c 2 t) (iblk3 V c 3 t) (iblk3 V c 4 t) (iblk3 V c 5 t) n d p

theorem mem_blk6 (t : Fin cfg3.N) (i : S32x64x4096.Idx) :
    i ∈ ((cfg3.win 6).blk t).view.set ↔ ∀ a : Fin 3, win3_6.index t a * S2x64x4096.size a ≤ (i a).val
      ∧ (i a).val < win3_6.index t a * S2x64x4096.size a + S2x64x4096.size a := by
  show i ∈ ((View.whole main_v56_0).slice (win3_6.rect t)).set ↔ _
  rw [View.set_slice_whole, Rect.mem_set_unit]
  exact Iff.rfl

/-- THE NEW ACTIVATION ARRAY after the region: y₂ of every batch row. -/
theorem arrAt_6 (c : Dev nD) :
    (dat3 V c).arrAt 6 cfg3.N = G6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed6_eq V c t) fun i => by
    have h0 : (i 0).val < 32 := (i 0).isLt
    have h1 : (i 1).val < 64 := (i 1).isLt
    have h2 : (i 2).val < 4096 := (i 2).isLt
    have hN : cfg3.N = 16 := N_3
    refine ⟨⟨(i 0).val / 2, by omega⟩, flush3_6 _, ?_⟩
    rw [mem_blk6]
    obtain ⟨e0, e1, e2⟩ := idx6 ⟨(i 0).val / 2, by omega⟩
    intro a
    match a with
    | ⟨0, _⟩ => show win3_6.index _ (0 : Fin 3) * 2 ≤ (i 0).val ∧ (i 0).val < win3_6.index _ (0 : Fin 3) * 2 + 2; rw [e0]; dsimp only; omega
    | ⟨1, _⟩ => show win3_6.index _ (1 : Fin 3) * 64 ≤ (i 1).val ∧ (i 1).val < win3_6.index _ (1 : Fin 3) * 64 + 64; rw [e1]; omega
    | ⟨2, _⟩ => show win3_6.index _ (2 : Fin 3) * 4096 ≤ (i 2).val ∧ (i 2).val < win3_6.index _ (2 : Fin 3) * 4096 + 4096; rw [e2]; omega

/-! ## The two column arrays (windows 7 and 8) -/

/-- The two batch rows of point `j` of the core of a last point `t`, by number and by (core, j, row). -/
theorem rowN_eq0 (t : ℕ) (ht : t < 16) (j : Fin 8) : rowN (2 * (t / 8 * 8 + j.val)) = rowOf ⟨t / 8, by omega⟩ j 0 :=
  Fin.ext (by show (2 * (t / 8 * 8 + j.val)) % 32 = (t / 8 * 8 + j.val) * 2 + 0; have := j.isLt; omega)
theorem rowN_eq1 (t : ℕ) (ht : t < 16) (j : Fin 8) : rowN (2 * (t / 8 * 8 + j.val) + 1) = rowOf ⟨t / 8, by omega⟩ j 1 :=
  Fin.ext (by show (2 * (t / 8 * 8 + j.val) + 1) % 32 = (t / 8 * 8 + j.val) * 2 + 1; have := j.isLt; omega)

set_option maxHeartbeats 2000000 in
theorem flushed7_eq (c : Dev nD) (t : Fin cfg3.N) (hf : (cfg3.win 7).flush t = true) :
    (dat3 V c).flushed 7 t
      = ((cfg3.win 7).blk t).view.read (Elt Ideal) (G7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  have hN : cfg3.N = 16 := N_3
  have ht : t.val < 16 := hN ▸ t.isLt
  have h7 : t.val % 8 = 7 := (flush3_7 t).mp hf
  show (cfg3.win 7).cut (grid3.coords t) ((dat3 V c).after 7 t) = _
  rw [after3_7]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg3.win 7).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win3_7.index t (0 : Fin 3) * 1 + 1 * 0 = t.val / 8; rw [(idx7 t).1]; omega
      | ⟨1, _⟩ => show win3_7.index t (1 : Fin 3) * 64 + 1 * d.val = d.val; rw [(idx7 t).2.1]; omega
      | ⟨2, _⟩ => show win3_7.index t (2 : Fin 3) * 1 + 1 * 0 = 0; rw [(idx7 t).2.2])
  show (outsAt3 V c t.val t.isLt).2.1 (ix3 (0 : Fin 1) d (0 : Fin 1))
    = G7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 7).blk t).view.emb (ix3 (0 : Fin 1) d (0 : Fin 1)))
  rw [e, (cols_eq V c d t.val t.isLt).1, acc_last _ _ h7]
  refine Finset.sum_congr rfl fun j _ => ?_
  show Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * (t.val / 8 * 8 + j.val)) + Srow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * (t.val / 8 * 8 + j.val) + 1)
    = (∑ p : Fin 4096, Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 0) d p) + ∑ p : Fin 4096, Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 1) d p
  unfold Srow
  rw [rowN_eq0 t.val ht j, rowN_eq1 t.val ht j]

theorem mem_blk7 (t : Fin cfg3.N) (i : S2x64x1.Idx) :
    i ∈ ((cfg3.win 7).blk t).view.set ↔ ∀ a : Fin 3, win3_7.index t a * S1x64x1.size a ≤ (i a).val
      ∧ (i a).val < win3_7.index t a * S1x64x1.size a + S1x64x1.size a := by
  show i ∈ ((View.whole main_v56_1).slice (win3_7.rect t)).set ↔ _
  rw [View.set_slice_whole, Rect.mem_set_unit]
  exact Iff.rfl

theorem arrAt_7 (c : Dev nD) :
    (dat3 V c).arrAt 7 cfg3.N = G7 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 7 _ (fun t hf => flushed7_eq V c t hf) fun i => by
    have h0 : (i 0).val < 2 := (i 0).isLt
    have h1 : (i 1).val < 64 := (i 1).isLt
    have h2 : (i 2).val < 1 := (i 2).isLt
    have hN : cfg3.N = 16 := N_3
    refine ⟨⟨(i 0).val * 8 + 7, by omega⟩, (flush3_7 _).mpr (by dsimp only; omega), ?_⟩
    rw [mem_blk7]
    obtain ⟨e0, e1, e2⟩ := idx7 ⟨(i 0).val * 8 + 7, by omega⟩
    intro a
    match a with
    | ⟨0, _⟩ => show win3_7.index _ (0 : Fin 3) * 1 ≤ (i 0).val ∧ (i 0).val < win3_7.index _ (0 : Fin 3) * 1 + 1; rw [e0]; dsimp only; omega
    | ⟨1, _⟩ => show win3_7.index _ (1 : Fin 3) * 64 ≤ (i 1).val ∧ (i 1).val < win3_7.index _ (1 : Fin 3) * 64 + 64; rw [e1]; omega
    | ⟨2, _⟩ => show win3_7.index _ (2 : Fin 3) * 1 ≤ (i 2).val ∧ (i 2).val < win3_7.index _ (2 : Fin 3) * 1 + 1; rw [e2]; omega

set_option maxHeartbeats 2000000 in
theorem flushed8_eq (c : Dev nD) (t : Fin cfg3.N) (hf : (cfg3.win 8).flush t = true) :
    (dat3 V c).flushed 8 t
      = ((cfg3.win 8).blk t).view.read (Elt Ideal) (G8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  have hN : cfg3.N = 16 := N_3
  have ht : t.val < 16 := hN ▸ t.isLt
  have h7 : t.val % 8 = 7 := (flush3_8 t).mp hf
  show (cfg3.win 8).cut (grid3.coords t) ((dat3 V c).after 8 t) = _
  rw [after3_8]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg3.win 8).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win3_8.index t (0 : Fin 3) * 1 + 1 * 0 = t.val / 8; rw [(idx8 t).1]; omega
      | ⟨1, _⟩ => show win3_8.index t (1 : Fin 3) * 64 + 1 * d.val = d.val; rw [(idx8 t).2.1]; omega
      | ⟨2, _⟩ => show win3_8.index t (2 : Fin 3) * 1 + 1 * 0 = 0; rw [(idx8 t).2.2])
  show (outsAt3 V c t.val t.isLt).2.2 (ix3 (0 : Fin 1) d (0 : Fin 1))
    = G8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 8).blk t).view.emb (ix3 (0 : Fin 1) d (0 : Fin 1)))
  rw [e, (cols_eq V c d t.val t.isLt).2, acc_last _ _ h7]
  refine Finset.sum_congr rfl fun j _ => ?_
  show Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * (t.val / 8 * 8 + j.val)) + Qrow (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) d (2 * (t.val / 8 * 8 + j.val) + 1)
    = (∑ p : Fin 4096, Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 0) d p * Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 0) d p) + ∑ p : Fin 4096, Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 1) d p * Y (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (rowOf ⟨t.val / 8, by omega⟩ j 1) d p
  unfold Qrow
  rw [rowN_eq0 t.val ht j, rowN_eq1 t.val ht j]

theorem mem_blk8 (t : Fin cfg3.N) (i : S2x64x1.Idx) :
    i ∈ ((cfg3.win 8).blk t).view.set ↔ ∀ a : Fin 3, win3_8.index t a * S1x64x1.size a ≤ (i a).val
      ∧ (i a).val < win3_8.index t a * S1x64x1.size a + S1x64x1.size a := by
  show i ∈ ((View.whole main_v56_2).slice (win3_8.rect t)).set ↔ _
  rw [View.set_slice_whole, Rect.mem_set_unit]
  exact Iff.rfl

theorem arrAt_8 (c : Dev nD) :
    (dat3 V c).arrAt 8 cfg3.N = G8 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 8 _ (fun t hf => flushed8_eq V c t hf) fun i => by
    have h0 : (i 0).val < 2 := (i 0).isLt
    have h1 : (i 1).val < 64 := (i 1).isLt
    have h2 : (i 2).val < 1 := (i 2).isLt
    have hN : cfg3.N = 16 := N_3
    refine ⟨⟨(i 0).val * 8 + 7, by omega⟩, (flush3_8 _).mpr (by dsimp only; omega), ?_⟩
    rw [mem_blk8]
    obtain ⟨e0, e1, e2⟩ := idx8 ⟨(i 0).val * 8 + 7, by omega⟩
    intro a
    match a with
    | ⟨0, _⟩ => show win3_8.index _ (0 : Fin 3) * 1 ≤ (i 0).val ∧ (i 0).val < win3_8.index _ (0 : Fin 3) * 1 + 1; rw [e0]; dsimp only; omega
    | ⟨1, _⟩ => show win3_8.index _ (1 : Fin 3) * 64 ≤ (i 1).val ∧ (i 1).val < win3_8.index _ (1 : Fin 3) * 64 + 64; rw [e1]; omega
    | ⟨2, _⟩ => show win3_8.index _ (2 : Fin 3) * 1 ≤ (i 2).val ∧ (i 2).val < win3_8.index _ (2 : Fin 3) * 1 + 1; rw [e2]; omega

end Cert.KMain3

end
-- ==== Proof.KMain3Bridge.lean ====
/-
  The second main region in the network's own words: its activation array is the block's second 1x1 convolution
  of the rectified, shifted first one, pixel by pixel; its two column arrays, summed over the two cores, are that
  output's per-channel sum and sum of squares over all pixels — the kernel's nesting of the 32 batch rows (core, grid
  step, row of the block) re-indexed to the batch rows themselves.
-/
import proofs.«126831_g2000503633499865_pallasbulk_555_4_alg».proof.Proof.KMain3Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open Idealize.ShloMosaic Idealize.ShloMosaic.ValueIdx
open scoped BigOperators

namespace Cert.KMain3

open Cert.KernelIdeal Cert
open Cert.KMain1 (lrelu hid y2 rowOf)

/-- One entry of the region's output, arrays against functions. -/
theorem Y_net (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    Y a w1f t1 w2 s t n d p = (Net.conv W2 (fun (ch : Fin 128) (x : Net.Px) => Net.lrelu Net.slopec (Net.conv W1f A ch x + T1 ch))) d (n, p) := by
  unfold Y y2
  show _ = ∑ k : Fin 128, W2 d k * Net.lrelu Net.slopec (Net.conv W1f A k (n, p) + T1 k)
  refine Finset.sum_congr rfl fun k _ => ?_
  rw [hw2]
  refine congrArg (W2 d k * ·) ?_
  unfold hid
  rw [ht1]
  show lrelu _ = lrelu _
  refine congrArg (fun z => lrelu (z + T1 k)) ?_
  show _ = ∑ k' : Fin 64, W1f k k' * A k' (n, p)
  exact Finset.sum_congr rfl fun k' _ => congrArg₂ (· * ·) (hw1 k k') (ha n k' p)

/-- The activation array, entry by entry. -/
theorem y2_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    G6 a w1f t1 w2 s t (ix3 n d p) = (Net.conv W2 (fun (ch : Fin 128) (x : Net.Px) => Net.lrelu Net.slopec (Net.conv W1f A ch x + T1 ch))) d (n, p) :=
  Y_net a w1f t1 w2 s t A W1f T1 W2 ha hw1 ht1 hw2 n d p

/-- The sum columns of the two cores add up to the channel's sum over all pixels. -/
theorem sum_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G7 a w1f t1 w2 s t (ix3 core d u) = Net.tot (Net.conv W2 (fun (ch : Fin 128) (x : Net.Px) => Net.lrelu Net.slopec (Net.conv W1f A ch x + T1 ch))) d := by
  show ∑ core : Fin 2, ∑ j : Fin 8, ((∑ p : Fin 4096, Y a w1f t1 w2 s t (rowOf core j 0) d p)
    + ∑ p : Fin 4096, Y a w1f t1 w2 s t (rowOf core j 1) d p) = _
  rw [Net.sum_rows_fin (fun n => ∑ p : Fin 4096, Y a w1f t1 w2 s t n d p) rowOf (fun _ _ _ => rfl)]
  unfold Net.tot
  rw [Fintype.sum_prod_type]
  exact Finset.sum_congr rfl fun n _ => Finset.sum_congr rfl fun p _ => Y_net a w1f t1 w2 s t A W1f T1 W2 ha hw1 ht1 hw2 n d p

/-- The sum-of-squares columns of the two cores add up to the channel's sum of squares over all pixels. -/
theorem ssq_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G8 a w1f t1 w2 s t (ix3 core d u) = Net.tot2 (Net.conv W2 (fun (ch : Fin 128) (x : Net.Px) => Net.lrelu Net.slopec (Net.conv W1f A ch x + T1 ch))) d := by
  show ∑ core : Fin 2, ∑ j : Fin 8, ((∑ p : Fin 4096, Y a w1f t1 w2 s t (rowOf core j 0) d p * Y a w1f t1 w2 s t (rowOf core j 0) d p)
    + ∑ p : Fin 4096, Y a w1f t1 w2 s t (rowOf core j 1) d p * Y a w1f t1 w2 s t (rowOf core j 1) d p) = _
  rw [Net.sum_rows_fin (fun n => ∑ p : Fin 4096, Y a w1f t1 w2 s t n d p * Y a w1f t1 w2 s t n d p) rowOf (fun _ _ _ => rfl)]
  unfold Net.tot2
  rw [Fintype.sum_prod_type]
  exact Finset.sum_congr rfl fun n _ => Finset.sum_congr rfl fun p _ =>
    congrArg₂ (· * ·) (Y_net a w1f t1 w2 s t A W1f T1 W2 ha hw1 ht1 hw2 n d p) (Y_net a w1f t1 w2 s t A W1f T1 W2 ha hw1 ht1 hw2 n d p)

end Cert.KMain3

end
-- ==== Proof.KFlowB.lean ====
/-
  The idealized kernel's run, read as mathematics — block 2: its statistics pass, main pass and the host operations
  after each. The passes read the previous block's output as lrelu (y2 · s2 + t2), recomputed from the stored y2 and the
  previous normalisation's scale and shift; with that as the block's input the structure is the first block's.
-/
import proofs.«126831_g2000503633499865_pallasbulk_555_4_alg».proof.Proof.KFlowA2
import proofs.«126831_g2000503633499865_pallasbulk_555_4_alg».proof.Proof.KKeep
import proofs.«126831_g2000503633499865_pallasbulk_555_4_alg».proof.Proof.KStats2Val
import proofs.«126831_g2000503633499865_pallasbulk_555_4_alg».proof.Proof.KStats2Bridge
import proofs.«126831_g2000503633499865_pallasbulk_555_4_alg».proof.Proof.KMain3Arr
import proofs.«126831_g2000503633499865_pallasbulk_555_4_alg».proof.Proof.KMain3Bridge

set_option maxRecDepth 16384

noncomputable section

namespace Cert.KernelIdeal.Flow

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- This block's weights and its input activation. -/
abbrev q1 : Net.BlockParams (Fin 64) (Fin 128) :=
  Net.qOf (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
abbrev A1 : Fin 64 → Net.Px → EReal := Net.stepK Net.Nc Net.epsc Net.slopec (q0 m c) (X m c)

/-! ## The statistics pass -/

theorem b1_arg_w1_at (ch : Fin 128) (k : Fin 64) :
    V5 (F := Ideal) m ρ c main_arg7 (ix2 ch k) = (q1 m c).W1 ch k := by
  have e : V5 (F := Ideal) m ρ c main_arg7 = m ((c : Thread nD τ).loc main_arg7) := w5_arg7 m ρ c
  rw [e]; rfl

theorem b1_acc_sum : W6 (F := Ideal) m ρ c (Proc.devRef .tc main_v37_0)
    = KStats2.GK2_4 (V5 m ρ c main_v20_0) (V5 m ρ c main_arg7) (V5 m ρ c main_v34) (V5 m ρ c main_v36) :=
  (W6_arr m ρ c 4).trans (KStats2.arrAt_4 (V5 m ρ) c)

theorem b1_acc_ssq : W6 (F := Ideal) m ρ c (Proc.devRef .tc main_v37_1)
    = KStats2.GK2_5 (V5 m ρ c main_v20_0) (V5 m ρ c main_arg7) (V5 m ρ c main_v34) (V5 m ρ c main_v36) :=
  (W6_arr m ρ c 5).trans (KStats2.arrAt_5 (V5 m ρ) c)

theorem b1_sum1 (ch : Fin 128) (u : Fin 1) :
    ∑ core : Fin 2, arr S2x128x1 (W6 (F := Ideal) m ρ c (Proc.devRef .tc main_v37_0)) (ix3 core ch u)
      = Net.tot (Net.conv (q1 m c).W1 (A1 m c)) ch := by
  unfold arr
  rw [b1_acc_sum]
  exact KStats2.sum_eq _ _ _ _ (A1 m c) (q1 m c).W1 (act1 m ρ c) (b1_arg_w1_at m ρ c) ch u

theorem b1_ssq1 (ch : Fin 128) (u : Fin 1) :
    ∑ core : Fin 2, arr S2x128x1 (W6 (F := Ideal) m ρ c (Proc.devRef .tc main_v37_1)) (ix3 core ch u)
      = Net.tot2 (Net.conv (q1 m c).W1 (A1 m c)) ch := by
  unfold arr
  rw [b1_acc_ssq]
  exact KStats2.ssq_eq _ _ _ _ (A1 m c) (q1 m c).W1 (act1 m ρ c) (b1_arg_w1_at m ρ c) ch u

/-! ## The host operations after it: the first scale and shift, and the scaled weights -/

set_option maxHeartbeats 4000000 in
theorem main_v51_eq : V7 (F := Ideal) m ρ c main_v51
    = HostFold.scaleVec reducesTo_S2x128x1_S128x1_d0 h_S_ bcast_S_S128x1
        (W6 m ρ c (Proc.devRef .tc main_v37_0)) (W6 m ρ c (Proc.devRef .tc main_v37_1)) (W6 m ρ c (Proc.devRef .tc main_arg8)) := by
  show StableHlo.after hostOps3 (W6 m ρ c) (Proc.devRef .tc main_v51) = _
  after_results_simp
  rfl

theorem main_v51_at (ch : Fin 128) :
    V7 (F := Ideal) m ρ c main_v51 (ix2 ch 0)
      = Net.bnScale Net.Nc Net.epsc (Net.conv (q1 m c).W1 (A1 m c)) (q1 m c).g1 ch := by
  rw [main_v51_eq, HostFold.scaleVec_apply _ _ _ (by decide)]
  have e1 := b1_sum1 m ρ c ch 0
  have e2 := b1_ssq1 m ρ c ch 0
  unfold arr at e1 e2
  rw [e1, e2, w6_arg8]
  rfl

set_option maxHeartbeats 4000000 in
theorem main_v53_eq : V7 (F := Ideal) m ρ c main_v53
    = HostFold.shiftVec reducesTo_S2x128x1_S128x1_d0 h_S_ bcast_S_S128x1
        (W6 m ρ c (Proc.devRef .tc main_v37_0)) (W6 m ρ c (Proc.devRef .tc main_v37_1)) (W6 m ρ c (Proc.devRef .tc main_arg8))
        (W6 m ρ c (Proc.devRef .tc main_arg9)) := by
  show StableHlo.after hostOps3 (W6 m ρ c) (Proc.devRef .tc main_v53) = _
  after_results_simp
  rfl

theorem main_v53_at (ch : Fin 128) :
    V7 (F := Ideal) m ρ c main_v53 (ix2 ch 0)
      = Net.bnShift Net.Nc Net.epsc (Net.conv (q1 m c).W1 (A1 m c)) (q1 m c).g1 (q1 m c).b1 ch := by
  rw [main_v53_eq, HostFold.shiftVec_apply _ _ _ (by decide)]
  have e1 := b1_sum1 m ρ c ch 0
  have e2 := b1_ssq1 m ρ c ch 0
  unfold arr at e1 e2
  rw [e1, e2, w6_arg8, w6_arg9]
  rfl

set_option maxHeartbeats 4000000 in
theorem main_v55_eq : V7 (F := Ideal) m ρ c main_v55
    = HostFold.scaleRows bcast_S128x1_S128x64_0_1 (W6 m ρ c (Proc.devRef .tc main_arg7))
        (HostFold.scaleVec reducesTo_S2x128x1_S128x1_d0 h_S_ bcast_S_S128x1
          (W6 m ρ c (Proc.devRef .tc main_v37_0)) (W6 m ρ c (Proc.devRef .tc main_v37_1)) (W6 m ρ c (Proc.devRef .tc main_arg8))) := by
  show StableHlo.after hostOps3 (W6 m ρ c) (Proc.devRef .tc main_v55) = _
  after_results_simp
  rfl

theorem main_v55_at (ch : Fin 128) (k : Fin 64) :
    V7 (F := Ideal) m ρ c main_v55 (ix2 ch k)
      = (q1 m c).W1 ch k * Net.bnScale Net.Nc Net.epsc (Net.conv (q1 m c).W1 (A1 m c)) (q1 m c).g1 ch := by
  rw [main_v55_eq, HostFold.scaleRows_apply, ← main_v51_eq, main_v51_at, w6_arg7]
  rfl

/-! ## The main pass -/

/-- The block's second convolution before its normalisation. -/
abbrev Y21 : Fin 64 → Net.Px → EReal :=
  Net.pre2 Net.Nc Net.epsc Net.slopec (q1 m c).W1 (q1 m c).g1 (q1 m c).b1 (q1 m c).W2 (A1 m c)

/-- The block's input as the main pass recomputes it: the arrays are those the statistics pass read. -/
theorem b1_act_main (n : Fin 32) (k : Fin 64) (p : Fin 4096) :
    Net.lrelu Net.slopec (arr S32x64x4096 (V7 (F := Ideal) m ρ c main_v20_0) (ix3 n k p) * arr S64x1 (V7 (F := Ideal) m ρ c main_v34) (ix2 k 0)
        + arr S64x1 (V7 (F := Ideal) m ρ c main_v36) (ix2 k 0))
      = A1 m c k (n, p) := by
  have e0 : V7 (F := Ideal) m ρ c main_v20_0 = V5 m ρ c main_v20_0 := (w7_v20_0 m ρ c).trans (w5_v20_0 m ρ c).symm
  have e1 : V7 (F := Ideal) m ρ c main_v34 = V5 m ρ c main_v34 := w7_v34 m ρ c
  have e2 : V7 (F := Ideal) m ρ c main_v36 = V5 m ρ c main_v36 := w7_v36 m ρ c
  rw [e0, e1, e2]
  exact act1 m ρ c n k p

theorem b1_arg_w2_at (d : Fin 64) (ch : Fin 128) :
    V7 (F := Ideal) m ρ c main_arg10 (ix2 d ch) = (q1 m c).W2 d ch := by
  have e : V7 (F := Ideal) m ρ c main_arg10 = m ((c : Thread nD τ).loc main_arg10) := w7_arg10 m ρ c
  rw [e]; rfl

theorem b1_y2_eq : W8 (F := Ideal) m ρ c (Proc.devRef .tc main_v56_0)
    = KMain3.G6 (V7 m ρ c main_v20_0) (V7 m ρ c main_v55) (V7 m ρ c main_v53) (V7 m ρ c main_arg10)
        (V7 m ρ c main_v34) (V7 m ρ c main_v36) :=
  (W8_arr m ρ c 6).trans (KMain3.arrAt_6 (V7 m ρ) c)

theorem b1_acc2_sum : W8 (F := Ideal) m ρ c (Proc.devRef .tc main_v56_1)
    = KMain3.G7 (V7 m ρ c main_v20_0) (V7 m ρ c main_v55) (V7 m ρ c main_v53) (V7 m ρ c main_arg10)
        (V7 m ρ c main_v34) (V7 m ρ c main_v36) :=
  (W8_arr m ρ c 7).trans (KMain3.arrAt_7 (V7 m ρ) c)

theorem b1_acc2_ssq : W8 (F := Ideal) m ρ c (Proc.devRef .tc main_v56_2)
    = KMain3.G8 (V7 m ρ c main_v20_0) (V7 m ρ c main_v55) (V7 m ρ c main_v53) (V7 m ρ c main_arg10)
        (V7 m ρ c main_v34) (V7 m ρ c main_v36) :=
  (W8_arr m ρ c 8).trans (KMain3.arrAt_8 (V7 m ρ) c)

theorem b1_y2_at (n : Fin 32) (d : Fin 64) (p : Fin 4096) :
    arr S32x64x4096 (W8 (F := Ideal) m ρ c (Proc.devRef .tc main_v56_0)) (ix3 n d p) = Y21 m c d (n, p) := by
  unfold arr
  rw [b1_y2_eq]
  exact KMain3.y2_eq _ _ _ _ _ _ (A1 m c) _ _ (q1 m c).W2 (b1_act_main m ρ c) (main_v55_at m ρ c) (main_v53_at m ρ c) (b1_arg_w2_at m ρ c) n d p

theorem b1_sum2 (d : Fin 64) (u : Fin 1) :
    ∑ core : Fin 2, arr S2x64x1 (W8 (F := Ideal) m ρ c (Proc.devRef .tc main_v56_1)) (ix3 core d u) = Net.tot (Y21 m c) d := by
  unfold arr
  rw [b1_acc2_sum]
  exact KMain3.sum_eq _ _ _ _ _ _ (A1 m c) _ _ (q1 m c).W2 (b1_act_main m ρ c) (main_v55_at m ρ c) (main_v53_at m ρ c) (b1_arg_w2_at m ρ c) d u

theorem b1_ssq2 (d : Fin 64) (u : Fin 1) :
    ∑ core : Fin 2, arr S2x64x1 (W8 (F := Ideal) m ρ c (Proc.devRef .tc main_v56_2)) (ix3 core d u) = Net.tot2 (Y21 m c) d := by
  unfold arr
  rw [b1_acc2_ssq]
  exact KMain3.ssq_eq _ _ _ _ _ _ (A1 m c) _ _ (q1 m c).W2 (b1_act_main m ρ c) (main_v55_at m ρ c) (main_v53_at m ρ c) (b1_arg_w2_at m ρ c) d u

/-! ## The host operations after it: the second scale and shift -/

set_option maxHeartbeats 4000000 in
theorem main_v70_eq : V9 (F := Ideal) m ρ c main_v70
    = HostFold.scaleVec reducesTo_S2x64x1_S64x1_d0 h_S_ bcast_S_S64x1
        (W8 m ρ c (Proc.devRef .tc main_v56_1)) (W8 m ρ c (Proc.devRef .tc main_v56_2)) (W8 m ρ c (Proc.devRef .tc main_arg11)) := by
  show StableHlo.after hostOps4 (W8 m ρ c) (Proc.devRef .tc main_v70) = _
  after_results_simp
  rfl

theorem main_v70_at (d : Fin 64) :
    V9 (F := Ideal) m ρ c main_v70 (ix2 d 0) = Net.bnScale Net.Nc Net.epsc (Y21 m c) (q1 m c).g2 d := by
  rw [main_v70_eq, HostFold.scaleVec_apply _ _ _ (by decide)]
  have e1 := b1_sum2 m ρ c d 0
  have e2 := b1_ssq2 m ρ c d 0
  unfold arr at e1 e2
  rw [e1, e2, w8_arg11]
  rfl

set_option maxHeartbeats 4000000 in
theorem main_v72_eq : V9 (F := Ideal) m ρ c main_v72
    = HostFold.shiftVec reducesTo_S2x64x1_S64x1_d0 h_S_ bcast_S_S64x1
        (W8 m ρ c (Proc.devRef .tc main_v56_1)) (W8 m ρ c (Proc.devRef .tc main_v56_2)) (W8 m ρ c (Proc.devRef .tc main_arg11))
        (W8 m ρ c (Proc.devRef .tc main_arg12)) := by
  show StableHlo.after hostOps4 (W8 m ρ c) (Proc.devRef .tc main_v72) = _
  after_results_simp
  rfl

theorem main_v72_at (d : Fin 64) :
    V9 (F := Ideal) m ρ c main_v72 (ix2 d 0) = Net.bnShift Net.Nc Net.epsc (Y21 m c) (q1 m c).g2 (q1 m c).b2 d := by
  rw [main_v72_eq, HostFold.shiftVec_apply _ _ _ (by decide)]
  have e1 := b1_sum2 m ρ c d 0
  have e2 := b1_ssq2 m ρ c d 0
  unfold arr at e1 e2
  rw [e1, e2, w8_arg11, w8_arg12]
  rfl

/-- This block's output, as the next passes recompute it from y2 and the second scale and shift. -/
theorem act2 (n : Fin 32) (k : Fin 64) (p : Fin 4096) :
    Net.lrelu Net.slopec (arr S32x64x4096 (V9 (F := Ideal) m ρ c main_v56_0) (ix3 n k p) * arr S64x1 (V9 (F := Ideal) m ρ c main_v70) (ix2 k 0)
        + arr S64x1 (V9 (F := Ideal) m ρ c main_v72) (ix2 k 0))
      = Net.stepK Net.Nc Net.epsc Net.slopec (q1 m c) (A1 m c) k (n, p) := by
  have e0 : V9 (F := Ideal) m ρ c main_v56_0 = W8 m ρ c (Proc.devRef .tc main_v56_0) := w9_v56_0 m ρ c
  have e1 := b1_y2_at m ρ c n k p
  unfold arr at e1 ⊢
  rw [e0, e1, main_v70_at, main_v72_at]
  rfl

end Cert.KernelIdeal.Flow

end
-- ==== Proof.KStats4Pay.lean ====
/-
  Region 4 of the idealized kernel (the statistics pass of the third layer): the arithmetic of one grid point, read at
  an index over the extended reals. As in region 0, with the block first mapped through the per-channel affine map
  z = a·s + t and the leaky rectifier max(z, 0.2·z) before the product y = W · act.
-/
import proofs.«126831_g2000503633499865_pallasbulk_555_4_alg».proof.Proof.Gen.KernelIdeal.Skeleton
import proofs.«126831_g2000503633499865_pallasbulk_555_4_alg».proof.Proof.KStats0Pay

noncomputable section

open Idealize.ShloMosaic Idealize.ShloMosaic.ValueIdx
open scoped BigOperators

namespace Cert.KernelIdeal.KStats4

open Cert.KernelIdeal Cert.KernelIdeal.Gen
open Cert.KernelIdeal.KStats0 (shapeCast_a_a1_apply matmul_at rowsum_at acccol_at accsum_at broadcastTo_a1_ab_apply R0 R1 ld_row0 ld_row1)

/-- The affine map then the leaky rectifier on one element: z = a·s + t, then max(z, 0.2·z) (the slope the f32 word
    the kernel multiplies by). -/
def act (a s t : EReal) : EReal :=
  max (a * s + t) (Ideal.ofBits .f32 0x3E4CCCCD#32 * (a * s + t))

/-- The activated row of the block, at `(k, p)`: the element mapped by channel `k`'s scale and shift. -/
theorem act_at (v4 : Vec Ideal S1x64x4096 .f32) (v6 v10 : Vec Ideal S64x1 .f32) (k : Fin 64) (p : Fin 4096) :
    maximumf
      (addf (mulf (shapeCast S64x4096 v4 shapeCasts_S1x64x4096_S64x4096)
          (broadcastTo S64x4096 (shapeCast S64x1 v6 shapeCasts_S64x1_S64x1) broadcasts_S64x1_S64x4096))
        (broadcastTo S64x4096 (shapeCast S64x1 v10 shapeCasts_S64x1_S64x1) broadcasts_S64x1_S64x4096))
      (mulf (broadcast S64x4096 (Scalar.ofBits .f32 0x3E4CCCCD#32 : Ideal .f32))
        (addf (mulf (shapeCast S64x4096 v4 shapeCasts_S1x64x4096_S64x4096)
            (broadcastTo S64x4096 (shapeCast S64x1 v6 shapeCasts_S64x1_S64x1) broadcasts_S64x1_S64x4096))
          (broadcastTo S64x4096 (shapeCast S64x1 v10 shapeCasts_S64x1_S64x1) broadcasts_S64x1_S64x4096)))
      (ix2 k p)
      = act (v4 (ix3 (0 : Fin 1) k p)) (v6 (ix2 k (0 : Fin 1))) (v10 (ix2 k (0 : Fin 1))) := by
  have e5 : shapeCast S64x4096 v4 shapeCasts_S1x64x4096_S64x4096 (ix2 k p) = v4 (ix3 (0 : Fin 1) k p) :=
    shapeCast_1ab_ab_apply v4 shapeCasts_S1x64x4096_S64x4096 k p
  have e8 : broadcastTo S64x4096 (shapeCast S64x1 v6 shapeCasts_S64x1_S64x1) broadcasts_S64x1_S64x4096 (ix2 k p)
      = v6 (ix2 k (0 : Fin 1)) := by
    rw [shapeCast_self]; exact broadcastTo_a1_ab_apply v6 broadcasts_S64x1_S64x4096 k p
  have e12 : broadcastTo S64x4096 (shapeCast S64x1 v10 shapeCasts_S64x1_S64x1) broadcasts_S64x1_S64x4096 (ix2 k p)
      = v10 (ix2 k (0 : Fin 1)) := by
    rw [shapeCast_self]; exact broadcastTo_a1_ab_apply v10 broadcasts_S64x1_S64x4096 k p
  show max (shapeCast S64x4096 v4 shapeCasts_S1x64x4096_S64x4096 (ix2 k p)
        * broadcastTo S64x4096 (shapeCast S64x1 v6 shapeCasts_S64x1_S64x1) broadcasts_S64x1_S64x4096 (ix2 k p)
        + broadcastTo S64x4096 (shapeCast S64x1 v10 shapeCasts_S64x1_S64x1) broadcasts_S64x1_S64x4096 (ix2 k p))
      (Ideal.ofBits .f32 0x3E4CCCCD#32 * (shapeCast S64x4096 v4 shapeCasts_S1x64x4096_S64x4096 (ix2 k p)
        * broadcastTo S64x4096 (shapeCast S64x1 v6 shapeCasts_S64x1_S64x1) broadcasts_S64x1_S64x4096 (ix2 k p)
        + broadcastTo S64x4096 (shapeCast S64x1 v10 shapeCasts_S64x1_S64x1) broadcasts_S64x1_S64x4096 (ix2 k p))) = _
  rw [e5, e8, e12]
  rfl

/-- y = W · act for the block's first row, at `(ch, p)`. -/
theorem pay4_at (v3 : Vec Ideal S128x64 .f32) (v4 : Vec Ideal S1x64x4096 .f32) (v6 v10 : Vec Ideal S64x1 .f32)
    (ch : Fin 128) (p : Fin 4096) :
    k4_pay4 (F := Ideal) v3 v4 v6 v10 (ix2 ch p)
      = ∑ k : Fin 64, v3 (ix2 ch k) * act (v4 (ix3 (0 : Fin 1) k p)) (v6 (ix2 k (0 : Fin 1))) (v10 (ix2 k (0 : Fin 1))) := by
  unfold k4_pay4
  refine (matmul_at v3 _ ch p).trans ?_
  exact Finset.sum_congr rfl fun k _ => congrArg (v3 (ix2 ch k) * ·) (act_at v4 v6 v10 k p)

/-- The same for the block's second row. -/
theorem pay8_at (v3 : Vec Ideal S128x64 .f32) (v35 : Vec Ideal S1x64x4096 .f32) (v37 v41 : Vec Ideal S64x1 .f32)
    (ch : Fin 128) (p : Fin 4096) :
    k4_pay8 (F := Ideal) v3 v35 v37 v41 (ix2 ch p)
      = ∑ k : Fin 64, v3 (ix2 ch k) * act (v35 (ix3 (0 : Fin 1) k p)) (v37 (ix2 k (0 : Fin 1))) (v41 (ix2 k (0 : Fin 1))) := by
  unfold k4_pay8
  refine (matmul_at v3 _ ch p).trans ?_
  exact Finset.sum_congr rfl fun k _ => congrArg (v3 (ix2 ch k) * ·) (act_at v35 v37 v41 k p)

/-- The zero block the first point of a core stores into the sum accumulator. -/
theorem pay2_at (u : Fin 1) (ch : Fin 128) (w : Fin 1) :
    k4_pay2 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The zero block the first point of a core stores into the sum-of-squares accumulator. -/
theorem pay3_at (u : Fin 1) (ch : Fin 128) (w : Fin 1) :
    k4_pay3 (F := Ideal) (ix3 u ch w) = Ideal.ofBits .f32 0x00000000#32 :=
  (shapeCast_ab_1ab_apply (broadcast S128x1 (Scalar.ofBits .f32 0x00000000#32 : Ideal .f32)) shapeCasts_S128x1_S1x128x1 u ch w).trans rfl

/-- The sum accumulator after the block's first row. -/
theorem pay5_at (v3 : Vec Ideal S128x64 .f32) (v4 : Vec Ideal S1x64x4096 .f32) (v6 v10 : Vec Ideal S64x1 .f32)
    (v18 : Vec Ideal S1x128x1 .f32) (u : Fin 1) (ch : Fin 128) (w : Fin 1) :
    k4_pay5 (F := Ideal) v3 v4 v6 v10 v18 (ix3 u ch w)
      = v18 (ix3 (0 : Fin 1) ch w) + ∑ p : Fin 4096, ∑ k : Fin 64,
          v3 (ix2 ch k) * act (v4 (ix3 (0 : Fin 1) k p)) (v6 (ix2 k (0 : Fin 1))) (v10 (ix2 k (0 : Fin 1))) :=
  (accsum_at (k4_pay4 v3 v4 v6 v10) v18 u ch w).trans
    (congrArg (v18 (ix3 (0 : Fin 1) ch w) + ·) (Finset.sum_congr rfl fun p _ => pay4_at v3 v4 v6 v10 ch p))

/-- The sum accumulator after the block's second row. -/
theorem pay9_at (v3 : Vec Ideal S128x64 .f32) (v35 : Vec Ideal S1x64x4096 .f32) (v37 v41 : Vec Ideal S64x1 .f32)
    (v49 : Vec Ideal S1x128x1 .f32) (u : Fin 1) (ch : Fin 128) (w : Fin 1) :
    k4_pay9 (F := Ideal) v3 v35 v37 v41 v49 (ix3 u ch w)
      = v49 (ix3 (0 : Fin 1) ch w) + ∑ p : Fin 4096, ∑ k : Fin 64,
          v3 (ix2 ch k) * act (v35 (ix3 (0 : Fin 1) k p)) (v37 (ix2 k (0 : Fin 1))) (v41 (ix2 k (0 : Fin 1))) :=
  (accsum_at (k4_pay8 v3 v35 v37 v41) v49 u ch w).trans
    (congrArg (v49 (ix3 (0 : Fin 1) ch w) + ·) (Finset.sum_congr rfl fun p _ => pay8_at v3 v35 v37 v41 ch p))

/-- The sum-of-squares accumulator, as a column, after the block's first row. -/
theorem pay6_at (v3 : Vec Ideal S128x64 .f32) (v4 : Vec Ideal S1x64x4096 .f32) (v6 v10 : Vec Ideal S64x1 .f32)
    (v26 : Vec Ideal S1x128x1 .f32) (ch : Fin 128) (w : Fin 1) :
    k4_pay6 (F := Ideal) v3 v4 v6 v10 v26 (ix2 ch w)
      = v26 (ix3 (0 : Fin 1) ch w) + ∑ p : Fin 4096,
          (∑ k : Fin 64, v3 (ix2 ch k) * act (v4 (ix3 (0 : Fin 1) k p)) (v6 (ix2 k (0 : Fin 1))) (v10 (ix2 k (0 : Fin 1))))
          * (∑ k : Fin 64, v3 (ix2 ch k) * act (v4 (ix3 (0 : Fin 1) k p)) (v6 (ix2 k (0 : Fin 1))) (v10 (ix2 k (0 : Fin 1)))) :=
  (acccol_at (mulf (k4_pay4 v3 v4 v6 v10) (k4_pay4 v3 v4 v6 v10)) v26 ch w).trans
    (congrArg (v26 (ix3 (0 : Fin 1) ch w) + ·) (Finset.sum_congr rfl fun p _ =>
      (mulf_apply _ _ _).trans (by rw [pay4_at v3 v4 v6 v10 ch p])))

/-- The sum-of-squares accumulator, as a column, after the block's second row. -/
theorem pay10_at (v3 : Vec Ideal S128x64 .f32) (v35 : Vec Ideal S1x64x4096 .f32) (v37 v41 : Vec Ideal S64x1 .f32)
    (v57 : Vec Ideal S1x128x1 .f32) (ch : Fin 128) (w : Fin 1) :
    k4_pay10 (F := Ideal) v3 v35 v37 v41 v57 (ix2 ch w)
      = v57 (ix3 (0 : Fin 1) ch w) + ∑ p : Fin 4096,
          (∑ k : Fin 64, v3 (ix2 ch k) * act (v35 (ix3 (0 : Fin 1) k p)) (v37 (ix2 k (0 : Fin 1))) (v41 (ix2 k (0 : Fin 1))))
          * (∑ k : Fin 64, v3 (ix2 ch k) * act (v35 (ix3 (0 : Fin 1) k p)) (v37 (ix2 k (0 : Fin 1))) (v41 (ix2 k (0 : Fin 1)))) :=
  (acccol_at (mulf (k4_pay8 v3 v35 v37 v41) (k4_pay8 v3 v35 v37 v41)) v57 ch w).trans
    (congrArg (v57 (ix3 (0 : Fin 1) ch w) + ·) (Finset.sum_congr rfl fun p _ =>
      (mulf_apply _ _ _).trans (by rw [pay8_at v3 v35 v37 v41 ch p])))

/-- A column stored back as a block `[1,128,1]` (the first row's sum of squares). -/
theorem pay7_at (v31 : FVec Ideal S128x1 .f32) (u : Fin 1) (ch : Fin 128) (w : Fin 1) :
    k4_pay7 (F := Ideal) v31 (ix3 u ch w) = v31 (ix2 ch w) :=
  shapeCast_ab_1ab_apply v31 shapeCasts_S128x1_S1x128x1 u ch w

/-- A column stored back as a block `[1,128,1]` (the second row's sum of squares). -/
theorem pay1_at (v62 : FVec Ideal S128x1 .f32) (u : Fin 1) (ch : Fin 128) (w : Fin 1) :
    k4_pay1 (F := Ideal) v62 (ix3 u ch w) = v62 (ix2 ch w) :=
  shapeCast_ab_1ab_apply v62 shapeCasts_S128x1_S1x128x1 u ch w

/-! ## One grid point: both rows of the block -/

/-- The lane sum of y = W · act(a) for row `i` of a block, at channel `ch`. -/
def Sblk (x1 : S128x64.Idx → EReal) (x0 : S2x64x4096.Idx → EReal) (xs xt : S64x1.Idx → EReal) (i : Fin 2) (ch : Fin 128) : EReal :=
  ∑ p : Fin 4096, ∑ k : Fin 64, x1 (ix2 ch k) * act (x0 (ix3 i k p)) (xs (ix2 k (0 : Fin 1))) (xt (ix2 k (0 : Fin 1)))

/-- The lane sum of y² for row `i` of a block, at channel `ch`. -/
def Qblk (x1 : S128x64.Idx → EReal) (x0 : S2x64x4096.Idx → EReal) (xs xt : S64x1.Idx → EReal) (i : Fin 2) (ch : Fin 128) : EReal :=
  ∑ p : Fin 4096, (∑ k : Fin 64, x1 (ix2 ch k) * act (x0 (ix3 i k p)) (xs (ix2 k (0 : Fin 1))) (xt (ix2 k (0 : Fin 1))))
    * (∑ k : Fin 64, x1 (ix2 ch k) * act (x0 (ix3 i k p)) (xs (ix2 k (0 : Fin 1))) (xt (ix2 k (0 : Fin 1))))

/-- What one grid point leaves in the sum accumulator that held `acc`: the two read-modify-writes of the body. -/
def stepS (x1 : Vec Ideal S128x64 .f32) (x0 : Vec Ideal S2x64x4096 .f32) (xs xt : Vec Ideal S64x1 .f32)
    (acc : Vec Ideal S1x128x1 .f32) : Vec Ideal S1x128x1 .f32 :=
  k4_pay9 x1 (View.ld x0 R1) xs xt (k4_pay5 x1 (View.ld x0 R0) xs xt acc)

/-- What one grid point leaves in the sum-of-squares accumulator that held `acc`. -/
def stepQ (x1 : Vec Ideal S128x64 .f32) (x0 : Vec Ideal S2x64x4096 .f32) (xs xt : Vec Ideal S64x1 .f32)
    (acc : Vec Ideal S1x128x1 .f32) : Vec Ideal S1x128x1 .f32 :=
  k4_pay1 (k4_pay10 x1 (View.ld x0 R1) xs xt (k4_pay7 (k4_pay6 x1 (View.ld x0 R0) xs xt acc)))

/-- The product's row sum with the loaded row written as the block's row. -/
theorem sum_row0 (x1 : Vec Ideal S128x64 .f32) (x0 : Vec Ideal S2x64x4096 .f32) (xs xt : Vec Ideal S64x1 .f32)
    (ch : Fin 128) (p : Fin 4096) :
    (∑ k : Fin 64, x1 (ix2 ch k) * act ((View.ld x0 R0) (ix3 (0 : Fin 1) k p)) (xs (ix2 k (0 : Fin 1))) (xt (ix2 k (0 : Fin 1))))
      = ∑ k : Fin 64, x1 (ix2 ch k) * act (x0 (ix3 (0 : Fin 2) k p)) (xs (ix2 k (0 : Fin 1))) (xt (ix2 k (0 : Fin 1))) :=
  Finset.sum_congr rfl fun k _ => congrArg (fun a => x1 (ix2 ch k) * act a (xs (ix2 k (0 : Fin 1))) (xt (ix2 k (0 : Fin 1))))
    (ld_row0 x0 (0 : Fin 1) k p)

theorem sum_row1 (x1 : Vec Ideal S128x64 .f32) (x0 : Vec Ideal S2x64x4096 .f32) (xs xt : Vec Ideal S64x1 .f32)
    (ch : Fin 128) (p : Fin 4096) :
    (∑ k : Fin 64, x1 (ix2 ch k) * act ((View.ld x0 R1) (ix3 (0 : Fin 1) k p)) (xs (ix2 k (0 : Fin 1))) (xt (ix2 k (0 : Fin 1))))
      = ∑ k : Fin 64, x1 (ix2 ch k) * act (x0 (ix3 (1 : Fin 2) k p)) (xs (ix2 k (0 : Fin 1))) (xt (ix2 k (0 : Fin 1))) :=
  Finset.sum_congr rfl fun k _ => congrArg (fun a => x1 (ix2 ch k) * act a (xs (ix2 k (0 : Fin 1))) (xt (ix2 k (0 : Fin 1))))
    (ld_row1 x0 (0 : Fin 1) k p)

/-- One grid point adds to the sum accumulator the lane sums of the block's two rows, row 0 first. -/
theorem stepS_at (x1 : Vec Ideal S128x64 .f32) (x0 : Vec Ideal S2x64x4096 .f32) (xs xt : Vec Ideal S64x1 .f32)
    (acc : Vec Ideal S1x128x1 .f32) (u : Fin 1) (ch : Fin 128) (w : Fin 1) :
    stepS x1 x0 xs xt acc (ix3 u ch w)
      = (acc (ix3 (0 : Fin 1) ch w) + Sblk x1 x0 xs xt 0 ch) + Sblk x1 x0 xs xt 1 ch := by
  unfold stepS
  refine (pay9_at x1 (View.ld x0 R1) xs xt _ u ch w).trans ?_
  refine congrArg₂ (· + ·) ?_ ?_
  · refine (pay5_at x1 (View.ld x0 R0) xs xt acc (0 : Fin 1) ch w).trans ?_
    refine congrArg (acc (ix3 (0 : Fin 1) ch w) + ·) ?_
    exact Finset.sum_congr rfl fun p _ => sum_row0 x1 x0 xs xt ch p
  · exact Finset.sum_congr rfl fun p _ => sum_row1 x1 x0 xs xt ch p

/-- One grid point adds to the sum-of-squares accumulator the lane sums of y² of the block's two rows, row 0 first. -/
theorem stepQ_at (x1 : Vec Ideal S128x64 .f32) (x0 : Vec Ideal S2x64x4096 .f32) (xs xt : Vec Ideal S64x1 .f32)
    (acc : Vec Ideal S1x128x1 .f32) (u : Fin 1) (ch : Fin 128) (w : Fin 1) :
    stepQ x1 x0 xs xt acc (ix3 u ch w)
      = (acc (ix3 (0 : Fin 1) ch w) + Qblk x1 x0 xs xt 0 ch) + Qblk x1 x0 xs xt 1 ch := by
  unfold stepQ
  refine (pay1_at _ u ch w).trans ?_
  refine (pay10_at x1 (View.ld x0 R1) xs xt _ ch w).trans ?_
  refine congrArg₂ (· + ·) ?_ ?_
  · refine (pay7_at _ (0 : Fin 1) ch w).trans ?_
    refine (pay6_at x1 (View.ld x0 R0) xs xt acc ch w).trans ?_
    refine congrArg (acc (ix3 (0 : Fin 1) ch w) + ·) ?_
    refine Finset.sum_congr rfl fun p _ => ?_
    rw [sum_row0 x1 x0 xs xt ch p]
  · refine Finset.sum_congr rfl fun p _ => ?_
    rw [sum_row1 x1 x0 xs xt ch p]

end Cert.KernelIdeal.KStats4

end
-- ==== Proof.KStats4Val.lean ====
/-
  Region 4 of the idealized kernel (the statistics pass of the third layer), its VALUE: what the two per-core
  accumulator arrays [2,128,1] end holding, as functions of the activation [32,64,4096], the weights [128,64] and the
  per-channel scale and shift [64,1] the region finds. At (core, ch, 0): the sum over the core's eight grid points j, the
  block's two rows i and the 4096 lanes p of y = ∑ₖ W[ch,k] · act(a[(core·8+j)·2+i, k, p], s[k], t[k]) (window 4), and
  of y² (window 5), act the affine map then the leaky rectifier.
  The road: each control case's stored pieces read back as the one-point step (`stepS`, `stepQ`); the staging
  buffers' contents after each point by induction on the point; the flushing point's block; the blocks cover the array.
-/
import proofs.«126831_g2000503633499865_pallasbulk_555_4_alg».proof.Proof.Gen.KernelIdeal.Frame
import proofs.«126831_g2000503633499865_pallasbulk_555_4_alg».proof.Proof.KStats4Pay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KStats4

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-! ## The control cases' stored pieces, read back -/

/-- A later point of a core: the sum accumulator that held `xo4` is left at the one-point step of it. -/
theorem out_B_4 (c : Dev nD) (i : grid4.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : ¬cond4_0 i)
    (x0 : Vec Ideal S2x64x4096 .f32) (x1 : Vec Ideal S128x64 .f32) (x2 x3 : Vec Ideal S64x1 .f32) (xo4 xo5 : Vec Ideal S1x128x1 .f32) :
    out4_B_4 c i a2 h2 a3 h3 a4 h4 a5 h5 a6 h6 a7 h7 hc x0 x1 x2 x3 xo4 xo5 = stepS x1 x0 x2 x3 xo4 := by
  unfold out4_B_4
  rw [View.read_writes_eq_canon _ _ _ (cover4_B_4 c i a2 h2 a3 h3 a4 h4 a5 h5 a6 h6 a7 h7 hc x0 x1 x2 x3 xo4 xo5)]
  unfold kernelRun4_B
  dsimp only
  sl_unfold_words
  rw [View.canon_cons_unit_zero (S := S1x128x1) hz3]
  simp only [View.readAt_eq_ld, h2.read_unread, h3.read_unread, h4.read_unread, h5.read_unread, h6.read_unread,
    h7.read_unread, View.ld_unit_zero (S := S1x128x1) hz3, View.ld_unit_zero (S := S128x64) hz2,
    View.ld_unit_zero (S := S64x1) hz2, View.readCov_unit_zero (S := S1x128x1) _ hz3, View.readCov_cons_toLoadRect]
  rfl

/-- A later point of a core: the sum-of-squares accumulator that held `xo5` is left at the one-point step of it. -/
theorem out_B_5 (c : Dev nD) (i : grid4.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : ¬cond4_0 i)
    (x0 : Vec Ideal S2x64x4096 .f32) (x1 : Vec Ideal S128x64 .f32) (x2 x3 : Vec Ideal S64x1 .f32) (xo4 xo5 : Vec Ideal S1x128x1 .f32) :
    out4_B_5 c i a2 h2 a3 h3 a4 h4 a5 h5 a6 h6 a7 h7 hc x0 x1 x2 x3 xo4 xo5 = stepQ x1 x0 x2 x3 xo5 := by
  unfold out4_B_5
  rw [View.read_writes_eq_canon _ _ _ (cover4_B_5 c i a2 h2 a3 h3 a4 h4 a5 h5 a6 h6 a7 h7 hc x0 x1 x2 x3 xo4 xo5)]
  unfold kernelRun4_B
  dsimp only
  sl_unfold_words
  rw [View.canon_cons_unit_zero (S := S1x128x1) hz3]
  simp only [View.readAt_eq_ld, h2.read_unread, h3.read_unread, h4.read_unread, h5.read_unread, h6.read_unread,
    h7.read_unread, View.ld_unit_zero (S := S1x128x1) hz3, View.ld_unit_zero (S := S128x64) hz2,
    View.ld_unit_zero (S := S64x1) hz2, View.readCov_unit_zero (S := S1x128x1) _ hz3, View.readCov_cons_toLoadRect]
  rfl

/-- The first point of a core: the sum accumulator is zeroed, then stepped. -/
theorem out_A_4 (c : Dev nD) (i : grid4.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : cond4_0 i)
    (x0 : Vec Ideal S2x64x4096 .f32) (x1 : Vec Ideal S128x64 .f32) (x2 x3 : Vec Ideal S64x1 .f32) :
    out4_A_4 c i a2 h2 a3 h3 a4 h4 a5 h5 a6 h6 a7 h7 hc x0 x1 x2 x3 = stepS x1 x0 x2 x3 (k4_pay2 (F := Ideal)) := by
  unfold out4_A_4
  rw [View.read_writes_eq_canon _ _ _ (cover4_A_4 c i a2 h2 a3 h3 a4 h4 a5 h5 a6 h6 a7 h7 hc x0 x1 x2 x3)]
  unfold kernelRun4_A
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.ld_unit_zero (S := S64x1) hz2, View.readCov_unit_zero (S := S1x128x1) _ hz3, View.readCov_cons_toLoadRect]
  rfl

/-- The first point of a core: the sum-of-squares accumulator is zeroed, then stepped. -/
theorem out_A_5 (c : Dev nD) (i : grid4.Coords) (a2 : Memref sig .tc .vmem S2x64x4096 .f32) (h2 : a2.IsWhole) (a3 : Memref sig .tc .vmem S128x64 .f32) (h3 : a3.IsWhole) (a4 : Memref sig .tc .vmem S64x1 .f32) (h4 : a4.IsWhole) (a5 : Memref sig .tc .vmem S64x1 .f32) (h5 : a5.IsWhole) (a6 : Memref sig .tc .vmem S1x128x1 .f32) (h6 : a6.IsWhole) (a7 : Memref sig .tc .vmem S1x128x1 .f32) (h7 : a7.IsWhole) (hc : cond4_0 i)
    (x0 : Vec Ideal S2x64x4096 .f32) (x1 : Vec Ideal S128x64 .f32) (x2 x3 : Vec Ideal S64x1 .f32) :
    out4_A_5 c i a2 h2 a3 h3 a4 h4 a5 h5 a6 h6 a7 h7 hc x0 x1 x2 x3 = stepQ x1 x0 x2 x3 (k4_pay3 (F := Ideal)) := by
  unfold out4_A_5
  rw [View.read_writes_eq_canon _ _ _ (cover4_A_5 c i a2 h2 a3 h3 a4 h4 a5 h5 a6 h6 a7 h7 hc x0 x1 x2 x3)]
  unfold kernelRun4_A
  dsimp only
  sl_unfold_words
  rw [View.canon_cons_unit_zero (S := S1x128x1) hz3]
  simp only [View.readAt_eq_ld, h2.read_unread, h3.read_unread, h4.read_unread, h5.read_unread,
    View.ld_unit_zero (S := S1x128x1) hz3, View.ld_unit_zero (S := S128x64) hz2,
    View.ld_unit_zero (S := S64x1) hz2, View.readCov_unit_zero (S := S1x128x1) _ hz3, View.readCov_cons_toLoadRect]
  rfl

/-! ## The blocks a point reads, as elements of the arrays -/

variable (V : (c : Dev nD) → (b : Ref sig .tc) → Buf (Elt Ideal) ((c : Thread nD τ).loc b))

/-- The printed index maps, decided over the grid: the activation's block at point `t` is rows 2t, 2t+1; the weights',
    the scale's and the shift's blocks are the whole arrays; the accumulators' block is row t / 8. -/
theorem idx_facts : ∀ t : Fin cfg4.N, win4_0.index t (0 : Fin 3) = t.val ∧ win4_0.index t (1 : Fin 3) = 0
    ∧ win4_0.index t (2 : Fin 3) = 0 ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 3) = t.val / 8 ∧ win4_4.index t (1 : Fin 3) = 0 ∧ win4_4.index t (2 : Fin 3) = 0
    ∧ win4_5.index t (0 : Fin 3) = t.val / 8 ∧ win4_5.index t (1 : Fin 3) = 0 ∧ win4_5.index t (2 : Fin 3) = 0 :=
  (by decide +kernel : ∀ t : Fin grid4.N, _)

/-- Row `2n + i` of the activation: row `i` of the block at point `n`. -/
def rowAt (n : ℕ) (i : Fin 2) (h : n < 16) : Fin 32 := ⟨n * 2 + i.val, by have := i.isLt; omega⟩

/-- The activation's block at point `t`, at `(i, k, p)`: the array at row `2t + i`. -/
theorem blkA_at (c : Dev nD) (t : Fin cfg4.N) (ht : t.val < 16) (i : Fin 2) (k : Fin 64) (p : Fin 4096) :
    iblk4 V c 0 t (ix3 i k p) = V c (Pipeline.arrRef spec4 0) (ix3 (rowAt t.val i ht) k p) := by
  obtain ⟨e0, e1, e2, -⟩ := idx_facts t
  show V c (Pipeline.arrRef spec4 0) (((cfg4.win 0).blk t).view.emb (ix3 i k p)) = _
  refine congrArg _ (funext fun a => Fin.ext ?_)
  match a with
  | ⟨0, _⟩ => show win4_0.index t (0 : Fin 3) * 2 + 1 * i.val = t.val * 2 + i.val; rw [e0]; omega
  | ⟨1, _⟩ => show win4_0.index t (1 : Fin 3) * 64 + 1 * k.val = k.val; rw [e1]; omega
  | ⟨2, _⟩ => show win4_0.index t (2 : Fin 3) * 4096 + 1 * p.val = p.val; rw [e2]; omega

/-- The weights' block at any point is the array. -/
theorem blkW_at (c : Dev nD) (t : Fin cfg4.N) (ch : Fin 128) (k : Fin 64) :
    iblk4 V c 1 t (ix2 ch k) = V c (Pipeline.arrRef spec4 1) (ix2 ch k) := by
  obtain ⟨-, -, -, e0, e1, -⟩ := idx_facts t
  show V c (Pipeline.arrRef spec4 1) (((cfg4.win 1).blk t).view.emb (ix2 ch k)) = _
  refine congrArg _ (funext fun a => Fin.ext ?_)
  match a with
  | ⟨0, _⟩ => show win4_1.index t (0 : Fin 2) * 128 + 1 * ch.val = ch.val; rw [e0]; omega
  | ⟨1, _⟩ => show win4_1.index t (1 : Fin 2) * 64 + 1 * k.val = k.val; rw [e1]; omega

/-- The scale's block at any point is the array. -/
theorem blkS_at (c : Dev nD) (t : Fin cfg4.N) (k : Fin 64) (z : Fin 1) :
    iblk4 V c 2 t (ix2 k z) = V c (Pipeline.arrRef spec4 2) (ix2 k z) := by
  obtain ⟨-, -, -, -, -, f0, f1, g0, g1, -⟩ := idx_facts t
  show V c (Pipeline.arrRef spec4 2) (((cfg4.win 2).blk t).view.emb (ix2 k z)) = _
  refine congrArg _ (funext fun a => Fin.ext ?_)
  match a with
  | ⟨0, _⟩ => show win4_2.index t (0 : Fin 2) * 64 + 1 * k.val = k.val; rw [f0]; omega
  | ⟨1, _⟩ => show win4_2.index t (1 : Fin 2) * 1 + 1 * z.val = z.val; rw [f1]; omega

/-- The shift's block at any point is the array. -/
theorem blkT_at (c : Dev nD) (t : Fin cfg4.N) (k : Fin 64) (z : Fin 1) :
    iblk4 V c 3 t (ix2 k z) = V c (Pipeline.arrRef spec4 3) (ix2 k z) := by
  obtain ⟨-, -, -, -, -, f0, f1, g0, g1, -⟩ := idx_facts t
  show V c (Pipeline.arrRef spec4 3) (((cfg4.win 3).blk t).view.emb (ix2 k z)) = _
  refine congrArg _ (funext fun a => Fin.ext ?_)
  match a with
  | ⟨0, _⟩ => show win4_3.index t (0 : Fin 2) * 64 + 1 * k.val = k.val; rw [g0]; omega
  | ⟨1, _⟩ => show win4_3.index t (1 : Fin 2) * 1 + 1 * z.val = z.val; rw [g1]; omega

/-! ## The value, index by index -/

/-- The lane sum of y = W · act(a) for row `r` of the activation, at channel `ch`. -/
def S (a : S32x64x4096.Idx → EReal) (w : S128x64.Idx → EReal) (s t : S64x1.Idx → EReal) (r : Fin 32) (ch : Fin 128) : EReal :=
  ∑ p : Fin 4096, ∑ k : Fin 64, w (ix2 ch k) * act (a (ix3 r k p)) (s (ix2 k (0 : Fin 1))) (t (ix2 k (0 : Fin 1)))

/-- The lane sum of y² for row `r` of the activation, at channel `ch`. -/
def Q (a : S32x64x4096.Idx → EReal) (w : S128x64.Idx → EReal) (s t : S64x1.Idx → EReal) (r : Fin 32) (ch : Fin 128) : EReal :=
  ∑ p : Fin 4096, (∑ k : Fin 64, w (ix2 ch k) * act (a (ix3 r k p)) (s (ix2 k (0 : Fin 1))) (t (ix2 k (0 : Fin 1))))
    * (∑ k : Fin 64, w (ix2 ch k) * act (a (ix3 r k p)) (s (ix2 k (0 : Fin 1))) (t (ix2 k (0 : Fin 1))))

/-- Row `(core·8 + j)·2 + i` of the activation: row `i` of the block at point `j` of core `core`. -/
def row (core : Fin 2) (j : Fin 8) (i : Fin 2) : Fin 32 :=
  ⟨(core.val * 8 + j.val) * 2 + i.val, by have := core.isLt; have := j.isLt; have := i.isLt; omega⟩

/-- WINDOW 4's array after the region: per core and channel, the sum over the core's points and the block's rows of the
    lane sums of y. -/
def GK4_4 (a : S32x64x4096.Idx → EReal) (w : S128x64.Idx → EReal) (s t : S64x1.Idx → EReal) : S2x128x1.Idx → EReal :=
  fun idx => ∑ j : Fin 8, (S a w s t (row (idx 0) j 0) (idx 1) + S a w s t (row (idx 0) j 1) (idx 1))

/-- WINDOW 5's array after the region: the same of y². -/
def GK4_5 (a : S32x64x4096.Idx → EReal) (w : S128x64.Idx → EReal) (s t : S64x1.Idx → EReal) : S2x128x1.Idx → EReal :=
  fun idx => ∑ j : Fin 8, (Q a w s t (row (idx 0) j 0) (idx 1) + Q a w s t (row (idx 0) j 1) (idx 1))

/-- y at `(ch, p)` for row `i` of a block. -/
def dotb (x1 : S128x64.Idx → EReal) (x0 : S2x64x4096.Idx → EReal) (xs xt : S64x1.Idx → EReal) (i : Fin 2) (ch : Fin 128)
    (p : Fin 4096) : EReal :=
  ∑ k : Fin 64, x1 (ix2 ch k) * act (x0 (ix3 i k p)) (xs (ix2 k (0 : Fin 1))) (xt (ix2 k (0 : Fin 1)))

/-- y at `(ch, p)` for row `r` of the activation. -/
def dota (a : S32x64x4096.Idx → EReal) (w : S128x64.Idx → EReal) (s t : S64x1.Idx → EReal) (r : Fin 32) (ch : Fin 128)
    (p : Fin 4096) : EReal :=
  ∑ k : Fin 64, w (ix2 ch k) * act (a (ix3 r k p)) (s (ix2 k (0 : Fin 1))) (t (ix2 k (0 : Fin 1)))

/-- One row's product, block against array. -/
theorem dot_eq (c : Dev nD) (t : Fin cfg4.N) (ht : t.val < 16) (i : Fin 2) (ch : Fin 128) (p : Fin 4096) :
    dotb (iblk4 V c 1 t) (iblk4 V c 0 t) (iblk4 V c 2 t) (iblk4 V c 3 t) i ch p
      = dota (V c (Pipeline.arrRef spec4 0)) (V c (Pipeline.arrRef spec4 1)) (V c (Pipeline.arrRef spec4 2)) (V c (Pipeline.arrRef spec4 3)) (rowAt t.val i ht) ch p := by
  unfold dotb dota
  exact Finset.sum_congr rfl fun k _ => by
    rw [blkW_at V c t ch k, blkA_at V c t ht i k p, blkS_at V c t k (0 : Fin 1), blkT_at V c t k (0 : Fin 1)]

/-- A block's lane sum is the arrays' at the block's row. -/
theorem Sblk_eq (c : Dev nD) (t : Fin cfg4.N) (ht : t.val < 16) (i : Fin 2) (ch : Fin 128) :
    Sblk (iblk4 V c 1 t) (iblk4 V c 0 t) (iblk4 V c 2 t) (iblk4 V c 3 t) i ch
      = S (V c (Pipeline.arrRef spec4 0)) (V c (Pipeline.arrRef spec4 1)) (V c (Pipeline.arrRef spec4 2)) (V c (Pipeline.arrRef spec4 3)) (rowAt t.val i ht) ch := by
  unfold Sblk S
  exact Finset.sum_congr rfl fun p _ => dot_eq V c t ht i ch p

theorem Qblk_eq (c : Dev nD) (t : Fin cfg4.N) (ht : t.val < 16) (i : Fin 2) (ch : Fin 128) :
    Qblk (iblk4 V c 1 t) (iblk4 V c 0 t) (iblk4 V c 2 t) (iblk4 V c 3 t) i ch
      = Q (V c (Pipeline.arrRef spec4 0)) (V c (Pipeline.arrRef spec4 1)) (V c (Pipeline.arrRef spec4 2)) (V c (Pipeline.arrRef spec4 3)) (rowAt t.val i ht) ch := by
  unfold Qblk Q
  exact Finset.sum_congr rfl fun p _ => congrArg₂ (· * ·) (dot_eq V c t ht i ch p) (dot_eq V c t ht i ch p)

/-- Point `n`'s addend to the sum accumulator: the lane sums of its block's two rows. -/
def MS (a : S32x64x4096.Idx → EReal) (w : S128x64.Idx → EReal) (s t : S64x1.Idx → EReal) (n : ℕ) (ch : Fin 128) : EReal :=
  if h : n < 16 then S a w s t (rowAt n 0 h) ch + S a w s t (rowAt n 1 h) ch else 0

/-- Point `n`'s addend to the sum-of-squares accumulator. -/
def MQ (a : S32x64x4096.Idx → EReal) (w : S128x64.Idx → EReal) (s t : S64x1.Idx → EReal) (n : ℕ) (ch : Fin 128) : EReal :=
  if h : n < 16 then Q a w s t (rowAt n 0 h) ch + Q a w s t (rowAt n 1 h) ch else 0

/-! ## What the staging buffers hold after each point -/

theorem sum_A (c : Dev nD) (t : Fin cfg4.N) (h0 : t.val % 8 = 0) (u : Fin 1) (ch : Fin 128) (w : Fin 1) :
    (outsAt4 V c t.val t.isLt).1 (ix3 u ch w)
      = Ideal.ofBits .f32 0x00000000#32 + MS (V c (Pipeline.arrRef spec4 0)) (V c (Pipeline.arrRef spec4 1)) (V c (Pipeline.arrRef spec4 2)) (V c (Pipeline.arrRef spec4 3)) t.val ch := by
  have ht : t.val < 16 := lt_of_lt_of_eq t.isLt (show cfg4.N = 16 from N_4)
  rw [outsAt4_A V c t h0]
  dsimp only
  rw [out_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t)]
  rw [stepS_at, pay2_at, Sblk_eq V c t ht, Sblk_eq V c t ht, add_assoc]
  unfold MS
  rw [dif_pos ht]

theorem sum_B (c : Dev nD) (t : Fin cfg4.N) (h0 : ¬t.val % 8 = 0) (u : Fin 1) (ch : Fin 128) (w : Fin 1) :
    (outsAt4 V c t.val t.isLt).1 (ix3 u ch w)
      = (outsAt4 V c (t.val - 1) (Nat.lt_of_le_of_lt (Nat.sub_le _ _) t.isLt)).1 (ix3 (0 : Fin 1) ch w)
        + MS (V c (Pipeline.arrRef spec4 0)) (V c (Pipeline.arrRef spec4 1)) (V c (Pipeline.arrRef spec4 2)) (V c (Pipeline.arrRef spec4 3)) t.val ch := by
  have ht : t.val < 16 := lt_of_lt_of_eq t.isLt (show cfg4.N = 16 from N_4)
  rw [outsAt4_B V c t h0]
  dsimp only
  rw [out_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t)]
  rw [stepS_at, Sblk_eq V c t ht, Sblk_eq V c t ht, add_assoc]
  unfold MS
  rw [dif_pos ht]

theorem ssq_A (c : Dev nD) (t : Fin cfg4.N) (h0 : t.val % 8 = 0) (u : Fin 1) (ch : Fin 128) (w : Fin 1) :
    (outsAt4 V c t.val t.isLt).2 (ix3 u ch w)
      = Ideal.ofBits .f32 0x00000000#32 + MQ (V c (Pipeline.arrRef spec4 0)) (V c (Pipeline.arrRef spec4 1)) (V c (Pipeline.arrRef spec4 2)) (V c (Pipeline.arrRef spec4 3)) t.val ch := by
  have ht : t.val < 16 := lt_of_lt_of_eq t.isLt (show cfg4.N = 16 from N_4)
  rw [outsAt4_A V c t h0]
  dsimp only
  rw [out_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t)]
  rw [stepQ_at, pay3_at, Qblk_eq V c t ht, Qblk_eq V c t ht, add_assoc]
  unfold MQ
  rw [dif_pos ht]

theorem ssq_B (c : Dev nD) (t : Fin cfg4.N) (h0 : ¬t.val % 8 = 0) (u : Fin 1) (ch : Fin 128) (w : Fin 1) :
    (outsAt4 V c t.val t.isLt).2 (ix3 u ch w)
      = (outsAt4 V c (t.val - 1) (Nat.lt_of_le_of_lt (Nat.sub_le _ _) t.isLt)).2 (ix3 (0 : Fin 1) ch w)
        + MQ (V c (Pipeline.arrRef spec4 0)) (V c (Pipeline.arrRef spec4 1)) (V c (Pipeline.arrRef spec4 2)) (V c (Pipeline.arrRef spec4 3)) t.val ch := by
  have ht : t.val < 16 := lt_of_lt_of_eq t.isLt (show cfg4.N = 16 from N_4)
  rw [outsAt4_B V c t h0]
  dsimp only
  rw [out_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t)]
  rw [stepQ_at, Qblk_eq V c t ht, Qblk_eq V c t ht, add_assoc]
  unfold MQ
  rw [dif_pos ht]

set_option maxHeartbeats 4000000 in
/-- THE SUM ACCUMULATOR after point `n`: zero plus the addends of the core's points up to `n`. -/
theorem sum_inv (c : Dev nD) (ch : Fin 128) : ∀ (n : ℕ) (hn : n < cfg4.N) (u w : Fin 1),
    (outsAt4 V c n hn).1 (ix3 u ch w)
      = Ideal.ofBits .f32 0x00000000#32 + ∑ s ∈ Finset.range (n % 8 + 1),
          MS (V c (Pipeline.arrRef spec4 0)) (V c (Pipeline.arrRef spec4 1)) (V c (Pipeline.arrRef spec4 2)) (V c (Pipeline.arrRef spec4 3)) (n / 8 * 8 + s) ch := by
  have hA : ∀ (n : ℕ) (hn : n < cfg4.N), n % 8 = 0 → ∀ (u w : Fin 1),
      (outsAt4 V c n hn).1 (ix3 u ch w)
        = Ideal.ofBits .f32 0x00000000#32 + ∑ s ∈ Finset.range (n % 8 + 1),
            MS (V c (Pipeline.arrRef spec4 0)) (V c (Pipeline.arrRef spec4 1)) (V c (Pipeline.arrRef spec4 2)) (V c (Pipeline.arrRef spec4 3)) (n / 8 * 8 + s) ch := by
    intro n hn h0 u w
    rw [sum_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [sum_B V c ⟨m + 1, hn⟩ h0 u ch w]
      show (outsAt4 V c m _).1 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

set_option maxHeartbeats 4000000 in
/-- THE SUM-OF-SQUARES ACCUMULATOR after point `n`. -/
theorem ssq_inv (c : Dev nD) (ch : Fin 128) : ∀ (n : ℕ) (hn : n < cfg4.N) (u w : Fin 1),
    (outsAt4 V c n hn).2 (ix3 u ch w)
      = Ideal.ofBits .f32 0x00000000#32 + ∑ s ∈ Finset.range (n % 8 + 1),
          MQ (V c (Pipeline.arrRef spec4 0)) (V c (Pipeline.arrRef spec4 1)) (V c (Pipeline.arrRef spec4 2)) (V c (Pipeline.arrRef spec4 3)) (n / 8 * 8 + s) ch := by
  have hA : ∀ (n : ℕ) (hn : n < cfg4.N), n % 8 = 0 → ∀ (u w : Fin 1),
      (outsAt4 V c n hn).2 (ix3 u ch w)
        = Ideal.ofBits .f32 0x00000000#32 + ∑ s ∈ Finset.range (n % 8 + 1),
            MQ (V c (Pipeline.arrRef spec4 0)) (V c (Pipeline.arrRef spec4 1)) (V c (Pipeline.arrRef spec4 2)) (V c (Pipeline.arrRef spec4 3)) (n / 8 * 8 + s) ch := by
    intro n hn h0 u w
    rw [ssq_A V c ⟨n, hn⟩ h0 u ch w, h0, Nat.zero_add, Finset.sum_range_one]
    have e : n / 8 * 8 + 0 = n := by omega
    rw [e]
  intro n
  induction n with
  | zero => intro hn u w; exact hA 0 hn rfl u w
  | succ m ih =>
    intro hn u w
    by_cases h0 : (m + 1) % 8 = 0
    · exact hA (m + 1) hn h0 u w
    · rw [ssq_B V c ⟨m + 1, hn⟩ h0 u ch w]
      show (outsAt4 V c m _).2 (ix3 (0 : Fin 1) ch w) + _ = _
      rw [ih (Nat.lt_of_succ_lt hn) (0 : Fin 1) w]
      have e1 : (m + 1) % 8 = m % 8 + 1 := by omega
      have e2 : (m + 1) / 8 = m / 8 := by omega
      have e3 : m / 8 * 8 + (m % 8 + 1) = m + 1 := by omega
      rw [e1, e2, Finset.sum_range_succ _ (m % 8 + 1), e3, add_assoc]

/-- The eight addends of a core, as the sum over its points. -/
theorem sum_core (a : S32x64x4096.Idx → EReal) (w : S128x64.Idx → EReal) (s t : S64x1.Idx → EReal) (core : Fin 2) (ch : Fin 128) :
    Ideal.ofBits .f32 0x00000000#32 + ∑ j ∈ Finset.range 8, MS a w s t (core.val * 8 + j) ch
      = ∑ j : Fin 8, (S a w s t (row core j 0) ch + S a w s t (row core j 1) ch) := by
  rw [Ideal.ofBits_zero_f32, zero_add, Finset.sum_range]
  refine Finset.sum_congr rfl fun j _ => ?_
  have h : core.val * 8 + j.val < 16 := by have := core.isLt; have := j.isLt; omega
  unfold MS
  rw [dif_pos h]
  rfl

theorem ssq_core (a : S32x64x4096.Idx → EReal) (w : S128x64.Idx → EReal) (s t : S64x1.Idx → EReal) (core : Fin 2) (ch : Fin 128) :
    Ideal.ofBits .f32 0x00000000#32 + ∑ j ∈ Finset.range 8, MQ a w s t (core.val * 8 + j) ch
      = ∑ j : Fin 8, (Q a w s t (row core j 0) ch + Q a w s t (row core j 1) ch) := by
  rw [Ideal.ofBits_zero_f32, zero_add, Finset.sum_range]
  refine Finset.sum_congr rfl fun j _ => ?_
  have h : core.val * 8 + j.val < 16 := by have := core.isLt; have := j.isLt; omega
  unfold MQ
  rw [dif_pos h]
  rfl

/-! ## From the flushed blocks to the arrays -/

set_option maxHeartbeats 4000000 in
/-- WHAT A FLUSHING POINT WRITES BACK to window 4 is its block of `GK4_4`. -/
theorem flushed_4 (c : Dev nD) (t : Fin cfg4.N) (hf : (cfg4.win 4).flush t = true) :
    (dat4 V c).flushed 4 t = ((cfg4.win 4).blk t).view.read (Elt Ideal)
      (GK4_4 (V c (Pipeline.arrRef spec4 0)) (V c (Pipeline.arrRef spec4 1)) (V c (Pipeline.arrRef spec4 2)) (V c (Pipeline.arrRef spec4 3))) := by
  have hN : t.val < 16 := lt_of_lt_of_eq t.isLt (show cfg4.N = 16 from N_4)
  have h7 : t.val % 8 = 7 := (flush4_4 t).mp hf
  obtain ⟨-, -, -, -, -, -, -, -, -, e0, e1, e2, -⟩ := idx_facts t
  show (cfg4.win 4).cut (grid4.coords t) ((dat4 V c).after 4 t) = _
  rw [after4_4]
  funext y
  obtain ⟨u, ch, w, rfl⟩ : ∃ (u : Fin 1) (ch : Fin 128) (w : Fin 1), y = ix3 u ch w := ⟨y 0, y 1, y 2, eq_ix3 y⟩
  show (outsAt4 V c t.val t.isLt).1 (ix3 u ch w)
    = GK4_4 (V c (Pipeline.arrRef spec4 0)) (V c (Pipeline.arrRef spec4 1)) (V c (Pipeline.arrRef spec4 2)) (V c (Pipeline.arrRef spec4 3)) (((cfg4.win 4).blk t).view.emb (ix3 u ch w))
  have hemb : ((cfg4.win 4).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win4_4.index t (0 : Fin 3) * 1 + 1 * u.val = t.val / 8; rw [e0]; omega
    | ⟨1, _⟩ => show win4_4.index t (1 : Fin 3) * 128 + 1 * ch.val = ch.val; rw [e1]; omega
    | ⟨2, _⟩ => show win4_4.index t (2 : Fin 3) * 1 + 1 * w.val = 0; rw [e2]; omega
  rw [hemb, sum_inv V c ch t.val t.isLt u w, h7]
  exact sum_core (V c (Pipeline.arrRef spec4 0)) (V c (Pipeline.arrRef spec4 1)) (V c (Pipeline.arrRef spec4 2)) (V c (Pipeline.arrRef spec4 3)) (⟨t.val / 8, by omega⟩ : Fin 2) ch

set_option maxHeartbeats 4000000 in
/-- WHAT A FLUSHING POINT WRITES BACK to window 5 is its block of `GK4_5`. -/
theorem flushed_5 (c : Dev nD) (t : Fin cfg4.N) (hf : (cfg4.win 5).flush t = true) :
    (dat4 V c).flushed 5 t = ((cfg4.win 5).blk t).view.read (Elt Ideal)
      (GK4_5 (V c (Pipeline.arrRef spec4 0)) (V c (Pipeline.arrRef spec4 1)) (V c (Pipeline.arrRef spec4 2)) (V c (Pipeline.arrRef spec4 3))) := by
  have hN : t.val < 16 := lt_of_lt_of_eq t.isLt (show cfg4.N = 16 from N_4)
  have h7 : t.val % 8 = 7 := (flush4_5 t).mp hf
  obtain ⟨-, -, -, -, -, -, -, -, -, -, -, -, e0, e1, e2⟩ := idx_facts t
  show (cfg4.win 5).cut (grid4.coords t) ((dat4 V c).after 5 t) = _
  rw [after4_5]
  funext y
  obtain ⟨u, ch, w, rfl⟩ : ∃ (u : Fin 1) (ch : Fin 128) (w : Fin 1), y = ix3 u ch w := ⟨y 0, y 1, y 2, eq_ix3 y⟩
  show (outsAt4 V c t.val t.isLt).2 (ix3 u ch w)
    = GK4_5 (V c (Pipeline.arrRef spec4 0)) (V c (Pipeline.arrRef spec4 1)) (V c (Pipeline.arrRef spec4 2)) (V c (Pipeline.arrRef spec4 3)) (((cfg4.win 5).blk t).view.emb (ix3 u ch w))
  have hemb : ((cfg4.win 5).blk t).view.emb (ix3 u ch w) = ix3 (⟨t.val / 8, by omega⟩ : Fin 2) ch (0 : Fin 1) := by
    funext a; apply Fin.ext
    have hu : u.val = 0 := by omega
    have hw : w.val = 0 := by omega
    match a with
    | ⟨0, _⟩ => show win4_5.index t (0 : Fin 3) * 1 + 1 * u.val = t.val / 8; rw [e0]; omega
    | ⟨1, _⟩ => show win4_5.index t (1 : Fin 3) * 128 + 1 * ch.val = ch.val; rw [e1]; omega
    | ⟨2, _⟩ => show win4_5.index t (2 : Fin 3) * 1 + 1 * w.val = 0; rw [e2]; omega
  rw [hemb, ssq_inv V c ch t.val t.isLt u w, h7]
  exact ssq_core (V c (Pipeline.arrRef spec4 0)) (V c (Pipeline.arrRef spec4 1)) (V c (Pipeline.arrRef spec4 2)) (V c (Pipeline.arrRef spec4 3)) (⟨t.val / 8, by omega⟩ : Fin 2) ch

/-- The last point of core `r`. -/
def lastPt (r : Fin 2) : Fin cfg4.N := ⟨r.val * 8 + 7, by rw [show cfg4.N = 16 from N_4]; have := r.isLt; omega⟩

/-- Every index of window 4's array is in the block of its row's last point. -/
theorem cover_4 (i : S2x128x1.Idx) :
    ∃ t : Fin cfg4.N, (cfg4.win 4).flush t = true ∧ i ∈ ((cfg4.win 4).blk t).view.set := by
  have h0 : (i 0).val < 2 := (i 0).isLt
  have h1 : (i 1).val < 128 := (i 1).isLt
  have h2 : (i 2).val < 1 := (i 2).isLt
  refine ⟨lastPt ⟨(i 0).val, h0⟩, (flush4_4 _).mpr (by show ((i 0).val * 8 + 7) % 8 = 7; omega), ?_⟩
  obtain ⟨-, -, -, -, -, -, -, -, -, e0, e1, e2, -⟩ := idx_facts (lastPt ⟨(i 0).val, h0⟩)
  have ev : (lastPt ⟨(i 0).val, h0⟩).val / 8 = (i 0).val := by show ((i 0).val * 8 + 7) / 8 = (i 0).val; omega
  show i ∈ ((View.whole main_v73_0).slice (win4_4.rect (lastPt ⟨(i 0).val, h0⟩))).set
  rw [View.set_slice_whole, Rect.mem_set_unit]
  intro a
  match a with
  | ⟨0, _⟩ =>
    show win4_4.index (lastPt ⟨(i 0).val, h0⟩) (0 : Fin 3) * 1 ≤ (i 0).val
      ∧ (i 0).val < win4_4.index (lastPt ⟨(i 0).val, h0⟩) (0 : Fin 3) * 1 + 1
    rw [e0, ev]; omega
  | ⟨1, _⟩ =>
    show win4_4.index (lastPt ⟨(i 0).val, h0⟩) (1 : Fin 3) * 128 ≤ (i 1).val
      ∧ (i 1).val < win4_4.index (lastPt ⟨(i 0).val, h0⟩) (1 : Fin 3) * 128 + 128
    rw [e1]; omega
  | ⟨2, _⟩ =>
    show win4_4.index (lastPt ⟨(i 0).val, h0⟩) (2 : Fin 3) * 1 ≤ (i 2).val
      ∧ (i 2).val < win4_4.index (lastPt ⟨(i 0).val, h0⟩) (2 : Fin 3) * 1 + 1
    rw [e2]; omega

/-- Every index of window 5's array is in the block of its row's last point. -/
theorem cover_5 (i : S2x128x1.Idx) :
    ∃ t : Fin cfg4.N, (cfg4.win 5).flush t = true ∧ i ∈ ((cfg4.win 5).blk t).view.set := by
  have h0 : (i 0).val < 2 := (i 0).isLt
  have h1 : (i 1).val < 128 := (i 1).isLt
  have h2 : (i 2).val < 1 := (i 2).isLt
  refine ⟨lastPt ⟨(i 0).val, h0⟩, (flush4_5 _).mpr (by show ((i 0).val * 8 + 7) % 8 = 7; omega), ?_⟩
  obtain ⟨-, -, -, -, -, -, -, -, -, -, -, -, e0, e1, e2⟩ := idx_facts (lastPt ⟨(i 0).val, h0⟩)
  have ev : (lastPt ⟨(i 0).val, h0⟩).val / 8 = (i 0).val := by show ((i 0).val * 8 + 7) / 8 = (i 0).val; omega
  show i ∈ ((View.whole main_v73_1).slice (win4_5.rect (lastPt ⟨(i 0).val, h0⟩))).set
  rw [View.set_slice_whole, Rect.mem_set_unit]
  intro a
  match a with
  | ⟨0, _⟩ =>
    show win4_5.index (lastPt ⟨(i 0).val, h0⟩) (0 : Fin 3) * 1 ≤ (i 0).val
      ∧ (i 0).val < win4_5.index (lastPt ⟨(i 0).val, h0⟩) (0 : Fin 3) * 1 + 1
    rw [e0, ev]; omega
  | ⟨1, _⟩ =>
    show win4_5.index (lastPt ⟨(i 0).val, h0⟩) (1 : Fin 3) * 128 ≤ (i 1).val
      ∧ (i 1).val < win4_5.index (lastPt ⟨(i 0).val, h0⟩) (1 : Fin 3) * 128 + 128
    rw [e1]; omega
  | ⟨2, _⟩ =>
    show win4_5.index (lastPt ⟨(i 0).val, h0⟩) (2 : Fin 3) * 1 ≤ (i 2).val
      ∧ (i 2).val < win4_5.index (lastPt ⟨(i 0).val, h0⟩) (2 : Fin 3) * 1 + 1
    rw [e2]; omega

/-- WINDOW 4's ARRAY AFTER THE REGION. -/
theorem arrAt_4 (c : Dev nD) :
    (dat4 V c).arrAt 4 cfg4.N = GK4_4 (V c (Pipeline.arrRef spec4 0)) (V c (Pipeline.arrRef spec4 1)) (V c (Pipeline.arrRef spec4 2)) (V c (Pipeline.arrRef spec4 3)) :=
  (dat4 V c).arrAt_eq_of_cover 4 _ (flushed_4 V c) cover_4

/-- WINDOW 5's ARRAY AFTER THE REGION. -/
theorem arrAt_5 (c : Dev nD) :
    (dat4 V c).arrAt 5 cfg4.N = GK4_5 (V c (Pipeline.arrRef spec4 0)) (V c (Pipeline.arrRef spec4 1)) (V c (Pipeline.arrRef spec4 2)) (V c (Pipeline.arrRef spec4 3)) :=
  (dat4 V c).arrAt_eq_of_cover 5 _ (flushed_5 V c) cover_5

end Cert.KernelIdeal.KStats4

end
-- ==== Proof.KStats4Bridge.lean ====
/-
  Region 4 of the idealized kernel in the network's own words: the two accumulator arrays, summed over the two cores,
  are the per-channel sum and sum of squares over all pixels of the 1x1 convolution of the activated input — the kernel's
  nesting of the 32 batch rows (core, grid step, row of the block) re-indexed to the batch rows themselves.
-/
import proofs.«126831_g2000503633499865_pallasbulk_555_4_alg».proof.Proof.KStats4Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open Idealize.ShloMosaic Idealize.ShloMosaic.ValueIdx
open scoped BigOperators

namespace Cert.KernelIdeal.KStats4

open Cert.KernelIdeal Cert

/-- One output element of the convolution, array against function. -/
theorem dot_net (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (n : Fin 32) (ch : Fin 128) (p : Fin 4096) :
    (∑ k : Fin 64, w (ix2 ch k) * act (a (ix3 n k p)) (s (ix2 k (0 : Fin 1))) (t (ix2 k (0 : Fin 1)))) = Net.conv W1 A ch (n, p) := by
  unfold Net.conv
  exact Finset.sum_congr rfl fun k _ => by
      rw [hw, ← ha n k p]; rfl

/-- The sum accumulators of the two cores add up to the channel's sum over all pixels. -/
theorem sum_eq (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (ch : Fin 128) (u : Fin 1) :
    ∑ core : Fin 2, GK4_4 a w s t (ix3 core ch u) = Net.tot (Net.conv W1 A) ch := by
  show ∑ core : Fin 2, ∑ j : Fin 8, (S a w s t (row core j 0) ch + S a w s t (row core j 1) ch) = _
  rw [Net.sum_rows_fin (fun n => S a w s t n ch) row (fun _ _ _ => rfl)]
  unfold Net.tot
  rw [Fintype.sum_prod_type]
  refine Finset.sum_congr rfl fun n _ => ?_
  unfold S
  exact Finset.sum_congr rfl fun p _ => dot_net a w s t A W1 ha hw n ch p

/-- The sum-of-squares accumulators of the two cores add up to the channel's sum of squares over all pixels. -/
theorem ssq_eq (a : S32x64x4096.Idx → EReal) (w : S128x64.Idx → EReal) (s t : S64x1.Idx → EReal) (A : Fin 64 → Net.Px → EReal) (W1 : Fin 128 → Fin 64 → EReal)
    (ha : ∀ (n : Fin 32) (k : Fin 64) (p : Fin 4096),
      Net.lrelu Net.slopec (a (ix3 n k p) * s (ix2 k (0 : Fin 1)) + t (ix2 k (0 : Fin 1))) = A k (n, p))
    (hw : ∀ (ch : Fin 128) (k : Fin 64), w (ix2 ch k) = W1 ch k) (ch : Fin 128) (u : Fin 1) :
    ∑ core : Fin 2, GK4_5 a w s t (ix3 core ch u) = Net.tot2 (Net.conv W1 A) ch := by
  show ∑ core : Fin 2, ∑ j : Fin 8, (Q a w s t (row core j 0) ch + Q a w s t (row core j 1) ch) = _
  rw [Net.sum_rows_fin (fun n => Q a w s t n ch) row (fun _ _ _ => rfl)]
  unfold Net.tot2
  rw [Fintype.sum_prod_type]
  refine Finset.sum_congr rfl fun n _ => ?_
  unfold Q
  exact Finset.sum_congr rfl fun p _ =>
    congrArg₂ (· * ·) (dot_net a w s t A W1 ha hw n ch p) (dot_net a w s t A W1 ha hw n ch p)

end Cert.KernelIdeal.KStats4

end
-- ==== Proof.KMain5Pay.lean ====
/-
  The third main region, one batch row at a time, read entry by entry over the extended reals. The stored
  activation is first scaled, shifted and rectified per channel, x ↦ lrelu (x · s + t); then, as in the first main region,
      y₂ = W₂ · lrelu (W₁ · a + t₁),
  and the sums over the pixels of y₂ and of y₂ · y₂ are added to two running columns.
-/
import proofs.«126831_g2000503633499865_pallasbulk_555_4_alg».proof.Proof.Gen.KernelIdeal.Skeleton
import proofs.«126831_g2000503633499865_pallasbulk_555_4_alg».proof.Proof.KMain1Pay
import Idealize.ShloMosaic.Lib.ValueIdx
import Idealize.ShloMosaic.Lib.ValueLayout
import Idealize.ShloMosaic.PureOps.Ideal.Laws

noncomputable section

open scoped BigOperators

namespace Cert.KMain5

open Idealize.ShloMosaic Idealize.ShloMosaic.ValueIdx Cert.KernelIdeal Cert.KernelIdeal.Gen
open Cert.KMain1 (lrelu hid y2 conv_pair_apply acc_sum_apply broadcastTo_a1_ab_apply lrelu_vec_apply)

/-! ## The step before the products: scale, shift and rectify each channel of the stored activation -/

/-- The body's per-channel affine map followed by the rectifier, as the vector operations it is printed with. -/
abbrev actVec (X : FVec Ideal S64x4096 .f32) (s t : FVec Ideal S64x1 .f32) : FVec Ideal S64x4096 .f32 :=
  maximumf
    (addf (mulf X (broadcastTo S64x4096 (shapeCast S64x1 s shapeCasts_S64x1_S64x1) broadcasts_S64x1_S64x4096))
      (broadcastTo S64x4096 (shapeCast S64x1 t shapeCasts_S64x1_S64x1) broadcasts_S64x1_S64x4096))
    (mulf (broadcast S64x4096 (Scalar.ofBits .f32 0x3E4CCCCD#32))
      (addf (mulf X (broadcastTo S64x4096 (shapeCast S64x1 s shapeCasts_S64x1_S64x1) broadcasts_S64x1_S64x4096))
        (broadcastTo S64x4096 (shapeCast S64x1 t shapeCasts_S64x1_S64x1) broadcasts_S64x1_S64x4096)))

/-- At `(k', p)` it is `lrelu (x · s_k' + t_k')`. -/
theorem actVec_apply (X : FVec Ideal S64x4096 .f32) (s t : FVec Ideal S64x1 .f32) (k' : Fin 64) (p : Fin 4096) :
    actVec X s t (ix2 k' p) = lrelu (X (ix2 k' p) * s (ix2 k' (0 : Fin 1)) + t (ix2 k' (0 : Fin 1))) := by
  refine (lrelu_vec_apply _ (ix2 k' p)).trans (congrArg lrelu ?_)
  refine (addf_apply _ _ _).trans (congrArg₂ (· + ·) ?_ ?_)
  · refine (mulf_apply _ _ _).trans (congrArg (X (ix2 k' p) * ·) ?_)
    exact (broadcastTo_a1_ab_apply _ broadcasts_S64x1_S64x4096 k' p).trans
      (congrFun (shapeCast_self s shapeCasts_S64x1_S64x1) _)
  · exact (broadcastTo_a1_ab_apply _ broadcasts_S64x1_S64x4096 k' p).trans
      (congrFun (shapeCast_self t shapeCasts_S64x1_S64x1) _)

/-- The column the products see: channel `k'` of pixel `p` of a stored row `x`, scaled, shifted, rectified. -/
def col (x : S1x64x4096.Idx → EReal) (s t : S64x1.Idx → EReal) (p : Fin 4096) (k' : Fin 64) : EReal :=
  lrelu (x (ix3 (0 : Fin 1) k' p) * s (ix2 k' (0 : Fin 1)) + t (ix2 k' (0 : Fin 1)))

theorem actVec_row_apply (x : Vec Ideal S1x64x4096 .f32) (s t : FVec Ideal S64x1 .f32) (p : Fin 4096) :
    (fun k' => actVec (shapeCast S64x4096 x shapeCasts_S1x64x4096_S64x4096) s t (ix2 k' p)) = col x s t p :=
  funext fun k' => (actVec_apply _ s t k' p).trans
    (congrArg (fun z => lrelu (z * s (ix2 k' (0 : Fin 1)) + t (ix2 k' (0 : Fin 1))))
      (shapeCast_1ab_ab_apply x shapeCasts_S1x64x4096_S64x4096 k' p))

/-! ## The body's payloads at an index -/

theorem pay7_eq (v3 : Vec Ideal S128x64 .f32) : k5_pay7 v3 = v3 := by
  unfold k5_pay7; exact shapeCast_self v3 _

/-- Row 0's product pair at `(d, p)`. -/
theorem pay8_apply (v3 : Vec Ideal S128x64 .f32) (v5 : Vec Ideal S64x128 .f32) (v6 : Vec Ideal S1x64x4096 .f32)
    (v8 v12 : Vec Ideal S64x1 .f32) (v20 : Vec Ideal S128x1 .f32) (d : Fin 64) (p : Fin 4096) :
    k5_pay8 v3 v5 v6 v8 v12 v20 (ix2 d p) = y2 v3 v20 v5 (col v6 v8 v12 p) d := by
  refine (conv_pair_apply (k5_pay7 v3) v5 (actVec (shapeCast S64x4096 v6 shapeCasts_S1x64x4096_S64x4096) v8 v12) v20 d p).trans ?_
  rw [pay7_eq, actVec_row_apply]

/-- Row 1's product pair at `(d, p)`: the pre-activation is handed over between the two halves of the body, the slope with it. -/
theorem pay1_apply (v4 : FVec Ideal S128x64 .f32) (v5 : Vec Ideal S64x128 .f32) (v48 : Vec Ideal S1x64x4096 .f32)
    (v50 v54 : Vec Ideal S64x1 .f32) (v62 : Vec Ideal S128x1 .f32) (d : Fin 64) (p : Fin 4096) :
    k5_pay1 v5 (k5_pay12 v4 v48 v50 v54 v62) (Scalar.ofBits .f32 0x3E4CCCCD#32) (ix2 d p) = y2 v4 v62 v5 (col v48 v50 v54 p) d := by
  refine (conv_pair_apply v4 v5 (actVec (shapeCast S64x4096 v48 shapeCasts_S1x64x4096_S64x4096) v50 v54) v62 d p).trans ?_
  rw [actVec_row_apply]

/-- What row 0 stores to the activation block. -/
theorem pay9_apply (v3 : Vec Ideal S128x64 .f32) (v5 : Vec Ideal S64x128 .f32) (v6 : Vec Ideal S1x64x4096 .f32)
    (v8 v12 : Vec Ideal S64x1 .f32) (v20 : Vec Ideal S128x1 .f32) (u : Fin 1) (d : Fin 64) (p : Fin 4096) :
    k5_pay9 v3 v5 v6 v8 v12 v20 (ix3 u d p) = y2 v3 v20 v5 (col v6 v8 v12 p) d :=
  (shapeCast_ab_1ab_apply (k5_pay8 v3 v5 v6 v8 v12 v20) shapeCasts_S64x4096_S1x64x4096 u d p).trans
    (pay8_apply v3 v5 v6 v8 v12 v20 d p)

/-- What row 1 stores to the activation block, over any pre-activation `Z` and slope `σ`. -/
theorem pay2_apply (v5 : Vec Ideal S64x128 .f32) (Z : FVec Ideal S128x4096 .f32) (σ : Ideal .f32) (u : Fin 1) (d : Fin 64)
    (p : Fin 4096) : k5_pay2 v5 Z σ (ix3 u d p) = k5_pay1 v5 Z σ (ix2 d p) :=
  shapeCast_ab_1ab_apply (k5_pay1 v5 Z σ) shapeCasts_S64x4096_S1x64x4096 u d p

/-- The running sum after row 0, over any `[64, 4096]` array. -/
theorem pay10_apply (v27 : FVec Ideal S64x4096 .f32) (v31 : Vec Ideal S1x64x1 .f32) (u : Fin 1) (d : Fin 64) (v : Fin 1) :
    k5_pay10 v27 v31 (ix3 u d v) = v31 (ix3 (0 : Fin 1) d v) + ∑ p : Fin 4096, v27 (ix2 d p) :=
  acc_sum_apply v27 v31 (.inl rfl) rfl u d v

/-- The running sum of squares after row 0. -/
theorem pay11_apply (v27 : FVec Ideal S64x4096 .f32) (v39 : Vec Ideal S1x64x1 .f32) (u : Fin 1) (d : Fin 64) (v : Fin 1) :
    k5_pay11 v27 v39 (ix3 u d v) = v39 (ix3 (0 : Fin 1) d v) + ∑ p : Fin 4096, v27 (ix2 d p) * v27 (ix2 d p) :=
  acc_sum_apply (mulf v27 v27) v39 (.inl rfl) rfl u d v

/-- The running sum after row 1. -/
theorem pay3_apply (v5 : Vec Ideal S64x128 .f32) (Z : FVec Ideal S128x4096 .f32) (σ : Ideal .f32) (v73 : Vec Ideal S1x64x1 .f32)
    (u : Fin 1) (d : Fin 64) (v : Fin 1) :
    k5_pay3 v5 Z σ v73 (ix3 u d v) = v73 (ix3 (0 : Fin 1) d v) + ∑ p : Fin 4096, k5_pay1 v5 Z σ (ix2 d p) :=
  acc_sum_apply (k5_pay1 v5 Z σ) v73 (.inl rfl) rfl u d v

/-- The running sum of squares after row 1. -/
theorem pay4_apply (v5 : Vec Ideal S64x128 .f32) (Z : FVec Ideal S128x4096 .f32) (σ : Ideal .f32) (v81 : Vec Ideal S1x64x1 .f32)
    (u : Fin 1) (d : Fin 64) (v : Fin 1) :
    k5_pay4 v5 Z σ v81 (ix3 u d v)
      = v81 (ix3 (0 : Fin 1) d v) + ∑ p : Fin 4096, k5_pay1 v5 Z σ (ix2 d p) * k5_pay1 v5 Z σ (ix2 d p) :=
  acc_sum_apply (mulf (k5_pay1 v5 Z σ) (k5_pay1 v5 Z σ)) v81 (.inl rfl) rfl u d v

/-- The zero column the first point of a core stores to the running sum, -/
theorem pay5_apply (u : Fin 1) (d : Fin 64) (v : Fin 1) :
    k5_pay5 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

/-- and to the running sum of squares. -/
theorem pay6_apply (u : Fin 1) (d : Fin 64) (v : Fin 1) :
    k5_pay6 (F := Ideal) (ix3 u d v) = Ideal.ofBits .f32 0x00000000#32 :=
  (shapeCast_ab_1ab_apply (broadcast S64x1 (Scalar.ofBits (F := Ideal) .f32 0x00000000#32)) shapeCasts_S64x1_S1x64x1 u d v).trans rfl

end Cert.KMain5

end
-- ==== Proof.KMain5Pieces.lean ====
/-
  What one grid point of the third main region leaves in its three output buffers, as terms over the body's
  payloads: as in the first main region, one store per batch row to the activation buffer, and each running column
  read, increased and stored back once per row, after a zero column at a core's first point.
-/
import proofs.«126831_g2000503633499865_pallasbulk_555_4_alg».proof.Proof.Gen.KernelIdeal.Frame
import proofs.«126831_g2000503633499865_pallasbulk_555_4_alg».proof.Proof.KMain1Pieces
import Idealize.ShloMosaic.Lib.Pipeline.Value
import Idealize.ShloMosaic.Lib.Tactic
import Idealize.ShloMosaic.Lib.WritesUnit
import Idealize.ShloMosaic.Lib.ValueIdx

noncomputable section

namespace Cert.KMain5

open Idealize.ShloMosaic Idealize.ShloMosaic.TcCoe Idealize.ShloMosaic.ValueIdx Idealize.SL.Sem Cert.KernelIdeal Cert.KernelIdeal.Gen
open Cert.KMain1 (hz2 hz3 R0 R1 two_rows_apply)

variable {F : FTy → Type} [FloatOps F]

/-! ## A core's first point: the columns start from zero -/

theorem out_A_6_apply (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond5_0 i) (x0 : Vec F S2x64x4096 .f32) (x1 : Vec F S128x64 .f32) (x2 : Vec F S128x1 .f32) (x3 : Vec F S64x128 .f32) (x4 : Vec F S64x1 .f32) (x5 : Vec F S64x1 .f32) (n : Fin 2) (d : Fin 64) (p : Fin 4096) :
    out5_A_6 c i arg2 harg2 arg3 harg3 arg4 harg4 arg5 harg5 arg6 harg6 arg7 harg7 arg8 harg8 arg9 harg9 arg10 harg10 hc0 x0 x1 x2 x3 x4 x5 (ix3 n d p)
      = if n.val = 0 then k5_pay9 x1 x3 (View.ld x0 R0) x4 x5 x2 (ix3 (0 : Fin 1) d p)
        else k5_pay2 x3 (k5_pay12 (k5_pay7 x1) (View.ld x0 R1) x4 x5 x2) (Scalar.ofBits .f32 0x3E4CCCCD#32) (ix3 (0 : Fin 1) d p) := by
  unfold out5_A_6 kernelRun5_A
  dsimp only
  sl_unfold_words
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]
  exact two_rows_apply VO5_6 VO5_6.junk _ _ n d p

theorem out_A_7 (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond5_0 i) (x0 : Vec F S2x64x4096 .f32) (x1 : Vec F S128x64 .f32) (x2 : Vec F S128x1 .f32) (x3 : Vec F S64x128 .f32) (x4 : Vec F S64x1 .f32) (x5 : Vec F S64x1 .f32) :
    out5_A_7 c i arg2 harg2 arg3 harg3 arg4 harg4 arg5 harg5 arg6 harg6 arg7 harg7 arg8 harg8 arg9 harg9 arg10 harg10 hc0 x0 x1 x2 x3 x4 x5
      = k5_pay3 x3 (k5_pay12 (k5_pay7 x1) (View.ld x0 R1) x4 x5 x2) (Scalar.ofBits .f32 0x3E4CCCCD#32) (k5_pay10 (k5_pay8 x1 x3 (View.ld x0 R0) x4 x5 x2) k5_pay5) := by
  unfold out5_A_7
  rw [View.read_writes_eq_canon _ _ _ (cover5_A_7 c i arg2 harg2 arg3 harg3 arg4 harg4 arg5 harg5 arg6 harg6 arg7 harg7 arg8 harg8 arg9 harg9 arg10 harg10 hc0 x0 x1 x2 x3 x4 x5)]
  unfold kernelRun5_A
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]

theorem out_A_8 (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : cond5_0 i) (x0 : Vec F S2x64x4096 .f32) (x1 : Vec F S128x64 .f32) (x2 : Vec F S128x1 .f32) (x3 : Vec F S64x128 .f32) (x4 : Vec F S64x1 .f32) (x5 : Vec F S64x1 .f32) :
    out5_A_8 c i arg2 harg2 arg3 harg3 arg4 harg4 arg5 harg5 arg6 harg6 arg7 harg7 arg8 harg8 arg9 harg9 arg10 harg10 hc0 x0 x1 x2 x3 x4 x5
      = k5_pay4 x3 (k5_pay12 (k5_pay7 x1) (View.ld x0 R1) x4 x5 x2) (Scalar.ofBits .f32 0x3E4CCCCD#32) (k5_pay11 (k5_pay8 x1 x3 (View.ld x0 R0) x4 x5 x2) k5_pay6) := by
  unfold out5_A_8
  rw [View.read_writes_eq_canon _ _ _ (cover5_A_8 c i arg2 harg2 arg3 harg3 arg4 harg4 arg5 harg5 arg6 harg6 arg7 harg7 arg8 harg8 arg9 harg9 arg10 harg10 hc0 x0 x1 x2 x3 x4 x5)]
  unfold kernelRun5_A
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread,
    View.ld_unit_zero (S := S128x64) hz2, View.ld_unit_zero (S := S128x1) hz2, View.ld_unit_zero (S := S64x128) hz2,
    View.ld_unit_zero (S := S64x1) hz2, View.ld_unit_zero (S := S1x64x1) hz3]

/-! ## The other points: the columns continue from what the previous point left -/

theorem out_B_6_apply (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond5_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) (n : Fin 2) (d : Fin 64) (p : Fin 4096) :
    out5_B_6 c i arg2 harg2 arg3 harg3 arg4 harg4 arg5 harg5 arg6 harg6 arg7 harg7 arg8 harg8 arg9 harg9 arg10 harg10 hc0 x0 x1 x2 x3 x4 x5 xo7 xo8 (ix3 n d p)
      = if n.val = 0 then k5_pay9 x1 x3 (View.ld x0 R0) x4 x5 x2 (ix3 (0 : Fin 1) d p)
        else k5_pay2 x3 (k5_pay12 (k5_pay7 x1) (View.ld x0 R1) x4 x5 x2) (Scalar.ofBits .f32 0x3E4CCCCD#32) (ix3 (0 : Fin 1) d p) := by
  unfold out5_B_6 kernelRun5_B
  dsimp only
  sl_unfold_words
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]
  exact two_rows_apply VO5_6 VO5_6.junk _ _ n d p

theorem out_B_7 (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond5_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) :
    out5_B_7 c i arg2 harg2 arg3 harg3 arg4 harg4 arg5 harg5 arg6 harg6 arg7 harg7 arg8 harg8 arg9 harg9 arg10 harg10 hc0 x0 x1 x2 x3 x4 x5 xo7 xo8
      = k5_pay3 x3 (k5_pay12 (k5_pay7 x1) (View.ld x0 R1) x4 x5 x2) (Scalar.ofBits .f32 0x3E4CCCCD#32) (k5_pay10 (k5_pay8 x1 x3 (View.ld x0 R0) x4 x5 x2) xo7) := by
  unfold out5_B_7
  rw [View.read_writes_eq_canon _ _ _ (cover5_B_7 c i arg2 harg2 arg3 harg3 arg4 harg4 arg5 harg5 arg6 harg6 arg7 harg7 arg8 harg8 arg9 harg9 arg10 harg10 hc0 x0 x1 x2 x3 x4 x5 xo7 xo8)]
  unfold kernelRun5_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]

theorem out_B_8 (c : Dev nD) (i : grid5.Coords) (arg2 : Memref sig .tc .vmem S2x64x4096 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S2x64x4096 .f32) (harg8 : arg8.IsWhole) (arg9 : Memref sig .tc .vmem S1x64x1 .f32) (harg9 : arg9.IsWhole) (arg10 : Memref sig .tc .vmem S1x64x1 .f32) (harg10 : arg10.IsWhole) (hc0 : ¬cond5_0 i) (x0 : Vec F S2x64x4096 .f32) (x1 : Vec F S128x64 .f32) (x2 : Vec F S128x1 .f32) (x3 : Vec F S64x128 .f32) (x4 : Vec F S64x1 .f32) (x5 : Vec F S64x1 .f32) (xo7 : Vec F S1x64x1 .f32) (xo8 : Vec F S1x64x1 .f32) :
    out5_B_8 c i arg2 harg2 arg3 harg3 arg4 harg4 arg5 harg5 arg6 harg6 arg7 harg7 arg8 harg8 arg9 harg9 arg10 harg10 hc0 x0 x1 x2 x3 x4 x5 xo7 xo8
      = k5_pay4 x3 (k5_pay12 (k5_pay7 x1) (View.ld x0 R1) x4 x5 x2) (Scalar.ofBits .f32 0x3E4CCCCD#32) (k5_pay11 (k5_pay8 x1 x3 (View.ld x0 R0) x4 x5 x2) xo8) := by
  unfold out5_B_8
  rw [View.read_writes_eq_canon _ _ _ (cover5_B_8 c i arg2 harg2 arg3 harg3 arg4 harg4 arg5 harg5 arg6 harg6 arg7 harg7 arg8 harg8 arg9 harg9 arg10 harg10 hc0 x0 x1 x2 x3 x4 x5 xo7 xo8)]
  unfold kernelRun5_B
  dsimp only
  sl_unfold_words
  rw [View.canon_cons_unit_zero (S := S1x64x1) hz3]
  simp only [View.readCov_cons_toLoadRect, View.readAt_eq_ld, harg2.read_unread, harg3.read_unread, harg4.read_unread,
    harg5.read_unread, harg6.read_unread, harg7.read_unread, harg9.read_unread, harg10.read_unread,
    View.ld_unit_zero (S := S128x64) hz2, View.ld_unit_zero (S := S128x1) hz2, View.ld_unit_zero (S := S64x128) hz2,
    View.ld_unit_zero (S := S64x1) hz2, View.ld_unit_zero (S := S1x64x1) hz3]

end Cert.KMain5

end
-- ==== Proof.KMain5Val.lean ====
/-
  The third main region's running columns, point by point. Point (core, j) of the 2 × 8 grid handles batch rows
  2(8·core + j) and 2(8·core + j) + 1 of the stored activation: each is scaled, shifted and rectified per channel, put
  through the two products, written to the same rows of the new activation array, and its per-channel pixel sums (of y₂
  and of y₂ · y₂) are added to the core's running columns, which start from zero at j = 0.
-/
import proofs.«126831_g2000503633499865_pallasbulk_555_4_alg».proof.Proof.Gen.KernelIdeal.Frame
import proofs.«126831_g2000503633499865_pallasbulk_555_4_alg».proof.Proof.KMain5Pay
import proofs.«126831_g2000503633499865_pallasbulk_555_4_alg».proof.Proof.KMain5Pieces
import proofs.«126831_g2000503633499865_pallasbulk_555_4_alg».proof.Proof.KMain1Val
import Idealize.ShloMosaic.Lib.Pipeline.Value

noncomputable section

open scoped BigOperators

namespace Cert.KMain5

open Idealize.ShloMosaic Idealize.ShloMosaic.TcCoe Idealize.ShloMosaic.ValueIdx Idealize.SL.Sem
open Idealize.ShloMosaic.Pipeline (Dat)
open Cert.KernelIdeal Cert.KernelIdeal.Gen
open Cert.KMain1 (lrelu hid y2 R0 R1 ld_R0 ld_R1 rowN rowOf acc acc_first acc_next acc_last)

/-! ## The specification -/

/-- y₂ of batch row `n` at channel `d` and pixel `p`: the stored activation `A` enters through `lrelu (A · s + t)`. -/
def Y (A : S32x64x4096.Idx → EReal) (W1 : S128x64.Idx → EReal) (t1 : S128x1.Idx → EReal) (W2 : S64x128.Idx → EReal)
    (s t : S64x1.Idx → EReal) (n : Fin 32) (d : Fin 64) (p : Fin 4096) : EReal :=
  y2 W1 t1 W2 (fun k' => lrelu (A (ix3 n k' p) * s (ix2 k' (0 : Fin 1)) + t (ix2 k' (0 : Fin 1)))) d

/-- The new activation array after the region. -/
def G6 (A : S32x64x4096.Idx → EReal) (W1 : S128x64.Idx → EReal) (t1 : S128x1.Idx → EReal) (W2 : S64x128.Idx → EReal)
    (s t : S64x1.Idx → EReal) : S32x64x4096.Idx → EReal :=
  fun i => Y A W1 t1 W2 s t (i 0) (i 1) (i 2)

/-- The column of sums: at (core, d), over the core's points and their two rows, the pixel sum of y₂. -/
def G7 (A : S32x64x4096.Idx → EReal) (W1 : S128x64.Idx → EReal) (t1 : S128x1.Idx → EReal) (W2 : S64x128.Idx → EReal)
    (s t : S64x1.Idx → EReal) : S2x64x1.Idx → EReal :=
  fun i => ∑ j : Fin 8, ((∑ p : Fin 4096, Y A W1 t1 W2 s t (rowOf (i 0) j 0) (i 1) p)
    + ∑ p : Fin 4096, Y A W1 t1 W2 s t (rowOf (i 0) j 1) (i 1) p)

/-- The column of sums of squares. -/
def G8 (A : S32x64x4096.Idx → EReal) (W1 : S128x64.Idx → EReal) (t1 : S128x1.Idx → EReal) (W2 : S64x128.Idx → EReal)
    (s t : S64x1.Idx → EReal) : S2x64x1.Idx → EReal :=
  fun i => ∑ j : Fin 8, ((∑ p : Fin 4096, Y A W1 t1 W2 s t (rowOf (i 0) j 0) (i 1) p * Y A W1 t1 W2 s t (rowOf (i 0) j 0) (i 1) p)
    + ∑ p : Fin 4096, Y A W1 t1 W2 s t (rowOf (i 0) j 1) (i 1) p * Y A W1 t1 W2 s t (rowOf (i 0) j 1) (i 1) p)

def Srow (A : S32x64x4096.Idx → EReal) (W1 : S128x64.Idx → EReal) (t1 : S128x1.Idx → EReal) (W2 : S64x128.Idx → EReal)
    (s t : S64x1.Idx → EReal) (d : Fin 64) (r : ℕ) : EReal :=
  ∑ p : Fin 4096, Y A W1 t1 W2 s t (rowN r) d p

def Qrow (A : S32x64x4096.Idx → EReal) (W1 : S128x64.Idx → EReal) (t1 : S128x1.Idx → EReal) (W2 : S64x128.Idx → EReal)
    (s t : S64x1.Idx → EReal) (d : Fin 64) (r : ℕ) : EReal :=
  ∑ p : Fin 4096, Y A W1 t1 W2 s t (rowN r) d p * Y A W1 t1 W2 s t (rowN r) d p

/-! ## The blocks a point reads -/

variable (V : (c : Dev nD) → (b : Ref sig .tc) → Buf (Elt Ideal) ((c : Thread nD τ).loc b))

/-- The printed index maps over the grid: the activation windows move with the point, -/
theorem idx0 : ∀ t : Fin cfg5.N,
    win5_0.index t (0 : Fin 3) = t.val ∧ win5_0.index t (1 : Fin 3) = 0 ∧ win5_0.index t (2 : Fin 3) = 0 :=
  (by decide +kernel : ∀ t : Fin grid5.N, _)
theorem idx6 : ∀ t : Fin cfg5.N,
    win5_6.index t (0 : Fin 3) = t.val ∧ win5_6.index t (1 : Fin 3) = 0 ∧ win5_6.index t (2 : Fin 3) = 0 :=
  (by decide +kernel : ∀ t : Fin grid5.N, _)
/-- the weights, the scale and the shift stay, -/
theorem idxW1 : ∀ t : Fin cfg5.N, win5_1.index t (0 : Fin 2) = 0 ∧ win5_1.index t (1 : Fin 2) = 0 :=
  (by decide +kernel : ∀ t : Fin grid5.N, _)
theorem idxW2 : ∀ t : Fin cfg5.N, win5_2.index t (0 : Fin 2) = 0 ∧ win5_2.index t (1 : Fin 2) = 0 :=
  (by decide +kernel : ∀ t : Fin grid5.N, _)
theorem idxW3 : ∀ t : Fin cfg5.N, win5_3.index t (0 : Fin 2) = 0 ∧ win5_3.index t (1 : Fin 2) = 0 :=
  (by decide +kernel : ∀ t : Fin grid5.N, _)
theorem idxW4 : ∀ t : Fin cfg5.N, win5_4.index t (0 : Fin 2) = 0 ∧ win5_4.index t (1 : Fin 2) = 0 :=
  (by decide +kernel : ∀ t : Fin grid5.N, _)
theorem idxW5 : ∀ t : Fin cfg5.N, win5_5.index t (0 : Fin 2) = 0 ∧ win5_5.index t (1 : Fin 2) = 0 :=
  (by decide +kernel : ∀ t : Fin grid5.N, _)
/-- a column window sits at the core's row. -/
theorem idx7 : ∀ t : Fin cfg5.N,
    win5_7.index t (0 : Fin 3) = t.val / 8 ∧ win5_7.index t (1 : Fin 3) = 0 ∧ win5_7.index t (2 : Fin 3) = 0 :=
  (by decide +kernel : ∀ t : Fin grid5.N, _)
theorem idx8 : ∀ t : Fin cfg5.N,
    win5_8.index t (0 : Fin 3) = t.val / 8 ∧ win5_8.index t (1 : Fin 3) = 0 ∧ win5_8.index t (2 : Fin 3) = 0 :=
  (by decide +kernel : ∀ t : Fin grid5.N, _)

/-- Row `n` of the point's activation block is batch row `2t + n` of the array. -/
theorem iblk0_apply (c : Dev nD) (t : Fin cfg5.N) (n : Fin 2) (k' : Fin 64) (p : Fin 4096) :
    iblk5 V c 0 t (ix3 n k' p) = V c (Pipeline.arrRef spec5 0) (ix3 (rowN (2 * t.val + n.val)) k' p) := by
  have e0 := (idx0 t).1
  have hN : cfg5.N = 16 := N_5
  have ht := t.isLt
  unfold iblk5
  rw [View.read_apply]
  show V c (Pipeline.arrRef spec5 0) _ = _
  refine congrArg (V c (Pipeline.arrRef spec5 0)) (funext fun a => Fin.ext ?_)
  match a with
  | ⟨0, _⟩ => show win5_0.index t (0 : Fin 3) * 2 + 1 * n.val = (2 * t.val + n.val) % 32; rw [e0]; omega
  | ⟨1, _⟩ => show win5_0.index t (1 : Fin 3) * 64 + 1 * k'.val = k'.val; rw [(idx0 t).2.1]; omega
  | ⟨2, _⟩ => show win5_0.index t (2 : Fin 3) * 4096 + 1 * p.val = p.val; rw [(idx0 t).2.2]; omega

/-- The other input windows' blocks are their arrays. -/
theorem iblk_1 (c : Dev nD) (t : Fin cfg5.N) : iblk5 V c 1 t = V c (Pipeline.arrRef spec5 1) := by
  funext y
  unfold iblk5
  rw [View.read_apply]
  show V c (Pipeline.arrRef spec5 1) _ = _
  refine congrArg (V c (Pipeline.arrRef spec5 1)) (funext fun a => Fin.ext ?_)
  match a with
  | ⟨0, _⟩ => show win5_1.index t (0 : Fin 2) * 128 + 1 * (y 0).val = (y 0).val; rw [(idxW1 t).1]; omega
  | ⟨1, _⟩ => show win5_1.index t (1 : Fin 2) * 64 + 1 * (y 1).val = (y 1).val; rw [(idxW1 t).2]; omega

theorem iblk_2 (c : Dev nD) (t : Fin cfg5.N) : iblk5 V c 2 t = V c (Pipeline.arrRef spec5 2) := by
  funext y
  unfold iblk5
  rw [View.read_apply]
  show V c (Pipeline.arrRef spec5 2) _ = _
  refine congrArg (V c (Pipeline.arrRef spec5 2)) (funext fun a => Fin.ext ?_)
  match a with
  | ⟨0, _⟩ => show win5_2.index t (0 : Fin 2) * 128 + 1 * (y 0).val = (y 0).val; rw [(idxW2 t).1]; omega
  | ⟨1, _⟩ => show win5_2.index t (1 : Fin 2) * 1 + 1 * (y 1).val = (y 1).val; rw [(idxW2 t).2]; omega

theorem iblk_3 (c : Dev nD) (t : Fin cfg5.N) : iblk5 V c 3 t = V c (Pipeline.arrRef spec5 3) := by
  funext y
  unfold iblk5
  rw [View.read_apply]
  show V c (Pipeline.arrRef spec5 3) _ = _
  refine congrArg (V c (Pipeline.arrRef spec5 3)) (funext fun a => Fin.ext ?_)
  match a with
  | ⟨0, _⟩ => show win5_3.index t (0 : Fin 2) * 64 + 1 * (y 0).val = (y 0).val; rw [(idxW3 t).1]; omega
  | ⟨1, _⟩ => show win5_3.index t (1 : Fin 2) * 128 + 1 * (y 1).val = (y 1).val; rw [(idxW3 t).2]; omega

theorem iblk_4 (c : Dev nD) (t : Fin cfg5.N) : iblk5 V c 4 t = V c (Pipeline.arrRef spec5 4) := by
  funext y
  unfold iblk5
  rw [View.read_apply]
  show V c (Pipeline.arrRef spec5 4) _ = _
  refine congrArg (V c (Pipeline.arrRef spec5 4)) (funext fun a => Fin.ext ?_)
  match a with
  | ⟨0, _⟩ => show win5_4.index t (0 : Fin 2) * 64 + 1 * (y 0).val = (y 0).val; rw [(idxW4 t).1]; omega
  | ⟨1, _⟩ => show win5_4.index t (1 : Fin 2) * 1 + 1 * (y 1).val = (y 1).val; rw [(idxW4 t).2]; omega

theorem iblk_5 (c : Dev nD) (t : Fin cfg5.N) : iblk5 V c 5 t = V c (Pipeline.arrRef spec5 5) := by
  funext y
  unfold iblk5
  rw [View.read_apply]
  show V c (Pipeline.arrRef spec5 5) _ = _
  refine congrArg (V c (Pipeline.arrRef spec5 5)) (funext fun a => Fin.ext ?_)
  match a with
  | ⟨0, _⟩ => show win5_5.index t (0 : Fin 2) * 64 + 1 * (y 0).val = (y 0).val; rw [(idxW5 t).1]; omega
  | ⟨1, _⟩ => show win5_5.index t (1 : Fin 2) * 1 + 1 * (y 1).val = (y 1).val; rw [(idxW5 t).2]; omega

/-! ## One point's outputs over its blocks, as values -/

/-- The column the products see, for row `n` of a two-row block. -/
def colb (x0 : S2x64x4096.Idx → EReal) (s t : S64x1.Idx → EReal) (n : Fin 2) (p : Fin 4096) (k' : Fin 64) : EReal :=
  lrelu (x0 (ix3 n k' p) * s (ix2 k' (0 : Fin 1)) + t (ix2 k' (0 : Fin 1)))

theorem col_R0 (x0 : Vec Ideal S2x64x4096 .f32) (x4 x5 : Vec Ideal S64x1 .f32) (p : Fin 4096) :
    col (View.ld x0 R0) x4 x5 p = colb x0 x4 x5 0 p :=
  funext fun k' => congrArg (fun z => lrelu (z * x4 (ix2 k' (0 : Fin 1)) + x5 (ix2 k' (0 : Fin 1)))) (ld_R0 x0 0 k' p)

theorem col_R1 (x0 : Vec Ideal S2x64x4096 .f32) (x4 x5 : Vec Ideal S64x1 .f32) (p : Fin 4096) :
    col (View.ld x0 R1) x4 x5 p = colb x0 x4 x5 1 p :=
  funext fun k' => congrArg (fun z => lrelu (z * x4 (ix2 k' (0 : Fin 1)) + x5 (ix2 k' (0 : Fin 1)))) (ld_R1 x0 0 k' p)

/-- Row 0's and row 1's products at `(d, p)` over the block. -/
theorem row0_apply (x0 : Vec Ideal S2x64x4096 .f32) (x1 : Vec Ideal S128x64 .f32) (x2 : Vec Ideal S128x1 .f32)
    (x3 : Vec Ideal S64x128 .f32) (x4 x5 : Vec Ideal S64x1 .f32) (d : Fin 64) (p : Fin 4096) :
    k5_pay8 x1 x3 (View.ld x0 R0) x4 x5 x2 (ix2 d p) = y2 x1 x2 x3 (colb x0 x4 x5 0 p) d := by
  rw [pay8_apply, col_R0]

theorem row1_apply (x0 : Vec Ideal S2x64x4096 .f32) (x1 : Vec Ideal S128x64 .f32) (x2 : Vec Ideal S128x1 .f32)
    (x3 : Vec Ideal S64x128 .f32) (x4 x5 : Vec Ideal S64x1 .f32) (d : Fin 64) (p : Fin 4096) :
    k5_pay1 x3 (k5_pay12 (k5_pay7 x1) (View.ld x0 R1) x4 x5 x2) (Scalar.ofBits .f32 0x3E4CCCCD#32) (ix2 d p) = y2 x1 x2 x3 (colb x0 x4 x5 1 p) d := by
  rw [pay1_apply, pay7_eq, col_R1]

/-- The activation block a point leaves: y₂ of each of its two rows. -/
theorem blk_apply (x0 : Vec Ideal S2x64x4096 .f32) (x1 : Vec Ideal S128x64 .f32) (x2 : Vec Ideal S128x1 .f32)
    (x3 : Vec Ideal S64x128 .f32) (x4 x5 : Vec Ideal S64x1 .f32) (n : Fin 2) (d : Fin 64) (p : Fin 4096) :
    (if n.val = 0 then k5_pay9 x1 x3 (View.ld x0 R0) x4 x5 x2 (ix3 (0 : Fin 1) d p)
      else k5_pay2 x3 (k5_pay12 (k5_pay7 x1) (View.ld x0 R1) x4 x5 x2) (Scalar.ofBits .f32 0x3E4CCCCD#32) (ix3 (0 : Fin 1) d p))
      = y2 x1 x2 x3 (colb x0 x4 x5 n p) d := by
  by_cases hn : n.val = 0
  · rw [if_pos hn, pay9_apply, col_R0]
    obtain rfl : n = 0 := Fin.ext hn
    rfl
  · rw [if_neg hn, pay2_apply, row1_apply]
    obtain rfl : n = 1 := Fin.ext (by have := n.isLt; omega)
    rfl

/-- The running sum a point leaves, over the column `xo` it found. -/
theorem sum_apply (x0 : Vec Ideal S2x64x4096 .f32) (x1 : Vec Ideal S128x64 .f32) (x2 : Vec Ideal S128x1 .f32)
    (x3 : Vec Ideal S64x128 .f32) (x4 x5 : Vec Ideal S64x1 .f32) (xo : Vec Ideal S1x64x1 .f32) (d : Fin 64) :
    k5_pay3 x3 (k5_pay12 (k5_pay7 x1) (View.ld x0 R1) x4 x5 x2) (Scalar.ofBits .f32 0x3E4CCCCD#32) (k5_pay10 (k5_pay8 x1 x3 (View.ld x0 R0) x4 x5 x2) xo) (ix3 (0 : Fin 1) d (0 : Fin 1))
      = (xo (ix3 (0 : Fin 1) d (0 : Fin 1)) + ∑ p : Fin 4096, y2 x1 x2 x3 (colb x0 x4 x5 0 p) d)
        + ∑ p : Fin 4096, y2 x1 x2 x3 (colb x0 x4 x5 1 p) d := by
  rw [pay3_apply, pay10_apply]
  simp only [row0_apply, row1_apply]

/-- The running sum of squares a point leaves, over the column `xo` it found. -/
theorem ssq_apply (x0 : Vec Ideal S2x64x4096 .f32) (x1 : Vec Ideal S128x64 .f32) (x2 : Vec Ideal S128x1 .f32)
    (x3 : Vec Ideal S64x128 .f32) (x4 x5 : Vec Ideal S64x1 .f32) (xo : Vec Ideal S1x64x1 .f32) (d : Fin 64) :
    k5_pay4 x3 (k5_pay12 (k5_pay7 x1) (View.ld x0 R1) x4 x5 x2) (Scalar.ofBits .f32 0x3E4CCCCD#32) (k5_pay11 (k5_pay8 x1 x3 (View.ld x0 R0) x4 x5 x2) xo) (ix3 (0 : Fin 1) d (0 : Fin 1))
      = (xo (ix3 (0 : Fin 1) d (0 : Fin 1))
          + ∑ p : Fin 4096, y2 x1 x2 x3 (colb x0 x4 x5 0 p) d * y2 x1 x2 x3 (colb x0 x4 x5 0 p) d)
        + ∑ p : Fin 4096, y2 x1 x2 x3 (colb x0 x4 x5 1 p) d * y2 x1 x2 x3 (colb x0 x4 x5 1 p) d := by
  rw [pay4_apply, pay11_apply]
  simp only [row0_apply, row1_apply]

/-! ## The running columns, point by point -/

theorem zero_col (d : Fin 64) : k5_pay5 (F := Ideal) (ix3 (0 : Fin 1) d (0 : Fin 1)) = 0 := by
  rw [pay5_apply, Ideal.ofBits_zero_f32]
theorem zero_col' (d : Fin 64) : k5_pay6 (F := Ideal) (ix3 (0 : Fin 1) d (0 : Fin 1)) = 0 := by
  rw [pay6_apply, Ideal.ofBits_zero_f32]

/-- A point's rows in terms of the arrays. -/
theorem rows_eq (c : Dev nD) (t : Fin cfg5.N) (d : Fin 64) (n : Fin 2) (p : Fin 4096) :
    y2 (iblk5 V c 1 t) (iblk5 V c 2 t) (iblk5 V c 3 t) (colb (iblk5 V c 0 t) (iblk5 V c 4 t) (iblk5 V c 5 t) n p) d
      = Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowN (2 * t.val + n.val)) d p := by
  rw [iblk_1 V c t, iblk_2 V c t, iblk_3 V c t, iblk_4 V c t, iblk_5 V c t]
  unfold Y
  exact congrArg (fun a => y2 _ _ _ a d) (funext fun k' =>
    congrArg (fun z => lrelu (z * V c (Pipeline.arrRef spec5 4) (ix2 k' (0 : Fin 1)) + V c (Pipeline.arrRef spec5 5) (ix2 k' (0 : Fin 1))))
      (iblk0_apply V c t n k' p))

theorem rowsum_eq (c : Dev nD) (t : Fin cfg5.N) (d : Fin 64) (m : Fin 2) (r : ℕ) (hr : r = 2 * t.val + m.val) :
    (∑ p : Fin 4096, y2 (iblk5 V c 1 t) (iblk5 V c 2 t) (iblk5 V c 3 t)
        (colb (iblk5 V c 0 t) (iblk5 V c 4 t) (iblk5 V c 5 t) m p) d)
      = Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d r := by
  subst hr
  exact Finset.sum_congr rfl fun p _ => rows_eq V c t d m p

theorem rowssq_eq (c : Dev nD) (t : Fin cfg5.N) (d : Fin 64) (m : Fin 2) (r : ℕ) (hr : r = 2 * t.val + m.val) :
    (∑ p : Fin 4096, y2 (iblk5 V c 1 t) (iblk5 V c 2 t) (iblk5 V c 3 t)
          (colb (iblk5 V c 0 t) (iblk5 V c 4 t) (iblk5 V c 5 t) m p) d
        * y2 (iblk5 V c 1 t) (iblk5 V c 2 t) (iblk5 V c 3 t)
          (colb (iblk5 V c 0 t) (iblk5 V c 4 t) (iblk5 V c 5 t) m p) d)
      = Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d r := by
  subst hr
  exact Finset.sum_congr rfl fun p _ => by rw [rows_eq V c t d m p]

/-! ### One point's step on each running column -/

set_option maxHeartbeats 400000 in
theorem point_A7 (c : Dev nD) (n : ℕ) (h : n < cfg5.N) (h0 : n % 8 = 0) (d : Fin 64) :
    (outsAt5 V c n h).2.1 (ix3 (0 : Fin 1) d (0 : Fin 1))
      = ((0 : EReal) + Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n)) + Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n + 1) := by
  rw [show outsAt5 V c n h = _ from outsAt5_A V c ⟨n, h⟩ h0]
  dsimp only
  rw [out_A_7 c (grid5.coords ⟨n, h⟩) (ms5_0 ⟨n, h⟩) (hs5_0 ⟨n, h⟩) (ms5_1 ⟨n, h⟩) (hs5_1 ⟨n, h⟩) (ms5_2 ⟨n, h⟩) (hs5_2 ⟨n, h⟩) (ms5_3 ⟨n, h⟩) (hs5_3 ⟨n, h⟩) (ms5_4 ⟨n, h⟩) (hs5_4 ⟨n, h⟩) (ms5_5 ⟨n, h⟩) (hs5_5 ⟨n, h⟩) (ms5_6 ⟨n, h⟩) (hs5_6 ⟨n, h⟩) (ms5_7 ⟨n, h⟩) (hs5_7 ⟨n, h⟩) (ms5_8 ⟨n, h⟩) (hs5_8 ⟨n, h⟩) ((hcond5_0 ⟨n, h⟩).mpr h0) (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩),
    sum_apply (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (k5_pay5 (F := Ideal)) d, zero_col,
    rowsum_eq V c ⟨n, h⟩ d 0 (2 * n) rfl, rowsum_eq V c ⟨n, h⟩ d 1 (2 * n + 1) rfl]

set_option maxHeartbeats 400000 in
theorem point_A8 (c : Dev nD) (n : ℕ) (h : n < cfg5.N) (h0 : n % 8 = 0) (d : Fin 64) :
    (outsAt5 V c n h).2.2 (ix3 (0 : Fin 1) d (0 : Fin 1))
      = ((0 : EReal) + Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n)) + Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n + 1) := by
  rw [show outsAt5 V c n h = _ from outsAt5_A V c ⟨n, h⟩ h0]
  dsimp only
  rw [out_A_8 c (grid5.coords ⟨n, h⟩) (ms5_0 ⟨n, h⟩) (hs5_0 ⟨n, h⟩) (ms5_1 ⟨n, h⟩) (hs5_1 ⟨n, h⟩) (ms5_2 ⟨n, h⟩) (hs5_2 ⟨n, h⟩) (ms5_3 ⟨n, h⟩) (hs5_3 ⟨n, h⟩) (ms5_4 ⟨n, h⟩) (hs5_4 ⟨n, h⟩) (ms5_5 ⟨n, h⟩) (hs5_5 ⟨n, h⟩) (ms5_6 ⟨n, h⟩) (hs5_6 ⟨n, h⟩) (ms5_7 ⟨n, h⟩) (hs5_7 ⟨n, h⟩) (ms5_8 ⟨n, h⟩) (hs5_8 ⟨n, h⟩) ((hcond5_0 ⟨n, h⟩).mpr h0) (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩),
    ssq_apply (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) (k5_pay6 (F := Ideal)) d, zero_col',
    rowssq_eq V c ⟨n, h⟩ d 0 (2 * n) rfl, rowssq_eq V c ⟨n, h⟩ d 1 (2 * n + 1) rfl]

set_option maxHeartbeats 400000 in
theorem point_B7 (c : Dev nD) (n : ℕ) (h : n < cfg5.N) (h0 : ¬n % 8 = 0) (d : Fin 64) :
    (outsAt5 V c n h).2.1 (ix3 (0 : Fin 1) d (0 : Fin 1))
      = ((outsAt5 V c (n - 1) (Nat.lt_of_le_of_lt (Nat.sub_le _ _) h)).2.1 (ix3 (0 : Fin 1) d (0 : Fin 1)) + Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n)) + Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n + 1) := by
  rw [show outsAt5 V c n h = _ from outsAt5_B V c ⟨n, h⟩ h0]
  dsimp only
  rw [out_B_7 c (grid5.coords ⟨n, h⟩) (ms5_0 ⟨n, h⟩) (hs5_0 ⟨n, h⟩) (ms5_1 ⟨n, h⟩) (hs5_1 ⟨n, h⟩) (ms5_2 ⟨n, h⟩) (hs5_2 ⟨n, h⟩) (ms5_3 ⟨n, h⟩) (hs5_3 ⟨n, h⟩) (ms5_4 ⟨n, h⟩) (hs5_4 ⟨n, h⟩) (ms5_5 ⟨n, h⟩) (hs5_5 ⟨n, h⟩) (ms5_6 ⟨n, h⟩) (hs5_6 ⟨n, h⟩) (ms5_7 ⟨n, h⟩) (hs5_7 ⟨n, h⟩) (ms5_8 ⟨n, h⟩) (hs5_8 ⟨n, h⟩) (fun hh => h0 ((hcond5_0 ⟨n, h⟩).mp hh)) (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) _ _,
    sum_apply (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) _ d,
    rowsum_eq V c ⟨n, h⟩ d 0 (2 * n) rfl, rowsum_eq V c ⟨n, h⟩ d 1 (2 * n + 1) rfl]

set_option maxHeartbeats 400000 in
theorem point_B8 (c : Dev nD) (n : ℕ) (h : n < cfg5.N) (h0 : ¬n % 8 = 0) (d : Fin 64) :
    (outsAt5 V c n h).2.2 (ix3 (0 : Fin 1) d (0 : Fin 1))
      = ((outsAt5 V c (n - 1) (Nat.lt_of_le_of_lt (Nat.sub_le _ _) h)).2.2 (ix3 (0 : Fin 1) d (0 : Fin 1)) + Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n)) + Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * n + 1) := by
  rw [show outsAt5 V c n h = _ from outsAt5_B V c ⟨n, h⟩ h0]
  dsimp only
  rw [out_B_8 c (grid5.coords ⟨n, h⟩) (ms5_0 ⟨n, h⟩) (hs5_0 ⟨n, h⟩) (ms5_1 ⟨n, h⟩) (hs5_1 ⟨n, h⟩) (ms5_2 ⟨n, h⟩) (hs5_2 ⟨n, h⟩) (ms5_3 ⟨n, h⟩) (hs5_3 ⟨n, h⟩) (ms5_4 ⟨n, h⟩) (hs5_4 ⟨n, h⟩) (ms5_5 ⟨n, h⟩) (hs5_5 ⟨n, h⟩) (ms5_6 ⟨n, h⟩) (hs5_6 ⟨n, h⟩) (ms5_7 ⟨n, h⟩) (hs5_7 ⟨n, h⟩) (ms5_8 ⟨n, h⟩) (hs5_8 ⟨n, h⟩) (fun hh => h0 ((hcond5_0 ⟨n, h⟩).mp hh)) (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) _ _,
    ssq_apply (iblk5 V c 0 ⟨n, h⟩) (iblk5 V c 1 ⟨n, h⟩) (iblk5 V c 2 ⟨n, h⟩) (iblk5 V c 3 ⟨n, h⟩) (iblk5 V c 4 ⟨n, h⟩) (iblk5 V c 5 ⟨n, h⟩) _ d,
    rowssq_eq V c ⟨n, h⟩ d 0 (2 * n) rfl, rowssq_eq V c ⟨n, h⟩ d 1 (2 * n + 1) rfl]

/-- THE RUNNING COLUMNS after point `n`: the closed form, by induction on the point. -/
theorem cols_eq (c : Dev nD) (d : Fin 64) : ∀ (n : ℕ) (h : n < cfg5.N),
    (outsAt5 V c n h).2.1 (ix3 (0 : Fin 1) d (0 : Fin 1)) = acc (Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d) n
      ∧ (outsAt5 V c n h).2.2 (ix3 (0 : Fin 1) d (0 : Fin 1)) = acc (Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d) n := by
  intro n
  induction n using Nat.strong_induction_on with
  | _ n ih =>
    intro h
    by_cases h0 : n % 8 = 0
    · exact ⟨(point_A7 V c n h h0 d).trans (acc_first _ n h0), (point_A8 V c n h h0 d).trans (acc_first _ n h0)⟩
    · obtain ⟨i7, i8⟩ := ih (n - 1) (by omega) (Nat.lt_of_le_of_lt (Nat.sub_le _ _) h)
      constructor
      · rw [point_B7 V c n h h0 d, i7]
        exact acc_next _ n h0
      · rw [point_B8 V c n h h0 d, i8]
        exact acc_next _ n h0

end Cert.KMain5

end
-- ==== Proof.KMain5Arr.lean ====
/-
  The third main region's arrays after its run: what each point writes back is a block of ONE function of the arrays
  the region reads, and the blocks written back cover each result array — the activation array by rows two at a time
  (row n is written by point n / 2), each column array by its two rows (row `core` after the core's last point).
-/
import proofs.«126831_g2000503633499865_pallasbulk_555_4_alg».proof.Proof.KMain5Val
import proofs.«126831_g2000503633499865_pallasbulk_555_4_alg».proof.Proof.KMain1Arr

noncomputable section

open scoped BigOperators

namespace Cert.KMain5

open Idealize.ShloMosaic Idealize.ShloMosaic.TcCoe Idealize.ShloMosaic.ValueIdx Idealize.SL.Sem
open Idealize.ShloMosaic.Pipeline (Dat)
open Cert.KernelIdeal Cert.KernelIdeal.Gen
open Cert.KMain1 (lrelu hid y2 R0 R1 rowN rowOf acc acc_last rowN_eq)

variable (V : (c : Dev nD) → (b : Ref sig .tc) → Buf (Elt Ideal) ((c : Thread nD τ).loc b))

/-! ## The activation array (window 6) -/

set_option maxHeartbeats 1000000 in
theorem flushed6_eq (c : Dev nD) (t : Fin cfg5.N) :
    (dat5 V c).flushed 6 t
      = ((cfg5.win 6).blk t).view.read (Elt Ideal) (G6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  have hN : cfg5.N = 16 := N_5
  have ht := t.isLt
  show (cfg5.win 6).cut (grid5.coords t) ((dat5 V c).after 6 t) = _
  rw [after5_6]
  funext y
  obtain ⟨n, d, p, rfl⟩ : ∃ (n : Fin 2) (d : Fin 64) (p : Fin 4096), y = ix3 n d p := ⟨y 0, y 1, y 2, eq_ix3 y⟩
  rw [View.read_apply]
  have e : ((cfg5.win 6).blk t).view.emb (ix3 n d p) = (ix3 (rowN (2 * t.val + n.val)) d p : S32x64x4096.Idx) :=
    funext fun a => Fin.ext (by
      match a with
      | ⟨0, _⟩ => show win5_6.index t (0 : Fin 3) * 2 + 1 * n.val = (2 * t.val + n.val) % 32; rw [(idx6 t).1]; omega
      | ⟨1, _⟩ => show win5_6.index t (1 : Fin 3) * 64 + 1 * d.val = d.val; rw [(idx6 t).2.1]; omega
      | ⟨2, _⟩ => show win5_6.index t (2 : Fin 3) * 4096 + 1 * p.val = p.val; rw [(idx6 t).2.2]; omega)
  show (outsAt5 V c t.val t.isLt).1 (ix3 n d p) = G6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb (ix3 n d p))
  rw [e]
  show _ = Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowN (2 * t.val + n.val)) d p
  rw [← rows_eq V c t d n p]
  by_cases h0 : t.val % 8 = 0
  · rw [outsAt5_A V c t h0]
    dsimp only
    rw [out_A_6_apply c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) ((hcond5_0 t).mpr h0) (iblk5 V c 0 t) (iblk5 V c 1 t) (iblk5 V c 2 t) (iblk5 V c 3 t) (iblk5 V c 4 t) (iblk5 V c 5 t) n d p]
    exact blk_apply (iblk5 V c 0 t) (iblk5 V c 1 t) (iblk5 V c 2 t) (iblk5 V c 3 t) (iblk5 V c 4 t) (iblk5 V c 5 t) n d p
  · rw [outsAt5_B V c t h0]
    dsimp only
    rw [out_B_6_apply c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (fun hh => h0 ((hcond5_0 t).mp hh)) (iblk5 V c 0 t) (iblk5 V c 1 t) (iblk5 V c 2 t) (iblk5 V c 3 t) (iblk5 V c 4 t) (iblk5 V c 5 t) _ _ n d p]
    exact blk_apply (iblk5 V c 0 t) (iblk5 V c 1 t) (iblk5 V c 2 t) (iblk5 V c 3 t) (iblk5 V c 4 t) (iblk5 V c 5 t) n d p

theorem mem_blk6 (t : Fin cfg5.N) (i : S32x64x4096.Idx) :
    i ∈ ((cfg5.win 6).blk t).view.set ↔ ∀ a : Fin 3, win5_6.index t a * S2x64x4096.size a ≤ (i a).val
      ∧ (i a).val < win5_6.index t a * S2x64x4096.size a + S2x64x4096.size a := by
  show i ∈ ((View.whole main_v92_0).slice (win5_6.rect t)).set ↔ _
  rw [View.set_slice_whole, Rect.mem_set_unit]
  exact Iff.rfl

/-- THE NEW ACTIVATION ARRAY after the region: y₂ of every batch row. -/
theorem arrAt_6 (c : Dev nD) :
    (dat5 V c).arrAt 6 cfg5.N = G6 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed6_eq V c t) fun i => by
    have h0 : (i 0).val < 32 := (i 0).isLt
    have h1 : (i 1).val < 64 := (i 1).isLt
    have h2 : (i 2).val < 4096 := (i 2).isLt
    have hN : cfg5.N = 16 := N_5
    refine ⟨⟨(i 0).val / 2, by omega⟩, flush5_6 _, ?_⟩
    rw [mem_blk6]
    obtain ⟨e0, e1, e2⟩ := idx6 ⟨(i 0).val / 2, by omega⟩
    intro a
    match a with
    | ⟨0, _⟩ => show win5_6.index _ (0 : Fin 3) * 2 ≤ (i 0).val ∧ (i 0).val < win5_6.index _ (0 : Fin 3) * 2 + 2; rw [e0]; dsimp only; omega
    | ⟨1, _⟩ => show win5_6.index _ (1 : Fin 3) * 64 ≤ (i 1).val ∧ (i 1).val < win5_6.index _ (1 : Fin 3) * 64 + 64; rw [e1]; omega
    | ⟨2, _⟩ => show win5_6.index _ (2 : Fin 3) * 4096 ≤ (i 2).val ∧ (i 2).val < win5_6.index _ (2 : Fin 3) * 4096 + 4096; rw [e2]; omega

/-! ## The two column arrays (windows 7 and 8) -/

/-- The two batch rows of point `j` of the core of a last point `t`, by number and by (core, j, row). -/
theorem rowN_eq0 (t : ℕ) (ht : t < 16) (j : Fin 8) : rowN (2 * (t / 8 * 8 + j.val)) = rowOf ⟨t / 8, by omega⟩ j 0 :=
  Fin.ext (by show (2 * (t / 8 * 8 + j.val)) % 32 = (t / 8 * 8 + j.val) * 2 + 0; have := j.isLt; omega)
theorem rowN_eq1 (t : ℕ) (ht : t < 16) (j : Fin 8) : rowN (2 * (t / 8 * 8 + j.val) + 1) = rowOf ⟨t / 8, by omega⟩ j 1 :=
  Fin.ext (by show (2 * (t / 8 * 8 + j.val) + 1) % 32 = (t / 8 * 8 + j.val) * 2 + 1; have := j.isLt; omega)

set_option maxHeartbeats 2000000 in
theorem flushed7_eq (c : Dev nD) (t : Fin cfg5.N) (hf : (cfg5.win 7).flush t = true) :
    (dat5 V c).flushed 7 t
      = ((cfg5.win 7).blk t).view.read (Elt Ideal) (G7 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  have hN : cfg5.N = 16 := N_5
  have ht : t.val < 16 := hN ▸ t.isLt
  have h7 : t.val % 8 = 7 := (flush5_7 t).mp hf
  show (cfg5.win 7).cut (grid5.coords t) ((dat5 V c).after 7 t) = _
  rw [after5_7]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg5.win 7).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win5_7.index t (0 : Fin 3) * 1 + 1 * 0 = t.val / 8; rw [(idx7 t).1]; omega
      | ⟨1, _⟩ => show win5_7.index t (1 : Fin 3) * 64 + 1 * d.val = d.val; rw [(idx7 t).2.1]; omega
      | ⟨2, _⟩ => show win5_7.index t (2 : Fin 3) * 1 + 1 * 0 = 0; rw [(idx7 t).2.2])
  show (outsAt5 V c t.val t.isLt).2.1 (ix3 (0 : Fin 1) d (0 : Fin 1))
    = G7 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 7).blk t).view.emb (ix3 (0 : Fin 1) d (0 : Fin 1)))
  rw [e, (cols_eq V c d t.val t.isLt).1, acc_last _ _ h7]
  refine Finset.sum_congr rfl fun j _ => ?_
  show Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * (t.val / 8 * 8 + j.val)) + Srow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * (t.val / 8 * 8 + j.val) + 1)
    = (∑ p : Fin 4096, Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 0) d p) + ∑ p : Fin 4096, Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 1) d p
  unfold Srow
  rw [rowN_eq0 t.val ht j, rowN_eq1 t.val ht j]

theorem mem_blk7 (t : Fin cfg5.N) (i : S2x64x1.Idx) :
    i ∈ ((cfg5.win 7).blk t).view.set ↔ ∀ a : Fin 3, win5_7.index t a * S1x64x1.size a ≤ (i a).val
      ∧ (i a).val < win5_7.index t a * S1x64x1.size a + S1x64x1.size a := by
  show i ∈ ((View.whole main_v92_1).slice (win5_7.rect t)).set ↔ _
  rw [View.set_slice_whole, Rect.mem_set_unit]
  exact Iff.rfl

theorem arrAt_7 (c : Dev nD) :
    (dat5 V c).arrAt 7 cfg5.N = G7 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 7 _ (fun t hf => flushed7_eq V c t hf) fun i => by
    have h0 : (i 0).val < 2 := (i 0).isLt
    have h1 : (i 1).val < 64 := (i 1).isLt
    have h2 : (i 2).val < 1 := (i 2).isLt
    have hN : cfg5.N = 16 := N_5
    refine ⟨⟨(i 0).val * 8 + 7, by omega⟩, (flush5_7 _).mpr (by dsimp only; omega), ?_⟩
    rw [mem_blk7]
    obtain ⟨e0, e1, e2⟩ := idx7 ⟨(i 0).val * 8 + 7, by omega⟩
    intro a
    match a with
    | ⟨0, _⟩ => show win5_7.index _ (0 : Fin 3) * 1 ≤ (i 0).val ∧ (i 0).val < win5_7.index _ (0 : Fin 3) * 1 + 1; rw [e0]; dsimp only; omega
    | ⟨1, _⟩ => show win5_7.index _ (1 : Fin 3) * 64 ≤ (i 1).val ∧ (i 1).val < win5_7.index _ (1 : Fin 3) * 64 + 64; rw [e1]; omega
    | ⟨2, _⟩ => show win5_7.index _ (2 : Fin 3) * 1 ≤ (i 2).val ∧ (i 2).val < win5_7.index _ (2 : Fin 3) * 1 + 1; rw [e2]; omega

set_option maxHeartbeats 2000000 in
theorem flushed8_eq (c : Dev nD) (t : Fin cfg5.N) (hf : (cfg5.win 8).flush t = true) :
    (dat5 V c).flushed 8 t
      = ((cfg5.win 8).blk t).view.read (Elt Ideal) (G8 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  have hN : cfg5.N = 16 := N_5
  have ht : t.val < 16 := hN ▸ t.isLt
  have h7 : t.val % 8 = 7 := (flush5_8 t).mp hf
  show (cfg5.win 8).cut (grid5.coords t) ((dat5 V c).after 8 t) = _
  rw [after5_8]
  funext y
  obtain ⟨u, d, v, rfl⟩ : ∃ (u : Fin 1) (d : Fin 64) (v : Fin 1), y = ix3 u d v := ⟨y 0, y 1, y 2, eq_ix3 y⟩
  obtain rfl : u = 0 := Subsingleton.elim _ _
  obtain rfl : v = 0 := Subsingleton.elim _ _
  rw [View.read_apply]
  have e : ((cfg5.win 8).blk t).view.emb (ix3 (0 : Fin 1) d (0 : Fin 1))
      = (ix3 (⟨t.val / 8, by omega⟩ : Fin 2) d (0 : Fin 1) : S2x64x1.Idx) :=
    funext fun a => Fin.ext (by
      match a with
      | ⟨0, _⟩ => show win5_8.index t (0 : Fin 3) * 1 + 1 * 0 = t.val / 8; rw [(idx8 t).1]; omega
      | ⟨1, _⟩ => show win5_8.index t (1 : Fin 3) * 64 + 1 * d.val = d.val; rw [(idx8 t).2.1]; omega
      | ⟨2, _⟩ => show win5_8.index t (2 : Fin 3) * 1 + 1 * 0 = 0; rw [(idx8 t).2.2])
  show (outsAt5 V c t.val t.isLt).2.2 (ix3 (0 : Fin 1) d (0 : Fin 1))
    = G8 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 8).blk t).view.emb (ix3 (0 : Fin 1) d (0 : Fin 1)))
  rw [e, (cols_eq V c d t.val t.isLt).2, acc_last _ _ h7]
  refine Finset.sum_congr rfl fun j _ => ?_
  show Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * (t.val / 8 * 8 + j.val)) + Qrow (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) d (2 * (t.val / 8 * 8 + j.val) + 1)
    = (∑ p : Fin 4096, Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 0) d p * Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 0) d p) + ∑ p : Fin 4096, Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 1) d p * Y (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (rowOf ⟨t.val / 8, by omega⟩ j 1) d p
  unfold Qrow
  rw [rowN_eq0 t.val ht j, rowN_eq1 t.val ht j]

theorem mem_blk8 (t : Fin cfg5.N) (i : S2x64x1.Idx) :
    i ∈ ((cfg5.win 8).blk t).view.set ↔ ∀ a : Fin 3, win5_8.index t a * S1x64x1.size a ≤ (i a).val
      ∧ (i a).val < win5_8.index t a * S1x64x1.size a + S1x64x1.size a := by
  show i ∈ ((View.whole main_v92_2).slice (win5_8.rect t)).set ↔ _
  rw [View.set_slice_whole, Rect.mem_set_unit]
  exact Iff.rfl

theorem arrAt_8 (c : Dev nD) :
    (dat5 V c).arrAt 8 cfg5.N = G8 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 8 _ (fun t hf => flushed8_eq V c t hf) fun i => by
    have h0 : (i 0).val < 2 := (i 0).isLt
    have h1 : (i 1).val < 64 := (i 1).isLt
    have h2 : (i 2).val < 1 := (i 2).isLt
    have hN : cfg5.N = 16 := N_5
    refine ⟨⟨(i 0).val * 8 + 7, by omega⟩, (flush5_8 _).mpr (by dsimp only; omega), ?_⟩
    rw [mem_blk8]
    obtain ⟨e0, e1, e2⟩ := idx8 ⟨(i 0).val * 8 + 7, by omega⟩
    intro a
    match a with
    | ⟨0, _⟩ => show win5_8.index _ (0 : Fin 3) * 1 ≤ (i 0).val ∧ (i 0).val < win5_8.index _ (0 : Fin 3) * 1 + 1; rw [e0]; dsimp only; omega
    | ⟨1, _⟩ => show win5_8.index _ (1 : Fin 3) * 64 ≤ (i 1).val ∧ (i 1).val < win5_8.index _ (1 : Fin 3) * 64 + 64; rw [e1]; omega
    | ⟨2, _⟩ => show win5_8.index _ (2 : Fin 3) * 1 ≤ (i 2).val ∧ (i 2).val < win5_8.index _ (2 : Fin 3) * 1 + 1; rw [e2]; omega

end Cert.KMain5

end
-- ==== Proof.KMain5Bridge.lean ====
/-
  The third main region in the network's own words: its activation array is the block's second 1x1 convolution
  of the rectified, shifted first one, pixel by pixel; its two column arrays, summed over the two cores, are that
  output's per-channel sum and sum of squares over all pixels — the kernel's nesting of the 32 batch rows (core, grid
  step, row of the block) re-indexed to the batch rows themselves.
-/
import proofs.«126831_g2000503633499865_pallasbulk_555_4_alg».proof.Proof.KMain5Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open Idealize.ShloMosaic Idealize.ShloMosaic.ValueIdx
open scoped BigOperators

namespace Cert.KMain5

open Cert.KernelIdeal Cert
open Cert.KMain1 (lrelu hid y2 rowOf)

/-- One entry of the region's output, arrays against functions. -/
theorem Y_net (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    Y a w1f t1 w2 s t n d p = (Net.conv W2 (fun (ch : Fin 128) (x : Net.Px) => Net.lrelu Net.slopec (Net.conv W1f A ch x + T1 ch))) d (n, p) := by
  unfold Y y2
  show _ = ∑ k : Fin 128, W2 d k * Net.lrelu Net.slopec (Net.conv W1f A k (n, p) + T1 k)
  refine Finset.sum_congr rfl fun k _ => ?_
  rw [hw2]
  refine congrArg (W2 d k * ·) ?_
  unfold hid
  rw [ht1]
  show lrelu _ = lrelu _
  refine congrArg (fun z => lrelu (z + T1 k)) ?_
  show _ = ∑ k' : Fin 64, W1f k k' * A k' (n, p)
  exact Finset.sum_congr rfl fun k' _ => congrArg₂ (· * ·) (hw1 k k') (ha n k' p)

/-- The activation array, entry by entry. -/
theorem y2_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (n : Fin 32) (d : Fin 64) (p : Fin 4096) :
    G6 a w1f t1 w2 s t (ix3 n d p) = (Net.conv W2 (fun (ch : Fin 128) (x : Net.Px) => Net.lrelu Net.slopec (Net.conv W1f A ch x + T1 ch))) d (n, p) :=
  Y_net a w1f t1 w2 s t A W1f T1 W2 ha hw1 ht1 hw2 n d p

/-- The sum columns of the two cores add up to the channel's sum over all pixels. -/
theorem sum_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G7 a w1f t1 w2 s t (ix3 core d u) = Net.tot (Net.conv W2 (fun (ch : Fin 128) (x : Net.Px) => Net.lrelu Net.slopec (Net.conv W1f A ch x + T1 ch))) d := by
  show ∑ core : Fin 2, ∑ j : Fin 8, ((∑ p : Fin 4096, Y a w1f t1 w2 s t (rowOf core j 0) d p)
    + ∑ p : Fin 4096, Y a w1f t1 w2 s t (rowOf core j 1) d p) = _
  rw [Net.sum_rows_fin (fun n => ∑ p : Fin 4096, Y a w1f t1 w2 s t n d p) rowOf (fun _ _ _ => rfl)]
  unfold Net.tot
  rw [Fintype.sum_prod_type]
  exact Finset.sum_congr rfl fun n _ => Finset.sum_congr rfl fun p _ => Y_net a w1f t1 w2 s t A W1f T1 W2 ha hw1 ht1 hw2 n d p

/-- The sum-of-squares columns of the two cores add up to the channel's sum of squares over all pixels. -/
theorem ssq_eq (a : S32x64x4096.Idx → EReal) (w1f : S128x64.Idx → EReal) (t1 : S128x1.Idx → EReal) (w2 : S64x128.Idx → EReal) (s t : S64x1.Idx → EReal)
    (A : Fin 64 → Net.Px → EReal) (W1f : Fin 128 → Fin 64 → EReal) (T1 : Fin 128 → EReal) (W2 : Fin 64 → Fin 128 → EReal)
    (ha : ∀ (n : Fin 32) (k : Fin 64) (p : Fin 4096), Net.lrelu Net.slopec (a (ix3 n k p) * s (ix2 k (0 : Fin 1)) + t (ix2 k (0 : Fin 1))) = A k (n, p))
    (hw1 : ∀ (ch : Fin 128) (k : Fin 64), w1f (ix2 ch k) = W1f ch k) (ht1 : ∀ ch : Fin 128, t1 (ix2 ch (0 : Fin 1)) = T1 ch)
    (hw2 : ∀ (d : Fin 64) (ch : Fin 128), w2 (ix2 d ch) = W2 d ch)
    (d : Fin 64) (u : Fin 1) :
    ∑ core : Fin 2, G8 a w1f t1 w2 s t (ix3 core d u) = Net.tot2 (Net.conv W2 (fun (ch : Fin 128) (x : Net.Px) => Net.lrelu Net.slopec (Net.conv W1f A ch x + T1 ch))) d := by
  show ∑ core : Fin 2, ∑ j : Fin 8, ((∑ p : Fin 4096, Y a w1f t1 w2 s t (rowOf core j 0) d p * Y a w1f t1 w2 s t (rowOf core j 0) d p)
    + ∑ p : Fin 4096, Y a w1f t1 w2 s t (rowOf core j 1) d p * Y a w1f t1 w2 s t (rowOf core j 1) d p) = _
  rw [Net.sum_rows_fin (fun n => ∑ p : Fin 4096, Y a w1f t1 w2 s t n d p * Y a w1f t1 w2 s t n d p) rowOf (fun _ _ _ => rfl)]
  unfold Net.tot2
  rw [Fintype.sum_prod_type]
  exact Finset.sum_congr rfl fun n _ => Finset.sum_congr rfl fun p _ =>
    congrArg₂ (· * ·) (Y_net a w1f t1 w2 s t A W1f T1 W2 ha hw1 ht1 hw2 n d p) (Y_net a w1f t1 w2 s t A W1f T1 W2 ha hw1 ht1 hw2 n d p)

end Cert.KMain5

end
-- ==== Proof.KFlowC.lean ====
/-
  The idealized kernel's run, read as mathematics — block 3: its statistics pass, main pass and the host operations
  after each. The passes read the previous block's output as lrelu (y2 · s2 + t2), recomputed from the stored y2 and the
  previous normalisation's scale and shift; with that as the block's input the structure is the first block's.
-/
import proofs.«126831_g2000503633499865_pallasbulk_555_4_alg».proof.Proof.KFlowB
import proofs.«126831_g2000503633499865_pallasbulk_555_4_alg».proof.Proof.KKeep
import proofs.«126831_g2000503633499865_pallasbulk_555_4_alg».proof.Proof.KStats4Val
import proofs.«126831_g2000503633499865_pallasbulk_555_4_alg».proof.Proof.KStats4Bridge
import proofs.«126831_g2000503633499865_pallasbulk_555_4_alg».proof.Proof.KMain5Arr
import proofs.«126831_g2000503633499865_pallasbulk_555_4_alg».proof.Proof.KMain5Bridge

set_option maxRecDepth 16384

noncomputable section

namespace Cert.KernelIdeal.Flow

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- This block's weights and its input activation. -/
abbrev q2 : Net.BlockParams (Fin 64) (Fin 128) :=
  Net.qOf (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
abbrev A2 : Fin 64 → Net.Px → EReal := Net.stepK Net.Nc Net.epsc Net.slopec (q1 m c) (A1 m c)

/-! ## The statistics pass -/

theorem b2_arg_w1_at (ch : Fin 128) (k : Fin 64) :
    V9 (F := Ideal) m ρ c main_arg13 (ix2 ch k) = (q2 m c).W1 ch k := by
  have e : V9 (F := Ideal) m ρ c main_arg13 = m ((c : Thread nD τ).loc main_arg13) := w9_arg13 m ρ c
  rw [e]; rfl

theorem b2_acc_sum : W10 (F := Ideal) m ρ c (Proc.devRef .tc main_v73_0)
    = KStats4.GK4_4 (V9 m ρ c main_v56_0) (V9 m ρ c main_arg13) (V9 m ρ c main_v70) (V9 m ρ c main_v72) :=
  (W10_arr m ρ c 4).trans (KStats4.arrAt_4 (V9 m ρ) c)

theorem b2_acc_ssq : W10 (F := Ideal) m ρ c (Proc.devRef .tc main_v73_1)
    = KStats4.GK4_5 (V9 m ρ c main_v56_0) (V9 m ρ c main_arg13) (V9 m ρ c main_v70) (V9 m ρ c main_v72) :=
  (W10_arr m ρ c 5).trans (KStats4.arrAt_5 (V9 m ρ) c)

theorem b2_sum1 (ch : Fin 128) (u : Fin 1) :
    ∑ core : Fin 2, arr S2x128x1 (W10 (F := Ideal) m ρ c (Proc.devRef .tc main_v73_0)) (ix3 core ch u)
      = Net.tot (Net.conv (q2 m c).W1 (A2 m c)) ch := by
  unfold arr
  rw [b2_acc_sum]
  exact KStats4.sum_eq _ _ _ _ (A2 m c) (q2 m c).W1 (act2 m ρ c) (b2_arg_w1_at m ρ c) ch u

theorem b2_ssq1 (ch : Fin 128) (u : Fin 1) :
    ∑ core : Fin 2, arr S2x128x1 (W10 (F := Ideal) m ρ c (Proc.devRef .tc main_v73_1)) (ix3 core ch u)
      = Net.tot2 (Net.conv (q2 m c).W1 (A2 m c)) ch := by
  unfold arr
  rw [b2_acc_ssq]
  exact KStats4.ssq_eq _ _ _ _ (A2 m c) (q2 m c).W1 (act2 m ρ c) (b2_arg_w1_at m ρ c) ch u

/-! ## The host operations after it: the first scale and shift, and the scaled weights -/

set_option maxHeartbeats 4000000 in
theorem main_v87_eq : V11 (F := Ideal) m ρ c main_v87
    = HostFold.scaleVec reducesTo_S2x128x1_S128x1_d0 h_S_ bcast_S_S128x1
        (W10 m ρ c (Proc.devRef .tc main_v73_0)) (W10 m ρ c (Proc.devRef .tc main_v73_1)) (W10 m ρ c (Proc.devRef .tc main_arg14)) := by
  show StableHlo.after hostOps5 (W10 m ρ c) (Proc.devRef .tc main_v87) = _
  after_results_simp
  rfl

theorem main_v87_at (ch : Fin 128) :
    V11 (F := Ideal) m ρ c main_v87 (ix2 ch 0)
      = Net.bnScale Net.Nc Net.epsc (Net.conv (q2 m c).W1 (A2 m c)) (q2 m c).g1 ch := by
  rw [main_v87_eq, HostFold.scaleVec_apply _ _ _ (by decide)]
  have e1 := b2_sum1 m ρ c ch 0
  have e2 := b2_ssq1 m ρ c ch 0
  unfold arr at e1 e2
  rw [e1, e2, w10_arg14]
  rfl

set_option maxHeartbeats 4000000 in
theorem main_v89_eq : V11 (F := Ideal) m ρ c main_v89
    = HostFold.shiftVec reducesTo_S2x128x1_S128x1_d0 h_S_ bcast_S_S128x1
        (W10 m ρ c (Proc.devRef .tc main_v73_0)) (W10 m ρ c (Proc.devRef .tc main_v73_1)) (W10 m ρ c (Proc.devRef .tc main_arg14))
        (W10 m ρ c (Proc.devRef .tc main_arg15)) := by
  show StableHlo.after hostOps5 (W10 m ρ c) (Proc.devRef .tc main_v89) = _
  after_results_simp
  rfl

theorem main_v89_at (ch : Fin 128) :
    V11 (F := Ideal) m ρ c main_v89 (ix2 ch 0)
      = Net.bnShift Net.Nc Net.epsc (Net.conv (q2 m c).W1 (A2 m c)) (q2 m c).g1 (q2 m c).b1 ch := by
  rw [main_v89_eq, HostFold.shiftVec_apply _ _ _ (by decide)]
  have e1 := b2_sum1 m ρ c ch 0
  have e2 := b2_ssq1 m ρ c ch 0
  unfold arr at e1 e2
  rw [e1, e2, w10_arg14, w10_arg15]
  rfl

set_option maxHeartbeats 4000000 in
theorem main_v91_eq : V11 (F := Ideal) m ρ c main_v91
    = HostFold.scaleRows bcast_S128x1_S128x64_0_1 (W10 m ρ c (Proc.devRef .tc main_arg13))
        (HostFold.scaleVec reducesTo_S2x128x1_S128x1_d0 h_S_ bcast_S_S128x1
          (W10 m ρ c (Proc.devRef .tc main_v73_0)) (W10 m ρ c (Proc.devRef .tc main_v73_1)) (W10 m ρ c (Proc.devRef .tc main_arg14))) := by
  show StableHlo.after hostOps5 (W10 m ρ c) (Proc.devRef .tc main_v91) = _
  after_results_simp
  rfl

theorem main_v91_at (ch : Fin 128) (k : Fin 64) :
    V11 (F := Ideal) m ρ c main_v91 (ix2 ch k)
      = (q2 m c).W1 ch k * Net.bnScale Net.Nc Net.epsc (Net.conv (q2 m c).W1 (A2 m c)) (q2 m c).g1 ch := by
  rw [main_v91_eq, HostFold.scaleRows_apply, ← main_v87_eq, main_v87_at, w10_arg13]
  rfl

/-! ## The main pass -/

/-- The block's second convolution before its normalisation. -/
abbrev Y22 : Fin 64 → Net.Px → EReal :=
  Net.pre2 Net.Nc Net.epsc Net.slopec (q2 m c).W1 (q2 m c).g1 (q2 m c).b1 (q2 m c).W2 (A2 m c)

/-- The block's input as the main pass recomputes it: the arrays are those the statistics pass read. -/
theorem b2_act_main (n : Fin 32) (k : Fin 64) (p : Fin 4096) :
    Net.lrelu Net.slopec (arr S32x64x4096 (V11 (F := Ideal) m ρ c main_v56_0) (ix3 n k p) * arr S64x1 (V11 (F := Ideal) m ρ c main_v70) (ix2 k 0)
        + arr S64x1 (V11 (F := Ideal) m ρ c main_v72) (ix2 k 0))
      = A2 m c k (n, p) := by
  have e0 : V11 (F := Ideal) m ρ c main_v56_0 = V9 m ρ c main_v56_0 := (w11_v56_0 m ρ c).trans (w9_v56_0 m ρ c).symm
  have e1 : V11 (F := Ideal) m ρ c main_v70 = V9 m ρ c main_v70 := w11_v70 m ρ c
  have e2 : V11 (F := Ideal) m ρ c main_v72 = V9 m ρ c main_v72 := w11_v72 m ρ c
  rw [e0, e1, e2]
  exact act2 m ρ c n k p

theorem b2_arg_w2_at (d : Fin 64) (ch : Fin 128) :
    V11 (F := Ideal) m ρ c main_arg16 (ix2 d ch) = (q2 m c).W2 d ch := by
  have e : V11 (F := Ideal) m ρ c main_arg16 = m ((c : Thread nD τ).loc main_arg16) := w11_arg16 m ρ c
  rw [e]; rfl

theorem b2_y2_eq : W12 (F := Ideal) m ρ c (Proc.devRef .tc main_v92_0)
    = KMain5.G6 (V11 m ρ c main_v56_0) (V11 m ρ c main_v91) (V11 m ρ c main_v89) (V11 m ρ c main_arg16)
        (V11 m ρ c main_v70) (V11 m ρ c main_v72) :=
  (W12_arr m ρ c 6).trans (KMain5.arrAt_6 (V11 m ρ) c)

theorem b2_acc2_sum : W12 (F := Ideal) m ρ c (Proc.devRef .tc main_v92_1)
    = KMain5.G7 (V11 m ρ c main_v56_0) (V11 m ρ c main_v91) (V11 m ρ c main_v89) (V11 m ρ c main_arg16)
        (V11 m ρ c main_v70) (V11 m ρ c main_v72) :=
  (W12_arr m ρ c 7).trans (KMain5.arrAt_7 (V11 m ρ) c)

theorem b2_acc2_ssq : W12 (F := Ideal) m ρ c (Proc.devRef .tc main_v92_2)
    = KMain5.G8 (V11 m ρ c main_v56_0) (V11 m ρ c main_v91) (V11 m ρ c main_v89) (V11 m ρ c main_arg16)
        (V11 m ρ c main_v70) (V11 m ρ c main_v72) :=
  (W12_arr m ρ c 8).trans (KMain5.arrAt_8 (V11 m ρ) c)

theorem b2_y2_at (n : Fin 32) (d : Fin 64) (p : Fin 4096) :
    arr S32x64x4096 (W12 (F := Ideal) m ρ c (Proc.devRef .tc main_v92_0)) (ix3 n d p) = Y22 m c d (n, p) := by
  unfold arr
  rw [b2_y2_eq]
  exact KMain5.y2_eq _ _ _ _ _ _ (A2 m c) _ _ (q2 m c).W2 (b2_act_main m ρ c) (main_v91_at m ρ c) (main_v89_at m ρ c) (b2_arg_w2_at m ρ c) n d p

theorem b2_sum2 (d : Fin 64) (u : Fin 1) :
    ∑ core : Fin 2, arr S2x64x1 (W12 (F := Ideal) m ρ c (Proc.devRef .tc main_v92_1)) (ix3 core d u) = Net.tot (Y22 m c) d := by
  unfold arr
  rw [b2_acc2_sum]
  exact KMain5.sum_eq _ _ _ _ _ _ (A2 m c) _ _ (q2 m c).W2 (b2_act_main m ρ c) (main_v91_at m ρ c) (main_v89_at m ρ c) (b2_arg_w2_at m ρ c) d u

theorem b2_ssq2 (d : Fin 64) (u : Fin 1) :
    ∑ core : Fin 2, arr S2x64x1 (W12 (F := Ideal) m ρ c (Proc.devRef .tc main_v92_2)) (ix3 core d u) = Net.tot2 (Y22 m c) d := by
  unfold arr
  rw [b2_acc2_ssq]
  exact KMain5.ssq_eq _ _ _ _ _ _ (A2 m c) _ _ (q2 m c).W2 (b2_act_main m ρ c) (main_v91_at m ρ c) (main_v89_at m ρ c) (b2_arg_w2_at m ρ c) d u

/-! ## The host operations after it: the second scale and shift -/

set_option maxHeartbeats 4000000 in
theorem main_v106_eq : V13 (F := Ideal) m ρ c main_v106
    = HostFold.scaleVec reducesTo_S2x64x1_S64x1_d0 h_S_ bcast_S_S64x1
        (W12 m ρ c (Proc.devRef .tc main_v92_1)) (W12 m ρ c (Proc.devRef .tc main_v92_2)) (W12 m ρ c (Proc.devRef .tc main_arg17)) := by
  show StableHlo.after hostOps6 (W12 m ρ c) (Proc.devRef .tc main_v106) = _
  after_results_simp
  rfl

theorem main_v106_at (d : Fin 64) :
    V13 (F := Ideal) m ρ c main_v106 (ix2 d 0) = Net.bnScale Net.Nc Net.epsc (Y22 m c) (q2 m c).g2 d := by
  rw [main_v106_eq, HostFold.scaleVec_apply _ _ _ (by decide)]
  have e1 := b2_sum2 m ρ c d 0
  have e2 := b2_ssq2 m ρ c d 0
  unfold arr at e1 e2
  rw [e1, e2, w12_arg17]
  rfl

set_option maxHeartbeats 4000000 in
theorem main_v108_eq : V13 (F := Ideal) m ρ c main_v108
    = HostFold.shiftVec reducesTo_S2x64x1_S64x1_d0 h_S_ bcast_S_S64x1
        (W12 m ρ c (Proc.devRef .tc main_v92_1)) (W12 m ρ c (Proc.devRef .tc main_v92_2)) (W12 m ρ c (Proc.devRef .tc main_arg17))
        (W12 m ρ c (Proc.devRef .tc main_arg18)) := by
  show StableHlo.after hostOps6 (W12 m ρ c) (Proc.devRef .tc main_v108) = _
  after_results_simp
  rfl

theorem main_v108_at (d : Fin 64) :
    V13 (F := Ideal) m ρ c main_v108 (ix2 d 0) = Net.bnShift Net.Nc Net.epsc (Y22 m c) (q2 m c).g2 (q2 m c).b2 d := by
  rw [main_v108_eq, HostFold.shiftVec_apply _ _ _ (by decide)]
  have e1 := b2_sum2 m ρ c d 0
  have e2 := b2_ssq2 m ρ c d 0
  unfold arr at e1 e2
  rw [e1, e2, w12_arg17, w12_arg18]
  rfl

/-- This block's output, as the next passes recompute it from y2 and the second scale and shift. -/
theorem act3 (n : Fin 32) (k : Fin 64) (p : Fin 4096) :
    Net.lrelu Net.slopec (arr S32x64x4096 (V13 (F := Ideal) m ρ c main_v92_0) (ix3 n k p) * arr S64x1 (V13 (F := Ideal) m ρ c main_v106) (ix2 k 0)
        + arr S64x1 (V13 (F := Ideal) m ρ c main_v108) (ix2 k 0))
      = Net.stepK Net.Nc Net.epsc Net.slopec (q2 m c) (A2 m c) k (n, p) := by
  have e0 : V13 (F := Ideal) m ρ c main_v92_0 = W12 m ρ c (Proc.devRef .tc main_v92_0) := w13_v92_0 m ρ c
  have e1 := b2_y2_at m ρ c n k p
  unfold arr at e1 ⊢
  rw [e0, e1, main_v106_at, main_v108_at]
  rfl

end Cert.KernelIdeal.Flow

end
-- ==== Proof.KFin6Pay.lean ====
/-
  The last kernel of the idealized kernel, one row of a block at a time: each stored value is the leaky rectifier of an
  affine map of the loaded row, the scale and the shift taken per channel — read here at an index.
-/
import proofs.«126831_g2000503633499865_pallasbulk_555_4_alg».proof.Proof.Gen.KernelIdeal.Skeleton
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Fin6

open Cert.KernelIdeal Cert.KernelIdeal.Gen
open Idealize.ShloMosaic Idealize.ShloMosaic.ValueIdx

/-- The leaky rectifier with slope 0.2 (the slope kept as the float's bit pattern): the larger of z and slope · z. -/
def lrelu (z : EReal) : EReal := max z (Scalar.ofBits (F := Ideal) .f32 0x3E4CCCCD#32 * z)

/-- A per-channel column [64,1] broadcast along the lanes reads, at (d, p), the column's entry at d. -/
theorem bcast_col_apply (v : Vec Ideal S64x1 .f32) (d : Fin 64) (p : Fin 4096) :
    broadcastTo S64x4096 (shapeCast S64x1 v shapeCasts_S64x1_S64x1) broadcasts_S64x1_S64x4096 (ix2 d p) = v (ix2 d 0) := by
  rw [shapeCast_self]
  exact broadcastTo_apply v _ _ _ (fun a => match a with | ⟨0, _⟩ => rfl | ⟨1, _⟩ => rfl)

/-- The first stored row at (u, d, p): the rectifier of row · scale[d] + shift[d]. -/
theorem pay1_apply (v0 : Vec Ideal S1x64x4096 .f32) (v2 v6 : Vec Ideal S64x1 .f32) (u : Fin 1) (d : Fin 64) (p : Fin 4096) :
    k6_pay1 (F := Ideal) v0 v2 v6 (ix3 u d p) = lrelu (v0 (ix3 (0 : Fin 1) d p) * v2 (ix2 d 0) + v6 (ix2 d 0)) := by
  unfold k6_pay1
  rw [shapeCast_ab_1ab_apply]
  show max _ _ = _
  rw [mulf_apply, addf_apply, mulf_apply, bcast_col_apply, bcast_col_apply, shapeCast_1ab_ab_apply]
  rfl

/-- The second stored row, the same function of the second loaded row. -/
theorem pay2_apply (v0 : Vec Ideal S1x64x4096 .f32) (v2 v6 : Vec Ideal S64x1 .f32) (u : Fin 1) (d : Fin 64) (p : Fin 4096) :
    k6_pay2 (F := Ideal) v0 v2 v6 (ix3 u d p) = lrelu (v0 (ix3 (0 : Fin 1) d p) * v2 (ix2 d 0) + v6 (ix2 d 0)) := by
  unfold k6_pay2
  rw [shapeCast_ab_1ab_apply]
  show max _ _ = _
  rw [mulf_apply, addf_apply, mulf_apply, bcast_col_apply, bcast_col_apply, shapeCast_1ab_ab_apply]
  rfl

end Cert.KernelIdeal.Fin6

end
-- ==== Proof.KFin6Val.lean ====
/-
  The last region of the idealized kernel, as one array: every grid point rewrites its own block of two batch rows, and the
  blocks tile the array, so the output holds, at (n, d, p), the leaky rectifier of input (n, d, p) · scale[d] + shift[d].
-/
import proofs.«126831_g2000503633499865_pallasbulk_555_4_alg».proof.Proof.Gen.KernelIdeal.Frame
import proofs.«126831_g2000503633499865_pallasbulk_555_4_alg».proof.Proof.KFin6Pay
import Idealize.ShloMosaic.Lib.Pipeline.Value

set_option maxRecDepth 16384

noncomputable section

namespace Cert.KernelIdeal.Fin6

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The region's result as a function of the arrays it reads: the rectified affine map, channel by channel. -/
def G (a : S32x64x4096.Idx → Elt Ideal .f32) (s t : S64x1.Idx → Elt Ideal .f32) : S32x64x4096.Idx → Elt Ideal .f32 :=
  fun i => lrelu (a i * s (ix2 (i 1) 0) + t (ix2 (i 1) 0))

/-- The rectified affine term with each of its three reads at its own index. -/
def affAt (a : S32x64x4096.Idx → EReal) (s t : S64x1.Idx → EReal) (i : S32x64x4096.Idx) (j k : S64x1.Idx) : EReal :=
  lrelu (a i * s j + t k)

/-- The printed index maps over the grid: the activation's block and the output's block are the point's own pair of rows,
    the scale and the shift are whole. -/
theorem idx_facts : ∀ t : Fin cfg6.N, win6_0.index t (0 : Fin 3) = t.val ∧ win6_0.index t (1 : Fin 3) = 0
    ∧ win6_0.index t (2 : Fin 3) = 0 ∧ win6_3.index t (0 : Fin 3) = t.val ∧ win6_3.index t (1 : Fin 3) = 0
    ∧ win6_3.index t (2 : Fin 3) = 0 ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

variable (V : (c : Dev nD) → (b : Ref sig .tc) → Buf (Elt Ideal) ((c : Thread nD τ).loc b))

set_option maxHeartbeats 4000000 in
/-- What point t writes back is block t of the function G of the arrays the region reads. -/
theorem flushed_eq (c : Dev nD) (t : Fin cfg6.N) :
    (dat6 (F := Ideal) V c).flushed 3 t = ((cfg6.win 3).blk t).view.read (Elt Ideal)
      (G (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  obtain ⟨e0, e1, e2, e3, e4, e5, e6, e7, e8, e9⟩ := idx_facts t
  funext y
  refine View.canon_apply_of_pieces (((cfg6.win 3).blk t).view.read (Elt Ideal)
      (G (V c (Pipeline.arrRef spec6 0)) (V c (Pipeline.arrRef spec6 1)) (V c (Pipeline.arrRef spec6 2)))) _ ?_ y (cover6_3 _ _ y)
  intro pc hpc
  have hN : t.val < 16 := lt_of_lt_of_eq t.isLt (show cfg6.N = 16 from N_6)
  rcases List.mem_cons.mp hpc with rfl | hpc
  · intro x
    obtain ⟨u, d, p, rfl⟩ : ∃ (u : Fin 1) (d : Fin 64) (p : Fin 4096), x = ix3 u d p := ⟨x 0, x 1, x 2, eq_ix3 x⟩
    refine (pay2_apply _ _ _ u d p).trans ?_
    have hu : u.val = 0 := by omega
    have hemb3 : ((cfg6.win 3).blk t).view.emb (r6_2.idx (ix3 u d p)) = ix3 (⟨t.val * 2 + 1, by omega⟩ : Fin 32) d p := by
      funext a; apply Fin.ext
      match a with
      | ⟨0, _⟩ => show win6_3.index t (0 : Fin 3) * 2 + 1 * (1 + 1 * u.val) = t.val * 2 + 1; omega
      | ⟨1, _⟩ => show win6_3.index t (1 : Fin 3) * 64 + 1 * (0 + 1 * d.val) = d.val; omega
      | ⟨2, _⟩ => show win6_3.index t (2 : Fin 3) * 4096 + 1 * (0 + 1 * p.val) = p.val; omega
    have hemb0 : ((cfg6.win 0).blk t).view.emb (r6_2.idx (ix3 (0 : Fin 1) d p)) = ix3 (⟨t.val * 2 + 1, by omega⟩ : Fin 32) d p := by
      funext a; apply Fin.ext
      match a with
      | ⟨0, _⟩ => show win6_0.index t (0 : Fin 3) * 2 + 1 * (1 + 1 * 0) = t.val * 2 + 1; omega
      | ⟨1, _⟩ => show win6_0.index t (1 : Fin 3) * 64 + 1 * (0 + 1 * d.val) = d.val; omega
      | ⟨2, _⟩ => show win6_0.index t (2 : Fin 3) * 4096 + 1 * (0 + 1 * p.val) = p.val; omega
    have hemb1 : ((cfg6.win 1).blk t).view.emb (r6_1.idx (ix2 d (0 : Fin 1))) = ix2 d (0 : Fin 1) := by
      funext a; apply Fin.ext
      match a with
      | ⟨0, _⟩ => show win6_1.index t (0 : Fin 2) * 64 + 1 * (0 + 1 * d.val) = d.val; omega
      | ⟨1, _⟩ => show win6_1.index t (1 : Fin 2) * 1 + 1 * (0 + 1 * 0) = 0; omega
    have hemb2 : ((cfg6.win 2).blk t).view.emb (r6_1.idx (ix2 d (0 : Fin 1))) = ix2 d (0 : Fin 1) := by
      funext a; apply Fin.ext
      match a with
      | ⟨0, _⟩ => show win6_2.index t (0 : Fin 2) * 64 + 1 * (0 + 1 * d.val) = d.val; omega
      | ⟨1, _⟩ => show win6_2.index t (1 : Fin 2) * 1 + 1 * (0 + 1 * 0) = 0; omega
    show affAt (V c (Pipeline.arrRef spec6 0)) (V c (Pipeline.arrRef spec6 1)) (V c (Pipeline.arrRef spec6 2))
        (((cfg6.win 0).blk t).view.emb (r6_2.idx (ix3 (0 : Fin 1) d p)))
        (((cfg6.win 1).blk t).view.emb (r6_1.idx (ix2 d (0 : Fin 1))))
        (((cfg6.win 2).blk t).view.emb (r6_1.idx (ix2 d (0 : Fin 1))))
      = G (V c (Pipeline.arrRef spec6 0)) (V c (Pipeline.arrRef spec6 1)) (V c (Pipeline.arrRef spec6 2))
        (((cfg6.win 3).blk t).view.emb (r6_2.idx (ix3 u d p)))
    rw [hemb0, hemb1, hemb2, hemb3]
    rfl
  rcases List.mem_cons.mp hpc with rfl | hpc
  · intro x
    obtain ⟨u, d, p, rfl⟩ : ∃ (u : Fin 1) (d : Fin 64) (p : Fin 4096), x = ix3 u d p := ⟨x 0, x 1, x 2, eq_ix3 x⟩
    refine (pay1_apply _ _ _ u d p).trans ?_
    have hu : u.val = 0 := by omega
    have hemb3 : ((cfg6.win 3).blk t).view.emb (r6_0.idx (ix3 u d p)) = ix3 (⟨t.val * 2 + 0, by omega⟩ : Fin 32) d p := by
      funext a; apply Fin.ext
      match a with
      | ⟨0, _⟩ => show win6_3.index t (0 : Fin 3) * 2 + 1 * (0 + 1 * u.val) = t.val * 2 + 0; omega
      | ⟨1, _⟩ => show win6_3.index t (1 : Fin 3) * 64 + 1 * (0 + 1 * d.val) = d.val; omega
      | ⟨2, _⟩ => show win6_3.index t (2 : Fin 3) * 4096 + 1 * (0 + 1 * p.val) = p.val; omega
    have hemb0 : ((cfg6.win 0).blk t).view.emb (r6_0.idx (ix3 (0 : Fin 1) d p)) = ix3 (⟨t.val * 2 + 0, by omega⟩ : Fin 32) d p := by
      funext a; apply Fin.ext
      match a with
      | ⟨0, _⟩ => show win6_0.index t (0 : Fin 3) * 2 + 1 * (0 + 1 * 0) = t.val * 2 + 0; omega
      | ⟨1, _⟩ => show win6_0.index t (1 : Fin 3) * 64 + 1 * (0 + 1 * d.val) = d.val; omega
      | ⟨2, _⟩ => show win6_0.index t (2 : Fin 3) * 4096 + 1 * (0 + 1 * p.val) = p.val; omega
    have hemb1 : ((cfg6.win 1).blk t).view.emb (r6_1.idx (ix2 d (0 : Fin 1))) = ix2 d (0 : Fin 1) := by
      funext a; apply Fin.ext
      match a with
      | ⟨0, _⟩ => show win6_1.index t (0 : Fin 2) * 64 + 1 * (0 + 1 * d.val) = d.val; omega
      | ⟨1, _⟩ => show win6_1.index t (1 : Fin 2) * 1 + 1 * (0 + 1 * 0) = 0; omega
    have hemb2 : ((cfg6.win 2).blk t).view.emb (r6_1.idx (ix2 d (0 : Fin 1))) = ix2 d (0 : Fin 1) := by
      funext a; apply Fin.ext
      match a with
      | ⟨0, _⟩ => show win6_2.index t (0 : Fin 2) * 64 + 1 * (0 + 1 * d.val) = d.val; omega
      | ⟨1, _⟩ => show win6_2.index t (1 : Fin 2) * 1 + 1 * (0 + 1 * 0) = 0; omega
    show affAt (V c (Pipeline.arrRef spec6 0)) (V c (Pipeline.arrRef spec6 1)) (V c (Pipeline.arrRef spec6 2))
        (((cfg6.win 0).blk t).view.emb (r6_0.idx (ix3 (0 : Fin 1) d p)))
        (((cfg6.win 1).blk t).view.emb (r6_1.idx (ix2 d (0 : Fin 1))))
        (((cfg6.win 2).blk t).view.emb (r6_1.idx (ix2 d (0 : Fin 1))))
      = G (V c (Pipeline.arrRef spec6 0)) (V c (Pipeline.arrRef spec6 1)) (V c (Pipeline.arrRef spec6 2))
        (((cfg6.win 3).blk t).view.emb (r6_0.idx (ix3 u d p)))
    rw [hemb0, hemb1, hemb2, hemb3]
    rfl
  nomatch hpc

/-- The point that writes batch row n: n / 2. -/
def ptOf (n : Fin 32) : Fin cfg6.N := ⟨n.val / 2, by rw [show cfg6.N = 16 from N_6]; have := n.isLt; omega⟩

/-- Every index of the output array is in the block of its row's point. -/
theorem cover (i : S32x64x4096.Idx) :
    ∃ t : Fin cfg6.N, (cfg6.win 3).flush t = true ∧ i ∈ ((cfg6.win 3).blk t).view.set := by
  have h0 : (i 0).val < 32 := (i 0).isLt
  have h1 : (i 1).val < 64 := (i 1).isLt
  have h2 : (i 2).val < 4096 := (i 2).isLt
  refine ⟨ptOf ⟨(i 0).val, h0⟩, flush6_3 _, ?_⟩
  obtain ⟨-, -, -, e3, e4, e5, -⟩ := idx_facts (ptOf ⟨(i 0).val, h0⟩)
  have ev : (ptOf ⟨(i 0).val, h0⟩).val = (i 0).val / 2 := rfl
  show i ∈ ((View.whole main_v109).slice (win6_3.rect (ptOf ⟨(i 0).val, h0⟩))).set
  rw [View.set_slice_whole, Rect.mem_set_unit]
  intro a
  match a with
  | ⟨0, _⟩ =>
    show win6_3.index (ptOf ⟨(i 0).val, h0⟩) (0 : Fin 3) * 2 ≤ (i 0).val
      ∧ (i 0).val < win6_3.index (ptOf ⟨(i 0).val, h0⟩) (0 : Fin 3) * 2 + 2
    rw [e3, ev]; omega
  | ⟨1, _⟩ =>
    show win6_3.index (ptOf ⟨(i 0).val, h0⟩) (1 : Fin 3) * 64 ≤ (i 1).val
      ∧ (i 1).val < win6_3.index (ptOf ⟨(i 0).val, h0⟩) (1 : Fin 3) * 64 + 64
    rw [e4]; omega
  | ⟨2, _⟩ =>
    show win6_3.index (ptOf ⟨(i 0).val, h0⟩) (2 : Fin 3) * 4096 ≤ (i 2).val
      ∧ (i 2).val < win6_3.index (ptOf ⟨(i 0).val, h0⟩) (2 : Fin 3) * 4096 + 4096
    rw [e5]; omega

/-- The output array after the region: the rectified affine map of the activation, channel by channel. -/
theorem arrAt_3 (c : Dev nD) :
    (dat6 (F := Ideal) V c).arrAt 3 cfg6.N
      = G (V c (Pipeline.arrRef spec6 0)) (V c (Pipeline.arrRef spec6 1)) (V c (Pipeline.arrRef spec6 2)) :=
  (dat6 V c).arrAt_eq_of_cover 3 _ (fun t _ => flushed_eq V c t) cover

end Cert.KernelIdeal.Fin6

end
-- ==== Proof.KFlowD.lean ====
/-
  The idealized kernel's run, read as mathematics — the end: the last region rewrites the third block's y2 as
  lrelu (y2 · s2 + t2), which is the third block's output, and the closing reshape lays it out as [32, 64, 64, 64].
-/
import proofs.«126831_g2000503633499865_pallasbulk_555_4_alg».proof.Proof.KFlowC
import proofs.«126831_g2000503633499865_pallasbulk_555_4_alg».proof.Proof.KFin6Val

set_option maxRecDepth 16384

noncomputable section

namespace Cert.KernelIdeal.Flow

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The network's output: three blocks in the kernel's form. -/
abbrev A3 : Fin 64 → Net.Px → EReal := Net.stepK Net.Nc Net.epsc Net.slopec (q2 m c) (A2 m c)

theorem out_eq : W14 (F := Ideal) m ρ c (Proc.devRef .tc main_v109)
    = Fin6.G (V13 m ρ c main_v92_0) (V13 m ρ c main_v106) (V13 m ρ c main_v108) :=
  (W14_arr m ρ c 3).trans (Fin6.arrAt_3 (V13 m ρ) c)

theorem out_at (n : Fin 32) (d : Fin 64) (p : Fin 4096) :
    arr S32x64x4096 (W14 (F := Ideal) m ρ c (Proc.devRef .tc main_v109)) (ix3 n d p) = A3 m c d (n, p) := by
  unfold arr
  rw [out_eq]
  exact act3 m ρ c n d p

theorem v110_eq : W15 (F := Ideal) m ρ c (Proc.devRef .tc main_v110)
    = shapeCast S32x64x64x64 (W14 m ρ c (Proc.devRef .tc main_v109)) shapeCasts_S32x64x4096_S32x64x64x64 := by
  show StableHlo.after hostOps7 (W14 m ρ c) (Proc.devRef .tc main_v110) = _
  after_results
  rfl

/-- The result buffer after the run. -/
theorem result_eq : W15 (F := Ideal) m ρ c (Proc.devRef .tc main_v110) = Net.outOf (A3 m c) := by
  rw [v110_eq]
  funext i
  obtain ⟨n, d, h, w, rfl⟩ : ∃ (n : Fin 32) (d : Fin 64) (h w : Fin 64), i = ix4 n d h w := ⟨i 0, i 1, i 2, i 3, eq_ix4 i⟩
  refine (shapeCast_apply _ _ _ (ix3 n d (Net.posOf h w)) ?_).trans (out_at m ρ c n d (Net.posOf h w))
  show (S32x64x4096.rowMajor (ix3 n d (Net.posOf h w))).val = (S32x64x64x64.rowMajor (ix4 n d h w)).val
  rw [Shape.rowMajor_val_three, Shape.rowMajor_val_four]
  show (n.val * 64 + d.val) * 4096 + (h.val * 64 + w.val) = ((n.val * 64 + d.val) * 64 + h.val) * 64 + w.val
  omega

end Cert.KernelIdeal.Flow

end
-- ==== Proof.RAcc0Pay.lean ====
/-
  Region 0 of the reference (the first statistics pass), its payloads read at an index over the extended reals:
  the block product y = W · x at (r, q) is the sum over the 64 input channels, the lane sums of y and of y * y at
  channel r are sums over the 16384 lanes of the block, and each accumulator payload at (0, r, 0) is the carried value
  there plus that lane sum. The zeroing payloads read the zero literal everywhere.
-/
import proofs.«126831_g2000503633499865_pallasbulk_555_4_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.RAcc0

open Idealize.ShloMosaic Idealize.ShloMosaic.ValueIdx
open Cert.ReferenceIdeal Cert.ReferenceIdeal.Gen

/-! ## The dot [128,64] x [64,16384]: its operand indices, axis by axis -/

theorem lhs0 (i : S128x16384.Idx) (q : dot_S128x64_S64x16384_S128x16384_1_0_0_1_n_n.contr.Idx) :
    (dot_S128x64_S64x16384_S128x16384_1_0_0_1_n_n.lhsIdx i q 0).val = (i 0).val := by
  unfold DotDims.lhsIdx
  rw [dif_neg (show ¬(0 : Fin S128x64.rank) ∈ dot_S128x64_S64x16384_S128x16384_1_0_0_1_n_n.lhsBatch by decide),
    dif_pos (show (0 : Fin S128x64.rank) ∈ dot_S128x64_S64x16384_S128x16384_1_0_0_1_n_n.lhsNonContracting by decide)]
  rfl

theorem lhs1 (i : S128x16384.Idx) (q : dot_S128x64_S64x16384_S128x16384_1_0_0_1_n_n.contr.Idx) :
    (dot_S128x64_S64x16384_S128x16384_1_0_0_1_n_n.lhsIdx i q 1).val = (q ⟨0, by decide⟩).val :=
  dot_S128x64_S64x16384_S128x16384_1_0_0_1_n_n.lhsIdx_val_of_single rfl i q

theorem rhs0 (i : S128x16384.Idx) (q : dot_S128x64_S64x16384_S128x16384_1_0_0_1_n_n.contr.Idx) :
    (dot_S128x64_S64x16384_S128x16384_1_0_0_1_n_n.rhsIdx i q 0).val = (q ⟨0, by decide⟩).val :=
  dot_S128x64_S64x16384_S128x16384_1_0_0_1_n_n.rhsIdx_val_of_single rfl i q

theorem rhs1 (i : S128x16384.Idx) (q : dot_S128x64_S64x16384_S128x16384_1_0_0_1_n_n.contr.Idx) :
    (dot_S128x64_S64x16384_S128x16384_1_0_0_1_n_n.rhsIdx i q 1).val = (i 1).val := by
  unfold DotDims.rhsIdx
  rw [dif_neg (show ¬(1 : Fin S64x16384.rank) ∈ dot_S128x64_S64x16384_S128x16384_1_0_0_1_n_n.rhsBatch by decide),
    dif_pos (show (1 : Fin S64x16384.rank) ∈ dot_S128x64_S64x16384_S128x16384_1_0_0_1_n_n.rhsNonContracting by decide)]
  rfl

/-- The block product at (r, q): the sum over the 64 input channels. -/
theorem mm_apply (W : FVec Ideal S128x64 .f32) (x : FVec Ideal S64x16384 .f32) (r : Fin 128) (q : Fin 16384) :
    matmul dot_S128x64_S64x16384_S128x16384_1_0_0_1_n_n none W x (constant S128x16384 .f32 0x00000000#32) (ix2 r q)
      = ∑ k : Fin 64, W (ix2 r k) * x (ix2 k q) := by
  refine (Ideal.matmul_constant_zero_apply dot_S128x64_S64x16384_S128x16384_1_0_0_1_n_n none W x (ix2 r q)).trans ?_
  rw [← Equiv.sum_comp (contrEquiv1 dot_S128x64_S64x16384_S128x16384_1_0_0_1_n_n 64 rfl rfl).symm]
  refine Finset.sum_congr rfl fun k _ => ?_
  have hk := contrEquiv1_symm_val dot_S128x64_S64x16384_S128x16384_1_0_0_1_n_n 64 rfl rfl k
  have el : dot_S128x64_S64x16384_S128x16384_1_0_0_1_n_n.lhsIdx (ix2 r q)
      ((contrEquiv1 dot_S128x64_S64x16384_S128x16384_1_0_0_1_n_n 64 rfl rfl).symm k) = ix2 r k :=
    funext fun a => Fin.ext (by
      match a with
      | ⟨0, _⟩ => exact lhs0 _ _
      | ⟨1, _⟩ => exact (lhs1 _ _).trans hk)
  have er : dot_S128x64_S64x16384_S128x16384_1_0_0_1_n_n.rhsIdx (ix2 r q)
      ((contrEquiv1 dot_S128x64_S64x16384_S128x16384_1_0_0_1_n_n 64 rfl rfl).symm k) = ix2 k q :=
    funext fun a => Fin.ext (by
      match a with
      | ⟨0, _⟩ => exact (rhs0 _ _).trans hk
      | ⟨1, _⟩ => exact rhs1 _ _)
  rw [el, er]

/-- The payload y = W · x of the block, at (r, q). -/
theorem pay3_apply (W : Vec Ideal S128x64 .f32) (x : Vec Ideal S64x16384 .f32) (r : Fin 128) (q : Fin 16384) :
    k0_pay3 W x (ix2 r q) = ∑ k : Fin 64, W (ix2 r k) * x (ix2 k q) := by
  unfold k0_pay3
  rw [shapeCast_self]
  exact mm_apply W x r q

/-! ## The lane sum of a [128,16384] block -/

/-- A sum over the lanes, at channel r. -/
theorem laneSum_apply (src : FVec Ideal S128x16384 .f32) (h : S128x16384.Reduces [1] S128) (hφ : FKind.Formats .f32)
    (hacc : (0x00000000#32 : BitVec 32) = 0x00000000#32) (r : Fin 128) :
    multiReduction .add [1] S128 src 0x00000000#32 h hφ hacc (ix1 r) = ∑ p : Fin 16384, src (ix2 r p) := by
  refine (Ideal.multiReduction_add_single src 0x00000000#32 h hφ hacc (ix1 r)).trans ?_
  refine Finset.sum_congr rfl fun p _ => congrArg src (funext fun a => Fin.ext ?_)
  match a with
  | ⟨0, _⟩ => rfl
  | ⟨1, _⟩ => rfl

/-! ## The layout casts between [1,128,1], [128,1] and [128] at an index -/

theorem cast_3_2 {α : Type} (v : S1x128x1.Idx → α) (h : S1x128x1.ShapeCasts S128x1) (r : Fin 128) :
    shapeCast S128x1 v h (ix2 r (0 : Fin 1)) = v (ix3 (0 : Fin 1) r (0 : Fin 1)) :=
  shapeCast_apply v h (ix2 r (0 : Fin 1)) (ix3 (0 : Fin 1) r (0 : Fin 1)) (by
    rw [Shape.rowMajor_val_two, Shape.rowMajor_val_three]
    show (0 * 128 + r.val) * 1 + 0 = r.val * 1 + 0
    omega)

theorem cast_2_3 {α : Type} (v : S128x1.Idx → α) (h : S128x1.ShapeCasts S1x128x1) (r : Fin 128) :
    shapeCast S1x128x1 v h (ix3 (0 : Fin 1) r (0 : Fin 1)) = v (ix2 r (0 : Fin 1)) :=
  shapeCast_apply v h (ix3 (0 : Fin 1) r (0 : Fin 1)) (ix2 r (0 : Fin 1)) (by
    rw [Shape.rowMajor_val_two, Shape.rowMajor_val_three]
    show r.val * 1 + 0 = (0 * 128 + r.val) * 1 + 0
    omega)

theorem cast_1_2 {α : Type} (v : S128.Idx → α) (h : S128.ShapeCasts S128x1) (r : Fin 128) :
    shapeCast S128x1 v h (ix2 r (0 : Fin 1)) = v (ix1 r) :=
  shapeCast_apply v h (ix2 r (0 : Fin 1)) (ix1 r) (by
    rw [Shape.rowMajor_val_two, Shape.rowMajor_val_one]
    show r.val = r.val * 1 + 0
    omega)

/-! ## The accumulator payloads at (0, r, 0) -/

/-- The zeroing payloads read the zero literal. -/
theorem pay1_apply (j : S1x128x1.Idx) : k0_pay1 (F := Ideal) j = Ideal.ofBits .f32 0x00000000#32 := rfl
theorem pay2_apply (j : S1x128x1.Idx) : k0_pay2 (F := Ideal) j = Ideal.ofBits .f32 0x00000000#32 := rfl

/-- The sum accumulator: the carried value plus the lane sum of y. -/
theorem pay4_apply (W : Vec Ideal S128x64 .f32) (x : Vec Ideal S64x16384 .f32) (acc : Vec Ideal S1x128x1 .f32) (r : Fin 128) :
    k0_pay4 W x acc (ix3 (0 : Fin 1) r (0 : Fin 1))
      = acc (ix3 (0 : Fin 1) r (0 : Fin 1)) + ∑ p : Fin 16384, ∑ k : Fin 64, W (ix2 r k) * x (ix2 k p) := by
  unfold k0_pay4
  refine (cast_2_3 _ _ r).trans ?_
  refine congrArg₂ (· + ·) (cast_3_2 acc _ r) ?_
  refine (cast_1_2 _ _ r).trans ?_
  refine (laneSum_apply (k0_pay3 W x) _ _ _ r).trans ?_
  exact Finset.sum_congr rfl fun p _ => pay3_apply W x r p

/-- The sum-of-squares accumulator: the carried value plus the lane sum of y * y. -/
theorem pay5_apply (W : Vec Ideal S128x64 .f32) (x : Vec Ideal S64x16384 .f32) (acc : Vec Ideal S1x128x1 .f32) (r : Fin 128) :
    k0_pay5 W x acc (ix3 (0 : Fin 1) r (0 : Fin 1))
      = acc (ix3 (0 : Fin 1) r (0 : Fin 1))
        + ∑ p : Fin 16384, (∑ k : Fin 64, W (ix2 r k) * x (ix2 k p)) * (∑ k : Fin 64, W (ix2 r k) * x (ix2 k p)) := by
  unfold k0_pay5
  refine (cast_2_3 _ _ r).trans ?_
  refine congrArg₂ (· + ·) (cast_3_2 acc _ r) ?_
  refine (cast_1_2 _ _ r).trans ?_
  refine (laneSum_apply (mulf (k0_pay3 W x) (k0_pay3 W x)) _ _ _ r).trans ?_
  refine Finset.sum_congr rfl fun p _ => ?_
  show k0_pay3 W x (ix2 r p) * k0_pay3 W x (ix2 r p) = _
  rw [pay3_apply W x r p]

end Cert.ReferenceIdeal.RAcc0

end
-- ==== Proof.RAcc0Val.lean ====
/-
  Region 0 of the reference (the first statistics pass): what its two accumulator arrays [2,128,1] end holding, as
  functions of the arrays the region finds. Each case of the body leaves, in an accumulator's block, a payload of the
  point's input blocks (reset case: over the zero block; accumulating case: over what the point before left); so after
  point t the block holds the running sum over the points of t's core up to t; the last point of a core writes the block
  back into that core's row of the array.
-/
import proofs.«126831_g2000503633499865_pallasbulk_555_4_alg».proof.Proof.Gen.ReferenceIdeal.Frame
import proofs.«126831_g2000503633499865_pallasbulk_555_4_alg».proof.Proof.RAcc0Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc0

open Cert.ReferenceIdeal Cert.ReferenceIdeal.Gen

/-! ## The cases' pieces, as payloads (any float instance) -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulating case leaves, in the sum block holding `xo2`, the sum payload over it. -/
theorem out_B_2 (c : Dev nD) (i : grid0.Coords) (arg2 : Memref sig .tc .vmem S64x16384 .f32) (harg2 : arg2.IsWhole) (arg3 : Memref sig .tc .vmem S128x64 .f32) (harg3 : arg3.IsWhole) (arg4 : Memref sig .tc .vmem S1x128x1 .f32) (harg4 : arg4.IsWhole) (arg5 : Memref sig .tc .vmem S1x128x1 .f32) (harg5 : arg5.IsWhole) (hc0 : ¬cond0_0 i)
    (x0 : Vec F S64x16384 .f32) (x1 : Vec F S128x64 .f32) (xo2 : Vec F S1x128x1 .f32) (xo3 : Vec F S1x128x1 .f32) :
    out0_B_2 c i arg2 harg2 arg3 harg3 arg4 harg4 arg5 harg5 hc0 x0 x1 xo2 xo3 = k0_pay4 x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, harg5.read_unread,
    View.ld_unit_zero (S := S64x16384) hz2, View.ld_unit_zero (S := S128x64) hz2, View.ld_unit_zero (S := S1x128x1) hz3]

/-- and in the sum-of-squares block holding `xo3`, the sum-of-squares payload over it. -/
theorem out_B_3 (c : Dev nD) (i : grid0.Coords) (arg2 : Memref sig .tc .vmem S64x16384 .f32) (harg2 : arg2.IsWhole) (arg3 : Memref sig .tc .vmem S128x64 .f32) (harg3 : arg3.IsWhole) (arg4 : Memref sig .tc .vmem S1x128x1 .f32) (harg4 : arg4.IsWhole) (arg5 : Memref sig .tc .vmem S1x128x1 .f32) (harg5 : arg5.IsWhole) (hc0 : ¬cond0_0 i)
    (x0 : Vec F S64x16384 .f32) (x1 : Vec F S128x64 .f32) (xo2 : Vec F S1x128x1 .f32) (xo3 : Vec F S1x128x1 .f32) :
    out0_B_3 c i arg2 harg2 arg3 harg3 arg4 harg4 arg5 harg5 hc0 x0 x1 xo2 xo3 = k0_pay5 x1 x0 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, harg5.read_unread,
    View.ld_unit_zero (S := S64x16384) hz2, View.ld_unit_zero (S := S128x64) hz2, View.ld_unit_zero (S := S1x128x1) hz3]

/-- The reset case stores the zero block, reads it back, and leaves the sum payload over it. -/
theorem out_A_2 (c : Dev nD) (i : grid0.Coords) (arg2 : Memref sig .tc .vmem S64x16384 .f32) (harg2 : arg2.IsWhole) (arg3 : Memref sig .tc .vmem S128x64 .f32) (harg3 : arg3.IsWhole) (arg4 : Memref sig .tc .vmem S1x128x1 .f32) (harg4 : arg4.IsWhole) (arg5 : Memref sig .tc .vmem S1x128x1 .f32) (harg5 : arg5.IsWhole) (hc0 : cond0_0 i)
    (x0 : Vec F S64x16384 .f32) (x1 : Vec F S128x64 .f32) :
    out0_A_2 c i arg2 harg2 arg3 harg3 arg4 harg4 arg5 harg5 hc0 x0 x1 = k0_pay4 x1 x0 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread,
    View.ld_unit_zero (S := S64x16384) hz2, View.ld_unit_zero (S := S128x64) hz2]

theorem out_A_3 (c : Dev nD) (i : grid0.Coords) (arg2 : Memref sig .tc .vmem S64x16384 .f32) (harg2 : arg2.IsWhole) (arg3 : Memref sig .tc .vmem S128x64 .f32) (harg3 : arg3.IsWhole) (arg4 : Memref sig .tc .vmem S1x128x1 .f32) (harg4 : arg4.IsWhole) (arg5 : Memref sig .tc .vmem S1x128x1 .f32) (harg5 : arg5.IsWhole) (hc0 : cond0_0 i)
    (x0 : Vec F S64x16384 .f32) (x1 : Vec F S128x64 .f32) :
    out0_A_3 c i arg2 harg2 arg3 harg3 arg4 harg4 arg5 harg5 hc0 x0 x1 = k0_pay5 x1 x0 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread,
    View.ld_unit_zero (S := S64x16384) hz2, View.ld_unit_zero (S := S128x64) hz2]

end Pieces

/-! ## The sums a point adds, and the running accumulator -/

/-- Column of the activation array under lane `p` of the block of point `t`. -/
def col (t : Fin 8) (p : Fin 16384) : Fin 131072 := ⟨t.val * 16384 + p.val, by have := t.isLt; have := p.isLt; omega⟩

/-- What point `t` adds to channel `r` of the sum: the lane sum of y = W · x over the point's block. -/
def sumAt (x : S64x131072.Idx → EReal) (W : S128x64.Idx → EReal) (t : Fin 8) (r : Fin 128) : EReal :=
  ∑ p : Fin 16384, ∑ k : Fin 64, W (ix2 r k) * x (ix2 k (col t p))

/-- What point `t` adds to channel `r` of the sum of squares: the lane sum of y * y over the point's block. -/
def ssqAt (x : S64x131072.Idx → EReal) (W : S128x64.Idx → EReal) (t : Fin 8) (r : Fin 128) : EReal :=
  ∑ p : Fin 16384, (∑ k : Fin 64, W (ix2 r k) * x (ix2 k (col t p))) * (∑ k : Fin 64, W (ix2 r k) * x (ix2 k (col t p)))

/-- The accumulator after point `n`: reset to the zero literal at the first point of a core (n ≡ 0 mod 4), then each
    point's addend added on the right. -/
def run (S : Fin 8 → EReal) : (n : ℕ) → n < 8 → EReal
  | 0, h => Ideal.ofBits .f32 0x00000000#32 + S ⟨0, h⟩
  | n + 1, h => if (n + 1) % 4 = 0 then Ideal.ofBits .f32 0x00000000#32 + S ⟨n + 1, h⟩
      else run S n (Nat.lt_of_succ_lt h) + S ⟨n + 1, h⟩

theorem run_reset (S : Fin 8 → EReal) (n : ℕ) (h : n + 1 < 8) (h0 : (n + 1) % 4 = 0) :
    run S (n + 1) h = Ideal.ofBits .f32 0x00000000#32 + S ⟨n + 1, h⟩ := by
  rw [run, if_pos h0]

theorem run_step (S : Fin 8 → EReal) (n : ℕ) (h : n + 1 < 8) (h0 : ¬(n + 1) % 4 = 0) :
    run S (n + 1) h = run S n (Nat.lt_of_succ_lt h) + S ⟨n + 1, h⟩ := by
  rw [run, if_neg h0]

/-- Point `j` of core `q`. -/
def pt (q : Fin 2) (j : Fin 4) : Fin 8 := ⟨q.val * 4 + j.val, by have := q.isLt; have := j.isLt; omega⟩

/-- A core's accumulator after its four points: the zero literal, then the four addends in point order. -/
def chain (S : Fin 8 → EReal) (q : Fin 2) : EReal :=
  (((Ideal.ofBits .f32 0x00000000#32 + S (pt q 0)) + S (pt q 1)) + S (pt q 2)) + S (pt q 3)

/-- At the last point of a core the running accumulator is the core's chain. -/
theorem run_flush (S : Fin 8 → EReal) (n : ℕ) (h8 : n < 8) (h3 : n % 4 = 3) (hq : n / 4 < 2) :
    run S n h8 = chain S ⟨n / 4, hq⟩ := by
  have hn : n = 3 ∨ n = 7 := by omega
  rcases hn with rfl | rfl <;> rfl

/-- The sum array [2,128,1]: at (core, r, 0) the core's chain of lane sums of y. -/
def G0_2 (x : S64x131072.Idx → EReal) (W : S128x64.Idx → EReal) : S2x128x1.Idx → EReal := fun i =>
  chain (fun t => sumAt x W t (i 1)) (i 0)

/-- The sum-of-squares array [2,128,1]: at (core, r, 0) the core's chain of lane sums of y * y. -/
def G0_3 (x : S64x131072.Idx → EReal) (W : S128x64.Idx → EReal) : S2x128x1.Idx → EReal := fun i =>
  chain (fun t => ssqAt x W t (i 1)) (i 0)

/-! ## The blocks a point reads -/

theorem idx_x : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_w : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_o2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)
theorem idx_o3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

variable (V : (c : Dev nD) → (b : Ref sig .tc) → Buf (Elt Ideal) ((c : Thread nD τ).loc b))

/-- The activation block of point `t` at (k, p) is the array at (k, t·16384 + p). -/
theorem iblk_x (c : Dev nD) (t : Fin cfg0.N) (h8 : t.val < 8) (k : Fin 64) (p : Fin 16384) :
    (iblk0 V c 0 t : Vec Ideal S64x16384 .f32) (ix2 k p) = (V c (Pipeline.arrRef spec0 0)) (ix2 k (col ⟨t.val, h8⟩ p)) := by
  obtain ⟨e0, e1⟩ := idx_x t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 64 + 1 * k.val = k.val; rw [e0]; omega
  | ⟨1, _⟩ => show win0_0.index t (1 : Fin 2) * 16384 + 1 * p.val = t.val * 16384 + p.val; rw [e1]; omega

/-- The weight block of any point is the weight array. -/
theorem iblk_w (c : Dev nD) (t : Fin cfg0.N) (r : Fin 128) (k : Fin 64) :
    (iblk0 V c 1 t : Vec Ideal S128x64 .f32) (ix2 r k) = (V c (Pipeline.arrRef spec0 1)) (ix2 r k) := by
  obtain ⟨e0, e1⟩ := idx_w t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * r.val = r.val; rw [e0]; omega
  | ⟨1, _⟩ => show win0_1.index t (1 : Fin 2) * 64 + 1 * k.val = k.val; rw [e1]; omega

/-- The sum payload over blocks `Wb`, `xb` that read the arrays `W`, `x` (the activation at the columns of point
    `t`), over a carried block `acc`, at channel r. -/
theorem sum_of (Wb : Vec Ideal S128x64 .f32) (xb : Vec Ideal S64x16384 .f32) (W : S128x64.Idx → EReal)
    (x : S64x131072.Idx → EReal) (t : Fin 8) (hW : ∀ (r : Fin 128) (k : Fin 64), Wb (ix2 r k) = W (ix2 r k))
    (hx : ∀ (k : Fin 64) (p : Fin 16384), xb (ix2 k p) = x (ix2 k (col t p))) (acc : Vec Ideal S1x128x1 .f32) (r : Fin 128) :
    k0_pay4 Wb xb acc (ix3 (0 : Fin 1) r (0 : Fin 1)) = acc (ix3 (0 : Fin 1) r (0 : Fin 1)) + sumAt x W t r := by
  refine (pay4_apply Wb xb acc r).trans (congrArg (acc (ix3 (0 : Fin 1) r (0 : Fin 1)) + ·) ?_)
  exact Finset.sum_congr rfl fun p _ => Finset.sum_congr rfl fun k _ => congrArg₂ (· * ·) (hW r k) (hx k p)

/-- The sum-of-squares payload likewise. -/
theorem ssq_of (Wb : Vec Ideal S128x64 .f32) (xb : Vec Ideal S64x16384 .f32) (W : S128x64.Idx → EReal)
    (x : S64x131072.Idx → EReal) (t : Fin 8) (hW : ∀ (r : Fin 128) (k : Fin 64), Wb (ix2 r k) = W (ix2 r k))
    (hx : ∀ (k : Fin 64) (p : Fin 16384), xb (ix2 k p) = x (ix2 k (col t p))) (acc : Vec Ideal S1x128x1 .f32) (r : Fin 128) :
    k0_pay5 Wb xb acc (ix3 (0 : Fin 1) r (0 : Fin 1)) = acc (ix3 (0 : Fin 1) r (0 : Fin 1)) + ssqAt x W t r := by
  refine (pay5_apply Wb xb acc r).trans (congrArg (acc (ix3 (0 : Fin 1) r (0 : Fin 1)) + ·) ?_)
  have e : ∀ p : Fin 16384, (∑ k : Fin 64, Wb (ix2 r k) * xb (ix2 k p)) = ∑ k : Fin 64, W (ix2 r k) * x (ix2 k (col t p)) :=
    fun p => Finset.sum_congr rfl fun k _ => congrArg₂ (· * ·) (hW r k) (hx k p)
  exact Finset.sum_congr rfl fun p _ => congrArg₂ (· * ·) (e p) (e p)

/-- The sum payload of point `t` over a carried block `acc`, at channel r. -/
theorem sum_step (c : Dev nD) (t : Fin cfg0.N) (h8 : t.val < 8) (acc : Vec Ideal S1x128x1 .f32) (r : Fin 128) :
    k0_pay4 (iblk0 V c 1 t) (iblk0 V c 0 t) acc (ix3 (0 : Fin 1) r (0 : Fin 1))
      = acc (ix3 (0 : Fin 1) r (0 : Fin 1)) + sumAt (V c (Pipeline.arrRef spec0 0)) (V c (Pipeline.arrRef spec0 1)) ⟨t.val, h8⟩ r :=
  sum_of (iblk0 V c 1 t) (iblk0 V c 0 t) (V c (Pipeline.arrRef spec0 1)) (V c (Pipeline.arrRef spec0 0)) ⟨t.val, h8⟩ (iblk_w V c t) (iblk_x V c t h8) acc r

/-- The sum-of-squares payload of point `t` over a carried block `acc`, at channel r. -/
theorem ssq_step (c : Dev nD) (t : Fin cfg0.N) (h8 : t.val < 8) (acc : Vec Ideal S1x128x1 .f32) (r : Fin 128) :
    k0_pay5 (iblk0 V c 1 t) (iblk0 V c 0 t) acc (ix3 (0 : Fin 1) r (0 : Fin 1))
      = acc (ix3 (0 : Fin 1) r (0 : Fin 1)) + ssqAt (V c (Pipeline.arrRef spec0 0)) (V c (Pipeline.arrRef spec0 1)) ⟨t.val, h8⟩ r :=
  ssq_of (iblk0 V c 1 t) (iblk0 V c 0 t) (V c (Pipeline.arrRef spec0 1)) (V c (Pipeline.arrRef spec0 0)) ⟨t.val, h8⟩ (iblk_w V c t) (iblk_x V c t h8) acc r

/-! ## The invariant: after point n the blocks hold the running accumulators -/

theorem outs_eq (c : Dev nD) : ∀ (n : ℕ) (h : n < cfg0.N) (h8 : n < 8) (r : Fin 128),
    (outsAt0 V c n h).1 (ix3 (0 : Fin 1) r (0 : Fin 1)) = run (fun t => sumAt (V c (Pipeline.arrRef spec0 0)) (V c (Pipeline.arrRef spec0 1)) t r) n h8
    ∧ (outsAt0 V c n h).2 (ix3 (0 : Fin 1) r (0 : Fin 1)) = run (fun t => ssqAt (V c (Pipeline.arrRef spec0 0)) (V c (Pipeline.arrRef spec0 1)) t r) n h8
  | 0, h, h8, r => by
    rw [outsAt0_A V c ⟨0, h⟩ rfl]
    dsimp only
    rw [out_A_2, out_A_3]
    exact ⟨(sum_step V c ⟨0, h⟩ h8 _ r).trans (congrArg (· + _) (pay1_apply _)),
      (ssq_step V c ⟨0, h⟩ h8 _ r).trans (congrArg (· + _) (pay2_apply _))⟩
  | n + 1, h, h8, r => by
    by_cases h0 : (n + 1) % 4 = 0
    · rw [outsAt0_A V c ⟨n + 1, h⟩ h0]
      dsimp only
      rw [out_A_2, out_A_3, run_reset _ n h8 h0, run_reset _ n h8 h0]
      exact ⟨(sum_step V c ⟨n + 1, h⟩ h8 _ r).trans (congrArg (· + _) (pay1_apply _)),
        (ssq_step V c ⟨n + 1, h⟩ h8 _ r).trans (congrArg (· + _) (pay2_apply _))⟩
    · have ih := outs_eq c n (Nat.lt_of_succ_lt h) (Nat.lt_of_succ_lt h8) r
      rw [outsAt0_B V c ⟨n + 1, h⟩ h0]
      dsimp only
      rw [out_B_2, out_B_3, run_step _ n h8 h0, run_step _ n h8 h0]
      exact ⟨(sum_step V c ⟨n + 1, h⟩ h8 _ r).trans (congrArg (· + _) ih.1),
        (ssq_step V c ⟨n + 1, h⟩ h8 _ r).trans (congrArg (· + _) ih.2)⟩

/-! ## From blocks to the arrays -/

/-- An index of an accumulator array is in point `t`'s block iff each coordinate is in the block's range. -/
theorem mem_blk2 (t : Fin cfg0.N) (i : S2x128x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v2_0).slice (win0_2.rect t)).set ↔ _
  rw [View.set_slice_whole, Rect.mem_set_unit]
  exact Iff.rfl

theorem mem_blk3 (t : Fin cfg0.N) (i : S2x128x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v2_1).slice (win0_3.rect t)).set ↔ _
  rw [View.set_slice_whole, Rect.mem_set_unit]
  exact Iff.rfl

/-- What the last point of a core writes back is its block of the sum array. -/
theorem flushed2_eq (c : Dev nD) (t : Fin cfg0.N) (hf : (cfg0.win 2).flush t = true) :
    (dat0 V c).flushed 2 t = ((cfg0.win 2).blk t).view.read (Elt Ideal) (G0_2 (V c (Pipeline.arrRef spec0 0)) (V c (Pipeline.arrRef spec0 1))) := by
  have hN : cfg0.N = 8 := N_0
  have h3 : t.val % 4 = 3 := (flush0_2 t).mp hf
  have h8 : t.val < 8 := by have := t.isLt; omega
  obtain ⟨e0, e1, e2⟩ := idx_o2 t
  show (cfg0.win 2).cut (grid0.coords t) ((dat0 V c).after 2 t) = _
  rw [after0_2]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg0.win 2).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win0_2.index t (0 : Fin 3) * 1 + 1 * 0 = t.val / 4; rw [e0]; omega
    | ⟨1, _⟩ => show win0_2.index t (1 : Fin 3) * 128 + 1 * r.val = r.val; rw [e1]; omega
    | ⟨2, _⟩ => show win0_2.index t (2 : Fin 3) * 1 + 1 * 0 = 0; rw [e2]
  rw [hemb]
  show (outsAt0 V c t.val t.isLt).1 (ix3 (0 : Fin 1) r (0 : Fin 1)) = chain (fun t' => sumAt (V c (Pipeline.arrRef spec0 0)) (V c (Pipeline.arrRef spec0 1)) t' r) ⟨t.val / 4, _⟩
  rw [(outs_eq V c t.val t.isLt h8 r).1]
  exact run_flush _ t.val h8 h3 _

theorem flushed3_eq (c : Dev nD) (t : Fin cfg0.N) (hf : (cfg0.win 3).flush t = true) :
    (dat0 V c).flushed 3 t = ((cfg0.win 3).blk t).view.read (Elt Ideal) (G0_3 (V c (Pipeline.arrRef spec0 0)) (V c (Pipeline.arrRef spec0 1))) := by
  have hN : cfg0.N = 8 := N_0
  have h3 : t.val % 4 = 3 := (flush0_3 t).mp hf
  have h8 : t.val < 8 := by have := t.isLt; omega
  obtain ⟨e0, e1, e2⟩ := idx_o3 t
  show (cfg0.win 3).cut (grid0.coords t) ((dat0 V c).after 3 t) = _
  rw [after0_3]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg0.win 3).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win0_3.index t (0 : Fin 3) * 1 + 1 * 0 = t.val / 4; rw [e0]; omega
    | ⟨1, _⟩ => show win0_3.index t (1 : Fin 3) * 128 + 1 * r.val = r.val; rw [e1]; omega
    | ⟨2, _⟩ => show win0_3.index t (2 : Fin 3) * 1 + 1 * 0 = 0; rw [e2]
  rw [hemb]
  show (outsAt0 V c t.val t.isLt).2 (ix3 (0 : Fin 1) r (0 : Fin 1)) = chain (fun t' => ssqAt (V c (Pipeline.arrRef spec0 0)) (V c (Pipeline.arrRef spec0 1)) t' r) ⟨t.val / 4, _⟩
  rw [(outs_eq V c t.val t.isLt h8 r).2]
  exact run_flush _ t.val h8 h3 _

/-- The sum array after the region: at (core, r, 0) the core's chain of lane sums. -/
theorem arrAt_2 (c : Dev nD) :
    (Gen.dat0 (F := Ideal) V c).arrAt 2 cfg0.N = G0_2 (V c (Pipeline.arrRef spec0 0)) (V c (Pipeline.arrRef spec0 1)) :=
  (dat0 V c).arrAt_eq_of_cover 2 (G0_2 (V c (Pipeline.arrRef spec0 0)) (V c (Pipeline.arrRef spec0 1))) (flushed2_eq V c) fun (i : S2x128x1.Idx) => by
    have hi0 : (i 0).val < 2 := (i 0).isLt
    have hi1 : (i 1).val < 128 := (i 1).isLt
    have hi2 : (i 2).val < 1 := (i 2).isLt
    have hN : cfg0.N = 8 := N_0
    let t : Fin cfg0.N := ⟨(i 0).val * 4 + 3, by omega⟩
    obtain ⟨e0, e1, e2⟩ := idx_o2 t
    have tv : t.val = (i 0).val * 4 + 3 := rfl
    refine ⟨t, (flush0_2 t).mpr (by rw [tv]; omega), ?_⟩
    rw [mem_blk2]
    intro a
    match a with
    | ⟨0, _⟩ => show win0_2.index t (0 : Fin 3) * 1 ≤ (i 0).val ∧ (i 0).val < win0_2.index t (0 : Fin 3) * 1 + 1; rw [e0, tv]; omega
    | ⟨1, _⟩ => show win0_2.index t (1 : Fin 3) * 128 ≤ (i 1).val ∧ (i 1).val < win0_2.index t (1 : Fin 3) * 128 + 128; rw [e1]; omega
    | ⟨2, _⟩ => show win0_2.index t (2 : Fin 3) * 1 ≤ (i 2).val ∧ (i 2).val < win0_2.index t (2 : Fin 3) * 1 + 1; rw [e2]; omega

/-- The sum-of-squares array after the region: at (core, r, 0) the core's chain of lane sums of squares. -/
theorem arrAt_3 (c : Dev nD) :
    (Gen.dat0 (F := Ideal) V c).arrAt 3 cfg0.N = G0_3 (V c (Pipeline.arrRef spec0 0)) (V c (Pipeline.arrRef spec0 1)) :=
  (dat0 V c).arrAt_eq_of_cover 3 (G0_3 (V c (Pipeline.arrRef spec0 0)) (V c (Pipeline.arrRef spec0 1))) (flushed3_eq V c) fun (i : S2x128x1.Idx) => by
    have hi0 : (i 0).val < 2 := (i 0).isLt
    have hi1 : (i 1).val < 128 := (i 1).isLt
    have hi2 : (i 2).val < 1 := (i 2).isLt
    have hN : cfg0.N = 8 := N_0
    let t : Fin cfg0.N := ⟨(i 0).val * 4 + 3, by omega⟩
    obtain ⟨e0, e1, e2⟩ := idx_o3 t
    have tv : t.val = (i 0).val * 4 + 3 := rfl
    refine ⟨t, (flush0_3 t).mpr (by rw [tv]; omega), ?_⟩
    rw [mem_blk3]
    intro a
    match a with
    | ⟨0, _⟩ => show win0_3.index t (0 : Fin 3) * 1 ≤ (i 0).val ∧ (i 0).val < win0_3.index t (0 : Fin 3) * 1 + 1; rw [e0, tv]; omega
    | ⟨1, _⟩ => show win0_3.index t (1 : Fin 3) * 128 ≤ (i 1).val ∧ (i 1).val < win0_3.index t (1 : Fin 3) * 128 + 128; rw [e1]; omega
    | ⟨2, _⟩ => show win0_3.index t (2 : Fin 3) * 1 ≤ (i 2).val ∧ (i 2).val < win0_3.index t (2 : Fin 3) * 1 + 1; rw [e2]; omega

end Cert.ReferenceIdeal.RAcc0

end
-- ==== Proof.RAcc0Bridge.lean ====
/-
  The first statistics pass of the reference in the shared vocabulary: summed over the two cores, its sum array at a
  channel is the total over all 32 · 4096 pixels of y = W1 · A there, and its sum-of-squares array the total of y * y —
  for ANY arrays x, w that read the activation A (column n · 4096 + p is pixel (n, p)) and the weights W1. A core's chain
  is the sum over its four points; the points' lane sums run over all 131072 columns, which are the pixels in
  batch-by-position order.
-/
import proofs.«126831_g2000503633499865_pallasbulk_555_4_alg».proof.Proof.RAcc0Val
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open scoped BigOperators
open Idealize.ShloMosaic Idealize.ShloMosaic.ValueIdx

namespace Cert.ReferenceIdeal.RAcc0

open Cert.ReferenceIdeal

/-- A core's chain is the sum of its four points' addends. -/
theorem chain_eq_sum (S : Fin 8 → EReal) (q : Fin 2) : chain S q = ∑ j : Fin 4, S (pt q j) := by
  unfold chain
  rw [Ideal.ofBits_zero_f32, zero_add, Fin.sum_univ_four]

/-- The column under lane `q` of point `j` of core `c`. -/
theorem col_pt_val (c : Fin 2) (j : Fin 4) (q : Fin 16384) : (col (pt c j) q).val = (c.val * 4 + j.val) * 16384 + q.val := rfl

/-- Over the two cores, the four points of each and the lanes of each block, a function of the column is summed over
    all pixels in batch-by-position order. -/
theorem sum_points (h : Fin 131072 → EReal) :
    ∑ core : Fin 2, chain (fun t => ∑ p : Fin 16384, h (col t p)) core = ∑ n : Fin 32, ∑ p : Fin 4096, h (Net.colOf n p) := by
  rw [Finset.sum_congr rfl fun core _ => chain_eq_sum _ core]
  exact Net.sum_cols_fin h (fun c j q => col (pt c j) q) col_pt_val Net.colOf Net.colOf_val

section
variable (x : S64x131072.Idx → EReal) (w : S128x64.Idx → EReal) (A : Fin 64 → Net.Px → EReal) (W1 : Fin 128 → Fin 64 → EReal)
  (hx : ∀ (k : Fin 64) (n : Fin 32) (p : Fin 4096), x (ix2 k (Net.colOf n p)) = A k (n, p))
  (hw : ∀ (ch : Fin 128) (k : Fin 64), w (ix2 ch k) = W1 ch k)
include hx hw

/-- y at a pixel, read off the arrays. -/
theorem y_eq (ch : Fin 128) (n : Fin 32) (p : Fin 4096) :
    (∑ k : Fin 64, w (ix2 ch k) * x (ix2 k (Net.colOf n p))) = Net.conv W1 A ch (n, p) :=
  Finset.sum_congr rfl fun k _ => congrArg₂ (· * ·) (hw ch k) (hx k n p)

/-- The sum array, summed over the cores, is the total of y over all pixels. -/
theorem sum_eq (ch : Fin 128) (u : Fin 1) :
    ∑ core : Fin 2, G0_2 x w (ix3 core ch u) = Net.tot (Net.conv W1 A) ch := by
  show ∑ core : Fin 2, chain (fun t => ∑ p : Fin 16384, (fun q : Fin 131072 => ∑ k : Fin 64, w (ix2 ch k) * x (ix2 k q)) (col t p)) core = _
  refine (sum_points (fun q : Fin 131072 => ∑ k : Fin 64, w (ix2 ch k) * x (ix2 k q))).trans ?_
  unfold Net.tot
  rw [Fintype.sum_prod_type]
  exact Finset.sum_congr rfl fun n _ => Finset.sum_congr rfl fun p _ => y_eq x w A W1 hx hw ch n p

/-- The sum-of-squares array, summed over the cores, is the total of y * y over all pixels. -/
theorem ssq_eq (ch : Fin 128) (u : Fin 1) :
    ∑ core : Fin 2, G0_3 x w (ix3 core ch u) = Net.tot2 (Net.conv W1 A) ch := by
  show ∑ core : Fin 2, chain (fun t => ∑ p : Fin 16384, (fun q : Fin 131072 =>
      (∑ k : Fin 64, w (ix2 ch k) * x (ix2 k q)) * (∑ k : Fin 64, w (ix2 ch k) * x (ix2 k q))) (col t p)) core = _
  refine (sum_points (fun q : Fin 131072 =>
    (∑ k : Fin 64, w (ix2 ch k) * x (ix2 k q)) * (∑ k : Fin 64, w (ix2 ch k) * x (ix2 k q)))).trans ?_
  unfold Net.tot2
  rw [Fintype.sum_prod_type]
  exact Finset.sum_congr rfl fun n _ => Finset.sum_congr rfl fun p _ =>
    congrArg₂ (· * ·) (y_eq x w A W1 hx hw ch n p) (y_eq x w A W1 hx hw ch n p)

end

end Cert.ReferenceIdeal.RAcc0

end
-- ==== Proof.RFlowA.lean ====
/-
  The idealized reference's run, read as mathematics — first part: the input, the first statistics pass and the host
  operations after it.
  The input array, transposed to channels first and reshaped to [64, 32 · 4096], is the input as a function of
  (channel, pixel), pixel (n, p) in column n · 4096 + p. The first region's two accumulators, added over the two cores,
  are the per-channel sum and sum of squares of the first convolution over all pixels; the host operations that follow
  turn them into the first normalisation's scale and shift and fold the scale into the first convolution's weights.
-/
import proofs.«126831_g2000503633499865_pallasbulk_555_4_alg».proof.Proof.Gen.ReferenceIdeal.Frame
import proofs.«126831_g2000503633499865_pallasbulk_555_4_alg».proof.Proof.HostFold
import proofs.«126831_g2000503633499865_pallasbulk_555_4_alg».proof.Proof.RAcc0Val
import proofs.«126831_g2000503633499865_pallasbulk_555_4_alg».proof.Proof.RAcc0Bridge
import proofs.«126831_g2000503633499865_pallasbulk_555_4_alg».proof.Proof.NetArgs
import proofs.«126831_g2000503633499865_pallasbulk_555_4_alg».proof.Proof.NetConsts
import proofs.«126831_g2000503633499865_pallasbulk_555_4_alg».proof.Proof.NetIndex
import Idealize.ShloMosaic.Lib.StableHlo.Run
import Idealize.ShloMosaic.Lib.Pipeline.Value
import Idealize.ShloMosaic.Lib.ValueIdx
set_option maxRecDepth 16384
noncomputable section
namespace Cert.ReferenceIdeal.Flow
open Cert.ReferenceIdeal Cert.ReferenceIdeal.Gen
open Idealize.ShloMosaic Idealize.ShloMosaic.TcCoe Idealize.ShloMosaic.ValueIdx Idealize.SL.Sem
variable (m : (ℓ : Loc nD τ sig) → Buf (Elt Ideal) ℓ) (ρ : Dev nD → PrngReg) (c : Dev nD)

/-- The region-entry activation: the input with the channel axis first, laid out as [64, 131072]. -/
theorem v1_eq : V1 (F := Ideal) m ρ c main_v1
    = shapeCast S64x131072 (transpose S64x32x64x64 [1, 0, 2, 3] (m ((c : Thread nD τ).loc main_arg0))
        transposes_S32x64x64x64_S64x32x64x64_1_0_2_3) shapeCasts_S64x32x64x64_S64x131072 := by
  show StableHlo.after hostOps0 (W0 m ρ c) (Proc.devRef .tc main_v1) = _
  after_results
  rfl

/-- Column n · 4096 + p of channel k is the input at pixel (n, p). -/
theorem v1_at (k : Fin 64) (n : Fin 32) (p : Fin 4096) :
    V1 (F := Ideal) m ρ c main_v1 (ix2 k (Net.colOf n p)) = Net.Xof (m ((c : Thread nD τ).loc main_arg0)) k (n, p) := by
  rw [v1_eq]
  unfold Net.Xof
  refine (shapeCast_apply _ _ _ (ix4 k n (Net.hOf p) (Net.wOf p)) ?_).trans ?_
  · show (S64x32x64x64.rowMajor (ix4 k n (Net.hOf p) (Net.wOf p))).val = (S64x131072.rowMajor (ix2 k (Net.colOf n p))).val
    rw [Shape.rowMajor_val_four, Shape.rowMajor_val_two]
    show ((k.val * 32 + n.val) * 64 + p.val / 64) * 64 + p.val % 64 = k.val * 131072 + (n.val * 4096 + p.val)
    omega
  · exact transpose_apply _ _ _ _ (ix4 n k (Net.hOf p) (Net.wOf p)) fun b => match b with
      | ⟨0, _⟩ => rfl | ⟨1, _⟩ => rfl | ⟨2, _⟩ => rfl | ⟨3, _⟩ => rfl

/-- A buffer's contents as an array of extended reals over a literal shape. -/
abbrev arr (S : Shape) (f : S.Idx → EReal) : S.Idx → EReal := f

/-- The input as channels x pixels, and the first block's weights, from the launch memory. -/
abbrev X : Fin 64 → Net.Px → EReal := Net.Xof (m ((c : Thread nD τ).loc main_arg0))
abbrev q0 : Net.BlockParams (Fin 64) (Fin 128) :=
  Net.qOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem v1_arg1 : V1 (F := Ideal) m ρ c main_arg1 = (m ((c : Thread nD τ).loc main_arg1)) := by
  show StableHlo.after hostOps0 (W0 m ρ c) (Proc.devRef .tc main_arg1) = _
  after_results

theorem acc0_sum : W2 (F := Ideal) m ρ c (Proc.devRef .tc main_v2_0)
    = RAcc0.G0_2 (V1 m ρ c main_v1) (V1 m ρ c main_arg1) :=
  (W2_arr m ρ c 2).trans (RAcc0.arrAt_2 (V1 m ρ) c)

theorem acc0_ssq : W2 (F := Ideal) m ρ c (Proc.devRef .tc main_v2_1)
    = RAcc0.G0_3 (V1 m ρ c main_v1) (V1 m ρ c main_arg1) :=
  (W2_arr m ρ c 3).trans (RAcc0.arrAt_3 (V1 m ρ) c)

/-- The weights the first region reads are the first block's. -/
theorem w1_at (ch : Fin 128) (k : Fin 64) : V1 (F := Ideal) m ρ c main_arg1 (ix2 ch k) = (q0 m c).W1 ch k := by
  rw [v1_arg1]; rfl

theorem sum1 (ch : Fin 128) (u : Fin 1) :
    ∑ core : Fin 2, arr S2x128x1 (W2 (F := Ideal) m ρ c (Proc.devRef .tc main_v2_0)) (ix3 core ch u)
      = Net.tot (Net.conv (q0 m c).W1 (X m c)) ch := by
  unfold arr
  rw [acc0_sum]
  exact RAcc0.sum_eq (V1 m ρ c main_v1) (V1 m ρ c main_arg1) (X m c) (q0 m c).W1
    (fun k n p => v1_at m ρ c k n p) (fun ch k => w1_at m ρ c ch k) ch u

theorem ssq1 (ch : Fin 128) (u : Fin 1) :
    ∑ core : Fin 2, arr S2x128x1 (W2 (F := Ideal) m ρ c (Proc.devRef .tc main_v2_1)) (ix3 core ch u)
      = Net.tot2 (Net.conv (q0 m c).W1 (X m c)) ch := by
  unfold arr
  rw [acc0_ssq]
  exact RAcc0.ssq_eq (V1 m ρ c main_v1) (V1 m ρ c main_arg1) (X m c) (q0 m c).W1
    (fun k n p => v1_at m ρ c k n p) (fun ch k => w1_at m ρ c ch k) ch u

/-- An argument array no region and no host operation has written yet. -/
theorem w2_arg (b : Ref sig .tc) (hb : ∀ w, Pipeline.arrRef spec0 w ≠ b)
    (h0 : StableHlo.after hostOps0 (W0 (F := Ideal) m ρ c) (Proc.devRef .tc b) = W0 m ρ c (Proc.devRef .tc b)) :
    W2 (F := Ideal) m ρ c (Proc.devRef .tc b) = W0 m ρ c (Proc.devRef .tc b) :=
  (W2_of_ne m ρ c b hb).trans h0

theorem w2_arg2 : W2 (F := Ideal) m ρ c (Proc.devRef .tc main_arg2) = (m ((c : Thread nD τ).loc main_arg2)) :=
  w2_arg m ρ c main_arg2 (by decide) (by after_results)
theorem w2_arg3 : W2 (F := Ideal) m ρ c (Proc.devRef .tc main_arg3) = (m ((c : Thread nD τ).loc main_arg3)) :=
  w2_arg m ρ c main_arg3 (by decide) (by after_results)
theorem w2_arg1 : W2 (F := Ideal) m ρ c (Proc.devRef .tc main_arg1) = (m ((c : Thread nD τ).loc main_arg1)) :=
  (W2_arr m ρ c 1).trans ((((dat0 (V1 m ρ) c).arrAt_in 1 rfl _).trans (A_eq0 (V1 m ρ) c 1)).trans (v1_arg1 m ρ c))

set_option maxHeartbeats 4000000 in
theorem v16_eq : V3 (F := Ideal) m ρ c main_v16
    = HostFold.scaleVec reducesTo_S2x128x1_S128x1_d0 h_S_ bcast_S_S128x1
        (W2 m ρ c (Proc.devRef .tc main_v2_0)) (W2 m ρ c (Proc.devRef .tc main_v2_1)) (W2 m ρ c (Proc.devRef .tc main_arg2)) := by
  show StableHlo.after hostOps1 (W2 m ρ c) (Proc.devRef .tc main_v16) = _
  after_results_simp
  rfl

/-- The first normalisation's scale. -/
theorem v16_at (ch : Fin 128) :
    V3 (F := Ideal) m ρ c main_v16 (ix2 ch 0)
      = Net.bnScale Net.Nc Net.epsc (Net.conv (q0 m c).W1 (X m c)) (q0 m c).g1 ch := by
  rw [v16_eq, HostFold.scaleVec_apply _ _ _ (by decide)]
  have e1 := sum1 m ρ c ch 0
  have e2 := ssq1 m ρ c ch 0
  unfold arr at e1 e2
  rw [e1, e2, w2_arg2]
  rfl

set_option maxHeartbeats 4000000 in
theorem v18_eq : V3 (F := Ideal) m ρ c main_v18
    = HostFold.shiftVec reducesTo_S2x128x1_S128x1_d0 h_S_ bcast_S_S128x1
        (W2 m ρ c (Proc.devRef .tc main_v2_0)) (W2 m ρ c (Proc.devRef .tc main_v2_1)) (W2 m ρ c (Proc.devRef .tc main_arg2))
        (W2 m ρ c (Proc.devRef .tc main_arg3)) := by
  show StableHlo.after hostOps1 (W2 m ρ c) (Proc.devRef .tc main_v18) = _
  after_results_simp
  rfl

/-- The first normalisation's shift. -/
theorem v18_at (ch : Fin 128) :
    V3 (F := Ideal) m ρ c main_v18 (ix2 ch 0)
      = Net.bnShift Net.Nc Net.epsc (Net.conv (q0 m c).W1 (X m c)) (q0 m c).g1 (q0 m c).b1 ch := by
  rw [v18_eq, HostFold.shiftVec_apply _ _ _ (by decide)]
  have e1 := sum1 m ρ c ch 0
  have e2 := ssq1 m ρ c ch 0
  unfold arr at e1 e2
  rw [e1, e2, w2_arg2, w2_arg3]
  rfl

set_option maxHeartbeats 4000000 in
theorem v20_eq : V3 (F := Ideal) m ρ c main_v20
    = HostFold.scaleRows bcast_S128x1_S128x64_0_1 (W2 m ρ c (Proc.devRef .tc main_arg1))
        (HostFold.scaleVec reducesTo_S2x128x1_S128x1_d0 h_S_ bcast_S_S128x1
          (W2 m ρ c (Proc.devRef .tc main_v2_0)) (W2 m ρ c (Proc.devRef .tc main_v2_1)) (W2 m ρ c (Proc.devRef .tc main_arg2))) := by
  show StableHlo.after hostOps1 (W2 m ρ c) (Proc.devRef .tc main_v20) = _
  after_results_simp
  rfl

/-- The first convolution's weights with the scale folded in, row by row. -/
theorem v20_at (ch : Fin 128) (k : Fin 64) :
    V3 (F := Ideal) m ρ c main_v20 (ix2 ch k)
      = (q0 m c).W1 ch k * Net.bnScale Net.Nc Net.epsc (Net.conv (q0 m c).W1 (X m c)) (q0 m c).g1 ch := by
  rw [v20_eq, HostFold.scaleRows_apply, ← v16_eq, v16_at, w2_arg1]
  rfl

end Cert.ReferenceIdeal.Flow
end
-- ==== Proof.RAcc1Lib.lean ====
/-
  Index lemmas shared by the second-statistics and the fused final passes of the reference: the product
  [64,128] · [128,16384] at (d, q) as a sum over the 128 hidden channels, the lane sum of a [64,16384] block, the layout
  casts between [1,64,1], [64,1] and [64], a per-channel column laid along the lanes, and the leaky rectifier
  z ↦ max z (0.2 · z) on extended reals (its slope kept as the f32 literal).
-/
import proofs.«126831_g2000503633499865_pallasbulk_555_4_alg».proof.Proof.RAcc0Pay

noncomputable section

open scoped BigOperators

namespace Cert.ReferenceIdeal.RAccL

open Idealize.ShloMosaic Idealize.ShloMosaic.ValueIdx
open Cert.ReferenceIdeal Cert.ReferenceIdeal.Gen

/-- The leaky rectifier on extended reals, the slope the f32 literal of 0.2. -/
def lrelu (z : EReal) : EReal := max z (Ideal.ofBits .f32 0x3E4CCCCD#32 * z)

/-! ## The dot [64,128] x [128,16384]: its operand indices, axis by axis -/

theorem lhs0 (i : S64x16384.Idx) (q : dot_S64x128_S128x16384_S64x16384_1_0_0_1_n_n.contr.Idx) :
    (dot_S64x128_S128x16384_S64x16384_1_0_0_1_n_n.lhsIdx i q 0).val = (i 0).val := by
  unfold DotDims.lhsIdx
  rw [dif_neg (show ¬(0 : Fin S64x128.rank) ∈ dot_S64x128_S128x16384_S64x16384_1_0_0_1_n_n.lhsBatch by decide),
    dif_pos (show (0 : Fin S64x128.rank) ∈ dot_S64x128_S128x16384_S64x16384_1_0_0_1_n_n.lhsNonContracting by decide)]
  rfl

theorem lhs1 (i : S64x16384.Idx) (q : dot_S64x128_S128x16384_S64x16384_1_0_0_1_n_n.contr.Idx) :
    (dot_S64x128_S128x16384_S64x16384_1_0_0_1_n_n.lhsIdx i q 1).val = (q ⟨0, by decide⟩).val :=
  dot_S64x128_S128x16384_S64x16384_1_0_0_1_n_n.lhsIdx_val_of_single rfl i q

theorem rhs0 (i : S64x16384.Idx) (q : dot_S64x128_S128x16384_S64x16384_1_0_0_1_n_n.contr.Idx) :
    (dot_S64x128_S128x16384_S64x16384_1_0_0_1_n_n.rhsIdx i q 0).val = (q ⟨0, by decide⟩).val :=
  dot_S64x128_S128x16384_S64x16384_1_0_0_1_n_n.rhsIdx_val_of_single rfl i q

theorem rhs1 (i : S64x16384.Idx) (q : dot_S64x128_S128x16384_S64x16384_1_0_0_1_n_n.contr.Idx) :
    (dot_S64x128_S128x16384_S64x16384_1_0_0_1_n_n.rhsIdx i q 1).val = (i 1).val := by
  unfold DotDims.rhsIdx
  rw [dif_neg (show ¬(1 : Fin S128x16384.rank) ∈ dot_S64x128_S128x16384_S64x16384_1_0_0_1_n_n.rhsBatch by decide),
    dif_pos (show (1 : Fin S128x16384.rank) ∈ dot_S64x128_S128x16384_S64x16384_1_0_0_1_n_n.rhsNonContracting by decide)]
  rfl

/-- The second product at (d, q): the sum over the 128 hidden channels. -/
theorem mm2_apply (W : FVec Ideal S64x128 .f32) (z : FVec Ideal S128x16384 .f32) (d : Fin 64) (q : Fin 16384) :
    matmul dot_S64x128_S128x16384_S64x16384_1_0_0_1_n_n none W z (constant S64x16384 .f32 0x00000000#32) (ix2 d q)
      = ∑ c : Fin 128, W (ix2 d c) * z (ix2 c q) := by
  refine (Ideal.matmul_constant_zero_apply dot_S64x128_S128x16384_S64x16384_1_0_0_1_n_n none W z (ix2 d q)).trans ?_
  rw [← Equiv.sum_comp (contrEquiv1 dot_S64x128_S128x16384_S64x16384_1_0_0_1_n_n 128 rfl rfl).symm]
  refine Finset.sum_congr rfl fun k _ => ?_
  have hk := contrEquiv1_symm_val dot_S64x128_S128x16384_S64x16384_1_0_0_1_n_n 128 rfl rfl k
  have el : dot_S64x128_S128x16384_S64x16384_1_0_0_1_n_n.lhsIdx (ix2 d q)
      ((contrEquiv1 dot_S64x128_S128x16384_S64x16384_1_0_0_1_n_n 128 rfl rfl).symm k) = ix2 d k :=
    funext fun a => Fin.ext (by
      match a with
      | ⟨0, _⟩ => exact lhs0 _ _
      | ⟨1, _⟩ => exact (lhs1 _ _).trans hk)
  have er : dot_S64x128_S128x16384_S64x16384_1_0_0_1_n_n.rhsIdx (ix2 d q)
      ((contrEquiv1 dot_S64x128_S128x16384_S64x16384_1_0_0_1_n_n 128 rfl rfl).symm k) = ix2 k q :=
    funext fun a => Fin.ext (by
      match a with
      | ⟨0, _⟩ => exact (rhs0 _ _).trans hk
      | ⟨1, _⟩ => exact rhs1 _ _)
  rw [el, er]

/-! ## The lane sum of a [64,16384] block -/

theorem laneSum64_apply (src : FVec Ideal S64x16384 .f32) (h : S64x16384.Reduces [1] S64) (hφ : FKind.Formats .f32)
    (hacc : (0x00000000#32 : BitVec 32) = 0x00000000#32) (d : Fin 64) :
    multiReduction .add [1] S64 src 0x00000000#32 h hφ hacc (ix1 d) = ∑ p : Fin 16384, src (ix2 d p) := by
  refine (Ideal.multiReduction_add_single src 0x00000000#32 h hφ hacc (ix1 d)).trans ?_
  refine Finset.sum_congr rfl fun p _ => congrArg src (funext fun a => Fin.ext ?_)
  match a with
  | ⟨0, _⟩ => rfl
  | ⟨1, _⟩ => rfl

/-! ## The layout casts between [1,64,1], [64,1] and [64] at an index -/

theorem cast64_3_2 {α : Type} (v : S1x64x1.Idx → α) (h : S1x64x1.ShapeCasts S64x1) (d : Fin 64) :
    shapeCast S64x1 v h (ix2 d (0 : Fin 1)) = v (ix3 (0 : Fin 1) d (0 : Fin 1)) :=
  shapeCast_apply v h (ix2 d (0 : Fin 1)) (ix3 (0 : Fin 1) d (0 : Fin 1)) (by
    rw [Shape.rowMajor_val_two, Shape.rowMajor_val_three]
    show (0 * 64 + d.val) * 1 + 0 = d.val * 1 + 0
    omega)

theorem cast64_2_3 {α : Type} (v : S64x1.Idx → α) (h : S64x1.ShapeCasts S1x64x1) (d : Fin 64) :
    shapeCast S1x64x1 v h (ix3 (0 : Fin 1) d (0 : Fin 1)) = v (ix2 d (0 : Fin 1)) :=
  shapeCast_apply v h (ix3 (0 : Fin 1) d (0 : Fin 1)) (ix2 d (0 : Fin 1)) (by
    rw [Shape.rowMajor_val_two, Shape.rowMajor_val_three]
    show d.val * 1 + 0 = (0 * 64 + d.val) * 1 + 0
    omega)

theorem cast64_1_2 {α : Type} (v : S64.Idx → α) (h : S64.ShapeCasts S64x1) (d : Fin 64) :
    shapeCast S64x1 v h (ix2 d (0 : Fin 1)) = v (ix1 d) :=
  shapeCast_apply v h (ix2 d (0 : Fin 1)) (ix1 d) (by
    rw [Shape.rowMajor_val_two, Shape.rowMajor_val_one]
    show d.val = d.val * 1 + 0
    omega)

/-! ## A per-channel column laid along the lanes -/

theorem bcast128_apply {α : Type} (v : S128x1.Idx → α) (h : S128x1.Broadcasts S128x16384) (c : Fin 128) (q : Fin 16384) :
    broadcastTo S128x16384 v h (ix2 c q) = v (ix2 c (0 : Fin 1)) :=
  broadcastTo_apply v h (ix2 c q) (ix2 c (0 : Fin 1)) (by
    intro a
    match a with
    | ⟨0, _⟩ => show c.val = if (128 : ℕ) = 1 then 0 else c.val; simp
    | ⟨1, _⟩ => show (0 : ℕ) = if (1 : ℕ) = 1 then 0 else q.val; simp)

theorem bcast64_apply {α : Type} (v : S64x1.Idx → α) (h : S64x1.Broadcasts S64x16384) (d : Fin 64) (q : Fin 16384) :
    broadcastTo S64x16384 v h (ix2 d q) = v (ix2 d (0 : Fin 1)) :=
  broadcastTo_apply v h (ix2 d q) (ix2 d (0 : Fin 1)) (by
    intro a
    match a with
    | ⟨0, _⟩ => show d.val = if (64 : ℕ) = 1 then 0 else d.val; simp
    | ⟨1, _⟩ => show (0 : ℕ) = if (1 : ℕ) = 1 then 0 else q.val; simp)

/-! ## The hidden activation of a block -/

/-- z1 = lrelu (W1f · x + t1) at (c, q): the first layer, its folded shift added per channel, rectified. -/
def z1At (W1f : S128x64.Idx → EReal) (t1 : S128x1.Idx → EReal) (xcol : Fin 64 → EReal) (c : Fin 128) : EReal :=
  lrelu ((∑ k : Fin 64, W1f (ix2 c k) * xcol k) + t1 (ix2 c (0 : Fin 1)))

/-- The printed first layer of a block (shared text of three payloads) at (c, q). -/
theorem layer1_apply (W1f : FVec Ideal S128x64 .f32) (x : FVec Ideal S64x16384 .f32) (t1 : FVec Ideal S128x1 .f32)
    (hb : S128x1.Broadcasts S128x16384) (c : Fin 128) (q : Fin 16384) :
    maximumf
        (addf (matmul dot_S128x64_S64x16384_S128x16384_1_0_0_1_n_n none W1f x (constant S128x16384 .f32 0x00000000#32))
          (broadcastTo S128x16384 t1 hb))
        (mulf (broadcast S128x16384 (Scalar.ofBits .f32 0x3E4CCCCD#32 : Ideal .f32))
          (addf (matmul dot_S128x64_S64x16384_S128x16384_1_0_0_1_n_n none W1f x (constant S128x16384 .f32 0x00000000#32))
            (broadcastTo S128x16384 t1 hb))) (ix2 c q)
      = z1At W1f t1 (fun k => x (ix2 k q)) c := by
  have eA := RAcc0.mm_apply W1f x c q
  have eB := bcast128_apply t1 hb c q
  show max (matmul dot_S128x64_S64x16384_S128x16384_1_0_0_1_n_n none W1f x (constant S128x16384 .f32 0x00000000#32) (ix2 c q)
        + broadcastTo S128x16384 t1 hb (ix2 c q))
      (Ideal.ofBits .f32 0x3E4CCCCD#32 * (matmul dot_S128x64_S64x16384_S128x16384_1_0_0_1_n_n none W1f x (constant S128x16384 .f32 0x00000000#32) (ix2 c q)
        + broadcastTo S128x16384 t1 hb (ix2 c q))) = _
  rw [eA, eB]
  rfl

/-- The printed second layer of a block over ANY hidden activation z, at (d, q): the product with W2f, the folded
    shift added per channel, rectified. -/
theorem layer2_apply (W2f : FVec Ideal S64x128 .f32) (z : FVec Ideal S128x16384 .f32) (t2 : FVec Ideal S64x1 .f32)
    (hb : S64x1.Broadcasts S64x16384) (d : Fin 64) (q : Fin 16384) :
    maximumf
        (addf (matmul dot_S64x128_S128x16384_S64x16384_1_0_0_1_n_n none W2f z (constant S64x16384 .f32 0x00000000#32))
          (broadcastTo S64x16384 t2 hb))
        (mulf (broadcast S64x16384 (Scalar.ofBits .f32 0x3E4CCCCD#32 : Ideal .f32))
          (addf (matmul dot_S64x128_S128x16384_S64x16384_1_0_0_1_n_n none W2f z (constant S64x16384 .f32 0x00000000#32))
            (broadcastTo S64x16384 t2 hb))) (ix2 d q)
      = lrelu ((∑ c : Fin 128, W2f (ix2 d c) * z (ix2 c q)) + t2 (ix2 d (0 : Fin 1))) := by
  have eA := mm2_apply W2f z d q
  have eB := bcast64_apply t2 hb d q
  show max (matmul dot_S64x128_S128x16384_S64x16384_1_0_0_1_n_n none W2f z (constant S64x16384 .f32 0x00000000#32) (ix2 d q)
        + broadcastTo S64x16384 t2 hb (ix2 d q))
      (Ideal.ofBits .f32 0x3E4CCCCD#32 * (matmul dot_S64x128_S128x16384_S64x16384_1_0_0_1_n_n none W2f z (constant S64x16384 .f32 0x00000000#32) (ix2 d q)
        + broadcastTo S64x16384 t2 hb (ix2 d q))) = _
  rw [eA, eB]
  rfl

/-- y2 = W2 · z1 at channel d of one column. -/
def y2At (W1f : S128x64.Idx → EReal) (t1 : S128x1.Idx → EReal) (W2 : S64x128.Idx → EReal) (xcol : Fin 64 → EReal)
    (d : Fin 64) : EReal :=
  ∑ c : Fin 128, W2 (ix2 d c) * z1At W1f t1 xcol c

/-- z2 = lrelu (W2f · z1 + t2) at channel d of one column. -/
def z2At (W1f : S128x64.Idx → EReal) (t1 : S128x1.Idx → EReal) (W2f : S64x128.Idx → EReal) (t2 : S64x1.Idx → EReal)
    (xcol : Fin 64 → EReal) (d : Fin 64) : EReal :=
  lrelu (y2At W1f t1 W2f xcol d + t2 (ix2 d (0 : Fin 1)))

end Cert.ReferenceIdeal.RAccL

end
-- ==== Proof.RAcc1Pay.lean ====
/-
  Region 1 of the reference (the second statistics pass), its payloads read at an index over the extended reals:
  y2 = W2 · lrelu (W1f · x + t1) of the block at (d, q), and the two accumulator payloads at (0, d, 0): the carried
  value plus the lane sum of y2, resp. of y2 * y2. The zeroing payloads read the zero literal.
-/
import proofs.«126831_g2000503633499865_pallasbulk_555_4_alg».proof.Proof.RAcc1Lib

noncomputable section

open scoped BigOperators

namespace Cert.ReferenceIdeal.RAcc1

open Idealize.ShloMosaic Idealize.ShloMosaic.ValueIdx
open Cert.ReferenceIdeal Cert.ReferenceIdeal.Gen Cert.ReferenceIdeal.RAccL

/-- y2 of the block at (d, q). -/
theorem pay4_apply (W1f : Vec Ideal S128x64 .f32) (x : Vec Ideal S64x16384 .f32) (t1 : Vec Ideal S128x1 .f32)
    (W2 : Vec Ideal S64x128 .f32) (d : Fin 64) (q : Fin 16384) :
    k1_pay4 W1f x t1 W2 (ix2 d q) = y2At W1f t1 W2 (fun k => x (ix2 k q)) d := by
  unfold k1_pay4
  simp only [shapeCast_self]
  refine (mm2_apply W2 _ d q).trans ?_
  exact Finset.sum_congr rfl fun c _ => congrArg (W2 (ix2 d c) * ·) (layer1_apply W1f x t1 _ c q)

/-- The zeroing payloads read the zero literal. -/
theorem pay2_apply (j : S1x64x1.Idx) : k1_pay2 (F := Ideal) j = Ideal.ofBits .f32 0x00000000#32 := rfl
theorem pay3_apply (j : S1x64x1.Idx) : k1_pay3 (F := Ideal) j = Ideal.ofBits .f32 0x00000000#32 := rfl

/-- The sum accumulator: the carried value plus the lane sum of y2. -/
theorem pay5_apply (W1f : Vec Ideal S128x64 .f32) (x : Vec Ideal S64x16384 .f32) (t1 : Vec Ideal S128x1 .f32)
    (W2 : Vec Ideal S64x128 .f32) (acc : Vec Ideal S1x64x1 .f32) (d : Fin 64) :
    k1_pay5 W1f x t1 W2 acc (ix3 (0 : Fin 1) d (0 : Fin 1))
      = acc (ix3 (0 : Fin 1) d (0 : Fin 1)) + ∑ p : Fin 16384, y2At W1f t1 W2 (fun k => x (ix2 k p)) d := by
  unfold k1_pay5
  refine (cast64_2_3 _ _ d).trans ?_
  refine congrArg₂ (· + ·) (cast64_3_2 acc _ d) ?_
  refine (cast64_1_2 _ _ d).trans ?_
  refine (laneSum64_apply (k1_pay4 W1f x t1 W2) _ _ _ d).trans ?_
  exact Finset.sum_congr rfl fun p _ => pay4_apply W1f x t1 W2 d p

/-- The sum-of-squares accumulator: the carried value plus the lane sum of y2 * y2. -/
theorem pay16_apply (W1f : Vec Ideal S128x64 .f32) (x : Vec Ideal S64x16384 .f32) (t1 : Vec Ideal S128x1 .f32)
    (W2 : Vec Ideal S64x128 .f32) (acc : Vec Ideal S1x64x1 .f32) (d : Fin 64) :
    k1_pay1 (k1_pay6 W1f x t1 W2 acc) (ix3 (0 : Fin 1) d (0 : Fin 1))
      = acc (ix3 (0 : Fin 1) d (0 : Fin 1))
        + ∑ p : Fin 16384, y2At W1f t1 W2 (fun k => x (ix2 k p)) d * y2At W1f t1 W2 (fun k => x (ix2 k p)) d := by
  unfold k1_pay1 k1_pay6
  refine (cast64_2_3 _ _ d).trans ?_
  refine congrArg₂ (· + ·) (cast64_3_2 acc _ d) ?_
  refine (cast64_1_2 _ _ d).trans ?_
  refine (laneSum64_apply (mulf (k1_pay4 W1f x t1 W2) (k1_pay4 W1f x t1 W2)) _ _ _ d).trans ?_
  refine Finset.sum_congr rfl fun p _ => ?_
  show k1_pay4 W1f x t1 W2 (ix2 d p) * k1_pay4 W1f x t1 W2 (ix2 d p) = _
  rw [pay4_apply W1f x t1 W2 d p]

end Cert.ReferenceIdeal.RAcc1

end
-- ==== Proof.RAcc1Val.lean ====
/-
  Region 1 of the reference (a second statistics pass): what its two accumulator arrays [2,64,1] end holding, as
  functions of the arrays the region finds. Each case of the body leaves, in an accumulator's block, a payload of the
  point's input blocks (reset case: over the zero block; accumulating case: over what the point before left); so after
  point t the block holds the running sum over the points of t's core up to t; the last point of a core writes the block
  back into that core's row of the array.
-/
import proofs.«126831_g2000503633499865_pallasbulk_555_4_alg».proof.Proof.Gen.ReferenceIdeal.Frame
import proofs.«126831_g2000503633499865_pallasbulk_555_4_alg».proof.Proof.RAcc0Val
import proofs.«126831_g2000503633499865_pallasbulk_555_4_alg».proof.Proof.RAcc1Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc1

open Cert.ReferenceIdeal Cert.ReferenceIdeal.Gen Cert.ReferenceIdeal.RAccL
open Cert.ReferenceIdeal.RAcc0 (hz2 hz3 col pt chain run run_reset run_step run_flush)

/-! ## The cases' pieces, as payloads (any float instance) -/

section Pieces
variable {F : FTy → Type} [FloatOps F]

/-- The accumulating case leaves, in the sum block holding `xo4`, the sum payload over it. -/
theorem out_B_4 (c : Dev nD) (i : grid1.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond1_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out1_B_4 c i arg2 harg2 arg3 harg3 arg4 harg4 arg5 harg5 arg6 harg6 arg7 harg7 hc0 x0 x1 x2 x3 xo4 xo5 = k1_pay5 x1 x0 x2 x3 xo4 := by
  unfold out1_B_4
  rw [View.read_writes_eq_canon _ _ _ (cover1_B_4 c i arg2 harg2 arg3 harg3 arg4 harg4 arg5 harg5 arg6 harg6 arg7 harg7 hc0 x0 x1 x2 x3 xo4 xo5)]
  unfold kernelRun1_B
  dsimp only
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- and in the sum-of-squares block holding `xo5`, the sum-of-squares payload over it. -/
theorem out_B_5 (c : Dev nD) (i : grid1.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond1_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out1_B_5 c i arg2 harg2 arg3 harg3 arg4 harg4 arg5 harg5 arg6 harg6 arg7 harg7 hc0 x0 x1 x2 x3 xo4 xo5 = k1_pay1 (k1_pay6 x1 x0 x2 x3 xo5) := by
  unfold out1_B_5
  rw [View.read_writes_eq_canon _ _ _ (cover1_B_5 c i arg2 harg2 arg3 harg3 arg4 harg4 arg5 harg5 arg6 harg6 arg7 harg7 hc0 x0 x1 x2 x3 xo4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- The reset case stores the zero block, reads it back, and leaves the sum payload over it. -/
theorem out_A_4 (c : Dev nD) (i : grid1.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond1_0 i)
    (x0 : Vec F S64x16384 .f32) (x1 : Vec F S128x64 .f32) (x2 : Vec F S128x1 .f32) (x3 : Vec F S64x128 .f32) :
    out1_A_4 c i arg2 harg2 arg3 harg3 arg4 harg4 arg5 harg5 arg6 harg6 arg7 harg7 hc0 x0 x1 x2 x3 = k1_pay5 x1 x0 x2 x3 (k1_pay2 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

theorem out_A_5 (c : Dev nD) (i : grid1.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond1_0 i)
    (x0 : Vec F S64x16384 .f32) (x1 : Vec F S128x64 .f32) (x2 : Vec F S128x1 .f32) (x3 : Vec F S64x128 .f32) :
    out1_A_5 c i arg2 harg2 arg3 harg3 arg4 harg4 arg5 harg5 arg6 harg6 arg7 harg7 hc0 x0 x1 x2 x3 = k1_pay1 (k1_pay6 x1 x0 x2 x3 (k1_pay3 (F := F))) := by
  unfold out1_A_5
  rw [View.read_writes_eq_canon _ _ _ (cover1_A_5 c i arg2 harg2 arg3 harg3 arg4 harg4 arg5 harg5 arg6 harg6 arg7 harg7 hc0 x0 x1 x2 x3)]
  unfold kernelRun1_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

end Pieces

/-! ## The sums a point adds -/

/-- What point `t` adds to channel `d` of the sum: the lane sum of y2 over the point's block. -/
def sumAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d

/-- What point `t` adds to channel `d` of the sum of squares: the lane sum of y2 * y2 over the point's block. -/
def ssqAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d * y2At W1f t1 W2 (fun k => x (ix2 k (col t p))) d

/-- The sum array [2,64,1]: at (core, d, 0) the core's chain of lane sums of y2. -/
def G1_4 (x : S64x131072.Idx → EReal) (W1f : S128x64.Idx → EReal) (t1 : S128x1.Idx → EReal) (W2 : S64x128.Idx → EReal) :
    S2x64x1.Idx → EReal := fun i => chain (fun t => sumAt x W1f t1 W2 t (i 1)) (i 0)

/-- The sum-of-squares array [2,64,1]: at (core, d, 0) the core's chain of lane sums of y2 * y2. -/
def G1_5 (x : S64x131072.Idx → EReal) (W1f : S128x64.Idx → EReal) (t1 : S128x1.Idx → EReal) (W2 : S64x128.Idx → EReal) :
    S2x64x1.Idx → EReal := fun i => chain (fun t => ssqAt x W1f t1 W2 t (i 1)) (i 0)

/-! ## The blocks a point reads -/

theorem idx_0 : ∀ t : Fin cfg1.N, win1_0.index t (0 : Fin 2) = 0 ∧ win1_0.index t (1 : Fin 2) = t.val :=
  (by decide +kernel : ∀ t : Fin grid1.N, win1_0.index t (0 : Fin 2) = 0 ∧ win1_0.index t (1 : Fin 2) = t.val)
theorem idx_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx_4 : ∀ t : Fin cfg1.N, win1_4.index t (0 : Fin 3) = t.val / 4 ∧ win1_4.index t (1 : Fin 3) = 0 ∧ win1_4.index t (2 : Fin 3) = 0 :=
  (by decide +kernel : ∀ t : Fin grid1.N, win1_4.index t (0 : Fin 3) = t.val / 4 ∧ win1_4.index t (1 : Fin 3) = 0 ∧ win1_4.index t (2 : Fin 3) = 0)
theorem idx_5 : ∀ t : Fin cfg1.N, win1_5.index t (0 : Fin 3) = t.val / 4 ∧ win1_5.index t (1 : Fin 3) = 0 ∧ win1_5.index t (2 : Fin 3) = 0 :=
  (by decide +kernel : ∀ t : Fin grid1.N, win1_5.index t (0 : Fin 3) = t.val / 4 ∧ win1_5.index t (1 : Fin 3) = 0 ∧ win1_5.index t (2 : Fin 3) = 0)

variable (V : (c : Dev nD) → (b : Ref sig .tc) → Buf (Elt Ideal) ((c : Thread nD τ).loc b))

/-- The activation block of point `t` at (k, p) is the array at (k, t·16384 + p). -/
theorem iblk_x (c : Dev nD) (t : Fin cfg1.N) (h8 : t.val < 8) (k : Fin 64) (p : Fin 16384) :
    (iblk1 V c 0 t : Vec Ideal S64x16384 .f32) (ix2 k p) = (V c (Pipeline.arrRef spec1 0)) (ix2 k (col ⟨t.val, h8⟩ p)) := by
  obtain ⟨e0, e1⟩ := idx_0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 64 + 1 * k.val = k.val; rw [e0]; omega
  | ⟨1, _⟩ => show win1_0.index t (1 : Fin 2) * 16384 + 1 * p.val = t.val * 16384 + p.val; rw [e1]; omega

/-- The resident blocks of any point are their arrays. -/
theorem iblk_1 (c : Dev nD) (t : Fin cfg1.N) (r : Fin 128) (k : Fin 64) :
    (iblk1 V c 1 t : Vec Ideal S128x64 .f32) (ix2 r k) = (V c (Pipeline.arrRef spec1 1)) (ix2 r k) := by
  obtain ⟨e0, e1⟩ := idx_1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 128 + 1 * r.val = r.val; rw [e0]; omega
  | ⟨1, _⟩ => show win1_1.index t (1 : Fin 2) * 64 + 1 * k.val = k.val; rw [e1]; omega

theorem iblk_2 (c : Dev nD) (t : Fin cfg1.N) (r : Fin 128) (z : Fin 1) :
    (iblk1 V c 2 t : Vec Ideal S128x1 .f32) (ix2 r z) = (V c (Pipeline.arrRef spec1 2)) (ix2 r z) := by
  obtain ⟨e0, e1⟩ := idx_2 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * r.val = r.val; rw [e0]; omega
  | ⟨1, _⟩ => show win1_2.index t (1 : Fin 2) * 1 + 1 * z.val = z.val; rw [e1]; omega

theorem iblk_3 (c : Dev nD) (t : Fin cfg1.N) (d : Fin 64) (r : Fin 128) :
    (iblk1 V c 3 t : Vec Ideal S64x128 .f32) (ix2 d r) = (V c (Pipeline.arrRef spec1 3)) (ix2 d r) := by
  obtain ⟨e0, e1⟩ := idx_3 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 64 + 1 * d.val = d.val; rw [e0]; omega
  | ⟨1, _⟩ => show win1_3.index t (1 : Fin 2) * 128 + 1 * r.val = r.val; rw [e1]; omega

/-! ## A point's payloads over blocks that read the arrays -/

section Of
variable (W1b : Vec Ideal S128x64 .f32) (xb : Vec Ideal S64x16384 .f32) (t1b : Vec Ideal S128x1 .f32) (W2b : Vec Ideal S64x128 .f32)
  (x : S64x131072.Idx → EReal) (W1f : S128x64.Idx → EReal) (t1 : S128x1.Idx → EReal) (W2 : S64x128.Idx → EReal) (t : Fin 8)
  (hW1 : ∀ (r : Fin 128) (k : Fin 64), W1b (ix2 r k) = W1f (ix2 r k))
  (hx : ∀ (k : Fin 64) (p : Fin 16384), xb (ix2 k p) = x (ix2 k (col t p)))
  (ht1 : ∀ (r : Fin 128) (z : Fin 1), t1b (ix2 r z) = t1 (ix2 r z))
  (hW2 : ∀ (d : Fin 64) (r : Fin 128), W2b (ix2 d r) = W2 (ix2 d r))
include hW1 hx ht1 hW2

/-- y2 of a column read through the blocks is y2 of the arrays' column. -/
theorem y2_of (d : Fin 64) (p : Fin 16384) :
    y2At W1b t1b W2b (fun k => xb (ix2 k p)) d = y2At W1f t1 W2 (fun k => x (ix2 k (col t p))) d := by
  unfold y2At z1At
  refine Finset.sum_congr rfl fun r _ => congrArg₂ (· * ·) (hW2 d r) (congrArg lrelu (congrArg₂ (· + ·) ?_ (ht1 r 0)))
  exact Finset.sum_congr rfl fun k _ => congrArg₂ (· * ·) (hW1 r k) (hx k p)

theorem sum_of (acc : Vec Ideal S1x64x1 .f32) (d : Fin 64) :
    k1_pay5 W1b xb t1b W2b acc (ix3 (0 : Fin 1) d (0 : Fin 1)) = acc (ix3 (0 : Fin 1) d (0 : Fin 1)) + sumAt x W1f t1 W2 t d := by
  refine (pay5_apply W1b xb t1b W2b acc d).trans (congrArg (acc (ix3 (0 : Fin 1) d (0 : Fin 1)) + ·) ?_)
  exact Finset.sum_congr rfl fun p _ => y2_of W1b xb t1b W2b x W1f t1 W2 t hW1 hx ht1 hW2 d p

theorem ssq_of (acc : Vec Ideal S1x64x1 .f32) (d : Fin 64) :
    k1_pay1 (k1_pay6 W1b xb t1b W2b acc) (ix3 (0 : Fin 1) d (0 : Fin 1)) = acc (ix3 (0 : Fin 1) d (0 : Fin 1)) + ssqAt x W1f t1 W2 t d := by
  refine (pay16_apply W1b xb t1b W2b acc d).trans (congrArg (acc (ix3 (0 : Fin 1) d (0 : Fin 1)) + ·) ?_)
  exact Finset.sum_congr rfl fun p _ => congrArg₂ (· * ·) (y2_of W1b xb t1b W2b x W1f t1 W2 t hW1 hx ht1 hW2 d p)
    (y2_of W1b xb t1b W2b x W1f t1 W2 t hW1 hx ht1 hW2 d p)

end Of

theorem sum_step (c : Dev nD) (t : Fin cfg1.N) (h8 : t.val < 8) (acc : Vec Ideal S1x64x1 .f32) (d : Fin 64) :
    k1_pay5 (iblk1 V c 1 t) (iblk1 V c 0 t) (iblk1 V c 2 t) (iblk1 V c 3 t) acc (ix3 (0 : Fin 1) d (0 : Fin 1))
      = acc (ix3 (0 : Fin 1) d (0 : Fin 1)) + sumAt (V c (Pipeline.arrRef spec1 0)) (V c (Pipeline.arrRef spec1 1)) (V c (Pipeline.arrRef spec1 2)) (V c (Pipeline.arrRef spec1 3)) ⟨t.val, h8⟩ d :=
  sum_of (iblk1 V c 1 t) (iblk1 V c 0 t) (iblk1 V c 2 t) (iblk1 V c 3 t) (V c (Pipeline.arrRef spec1 0)) (V c (Pipeline.arrRef spec1 1)) (V c (Pipeline.arrRef spec1 2)) (V c (Pipeline.arrRef spec1 3)) ⟨t.val, h8⟩
    (iblk_1 V c t) (iblk_x V c t h8) (iblk_2 V c t) (iblk_3 V c t) acc d

theorem ssq_step (c : Dev nD) (t : Fin cfg1.N) (h8 : t.val < 8) (acc : Vec Ideal S1x64x1 .f32) (d : Fin 64) :
    k1_pay1 (k1_pay6 (iblk1 V c 1 t) (iblk1 V c 0 t) (iblk1 V c 2 t) (iblk1 V c 3 t) acc) (ix3 (0 : Fin 1) d (0 : Fin 1))
      = acc (ix3 (0 : Fin 1) d (0 : Fin 1)) + ssqAt (V c (Pipeline.arrRef spec1 0)) (V c (Pipeline.arrRef spec1 1)) (V c (Pipeline.arrRef spec1 2)) (V c (Pipeline.arrRef spec1 3)) ⟨t.val, h8⟩ d :=
  ssq_of (iblk1 V c 1 t) (iblk1 V c 0 t) (iblk1 V c 2 t) (iblk1 V c 3 t) (V c (Pipeline.arrRef spec1 0)) (V c (Pipeline.arrRef spec1 1)) (V c (Pipeline.arrRef spec1 2)) (V c (Pipeline.arrRef spec1 3)) ⟨t.val, h8⟩
    (iblk_1 V c t) (iblk_x V c t h8) (iblk_2 V c t) (iblk_3 V c t) acc d

/-! ## One point's step, over ANY staging memrefs and carried blocks -/

theorem stepA_4 (c : Dev nD) (t : Fin cfg1.N) (h8 : t.val < 8) {i : grid1.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond1_0 i} (d : Fin 64) :
    out1_A_4 c i arg2 harg2 arg3 harg3 arg4 harg4 arg5 harg5 arg6 harg6 arg7 harg7 hc0 (iblk1 V c 0 t) (iblk1 V c 1 t) (iblk1 V c 2 t) (iblk1 V c 3 t) (ix3 (0 : Fin 1) d (0 : Fin 1))
      = Ideal.ofBits .f32 0x00000000#32 + sumAt (V c (Pipeline.arrRef spec1 0)) (V c (Pipeline.arrRef spec1 1)) (V c (Pipeline.arrRef spec1 2)) (V c (Pipeline.arrRef spec1 3)) ⟨t.val, h8⟩ d := by
  rw [out_A_4 (F := Ideal) c]
  exact (sum_step V c t h8 _ d).trans (congrArg (· + _) (pay2_apply _))

theorem stepA_5 (c : Dev nD) (t : Fin cfg1.N) (h8 : t.val < 8) {i : grid1.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond1_0 i} (d : Fin 64) :
    out1_A_5 c i arg2 harg2 arg3 harg3 arg4 harg4 arg5 harg5 arg6 harg6 arg7 harg7 hc0 (iblk1 V c 0 t) (iblk1 V c 1 t) (iblk1 V c 2 t) (iblk1 V c 3 t) (ix3 (0 : Fin 1) d (0 : Fin 1))
      = Ideal.ofBits .f32 0x00000000#32 + ssqAt (V c (Pipeline.arrRef spec1 0)) (V c (Pipeline.arrRef spec1 1)) (V c (Pipeline.arrRef spec1 2)) (V c (Pipeline.arrRef spec1 3)) ⟨t.val, h8⟩ d := by
  rw [out_A_5 (F := Ideal) c]
  exact (ssq_step V c t h8 _ d).trans (congrArg (· + _) (pay3_apply _))

theorem stepB_4 (c : Dev nD) (t : Fin cfg1.N) (h8 : t.val < 8) {i : grid1.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond1_0 i}
    {xo4 xo5 : Vec Ideal S1x64x1 .f32} (d : Fin 64) :
    out1_B_4 c i arg2 harg2 arg3 harg3 arg4 harg4 arg5 harg5 arg6 harg6 arg7 harg7 hc0 (iblk1 V c 0 t) (iblk1 V c 1 t) (iblk1 V c 2 t) (iblk1 V c 3 t) xo4 xo5 (ix3 (0 : Fin 1) d (0 : Fin 1))
      = xo4 (ix3 (0 : Fin 1) d (0 : Fin 1)) + sumAt (V c (Pipeline.arrRef spec1 0)) (V c (Pipeline.arrRef spec1 1)) (V c (Pipeline.arrRef spec1 2)) (V c (Pipeline.arrRef spec1 3)) ⟨t.val, h8⟩ d := by
  rw [out_B_4 (F := Ideal) c]
  exact sum_step V c t h8 xo4 d

theorem stepB_5 (c : Dev nD) (t : Fin cfg1.N) (h8 : t.val < 8) {i : grid1.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond1_0 i}
    {xo4 xo5 : Vec Ideal S1x64x1 .f32} (d : Fin 64) :
    out1_B_5 c i arg2 harg2 arg3 harg3 arg4 harg4 arg5 harg5 arg6 harg6 arg7 harg7 hc0 (iblk1 V c 0 t) (iblk1 V c 1 t) (iblk1 V c 2 t) (iblk1 V c 3 t) xo4 xo5 (ix3 (0 : Fin 1) d (0 : Fin 1))
      = xo5 (ix3 (0 : Fin 1) d (0 : Fin 1)) + ssqAt (V c (Pipeline.arrRef spec1 0)) (V c (Pipeline.arrRef spec1 1)) (V c (Pipeline.arrRef spec1 2)) (V c (Pipeline.arrRef spec1 3)) ⟨t.val, h8⟩ d := by
  rw [out_B_5 (F := Ideal) c]
  exact ssq_step V c t h8 xo5 d

/-! ## The invariant: after point n the blocks hold the running accumulators -/

theorem outs_eq (c : Dev nD) : ∀ (n : ℕ) (h : n < cfg1.N) (h8 : n < 8) (d : Fin 64),
    (outsAt1 V c n h).1 (ix3 (0 : Fin 1) d (0 : Fin 1)) = run (fun t => sumAt (V c (Pipeline.arrRef spec1 0)) (V c (Pipeline.arrRef spec1 1)) (V c (Pipeline.arrRef spec1 2)) (V c (Pipeline.arrRef spec1 3)) t d) n h8
    ∧ (outsAt1 V c n h).2 (ix3 (0 : Fin 1) d (0 : Fin 1)) = run (fun t => ssqAt (V c (Pipeline.arrRef spec1 0)) (V c (Pipeline.arrRef spec1 1)) (V c (Pipeline.arrRef spec1 2)) (V c (Pipeline.arrRef spec1 3)) t d) n h8
  | 0, h, h8, d => by
    rw [outsAt1_A V c ⟨0, h⟩ rfl]
    dsimp only
    exact ⟨stepA_4 V c ⟨0, h⟩ h8 d, stepA_5 V c ⟨0, h⟩ h8 d⟩
  | n + 1, h, h8, d => by
    by_cases h0 : (n + 1) % 4 = 0
    · rw [run_reset _ n h8 h0, run_reset _ n h8 h0, outsAt1_A V c ⟨n + 1, h⟩ h0]
      dsimp only
      exact ⟨stepA_4 V c ⟨n + 1, h⟩ h8 d, stepA_5 V c ⟨n + 1, h⟩ h8 d⟩
    · have ih := outs_eq c n (Nat.lt_of_succ_lt h) (Nat.lt_of_succ_lt h8) d
      rw [run_step _ n h8 h0, run_step _ n h8 h0, outsAt1_B V c ⟨n + 1, h⟩ h0]
      dsimp only
      exact ⟨(stepB_4 V c ⟨n + 1, h⟩ h8 d).trans (congrArg (· + _) ih.1),
        (stepB_5 V c ⟨n + 1, h⟩ h8 d).trans (congrArg (· + _) ih.2)⟩

/-! ## From blocks to the arrays -/

theorem mem_blk4 (t : Fin cfg1.N) (i : S2x64x1.Idx) :
    i ∈ ((cfg1.win 4).blk t).view.set ↔ ∀ a : Fin 3, win1_4.index t a * S1x64x1.size a ≤ (i a).val ∧ (i a).val < win1_4.index t a * S1x64x1.size a + S1x64x1.size a := by
  show i ∈ ((View.whole main_v21_0).slice (win1_4.rect t)).set ↔ _
  rw [View.set_slice_whole, Rect.mem_set_unit]
  exact Iff.rfl

theorem mem_blk5 (t : Fin cfg1.N) (i : S2x64x1.Idx) :
    i ∈ ((cfg1.win 5).blk t).view.set ↔ ∀ a : Fin 3, win1_5.index t a * S1x64x1.size a ≤ (i a).val ∧ (i a).val < win1_5.index t a * S1x64x1.size a + S1x64x1.size a := by
  show i ∈ ((View.whole main_v21_1).slice (win1_5.rect t)).set ↔ _
  rw [View.set_slice_whole, Rect.mem_set_unit]
  exact Iff.rfl

/-- What the last point of a core writes back is its block of the sum array. -/
theorem flushed4_eq (c : Dev nD) (t : Fin cfg1.N) (hf : (cfg1.win 4).flush t = true) :
    (dat1 V c).flushed 4 t = ((cfg1.win 4).blk t).view.read (Elt Ideal) (G1_4 (V c (Pipeline.arrRef spec1 0)) (V c (Pipeline.arrRef spec1 1)) (V c (Pipeline.arrRef spec1 2)) (V c (Pipeline.arrRef spec1 3))) := by
  have hN : cfg1.N = 8 := N_1
  have h3 : t.val % 4 = 3 := (flush1_4 t).mp hf
  have h8 : t.val < 8 := by have := t.isLt; omega
  obtain ⟨e0, e1, e2⟩ := idx_4 t
  show (cfg1.win 4).cut (grid1.coords t) ((dat1 V c).after 4 t) = _
  rw [after1_4]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg1.win 4).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win1_4.index t (0 : Fin 3) * 1 + 1 * 0 = t.val / 4; rw [e0]; omega
    | ⟨1, _⟩ => show win1_4.index t (1 : Fin 3) * 64 + 1 * d.val = d.val; rw [e1]; omega
    | ⟨2, _⟩ => show win1_4.index t (2 : Fin 3) * 1 + 1 * 0 = 0; rw [e2]
  rw [hemb]
  show (outsAt1 V c t.val t.isLt).1 (ix3 (0 : Fin 1) d (0 : Fin 1)) = chain (fun t' => sumAt (V c (Pipeline.arrRef spec1 0)) (V c (Pipeline.arrRef spec1 1)) (V c (Pipeline.arrRef spec1 2)) (V c (Pipeline.arrRef spec1 3)) t' d) ⟨t.val / 4, _⟩
  rw [(outs_eq V c t.val t.isLt h8 d).1]
  exact run_flush _ t.val h8 h3 _

theorem flushed5_eq (c : Dev nD) (t : Fin cfg1.N) (hf : (cfg1.win 5).flush t = true) :
    (dat1 V c).flushed 5 t = ((cfg1.win 5).blk t).view.read (Elt Ideal) (G1_5 (V c (Pipeline.arrRef spec1 0)) (V c (Pipeline.arrRef spec1 1)) (V c (Pipeline.arrRef spec1 2)) (V c (Pipeline.arrRef spec1 3))) := by
  have hN : cfg1.N = 8 := N_1
  have h3 : t.val % 4 = 3 := (flush1_5 t).mp hf
  have h8 : t.val < 8 := by have := t.isLt; omega
  obtain ⟨e0, e1, e2⟩ := idx_5 t
  show (cfg1.win 5).cut (grid1.coords t) ((dat1 V c).after 5 t) = _
  rw [after1_5]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg1.win 5).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win1_5.index t (0 : Fin 3) * 1 + 1 * 0 = t.val / 4; rw [e0]; omega
    | ⟨1, _⟩ => show win1_5.index t (1 : Fin 3) * 64 + 1 * d.val = d.val; rw [e1]; omega
    | ⟨2, _⟩ => show win1_5.index t (2 : Fin 3) * 1 + 1 * 0 = 0; rw [e2]
  rw [hemb]
  show (outsAt1 V c t.val t.isLt).2 (ix3 (0 : Fin 1) d (0 : Fin 1)) = chain (fun t' => ssqAt (V c (Pipeline.arrRef spec1 0)) (V c (Pipeline.arrRef spec1 1)) (V c (Pipeline.arrRef spec1 2)) (V c (Pipeline.arrRef spec1 3)) t' d) ⟨t.val / 4, _⟩
  rw [(outs_eq V c t.val t.isLt h8 d).2]
  exact run_flush _ t.val h8 h3 _

/-- The sum array after the region: at (core, d, 0) the core's chain of lane sums. -/
theorem arrAt_4 (c : Dev nD) :
    (Gen.dat1 (F := Ideal) V c).arrAt 4 cfg1.N = G1_4 (V c (Pipeline.arrRef spec1 0)) (V c (Pipeline.arrRef spec1 1)) (V c (Pipeline.arrRef spec1 2)) (V c (Pipeline.arrRef spec1 3)) :=
  (dat1 V c).arrAt_eq_of_cover 4 (G1_4 (V c (Pipeline.arrRef spec1 0)) (V c (Pipeline.arrRef spec1 1)) (V c (Pipeline.arrRef spec1 2)) (V c (Pipeline.arrRef spec1 3))) (flushed4_eq V c) fun (i : S2x64x1.Idx) => by
    have hi0 : (i 0).val < 2 := (i 0).isLt
    have hi1 : (i 1).val < 64 := (i 1).isLt
    have hi2 : (i 2).val < 1 := (i 2).isLt
    have hN : cfg1.N = 8 := N_1
    let t : Fin cfg1.N := ⟨(i 0).val * 4 + 3, by omega⟩
    obtain ⟨e0, e1, e2⟩ := idx_4 t
    have tv : t.val = (i 0).val * 4 + 3 := rfl
    refine ⟨t, (flush1_4 t).mpr (by rw [tv]; omega), ?_⟩
    rw [mem_blk4]
    intro a
    match a with
    | ⟨0, _⟩ => show win1_4.index t (0 : Fin 3) * 1 ≤ (i 0).val ∧ (i 0).val < win1_4.index t (0 : Fin 3) * 1 + 1; rw [e0, tv]; omega
    | ⟨1, _⟩ => show win1_4.index t (1 : Fin 3) * 64 ≤ (i 1).val ∧ (i 1).val < win1_4.index t (1 : Fin 3) * 64 + 64; rw [e1]; omega
    | ⟨2, _⟩ => show win1_4.index t (2 : Fin 3) * 1 ≤ (i 2).val ∧ (i 2).val < win1_4.index t (2 : Fin 3) * 1 + 1; rw [e2]; omega

/-- The sum-of-squares array after the region: at (core, d, 0) the core's chain of lane sums of squares. -/
theorem arrAt_5 (c : Dev nD) :
    (Gen.dat1 (F := Ideal) V c).arrAt 5 cfg1.N = G1_5 (V c (Pipeline.arrRef spec1 0)) (V c (Pipeline.arrRef spec1 1)) (V c (Pipeline.arrRef spec1 2)) (V c (Pipeline.arrRef spec1 3)) :=
  (dat1 V c).arrAt_eq_of_cover 5 (G1_5 (V c (Pipeline.arrRef spec1 0)) (V c (Pipeline.arrRef spec1 1)) (V c (Pipeline.arrRef spec1 2)) (V c (Pipeline.arrRef spec1 3))) (flushed5_eq V c) fun (i : S2x64x1.Idx) => by
    have hi0 : (i 0).val < 2 := (i 0).isLt
    have hi1 : (i 1).val < 64 := (i 1).isLt
    have hi2 : (i 2).val < 1 := (i 2).isLt
    have hN : cfg1.N = 8 := N_1
    let t : Fin cfg1.N := ⟨(i 0).val * 4 + 3, by omega⟩
    obtain ⟨e0, e1, e2⟩ := idx_5 t
    have tv : t.val = (i 0).val * 4 + 3 := rfl
    refine ⟨t, (flush1_5 t).mpr (by rw [tv]; omega), ?_⟩
    rw [mem_blk5]
    intro a
    match a with
    | ⟨0, _⟩ => show win1_5.index t (0 : Fin 3) * 1 ≤ (i 0).val ∧ (i 0).val < win1_5.index t (0 : Fin 3) * 1 + 1; rw [e0, tv]; omega
    | ⟨1, _⟩ => show win1_5.index t (1 : Fin 3) * 64 ≤ (i 1).val ∧ (i 1).val < win1_5.index t (1 : Fin 3) * 64 + 64; rw [e1]; omega
    | ⟨2, _⟩ => show win1_5.index t (2 : Fin 3) * 1 ≤ (i 2).val ∧ (i 2).val < win1_5.index t (2 : Fin 3) * 1 + 1; rw [e2]; omega

end Cert.ReferenceIdeal.RAcc1

end
-- ==== Proof.RAcc1Bridge.lean ====
/-
  A second statistics pass of the reference (region 1) in the shared vocabulary: summed over the two cores, its sum array
  at a channel is the total over all 32 · 4096 pixels of y2 = W2 · lrelu (W1f · A + T1) there, and its sum-of-squares array
  the total of y2 * y2 — for ANY arrays that read the activation A (column n · 4096 + p is pixel (n, p)), the folded
  weights W1f, the shift T1 and the weights W2.
-/
import proofs.«126831_g2000503633499865_pallasbulk_555_4_alg».proof.Proof.RAcc1Val
import proofs.«126831_g2000503633499865_pallasbulk_555_4_alg».proof.Proof.RAcc0Bridge
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open scoped BigOperators
open Idealize.ShloMosaic Idealize.ShloMosaic.ValueIdx

namespace Cert.ReferenceIdeal.RAcc1

open Cert.ReferenceIdeal Cert.ReferenceIdeal.RAccL
open Cert.ReferenceIdeal.RAcc0 (col pt chain sum_points)

end Cert.ReferenceIdeal.RAcc1

namespace Cert.ReferenceIdeal.RAccL

open Cert.ReferenceIdeal

/-- The rectifier of the payload lemmas is the shared one at the shared slope. -/
theorem lrelu_eq (z : EReal) : lrelu z = Net.lrelu Net.slopec z := rfl

section
variable (x : S64x131072.Idx → EReal) (w1f : S128x64.Idx → EReal) (t1 : S128x1.Idx → EReal) (w2 : S64x128.Idx → EReal)
  (A : Fin 64 → Net.Px → EReal) (W1f : Fin 128 → Fin 64 → EReal) (T1 : Fin 128 → EReal) (W2 : Fin 64 → Fin 128 → EReal)
  (hx : ∀ (k : Fin 64) (n : Fin 32) (p : Fin 4096), x (ix2 k (Net.colOf n p)) = A k (n, p))
  (hw1 : ∀ (ch : Fin 128) (k : Fin 64), w1f (ix2 ch k) = W1f ch k)
  (ht1 : ∀ ch : Fin 128, t1 (ix2 ch 0) = T1 ch)
  (hw2 : ∀ (d : Fin 64) (ch : Fin 128), w2 (ix2 d ch) = W2 d ch)

include hx hw1 ht1 in
/-- The hidden activation at a pixel, read off the arrays. -/
theorem z1_net (c : Fin 128) (n : Fin 32) (p : Fin 4096) :
    z1At w1f t1 (fun k => x (ix2 k (Net.colOf n p))) c = Net.lrelu Net.slopec (Net.conv W1f A c (n, p) + T1 c) := by
  unfold z1At
  rw [lrelu_eq]
  exact congrArg (Net.lrelu Net.slopec) (congrArg₂ (· + ·)
    (Finset.sum_congr rfl fun k _ => congrArg₂ (· * ·) (hw1 c k) (hx k n p)) (ht1 c))

include hx hw1 ht1 hw2 in
/-- y2 at a pixel, read off the arrays. -/
theorem y2_net (d : Fin 64) (n : Fin 32) (p : Fin 4096) :
    y2At w1f t1 w2 (fun k => x (ix2 k (Net.colOf n p))) d
      = Net.conv W2 (fun (ch : Fin 128) (px : Net.Px) => Net.lrelu Net.slopec (Net.conv W1f A ch px + T1 ch)) d (n, p) := by
  unfold y2At
  exact Finset.sum_congr rfl fun c _ => congrArg₂ (· * ·) (hw2 d c) (z1_net x w1f t1 A W1f T1 hx hw1 ht1 c n p)

end

end Cert.ReferenceIdeal.RAccL

namespace Cert.ReferenceIdeal.RAcc1

open Cert.ReferenceIdeal Cert.ReferenceIdeal.RAccL
open Cert.ReferenceIdeal.RAcc0 (col pt chain sum_points)

section
variable (x : S64x131072.Idx → EReal) (w1f : S128x64.Idx → EReal) (t1 : S128x1.Idx → EReal) (w2 : S64x128.Idx → EReal)
  (A : Fin 64 → Net.Px → EReal) (W1f : Fin 128 → Fin 64 → EReal) (T1 : Fin 128 → EReal) (W2 : Fin 64 → Fin 128 → EReal)
  (hx : ∀ (k : Fin 64) (n : Fin 32) (p : Fin 4096), x (ix2 k (Net.colOf n p)) = A k (n, p))
  (hw1 : ∀ (ch : Fin 128) (k : Fin 64), w1f (ix2 ch k) = W1f ch k)
  (ht1 : ∀ ch : Fin 128, t1 (ix2 ch 0) = T1 ch)
  (hw2 : ∀ (d : Fin 64) (ch : Fin 128), w2 (ix2 d ch) = W2 d ch)
include hx hw1 ht1 hw2

/-- The sum array, summed over the cores, is the total of y2 over all pixels. -/
theorem sum_eq (d : Fin 64) (u : Fin 1) :
    ∑ core : Fin 2, G1_4 x w1f t1 w2 (ix3 core d u)
      = Net.tot (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d) (col t p)) core = _
  refine (sum_points (fun q : Fin 131072 => y2At w1f t1 w2 (fun k => x (ix2 k q)) d)).trans ?_
  unfold Net.tot
  rw [Fintype.sum_prod_type]
  exact Finset.sum_congr rfl fun n _ => Finset.sum_congr rfl fun p _ => y2_net x w1f t1 w2 A W1f T1 W2 hx hw1 ht1 hw2 d n p

/-- The sum-of-squares array, summed over the cores, is the total of y2 * y2 over all pixels. -/
theorem ssq_eq (d : Fin 64) (u : Fin 1) :
    ∑ core : Fin 2, G1_5 x w1f t1 w2 (ix3 core d u)
      = Net.tot2 (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d * y2At w1f t1 w2 (fun k => x (ix2 k q)) d) (col t p)) core = _
  refine (sum_points (fun q : Fin 131072 => y2At w1f t1 w2 (fun k => x (ix2 k q)) d * y2At w1f t1 w2 (fun k => x (ix2 k q)) d)).trans ?_
  unfold Net.tot2
  rw [Fintype.sum_prod_type]
  exact Finset.sum_congr rfl fun n _ => Finset.sum_congr rfl fun p _ => congrArg₂ (· * ·)
    (y2_net x w1f t1 w2 A W1f T1 W2 hx hw1 ht1 hw2 d n p) (y2_net x w1f t1 w2 A W1f T1 W2 hx hw1 ht1 hw2 d n p)

end

end Cert.ReferenceIdeal.RAcc1

end
-- ==== Proof.RAcc2Pay.lean ====
/-
  Region 2 of the reference (the fused final pass), its payloads read at an index over the extended reals:
  the activation z2 = lrelu (W2f · lrelu (W1f · x + t1) + t2) of the block at (d, q) — the block the pass writes —,
  yn = Wn · z2 at (r, q), and the two accumulator payloads at (0, r, 0): the carried value plus the lane sum of yn,
  resp. of yn * yn. The zeroing payloads read the zero literal.
-/
import proofs.«126831_g2000503633499865_pallasbulk_555_4_alg».proof.Proof.RAcc1Lib

noncomputable section

open scoped BigOperators

namespace Cert.ReferenceIdeal.RAcc2

open Idealize.ShloMosaic Idealize.ShloMosaic.ValueIdx
open Cert.ReferenceIdeal Cert.ReferenceIdeal.Gen Cert.ReferenceIdeal.RAccL

/-- The activation z2 of the block at (d, q). -/
theorem pay5_apply (W1f : Vec Ideal S128x64 .f32) (x : Vec Ideal S64x16384 .f32) (t1 : Vec Ideal S128x1 .f32)
    (W2f : Vec Ideal S64x128 .f32) (t2 : Vec Ideal S64x1 .f32) (d : Fin 64) (q : Fin 16384) :
    k2_pay5 W1f x t1 W2f t2 (ix2 d q) = z2At W1f t1 W2f t2 (fun k => x (ix2 k q)) d := by
  unfold k2_pay5
  simp only [shapeCast_self]
  refine (layer2_apply W2f _ t2 _ d q).trans ?_
  exact congrArg (fun s => lrelu (s + t2 (ix2 d (0 : Fin 1))))
    (Finset.sum_congr rfl fun c _ => congrArg (W2f (ix2 d c) * ·) (layer1_apply W1f x t1 _ c q))

/-- yn = Wn · z2 of the block at (r, q). -/
theorem pay6_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (r : Fin 128) (q : Fin 16384) :
    k2_pay6 W1f x t1 W2f t2 Wn (ix2 r q)
      = ∑ d : Fin 64, Wn (ix2 r d) * z2At W1f t1 W2f t2 (fun k => x (ix2 k q)) d := by
  unfold k2_pay6
  refine (RAcc0.mm_apply Wn (k2_pay5 W1f x t1 W2f t2) r q).trans ?_
  exact Finset.sum_congr rfl fun d _ => congrArg (Wn (ix2 r d) * ·) (pay5_apply W1f x t1 W2f t2 d q)

/-- The zeroing payloads read the zero literal. -/
theorem pay3_apply (j : S1x128x1.Idx) : k2_pay3 (F := Ideal) j = Ideal.ofBits .f32 0x00000000#32 := rfl
theorem pay4_apply (j : S1x128x1.Idx) : k2_pay4 (F := Ideal) j = Ideal.ofBits .f32 0x00000000#32 := rfl

/-- The sum accumulator: the carried value plus the lane sum of yn. -/
theorem pay178_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (acc : Vec Ideal S1x128x1 .f32)
    (r : Fin 128) :
    k2_pay1 (k2_pay7 acc) (k2_pay8 W1f x t1 W2f t2 Wn) (ix3 (0 : Fin 1) r (0 : Fin 1))
      = acc (ix3 (0 : Fin 1) r (0 : Fin 1))
        + ∑ p : Fin 16384, ∑ d : Fin 64, Wn (ix2 r d) * z2At W1f t1 W2f t2 (fun k => x (ix2 k p)) d := by
  unfold k2_pay1 k2_pay7 k2_pay8
  refine (RAcc0.cast_2_3 _ _ r).trans ?_
  refine congrArg₂ (· + ·) (RAcc0.cast_3_2 acc _ r) ?_
  refine (RAcc0.cast_1_2 _ _ r).trans ?_
  refine (RAcc0.laneSum_apply (k2_pay6 W1f x t1 W2f t2 Wn) _ _ _ r).trans ?_
  exact Finset.sum_congr rfl fun p _ => pay6_apply W1f x t1 W2f t2 Wn r p

/-- The sum-of-squares accumulator: the carried value plus the lane sum of yn * yn. -/
theorem pay26_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (acc : Vec Ideal S1x128x1 .f32)
    (r : Fin 128) :
    k2_pay2 (k2_pay6 W1f x t1 W2f t2 Wn) acc (ix3 (0 : Fin 1) r (0 : Fin 1))
      = acc (ix3 (0 : Fin 1) r (0 : Fin 1))
        + ∑ p : Fin 16384, (∑ d : Fin 64, Wn (ix2 r d) * z2At W1f t1 W2f t2 (fun k => x (ix2 k p)) d)
            * (∑ d : Fin 64, Wn (ix2 r d) * z2At W1f t1 W2f t2 (fun k => x (ix2 k p)) d) := by
  unfold k2_pay2
  refine (RAcc0.cast_2_3 _ _ r).trans ?_
  refine congrArg₂ (· + ·) (RAcc0.cast_3_2 acc _ r) ?_
  refine (RAcc0.cast_1_2 _ _ r).trans ?_
  refine (RAcc0.laneSum_apply (mulf (k2_pay6 W1f x t1 W2f t2 Wn) (k2_pay6 W1f x t1 W2f t2 Wn)) _ _ _ r).trans ?_
  refine Finset.sum_congr rfl fun p _ => ?_
  show k2_pay6 W1f x t1 W2f t2 Wn (ix2 r p) * k2_pay6 W1f x t1 W2f t2 Wn (ix2 r p) = _
  rw [pay6_apply W1f x t1 W2f t2 Wn r p]

end Cert.ReferenceIdeal.RAcc2

end
-- ==== Proof.RAcc2Val.lean ====
/-
  Region 2 of the reference (a fused final pass): what its three output arrays end holding, as functions of the
  arrays the region finds. Every point writes its block of the activation z2 = lrelu (W2f · lrelu (W1f · x + t1) + t2),
  so the activation array [64,131072] ends at z2 of the input's columns. The two accumulator arrays [2,128,1] hold,
  per core, the running sums over the core's points of the lane sums of yn = Wn · z2 and of yn * yn: each case of the body
  leaves in an accumulator's block a payload of the point's input blocks over the zero block (reset case) or over what
  the point before left; the last point of a core writes the block back into that core's row.
-/
import proofs.«126831_g2000503633499865_pallasbulk_555_4_alg».proof.Proof.Gen.ReferenceIdeal.Frame
import proofs.«126831_g2000503633499865_pallasbulk_555_4_alg».proof.Proof.RAcc0Val
import proofs.«126831_g2000503633499865_pallasbulk_555_4_alg».proof.Proof.RAcc2Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc2

open Cert.ReferenceIdeal Cert.ReferenceIdeal.Gen Cert.ReferenceIdeal.RAccL
open Cert.ReferenceIdeal.RAcc0 (hz2 hz3 col pt chain run run_reset run_step run_flush)

/-! ## The cases' pieces, as payloads (any float instance) -/

section Pieces
variable {F : FTy → Type} [FloatOps F]

/-- Either case stores the activation of the point's blocks in the activation block. -/
theorem out_B_6 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond2_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out2_B_6 c i arg2 harg2 arg3 harg3 arg4 harg4 arg5 harg5 arg6 harg6 arg7 harg7 arg8 harg8 arg9 harg9 arg10 harg10 hc0 x0 x1 x2 x3 x4 x5 xo7 xo8 = k2_pay5 x1 x0 x2 x3 x4 := by
  unfold out2_B_6
  rw [View.read_writes_eq_canon _ _ _ (cover2_B_6 c i arg2 harg2 arg3 harg3 arg4 harg4 arg5 harg5 arg6 harg6 arg7 harg7 arg8 harg8 arg9 harg9 arg10 harg10 hc0 x0 x1 x2 x3 x4 x5 xo7 xo8)]
  unfold kernelRun2_B
  dsimp only
  rw [View.canon_unit_zero hz2]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

theorem out_A_6 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond2_0 i)
    (x0 : Vec F S64x16384 .f32) (x1 : Vec F S128x64 .f32) (x2 : Vec F S128x1 .f32) (x3 : Vec F S64x128 .f32) (x4 : Vec F S64x1 .f32) (x5 : Vec F S128x64 .f32) :
    out2_A_6 c i arg2 harg2 arg3 harg3 arg4 harg4 arg5 harg5 arg6 harg6 arg7 harg7 arg8 harg8 arg9 harg9 arg10 harg10 hc0 x0 x1 x2 x3 x4 x5 = k2_pay5 x1 x0 x2 x3 x4 := by
  unfold out2_A_6
  rw [View.read_writes_eq_canon _ _ _ (cover2_A_6 c i arg2 harg2 arg3 harg3 arg4 harg4 arg5 harg5 arg6 harg6 arg7 harg7 arg8 harg8 arg9 harg9 arg10 harg10 hc0 x0 x1 x2 x3 x4 x5)]
  unfold kernelRun2_A
  dsimp only
  sl_unfold_words
  rw [View.canon_unit_zero hz2]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

/-- The accumulating case leaves, in the sum block holding `xo7`, the sum payload over it, -/
theorem out_B_7 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond2_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out2_B_7 c i arg2 harg2 arg3 harg3 arg4 harg4 arg5 harg5 arg6 harg6 arg7 harg7 arg8 harg8 arg9 harg9 arg10 harg10 hc0 x0 x1 x2 x3 x4 x5 xo7 xo8 = k2_pay1 (k2_pay7 xo7) (k2_pay8 x1 x0 x2 x3 x4 x5) := by
  unfold out2_B_7
  rw [View.read_writes_eq_canon _ _ _ (cover2_B_7 c i arg2 harg2 arg3 harg3 arg4 harg4 arg5 harg5 arg6 harg6 arg7 harg7 arg8 harg8 arg9 harg9 arg10 harg10 hc0 x0 x1 x2 x3 x4 x5 xo7 xo8)]
  unfold kernelRun2_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

/-- and in the sum-of-squares block holding `xo8`, the sum-of-squares payload over it. -/
theorem out_B_8 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond2_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out2_B_8 c i arg2 harg2 arg3 harg3 arg4 harg4 arg5 harg5 arg6 harg6 arg7 harg7 arg8 harg8 arg9 harg9 arg10 harg10 hc0 x0 x1 x2 x3 x4 x5 xo7 xo8 = k2_pay2 (k2_pay6 x1 x0 x2 x3 x4 x5) xo8 := by
  unfold out2_B_8
  rw [View.read_writes_eq_canon _ _ _ (cover2_B_8 c i arg2 harg2 arg3 harg3 arg4 harg4 arg5 harg5 arg6 harg6 arg7 harg7 arg8 harg8 arg9 harg9 arg10 harg10 hc0 x0 x1 x2 x3 x4 x5 xo7 xo8)]
  unfold kernelRun2_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

/-- The reset case stores the zero block, reads it back, and leaves the payloads over it. -/
theorem out_A_7 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond2_0 i)
    (x0 : Vec F S64x16384 .f32) (x1 : Vec F S128x64 .f32) (x2 : Vec F S128x1 .f32) (x3 : Vec F S64x128 .f32) (x4 : Vec F S64x1 .f32) (x5 : Vec F S128x64 .f32) :
    out2_A_7 c i arg2 harg2 arg3 harg3 arg4 harg4 arg5 harg5 arg6 harg6 arg7 harg7 arg8 harg8 arg9 harg9 arg10 harg10 hc0 x0 x1 x2 x3 x4 x5 = k2_pay1 (k2_pay7 (k2_pay3 (F := F))) (k2_pay8 x1 x0 x2 x3 x4 x5) := by
  unfold out2_A_7
  rw [View.read_writes_eq_canon _ _ _ (cover2_A_7 c i arg2 harg2 arg3 harg3 arg4 harg4 arg5 harg5 arg6 harg6 arg7 harg7 arg8 harg8 arg9 harg9 arg10 harg10 hc0 x0 x1 x2 x3 x4 x5)]
  unfold kernelRun2_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

theorem out_A_8 (c : Dev nD) (i : grid2.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond2_0 i)
    (x0 : Vec F S64x16384 .f32) (x1 : Vec F S128x64 .f32) (x2 : Vec F S128x1 .f32) (x3 : Vec F S64x128 .f32) (x4 : Vec F S64x1 .f32) (x5 : Vec F S128x64 .f32) :
    out2_A_8 c i arg2 harg2 arg3 harg3 arg4 harg4 arg5 harg5 arg6 harg6 arg7 harg7 arg8 harg8 arg9 harg9 arg10 harg10 hc0 x0 x1 x2 x3 x4 x5 = k2_pay2 (k2_pay6 x1 x0 x2 x3 x4 x5) (k2_pay4 (F := F)) := by
  unfold out2_A_8
  rw [View.read_writes_eq_canon _ _ _ (cover2_A_8 c i arg2 harg2 arg3 harg3 arg4 harg4 arg5 harg5 arg6 harg6 arg7 harg7 arg8 harg8 arg9 harg9 arg10 harg10 hc0 x0 x1 x2 x3 x4 x5)]
  unfold kernelRun2_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

end Pieces

/-! ## The arrays' values -/

/-- The activation array [64,131072]: at (d, q) the activation z2 of column q. -/
def G2_6 (x : S64x131072.Idx → EReal) (W1f : S128x64.Idx → EReal) (t1 : S128x1.Idx → EReal) (W2f : S64x128.Idx → EReal)
    (t2 : S64x1.Idx → EReal) (Wn : S128x64.Idx → EReal) : S64x131072.Idx → EReal := fun i =>
  z2At W1f t1 W2f t2 (fun k => x (ix2 k (i 1))) (i 0)

/-- What point `t` adds to channel `r` of the sum: the lane sum of yn = Wn · z2 over the point's block. -/
def sumAt (x : S64x131072.Idx → EReal) (W1f : S128x64.Idx → EReal) (t1 : S128x1.Idx → EReal) (W2f : S64x128.Idx → EReal)
    (t2 : S64x1.Idx → EReal) (Wn : S128x64.Idx → EReal) (t : Fin 8) (r : Fin 128) : EReal :=
  ∑ p : Fin 16384, ∑ d : Fin 64, Wn (ix2 r d) * z2At W1f t1 W2f t2 (fun k => x (ix2 k (col t p))) d

/-- What point `t` adds to channel `r` of the sum of squares: the lane sum of yn * yn over the point's block. -/
def ssqAt (x : S64x131072.Idx → EReal) (W1f : S128x64.Idx → EReal) (t1 : S128x1.Idx → EReal) (W2f : S64x128.Idx → EReal)
    (t2 : S64x1.Idx → EReal) (Wn : S128x64.Idx → EReal) (t : Fin 8) (r : Fin 128) : EReal :=
  ∑ p : Fin 16384, (∑ d : Fin 64, Wn (ix2 r d) * z2At W1f t1 W2f t2 (fun k => x (ix2 k (col t p))) d)
    * (∑ d : Fin 64, Wn (ix2 r d) * z2At W1f t1 W2f t2 (fun k => x (ix2 k (col t p))) d)

/-- The sum array [2,128,1]: at (core, r, 0) the core's chain of lane sums of yn. -/
def G2_7 (x : S64x131072.Idx → EReal) (W1f : S128x64.Idx → EReal) (t1 : S128x1.Idx → EReal) (W2f : S64x128.Idx → EReal)
    (t2 : S64x1.Idx → EReal) (Wn : S128x64.Idx → EReal) : S2x128x1.Idx → EReal := fun i => chain (fun t => sumAt x W1f t1 W2f t2 Wn t (i 1)) (i 0)

/-- The sum-of-squares array [2,128,1]: at (core, r, 0) the core's chain of lane sums of yn * yn. -/
def G2_8 (x : S64x131072.Idx → EReal) (W1f : S128x64.Idx → EReal) (t1 : S128x1.Idx → EReal) (W2f : S64x128.Idx → EReal)
    (t2 : S64x1.Idx → EReal) (Wn : S128x64.Idx → EReal) : S2x128x1.Idx → EReal := fun i => chain (fun t => ssqAt x W1f t1 W2f t2 Wn t (i 1)) (i 0)

/-! ## The blocks a point reads -/

theorem idx_0 : ∀ t : Fin cfg2.N, win2_0.index t (0 : Fin 2) = 0 ∧ win2_0.index t (1 : Fin 2) = t.val :=
  (by decide +kernel : ∀ t : Fin grid2.N, win2_0.index t (0 : Fin 2) = 0 ∧ win2_0.index t (1 : Fin 2) = t.val)
theorem idx_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)
theorem idx_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx_6 : ∀ t : Fin cfg2.N, win2_6.index t (0 : Fin 2) = 0 ∧ win2_6.index t (1 : Fin 2) = t.val :=
  (by decide +kernel : ∀ t : Fin grid2.N, win2_6.index t (0 : Fin 2) = 0 ∧ win2_6.index t (1 : Fin 2) = t.val)
theorem idx_7 : ∀ t : Fin cfg2.N, win2_7.index t (0 : Fin 3) = t.val / 4 ∧ win2_7.index t (1 : Fin 3) = 0 ∧ win2_7.index t (2 : Fin 3) = 0 :=
  (by decide +kernel : ∀ t : Fin grid2.N, win2_7.index t (0 : Fin 3) = t.val / 4 ∧ win2_7.index t (1 : Fin 3) = 0 ∧ win2_7.index t (2 : Fin 3) = 0)
theorem idx_8 : ∀ t : Fin cfg2.N, win2_8.index t (0 : Fin 3) = t.val / 4 ∧ win2_8.index t (1 : Fin 3) = 0 ∧ win2_8.index t (2 : Fin 3) = 0 :=
  (by decide +kernel : ∀ t : Fin grid2.N, win2_8.index t (0 : Fin 3) = t.val / 4 ∧ win2_8.index t (1 : Fin 3) = 0 ∧ win2_8.index t (2 : Fin 3) = 0)

variable (V : (c : Dev nD) → (b : Ref sig .tc) → Buf (Elt Ideal) ((c : Thread nD τ).loc b))

/-- The input activation block of point `t` at (k, p) is the array at (k, t·16384 + p). -/
theorem iblk_x (c : Dev nD) (t : Fin cfg2.N) (h8 : t.val < 8) (k : Fin 64) (p : Fin 16384) :
    (iblk2 V c 0 t : Vec Ideal S64x16384 .f32) (ix2 k p) = (V c (Pipeline.arrRef spec2 0)) (ix2 k (col ⟨t.val, h8⟩ p)) := by
  obtain ⟨e0, e1⟩ := idx_0 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 64 + 1 * k.val = k.val; rw [e0]; omega
  | ⟨1, _⟩ => show win2_0.index t (1 : Fin 2) * 16384 + 1 * p.val = t.val * 16384 + p.val; rw [e1]; omega

/-- The resident blocks of any point are their arrays. -/
theorem iblk_1 (c : Dev nD) (t : Fin cfg2.N) (r : Fin 128) (k : Fin 64) :
    (iblk2 V c 1 t : Vec Ideal S128x64 .f32) (ix2 r k) = (V c (Pipeline.arrRef spec2 1)) (ix2 r k) := by
  obtain ⟨e0, e1⟩ := idx_1 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * r.val = r.val; rw [e0]; omega
  | ⟨1, _⟩ => show win2_1.index t (1 : Fin 2) * 64 + 1 * k.val = k.val; rw [e1]; omega

theorem iblk_2 (c : Dev nD) (t : Fin cfg2.N) (r : Fin 128) (z : Fin 1) :
    (iblk2 V c 2 t : Vec Ideal S128x1 .f32) (ix2 r z) = (V c (Pipeline.arrRef spec2 2)) (ix2 r z) := by
  obtain ⟨e0, e1⟩ := idx_2 t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * r.val = r.val; rw [e0]; omega
  | ⟨1, _⟩ => show win2_2.index t (1 : Fin 2) * 1 + 1 * z.val = z.val; rw [e1]; omega

theorem iblk_3 (c : Dev nD) (t : Fin cfg2.N) (d : Fin 64) (r : Fin 128) :
    (iblk2 V c 3 t : Vec Ideal S64x128 .f32) (ix2 d r) = (V c (Pipeline.arrRef spec2 3)) (ix2 d r) := by
  obtain ⟨e0, e1⟩ := idx_3 t
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 64 + 1 * d.val = d.val; rw [e0]; omega
  | ⟨1, _⟩ => show win2_3.index t (1 : Fin 2) * 128 + 1 * r.val = r.val; rw [e1]; omega

theorem iblk_4 (c : Dev nD) (t : Fin cfg2.N) (d : Fin 64) (z : Fin 1) :
    (iblk2 V c 4 t : Vec Ideal S64x1 .f32) (ix2 d z) = (V c (Pipeline.arrRef spec2 4)) (ix2 d z) := by
  obtain ⟨e0, e1⟩ := idx_4 t
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 64 + 1 * d.val = d.val; rw [e0]; omega
  | ⟨1, _⟩ => show win2_4.index t (1 : Fin 2) * 1 + 1 * z.val = z.val; rw [e1]; omega

theorem iblk_5 (c : Dev nD) (t : Fin cfg2.N) (r : Fin 128) (d : Fin 64) :
    (iblk2 V c 5 t : Vec Ideal S128x64 .f32) (ix2 r d) = (V c (Pipeline.arrRef spec2 5)) (ix2 r d) := by
  obtain ⟨e0, e1⟩ := idx_5 t
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 128 + 1 * r.val = r.val; rw [e0]; omega
  | ⟨1, _⟩ => show win2_5.index t (1 : Fin 2) * 64 + 1 * d.val = d.val; rw [e1]; omega

/-! ## A point's payloads over blocks that read the arrays -/

section Of
variable (W1b : Vec Ideal S128x64 .f32) (xb : Vec Ideal S64x16384 .f32) (t1b : Vec Ideal S128x1 .f32) (W2b : Vec Ideal S64x128 .f32)
  (t2b : Vec Ideal S64x1 .f32) (Wnb : Vec Ideal S128x64 .f32)
  (x : S64x131072.Idx → EReal) (W1f : S128x64.Idx → EReal) (t1 : S128x1.Idx → EReal) (W2f : S64x128.Idx → EReal)
  (t2 : S64x1.Idx → EReal) (Wn : S128x64.Idx → EReal) (t : Fin 8)
  (hW1 : ∀ (r : Fin 128) (k : Fin 64), W1b (ix2 r k) = W1f (ix2 r k))
  (hx : ∀ (k : Fin 64) (p : Fin 16384), xb (ix2 k p) = x (ix2 k (col t p)))
  (ht1 : ∀ (r : Fin 128) (z : Fin 1), t1b (ix2 r z) = t1 (ix2 r z))
  (hW2 : ∀ (d : Fin 64) (r : Fin 128), W2b (ix2 d r) = W2f (ix2 d r))
  (ht2 : ∀ (d : Fin 64) (z : Fin 1), t2b (ix2 d z) = t2 (ix2 d z))
  (hWn : ∀ (r : Fin 128) (d : Fin 64), Wnb (ix2 r d) = Wn (ix2 r d))

include hW1 hx ht1 hW2 ht2 in
/-- z2 of a column read through the blocks is z2 of the arrays' column. -/
theorem z2_of (d : Fin 64) (p : Fin 16384) :
    z2At W1b t1b W2b t2b (fun k => xb (ix2 k p)) d = z2At W1f t1 W2f t2 (fun k => x (ix2 k (col t p))) d := by
  unfold z2At y2At z1At
  refine congrArg lrelu (congrArg₂ (· + ·) ?_ (ht2 d 0))
  refine Finset.sum_congr rfl fun r _ => congrArg₂ (· * ·) (hW2 d r) (congrArg lrelu (congrArg₂ (· + ·) ?_ (ht1 r 0)))
  exact Finset.sum_congr rfl fun k _ => congrArg₂ (· * ·) (hW1 r k) (hx k p)

include hW1 hx ht1 hW2 ht2 in
theorem act_of (d : Fin 64) (p : Fin 16384) :
    k2_pay5 W1b xb t1b W2b t2b (ix2 d p) = z2At W1f t1 W2f t2 (fun k => x (ix2 k (col t p))) d :=
  (pay5_apply W1b xb t1b W2b t2b d p).trans (z2_of W1b xb t1b W2b t2b x W1f t1 W2f t2 t hW1 hx ht1 hW2 ht2 d p)

include hW1 hx ht1 hW2 ht2 hWn in
theorem yn_of (r : Fin 128) (p : Fin 16384) :
    (∑ d : Fin 64, Wnb (ix2 r d) * z2At W1b t1b W2b t2b (fun k => xb (ix2 k p)) d)
      = ∑ d : Fin 64, Wn (ix2 r d) * z2At W1f t1 W2f t2 (fun k => x (ix2 k (col t p))) d :=
  Finset.sum_congr rfl fun d _ => congrArg₂ (· * ·) (hWn r d) (z2_of W1b xb t1b W2b t2b x W1f t1 W2f t2 t hW1 hx ht1 hW2 ht2 d p)

include hW1 hx ht1 hW2 ht2 hWn in
theorem sum_of (acc : Vec Ideal S1x128x1 .f32) (r : Fin 128) :
    k2_pay1 (k2_pay7 acc) (k2_pay8 W1b xb t1b W2b t2b Wnb) (ix3 (0 : Fin 1) r (0 : Fin 1))
      = acc (ix3 (0 : Fin 1) r (0 : Fin 1)) + sumAt x W1f t1 W2f t2 Wn t r := by
  refine (pay178_apply W1b xb t1b W2b t2b Wnb acc r).trans (congrArg (acc (ix3 (0 : Fin 1) r (0 : Fin 1)) + ·) ?_)
  exact Finset.sum_congr rfl fun p _ => yn_of W1b xb t1b W2b t2b Wnb x W1f t1 W2f t2 Wn t hW1 hx ht1 hW2 ht2 hWn r p

include hW1 hx ht1 hW2 ht2 hWn in
theorem ssq_of (acc : Vec Ideal S1x128x1 .f32) (r : Fin 128) :
    k2_pay2 (k2_pay6 W1b xb t1b W2b t2b Wnb) acc (ix3 (0 : Fin 1) r (0 : Fin 1))
      = acc (ix3 (0 : Fin 1) r (0 : Fin 1)) + ssqAt x W1f t1 W2f t2 Wn t r := by
  refine (pay26_apply W1b xb t1b W2b t2b Wnb acc r).trans (congrArg (acc (ix3 (0 : Fin 1) r (0 : Fin 1)) + ·) ?_)
  exact Finset.sum_congr rfl fun p _ => congrArg₂ (· * ·)
    (yn_of W1b xb t1b W2b t2b Wnb x W1f t1 W2f t2 Wn t hW1 hx ht1 hW2 ht2 hWn r p)
    (yn_of W1b xb t1b W2b t2b Wnb x W1f t1 W2f t2 Wn t hW1 hx ht1 hW2 ht2 hWn r p)

end Of

theorem act_step (c : Dev nD) (t : Fin cfg2.N) (h8 : t.val < 8) (d : Fin 64) (p : Fin 16384) :
    k2_pay5 (iblk2 V c 1 t) (iblk2 V c 0 t) (iblk2 V c 2 t) (iblk2 V c 3 t) (iblk2 V c 4 t) (ix2 d p)
      = z2At (V c (Pipeline.arrRef spec2 1)) (V c (Pipeline.arrRef spec2 2)) (V c (Pipeline.arrRef spec2 3)) (V c (Pipeline.arrRef spec2 4)) (fun k => (V c (Pipeline.arrRef spec2 0)) (ix2 k (col ⟨t.val, h8⟩ p))) d :=
  act_of (iblk2 V c 1 t) (iblk2 V c 0 t) (iblk2 V c 2 t) (iblk2 V c 3 t) (iblk2 V c 4 t) (V c (Pipeline.arrRef spec2 0)) (V c (Pipeline.arrRef spec2 1)) (V c (Pipeline.arrRef spec2 2)) (V c (Pipeline.arrRef spec2 3)) (V c (Pipeline.arrRef spec2 4)) ⟨t.val, h8⟩
    (iblk_1 V c t) (iblk_x V c t h8) (iblk_2 V c t) (iblk_3 V c t) (iblk_4 V c t) d p

theorem sum_step (c : Dev nD) (t : Fin cfg2.N) (h8 : t.val < 8) (acc : Vec Ideal S1x128x1 .f32) (r : Fin 128) :
    k2_pay1 (k2_pay7 acc) (k2_pay8 (iblk2 V c 1 t) (iblk2 V c 0 t) (iblk2 V c 2 t) (iblk2 V c 3 t) (iblk2 V c 4 t) (iblk2 V c 5 t)) (ix3 (0 : Fin 1) r (0 : Fin 1))
      = acc (ix3 (0 : Fin 1) r (0 : Fin 1)) + sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r :=
  sum_of (iblk2 V c 1 t) (iblk2 V c 0 t) (iblk2 V c 2 t) (iblk2 V c 3 t) (iblk2 V c 4 t) (iblk2 V c 5 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩
    (iblk_1 V c t) (iblk_x V c t h8) (iblk_2 V c t) (iblk_3 V c t) (iblk_4 V c t) (iblk_5 V c t) acc r

theorem ssq_step (c : Dev nD) (t : Fin cfg2.N) (h8 : t.val < 8) (acc : Vec Ideal S1x128x1 .f32) (r : Fin 128) :
    k2_pay2 (k2_pay6 (iblk2 V c 1 t) (iblk2 V c 0 t) (iblk2 V c 2 t) (iblk2 V c 3 t) (iblk2 V c 4 t) (iblk2 V c 5 t)) acc (ix3 (0 : Fin 1) r (0 : Fin 1))
      = acc (ix3 (0 : Fin 1) r (0 : Fin 1)) + ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r :=
  ssq_of (iblk2 V c 1 t) (iblk2 V c 0 t) (iblk2 V c 2 t) (iblk2 V c 3 t) (iblk2 V c 4 t) (iblk2 V c 5 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩
    (iblk_1 V c t) (iblk_x V c t h8) (iblk_2 V c t) (iblk_3 V c t) (iblk_4 V c t) (iblk_5 V c t) acc r

/-! ## One point's step, over ANY staging memrefs and carried blocks -/

theorem act_A (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond2_0 i} (d : Fin 64) (p : Fin 16384) :
    out2_A_6 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) (ix2 d p) = z2At (V c (Pipeline.arrRef spec2 1)) (V c (Pipeline.arrRef spec2 2)) (V c (Pipeline.arrRef spec2 3)) (V c (Pipeline.arrRef spec2 4)) (fun k => (V c (Pipeline.arrRef spec2 0)) (ix2 k (col ⟨t.val, h8⟩ p))) d := by
  rw [out_A_6 (F := Ideal) c]
  exact act_step V c t h8 d p

theorem act_B (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond2_0 i} {xo7 xo8 : Vec Ideal S1x128x1 .f32} (d : Fin 64) (p : Fin 16384) :
    out2_B_6 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) xo7 xo8 (ix2 d p) = z2At (V c (Pipeline.arrRef spec2 1)) (V c (Pipeline.arrRef spec2 2)) (V c (Pipeline.arrRef spec2 3)) (V c (Pipeline.arrRef spec2 4)) (fun k => (V c (Pipeline.arrRef spec2 0)) (ix2 k (col ⟨t.val, h8⟩ p))) d := by
  rw [out_B_6 (F := Ideal) c]
  exact act_step V c t h8 d p

theorem stepA_7 (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond2_0 i} (r : Fin 128) :
    out2_A_7 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) (ix3 (0 : Fin 1) r (0 : Fin 1)) = Ideal.ofBits .f32 0x00000000#32 + sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [out_A_7 (F := Ideal) c]
  exact (sum_step V c t h8 _ r).trans (congrArg (· + _) (pay3_apply _))

theorem stepA_8 (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond2_0 i} (r : Fin 128) :
    out2_A_8 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) (ix3 (0 : Fin 1) r (0 : Fin 1)) = Ideal.ofBits .f32 0x00000000#32 + ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [out_A_8 (F := Ideal) c]
  exact (ssq_step V c t h8 _ r).trans (congrArg (· + _) (pay4_apply _))

theorem stepB_7 (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond2_0 i} {xo7 xo8 : Vec Ideal S1x128x1 .f32} (r : Fin 128) :
    out2_B_7 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) xo7 xo8 (ix3 (0 : Fin 1) r (0 : Fin 1)) = xo7 (ix3 (0 : Fin 1) r (0 : Fin 1)) + sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [out_B_7 (F := Ideal) c]
  exact sum_step V c t h8 xo7 r

theorem stepB_8 (c : Dev nD) (t : Fin cfg2.N) (h8 : t.val < 8) {i : grid2.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond2_0 i} {xo7 xo8 : Vec Ideal S1x128x1 .f32} (r : Fin 128) :
    out2_B_8 c i arg2 harg2 arg3 harg3 arg4 harg4 arg5 harg5 arg6 harg6 arg7 harg7 arg8 harg8 arg9 harg9 arg10 harg10 hc0 (iblk2 V c 0 t) (iblk2 V c 1 t) (iblk2 V c 2 t) (iblk2 V c 3 t) (iblk2 V c 4 t) (iblk2 V c 5 t) xo7 xo8 (ix3 (0 : Fin 1) r (0 : Fin 1)) = xo8 (ix3 (0 : Fin 1) r (0 : Fin 1)) + ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [out_B_8 (F := Ideal) c]
  exact ssq_step V c t h8 xo8 r

/-! ## What the blocks hold after a point -/

/-- After ANY point the activation block holds the activation of the point's columns. -/
theorem out6_eq (c : Dev nD) (t : Fin cfg2.N) (h8 : t.val < 8) (d : Fin 64) (p : Fin 16384) :
    (outsAt2 V c t.val t.isLt).1 (ix2 d p) = z2At (V c (Pipeline.arrRef spec2 1)) (V c (Pipeline.arrRef spec2 2)) (V c (Pipeline.arrRef spec2 3)) (V c (Pipeline.arrRef spec2 4)) (fun k => (V c (Pipeline.arrRef spec2 0)) (ix2 k (col ⟨t.val, h8⟩ p))) d := by
  by_cases h0 : t.val % 4 = 0
  · rw [outsAt2_A V c t h0]
    dsimp only
    exact act_A V c t h8 d p
  · rw [outsAt2_B V c t h0]
    dsimp only
    exact act_B V c t h8 d p

/-- At the first point of a core the accumulator blocks hold the zero literal plus the point's addends. -/
theorem outs_A (c : Dev nD) (t : Fin cfg2.N) (h8 : t.val < 8) (h0 : t.val % 4 = 0) (r : Fin 128) :
    (outsAt2 V c t.val t.isLt).2.1 (ix3 (0 : Fin 1) r (0 : Fin 1)) = Ideal.ofBits .f32 0x00000000#32 + sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r
    ∧ (outsAt2 V c t.val t.isLt).2.2 (ix3 (0 : Fin 1) r (0 : Fin 1)) = Ideal.ofBits .f32 0x00000000#32 + ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [outsAt2_A V c t h0]
  dsimp only
  exact ⟨stepA_7 V c t h8 r, stepA_8 V c t h8 r⟩

/-- At any other point they hold what the point before left plus the point's addends. -/
theorem outs_B (c : Dev nD) (t : Fin cfg2.N) (h8 : t.val < 8) (h0 : ¬t.val % 4 = 0) (r : Fin 128) :
    (outsAt2 V c t.val t.isLt).2.1 (ix3 (0 : Fin 1) r (0 : Fin 1)) = (outsAt2 V c (t.val - 1) (Nat.lt_of_le_of_lt (Nat.sub_le _ _) t.isLt)).2.1 (ix3 (0 : Fin 1) r (0 : Fin 1)) + sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r
    ∧ (outsAt2 V c t.val t.isLt).2.2 (ix3 (0 : Fin 1) r (0 : Fin 1)) = (outsAt2 V c (t.val - 1) (Nat.lt_of_le_of_lt (Nat.sub_le _ _) t.isLt)).2.2 (ix3 (0 : Fin 1) r (0 : Fin 1)) + ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) ⟨t.val, h8⟩ r := by
  rw [outsAt2_B V c t h0]
  dsimp only
  exact ⟨stepB_7 V c t h8 r, stepB_8 V c t h8 r⟩

set_option maxHeartbeats 1000000 in
/-- After point n the accumulator blocks hold the running accumulators: by induction on the point. -/
theorem outs_eq (c : Dev nD) (n : ℕ) : ∀ (h : n < cfg2.N) (h8 : n < 8) (r : Fin 128),
    (outsAt2 V c n h).2.1 (ix3 (0 : Fin 1) r (0 : Fin 1)) = run (fun t => sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t r) n h8
    ∧ (outsAt2 V c n h).2.2 (ix3 (0 : Fin 1) r (0 : Fin 1)) = run (fun t => ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t r) n h8 := by
  induction n with
  | zero =>
    intro h h8 r
    exact outs_A V c ⟨0, h⟩ h8 rfl r
  | succ n ih =>
    intro h h8 r
    by_cases h0 : (n + 1) % 4 = 0
    · rw [run_reset _ n h8 h0, run_reset _ n h8 h0]
      exact outs_A V c ⟨n + 1, h⟩ h8 h0 r
    · have ih' := ih (Nat.lt_of_succ_lt h) (Nat.lt_of_succ_lt h8) r
      have hB := outs_B V c ⟨n + 1, h⟩ h8 h0 r
      rw [run_step _ n h8 h0, run_step _ n h8 h0]
      exact ⟨hB.1.trans (congrArg (· + _) ih'.1), hB.2.trans (congrArg (· + _) ih'.2)⟩

/-! ## From blocks to the arrays -/

/-- An index of the activation array is in point `t`'s block iff each coordinate is in the block's range. -/
theorem mem_blk6 (t : Fin cfg2.N) (i : S64x131072.Idx) :
    i ∈ ((cfg2.win 6).blk t).view.set ↔ ∀ a : Fin 2, win2_6.index t a * S64x16384.size a ≤ (i a).val ∧ (i a).val < win2_6.index t a * S64x16384.size a + S64x16384.size a := by
  show i ∈ ((View.whole main_v40_0).slice (win2_6.rect t)).set ↔ _
  rw [View.set_slice_whole, Rect.mem_set_unit]
  exact Iff.rfl

theorem mem_blk7 (t : Fin cfg2.N) (i : S2x128x1.Idx) :
    i ∈ ((cfg2.win 7).blk t).view.set ↔ ∀ a : Fin 3, win2_7.index t a * S1x128x1.size a ≤ (i a).val ∧ (i a).val < win2_7.index t a * S1x128x1.size a + S1x128x1.size a := by
  show i ∈ ((View.whole main_v40_1).slice (win2_7.rect t)).set ↔ _
  rw [View.set_slice_whole, Rect.mem_set_unit]
  exact Iff.rfl

theorem mem_blk8 (t : Fin cfg2.N) (i : S2x128x1.Idx) :
    i ∈ ((cfg2.win 8).blk t).view.set ↔ ∀ a : Fin 3, win2_8.index t a * S1x128x1.size a ≤ (i a).val ∧ (i a).val < win2_8.index t a * S1x128x1.size a + S1x128x1.size a := by
  show i ∈ ((View.whole main_v40_2).slice (win2_8.rect t)).set ↔ _
  rw [View.set_slice_whole, Rect.mem_set_unit]
  exact Iff.rfl

/-- What ANY point writes back is its block of the activation array. -/
theorem flushed6_eq (c : Dev nD) (t : Fin cfg2.N) (hf : (cfg2.win 6).flush t = true) :
    (dat2 V c).flushed 6 t = ((cfg2.win 6).blk t).view.read (Elt Ideal) (G2_6 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  have hN : cfg2.N = 8 := N_2
  have h8 : t.val < 8 := by have := t.isLt; omega
  obtain ⟨e0, e1⟩ := idx_6 t
  show (cfg2.win 6).cut (grid2.coords t) ((dat2 V c).after 6 t) = _
  rw [after2_6]
  refine funext fun (y : S64x16384.Idx) => ?_
  obtain ⟨d, p, rfl⟩ : ∃ (d : Fin 64) (p : Fin 16384), y = ix2 d p := ⟨y 0, y 1, eq_ix2 y⟩
  rw [View.read_apply]
  have hemb : ((cfg2.win 6).blk t).view.emb (ix2 d p) = (ix2 d (col ⟨t.val, h8⟩ p) : S64x131072.Idx) := by
    funext a
    apply Fin.ext
    match a with
    | ⟨0, _⟩ => show win2_6.index t (0 : Fin 2) * 64 + 1 * d.val = d.val; rw [e0]; omega
    | ⟨1, _⟩ => show win2_6.index t (1 : Fin 2) * 16384 + 1 * p.val = t.val * 16384 + p.val; rw [e1]; omega
  rw [hemb]
  exact out6_eq V c t h8 d p

/-- What the last point of a core writes back is its block of the sum array. -/
theorem flushed7_eq (c : Dev nD) (t : Fin cfg2.N) (hf : (cfg2.win 7).flush t = true) :
    (dat2 V c).flushed 7 t = ((cfg2.win 7).blk t).view.read (Elt Ideal) (G2_7 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  have hN : cfg2.N = 8 := N_2
  have h3 : t.val % 4 = 3 := (flush2_7 t).mp hf
  have h8 : t.val < 8 := by have := t.isLt; omega
  obtain ⟨e0, e1, e2⟩ := idx_7 t
  show (cfg2.win 7).cut (grid2.coords t) ((dat2 V c).after 7 t) = _
  rw [after2_7]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg2.win 7).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win2_7.index t (0 : Fin 3) * 1 + 1 * 0 = t.val / 4; rw [e0]; omega
    | ⟨1, _⟩ => show win2_7.index t (1 : Fin 3) * 128 + 1 * r.val = r.val; rw [e1]; omega
    | ⟨2, _⟩ => show win2_7.index t (2 : Fin 3) * 1 + 1 * 0 = 0; rw [e2]
  rw [hemb]
  show (outsAt2 V c t.val t.isLt).2.1 (ix3 (0 : Fin 1) r (0 : Fin 1)) = chain (fun t' => sumAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t' r) ⟨t.val / 4, _⟩
  rw [(outs_eq V c t.val t.isLt h8 r).1]
  exact run_flush _ t.val h8 h3 _

theorem flushed8_eq (c : Dev nD) (t : Fin cfg2.N) (hf : (cfg2.win 8).flush t = true) :
    (dat2 V c).flushed 8 t = ((cfg2.win 8).blk t).view.read (Elt Ideal) (G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  have hN : cfg2.N = 8 := N_2
  have h3 : t.val % 4 = 3 := (flush2_8 t).mp hf
  have h8 : t.val < 8 := by have := t.isLt; omega
  obtain ⟨e0, e1, e2⟩ := idx_8 t
  show (cfg2.win 8).cut (grid2.coords t) ((dat2 V c).after 8 t) = _
  rw [after2_8]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg2.win 8).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win2_8.index t (0 : Fin 3) * 1 + 1 * 0 = t.val / 4; rw [e0]; omega
    | ⟨1, _⟩ => show win2_8.index t (1 : Fin 3) * 128 + 1 * r.val = r.val; rw [e1]; omega
    | ⟨2, _⟩ => show win2_8.index t (2 : Fin 3) * 1 + 1 * 0 = 0; rw [e2]
  rw [hemb]
  show (outsAt2 V c t.val t.isLt).2.2 (ix3 (0 : Fin 1) r (0 : Fin 1)) = chain (fun t' => ssqAt (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) t' r) ⟨t.val / 4, _⟩
  rw [(outs_eq V c t.val t.isLt h8 r).2]
  exact run_flush _ t.val h8 h3 _

/-- The activation array after the region: at (d, q) the activation z2 of the input's column q; the point that
    covers column q is q / 16384. -/
theorem arrAt_6 (c : Dev nD) :
    (Gen.dat2 (F := Ideal) V c).arrAt 6 cfg2.N = G2_6 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 (G2_6 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (flushed6_eq V c) fun (i : S64x131072.Idx) => by
    have hi0 : (i 0).val < 64 := (i 0).isLt
    have hi1 : (i 1).val < 131072 := (i 1).isLt
    have hN : cfg2.N = 8 := N_2
    let t : Fin cfg2.N := ⟨(i 1).val / 16384, by omega⟩
    obtain ⟨e0, e1⟩ := idx_6 t
    have tv : t.val = (i 1).val / 16384 := rfl
    refine ⟨t, flush2_6 t, ?_⟩
    rw [mem_blk6]
    intro a
    match a with
    | ⟨0, _⟩ => show win2_6.index t (0 : Fin 2) * 64 ≤ (i 0).val ∧ (i 0).val < win2_6.index t (0 : Fin 2) * 64 + 64; rw [e0]; omega
    | ⟨1, _⟩ => show win2_6.index t (1 : Fin 2) * 16384 ≤ (i 1).val ∧ (i 1).val < win2_6.index t (1 : Fin 2) * 16384 + 16384; rw [e1, tv]; omega

/-- The sum array after the region: at (core, r, 0) the core's chain of lane sums. -/
theorem arrAt_7 (c : Dev nD) :
    (Gen.dat2 (F := Ideal) V c).arrAt 7 cfg2.N = G2_7 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 7 (G2_7 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (flushed7_eq V c) fun (i : S2x128x1.Idx) => by
    have hi0 : (i 0).val < 2 := (i 0).isLt
    have hi1 : (i 1).val < 128 := (i 1).isLt
    have hi2 : (i 2).val < 1 := (i 2).isLt
    have hN : cfg2.N = 8 := N_2
    let t : Fin cfg2.N := ⟨(i 0).val * 4 + 3, by omega⟩
    obtain ⟨e0, e1, e2⟩ := idx_7 t
    have tv : t.val = (i 0).val * 4 + 3 := rfl
    refine ⟨t, (flush2_7 t).mpr (by rw [tv]; omega), ?_⟩
    rw [mem_blk7]
    intro a
    match a with
    | ⟨0, _⟩ => show win2_7.index t (0 : Fin 3) * 1 ≤ (i 0).val ∧ (i 0).val < win2_7.index t (0 : Fin 3) * 1 + 1; rw [e0, tv]; omega
    | ⟨1, _⟩ => show win2_7.index t (1 : Fin 3) * 128 ≤ (i 1).val ∧ (i 1).val < win2_7.index t (1 : Fin 3) * 128 + 128; rw [e1]; omega
    | ⟨2, _⟩ => show win2_7.index t (2 : Fin 3) * 1 ≤ (i 2).val ∧ (i 2).val < win2_7.index t (2 : Fin 3) * 1 + 1; rw [e2]; omega

/-- The sum-of-squares array after the region: at (core, r, 0) the core's chain of lane sums of squares. -/
theorem arrAt_8 (c : Dev nD) :
    (Gen.dat2 (F := Ideal) V c).arrAt 8 cfg2.N = G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 8 (G2_8 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) (flushed8_eq V c) fun (i : S2x128x1.Idx) => by
    have hi0 : (i 0).val < 2 := (i 0).isLt
    have hi1 : (i 1).val < 128 := (i 1).isLt
    have hi2 : (i 2).val < 1 := (i 2).isLt
    have hN : cfg2.N = 8 := N_2
    let t : Fin cfg2.N := ⟨(i 0).val * 4 + 3, by omega⟩
    obtain ⟨e0, e1, e2⟩ := idx_8 t
    have tv : t.val = (i 0).val * 4 + 3 := rfl
    refine ⟨t, (flush2_8 t).mpr (by rw [tv]; omega), ?_⟩
    rw [mem_blk8]
    intro a
    match a with
    | ⟨0, _⟩ => show win2_8.index t (0 : Fin 3) * 1 ≤ (i 0).val ∧ (i 0).val < win2_8.index t (0 : Fin 3) * 1 + 1; rw [e0, tv]; omega
    | ⟨1, _⟩ => show win2_8.index t (1 : Fin 3) * 128 ≤ (i 1).val ∧ (i 1).val < win2_8.index t (1 : Fin 3) * 128 + 128; rw [e1]; omega
    | ⟨2, _⟩ => show win2_8.index t (2 : Fin 3) * 1 ≤ (i 2).val ∧ (i 2).val < win2_8.index t (2 : Fin 3) * 1 + 1; rw [e2]; omega

end Cert.ReferenceIdeal.RAcc2

end
-- ==== Proof.RAcc2Bridge.lean ====
/-
  A fused final pass of the reference (region 2) in the shared vocabulary, for ANY arrays that read the activation A
  (column n · 4096 + p is pixel (n, p)) and the weights: its activation array at (d, column of pixel (n, p)) is
  A' d (n, p), A' = lrelu (W2f · lrelu (W1f · A + T1) + T2); summed over the two cores, its sum array at a channel is the
  total over all pixels of yn = Wn · A' there, and its sum-of-squares array the total of yn * yn.
-/
import proofs.«126831_g2000503633499865_pallasbulk_555_4_alg».proof.Proof.RAcc2Val
import proofs.«126831_g2000503633499865_pallasbulk_555_4_alg».proof.Proof.RAcc1Bridge
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open scoped BigOperators
open Idealize.ShloMosaic Idealize.ShloMosaic.ValueIdx

namespace Cert.ReferenceIdeal.RAcc2

open Cert.ReferenceIdeal Cert.ReferenceIdeal.RAccL
open Cert.ReferenceIdeal.RAcc0 (col pt chain sum_points)

section
variable (x : S64x131072.Idx → EReal) (w1f : S128x64.Idx → EReal) (t1 : S128x1.Idx → EReal) (w2f : S64x128.Idx → EReal)
  (t2 : S64x1.Idx → EReal) (wn : S128x64.Idx → EReal)
  (A : Fin 64 → Net.Px → EReal) (W1f : Fin 128 → Fin 64 → EReal) (T1 : Fin 128 → EReal) (W2f : Fin 64 → Fin 128 → EReal)
  (T2 : Fin 64 → EReal) (Wn : Fin 128 → Fin 64 → EReal)
  (hx : ∀ (k : Fin 64) (n : Fin 32) (p : Fin 4096), x (ix2 k (Net.colOf n p)) = A k (n, p))
  (hw1 : ∀ (ch : Fin 128) (k : Fin 64), w1f (ix2 ch k) = W1f ch k)
  (ht1 : ∀ ch : Fin 128, t1 (ix2 ch 0) = T1 ch)
  (hw2 : ∀ (d : Fin 64) (ch : Fin 128), w2f (ix2 d ch) = W2f d ch)
  (ht2 : ∀ d : Fin 64, t2 (ix2 d 0) = T2 d)
  (hwn : ∀ (ch : Fin 128) (k : Fin 64), wn (ix2 ch k) = Wn ch k)

include hx hw1 ht1 hw2 ht2 in
/-- The activation at a pixel, read off the arrays. -/
theorem z2_net (d : Fin 64) (n : Fin 32) (p : Fin 4096) :
    z2At w1f t1 w2f t2 (fun k => x (ix2 k (Net.colOf n p))) d = (fun (d : Fin 64) (px : Net.Px) => Net.lrelu Net.slopec (Net.conv W2f (fun (ch : Fin 128) (px : Net.Px) => Net.lrelu Net.slopec (Net.conv W1f A ch px + T1 ch)) d px + T2 d)) d (n, p) := by
  unfold z2At
  rw [lrelu_eq]
  exact congrArg (Net.lrelu Net.slopec) (congrArg₂ (· + ·)
    (y2_net x w1f t1 w2f A W1f T1 W2f hx hw1 ht1 hw2 d n p) (ht2 d))

include hx hw1 ht1 hw2 ht2 in
/-- The activation array at the column of a pixel. -/
theorem out_eq (d : Fin 64) (n : Fin 32) (p : Fin 4096) :
    G2_6 x w1f t1 w2f t2 wn (ix2 d (Net.colOf n p)) = (fun (d : Fin 64) (px : Net.Px) => Net.lrelu Net.slopec (Net.conv W2f (fun (ch : Fin 128) (px : Net.Px) => Net.lrelu Net.slopec (Net.conv W1f A ch px + T1 ch)) d px + T2 d)) d (n, p) :=
  z2_net x w1f t1 w2f t2 A W1f T1 W2f T2 hx hw1 ht1 hw2 ht2 d n p

include hx hw1 ht1 hw2 ht2 hwn in
/-- yn at a pixel, read off the arrays. -/
theorem yn_net (ch : Fin 128) (n : Fin 32) (p : Fin 4096) :
    (∑ d : Fin 64, wn (ix2 ch d) * z2At w1f t1 w2f t2 (fun k => x (ix2 k (Net.colOf n p))) d)
      = Net.conv Wn (fun (d : Fin 64) (px : Net.Px) => Net.lrelu Net.slopec (Net.conv W2f (fun (ch : Fin 128) (px : Net.Px) => Net.lrelu Net.slopec (Net.conv W1f A ch px + T1 ch)) d px + T2 d)) ch (n, p) :=
  Finset.sum_congr rfl fun d _ => congrArg₂ (· * ·) (hwn ch d) (z2_net x w1f t1 w2f t2 A W1f T1 W2f T2 hx hw1 ht1 hw2 ht2 d n p)

include hx hw1 ht1 hw2 ht2 hwn in
/-- The sum array, summed over the cores, is the total of yn over all pixels. -/
theorem sum_eq (ch : Fin 128) (u : Fin 1) :
    ∑ core : Fin 2, G2_7 x w1f t1 w2f t2 wn (ix3 core ch u) = Net.tot (Net.conv Wn (fun (d : Fin 64) (px : Net.Px) => Net.lrelu Net.slopec (Net.conv W2f (fun (ch : Fin 128) (px : Net.Px) => Net.lrelu Net.slopec (Net.conv W1f A ch px + T1 ch)) d px + T2 d))) ch := by
  show ∑ core : Fin 2, chain (fun t => ∑ p : Fin 16384, (fun q : Fin 131072 => (∑ d : Fin 64, wn (ix2 ch d) * z2At w1f t1 w2f t2 (fun k => x (ix2 k q)) d)) (col t p)) core = _
  refine (sum_points (fun q : Fin 131072 => (∑ d : Fin 64, wn (ix2 ch d) * z2At w1f t1 w2f t2 (fun k => x (ix2 k q)) d))).trans ?_
  unfold Net.tot
  rw [Fintype.sum_prod_type]
  exact Finset.sum_congr rfl fun n _ => Finset.sum_congr rfl fun p _ => yn_net x w1f t1 w2f t2 wn A W1f T1 W2f T2 Wn hx hw1 ht1 hw2 ht2 hwn ch n p

include hx hw1 ht1 hw2 ht2 hwn in
/-- The sum-of-squares array, summed over the cores, is the total of yn * yn over all pixels. -/
theorem ssq_eq (ch : Fin 128) (u : Fin 1) :
    ∑ core : Fin 2, G2_8 x w1f t1 w2f t2 wn (ix3 core ch u) = Net.tot2 (Net.conv Wn (fun (d : Fin 64) (px : Net.Px) => Net.lrelu Net.slopec (Net.conv W2f (fun (ch : Fin 128) (px : Net.Px) => Net.lrelu Net.slopec (Net.conv W1f A ch px + T1 ch)) d px + T2 d))) ch := by
  show ∑ core : Fin 2, chain (fun t => ∑ p : Fin 16384, (fun q : Fin 131072 => (∑ d : Fin 64, wn (ix2 ch d) * z2At w1f t1 w2f t2 (fun k => x (ix2 k q)) d) * (∑ d : Fin 64, wn (ix2 ch d) * z2At w1f t1 w2f t2 (fun k => x (ix2 k q)) d)) (col t p)) core = _
  refine (sum_points (fun q : Fin 131072 => (∑ d : Fin 64, wn (ix2 ch d) * z2At w1f t1 w2f t2 (fun k => x (ix2 k q)) d) * (∑ d : Fin 64, wn (ix2 ch d) * z2At w1f t1 w2f t2 (fun k => x (ix2 k q)) d))).trans ?_
  unfold Net.tot2
  rw [Fintype.sum_prod_type]
  exact Finset.sum_congr rfl fun n _ => Finset.sum_congr rfl fun p _ => congrArg₂ (· * ·) (yn_net x w1f t1 w2f t2 wn A W1f T1 W2f T2 Wn hx hw1 ht1 hw2 ht2 hwn ch n p) (yn_net x w1f t1 w2f t2 wn A W1f T1 W2f T2 Wn hx hw1 ht1 hw2 ht2 hwn ch n p)

end

end Cert.ReferenceIdeal.RAcc2

end
-- ==== Proof.RFlowB.lean ====
/-
  The idealized reference's run, read as mathematics — second part: the first block's two passes and the host operations
  between them. The first pass accumulates the sum and sum of squares of the block's second convolution before its
  normalisation; the host operations turn them into the second scale and shift and fold the scale into the second
  convolution's weights; the second pass writes the block's output and accumulates the next block's first statistics.
-/
import proofs.«126831_g2000503633499865_pallasbulk_555_4_alg».proof.Proof.RFlowA
import proofs.«126831_g2000503633499865_pallasbulk_555_4_alg».proof.Proof.RAcc1Val
import proofs.«126831_g2000503633499865_pallasbulk_555_4_alg».proof.Proof.RAcc1Bridge
import proofs.«126831_g2000503633499865_pallasbulk_555_4_alg».proof.Proof.RAcc2Val
import proofs.«126831_g2000503633499865_pallasbulk_555_4_alg».proof.Proof.RAcc2Bridge

set_option maxRecDepth 16384

noncomputable section

namespace Cert.ReferenceIdeal.Flow

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- A buffer none of a stretch's host operations writes keeps its contents across the stretch. -/
macro "host_keep" : tactic =>
  `(tactic| (refine StableHlo.after_of_forall_not_mem _ _ (List.forall_iff_forall_mem.mp ?_)
             simp only [hostOps0, hostOps1, hostOps2, hostOps3, hostOps4, hostOps5, hostOps6, hostOps7, List.Forall,
               StableHlo.nullary_writes, StableHlo.unary_writes, StableHlo.binary_writes, StableHlo.reshape_writes,
               Finset.mem_singleton]
             repeat' apply And.intro
             all_goals exact StableHlo.devRef_ne_of_ne (by decide)))

/-- The second and third blocks' weights, and the activations between the blocks. -/
abbrev q1 : Net.BlockParams (Fin 64) (Fin 128) :=
  Net.qOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
abbrev q2 : Net.BlockParams (Fin 64) (Fin 128) :=
  Net.qOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
abbrev A1 : Fin 64 → Net.Px → EReal := Net.stepR Net.Nc Net.epsc Net.slopec (q0 m c) (X m c)
abbrev A2 : Fin 64 → Net.Px → EReal := Net.stepR Net.Nc Net.epsc Net.slopec (q1 m c) (A1 m c)
abbrev A3 : Fin 64 → Net.Px → EReal := Net.stepR Net.Nc Net.epsc Net.slopec (q2 m c) (A2 m c)

/-! ## Buffers that reach a later point of the run unchanged -/

theorem w3_v1_w1 : W3 (F := Ideal) m ρ c (Proc.devRef .tc main_v1) = W1 m ρ c (Proc.devRef .tc main_v1) :=
  calc W3 (F := Ideal) m ρ c (Proc.devRef .tc main_v1)
    _ = W2 m ρ c (Proc.devRef .tc main_v1) := by show StableHlo.after hostOps1 (W2 m ρ c) (Proc.devRef .tc main_v1) = _; host_keep
    _ = W1 m ρ c (Proc.devRef .tc main_v1) := (W2_arr m ρ c 0).trans (((dat0 (V1 m ρ) c).arrAt_in 0 rfl _).trans (A_eq0 (V1 m ρ) c 0))

theorem w3_arg4 : W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := by show StableHlo.after hostOps1 (W2 m ρ c) (Proc.devRef .tc main_arg4) = _; host_keep
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = _; host_keep
    _ = m ((c : Thread nD τ).loc main_arg4) := rfl

theorem w4_arg5 : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := by show StableHlo.after hostOps1 (W2 m ρ c) (Proc.devRef .tc main_arg5) = _; host_keep
    _ = W1 m ρ c (Proc.devRef .tc main_arg5) := W2_of_ne m ρ c main_arg5 (by decide)
    _ = W0 m ρ c (Proc.devRef .tc main_arg5) := by show StableHlo.after hostOps0 (W0 m ρ c) (Proc.devRef .tc main_arg5) = _; host_keep
    _ = m ((c : Thread nD τ).loc main_arg5) := rfl

theorem w4_arg6 : W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := by show StableHlo.after hostOps1 (W2 m ρ c) (Proc.devRef .tc main_arg6) = _; host_keep
    _ = W1 m ρ c (Proc.devRef .tc main_arg6) := W2_of_ne m ρ c main_arg6 (by decide)
    _ = W0 m ρ c (Proc.devRef .tc main_arg6) := by show StableHlo.after hostOps0 (W0 m ρ c) (Proc.devRef .tc main_arg6) = _; host_keep
    _ = m ((c : Thread nD τ).loc main_arg6) := rfl

theorem w4_arg4 : W4 (F := Ideal) m ρ c (Proc.devRef .tc main_arg4) = m ((c : Thread nD τ).loc main_arg4) :=
  calc W4 (F := Ideal) m ρ c (Proc.devRef .tc main_arg4)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := by show StableHlo.after hostOps1 (W2 m ρ c) (Proc.devRef .tc main_arg4) = _; host_keep
    _ = W1 m ρ c (Proc.devRef .tc main_arg4) := W2_of_ne m ρ c main_arg4 (by decide)
    _ = W0 m ρ c (Proc.devRef .tc main_arg4) := by show StableHlo.after hostOps0 (W0 m ρ c) (Proc.devRef .tc main_arg4) = _; host_keep
    _ = m ((c : Thread nD τ).loc main_arg4) := rfl

theorem w5_v1_w1 : W5 (F := Ideal) m ρ c (Proc.devRef .tc main_v1) = W1 m ρ c (Proc.devRef .tc main_v1) :=
  calc W5 (F := Ideal) m ρ c (Proc.devRef .tc main_v1)
    _ = W4 m ρ c (Proc.devRef .tc main_v1) := by show StableHlo.after hostOps2 (W4 m ρ c) (Proc.devRef .tc main_v1) = _; host_keep
    _ = W3 m ρ c (Proc.devRef .tc main_v1) := (W4_arr m ρ c 0).trans (((dat1 (V3 m ρ) c).arrAt_in 0 rfl _).trans (A_eq1 (V3 m ρ) c 0))
    _ = W2 m ρ c (Proc.devRef .tc main_v1) := by show StableHlo.after hostOps1 (W2 m ρ c) (Proc.devRef .tc main_v1) = _; host_keep
    _ = W1 m ρ c (Proc.devRef .tc main_v1) := (W2_arr m ρ c 0).trans (((dat0 (V1 m ρ) c).arrAt_in 0 rfl _).trans (A_eq0 (V1 m ρ) c 0))

theorem w5_v20_w3 : W5 (F := Ideal) m ρ c (Proc.devRef .tc main_v20) = W3 m ρ c (Proc.devRef .tc main_v20) :=
  calc W5 (F := Ideal) m ρ c (Proc.devRef .tc main_v20)
    _ = W4 m ρ c (Proc.devRef .tc main_v20) := by show StableHlo.after hostOps2 (W4 m ρ c) (Proc.devRef .tc main_v20) = _; host_keep
    _ = W3 m ρ c (Proc.devRef .tc main_v20) := (W4_arr m ρ c 1).trans (((dat1 (V3 m ρ) c).arrAt_in 1 rfl _).trans (A_eq1 (V3 m ρ) c 1))

theorem w5_v18_w3 : W5 (F := Ideal) m ρ c (Proc.devRef .tc main_v18) = W3 m ρ c (Proc.devRef .tc main_v18) :=
  calc W5 (F := Ideal) m ρ c (Proc.devRef .tc main_v18)
    _ = W4 m ρ c (Proc.devRef .tc main_v18) := by show StableHlo.after hostOps2 (W4 m ρ c) (Proc.devRef .tc main_v18) = _; host_keep
    _ = W3 m ρ c (Proc.devRef .tc main_v18) := (W4_arr m ρ c 2).trans (((dat1 (V3 m ρ) c).arrAt_in 2 rfl _).trans (A_eq1 (V3 m ρ) c 2))

theorem w5_arg7 : W5 (F := Ideal) m ρ c (Proc.devRef .tc main_arg7) = m ((c : Thread nD τ).loc main_arg7) :=
  calc W5 (F := Ideal) m ρ c (Proc.devRef .tc main_arg7)
    _ = W4 m ρ c (Proc.devRef .tc main_arg7) := by show StableHlo.after hostOps2 (W4 m ρ c) (Proc.devRef .tc main_arg7) = _; host_keep
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; host_keep
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; host_keep
    _ = m ((c : Thread nD τ).loc main_arg7) := rfl

/-! ## Block 0's first pass (region 1): the sums of the second convolution before its normalisation -/

/-- Block 0's second convolution before its normalisation. -/
abbrev Y20 : Fin 64 → Net.Px → EReal :=
  Net.pre2 Net.Nc Net.epsc Net.slopec (q0 m c).W1 (q0 m c).g1 (q0 m c).b1 (q0 m c).W2 (X m c)

theorem e1_act_at (k : Fin 64) (n : Fin 32) (p : Fin 4096) :
    V3 (F := Ideal) m ρ c main_v1 (ix2 k (Net.colOf n p)) = (X m c) k (n, p) := by
  have e : V3 (F := Ideal) m ρ c main_v1 = V1 m ρ c main_v1 := w3_v1_w1 m ρ c
  rw [e]; exact v1_at m ρ c k n p

theorem e1_w2_at (d : Fin 64) (ch : Fin 128) :
    V3 (F := Ideal) m ρ c main_arg4 (ix2 d ch) = (q0 m c).W2 d ch := by
  have e : V3 (F := Ideal) m ρ c main_arg4 = m ((c : Thread nD τ).loc main_arg4) := w3_arg4 m ρ c
  rw [e]; rfl

theorem acc1_sum : W4 (F := Ideal) m ρ c (Proc.devRef .tc main_v21_0)
    = RAcc1.G1_4 (V3 m ρ c main_v1) (V3 m ρ c main_v20) (V3 m ρ c main_v18) (V3 m ρ c main_arg4) :=
  (W4_arr m ρ c 4).trans (RAcc1.arrAt_4 (V3 m ρ) c)

theorem acc1_ssq : W4 (F := Ideal) m ρ c (Proc.devRef .tc main_v21_1)
    = RAcc1.G1_5 (V3 m ρ c main_v1) (V3 m ρ c main_v20) (V3 m ρ c main_v18) (V3 m ρ c main_arg4) :=
  (W4_arr m ρ c 5).trans (RAcc1.arrAt_5 (V3 m ρ) c)

theorem sum2_0 (d : Fin 64) (u : Fin 1) :
    ∑ core : Fin 2, arr S2x64x1 (W4 (F := Ideal) m ρ c (Proc.devRef .tc main_v21_0)) (ix3 core d u) = Net.tot (Y20 m c) d := by
  unfold arr
  rw [acc1_sum]
  exact RAcc1.sum_eq _ _ _ _ (X m c) (fun ch k => (q0 m c).W1 ch k * Net.bnScale Net.Nc Net.epsc (Net.conv (q0 m c).W1 (X m c)) (q0 m c).g1 ch) (fun ch => Net.bnShift Net.Nc Net.epsc (Net.conv (q0 m c).W1 (X m c)) (q0 m c).g1 (q0 m c).b1 ch) (q0 m c).W2
    (e1_act_at m ρ c) (v20_at m ρ c) (v18_at m ρ c) (e1_w2_at m ρ c) d u

theorem ssq2_0 (d : Fin 64) (u : Fin 1) :
    ∑ core : Fin 2, arr S2x64x1 (W4 (F := Ideal) m ρ c (Proc.devRef .tc main_v21_1)) (ix3 core d u) = Net.tot2 (Y20 m c) d := by
  unfold arr
  rw [acc1_ssq]
  exact RAcc1.ssq_eq _ _ _ _ (X m c) (fun ch k => (q0 m c).W1 ch k * Net.bnScale Net.Nc Net.epsc (Net.conv (q0 m c).W1 (X m c)) (q0 m c).g1 ch) (fun ch => Net.bnShift Net.Nc Net.epsc (Net.conv (q0 m c).W1 (X m c)) (q0 m c).g1 (q0 m c).b1 ch) (q0 m c).W2
    (e1_act_at m ρ c) (v20_at m ρ c) (v18_at m ρ c) (e1_w2_at m ρ c) d u

/-! ## The host operations after it: the second normalisation's scale and shift, the scale folded into W2 -/

set_option maxHeartbeats 4000000 in
theorem s2_0_eq : V5 (F := Ideal) m ρ c main_v35
    = HostFold.scaleVec reducesTo_S2x64x1_S64x1_d0 h_S_ bcast_S_S64x1
        (W4 m ρ c (Proc.devRef .tc main_v21_0)) (W4 m ρ c (Proc.devRef .tc main_v21_1)) (W4 m ρ c (Proc.devRef .tc main_arg5)) := by
  show StableHlo.after hostOps2 (W4 m ρ c) (Proc.devRef .tc main_v35) = _
  after_results_simp
  rfl

theorem s2_0_at (d : Fin 64) :
    V5 (F := Ideal) m ρ c main_v35 (ix2 d 0) = Net.bnScale Net.Nc Net.epsc (Y20 m c) (q0 m c).g2 d := by
  rw [s2_0_eq, HostFold.scaleVec_apply _ _ _ (by decide)]
  have e1 := sum2_0 m ρ c d 0
  have e2 := ssq2_0 m ρ c d 0
  unfold arr at e1 e2
  rw [e1, e2, w4_arg5]
  rfl

set_option maxHeartbeats 4000000 in
theorem t2_0_eq : V5 (F := Ideal) m ρ c main_v37
    = HostFold.shiftVec reducesTo_S2x64x1_S64x1_d0 h_S_ bcast_S_S64x1
        (W4 m ρ c (Proc.devRef .tc main_v21_0)) (W4 m ρ c (Proc.devRef .tc main_v21_1)) (W4 m ρ c (Proc.devRef .tc main_arg5))
        (W4 m ρ c (Proc.devRef .tc main_arg6)) := by
  show StableHlo.after hostOps2 (W4 m ρ c) (Proc.devRef .tc main_v37) = _
  after_results_simp
  rfl

theorem t2_0_at (d : Fin 64) :
    V5 (F := Ideal) m ρ c main_v37 (ix2 d 0) = Net.bnShift Net.Nc Net.epsc (Y20 m c) (q0 m c).g2 (q0 m c).b2 d := by
  rw [t2_0_eq, HostFold.shiftVec_apply _ _ _ (by decide)]
  have e1 := sum2_0 m ρ c d 0
  have e2 := ssq2_0 m ρ c d 0
  unfold arr at e1 e2
  rw [e1, e2, w4_arg5, w4_arg6]
  rfl

set_option maxHeartbeats 4000000 in
theorem w2f_0_eq : V5 (F := Ideal) m ρ c main_v39
    = HostFold.scaleRows bcast_S64x1_S64x128_0_1 (W4 m ρ c (Proc.devRef .tc main_arg4))
        (HostFold.scaleVec reducesTo_S2x64x1_S64x1_d0 h_S_ bcast_S_S64x1
        (W4 m ρ c (Proc.devRef .tc main_v21_0)) (W4 m ρ c (Proc.devRef .tc main_v21_1)) (W4 m ρ c (Proc.devRef .tc main_arg5))) := by
  show StableHlo.after hostOps2 (W4 m ρ c) (Proc.devRef .tc main_v39) = _
  after_results_simp
  rfl

theorem w2f_0_at (d : Fin 64) (ch : Fin 128) :
    V5 (F := Ideal) m ρ c main_v39 (ix2 d ch) = (q0 m c).W2 d ch * Net.bnScale Net.Nc Net.epsc (Y20 m c) (q0 m c).g2 d := by
  rw [w2f_0_eq, HostFold.scaleRows_apply, ← s2_0_eq, s2_0_at, w4_arg4]
  rfl

/-! ## Block 0's second pass (region 2) -/

theorem e2_act_at (k : Fin 64) (n : Fin 32) (p : Fin 4096) :
    V5 (F := Ideal) m ρ c main_v1 (ix2 k (Net.colOf n p)) = (X m c) k (n, p) := by
  have e : V5 (F := Ideal) m ρ c main_v1 = V1 m ρ c main_v1 := w5_v1_w1 m ρ c
  rw [e]; exact v1_at m ρ c k n p

theorem e2_w1f_at (ch : Fin 128) (k : Fin 64) :
    V5 (F := Ideal) m ρ c main_v20 (ix2 ch k)
      = (q0 m c).W1 ch k * Net.bnScale Net.Nc Net.epsc (Net.conv (q0 m c).W1 (X m c)) (q0 m c).g1 ch := by
  have e : V5 (F := Ideal) m ρ c main_v20 = V3 m ρ c main_v20 := w5_v20_w3 m ρ c
  rw [e]; exact v20_at m ρ c ch k

theorem e2_t1_at (ch : Fin 128) :
    V5 (F := Ideal) m ρ c main_v18 (ix2 ch 0)
      = Net.bnShift Net.Nc Net.epsc (Net.conv (q0 m c).W1 (X m c)) (q0 m c).g1 (q0 m c).b1 ch := by
  have e : V5 (F := Ideal) m ρ c main_v18 = V3 m ρ c main_v18 := w5_v18_w3 m ρ c
  rw [e]; exact v18_at m ρ c ch

theorem e2_wn_at (ch : Fin 128) (k : Fin 64) :
    V5 (F := Ideal) m ρ c main_arg7 (ix2 ch k) = (q1 m c).W1 ch k := by
  have e : V5 (F := Ideal) m ρ c main_arg7 = m ((c : Thread nD τ).loc main_arg7) := w5_arg7 m ρ c
  rw [e]; rfl

theorem out2_eq : W6 (F := Ideal) m ρ c (Proc.devRef .tc main_v40_0)
    = RAcc2.G2_6 (V5 m ρ c main_v1) (V5 m ρ c main_v20) (V5 m ρ c main_v18) (V5 m ρ c main_v39)
        (V5 m ρ c main_v37) (V5 m ρ c main_arg7) :=
  (W6_arr m ρ c 6).trans (RAcc2.arrAt_6 (V5 m ρ) c)

theorem acc2_sum : W6 (F := Ideal) m ρ c (Proc.devRef .tc main_v40_1)
    = RAcc2.G2_7 (V5 m ρ c main_v1) (V5 m ρ c main_v20) (V5 m ρ c main_v18) (V5 m ρ c main_v39)
        (V5 m ρ c main_v37) (V5 m ρ c main_arg7) :=
  (W6_arr m ρ c 7).trans (RAcc2.arrAt_7 (V5 m ρ) c)

theorem acc2_ssq : W6 (F := Ideal) m ρ c (Proc.devRef .tc main_v40_2)
    = RAcc2.G2_8 (V5 m ρ c main_v1) (V5 m ρ c main_v20) (V5 m ρ c main_v18) (V5 m ρ c main_v39)
        (V5 m ρ c main_v37) (V5 m ρ c main_arg7) :=
  (W6_arr m ρ c 8).trans (RAcc2.arrAt_8 (V5 m ρ) c)

/-- The block's output, in the column layout. -/
theorem act_1_at (d : Fin 64) (n : Fin 32) (p : Fin 4096) :
    W6 (F := Ideal) m ρ c (Proc.devRef .tc main_v40_0) (ix2 d (Net.colOf n p)) = (A1 m c) d (n, p) := by
  rw [out2_eq]
  exact RAcc2.out_eq _ _ _ _ _ _ (X m c) (fun ch k => (q0 m c).W1 ch k * Net.bnScale Net.Nc Net.epsc (Net.conv (q0 m c).W1 (X m c)) (q0 m c).g1 ch) (fun ch => Net.bnShift Net.Nc Net.epsc (Net.conv (q0 m c).W1 (X m c)) (q0 m c).g1 (q0 m c).b1 ch) (fun d ch => (q0 m c).W2 d ch * Net.bnScale Net.Nc Net.epsc (Y20 m c) (q0 m c).g2 d) (fun d => Net.bnShift Net.Nc Net.epsc (Y20 m c) (q0 m c).g2 (q0 m c).b2 d)
    (e2_act_at m ρ c) (e2_w1f_at m ρ c) (e2_t1_at m ρ c) (w2f_0_at m ρ c) (t2_0_at m ρ c) d n p

/-- The next block's first statistics. -/
theorem sumN_0 (ch : Fin 128) (u : Fin 1) :
    ∑ core : Fin 2, arr S2x128x1 (W6 (F := Ideal) m ρ c (Proc.devRef .tc main_v40_1)) (ix3 core ch u)
      = Net.tot (Net.conv (q1 m c).W1 (A1 m c)) ch := by
  unfold arr
  rw [acc2_sum]
  exact RAcc2.sum_eq _ _ _ _ _ _ (X m c) (fun ch k => (q0 m c).W1 ch k * Net.bnScale Net.Nc Net.epsc (Net.conv (q0 m c).W1 (X m c)) (q0 m c).g1 ch) (fun ch => Net.bnShift Net.Nc Net.epsc (Net.conv (q0 m c).W1 (X m c)) (q0 m c).g1 (q0 m c).b1 ch) (fun d ch => (q0 m c).W2 d ch * Net.bnScale Net.Nc Net.epsc (Y20 m c) (q0 m c).g2 d) (fun d => Net.bnShift Net.Nc Net.epsc (Y20 m c) (q0 m c).g2 (q0 m c).b2 d) (q1 m c).W1
    (e2_act_at m ρ c) (e2_w1f_at m ρ c) (e2_t1_at m ρ c) (w2f_0_at m ρ c) (t2_0_at m ρ c) (e2_wn_at m ρ c) ch u

theorem ssqN_0 (ch : Fin 128) (u : Fin 1) :
    ∑ core : Fin 2, arr S2x128x1 (W6 (F := Ideal) m ρ c (Proc.devRef .tc main_v40_2)) (ix3 core ch u)
      = Net.tot2 (Net.conv (q1 m c).W1 (A1 m c)) ch := by
  unfold arr
  rw [acc2_ssq]
  exact RAcc2.ssq_eq _ _ _ _ _ _ (X m c) (fun ch k => (q0 m c).W1 ch k * Net.bnScale Net.Nc Net.epsc (Net.conv (q0 m c).W1 (X m c)) (q0 m c).g1 ch) (fun ch => Net.bnShift Net.Nc Net.epsc (Net.conv (q0 m c).W1 (X m c)) (q0 m c).g1 (q0 m c).b1 ch) (fun d ch => (q0 m c).W2 d ch * Net.bnScale Net.Nc Net.epsc (Y20 m c) (q0 m c).g2 d) (fun d => Net.bnShift Net.Nc Net.epsc (Y20 m c) (q0 m c).g2 (q0 m c).b2 d) (q1 m c).W1
    (e2_act_at m ρ c) (e2_w1f_at m ρ c) (e2_t1_at m ρ c) (w2f_0_at m ρ c) (t2_0_at m ρ c) (e2_wn_at m ρ c) ch u

end Cert.ReferenceIdeal.Flow

end
-- ==== Proof.RAcc3Pay.lean ====
/-
  Region 3 of the reference (the second statistics pass), its payloads read at an index over the extended reals:
  y2 = W2 · lrelu (W1f · x + t1) of the block at (d, q), and the two accumulator payloads at (0, d, 0): the carried
  value plus the lane sum of y2, resp. of y2 * y2. The zeroing payloads read the zero literal.
-/
import proofs.«126831_g2000503633499865_pallasbulk_555_4_alg».proof.Proof.RAcc1Lib

noncomputable section

open scoped BigOperators

namespace Cert.ReferenceIdeal.RAcc3

open Idealize.ShloMosaic Idealize.ShloMosaic.ValueIdx
open Cert.ReferenceIdeal Cert.ReferenceIdeal.Gen Cert.ReferenceIdeal.RAccL

/-- y2 of the block at (d, q). -/
theorem pay4_apply (W1f : Vec Ideal S128x64 .f32) (x : Vec Ideal S64x16384 .f32) (t1 : Vec Ideal S128x1 .f32)
    (W2 : Vec Ideal S64x128 .f32) (d : Fin 64) (q : Fin 16384) :
    k3_pay4 W1f x t1 W2 (ix2 d q) = y2At W1f t1 W2 (fun k => x (ix2 k q)) d := by
  unfold k3_pay4
  simp only [shapeCast_self]
  refine (mm2_apply W2 _ d q).trans ?_
  exact Finset.sum_congr rfl fun c _ => congrArg (W2 (ix2 d c) * ·) (layer1_apply W1f x t1 _ c q)

/-- The zeroing payloads read the zero literal. -/
theorem pay2_apply (j : S1x64x1.Idx) : k3_pay2 (F := Ideal) j = Ideal.ofBits .f32 0x00000000#32 := rfl
theorem pay3_apply (j : S1x64x1.Idx) : k3_pay3 (F := Ideal) j = Ideal.ofBits .f32 0x00000000#32 := rfl

/-- The sum accumulator: the carried value plus the lane sum of y2. -/
theorem pay5_apply (W1f : Vec Ideal S128x64 .f32) (x : Vec Ideal S64x16384 .f32) (t1 : Vec Ideal S128x1 .f32)
    (W2 : Vec Ideal S64x128 .f32) (acc : Vec Ideal S1x64x1 .f32) (d : Fin 64) :
    k3_pay5 W1f x t1 W2 acc (ix3 (0 : Fin 1) d (0 : Fin 1))
      = acc (ix3 (0 : Fin 1) d (0 : Fin 1)) + ∑ p : Fin 16384, y2At W1f t1 W2 (fun k => x (ix2 k p)) d := by
  unfold k3_pay5
  refine (cast64_2_3 _ _ d).trans ?_
  refine congrArg₂ (· + ·) (cast64_3_2 acc _ d) ?_
  refine (cast64_1_2 _ _ d).trans ?_
  refine (laneSum64_apply (k3_pay4 W1f x t1 W2) _ _ _ d).trans ?_
  exact Finset.sum_congr rfl fun p _ => pay4_apply W1f x t1 W2 d p

/-- The sum-of-squares accumulator: the carried value plus the lane sum of y2 * y2. -/
theorem pay16_apply (W1f : Vec Ideal S128x64 .f32) (x : Vec Ideal S64x16384 .f32) (t1 : Vec Ideal S128x1 .f32)
    (W2 : Vec Ideal S64x128 .f32) (acc : Vec Ideal S1x64x1 .f32) (d : Fin 64) :
    k3_pay1 (k3_pay6 W1f x t1 W2 acc) (ix3 (0 : Fin 1) d (0 : Fin 1))
      = acc (ix3 (0 : Fin 1) d (0 : Fin 1))
        + ∑ p : Fin 16384, y2At W1f t1 W2 (fun k => x (ix2 k p)) d * y2At W1f t1 W2 (fun k => x (ix2 k p)) d := by
  unfold k3_pay1 k3_pay6
  refine (cast64_2_3 _ _ d).trans ?_
  refine congrArg₂ (· + ·) (cast64_3_2 acc _ d) ?_
  refine (cast64_1_2 _ _ d).trans ?_
  refine (laneSum64_apply (mulf (k3_pay4 W1f x t1 W2) (k3_pay4 W1f x t1 W2)) _ _ _ d).trans ?_
  refine Finset.sum_congr rfl fun p _ => ?_
  show k3_pay4 W1f x t1 W2 (ix2 d p) * k3_pay4 W1f x t1 W2 (ix2 d p) = _
  rw [pay4_apply W1f x t1 W2 d p]

end Cert.ReferenceIdeal.RAcc3

end
-- ==== Proof.RAcc3Val.lean ====
/-
  Region 3 of the reference (a second statistics pass): what its two accumulator arrays [2,64,1] end holding, as
  functions of the arrays the region finds. Each case of the body leaves, in an accumulator's block, a payload of the
  point's input blocks (reset case: over the zero block; accumulating case: over what the point before left); so after
  point t the block holds the running sum over the points of t's core up to t; the last point of a core writes the block
  back into that core's row of the array.
-/
import proofs.«126831_g2000503633499865_pallasbulk_555_4_alg».proof.Proof.Gen.ReferenceIdeal.Frame
import proofs.«126831_g2000503633499865_pallasbulk_555_4_alg».proof.Proof.RAcc0Val
import proofs.«126831_g2000503633499865_pallasbulk_555_4_alg».proof.Proof.RAcc3Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc3

open Cert.ReferenceIdeal Cert.ReferenceIdeal.Gen Cert.ReferenceIdeal.RAccL
open Cert.ReferenceIdeal.RAcc0 (hz2 hz3 col pt chain run run_reset run_step run_flush)

/-! ## The cases' pieces, as payloads (any float instance) -/

section Pieces
variable {F : FTy → Type} [FloatOps F]

/-- The accumulating case leaves, in the sum block holding `xo4`, the sum payload over it. -/
theorem out_B_4 (c : Dev nD) (i : grid3.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond3_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out3_B_4 c i arg2 harg2 arg3 harg3 arg4 harg4 arg5 harg5 arg6 harg6 arg7 harg7 hc0 x0 x1 x2 x3 xo4 xo5 = k3_pay5 x1 x0 x2 x3 xo4 := by
  unfold out3_B_4
  rw [View.read_writes_eq_canon _ _ _ (cover3_B_4 c i arg2 harg2 arg3 harg3 arg4 harg4 arg5 harg5 arg6 harg6 arg7 harg7 hc0 x0 x1 x2 x3 xo4 xo5)]
  unfold kernelRun3_B
  dsimp only
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- and in the sum-of-squares block holding `xo5`, the sum-of-squares payload over it. -/
theorem out_B_5 (c : Dev nD) (i : grid3.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond3_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out3_B_5 c i arg2 harg2 arg3 harg3 arg4 harg4 arg5 harg5 arg6 harg6 arg7 harg7 hc0 x0 x1 x2 x3 xo4 xo5 = k3_pay1 (k3_pay6 x1 x0 x2 x3 xo5) := by
  unfold out3_B_5
  rw [View.read_writes_eq_canon _ _ _ (cover3_B_5 c i arg2 harg2 arg3 harg3 arg4 harg4 arg5 harg5 arg6 harg6 arg7 harg7 hc0 x0 x1 x2 x3 xo4 xo5)]
  unfold kernelRun3_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- The reset case stores the zero block, reads it back, and leaves the sum payload over it. -/
theorem out_A_4 (c : Dev nD) (i : grid3.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond3_0 i)
    (x0 : Vec F S64x16384 .f32) (x1 : Vec F S128x64 .f32) (x2 : Vec F S128x1 .f32) (x3 : Vec F S64x128 .f32) :
    out3_A_4 c i arg2 harg2 arg3 harg3 arg4 harg4 arg5 harg5 arg6 harg6 arg7 harg7 hc0 x0 x1 x2 x3 = k3_pay5 x1 x0 x2 x3 (k3_pay2 (F := F)) := by
  unfold out3_A_4
  rw [View.read_writes_eq_canon _ _ _ (cover3_A_4 c i arg2 harg2 arg3 harg3 arg4 harg4 arg5 harg5 arg6 harg6 arg7 harg7 hc0 x0 x1 x2 x3)]
  unfold kernelRun3_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

theorem out_A_5 (c : Dev nD) (i : grid3.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond3_0 i)
    (x0 : Vec F S64x16384 .f32) (x1 : Vec F S128x64 .f32) (x2 : Vec F S128x1 .f32) (x3 : Vec F S64x128 .f32) :
    out3_A_5 c i arg2 harg2 arg3 harg3 arg4 harg4 arg5 harg5 arg6 harg6 arg7 harg7 hc0 x0 x1 x2 x3 = k3_pay1 (k3_pay6 x1 x0 x2 x3 (k3_pay3 (F := F))) := by
  unfold out3_A_5
  rw [View.read_writes_eq_canon _ _ _ (cover3_A_5 c i arg2 harg2 arg3 harg3 arg4 harg4 arg5 harg5 arg6 harg6 arg7 harg7 hc0 x0 x1 x2 x3)]
  unfold kernelRun3_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

end Pieces

/-! ## The sums a point adds -/

/-- What point `t` adds to channel `d` of the sum: the lane sum of y2 over the point's block. -/
def sumAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d

/-- What point `t` adds to channel `d` of the sum of squares: the lane sum of y2 * y2 over the point's block. -/
def ssqAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d * y2At W1f t1 W2 (fun k => x (ix2 k (col t p))) d

/-- The sum array [2,64,1]: at (core, d, 0) the core's chain of lane sums of y2. -/
def G3_4 (x : S64x131072.Idx → EReal) (W1f : S128x64.Idx → EReal) (t1 : S128x1.Idx → EReal) (W2 : S64x128.Idx → EReal) :
    S2x64x1.Idx → EReal := fun i => chain (fun t => sumAt x W1f t1 W2 t (i 1)) (i 0)

/-- The sum-of-squares array [2,64,1]: at (core, d, 0) the core's chain of lane sums of y2 * y2. -/
def G3_5 (x : S64x131072.Idx → EReal) (W1f : S128x64.Idx → EReal) (t1 : S128x1.Idx → EReal) (W2 : S64x128.Idx → EReal) :
    S2x64x1.Idx → EReal := fun i => chain (fun t => ssqAt x W1f t1 W2 t (i 1)) (i 0)

/-! ## The blocks a point reads -/

theorem idx_0 : ∀ t : Fin cfg3.N, win3_0.index t (0 : Fin 2) = 0 ∧ win3_0.index t (1 : Fin 2) = t.val :=
  (by decide +kernel : ∀ t : Fin grid3.N, win3_0.index t (0 : Fin 2) = 0 ∧ win3_0.index t (1 : Fin 2) = t.val)
theorem idx_1 : ∀ t : Fin cfg3.N, win3_1.index t (0 : Fin 2) = 0 ∧ win3_1.index t (1 : Fin 2) = 0 :=
  (by decide +kernel : ∀ t : Fin grid3.N, win3_1.index t (0 : Fin 2) = 0 ∧ win3_1.index t (1 : Fin 2) = 0)
theorem idx_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)
theorem idx_3 : ∀ t : Fin cfg3.N, win3_3.index t (0 : Fin 2) = 0 ∧ win3_3.index t (1 : Fin 2) = 0 :=
  (by decide +kernel : ∀ t : Fin grid3.N, win3_3.index t (0 : Fin 2) = 0 ∧ win3_3.index t (1 : Fin 2) = 0)
theorem idx_4 : ∀ t : Fin cfg3.N, win3_4.index t (0 : Fin 3) = t.val / 4 ∧ win3_4.index t (1 : Fin 3) = 0 ∧ win3_4.index t (2 : Fin 3) = 0 :=
  (by decide +kernel : ∀ t : Fin grid3.N, win3_4.index t (0 : Fin 3) = t.val / 4 ∧ win3_4.index t (1 : Fin 3) = 0 ∧ win3_4.index t (2 : Fin 3) = 0)
theorem idx_5 : ∀ t : Fin cfg3.N, win3_5.index t (0 : Fin 3) = t.val / 4 ∧ win3_5.index t (1 : Fin 3) = 0 ∧ win3_5.index t (2 : Fin 3) = 0 :=
  (by decide +kernel : ∀ t : Fin grid3.N, win3_5.index t (0 : Fin 3) = t.val / 4 ∧ win3_5.index t (1 : Fin 3) = 0 ∧ win3_5.index t (2 : Fin 3) = 0)

variable (V : (c : Dev nD) → (b : Ref sig .tc) → Buf (Elt Ideal) ((c : Thread nD τ).loc b))

/-- The activation block of point `t` at (k, p) is the array at (k, t·16384 + p). -/
theorem iblk_x (c : Dev nD) (t : Fin cfg3.N) (h8 : t.val < 8) (k : Fin 64) (p : Fin 16384) :
    (iblk3 V c 0 t : Vec Ideal S64x16384 .f32) (ix2 k p) = (V c (Pipeline.arrRef spec3 0)) (ix2 k (col ⟨t.val, h8⟩ p)) := by
  obtain ⟨e0, e1⟩ := idx_0 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 64 + 1 * k.val = k.val; rw [e0]; omega
  | ⟨1, _⟩ => show win3_0.index t (1 : Fin 2) * 16384 + 1 * p.val = t.val * 16384 + p.val; rw [e1]; omega

/-- The resident blocks of any point are their arrays. -/
theorem iblk_1 (c : Dev nD) (t : Fin cfg3.N) (r : Fin 128) (k : Fin 64) :
    (iblk3 V c 1 t : Vec Ideal S128x64 .f32) (ix2 r k) = (V c (Pipeline.arrRef spec3 1)) (ix2 r k) := by
  obtain ⟨e0, e1⟩ := idx_1 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 128 + 1 * r.val = r.val; rw [e0]; omega
  | ⟨1, _⟩ => show win3_1.index t (1 : Fin 2) * 64 + 1 * k.val = k.val; rw [e1]; omega

theorem iblk_2 (c : Dev nD) (t : Fin cfg3.N) (r : Fin 128) (z : Fin 1) :
    (iblk3 V c 2 t : Vec Ideal S128x1 .f32) (ix2 r z) = (V c (Pipeline.arrRef spec3 2)) (ix2 r z) := by
  obtain ⟨e0, e1⟩ := idx_2 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * r.val = r.val; rw [e0]; omega
  | ⟨1, _⟩ => show win3_2.index t (1 : Fin 2) * 1 + 1 * z.val = z.val; rw [e1]; omega

theorem iblk_3 (c : Dev nD) (t : Fin cfg3.N) (d : Fin 64) (r : Fin 128) :
    (iblk3 V c 3 t : Vec Ideal S64x128 .f32) (ix2 d r) = (V c (Pipeline.arrRef spec3 3)) (ix2 d r) := by
  obtain ⟨e0, e1⟩ := idx_3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 64 + 1 * d.val = d.val; rw [e0]; omega
  | ⟨1, _⟩ => show win3_3.index t (1 : Fin 2) * 128 + 1 * r.val = r.val; rw [e1]; omega

/-! ## A point's payloads over blocks that read the arrays -/

section Of
variable (W1b : Vec Ideal S128x64 .f32) (xb : Vec Ideal S64x16384 .f32) (t1b : Vec Ideal S128x1 .f32) (W2b : Vec Ideal S64x128 .f32)
  (x : S64x131072.Idx → EReal) (W1f : S128x64.Idx → EReal) (t1 : S128x1.Idx → EReal) (W2 : S64x128.Idx → EReal) (t : Fin 8)
  (hW1 : ∀ (r : Fin 128) (k : Fin 64), W1b (ix2 r k) = W1f (ix2 r k))
  (hx : ∀ (k : Fin 64) (p : Fin 16384), xb (ix2 k p) = x (ix2 k (col t p)))
  (ht1 : ∀ (r : Fin 128) (z : Fin 1), t1b (ix2 r z) = t1 (ix2 r z))
  (hW2 : ∀ (d : Fin 64) (r : Fin 128), W2b (ix2 d r) = W2 (ix2 d r))
include hW1 hx ht1 hW2

/-- y2 of a column read through the blocks is y2 of the arrays' column. -/
theorem y2_of (d : Fin 64) (p : Fin 16384) :
    y2At W1b t1b W2b (fun k => xb (ix2 k p)) d = y2At W1f t1 W2 (fun k => x (ix2 k (col t p))) d := by
  unfold y2At z1At
  refine Finset.sum_congr rfl fun r _ => congrArg₂ (· * ·) (hW2 d r) (congrArg lrelu (congrArg₂ (· + ·) ?_ (ht1 r 0)))
  exact Finset.sum_congr rfl fun k _ => congrArg₂ (· * ·) (hW1 r k) (hx k p)

theorem sum_of (acc : Vec Ideal S1x64x1 .f32) (d : Fin 64) :
    k3_pay5 W1b xb t1b W2b acc (ix3 (0 : Fin 1) d (0 : Fin 1)) = acc (ix3 (0 : Fin 1) d (0 : Fin 1)) + sumAt x W1f t1 W2 t d := by
  refine (pay5_apply W1b xb t1b W2b acc d).trans (congrArg (acc (ix3 (0 : Fin 1) d (0 : Fin 1)) + ·) ?_)
  exact Finset.sum_congr rfl fun p _ => y2_of W1b xb t1b W2b x W1f t1 W2 t hW1 hx ht1 hW2 d p

theorem ssq_of (acc : Vec Ideal S1x64x1 .f32) (d : Fin 64) :
    k3_pay1 (k3_pay6 W1b xb t1b W2b acc) (ix3 (0 : Fin 1) d (0 : Fin 1)) = acc (ix3 (0 : Fin 1) d (0 : Fin 1)) + ssqAt x W1f t1 W2 t d := by
  refine (pay16_apply W1b xb t1b W2b acc d).trans (congrArg (acc (ix3 (0 : Fin 1) d (0 : Fin 1)) + ·) ?_)
  exact Finset.sum_congr rfl fun p _ => congrArg₂ (· * ·) (y2_of W1b xb t1b W2b x W1f t1 W2 t hW1 hx ht1 hW2 d p)
    (y2_of W1b xb t1b W2b x W1f t1 W2 t hW1 hx ht1 hW2 d p)

end Of

theorem sum_step (c : Dev nD) (t : Fin cfg3.N) (h8 : t.val < 8) (acc : Vec Ideal S1x64x1 .f32) (d : Fin 64) :
    k3_pay5 (iblk3 V c 1 t) (iblk3 V c 0 t) (iblk3 V c 2 t) (iblk3 V c 3 t) acc (ix3 (0 : Fin 1) d (0 : Fin 1))
      = acc (ix3 (0 : Fin 1) d (0 : Fin 1)) + sumAt (V c (Pipeline.arrRef spec3 0)) (V c (Pipeline.arrRef spec3 1)) (V c (Pipeline.arrRef spec3 2)) (V c (Pipeline.arrRef spec3 3)) ⟨t.val, h8⟩ d :=
  sum_of (iblk3 V c 1 t) (iblk3 V c 0 t) (iblk3 V c 2 t) (iblk3 V c 3 t) (V c (Pipeline.arrRef spec3 0)) (V c (Pipeline.arrRef spec3 1)) (V c (Pipeline.arrRef spec3 2)) (V c (Pipeline.arrRef spec3 3)) ⟨t.val, h8⟩
    (iblk_1 V c t) (iblk_x V c t h8) (iblk_2 V c t) (iblk_3 V c t) acc d

theorem ssq_step (c : Dev nD) (t : Fin cfg3.N) (h8 : t.val < 8) (acc : Vec Ideal S1x64x1 .f32) (d : Fin 64) :
    k3_pay1 (k3_pay6 (iblk3 V c 1 t) (iblk3 V c 0 t) (iblk3 V c 2 t) (iblk3 V c 3 t) acc) (ix3 (0 : Fin 1) d (0 : Fin 1))
      = acc (ix3 (0 : Fin 1) d (0 : Fin 1)) + ssqAt (V c (Pipeline.arrRef spec3 0)) (V c (Pipeline.arrRef spec3 1)) (V c (Pipeline.arrRef spec3 2)) (V c (Pipeline.arrRef spec3 3)) ⟨t.val, h8⟩ d :=
  ssq_of (iblk3 V c 1 t) (iblk3 V c 0 t) (iblk3 V c 2 t) (iblk3 V c 3 t) (V c (Pipeline.arrRef spec3 0)) (V c (Pipeline.arrRef spec3 1)) (V c (Pipeline.arrRef spec3 2)) (V c (Pipeline.arrRef spec3 3)) ⟨t.val, h8⟩
    (iblk_1 V c t) (iblk_x V c t h8) (iblk_2 V c t) (iblk_3 V c t) acc d

/-! ## One point's step, over ANY staging memrefs and carried blocks -/

theorem stepA_4 (c : Dev nD) (t : Fin cfg3.N) (h8 : t.val < 8) {i : grid3.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond3_0 i} (d : Fin 64) :
    out3_A_4 c i arg2 harg2 arg3 harg3 arg4 harg4 arg5 harg5 arg6 harg6 arg7 harg7 hc0 (iblk3 V c 0 t) (iblk3 V c 1 t) (iblk3 V c 2 t) (iblk3 V c 3 t) (ix3 (0 : Fin 1) d (0 : Fin 1))
      = Ideal.ofBits .f32 0x00000000#32 + sumAt (V c (Pipeline.arrRef spec3 0)) (V c (Pipeline.arrRef spec3 1)) (V c (Pipeline.arrRef spec3 2)) (V c (Pipeline.arrRef spec3 3)) ⟨t.val, h8⟩ d := by
  rw [out_A_4 (F := Ideal) c]
  exact (sum_step V c t h8 _ d).trans (congrArg (· + _) (pay2_apply _))

theorem stepA_5 (c : Dev nD) (t : Fin cfg3.N) (h8 : t.val < 8) {i : grid3.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond3_0 i} (d : Fin 64) :
    out3_A_5 c i arg2 harg2 arg3 harg3 arg4 harg4 arg5 harg5 arg6 harg6 arg7 harg7 hc0 (iblk3 V c 0 t) (iblk3 V c 1 t) (iblk3 V c 2 t) (iblk3 V c 3 t) (ix3 (0 : Fin 1) d (0 : Fin 1))
      = Ideal.ofBits .f32 0x00000000#32 + ssqAt (V c (Pipeline.arrRef spec3 0)) (V c (Pipeline.arrRef spec3 1)) (V c (Pipeline.arrRef spec3 2)) (V c (Pipeline.arrRef spec3 3)) ⟨t.val, h8⟩ d := by
  rw [out_A_5 (F := Ideal) c]
  exact (ssq_step V c t h8 _ d).trans (congrArg (· + _) (pay3_apply _))

theorem stepB_4 (c : Dev nD) (t : Fin cfg3.N) (h8 : t.val < 8) {i : grid3.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond3_0 i}
    {xo4 xo5 : Vec Ideal S1x64x1 .f32} (d : Fin 64) :
    out3_B_4 c i arg2 harg2 arg3 harg3 arg4 harg4 arg5 harg5 arg6 harg6 arg7 harg7 hc0 (iblk3 V c 0 t) (iblk3 V c 1 t) (iblk3 V c 2 t) (iblk3 V c 3 t) xo4 xo5 (ix3 (0 : Fin 1) d (0 : Fin 1))
      = xo4 (ix3 (0 : Fin 1) d (0 : Fin 1)) + sumAt (V c (Pipeline.arrRef spec3 0)) (V c (Pipeline.arrRef spec3 1)) (V c (Pipeline.arrRef spec3 2)) (V c (Pipeline.arrRef spec3 3)) ⟨t.val, h8⟩ d := by
  rw [out_B_4 (F := Ideal) c]
  exact sum_step V c t h8 xo4 d

theorem stepB_5 (c : Dev nD) (t : Fin cfg3.N) (h8 : t.val < 8) {i : grid3.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond3_0 i}
    {xo4 xo5 : Vec Ideal S1x64x1 .f32} (d : Fin 64) :
    out3_B_5 c i arg2 harg2 arg3 harg3 arg4 harg4 arg5 harg5 arg6 harg6 arg7 harg7 hc0 (iblk3 V c 0 t) (iblk3 V c 1 t) (iblk3 V c 2 t) (iblk3 V c 3 t) xo4 xo5 (ix3 (0 : Fin 1) d (0 : Fin 1))
      = xo5 (ix3 (0 : Fin 1) d (0 : Fin 1)) + ssqAt (V c (Pipeline.arrRef spec3 0)) (V c (Pipeline.arrRef spec3 1)) (V c (Pipeline.arrRef spec3 2)) (V c (Pipeline.arrRef spec3 3)) ⟨t.val, h8⟩ d := by
  rw [out_B_5 (F := Ideal) c]
  exact ssq_step V c t h8 xo5 d

/-! ## The invariant: after point n the blocks hold the running accumulators -/

/-- At the first point of a core the accumulator blocks hold the zero literal plus the point's addends. -/
theorem outs_A (c : Dev nD) (t : Fin cfg3.N) (h8 : t.val < 8) (h0 : t.val % 4 = 0) (d : Fin 64) :
    (outsAt3 V c t.val t.isLt).1 (ix3 (0 : Fin 1) d (0 : Fin 1)) = Ideal.ofBits .f32 0x00000000#32 + sumAt (V c (Pipeline.arrRef spec3 0)) (V c (Pipeline.arrRef spec3 1)) (V c (Pipeline.arrRef spec3 2)) (V c (Pipeline.arrRef spec3 3)) ⟨t.val, h8⟩ d
    ∧ (outsAt3 V c t.val t.isLt).2 (ix3 (0 : Fin 1) d (0 : Fin 1)) = Ideal.ofBits .f32 0x00000000#32 + ssqAt (V c (Pipeline.arrRef spec3 0)) (V c (Pipeline.arrRef spec3 1)) (V c (Pipeline.arrRef spec3 2)) (V c (Pipeline.arrRef spec3 3)) ⟨t.val, h8⟩ d := by
  rw [outsAt3_A V c t h0]
  dsimp only
  exact ⟨stepA_4 V c t h8 d, stepA_5 V c t h8 d⟩

/-- At any other point they hold what the point before left plus the point's addends. -/
theorem outs_B (c : Dev nD) (t : Fin cfg3.N) (h8 : t.val < 8) (h0 : ¬t.val % 4 = 0) (d : Fin 64) :
    (outsAt3 V c t.val t.isLt).1 (ix3 (0 : Fin 1) d (0 : Fin 1)) = (outsAt3 V c (t.val - 1) (Nat.lt_of_le_of_lt (Nat.sub_le _ _) t.isLt)).1 (ix3 (0 : Fin 1) d (0 : Fin 1)) + sumAt (V c (Pipeline.arrRef spec3 0)) (V c (Pipeline.arrRef spec3 1)) (V c (Pipeline.arrRef spec3 2)) (V c (Pipeline.arrRef spec3 3)) ⟨t.val, h8⟩ d
    ∧ (outsAt3 V c t.val t.isLt).2 (ix3 (0 : Fin 1) d (0 : Fin 1)) = (outsAt3 V c (t.val - 1) (Nat.lt_of_le_of_lt (Nat.sub_le _ _) t.isLt)).2 (ix3 (0 : Fin 1) d (0 : Fin 1)) + ssqAt (V c (Pipeline.arrRef spec3 0)) (V c (Pipeline.arrRef spec3 1)) (V c (Pipeline.arrRef spec3 2)) (V c (Pipeline.arrRef spec3 3)) ⟨t.val, h8⟩ d := by
  rw [outsAt3_B V c t h0]
  dsimp only
  exact ⟨stepB_4 V c t h8 d, stepB_5 V c t h8 d⟩

set_option maxHeartbeats 1000000 in
/-- After point n the accumulator blocks hold the running accumulators: by induction on the point. -/
theorem outs_eq (c : Dev nD) (n : ℕ) : ∀ (h : n < cfg3.N) (h8 : n < 8) (d : Fin 64),
    (outsAt3 V c n h).1 (ix3 (0 : Fin 1) d (0 : Fin 1)) = run (fun t => sumAt (V c (Pipeline.arrRef spec3 0)) (V c (Pipeline.arrRef spec3 1)) (V c (Pipeline.arrRef spec3 2)) (V c (Pipeline.arrRef spec3 3)) t d) n h8
    ∧ (outsAt3 V c n h).2 (ix3 (0 : Fin 1) d (0 : Fin 1)) = run (fun t => ssqAt (V c (Pipeline.arrRef spec3 0)) (V c (Pipeline.arrRef spec3 1)) (V c (Pipeline.arrRef spec3 2)) (V c (Pipeline.arrRef spec3 3)) t d) n h8 := by
  induction n with
  | zero =>
    intro h h8 d
    exact outs_A V c ⟨0, h⟩ h8 rfl d
  | succ n ih =>
    intro h h8 d
    by_cases h0 : (n + 1) % 4 = 0
    · rw [run_reset _ n h8 h0, run_reset _ n h8 h0]
      exact outs_A V c ⟨n + 1, h⟩ h8 h0 d
    · have ih' := ih (Nat.lt_of_succ_lt h) (Nat.lt_of_succ_lt h8) d
      have hB := outs_B V c ⟨n + 1, h⟩ h8 h0 d
      rw [run_step _ n h8 h0, run_step _ n h8 h0]
      exact ⟨hB.1.trans (congrArg (· + _) ih'.1), hB.2.trans (congrArg (· + _) ih'.2)⟩

/-! ## From blocks to the arrays -/

theorem mem_blk4 (t : Fin cfg3.N) (i : S2x64x1.Idx) :
    i ∈ ((cfg3.win 4).blk t).view.set ↔ ∀ a : Fin 3, win3_4.index t a * S1x64x1.size a ≤ (i a).val ∧ (i a).val < win3_4.index t a * S1x64x1.size a + S1x64x1.size a := by
  show i ∈ ((View.whole main_v59_0).slice (win3_4.rect t)).set ↔ _
  rw [View.set_slice_whole, Rect.mem_set_unit]
  exact Iff.rfl

theorem mem_blk5 (t : Fin cfg3.N) (i : S2x64x1.Idx) :
    i ∈ ((cfg3.win 5).blk t).view.set ↔ ∀ a : Fin 3, win3_5.index t a * S1x64x1.size a ≤ (i a).val ∧ (i a).val < win3_5.index t a * S1x64x1.size a + S1x64x1.size a := by
  show i ∈ ((View.whole main_v59_1).slice (win3_5.rect t)).set ↔ _
  rw [View.set_slice_whole, Rect.mem_set_unit]
  exact Iff.rfl

/-- What the last point of a core writes back is its block of the sum array. -/
theorem flushed4_eq (c : Dev nD) (t : Fin cfg3.N) (hf : (cfg3.win 4).flush t = true) :
    (dat3 V c).flushed 4 t = ((cfg3.win 4).blk t).view.read (Elt Ideal) (G3_4 (V c (Pipeline.arrRef spec3 0)) (V c (Pipeline.arrRef spec3 1)) (V c (Pipeline.arrRef spec3 2)) (V c (Pipeline.arrRef spec3 3))) := by
  have hN : cfg3.N = 8 := N_3
  have h3 : t.val % 4 = 3 := (flush3_4 t).mp hf
  have h8 : t.val < 8 := by have := t.isLt; omega
  obtain ⟨e0, e1, e2⟩ := idx_4 t
  show (cfg3.win 4).cut (grid3.coords t) ((dat3 V c).after 4 t) = _
  rw [after3_4]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg3.win 4).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win3_4.index t (0 : Fin 3) * 1 + 1 * 0 = t.val / 4; rw [e0]; omega
    | ⟨1, _⟩ => show win3_4.index t (1 : Fin 3) * 64 + 1 * d.val = d.val; rw [e1]; omega
    | ⟨2, _⟩ => show win3_4.index t (2 : Fin 3) * 1 + 1 * 0 = 0; rw [e2]
  rw [hemb]
  show (outsAt3 V c t.val t.isLt).1 (ix3 (0 : Fin 1) d (0 : Fin 1)) = chain (fun t' => sumAt (V c (Pipeline.arrRef spec3 0)) (V c (Pipeline.arrRef spec3 1)) (V c (Pipeline.arrRef spec3 2)) (V c (Pipeline.arrRef spec3 3)) t' d) ⟨t.val / 4, _⟩
  rw [(outs_eq V c t.val t.isLt h8 d).1]
  exact run_flush _ t.val h8 h3 _

theorem flushed5_eq (c : Dev nD) (t : Fin cfg3.N) (hf : (cfg3.win 5).flush t = true) :
    (dat3 V c).flushed 5 t = ((cfg3.win 5).blk t).view.read (Elt Ideal) (G3_5 (V c (Pipeline.arrRef spec3 0)) (V c (Pipeline.arrRef spec3 1)) (V c (Pipeline.arrRef spec3 2)) (V c (Pipeline.arrRef spec3 3))) := by
  have hN : cfg3.N = 8 := N_3
  have h3 : t.val % 4 = 3 := (flush3_5 t).mp hf
  have h8 : t.val < 8 := by have := t.isLt; omega
  obtain ⟨e0, e1, e2⟩ := idx_5 t
  show (cfg3.win 5).cut (grid3.coords t) ((dat3 V c).after 5 t) = _
  rw [after3_5]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg3.win 5).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win3_5.index t (0 : Fin 3) * 1 + 1 * 0 = t.val / 4; rw [e0]; omega
    | ⟨1, _⟩ => show win3_5.index t (1 : Fin 3) * 64 + 1 * d.val = d.val; rw [e1]; omega
    | ⟨2, _⟩ => show win3_5.index t (2 : Fin 3) * 1 + 1 * 0 = 0; rw [e2]
  rw [hemb]
  show (outsAt3 V c t.val t.isLt).2 (ix3 (0 : Fin 1) d (0 : Fin 1)) = chain (fun t' => ssqAt (V c (Pipeline.arrRef spec3 0)) (V c (Pipeline.arrRef spec3 1)) (V c (Pipeline.arrRef spec3 2)) (V c (Pipeline.arrRef spec3 3)) t' d) ⟨t.val / 4, _⟩
  rw [(outs_eq V c t.val t.isLt h8 d).2]
  exact run_flush _ t.val h8 h3 _

/-- The sum array after the region: at (core, d, 0) the core's chain of lane sums. -/
theorem arrAt_4 (c : Dev nD) :
    (Gen.dat3 (F := Ideal) V c).arrAt 4 cfg3.N = G3_4 (V c (Pipeline.arrRef spec3 0)) (V c (Pipeline.arrRef spec3 1)) (V c (Pipeline.arrRef spec3 2)) (V c (Pipeline.arrRef spec3 3)) :=
  (dat3 V c).arrAt_eq_of_cover 4 (G3_4 (V c (Pipeline.arrRef spec3 0)) (V c (Pipeline.arrRef spec3 1)) (V c (Pipeline.arrRef spec3 2)) (V c (Pipeline.arrRef spec3 3))) (flushed4_eq V c) fun (i : S2x64x1.Idx) => by
    have hi0 : (i 0).val < 2 := (i 0).isLt
    have hi1 : (i 1).val < 64 := (i 1).isLt
    have hi2 : (i 2).val < 1 := (i 2).isLt
    have hN : cfg3.N = 8 := N_3
    let t : Fin cfg3.N := ⟨(i 0).val * 4 + 3, by omega⟩
    obtain ⟨e0, e1, e2⟩ := idx_4 t
    have tv : t.val = (i 0).val * 4 + 3 := rfl
    refine ⟨t, (flush3_4 t).mpr (by rw [tv]; omega), ?_⟩
    rw [mem_blk4]
    intro a
    match a with
    | ⟨0, _⟩ => show win3_4.index t (0 : Fin 3) * 1 ≤ (i 0).val ∧ (i 0).val < win3_4.index t (0 : Fin 3) * 1 + 1; rw [e0, tv]; omega
    | ⟨1, _⟩ => show win3_4.index t (1 : Fin 3) * 64 ≤ (i 1).val ∧ (i 1).val < win3_4.index t (1 : Fin 3) * 64 + 64; rw [e1]; omega
    | ⟨2, _⟩ => show win3_4.index t (2 : Fin 3) * 1 ≤ (i 2).val ∧ (i 2).val < win3_4.index t (2 : Fin 3) * 1 + 1; rw [e2]; omega

/-- The sum-of-squares array after the region: at (core, d, 0) the core's chain of lane sums of squares. -/
theorem arrAt_5 (c : Dev nD) :
    (Gen.dat3 (F := Ideal) V c).arrAt 5 cfg3.N = G3_5 (V c (Pipeline.arrRef spec3 0)) (V c (Pipeline.arrRef spec3 1)) (V c (Pipeline.arrRef spec3 2)) (V c (Pipeline.arrRef spec3 3)) :=
  (dat3 V c).arrAt_eq_of_cover 5 (G3_5 (V c (Pipeline.arrRef spec3 0)) (V c (Pipeline.arrRef spec3 1)) (V c (Pipeline.arrRef spec3 2)) (V c (Pipeline.arrRef spec3 3))) (flushed5_eq V c) fun (i : S2x64x1.Idx) => by
    have hi0 : (i 0).val < 2 := (i 0).isLt
    have hi1 : (i 1).val < 64 := (i 1).isLt
    have hi2 : (i 2).val < 1 := (i 2).isLt
    have hN : cfg3.N = 8 := N_3
    let t : Fin cfg3.N := ⟨(i 0).val * 4 + 3, by omega⟩
    obtain ⟨e0, e1, e2⟩ := idx_5 t
    have tv : t.val = (i 0).val * 4 + 3 := rfl
    refine ⟨t, (flush3_5 t).mpr (by rw [tv]; omega), ?_⟩
    rw [mem_blk5]
    intro a
    match a with
    | ⟨0, _⟩ => show win3_5.index t (0 : Fin 3) * 1 ≤ (i 0).val ∧ (i 0).val < win3_5.index t (0 : Fin 3) * 1 + 1; rw [e0, tv]; omega
    | ⟨1, _⟩ => show win3_5.index t (1 : Fin 3) * 64 ≤ (i 1).val ∧ (i 1).val < win3_5.index t (1 : Fin 3) * 64 + 64; rw [e1]; omega
    | ⟨2, _⟩ => show win3_5.index t (2 : Fin 3) * 1 ≤ (i 2).val ∧ (i 2).val < win3_5.index t (2 : Fin 3) * 1 + 1; rw [e2]; omega

end Cert.ReferenceIdeal.RAcc3

end
-- ==== Proof.RAcc4Pay.lean ====
/-
  Region 4 of the reference (the fused final pass), its payloads read at an index over the extended reals:
  the activation z2 = lrelu (W2f · lrelu (W1f · x + t1) + t2) of the block at (d, q) — the block the pass writes —,
  yn = Wn · z2 at (r, q), and the two accumulator payloads at (0, r, 0): the carried value plus the lane sum of yn,
  resp. of yn * yn. The zeroing payloads read the zero literal.
-/
import proofs.«126831_g2000503633499865_pallasbulk_555_4_alg».proof.Proof.RAcc1Lib

noncomputable section

open scoped BigOperators

namespace Cert.ReferenceIdeal.RAcc4

open Idealize.ShloMosaic Idealize.ShloMosaic.ValueIdx
open Cert.ReferenceIdeal Cert.ReferenceIdeal.Gen Cert.ReferenceIdeal.RAccL

/-- The activation z2 of the block at (d, q). -/
theorem pay5_apply (W1f : Vec Ideal S128x64 .f32) (x : Vec Ideal S64x16384 .f32) (t1 : Vec Ideal S128x1 .f32)
    (W2f : Vec Ideal S64x128 .f32) (t2 : Vec Ideal S64x1 .f32) (d : Fin 64) (q : Fin 16384) :
    k4_pay5 W1f x t1 W2f t2 (ix2 d q) = z2At W1f t1 W2f t2 (fun k => x (ix2 k q)) d := by
  unfold k4_pay5
  simp only [shapeCast_self]
  refine (layer2_apply W2f _ t2 _ d q).trans ?_
  exact congrArg (fun s => lrelu (s + t2 (ix2 d (0 : Fin 1))))
    (Finset.sum_congr rfl fun c _ => congrArg (W2f (ix2 d c) * ·) (layer1_apply W1f x t1 _ c q))

/-- yn = Wn · z2 of the block at (r, q). -/
theorem pay6_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (r : Fin 128) (q : Fin 16384) :
    k4_pay6 W1f x t1 W2f t2 Wn (ix2 r q)
      = ∑ d : Fin 64, Wn (ix2 r d) * z2At W1f t1 W2f t2 (fun k => x (ix2 k q)) d := by
  unfold k4_pay6
  refine (RAcc0.mm_apply Wn (k4_pay5 W1f x t1 W2f t2) r q).trans ?_
  exact Finset.sum_congr rfl fun d _ => congrArg (Wn (ix2 r d) * ·) (pay5_apply W1f x t1 W2f t2 d q)

/-- The zeroing payloads read the zero literal. -/
theorem pay3_apply (j : S1x128x1.Idx) : k4_pay3 (F := Ideal) j = Ideal.ofBits .f32 0x00000000#32 := rfl
theorem pay4_apply (j : S1x128x1.Idx) : k4_pay4 (F := Ideal) j = Ideal.ofBits .f32 0x00000000#32 := rfl

/-- The sum accumulator: the carried value plus the lane sum of yn. -/
theorem pay178_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (acc : Vec Ideal S1x128x1 .f32)
    (r : Fin 128) :
    k4_pay1 (k4_pay7 acc) (k4_pay8 W1f x t1 W2f t2 Wn) (ix3 (0 : Fin 1) r (0 : Fin 1))
      = acc (ix3 (0 : Fin 1) r (0 : Fin 1))
        + ∑ p : Fin 16384, ∑ d : Fin 64, Wn (ix2 r d) * z2At W1f t1 W2f t2 (fun k => x (ix2 k p)) d := by
  unfold k4_pay1 k4_pay7 k4_pay8
  refine (RAcc0.cast_2_3 _ _ r).trans ?_
  refine congrArg₂ (· + ·) (RAcc0.cast_3_2 acc _ r) ?_
  refine (RAcc0.cast_1_2 _ _ r).trans ?_
  refine (RAcc0.laneSum_apply (k4_pay6 W1f x t1 W2f t2 Wn) _ _ _ r).trans ?_
  exact Finset.sum_congr rfl fun p _ => pay6_apply W1f x t1 W2f t2 Wn r p

/-- The sum-of-squares accumulator: the carried value plus the lane sum of yn * yn. -/
theorem pay26_apply (W1f : Vec Ideal S128x64 .f32) (x : Vec Ideal S64x16384 .f32) (t1 : Vec Ideal S128x1 .f32)
    (W2f : Vec Ideal S64x128 .f32) (t2 : Vec Ideal S64x1 .f32) (Wn : Vec Ideal S128x64 .f32) (acc : Vec Ideal S1x128x1 .f32)
    (r : Fin 128) :
    k4_pay2 (k4_pay6 W1f x t1 W2f t2 Wn) acc (ix3 (0 : Fin 1) r (0 : Fin 1))
      = acc (ix3 (0 : Fin 1) r (0 : Fin 1))
        + ∑ p : Fin 16384, (∑ d : Fin 64, Wn (ix2 r d) * z2At W1f t1 W2f t2 (fun k => x (ix2 k p)) d)
            * (∑ d : Fin 64, Wn (ix2 r d) * z2At W1f t1 W2f t2 (fun k => x (ix2 k p)) d) := by
  unfold k4_pay2
  refine (RAcc0.cast_2_3 _ _ r).trans ?_
  refine congrArg₂ (· + ·) (RAcc0.cast_3_2 acc _ r) ?_
  refine (RAcc0.cast_1_2 _ _ r).trans ?_
  refine (RAcc0.laneSum_apply (mulf (k4_pay6 W1f x t1 W2f t2 Wn) (k4_pay6 W1f x t1 W2f t2 Wn)) _ _ _ r).trans ?_
  refine Finset.sum_congr rfl fun p _ => ?_
  show k4_pay6 W1f x t1 W2f t2 Wn (ix2 r p) * k4_pay6 W1f x t1 W2f t2 Wn (ix2 r p) = _
  rw [pay6_apply W1f x t1 W2f t2 Wn r p]

end Cert.ReferenceIdeal.RAcc4

end
-- ==== Proof.RAcc4Val.lean ====
/-
  Region 4 of the reference (a fused final pass): what its three output arrays end holding, as functions of the
  arrays the region finds. Every point writes its block of the activation z2 = lrelu (W2f · lrelu (W1f · x + t1) + t2),
  so the activation array [64,131072] ends at z2 of the input's columns. The two accumulator arrays [2,128,1] hold,
  per core, the running sums over the core's points of the lane sums of yn = Wn · z2 and of yn * yn: each case of the body
  leaves in an accumulator's block a payload of the point's input blocks over the zero block (reset case) or over what
  the point before left; the last point of a core writes the block back into that core's row.
-/
import proofs.«126831_g2000503633499865_pallasbulk_555_4_alg».proof.Proof.Gen.ReferenceIdeal.Frame
import proofs.«126831_g2000503633499865_pallasbulk_555_4_alg».proof.Proof.RAcc0Val
import proofs.«126831_g2000503633499865_pallasbulk_555_4_alg».proof.Proof.RAcc4Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc4

open Cert.ReferenceIdeal Cert.ReferenceIdeal.Gen Cert.ReferenceIdeal.RAccL
open Cert.ReferenceIdeal.RAcc0 (hz2 hz3 col pt chain run run_reset run_step run_flush)

/-! ## The cases' pieces, as payloads (any float instance) -/

section Pieces
variable {F : FTy → Type} [FloatOps F]

/-- Either case stores the activation of the point's blocks in the activation block. -/
theorem out_B_6 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond4_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out4_B_6 c i arg2 harg2 arg3 harg3 arg4 harg4 arg5 harg5 arg6 harg6 arg7 harg7 arg8 harg8 arg9 harg9 arg10 harg10 hc0 x0 x1 x2 x3 x4 x5 xo7 xo8 = k4_pay5 x1 x0 x2 x3 x4 := by
  unfold out4_B_6
  rw [View.read_writes_eq_canon _ _ _ (cover4_B_6 c i arg2 harg2 arg3 harg3 arg4 harg4 arg5 harg5 arg6 harg6 arg7 harg7 arg8 harg8 arg9 harg9 arg10 harg10 hc0 x0 x1 x2 x3 x4 x5 xo7 xo8)]
  unfold kernelRun4_B
  dsimp only
  rw [View.canon_unit_zero hz2]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

theorem out_A_6 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond4_0 i)
    (x0 : Vec F S64x16384 .f32) (x1 : Vec F S128x64 .f32) (x2 : Vec F S128x1 .f32) (x3 : Vec F S64x128 .f32) (x4 : Vec F S64x1 .f32) (x5 : Vec F S128x64 .f32) :
    out4_A_6 c i arg2 harg2 arg3 harg3 arg4 harg4 arg5 harg5 arg6 harg6 arg7 harg7 arg8 harg8 arg9 harg9 arg10 harg10 hc0 x0 x1 x2 x3 x4 x5 = k4_pay5 x1 x0 x2 x3 x4 := by
  unfold out4_A_6
  rw [View.read_writes_eq_canon _ _ _ (cover4_A_6 c i arg2 harg2 arg3 harg3 arg4 harg4 arg5 harg5 arg6 harg6 arg7 harg7 arg8 harg8 arg9 harg9 arg10 harg10 hc0 x0 x1 x2 x3 x4 x5)]
  unfold kernelRun4_A
  dsimp only
  sl_unfold_words
  rw [View.canon_unit_zero hz2]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

/-- The accumulating case leaves, in the sum block holding `xo7`, the sum payload over it, -/
theorem out_B_7 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond4_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out4_B_7 c i arg2 harg2 arg3 harg3 arg4 harg4 arg5 harg5 arg6 harg6 arg7 harg7 arg8 harg8 arg9 harg9 arg10 harg10 hc0 x0 x1 x2 x3 x4 x5 xo7 xo8 = k4_pay1 (k4_pay7 xo7) (k4_pay8 x1 x0 x2 x3 x4 x5) := by
  unfold out4_B_7
  rw [View.read_writes_eq_canon _ _ _ (cover4_B_7 c i arg2 harg2 arg3 harg3 arg4 harg4 arg5 harg5 arg6 harg6 arg7 harg7 arg8 harg8 arg9 harg9 arg10 harg10 hc0 x0 x1 x2 x3 x4 x5 xo7 xo8)]
  unfold kernelRun4_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

/-- and in the sum-of-squares block holding `xo8`, the sum-of-squares payload over it. -/
theorem out_B_8 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : ¬cond4_0 i)
    (x0 : Vec F S64x16384 .f32) (x1 : Vec F S128x64 .f32) (x2 : Vec F S128x1 .f32) (x3 : Vec F S64x128 .f32) (x4 : Vec F S64x1 .f32) (x5 : Vec F S128x64 .f32) (xo7 : Vec F S1x128x1 .f32) (xo8 : Vec F S1x128x1 .f32) :
    out4_B_8 c i arg2 harg2 arg3 harg3 arg4 harg4 arg5 harg5 arg6 harg6 arg7 harg7 arg8 harg8 arg9 harg9 arg10 harg10 hc0 x0 x1 x2 x3 x4 x5 xo7 xo8 = k4_pay2 (k4_pay6 x1 x0 x2 x3 x4 x5) xo8 := by
  unfold out4_B_8
  rw [View.read_writes_eq_canon _ _ _ (cover4_B_8 c i arg2 harg2 arg3 harg3 arg4 harg4 arg5 harg5 arg6 harg6 arg7 harg7 arg8 harg8 arg9 harg9 arg10 harg10 hc0 x0 x1 x2 x3 x4 x5 xo7 xo8)]
  unfold kernelRun4_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2, harg9.read_unread, harg10.read_unread, View.ld_unit_zero (S := S1x128x1) hz3]

/-- The reset case stores the zero block, reads it back, and leaves the payloads over it. -/
theorem out_A_7 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond4_0 i)
    (x0 : Vec F S64x16384 .f32) (x1 : Vec F S128x64 .f32) (x2 : Vec F S128x1 .f32) (x3 : Vec F S64x128 .f32) (x4 : Vec F S64x1 .f32) (x5 : Vec F S128x64 .f32) :
    out4_A_7 c i arg2 harg2 arg3 harg3 arg4 harg4 arg5 harg5 arg6 harg6 arg7 harg7 arg8 harg8 arg9 harg9 arg10 harg10 hc0 x0 x1 x2 x3 x4 x5 = k4_pay1 (k4_pay7 (k4_pay3 (F := F))) (k4_pay8 x1 x0 x2 x3 x4 x5) := by
  unfold out4_A_7
  rw [View.read_writes_eq_canon _ _ _ (cover4_A_7 c i arg2 harg2 arg3 harg3 arg4 harg4 arg5 harg5 arg6 harg6 arg7 harg7 arg8 harg8 arg9 harg9 arg10 harg10 hc0 x0 x1 x2 x3 x4 x5)]
  unfold kernelRun4_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

theorem out_A_8 (c : Dev nD) (i : grid4.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S128x64 .f32) (harg7 : arg7.IsWhole) (arg8 : Memref sig .tc .vmem S64x16384 .f32) (harg8 : arg8.IsWhole) (arg9 : Memref sig .tc .vmem S1x128x1 .f32) (harg9 : arg9.IsWhole) (arg10 : Memref sig .tc .vmem S1x128x1 .f32) (harg10 : arg10.IsWhole) (hc0 : cond4_0 i)
    (x0 : Vec F S64x16384 .f32) (x1 : Vec F S128x64 .f32) (x2 : Vec F S128x1 .f32) (x3 : Vec F S64x128 .f32) (x4 : Vec F S64x1 .f32) (x5 : Vec F S128x64 .f32) :
    out4_A_8 c i arg2 harg2 arg3 harg3 arg4 harg4 arg5 harg5 arg6 harg6 arg7 harg7 arg8 harg8 arg9 harg9 arg10 harg10 hc0 x0 x1 x2 x3 x4 x5 = k4_pay2 (k4_pay6 x1 x0 x2 x3 x4 x5) (k4_pay4 (F := F)) := by
  unfold out4_A_8
  rw [View.read_writes_eq_canon _ _ _ (cover4_A_8 c i arg2 harg2 arg3 harg3 arg4 harg4 arg5 harg5 arg6 harg6 arg7 harg7 arg8 harg8 arg9 harg9 arg10 harg10 hc0 x0 x1 x2 x3 x4 x5)]
  unfold kernelRun4_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S64x1) hz2]

end Pieces

/-! ## The arrays' values -/

/-- The activation array [64,131072]: at (d, q) the activation z2 of column q. -/
def G4_6 (x : S64x131072.Idx → EReal) (W1f : S128x64.Idx → EReal) (t1 : S128x1.Idx → EReal) (W2f : S64x128.Idx → EReal)
    (t2 : S64x1.Idx → EReal) (Wn : S128x64.Idx → EReal) : S64x131072.Idx → EReal := fun i =>
  z2At W1f t1 W2f t2 (fun k => x (ix2 k (i 1))) (i 0)

/-- What point `t` adds to channel `r` of the sum: the lane sum of yn = Wn · z2 over the point's block. -/
def sumAt (x : S64x131072.Idx → EReal) (W1f : S128x64.Idx → EReal) (t1 : S128x1.Idx → EReal) (W2f : S64x128.Idx → EReal)
    (t2 : S64x1.Idx → EReal) (Wn : S128x64.Idx → EReal) (t : Fin 8) (r : Fin 128) : EReal :=
  ∑ p : Fin 16384, ∑ d : Fin 64, Wn (ix2 r d) * z2At W1f t1 W2f t2 (fun k => x (ix2 k (col t p))) d

/-- What point `t` adds to channel `r` of the sum of squares: the lane sum of yn * yn over the point's block. -/
def ssqAt (x : S64x131072.Idx → EReal) (W1f : S128x64.Idx → EReal) (t1 : S128x1.Idx → EReal) (W2f : S64x128.Idx → EReal)
    (t2 : S64x1.Idx → EReal) (Wn : S128x64.Idx → EReal) (t : Fin 8) (r : Fin 128) : EReal :=
  ∑ p : Fin 16384, (∑ d : Fin 64, Wn (ix2 r d) * z2At W1f t1 W2f t2 (fun k => x (ix2 k (col t p))) d)
    * (∑ d : Fin 64, Wn (ix2 r d) * z2At W1f t1 W2f t2 (fun k => x (ix2 k (col t p))) d)

/-- The sum array [2,128,1]: at (core, r, 0) the core's chain of lane sums of yn. -/
def G4_7 (x : S64x131072.Idx → EReal) (W1f : S128x64.Idx → EReal) (t1 : S128x1.Idx → EReal) (W2f : S64x128.Idx → EReal)
    (t2 : S64x1.Idx → EReal) (Wn : S128x64.Idx → EReal) : S2x128x1.Idx → EReal := fun i => chain (fun t => sumAt x W1f t1 W2f t2 Wn t (i 1)) (i 0)

/-- The sum-of-squares array [2,128,1]: at (core, r, 0) the core's chain of lane sums of yn * yn. -/
def G4_8 (x : S64x131072.Idx → EReal) (W1f : S128x64.Idx → EReal) (t1 : S128x1.Idx → EReal) (W2f : S64x128.Idx → EReal)
    (t2 : S64x1.Idx → EReal) (Wn : S128x64.Idx → EReal) : S2x128x1.Idx → EReal := fun i => chain (fun t => ssqAt x W1f t1 W2f t2 Wn t (i 1)) (i 0)

/-! ## The blocks a point reads -/

theorem idx_0 : ∀ t : Fin cfg4.N, win4_0.index t (0 : Fin 2) = 0 ∧ win4_0.index t (1 : Fin 2) = t.val :=
  (by decide +kernel : ∀ t : Fin grid4.N, win4_0.index t (0 : Fin 2) = 0 ∧ win4_0.index t (1 : Fin 2) = t.val)
theorem idx_1 : ∀ t : Fin cfg4.N, win4_1.index t (0 : Fin 2) = 0 ∧ win4_1.index t (1 : Fin 2) = 0 :=
  (by decide +kernel : ∀ t : Fin grid4.N, win4_1.index t (0 : Fin 2) = 0 ∧ win4_1.index t (1 : Fin 2) = 0)
theorem idx_2 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem idx_3 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem idx_4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem idx_5 : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)
theorem idx_6 : ∀ t : Fin cfg4.N, win4_6.index t (0 : Fin 2) = 0 ∧ win4_6.index t (1 : Fin 2) = t.val :=
  (by decide +kernel : ∀ t : Fin grid4.N, win4_6.index t (0 : Fin 2) = 0 ∧ win4_6.index t (1 : Fin 2) = t.val)
theorem idx_7 : ∀ t : Fin cfg4.N, win4_7.index t (0 : Fin 3) = t.val / 4 ∧ win4_7.index t (1 : Fin 3) = 0 ∧ win4_7.index t (2 : Fin 3) = 0 :=
  (by decide +kernel : ∀ t : Fin grid4.N, win4_7.index t (0 : Fin 3) = t.val / 4 ∧ win4_7.index t (1 : Fin 3) = 0 ∧ win4_7.index t (2 : Fin 3) = 0)
theorem idx_8 : ∀ t : Fin cfg4.N, win4_8.index t (0 : Fin 3) = t.val / 4 ∧ win4_8.index t (1 : Fin 3) = 0 ∧ win4_8.index t (2 : Fin 3) = 0 :=
  (by decide +kernel : ∀ t : Fin grid4.N, win4_8.index t (0 : Fin 3) = t.val / 4 ∧ win4_8.index t (1 : Fin 3) = 0 ∧ win4_8.index t (2 : Fin 3) = 0)

variable (V : (c : Dev nD) → (b : Ref sig .tc) → Buf (Elt Ideal) ((c : Thread nD τ).loc b))

/-- The input activation block of point `t` at (k, p) is the array at (k, t·16384 + p). -/
theorem iblk_x (c : Dev nD) (t : Fin cfg4.N) (h8 : t.val < 8) (k : Fin 64) (p : Fin 16384) :
    (iblk4 V c 0 t : Vec Ideal S64x16384 .f32) (ix2 k p) = (V c (Pipeline.arrRef spec4 0)) (ix2 k (col ⟨t.val, h8⟩ p)) := by
  obtain ⟨e0, e1⟩ := idx_0 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 64 + 1 * k.val = k.val; rw [e0]; omega
  | ⟨1, _⟩ => show win4_0.index t (1 : Fin 2) * 16384 + 1 * p.val = t.val * 16384 + p.val; rw [e1]; omega

/-- The resident blocks of any point are their arrays. -/
theorem iblk_1 (c : Dev nD) (t : Fin cfg4.N) (r : Fin 128) (k : Fin 64) :
    (iblk4 V c 1 t : Vec Ideal S128x64 .f32) (ix2 r k) = (V c (Pipeline.arrRef spec4 1)) (ix2 r k) := by
  obtain ⟨e0, e1⟩ := idx_1 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 128 + 1 * r.val = r.val; rw [e0]; omega
  | ⟨1, _⟩ => show win4_1.index t (1 : Fin 2) * 64 + 1 * k.val = k.val; rw [e1]; omega

theorem iblk_2 (c : Dev nD) (t : Fin cfg4.N) (r : Fin 128) (z : Fin 1) :
    (iblk4 V c 2 t : Vec Ideal S128x1 .f32) (ix2 r z) = (V c (Pipeline.arrRef spec4 2)) (ix2 r z) := by
  obtain ⟨e0, e1⟩ := idx_2 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * r.val = r.val; rw [e0]; omega
  | ⟨1, _⟩ => show win4_2.index t (1 : Fin 2) * 1 + 1 * z.val = z.val; rw [e1]; omega

theorem iblk_3 (c : Dev nD) (t : Fin cfg4.N) (d : Fin 64) (r : Fin 128) :
    (iblk4 V c 3 t : Vec Ideal S64x128 .f32) (ix2 d r) = (V c (Pipeline.arrRef spec4 3)) (ix2 d r) := by
  obtain ⟨e0, e1⟩ := idx_3 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 64 + 1 * d.val = d.val; rw [e0]; omega
  | ⟨1, _⟩ => show win4_3.index t (1 : Fin 2) * 128 + 1 * r.val = r.val; rw [e1]; omega

theorem iblk_4 (c : Dev nD) (t : Fin cfg4.N) (d : Fin 64) (z : Fin 1) :
    (iblk4 V c 4 t : Vec Ideal S64x1 .f32) (ix2 d z) = (V c (Pipeline.arrRef spec4 4)) (ix2 d z) := by
  obtain ⟨e0, e1⟩ := idx_4 t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 64 + 1 * d.val = d.val; rw [e0]; omega
  | ⟨1, _⟩ => show win4_4.index t (1 : Fin 2) * 1 + 1 * z.val = z.val; rw [e1]; omega

theorem iblk_5 (c : Dev nD) (t : Fin cfg4.N) (r : Fin 128) (d : Fin 64) :
    (iblk4 V c 5 t : Vec Ideal S128x64 .f32) (ix2 r d) = (V c (Pipeline.arrRef spec4 5)) (ix2 r d) := by
  obtain ⟨e0, e1⟩ := idx_5 t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 128 + 1 * r.val = r.val; rw [e0]; omega
  | ⟨1, _⟩ => show win4_5.index t (1 : Fin 2) * 64 + 1 * d.val = d.val; rw [e1]; omega

/-! ## A point's payloads over blocks that read the arrays -/

section Of
variable (W1b : Vec Ideal S128x64 .f32) (xb : Vec Ideal S64x16384 .f32) (t1b : Vec Ideal S128x1 .f32) (W2b : Vec Ideal S64x128 .f32)
  (t2b : Vec Ideal S64x1 .f32) (Wnb : Vec Ideal S128x64 .f32)
  (x : S64x131072.Idx → EReal) (W1f : S128x64.Idx → EReal) (t1 : S128x1.Idx → EReal) (W2f : S64x128.Idx → EReal)
  (t2 : S64x1.Idx → EReal) (Wn : S128x64.Idx → EReal) (t : Fin 8)
  (hW1 : ∀ (r : Fin 128) (k : Fin 64), W1b (ix2 r k) = W1f (ix2 r k))
  (hx : ∀ (k : Fin 64) (p : Fin 16384), xb (ix2 k p) = x (ix2 k (col t p)))
  (ht1 : ∀ (r : Fin 128) (z : Fin 1), t1b (ix2 r z) = t1 (ix2 r z))
  (hW2 : ∀ (d : Fin 64) (r : Fin 128), W2b (ix2 d r) = W2f (ix2 d r))
  (ht2 : ∀ (d : Fin 64) (z : Fin 1), t2b (ix2 d z) = t2 (ix2 d z))
  (hWn : ∀ (r : Fin 128) (d : Fin 64), Wnb (ix2 r d) = Wn (ix2 r d))

include hW1 hx ht1 hW2 ht2 in
/-- z2 of a column read through the blocks is z2 of the arrays' column. -/
theorem z2_of (d : Fin 64) (p : Fin 16384) :
    z2At W1b t1b W2b t2b (fun k => xb (ix2 k p)) d = z2At W1f t1 W2f t2 (fun k => x (ix2 k (col t p))) d := by
  unfold z2At y2At z1At
  refine congrArg lrelu (congrArg₂ (· + ·) ?_ (ht2 d 0))
  refine Finset.sum_congr rfl fun r _ => congrArg₂ (· * ·) (hW2 d r) (congrArg lrelu (congrArg₂ (· + ·) ?_ (ht1 r 0)))
  exact Finset.sum_congr rfl fun k _ => congrArg₂ (· * ·) (hW1 r k) (hx k p)

include hW1 hx ht1 hW2 ht2 in
theorem act_of (d : Fin 64) (p : Fin 16384) :
    k4_pay5 W1b xb t1b W2b t2b (ix2 d p) = z2At W1f t1 W2f t2 (fun k => x (ix2 k (col t p))) d :=
  (pay5_apply W1b xb t1b W2b t2b d p).trans (z2_of W1b xb t1b W2b t2b x W1f t1 W2f t2 t hW1 hx ht1 hW2 ht2 d p)

include hW1 hx ht1 hW2 ht2 hWn in
theorem yn_of (r : Fin 128) (p : Fin 16384) :
    (∑ d : Fin 64, Wnb (ix2 r d) * z2At W1b t1b W2b t2b (fun k => xb (ix2 k p)) d)
      = ∑ d : Fin 64, Wn (ix2 r d) * z2At W1f t1 W2f t2 (fun k => x (ix2 k (col t p))) d :=
  Finset.sum_congr rfl fun d _ => congrArg₂ (· * ·) (hWn r d) (z2_of W1b xb t1b W2b t2b x W1f t1 W2f t2 t hW1 hx ht1 hW2 ht2 d p)

include hW1 hx ht1 hW2 ht2 hWn in
theorem sum_of (acc : Vec Ideal S1x128x1 .f32) (r : Fin 128) :
    k4_pay1 (k4_pay7 acc) (k4_pay8 W1b xb t1b W2b t2b Wnb) (ix3 (0 : Fin 1) r (0 : Fin 1))
      = acc (ix3 (0 : Fin 1) r (0 : Fin 1)) + sumAt x W1f t1 W2f t2 Wn t r := by
  refine (pay178_apply W1b xb t1b W2b t2b Wnb acc r).trans (congrArg (acc (ix3 (0 : Fin 1) r (0 : Fin 1)) + ·) ?_)
  exact Finset.sum_congr rfl fun p _ => yn_of W1b xb t1b W2b t2b Wnb x W1f t1 W2f t2 Wn t hW1 hx ht1 hW2 ht2 hWn r p

include hW1 hx ht1 hW2 ht2 hWn in
theorem ssq_of (acc : Vec Ideal S1x128x1 .f32) (r : Fin 128) :
    k4_pay2 (k4_pay6 W1b xb t1b W2b t2b Wnb) acc (ix3 (0 : Fin 1) r (0 : Fin 1))
      = acc (ix3 (0 : Fin 1) r (0 : Fin 1)) + ssqAt x W1f t1 W2f t2 Wn t r := by
  refine (pay26_apply W1b xb t1b W2b t2b Wnb acc r).trans (congrArg (acc (ix3 (0 : Fin 1) r (0 : Fin 1)) + ·) ?_)
  exact Finset.sum_congr rfl fun p _ => congrArg₂ (· * ·)
    (yn_of W1b xb t1b W2b t2b Wnb x W1f t1 W2f t2 Wn t hW1 hx ht1 hW2 ht2 hWn r p)
    (yn_of W1b xb t1b W2b t2b Wnb x W1f t1 W2f t2 Wn t hW1 hx ht1 hW2 ht2 hWn r p)

end Of

theorem act_step (c : Dev nD) (t : Fin cfg4.N) (h8 : t.val < 8) (d : Fin 64) (p : Fin 16384) :
    k4_pay5 (iblk4 V c 1 t) (iblk4 V c 0 t) (iblk4 V c 2 t) (iblk4 V c 3 t) (iblk4 V c 4 t) (ix2 d p)
      = z2At (V c (Pipeline.arrRef spec4 1)) (V c (Pipeline.arrRef spec4 2)) (V c (Pipeline.arrRef spec4 3)) (V c (Pipeline.arrRef spec4 4)) (fun k => (V c (Pipeline.arrRef spec4 0)) (ix2 k (col ⟨t.val, h8⟩ p))) d :=
  act_of (iblk4 V c 1 t) (iblk4 V c 0 t) (iblk4 V c 2 t) (iblk4 V c 3 t) (iblk4 V c 4 t) (V c (Pipeline.arrRef spec4 0)) (V c (Pipeline.arrRef spec4 1)) (V c (Pipeline.arrRef spec4 2)) (V c (Pipeline.arrRef spec4 3)) (V c (Pipeline.arrRef spec4 4)) ⟨t.val, h8⟩
    (iblk_1 V c t) (iblk_x V c t h8) (iblk_2 V c t) (iblk_3 V c t) (iblk_4 V c t) d p

theorem sum_step (c : Dev nD) (t : Fin cfg4.N) (h8 : t.val < 8) (acc : Vec Ideal S1x128x1 .f32) (r : Fin 128) :
    k4_pay1 (k4_pay7 acc) (k4_pay8 (iblk4 V c 1 t) (iblk4 V c 0 t) (iblk4 V c 2 t) (iblk4 V c 3 t) (iblk4 V c 4 t) (iblk4 V c 5 t)) (ix3 (0 : Fin 1) r (0 : Fin 1))
      = acc (ix3 (0 : Fin 1) r (0 : Fin 1)) + sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r :=
  sum_of (iblk4 V c 1 t) (iblk4 V c 0 t) (iblk4 V c 2 t) (iblk4 V c 3 t) (iblk4 V c 4 t) (iblk4 V c 5 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩
    (iblk_1 V c t) (iblk_x V c t h8) (iblk_2 V c t) (iblk_3 V c t) (iblk_4 V c t) (iblk_5 V c t) acc r

theorem ssq_step (c : Dev nD) (t : Fin cfg4.N) (h8 : t.val < 8) (acc : Vec Ideal S1x128x1 .f32) (r : Fin 128) :
    k4_pay2 (k4_pay6 (iblk4 V c 1 t) (iblk4 V c 0 t) (iblk4 V c 2 t) (iblk4 V c 3 t) (iblk4 V c 4 t) (iblk4 V c 5 t)) acc (ix3 (0 : Fin 1) r (0 : Fin 1))
      = acc (ix3 (0 : Fin 1) r (0 : Fin 1)) + ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r :=
  ssq_of (iblk4 V c 1 t) (iblk4 V c 0 t) (iblk4 V c 2 t) (iblk4 V c 3 t) (iblk4 V c 4 t) (iblk4 V c 5 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩
    (iblk_1 V c t) (iblk_x V c t h8) (iblk_2 V c t) (iblk_3 V c t) (iblk_4 V c t) (iblk_5 V c t) acc r

/-! ## One point's step, over ANY staging memrefs and carried blocks -/

theorem act_A (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond4_0 i} (d : Fin 64) (p : Fin 16384) :
    out4_A_6 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) (ix2 d p) = z2At (V c (Pipeline.arrRef spec4 1)) (V c (Pipeline.arrRef spec4 2)) (V c (Pipeline.arrRef spec4 3)) (V c (Pipeline.arrRef spec4 4)) (fun k => (V c (Pipeline.arrRef spec4 0)) (ix2 k (col ⟨t.val, h8⟩ p))) d := by
  rw [out_A_6 (F := Ideal) c]
  exact act_step V c t h8 d p

theorem act_B (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond4_0 i} {xo7 xo8 : Vec Ideal S1x128x1 .f32} (d : Fin 64) (p : Fin 16384) :
    out4_B_6 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) xo7 xo8 (ix2 d p) = z2At (V c (Pipeline.arrRef spec4 1)) (V c (Pipeline.arrRef spec4 2)) (V c (Pipeline.arrRef spec4 3)) (V c (Pipeline.arrRef spec4 4)) (fun k => (V c (Pipeline.arrRef spec4 0)) (ix2 k (col ⟨t.val, h8⟩ p))) d := by
  rw [out_B_6 (F := Ideal) c]
  exact act_step V c t h8 d p

theorem stepA_7 (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond4_0 i} (r : Fin 128) :
    out4_A_7 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) (ix3 (0 : Fin 1) r (0 : Fin 1)) = Ideal.ofBits .f32 0x00000000#32 + sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [out_A_7 (F := Ideal) c]
  exact (sum_step V c t h8 _ r).trans (congrArg (· + _) (pay3_apply _))

theorem stepA_8 (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : cond4_0 i} (r : Fin 128) :
    out4_A_8 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) (ix3 (0 : Fin 1) r (0 : Fin 1)) = Ideal.ofBits .f32 0x00000000#32 + ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [out_A_8 (F := Ideal) c]
  exact (ssq_step V c t h8 _ r).trans (congrArg (· + _) (pay4_apply _))

theorem stepB_7 (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond4_0 i} {xo7 xo8 : Vec Ideal S1x128x1 .f32} (r : Fin 128) :
    out4_B_7 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) xo7 xo8 (ix3 (0 : Fin 1) r (0 : Fin 1)) = xo7 (ix3 (0 : Fin 1) r (0 : Fin 1)) + sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [out_B_7 (F := Ideal) c]
  exact sum_step V c t h8 xo7 r

theorem stepB_8 (c : Dev nD) (t : Fin cfg4.N) (h8 : t.val < 8) {i : grid4.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S64x1 .f32} {harg6 : arg6.IsWhole} {arg7 : Memref sig .tc .vmem S128x64 .f32} {harg7 : arg7.IsWhole} {arg8 : Memref sig .tc .vmem S64x16384 .f32} {harg8 : arg8.IsWhole} {arg9 : Memref sig .tc .vmem S1x128x1 .f32} {harg9 : arg9.IsWhole} {arg10 : Memref sig .tc .vmem S1x128x1 .f32} {harg10 : arg10.IsWhole} {hc0 : ¬cond4_0 i} {xo7 xo8 : Vec Ideal S1x128x1 .f32} (r : Fin 128) :
    out4_B_8 c i arg2 harg2 arg3 harg3 arg4 harg4 arg5 harg5 arg6 harg6 arg7 harg7 arg8 harg8 arg9 harg9 arg10 harg10 hc0 (iblk4 V c 0 t) (iblk4 V c 1 t) (iblk4 V c 2 t) (iblk4 V c 3 t) (iblk4 V c 4 t) (iblk4 V c 5 t) xo7 xo8 (ix3 (0 : Fin 1) r (0 : Fin 1)) = xo8 (ix3 (0 : Fin 1) r (0 : Fin 1)) + ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [out_B_8 (F := Ideal) c]
  exact ssq_step V c t h8 xo8 r

/-! ## What the blocks hold after a point -/

/-- After ANY point the activation block holds the activation of the point's columns. -/
theorem out6_eq (c : Dev nD) (t : Fin cfg4.N) (h8 : t.val < 8) (d : Fin 64) (p : Fin 16384) :
    (outsAt4 V c t.val t.isLt).1 (ix2 d p) = z2At (V c (Pipeline.arrRef spec4 1)) (V c (Pipeline.arrRef spec4 2)) (V c (Pipeline.arrRef spec4 3)) (V c (Pipeline.arrRef spec4 4)) (fun k => (V c (Pipeline.arrRef spec4 0)) (ix2 k (col ⟨t.val, h8⟩ p))) d := by
  by_cases h0 : t.val % 4 = 0
  · rw [outsAt4_A V c t h0]
    dsimp only
    exact act_A V c t h8 d p
  · rw [outsAt4_B V c t h0]
    dsimp only
    exact act_B V c t h8 d p

/-- At the first point of a core the accumulator blocks hold the zero literal plus the point's addends. -/
theorem outs_A (c : Dev nD) (t : Fin cfg4.N) (h8 : t.val < 8) (h0 : t.val % 4 = 0) (r : Fin 128) :
    (outsAt4 V c t.val t.isLt).2.1 (ix3 (0 : Fin 1) r (0 : Fin 1)) = Ideal.ofBits .f32 0x00000000#32 + sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r
    ∧ (outsAt4 V c t.val t.isLt).2.2 (ix3 (0 : Fin 1) r (0 : Fin 1)) = Ideal.ofBits .f32 0x00000000#32 + ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [outsAt4_A V c t h0]
  dsimp only
  exact ⟨stepA_7 V c t h8 r, stepA_8 V c t h8 r⟩

/-- At any other point they hold what the point before left plus the point's addends. -/
theorem outs_B (c : Dev nD) (t : Fin cfg4.N) (h8 : t.val < 8) (h0 : ¬t.val % 4 = 0) (r : Fin 128) :
    (outsAt4 V c t.val t.isLt).2.1 (ix3 (0 : Fin 1) r (0 : Fin 1)) = (outsAt4 V c (t.val - 1) (Nat.lt_of_le_of_lt (Nat.sub_le _ _) t.isLt)).2.1 (ix3 (0 : Fin 1) r (0 : Fin 1)) + sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r
    ∧ (outsAt4 V c t.val t.isLt).2.2 (ix3 (0 : Fin 1) r (0 : Fin 1)) = (outsAt4 V c (t.val - 1) (Nat.lt_of_le_of_lt (Nat.sub_le _ _) t.isLt)).2.2 (ix3 (0 : Fin 1) r (0 : Fin 1)) + ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) ⟨t.val, h8⟩ r := by
  rw [outsAt4_B V c t h0]
  dsimp only
  exact ⟨stepB_7 V c t h8 r, stepB_8 V c t h8 r⟩

set_option maxHeartbeats 1000000 in
/-- After point n the accumulator blocks hold the running accumulators: by induction on the point. -/
theorem outs_eq (c : Dev nD) (n : ℕ) : ∀ (h : n < cfg4.N) (h8 : n < 8) (r : Fin 128),
    (outsAt4 V c n h).2.1 (ix3 (0 : Fin 1) r (0 : Fin 1)) = run (fun t => sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t r) n h8
    ∧ (outsAt4 V c n h).2.2 (ix3 (0 : Fin 1) r (0 : Fin 1)) = run (fun t => ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t r) n h8 := by
  induction n with
  | zero =>
    intro h h8 r
    exact outs_A V c ⟨0, h⟩ h8 rfl r
  | succ n ih =>
    intro h h8 r
    by_cases h0 : (n + 1) % 4 = 0
    · rw [run_reset _ n h8 h0, run_reset _ n h8 h0]
      exact outs_A V c ⟨n + 1, h⟩ h8 h0 r
    · have ih' := ih (Nat.lt_of_succ_lt h) (Nat.lt_of_succ_lt h8) r
      have hB := outs_B V c ⟨n + 1, h⟩ h8 h0 r
      rw [run_step _ n h8 h0, run_step _ n h8 h0]
      exact ⟨hB.1.trans (congrArg (· + _) ih'.1), hB.2.trans (congrArg (· + _) ih'.2)⟩

/-! ## From blocks to the arrays -/

/-- An index of the activation array is in point `t`'s block iff each coordinate is in the block's range. -/
theorem mem_blk6 (t : Fin cfg4.N) (i : S64x131072.Idx) :
    i ∈ ((cfg4.win 6).blk t).view.set ↔ ∀ a : Fin 2, win4_6.index t a * S64x16384.size a ≤ (i a).val ∧ (i a).val < win4_6.index t a * S64x16384.size a + S64x16384.size a := by
  show i ∈ ((View.whole main_v78_0).slice (win4_6.rect t)).set ↔ _
  rw [View.set_slice_whole, Rect.mem_set_unit]
  exact Iff.rfl

theorem mem_blk7 (t : Fin cfg4.N) (i : S2x128x1.Idx) :
    i ∈ ((cfg4.win 7).blk t).view.set ↔ ∀ a : Fin 3, win4_7.index t a * S1x128x1.size a ≤ (i a).val ∧ (i a).val < win4_7.index t a * S1x128x1.size a + S1x128x1.size a := by
  show i ∈ ((View.whole main_v78_1).slice (win4_7.rect t)).set ↔ _
  rw [View.set_slice_whole, Rect.mem_set_unit]
  exact Iff.rfl

theorem mem_blk8 (t : Fin cfg4.N) (i : S2x128x1.Idx) :
    i ∈ ((cfg4.win 8).blk t).view.set ↔ ∀ a : Fin 3, win4_8.index t a * S1x128x1.size a ≤ (i a).val ∧ (i a).val < win4_8.index t a * S1x128x1.size a + S1x128x1.size a := by
  show i ∈ ((View.whole main_v78_2).slice (win4_8.rect t)).set ↔ _
  rw [View.set_slice_whole, Rect.mem_set_unit]
  exact Iff.rfl

/-- What ANY point writes back is its block of the activation array. -/
theorem flushed6_eq (c : Dev nD) (t : Fin cfg4.N) (hf : (cfg4.win 6).flush t = true) :
    (dat4 V c).flushed 6 t = ((cfg4.win 6).blk t).view.read (Elt Ideal) (G4_6 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  have hN : cfg4.N = 8 := N_4
  have h8 : t.val < 8 := by have := t.isLt; omega
  obtain ⟨e0, e1⟩ := idx_6 t
  show (cfg4.win 6).cut (grid4.coords t) ((dat4 V c).after 6 t) = _
  rw [after4_6]
  refine funext fun (y : S64x16384.Idx) => ?_
  obtain ⟨d, p, rfl⟩ : ∃ (d : Fin 64) (p : Fin 16384), y = ix2 d p := ⟨y 0, y 1, eq_ix2 y⟩
  rw [View.read_apply]
  have hemb : ((cfg4.win 6).blk t).view.emb (ix2 d p) = (ix2 d (col ⟨t.val, h8⟩ p) : S64x131072.Idx) := by
    funext a
    apply Fin.ext
    match a with
    | ⟨0, _⟩ => show win4_6.index t (0 : Fin 2) * 64 + 1 * d.val = d.val; rw [e0]; omega
    | ⟨1, _⟩ => show win4_6.index t (1 : Fin 2) * 16384 + 1 * p.val = t.val * 16384 + p.val; rw [e1]; omega
  rw [hemb]
  exact out6_eq V c t h8 d p

set_option maxHeartbeats 1000000 in
/-- What the last point of a core writes back is its block of the sum array. -/
theorem flushed7_eq (c : Dev nD) (t : Fin cfg4.N) (hf : (cfg4.win 7).flush t = true) :
    (dat4 V c).flushed 7 t = ((cfg4.win 7).blk t).view.read (Elt Ideal) (G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  have hN : cfg4.N = 8 := N_4
  have h3 : t.val % 4 = 3 := (flush4_7 t).mp hf
  have h8 : t.val < 8 := by have := t.isLt; omega
  obtain ⟨e0, e1, e2⟩ := idx_7 t
  show (cfg4.win 7).cut (grid4.coords t) ((dat4 V c).after 7 t) = _
  rw [after4_7]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg4.win 7).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win4_7.index t (0 : Fin 3) * 1 + 1 * 0 = t.val / 4; rw [e0]; omega
    | ⟨1, _⟩ => show win4_7.index t (1 : Fin 3) * 128 + 1 * r.val = r.val; rw [e1]; omega
    | ⟨2, _⟩ => show win4_7.index t (2 : Fin 3) * 1 + 1 * 0 = 0; rw [e2]
  rw [hemb]
  show (outsAt4 V c t.val t.isLt).2.1 (ix3 (0 : Fin 1) r (0 : Fin 1)) = chain (fun t' => sumAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t' r) ⟨t.val / 4, _⟩
  rw [(outs_eq V c t.val t.isLt h8 r).1]
  exact run_flush _ t.val h8 h3 _

set_option maxHeartbeats 1000000 in
theorem flushed8_eq (c : Dev nD) (t : Fin cfg4.N) (hf : (cfg4.win 8).flush t = true) :
    (dat4 V c).flushed 8 t = ((cfg4.win 8).blk t).view.read (Elt Ideal) (G4_8 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  have hN : cfg4.N = 8 := N_4
  have h3 : t.val % 4 = 3 := (flush4_8 t).mp hf
  have h8 : t.val < 8 := by have := t.isLt; omega
  obtain ⟨e0, e1, e2⟩ := idx_8 t
  show (cfg4.win 8).cut (grid4.coords t) ((dat4 V c).after 8 t) = _
  rw [after4_8]
  refine funext fun (y : S1x128x1.Idx) => ?_
  obtain ⟨a, r, b, rfl⟩ : ∃ (a : Fin 1) (r : Fin 128) (b : Fin 1), y = ix3 a r b := ⟨y 0, y 1, y 2, eq_ix3 y⟩
  obtain rfl : a = 0 := Subsingleton.elim _ _
  obtain rfl : b = 0 := Subsingleton.elim _ _
  rw [View.read_apply]
  have hemb : ((cfg4.win 8).blk t).view.emb (ix3 (0 : Fin 1) r (0 : Fin 1)) = (ix3 (⟨t.val / 4, by omega⟩ : Fin 2) r (0 : Fin 1) : S2x128x1.Idx) := by
    funext a
    apply Fin.ext
    match a with
    | ⟨0, _⟩ => show win4_8.index t (0 : Fin 3) * 1 + 1 * 0 = t.val / 4; rw [e0]; omega
    | ⟨1, _⟩ => show win4_8.index t (1 : Fin 3) * 128 + 1 * r.val = r.val; rw [e1]; omega
    | ⟨2, _⟩ => show win4_8.index t (2 : Fin 3) * 1 + 1 * 0 = 0; rw [e2]
  rw [hemb]
  show (outsAt4 V c t.val t.isLt).2.2 (ix3 (0 : Fin 1) r (0 : Fin 1)) = chain (fun t' => ssqAt (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) t' r) ⟨t.val / 4, _⟩
  rw [(outs_eq V c t.val t.isLt h8 r).2]
  exact run_flush _ t.val h8 h3 _

/-- The activation array after the region: at (d, q) the activation z2 of the input's column q; the point that
    covers column q is q / 16384. -/
theorem arrAt_6 (c : Dev nD) :
    (Gen.dat4 (F := Ideal) V c).arrAt 6 cfg4.N = G4_6 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 6 (G4_6 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (flushed6_eq V c) fun (i : S64x131072.Idx) => by
    have hi0 : (i 0).val < 64 := (i 0).isLt
    have hi1 : (i 1).val < 131072 := (i 1).isLt
    have hN : cfg4.N = 8 := N_4
    let t : Fin cfg4.N := ⟨(i 1).val / 16384, by omega⟩
    obtain ⟨e0, e1⟩ := idx_6 t
    have tv : t.val = (i 1).val / 16384 := rfl
    refine ⟨t, flush4_6 t, ?_⟩
    rw [mem_blk6]
    intro a
    match a with
    | ⟨0, _⟩ => show win4_6.index t (0 : Fin 2) * 64 ≤ (i 0).val ∧ (i 0).val < win4_6.index t (0 : Fin 2) * 64 + 64; rw [e0]; omega
    | ⟨1, _⟩ => show win4_6.index t (1 : Fin 2) * 16384 ≤ (i 1).val ∧ (i 1).val < win4_6.index t (1 : Fin 2) * 16384 + 16384; rw [e1, tv]; omega

/-- The sum array after the region: at (core, r, 0) the core's chain of lane sums. -/
theorem arrAt_7 (c : Dev nD) :
    (Gen.dat4 (F := Ideal) V c).arrAt 7 cfg4.N = G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 7 (G4_7 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (flushed7_eq V c) fun (i : S2x128x1.Idx) => by
    have hi0 : (i 0).val < 2 := (i 0).isLt
    have hi1 : (i 1).val < 128 := (i 1).isLt
    have hi2 : (i 2).val < 1 := (i 2).isLt
    have hN : cfg4.N = 8 := N_4
    let t : Fin cfg4.N := ⟨(i 0).val * 4 + 3, by omega⟩
    obtain ⟨e0, e1, e2⟩ := idx_7 t
    have tv : t.val = (i 0).val * 4 + 3 := rfl
    refine ⟨t, (flush4_7 t).mpr (by rw [tv]; omega), ?_⟩
    rw [mem_blk7]
    intro a
    match a with
    | ⟨0, _⟩ => show win4_7.index t (0 : Fin 3) * 1 ≤ (i 0).val ∧ (i 0).val < win4_7.index t (0 : Fin 3) * 1 + 1; rw [e0, tv]; omega
    | ⟨1, _⟩ => show win4_7.index t (1 : Fin 3) * 128 ≤ (i 1).val ∧ (i 1).val < win4_7.index t (1 : Fin 3) * 128 + 128; rw [e1]; omega
    | ⟨2, _⟩ => show win4_7.index t (2 : Fin 3) * 1 ≤ (i 2).val ∧ (i 2).val < win4_7.index t (2 : Fin 3) * 1 + 1; rw [e2]; omega

/-- The sum-of-squares array after the region: at (core, r, 0) the core's chain of lane sums of squares. -/
theorem arrAt_8 (c : Dev nD) :
    (Gen.dat4 (F := Ideal) V c).arrAt 8 cfg4.N = G4_8 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 V c).arrAt_eq_of_cover 8 (G4_8 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) (flushed8_eq V c) fun (i : S2x128x1.Idx) => by
    have hi0 : (i 0).val < 2 := (i 0).isLt
    have hi1 : (i 1).val < 128 := (i 1).isLt
    have hi2 : (i 2).val < 1 := (i 2).isLt
    have hN : cfg4.N = 8 := N_4
    let t : Fin cfg4.N := ⟨(i 0).val * 4 + 3, by omega⟩
    obtain ⟨e0, e1, e2⟩ := idx_8 t
    have tv : t.val = (i 0).val * 4 + 3 := rfl
    refine ⟨t, (flush4_8 t).mpr (by rw [tv]; omega), ?_⟩
    rw [mem_blk8]
    intro a
    match a with
    | ⟨0, _⟩ => show win4_8.index t (0 : Fin 3) * 1 ≤ (i 0).val ∧ (i 0).val < win4_8.index t (0 : Fin 3) * 1 + 1; rw [e0, tv]; omega
    | ⟨1, _⟩ => show win4_8.index t (1 : Fin 3) * 128 ≤ (i 1).val ∧ (i 1).val < win4_8.index t (1 : Fin 3) * 128 + 128; rw [e1]; omega
    | ⟨2, _⟩ => show win4_8.index t (2 : Fin 3) * 1 ≤ (i 2).val ∧ (i 2).val < win4_8.index t (2 : Fin 3) * 1 + 1; rw [e2]; omega

end Cert.ReferenceIdeal.RAcc4

end
-- ==== Proof.RAcc4Bridge.lean ====
/-
  A fused final pass of the reference (region 4) in the shared vocabulary, for ANY arrays that read the activation A
  (column n · 4096 + p is pixel (n, p)) and the weights: its activation array at (d, column of pixel (n, p)) is
  A' d (n, p), A' = lrelu (W2f · lrelu (W1f · A + T1) + T2); summed over the two cores, its sum array at a channel is the
  total over all pixels of yn = Wn · A' there, and its sum-of-squares array the total of yn * yn.
-/
import proofs.«126831_g2000503633499865_pallasbulk_555_4_alg».proof.Proof.RAcc4Val
import proofs.«126831_g2000503633499865_pallasbulk_555_4_alg».proof.Proof.RAcc1Bridge
import proofs.«126831_g2000503633499865_pallasbulk_555_4_alg».proof.Proof.NetSpec
import proofs.«126831_g2000503633499865_pallasbulk_555_4_alg».proof.Proof.NetIndex
import proofs.«126831_g2000503633499865_pallasbulk_555_4_alg».proof.Proof.NetArgs
import proofs.«126831_g2000503633499865_pallasbulk_555_4_alg».proof.Proof.NetConsts

noncomputable section

open scoped BigOperators
open Idealize.ShloMosaic Idealize.ShloMosaic.ValueIdx

namespace Cert.ReferenceIdeal.RAcc4

open Cert.ReferenceIdeal Cert.ReferenceIdeal.RAccL
open Cert.ReferenceIdeal.RAcc0 (col pt chain sum_points)

section
variable (x : S64x131072.Idx → EReal) (w1f : S128x64.Idx → EReal) (t1 : S128x1.Idx → EReal) (w2f : S64x128.Idx → EReal)
  (t2 : S64x1.Idx → EReal) (wn : S128x64.Idx → EReal)
  (A : Fin 64 → Net.Px → EReal) (W1f : Fin 128 → Fin 64 → EReal) (T1 : Fin 128 → EReal) (W2f : Fin 64 → Fin 128 → EReal)
  (T2 : Fin 64 → EReal) (Wn : Fin 128 → Fin 64 → EReal)
  (hx : ∀ (k : Fin 64) (n : Fin 32) (p : Fin 4096), x (ix2 k (Net.colOf n p)) = A k (n, p))
  (hw1 : ∀ (ch : Fin 128) (k : Fin 64), w1f (ix2 ch k) = W1f ch k)
  (ht1 : ∀ ch : Fin 128, t1 (ix2 ch 0) = T1 ch)
  (hw2 : ∀ (d : Fin 64) (ch : Fin 128), w2f (ix2 d ch) = W2f d ch)
  (ht2 : ∀ d : Fin 64, t2 (ix2 d 0) = T2 d)
  (hwn : ∀ (ch : Fin 128) (k : Fin 64), wn (ix2 ch k) = Wn ch k)

include hx hw1 ht1 hw2 ht2 in
/-- The activation at a pixel, read off the arrays. -/
theorem z2_net (d : Fin 64) (n : Fin 32) (p : Fin 4096) :
    z2At w1f t1 w2f t2 (fun k => x (ix2 k (Net.colOf n p))) d = (fun (d : Fin 64) (px : Net.Px) => Net.lrelu Net.slopec (Net.conv W2f (fun (ch : Fin 128) (px : Net.Px) => Net.lrelu Net.slopec (Net.conv W1f A ch px + T1 ch)) d px + T2 d)) d (n, p) := by
  unfold z2At
  rw [lrelu_eq]
  exact congrArg (Net.lrelu Net.slopec) (congrArg₂ (· + ·)
    (y2_net x w1f t1 w2f A W1f T1 W2f hx hw1 ht1 hw2 d n p) (ht2 d))

include hx hw1 ht1 hw2 ht2 in
/-- The activation array at the column of a pixel. -/
theorem out_eq (d : Fin 64) (n : Fin 32) (p : Fin 4096) :
    G4_6 x w1f t1 w2f t2 wn (ix2 d (Net.colOf n p)) = (fun (d : Fin 64) (px : Net.Px) => Net.lrelu Net.slopec (Net.conv W2f (fun (ch : Fin 128) (px : Net.Px) => Net.lrelu Net.slopec (Net.conv W1f A ch px + T1 ch)) d px + T2 d)) d (n, p) :=
  z2_net x w1f t1 w2f t2 A W1f T1 W2f T2 hx hw1 ht1 hw2 ht2 d n p

include hx hw1 ht1 hw2 ht2 hwn in
/-- yn at a pixel, read off the arrays. -/
theorem yn_net (ch : Fin 128) (n : Fin 32) (p : Fin 4096) :
    (∑ d : Fin 64, wn (ix2 ch d) * z2At w1f t1 w2f t2 (fun k => x (ix2 k (Net.colOf n p))) d)
      = Net.conv Wn (fun (d : Fin 64) (px : Net.Px) => Net.lrelu Net.slopec (Net.conv W2f (fun (ch : Fin 128) (px : Net.Px) => Net.lrelu Net.slopec (Net.conv W1f A ch px + T1 ch)) d px + T2 d)) ch (n, p) :=
  Finset.sum_congr rfl fun d _ => congrArg₂ (· * ·) (hwn ch d) (z2_net x w1f t1 w2f t2 A W1f T1 W2f T2 hx hw1 ht1 hw2 ht2 d n p)

include hx hw1 ht1 hw2 ht2 hwn in
/-- The sum array, summed over the cores, is the total of yn over all pixels. -/
theorem sum_eq (ch : Fin 128) (u : Fin 1) :
    ∑ core : Fin 2, G4_7 x w1f t1 w2f t2 wn (ix3 core ch u) = Net.tot (Net.conv Wn (fun (d : Fin 64) (px : Net.Px) => Net.lrelu Net.slopec (Net.conv W2f (fun (ch : Fin 128) (px : Net.Px) => Net.lrelu Net.slopec (Net.conv W1f A ch px + T1 ch)) d px + T2 d))) ch := by
  show ∑ core : Fin 2, chain (fun t => ∑ p : Fin 16384, (fun q : Fin 131072 => (∑ d : Fin 64, wn (ix2 ch d) * z2At w1f t1 w2f t2 (fun k => x (ix2 k q)) d)) (col t p)) core = _
  refine (sum_points (fun q : Fin 131072 => (∑ d : Fin 64, wn (ix2 ch d) * z2At w1f t1 w2f t2 (fun k => x (ix2 k q)) d))).trans ?_
  unfold Net.tot
  rw [Fintype.sum_prod_type]
  exact Finset.sum_congr rfl fun n _ => Finset.sum_congr rfl fun p _ => yn_net x w1f t1 w2f t2 wn A W1f T1 W2f T2 Wn hx hw1 ht1 hw2 ht2 hwn ch n p

include hx hw1 ht1 hw2 ht2 hwn in
/-- The sum-of-squares array, summed over the cores, is the total of yn * yn over all pixels. -/
theorem ssq_eq (ch : Fin 128) (u : Fin 1) :
    ∑ core : Fin 2, G4_8 x w1f t1 w2f t2 wn (ix3 core ch u) = Net.tot2 (Net.conv Wn (fun (d : Fin 64) (px : Net.Px) => Net.lrelu Net.slopec (Net.conv W2f (fun (ch : Fin 128) (px : Net.Px) => Net.lrelu Net.slopec (Net.conv W1f A ch px + T1 ch)) d px + T2 d))) ch := by
  show ∑ core : Fin 2, chain (fun t => ∑ p : Fin 16384, (fun q : Fin 131072 => (∑ d : Fin 64, wn (ix2 ch d) * z2At w1f t1 w2f t2 (fun k => x (ix2 k q)) d) * (∑ d : Fin 64, wn (ix2 ch d) * z2At w1f t1 w2f t2 (fun k => x (ix2 k q)) d)) (col t p)) core = _
  refine (sum_points (fun q : Fin 131072 => (∑ d : Fin 64, wn (ix2 ch d) * z2At w1f t1 w2f t2 (fun k => x (ix2 k q)) d) * (∑ d : Fin 64, wn (ix2 ch d) * z2At w1f t1 w2f t2 (fun k => x (ix2 k q)) d))).trans ?_
  unfold Net.tot2
  rw [Fintype.sum_prod_type]
  exact Finset.sum_congr rfl fun n _ => Finset.sum_congr rfl fun p _ => congrArg₂ (· * ·) (yn_net x w1f t1 w2f t2 wn A W1f T1 W2f T2 Wn hx hw1 ht1 hw2 ht2 hwn ch n p) (yn_net x w1f t1 w2f t2 wn A W1f T1 W2f T2 Wn hx hw1 ht1 hw2 ht2 hwn ch n p)

end

end Cert.ReferenceIdeal.RAcc4

end
-- ==== Proof.RFlowC.lean ====
/-
  The idealized reference's run, read as mathematics — third part: the second block. The host operations before it turn the
  statistics the first block's second pass accumulated into the block's first scale and shift; then its two passes and the
  host operations between them, as in the first block.
-/
import proofs.«126831_g2000503633499865_pallasbulk_555_4_alg».proof.Proof.RFlowB
import proofs.«126831_g2000503633499865_pallasbulk_555_4_alg».proof.Proof.RAcc3Val
import proofs.«126831_g2000503633499865_pallasbulk_555_4_alg».proof.Proof.RAcc4Val
import proofs.«126831_g2000503633499865_pallasbulk_555_4_alg».proof.Proof.RAcc4Bridge

set_option maxRecDepth 16384

noncomputable section

namespace Cert.ReferenceIdeal.Flow

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Region 3's two sums in the shared vocabulary, for any arrays -/

section
open Cert.ReferenceIdeal.RAccL
open Cert.ReferenceIdeal.RAcc0 (col pt chain sum_points)

theorem r3_sum_eq (x : S64x131072.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (hx : ∀ (k : Fin 64) (n : Fin 32) (p : Fin 4096), x (ix2 k (Net.colOf n p)) = A k (n, p))
    (hw1 : ∀ (ch : Fin 128) (k : Fin 64), w1f (ix2 ch k) = W1f ch k)
    (ht1 : ∀ ch : Fin 128, t1 (ix2 ch 0) = T1 ch)
    (hw2 : ∀ (d : Fin 64) (ch : Fin 128), w2 (ix2 d ch) = W2 d ch) (d : Fin 64) (u : Fin 1) :
    ∑ core : Fin 2, RAcc3.G3_4 x w1f t1 w2 (ix3 core d u)
      = Net.tot (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d) (col t p)) core = _
  refine (sum_points (fun q : Fin 131072 => y2At w1f t1 w2 (fun k => x (ix2 k q)) d)).trans ?_
  unfold Net.tot
  rw [Fintype.sum_prod_type]
  exact Finset.sum_congr rfl fun n _ => Finset.sum_congr rfl fun p _ => y2_net x w1f t1 w2 A W1f T1 W2 hx hw1 ht1 hw2 d n p

theorem r3_ssq_eq (x : S64x131072.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (hx : ∀ (k : Fin 64) (n : Fin 32) (p : Fin 4096), x (ix2 k (Net.colOf n p)) = A k (n, p))
    (hw1 : ∀ (ch : Fin 128) (k : Fin 64), w1f (ix2 ch k) = W1f ch k)
    (ht1 : ∀ ch : Fin 128, t1 (ix2 ch 0) = T1 ch)
    (hw2 : ∀ (d : Fin 64) (ch : Fin 128), w2 (ix2 d ch) = W2 d ch) (d : Fin 64) (u : Fin 1) :
    ∑ core : Fin 2, RAcc3.G3_5 x w1f t1 w2 (ix3 core d u)
      = Net.tot2 (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d * y2At w1f t1 w2 (fun k => x (ix2 k q)) d) (col t p)) core = _
  refine (sum_points (fun q : Fin 131072 => y2At w1f t1 w2 (fun k => x (ix2 k q)) d * y2At w1f t1 w2 (fun k => x (ix2 k q)) d)).trans ?_
  unfold Net.tot2
  rw [Fintype.sum_prod_type]
  exact Finset.sum_congr rfl fun n _ => Finset.sum_congr rfl fun p _ => congrArg₂ (· * ·)
    (y2_net x w1f t1 w2 A W1f T1 W2 hx hw1 ht1 hw2 d n p) (y2_net x w1f t1 w2 A W1f T1 W2 hx hw1 ht1 hw2 d n p)

end

/-! ## Buffers that reach a later point of the run unchanged -/

theorem w6_arg8 : W6 (F := Ideal) m ρ c (Proc.devRef .tc main_arg8) = m ((c : Thread nD τ).loc main_arg8) :=
  calc W6 (F := Ideal) m ρ c (Proc.devRef .tc main_arg8)
    _ = W5 m ρ c (Proc.devRef .tc main_arg8) := W6_of_ne m ρ c main_arg8 (by decide)
    _ = W4 m ρ c (Proc.devRef .tc main_arg8) := by show StableHlo.after hostOps2 (W4 m ρ c) (Proc.devRef .tc main_arg8) = _; host_keep
    _ = W3 m ρ c (Proc.devRef .tc main_arg8) := W4_of_ne m ρ c main_arg8 (by decide)
    _ = W2 m ρ c (Proc.devRef .tc main_arg8) := by show StableHlo.after hostOps1 (W2 m ρ c) (Proc.devRef .tc main_arg8) = _; host_keep
    _ = W1 m ρ c (Proc.devRef .tc main_arg8) := W2_of_ne m ρ c main_arg8 (by decide)
    _ = W0 m ρ c (Proc.devRef .tc main_arg8) := by show StableHlo.after hostOps0 (W0 m ρ c) (Proc.devRef .tc main_arg8) = _; host_keep
    _ = m ((c : Thread nD τ).loc main_arg8) := rfl

theorem w6_arg9 : W6 (F := Ideal) m ρ c (Proc.devRef .tc main_arg9) = m ((c : Thread nD τ).loc main_arg9) :=
  calc W6 (F := Ideal) m ρ c (Proc.devRef .tc main_arg9)
    _ = W5 m ρ c (Proc.devRef .tc main_arg9) := W6_of_ne m ρ c main_arg9 (by decide)
    _ = W4 m ρ c (Proc.devRef .tc main_arg9) := by show StableHlo.after hostOps2 (W4 m ρ c) (Proc.devRef .tc main_arg9) = _; host_keep
    _ = W3 m ρ c (Proc.devRef .tc main_arg9) := W4_of_ne m ρ c main_arg9 (by decide)
    _ = W2 m ρ c (Proc.devRef .tc main_arg9) := by show StableHlo.after hostOps1 (W2 m ρ c) (Proc.devRef .tc main_arg9) = _; host_keep
    _ = W1 m ρ c (Proc.devRef .tc main_arg9) := W2_of_ne m ρ c main_arg9 (by decide)
    _ = W0 m ρ c (Proc.devRef .tc main_arg9) := by show StableHlo.after hostOps0 (W0 m ρ c) (Proc.devRef .tc main_arg9) = _; host_keep
    _ = m ((c : Thread nD τ).loc main_arg9) := rfl

theorem w6_arg7 : W6 (F := Ideal) m ρ c (Proc.devRef .tc main_arg7) = m ((c : Thread nD τ).loc main_arg7) :=
  calc W6 (F := Ideal) m ρ c (Proc.devRef .tc main_arg7)
    _ = W5 m ρ c (Proc.devRef .tc main_arg7) := (W6_arr m ρ c 5).trans (((dat2 (V5 m ρ) c).arrAt_in 5 rfl _).trans (A_eq2 (V5 m ρ) c 5))
    _ = W4 m ρ c (Proc.devRef .tc main_arg7) := by show StableHlo.after hostOps2 (W4 m ρ c) (Proc.devRef .tc main_arg7) = _; host_keep
    _ = W3 m ρ c (Proc.devRef .tc main_arg7) := W4_of_ne m ρ c main_arg7 (by decide)
    _ = W2 m ρ c (Proc.devRef .tc main_arg7) := by show StableHlo.after hostOps1 (W2 m ρ c) (Proc.devRef .tc main_arg7) = _; host_keep
    _ = W1 m ρ c (Proc.devRef .tc main_arg7) := W2_of_ne m ρ c main_arg7 (by decide)
    _ = W0 m ρ c (Proc.devRef .tc main_arg7) := by show StableHlo.after hostOps0 (W0 m ρ c) (Proc.devRef .tc main_arg7) = _; host_keep
    _ = m ((c : Thread nD τ).loc main_arg7) := rfl

theorem w7_v40_0_w6 : W7 (F := Ideal) m ρ c (Proc.devRef .tc main_v40_0) = W6 m ρ c (Proc.devRef .tc main_v40_0) :=
  calc W7 (F := Ideal) m ρ c (Proc.devRef .tc main_v40_0)
    _ = W6 m ρ c (Proc.devRef .tc main_v40_0) := by show StableHlo.after hostOps3 (W6 m ρ c) (Proc.devRef .tc main_v40_0) = _; host_keep

theorem w7_arg10 : W7 (F := Ideal) m ρ c (Proc.devRef .tc main_arg10) = m ((c : Thread nD τ).loc main_arg10) :=
  calc W7 (F := Ideal) m ρ c (Proc.devRef .tc main_arg10)
    _ = W6 m ρ c (Proc.devRef .tc main_arg10) := by show StableHlo.after hostOps3 (W6 m ρ c) (Proc.devRef .tc main_arg10) = _; host_keep
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; host_keep
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; host_keep
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; host_keep
    _ = m ((c : Thread nD τ).loc main_arg10) := rfl

theorem w8_arg11 : W8 (F := Ideal) m ρ c (Proc.devRef .tc main_arg11) = m ((c : Thread nD τ).loc main_arg11) :=
  calc W8 (F := Ideal) m ρ c (Proc.devRef .tc main_arg11)
    _ = W7 m ρ c (Proc.devRef .tc main_arg11) := W8_of_ne m ρ c main_arg11 (by decide)
    _ = W6 m ρ c (Proc.devRef .tc main_arg11) := by show StableHlo.after hostOps3 (W6 m ρ c) (Proc.devRef .tc main_arg11) = _; host_keep
    _ = W5 m ρ c (Proc.devRef .tc main_arg11) := W6_of_ne m ρ c main_arg11 (by decide)
    _ = W4 m ρ c (Proc.devRef .tc main_arg11) := by show StableHlo.after hostOps2 (W4 m ρ c) (Proc.devRef .tc main_arg11) = _; host_keep
    _ = W3 m ρ c (Proc.devRef .tc main_arg11) := W4_of_ne m ρ c main_arg11 (by decide)
    _ = W2 m ρ c (Proc.devRef .tc main_arg11) := by show StableHlo.after hostOps1 (W2 m ρ c) (Proc.devRef .tc main_arg11) = _; host_keep
    _ = W1 m ρ c (Proc.devRef .tc main_arg11) := W2_of_ne m ρ c main_arg11 (by decide)
    _ = W0 m ρ c (Proc.devRef .tc main_arg11) := by show StableHlo.after hostOps0 (W0 m ρ c) (Proc.devRef .tc main_arg11) = _; host_keep
    _ = m ((c : Thread nD τ).loc main_arg11) := rfl

theorem w8_arg12 : W8 (F := Ideal) m ρ c (Proc.devRef .tc main_arg12) = m ((c : Thread nD τ).loc main_arg12) :=
  calc W8 (F := Ideal) m ρ c (Proc.devRef .tc main_arg12)
    _ = W7 m ρ c (Proc.devRef .tc main_arg12) := W8_of_ne m ρ c main_arg12 (by decide)
    _ = W6 m ρ c (Proc.devRef .tc main_arg12) := by show StableHlo.after hostOps3 (W6 m ρ c) (Proc.devRef .tc main_arg12) = _; host_keep
    _ = W5 m ρ c (Proc.devRef .tc main_arg12) := W6_of_ne m ρ c main_arg12 (by decide)
    _ = W4 m ρ c (Proc.devRef .tc main_arg12) := by show StableHlo.after hostOps2 (W4 m ρ c) (Proc.devRef .tc main_arg12) = _; host_keep
    _ = W3 m ρ c (Proc.devRef .tc main_arg12) := W4_of_ne m ρ c main_arg12 (by decide)
    _ = W2 m ρ c (Proc.devRef .tc main_arg12) := by show StableHlo.after hostOps1 (W2 m ρ c) (Proc.devRef .tc main_arg12) = _; host_keep
    _ = W1 m ρ c (Proc.devRef .tc main_arg12) := W2_of_ne m ρ c main_arg12 (by decide)
    _ = W0 m ρ c (Proc.devRef .tc main_arg12) := by show StableHlo.after hostOps0 (W0 m ρ c) (Proc.devRef .tc main_arg12) = _; host_keep
    _ = m ((c : Thread nD τ).loc main_arg12) := rfl

theorem w8_arg10 : W8 (F := Ideal) m ρ c (Proc.devRef .tc main_arg10) = m ((c : Thread nD τ).loc main_arg10) :=
  calc W8 (F := Ideal) m ρ c (Proc.devRef .tc main_arg10)
    _ = W7 m ρ c (Proc.devRef .tc main_arg10) := (W8_arr m ρ c 3).trans (((dat3 (V7 m ρ) c).arrAt_in 3 rfl _).trans (A_eq3 (V7 m ρ) c 3))
    _ = W6 m ρ c (Proc.devRef .tc main_arg10) := by show StableHlo.after hostOps3 (W6 m ρ c) (Proc.devRef .tc main_arg10) = _; host_keep
    _ = W5 m ρ c (Proc.devRef .tc main_arg10) := W6_of_ne m ρ c main_arg10 (by decide)
    _ = W4 m ρ c (Proc.devRef .tc main_arg10) := by show StableHlo.after hostOps2 (W4 m ρ c) (Proc.devRef .tc main_arg10) = _; host_keep
    _ = W3 m ρ c (Proc.devRef .tc main_arg10) := W4_of_ne m ρ c main_arg10 (by decide)
    _ = W2 m ρ c (Proc.devRef .tc main_arg10) := by show StableHlo.after hostOps1 (W2 m ρ c) (Proc.devRef .tc main_arg10) = _; host_keep
    _ = W1 m ρ c (Proc.devRef .tc main_arg10) := W2_of_ne m ρ c main_arg10 (by decide)
    _ = W0 m ρ c (Proc.devRef .tc main_arg10) := by show StableHlo.after hostOps0 (W0 m ρ c) (Proc.devRef .tc main_arg10) = _; host_keep
    _ = m ((c : Thread nD τ).loc main_arg10) := rfl

theorem w9_v40_0_w6 : W9 (F := Ideal) m ρ c (Proc.devRef .tc main_v40_0) = W6 m ρ c (Proc.devRef .tc main_v40_0) :=
  calc W9 (F := Ideal) m ρ c (Proc.devRef .tc main_v40_0)
    _ = W8 m ρ c (Proc.devRef .tc main_v40_0) := by show StableHlo.after hostOps4 (W8 m ρ c) (Proc.devRef .tc main_v40_0) = _; host_keep
    _ = W7 m ρ c (Proc.devRef .tc main_v40_0) := (W8_arr m ρ c 0).trans (((dat3 (V7 m ρ) c).arrAt_in 0 rfl _).trans (A_eq3 (V7 m ρ) c 0))
    _ = W6 m ρ c (Proc.devRef .tc main_v40_0) := by show StableHlo.after hostOps3 (W6 m ρ c) (Proc.devRef .tc main_v40_0) = _; host_keep

theorem w9_v58_w7 : W9 (F := Ideal) m ρ c (Proc.devRef .tc main_v58) = W7 m ρ c (Proc.devRef .tc main_v58) :=
  calc W9 (F := Ideal) m ρ c (Proc.devRef .tc main_v58)
    _ = W8 m ρ c (Proc.devRef .tc main_v58) := by show StableHlo.after hostOps4 (W8 m ρ c) (Proc.devRef .tc main_v58) = _; host_keep
    _ = W7 m ρ c (Proc.devRef .tc main_v58) := (W8_arr m ρ c 1).trans (((dat3 (V7 m ρ) c).arrAt_in 1 rfl _).trans (A_eq3 (V7 m ρ) c 1))

theorem w9_v56_w7 : W9 (F := Ideal) m ρ c (Proc.devRef .tc main_v56) = W7 m ρ c (Proc.devRef .tc main_v56) :=
  calc W9 (F := Ideal) m ρ c (Proc.devRef .tc main_v56)
    _ = W8 m ρ c (Proc.devRef .tc main_v56) := by show StableHlo.after hostOps4 (W8 m ρ c) (Proc.devRef .tc main_v56) = _; host_keep
    _ = W7 m ρ c (Proc.devRef .tc main_v56) := (W8_arr m ρ c 2).trans (((dat3 (V7 m ρ) c).arrAt_in 2 rfl _).trans (A_eq3 (V7 m ρ) c 2))

theorem w9_arg13 : W9 (F := Ideal) m ρ c (Proc.devRef .tc main_arg13) = m ((c : Thread nD τ).loc main_arg13) :=
  calc W9 (F := Ideal) m ρ c (Proc.devRef .tc main_arg13)
    _ = W8 m ρ c (Proc.devRef .tc main_arg13) := by show StableHlo.after hostOps4 (W8 m ρ c) (Proc.devRef .tc main_arg13) = _; host_keep
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; host_keep
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; host_keep
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; host_keep
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; host_keep
    _ = m ((c : Thread nD τ).loc main_arg13) := rfl

/-! ## The host operations before block 1's first pass: its first normalisation's scale and shift, the scale folded into W1 -/

set_option maxHeartbeats 4000000 in
theorem s1_1_eq : V7 (F := Ideal) m ρ c main_v54
    = HostFold.scaleVec reducesTo_S2x128x1_S128x1_d0 h_S_ bcast_S_S128x1
        (W6 m ρ c (Proc.devRef .tc main_v40_1)) (W6 m ρ c (Proc.devRef .tc main_v40_2)) (W6 m ρ c (Proc.devRef .tc main_arg8)) := by
  show StableHlo.after hostOps3 (W6 m ρ c) (Proc.devRef .tc main_v54) = _
  after_results_simp
  rfl

theorem s1_1_at (ch : Fin 128) :
    V7 (F := Ideal) m ρ c main_v54 (ix2 ch 0) = Net.bnScale Net.Nc Net.epsc (Net.conv (q1 m c).W1 (A1 m c)) (q1 m c).g1 ch := by
  rw [s1_1_eq, HostFold.scaleVec_apply _ _ _ (by decide)]
  have e1 := sumN_0 m ρ c ch 0
  have e2 := ssqN_0 m ρ c ch 0
  unfold arr at e1 e2
  rw [e1, e2, w6_arg8]
  rfl

set_option maxHeartbeats 4000000 in
theorem t1_1_eq : V7 (F := Ideal) m ρ c main_v56
    = HostFold.shiftVec reducesTo_S2x128x1_S128x1_d0 h_S_ bcast_S_S128x1
        (W6 m ρ c (Proc.devRef .tc main_v40_1)) (W6 m ρ c (Proc.devRef .tc main_v40_2)) (W6 m ρ c (Proc.devRef .tc main_arg8))
        (W6 m ρ c (Proc.devRef .tc main_arg9)) := by
  show StableHlo.after hostOps3 (W6 m ρ c) (Proc.devRef .tc main_v56) = _
  after_results_simp
  rfl

theorem t1_1_at (ch : Fin 128) :
    V7 (F := Ideal) m ρ c main_v56 (ix2 ch 0)
      = Net.bnShift Net.Nc Net.epsc (Net.conv (q1 m c).W1 (A1 m c)) (q1 m c).g1 (q1 m c).b1 ch := by
  rw [t1_1_eq, HostFold.shiftVec_apply _ _ _ (by decide)]
  have e1 := sumN_0 m ρ c ch 0
  have e2 := ssqN_0 m ρ c ch 0
  unfold arr at e1 e2
  rw [e1, e2, w6_arg8, w6_arg9]
  rfl

set_option maxHeartbeats 4000000 in
theorem w1f_1_eq : V7 (F := Ideal) m ρ c main_v58
    = HostFold.scaleRows bcast_S128x1_S128x64_0_1 (W6 m ρ c (Proc.devRef .tc main_arg7))
        (HostFold.scaleVec reducesTo_S2x128x1_S128x1_d0 h_S_ bcast_S_S128x1
        (W6 m ρ c (Proc.devRef .tc main_v40_1)) (W6 m ρ c (Proc.devRef .tc main_v40_2)) (W6 m ρ c (Proc.devRef .tc main_arg8))) := by
  show StableHlo.after hostOps3 (W6 m ρ c) (Proc.devRef .tc main_v58) = _
  after_results_simp
  rfl

theorem w1f_1_at (ch : Fin 128) (k : Fin 64) :
    V7 (F := Ideal) m ρ c main_v58 (ix2 ch k)
      = (q1 m c).W1 ch k * Net.bnScale Net.Nc Net.epsc (Net.conv (q1 m c).W1 (A1 m c)) (q1 m c).g1 ch := by
  rw [w1f_1_eq, HostFold.scaleRows_apply, ← s1_1_eq, s1_1_at, w6_arg7]
  rfl

/-! ## Block 1's first pass (region 3): the sums of the second convolution before its normalisation -/

/-- Block 1's second convolution before its normalisation. -/
abbrev Y21 : Fin 64 → Net.Px → EReal :=
  Net.pre2 Net.Nc Net.epsc Net.slopec (q1 m c).W1 (q1 m c).g1 (q1 m c).b1 (q1 m c).W2 (A1 m c)

theorem e3_act_at (k : Fin 64) (n : Fin 32) (p : Fin 4096) :
    V7 (F := Ideal) m ρ c main_v40_0 (ix2 k (Net.colOf n p)) = (A1 m c) k (n, p) := by
  have e : V7 (F := Ideal) m ρ c main_v40_0 = W6 m ρ c (Proc.devRef .tc main_v40_0) := w7_v40_0_w6 m ρ c
  rw [e]; exact act_1_at m ρ c k n p

theorem e3_w2_at (d : Fin 64) (ch : Fin 128) :
    V7 (F := Ideal) m ρ c main_arg10 (ix2 d ch) = (q1 m c).W2 d ch := by
  have e : V7 (F := Ideal) m ρ c main_arg10 = m ((c : Thread nD τ).loc main_arg10) := w7_arg10 m ρ c
  rw [e]; rfl

theorem acc3_sum : W8 (F := Ideal) m ρ c (Proc.devRef .tc main_v59_0)
    = RAcc3.G3_4 (V7 m ρ c main_v40_0) (V7 m ρ c main_v58) (V7 m ρ c main_v56) (V7 m ρ c main_arg10) :=
  (W8_arr m ρ c 4).trans (RAcc3.arrAt_4 (V7 m ρ) c)

theorem acc3_ssq : W8 (F := Ideal) m ρ c (Proc.devRef .tc main_v59_1)
    = RAcc3.G3_5 (V7 m ρ c main_v40_0) (V7 m ρ c main_v58) (V7 m ρ c main_v56) (V7 m ρ c main_arg10) :=
  (W8_arr m ρ c 5).trans (RAcc3.arrAt_5 (V7 m ρ) c)

theorem sum2_1 (d : Fin 64) (u : Fin 1) :
    ∑ core : Fin 2, arr S2x64x1 (W8 (F := Ideal) m ρ c (Proc.devRef .tc main_v59_0)) (ix3 core d u) = Net.tot (Y21 m c) d := by
  unfold arr
  rw [acc3_sum]
  exact r3_sum_eq _ _ _ _ (A1 m c) (fun ch k => (q1 m c).W1 ch k * Net.bnScale Net.Nc Net.epsc (Net.conv (q1 m c).W1 (A1 m c)) (q1 m c).g1 ch) (fun ch => Net.bnShift Net.Nc Net.epsc (Net.conv (q1 m c).W1 (A1 m c)) (q1 m c).g1 (q1 m c).b1 ch) (q1 m c).W2
    (e3_act_at m ρ c) (w1f_1_at m ρ c) (t1_1_at m ρ c) (e3_w2_at m ρ c) d u

theorem ssq2_1 (d : Fin 64) (u : Fin 1) :
    ∑ core : Fin 2, arr S2x64x1 (W8 (F := Ideal) m ρ c (Proc.devRef .tc main_v59_1)) (ix3 core d u) = Net.tot2 (Y21 m c) d := by
  unfold arr
  rw [acc3_ssq]
  exact r3_ssq_eq _ _ _ _ (A1 m c) (fun ch k => (q1 m c).W1 ch k * Net.bnScale Net.Nc Net.epsc (Net.conv (q1 m c).W1 (A1 m c)) (q1 m c).g1 ch) (fun ch => Net.bnShift Net.Nc Net.epsc (Net.conv (q1 m c).W1 (A1 m c)) (q1 m c).g1 (q1 m c).b1 ch) (q1 m c).W2
    (e3_act_at m ρ c) (w1f_1_at m ρ c) (t1_1_at m ρ c) (e3_w2_at m ρ c) d u

/-! ## The host operations after it: the second normalisation's scale and shift, the scale folded into W2 -/

set_option maxHeartbeats 4000000 in
theorem s2_1_eq : V9 (F := Ideal) m ρ c main_v73
    = HostFold.scaleVec reducesTo_S2x64x1_S64x1_d0 h_S_ bcast_S_S64x1
        (W8 m ρ c (Proc.devRef .tc main_v59_0)) (W8 m ρ c (Proc.devRef .tc main_v59_1)) (W8 m ρ c (Proc.devRef .tc main_arg11)) := by
  show StableHlo.after hostOps4 (W8 m ρ c) (Proc.devRef .tc main_v73) = _
  after_results_simp
  rfl

theorem s2_1_at (d : Fin 64) :
    V9 (F := Ideal) m ρ c main_v73 (ix2 d 0) = Net.bnScale Net.Nc Net.epsc (Y21 m c) (q1 m c).g2 d := by
  rw [s2_1_eq, HostFold.scaleVec_apply _ _ _ (by decide)]
  have e1 := sum2_1 m ρ c d 0
  have e2 := ssq2_1 m ρ c d 0
  unfold arr at e1 e2
  rw [e1, e2, w8_arg11]
  rfl

set_option maxHeartbeats 4000000 in
theorem t2_1_eq : V9 (F := Ideal) m ρ c main_v75
    = HostFold.shiftVec reducesTo_S2x64x1_S64x1_d0 h_S_ bcast_S_S64x1
        (W8 m ρ c (Proc.devRef .tc main_v59_0)) (W8 m ρ c (Proc.devRef .tc main_v59_1)) (W8 m ρ c (Proc.devRef .tc main_arg11))
        (W8 m ρ c (Proc.devRef .tc main_arg12)) := by
  show StableHlo.after hostOps4 (W8 m ρ c) (Proc.devRef .tc main_v75) = _
  after_results_simp
  rfl

theorem t2_1_at (d : Fin 64) :
    V9 (F := Ideal) m ρ c main_v75 (ix2 d 0) = Net.bnShift Net.Nc Net.epsc (Y21 m c) (q1 m c).g2 (q1 m c).b2 d := by
  rw [t2_1_eq, HostFold.shiftVec_apply _ _ _ (by decide)]
  have e1 := sum2_1 m ρ c d 0
  have e2 := ssq2_1 m ρ c d 0
  unfold arr at e1 e2
  rw [e1, e2, w8_arg11, w8_arg12]
  rfl

set_option maxHeartbeats 4000000 in
theorem w2f_1_eq : V9 (F := Ideal) m ρ c main_v77
    = HostFold.scaleRows bcast_S64x1_S64x128_0_1 (W8 m ρ c (Proc.devRef .tc main_arg10))
        (HostFold.scaleVec reducesTo_S2x64x1_S64x1_d0 h_S_ bcast_S_S64x1
        (W8 m ρ c (Proc.devRef .tc main_v59_0)) (W8 m ρ c (Proc.devRef .tc main_v59_1)) (W8 m ρ c (Proc.devRef .tc main_arg11))) := by
  show StableHlo.after hostOps4 (W8 m ρ c) (Proc.devRef .tc main_v77) = _
  after_results_simp
  rfl

theorem w2f_1_at (d : Fin 64) (ch : Fin 128) :
    V9 (F := Ideal) m ρ c main_v77 (ix2 d ch) = (q1 m c).W2 d ch * Net.bnScale Net.Nc Net.epsc (Y21 m c) (q1 m c).g2 d := by
  rw [w2f_1_eq, HostFold.scaleRows_apply, ← s2_1_eq, s2_1_at, w8_arg10]
  rfl

/-! ## Block 1's second pass (region 4) -/

theorem e4_act_at (k : Fin 64) (n : Fin 32) (p : Fin 4096) :
    V9 (F := Ideal) m ρ c main_v40_0 (ix2 k (Net.colOf n p)) = (A1 m c) k (n, p) := by
  have e : V9 (F := Ideal) m ρ c main_v40_0 = W6 m ρ c (Proc.devRef .tc main_v40_0) := w9_v40_0_w6 m ρ c
  rw [e]; exact act_1_at m ρ c k n p

theorem e4_w1f_at (ch : Fin 128) (k : Fin 64) :
    V9 (F := Ideal) m ρ c main_v58 (ix2 ch k)
      = (q1 m c).W1 ch k * Net.bnScale Net.Nc Net.epsc (Net.conv (q1 m c).W1 (A1 m c)) (q1 m c).g1 ch := by
  have e : V9 (F := Ideal) m ρ c main_v58 = V7 m ρ c main_v58 := w9_v58_w7 m ρ c
  rw [e]; exact w1f_1_at m ρ c ch k

theorem e4_t1_at (ch : Fin 128) :
    V9 (F := Ideal) m ρ c main_v56 (ix2 ch 0)
      = Net.bnShift Net.Nc Net.epsc (Net.conv (q1 m c).W1 (A1 m c)) (q1 m c).g1 (q1 m c).b1 ch := by
  have e : V9 (F := Ideal) m ρ c main_v56 = V7 m ρ c main_v56 := w9_v56_w7 m ρ c
  rw [e]; exact t1_1_at m ρ c ch

theorem e4_wn_at (ch : Fin 128) (k : Fin 64) :
    V9 (F := Ideal) m ρ c main_arg13 (ix2 ch k) = (q2 m c).W1 ch k := by
  have e : V9 (F := Ideal) m ρ c main_arg13 = m ((c : Thread nD τ).loc main_arg13) := w9_arg13 m ρ c
  rw [e]; rfl

theorem out4_eq : W10 (F := Ideal) m ρ c (Proc.devRef .tc main_v78_0)
    = RAcc4.G4_6 (V9 m ρ c main_v40_0) (V9 m ρ c main_v58) (V9 m ρ c main_v56) (V9 m ρ c main_v77)
        (V9 m ρ c main_v75) (V9 m ρ c main_arg13) :=
  (W10_arr m ρ c 6).trans (RAcc4.arrAt_6 (V9 m ρ) c)

theorem acc4_sum : W10 (F := Ideal) m ρ c (Proc.devRef .tc main_v78_1)
    = RAcc4.G4_7 (V9 m ρ c main_v40_0) (V9 m ρ c main_v58) (V9 m ρ c main_v56) (V9 m ρ c main_v77)
        (V9 m ρ c main_v75) (V9 m ρ c main_arg13) :=
  (W10_arr m ρ c 7).trans (RAcc4.arrAt_7 (V9 m ρ) c)

theorem acc4_ssq : W10 (F := Ideal) m ρ c (Proc.devRef .tc main_v78_2)
    = RAcc4.G4_8 (V9 m ρ c main_v40_0) (V9 m ρ c main_v58) (V9 m ρ c main_v56) (V9 m ρ c main_v77)
        (V9 m ρ c main_v75) (V9 m ρ c main_arg13) :=
  (W10_arr m ρ c 8).trans (RAcc4.arrAt_8 (V9 m ρ) c)

/-- The block's output, in the column layout. -/
theorem act_2_at (d : Fin 64) (n : Fin 32) (p : Fin 4096) :
    W10 (F := Ideal) m ρ c (Proc.devRef .tc main_v78_0) (ix2 d (Net.colOf n p)) = (A2 m c) d (n, p) := by
  rw [out4_eq]
  exact RAcc4.out_eq _ _ _ _ _ _ (A1 m c) (fun ch k => (q1 m c).W1 ch k * Net.bnScale Net.Nc Net.epsc (Net.conv (q1 m c).W1 (A1 m c)) (q1 m c).g1 ch) (fun ch => Net.bnShift Net.Nc Net.epsc (Net.conv (q1 m c).W1 (A1 m c)) (q1 m c).g1 (q1 m c).b1 ch) (fun d ch => (q1 m c).W2 d ch * Net.bnScale Net.Nc Net.epsc (Y21 m c) (q1 m c).g2 d) (fun d => Net.bnShift Net.Nc Net.epsc (Y21 m c) (q1 m c).g2 (q1 m c).b2 d)
    (e4_act_at m ρ c) (e4_w1f_at m ρ c) (e4_t1_at m ρ c) (w2f_1_at m ρ c) (t2_1_at m ρ c) d n p

/-- The next block's first statistics. -/
theorem sumN_1 (ch : Fin 128) (u : Fin 1) :
    ∑ core : Fin 2, arr S2x128x1 (W10 (F := Ideal) m ρ c (Proc.devRef .tc main_v78_1)) (ix3 core ch u)
      = Net.tot (Net.conv (q2 m c).W1 (A2 m c)) ch := by
  unfold arr
  rw [acc4_sum]
  exact RAcc4.sum_eq _ _ _ _ _ _ (A1 m c) (fun ch k => (q1 m c).W1 ch k * Net.bnScale Net.Nc Net.epsc (Net.conv (q1 m c).W1 (A1 m c)) (q1 m c).g1 ch) (fun ch => Net.bnShift Net.Nc Net.epsc (Net.conv (q1 m c).W1 (A1 m c)) (q1 m c).g1 (q1 m c).b1 ch) (fun d ch => (q1 m c).W2 d ch * Net.bnScale Net.Nc Net.epsc (Y21 m c) (q1 m c).g2 d) (fun d => Net.bnShift Net.Nc Net.epsc (Y21 m c) (q1 m c).g2 (q1 m c).b2 d) (q2 m c).W1
    (e4_act_at m ρ c) (e4_w1f_at m ρ c) (e4_t1_at m ρ c) (w2f_1_at m ρ c) (t2_1_at m ρ c) (e4_wn_at m ρ c) ch u

theorem ssqN_1 (ch : Fin 128) (u : Fin 1) :
    ∑ core : Fin 2, arr S2x128x1 (W10 (F := Ideal) m ρ c (Proc.devRef .tc main_v78_2)) (ix3 core ch u)
      = Net.tot2 (Net.conv (q2 m c).W1 (A2 m c)) ch := by
  unfold arr
  rw [acc4_ssq]
  exact RAcc4.ssq_eq _ _ _ _ _ _ (A1 m c) (fun ch k => (q1 m c).W1 ch k * Net.bnScale Net.Nc Net.epsc (Net.conv (q1 m c).W1 (A1 m c)) (q1 m c).g1 ch) (fun ch => Net.bnShift Net.Nc Net.epsc (Net.conv (q1 m c).W1 (A1 m c)) (q1 m c).g1 (q1 m c).b1 ch) (fun d ch => (q1 m c).W2 d ch * Net.bnScale Net.Nc Net.epsc (Y21 m c) (q1 m c).g2 d) (fun d => Net.bnShift Net.Nc Net.epsc (Y21 m c) (q1 m c).g2 (q1 m c).b2 d) (q2 m c).W1
    (e4_act_at m ρ c) (e4_w1f_at m ρ c) (e4_t1_at m ρ c) (w2f_1_at m ρ c) (t2_1_at m ρ c) (e4_wn_at m ρ c) ch u

end Cert.ReferenceIdeal.Flow

end
-- ==== Proof.RAcc5Pay.lean ====
/-
  Region 5 of the reference (the second statistics pass), its payloads read at an index over the extended reals:
  y2 = W2 · lrelu (W1f · x + t1) of the block at (d, q), and the two accumulator payloads at (0, d, 0): the carried
  value plus the lane sum of y2, resp. of y2 * y2. The zeroing payloads read the zero literal.
-/
import proofs.«126831_g2000503633499865_pallasbulk_555_4_alg».proof.Proof.RAcc1Lib

noncomputable section

open scoped BigOperators

namespace Cert.ReferenceIdeal.RAcc5

open Idealize.ShloMosaic Idealize.ShloMosaic.ValueIdx
open Cert.ReferenceIdeal Cert.ReferenceIdeal.Gen Cert.ReferenceIdeal.RAccL

/-- y2 of the block at (d, q). -/
theorem pay4_apply (W1f : Vec Ideal S128x64 .f32) (x : Vec Ideal S64x16384 .f32) (t1 : Vec Ideal S128x1 .f32)
    (W2 : Vec Ideal S64x128 .f32) (d : Fin 64) (q : Fin 16384) :
    k5_pay4 W1f x t1 W2 (ix2 d q) = y2At W1f t1 W2 (fun k => x (ix2 k q)) d := by
  unfold k5_pay4
  simp only [shapeCast_self]
  refine (mm2_apply W2 _ d q).trans ?_
  exact Finset.sum_congr rfl fun c _ => congrArg (W2 (ix2 d c) * ·) (layer1_apply W1f x t1 _ c q)

/-- The zeroing payloads read the zero literal. -/
theorem pay2_apply (j : S1x64x1.Idx) : k5_pay2 (F := Ideal) j = Ideal.ofBits .f32 0x00000000#32 := rfl
theorem pay3_apply (j : S1x64x1.Idx) : k5_pay3 (F := Ideal) j = Ideal.ofBits .f32 0x00000000#32 := rfl

/-- The sum accumulator: the carried value plus the lane sum of y2. -/
theorem pay5_apply (W1f : Vec Ideal S128x64 .f32) (x : Vec Ideal S64x16384 .f32) (t1 : Vec Ideal S128x1 .f32)
    (W2 : Vec Ideal S64x128 .f32) (acc : Vec Ideal S1x64x1 .f32) (d : Fin 64) :
    k5_pay5 W1f x t1 W2 acc (ix3 (0 : Fin 1) d (0 : Fin 1))
      = acc (ix3 (0 : Fin 1) d (0 : Fin 1)) + ∑ p : Fin 16384, y2At W1f t1 W2 (fun k => x (ix2 k p)) d := by
  unfold k5_pay5
  refine (cast64_2_3 _ _ d).trans ?_
  refine congrArg₂ (· + ·) (cast64_3_2 acc _ d) ?_
  refine (cast64_1_2 _ _ d).trans ?_
  refine (laneSum64_apply (k5_pay4 W1f x t1 W2) _ _ _ d).trans ?_
  exact Finset.sum_congr rfl fun p _ => pay4_apply W1f x t1 W2 d p

/-- The sum-of-squares accumulator: the carried value plus the lane sum of y2 * y2. -/
theorem pay16_apply (W1f : Vec Ideal S128x64 .f32) (x : Vec Ideal S64x16384 .f32) (t1 : Vec Ideal S128x1 .f32)
    (W2 : Vec Ideal S64x128 .f32) (acc : Vec Ideal S1x64x1 .f32) (d : Fin 64) :
    k5_pay1 (k5_pay6 W1f x t1 W2 acc) (ix3 (0 : Fin 1) d (0 : Fin 1))
      = acc (ix3 (0 : Fin 1) d (0 : Fin 1))
        + ∑ p : Fin 16384, y2At W1f t1 W2 (fun k => x (ix2 k p)) d * y2At W1f t1 W2 (fun k => x (ix2 k p)) d := by
  unfold k5_pay1 k5_pay6
  refine (cast64_2_3 _ _ d).trans ?_
  refine congrArg₂ (· + ·) (cast64_3_2 acc _ d) ?_
  refine (cast64_1_2 _ _ d).trans ?_
  refine (laneSum64_apply (mulf (k5_pay4 W1f x t1 W2) (k5_pay4 W1f x t1 W2)) _ _ _ d).trans ?_
  refine Finset.sum_congr rfl fun p _ => ?_
  show k5_pay4 W1f x t1 W2 (ix2 d p) * k5_pay4 W1f x t1 W2 (ix2 d p) = _
  rw [pay4_apply W1f x t1 W2 d p]

end Cert.ReferenceIdeal.RAcc5

end
-- ==== Proof.RAcc5Val.lean ====
/-
  Region 5 of the reference (a second statistics pass): what its two accumulator arrays [2,64,1] end holding, as
  functions of the arrays the region finds. Each case of the body leaves, in an accumulator's block, a payload of the
  point's input blocks (reset case: over the zero block; accumulating case: over what the point before left); so after
  point t the block holds the running sum over the points of t's core up to t; the last point of a core writes the block
  back into that core's row of the array.
-/
import proofs.«126831_g2000503633499865_pallasbulk_555_4_alg».proof.Proof.Gen.ReferenceIdeal.Frame
import proofs.«126831_g2000503633499865_pallasbulk_555_4_alg».proof.Proof.RAcc0Val
import proofs.«126831_g2000503633499865_pallasbulk_555_4_alg».proof.Proof.RAcc5Pay
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.ReferenceIdeal.RAcc5

open Cert.ReferenceIdeal Cert.ReferenceIdeal.Gen Cert.ReferenceIdeal.RAccL
open Cert.ReferenceIdeal.RAcc0 (hz2 hz3 col pt chain run run_reset run_step run_flush)

/-! ## The cases' pieces, as payloads (any float instance) -/

section Pieces
variable {F : FTy → Type} [FloatOps F]

/-- The accumulating case leaves, in the sum block holding `xo4`, the sum payload over it. -/
theorem out_B_4 (c : Dev nD) (i : grid5.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond5_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out5_B_4 c i arg2 harg2 arg3 harg3 arg4 harg4 arg5 harg5 arg6 harg6 arg7 harg7 hc0 x0 x1 x2 x3 xo4 xo5 = k5_pay5 x1 x0 x2 x3 xo4 := by
  unfold out5_B_4
  rw [View.read_writes_eq_canon _ _ _ (cover5_B_4 c i arg2 harg2 arg3 harg3 arg4 harg4 arg5 harg5 arg6 harg6 arg7 harg7 hc0 x0 x1 x2 x3 xo4 xo5)]
  unfold kernelRun5_B
  dsimp only
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- and in the sum-of-squares block holding `xo5`, the sum-of-squares payload over it. -/
theorem out_B_5 (c : Dev nD) (i : grid5.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : ¬cond5_0 i)
    (x0 : Vec F S64x16384 .f32) (x1 : Vec F S128x64 .f32) (x2 : Vec F S128x1 .f32) (x3 : Vec F S64x128 .f32) (xo4 : Vec F S1x64x1 .f32) (xo5 : Vec F S1x64x1 .f32) :
    out5_B_5 c i arg2 harg2 arg3 harg3 arg4 harg4 arg5 harg5 arg6 harg6 arg7 harg7 hc0 x0 x1 x2 x3 xo4 xo5 = k5_pay1 (k5_pay6 x1 x0 x2 x3 xo5) := by
  unfold out5_B_5
  rw [View.read_writes_eq_canon _ _ _ (cover5_B_5 c i arg2 harg2 arg3 harg3 arg4 harg4 arg5 harg5 arg6 harg6 arg7 harg7 hc0 x0 x1 x2 x3 xo4 xo5)]
  unfold kernelRun5_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S64x16384) hz2, View.ld_unit_zero (S := S128x64) hz2, View.ld_unit_zero (S := S128x1) hz2, View.ld_unit_zero (S := S64x128) hz2,
    View.ld_unit_zero (S := S1x64x1) hz3]

/-- The reset case stores the zero block, reads it back, and leaves the sum payload over it. -/
theorem out_A_4 (c : Dev nD) (i : grid5.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond5_0 i)
    (x0 : Vec F S64x16384 .f32) (x1 : Vec F S128x64 .f32) (x2 : Vec F S128x1 .f32) (x3 : Vec F S64x128 .f32) :
    out5_A_4 c i arg2 harg2 arg3 harg3 arg4 harg4 arg5 harg5 arg6 harg6 arg7 harg7 hc0 x0 x1 x2 x3 = k5_pay5 x1 x0 x2 x3 (k5_pay2 (F := F)) := by
  unfold out5_A_4
  rw [View.read_writes_eq_canon _ _ _ (cover5_A_4 c i arg2 harg2 arg3 harg3 arg4 harg4 arg5 harg5 arg6 harg6 arg7 harg7 hc0 x0 x1 x2 x3)]
  unfold kernelRun5_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

theorem out_A_5 (c : Dev nD) (i : grid5.Coords) (arg2 : Memref sig .tc .vmem S64x16384 .f32) (harg2 : arg2.IsWhole) (arg3 : Memref sig .tc .vmem S128x64 .f32) (harg3 : arg3.IsWhole) (arg4 : Memref sig .tc .vmem S128x1 .f32) (harg4 : arg4.IsWhole) (arg5 : Memref sig .tc .vmem S64x128 .f32) (harg5 : arg5.IsWhole) (arg6 : Memref sig .tc .vmem S1x64x1 .f32) (harg6 : arg6.IsWhole) (arg7 : Memref sig .tc .vmem S1x64x1 .f32) (harg7 : arg7.IsWhole) (hc0 : cond5_0 i)
    (x0 : Vec F S64x16384 .f32) (x1 : Vec F S128x64 .f32) (x2 : Vec F S128x1 .f32) (x3 : Vec F S64x128 .f32) :
    out5_A_5 c i arg2 harg2 arg3 harg3 arg4 harg4 arg5 harg5 arg6 harg6 arg7 harg7 hc0 x0 x1 x2 x3 = k5_pay1 (k5_pay6 x1 x0 x2 x3 (k5_pay3 (F := F))) := by
  unfold out5_A_5
  rw [View.read_writes_eq_canon _ _ _ (cover5_A_5 c i arg2 harg2 arg3 harg3 arg4 harg4 arg5 harg5 arg6 harg6 arg7 harg7 hc0 x0 x1 x2 x3)]
  unfold kernelRun5_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread,
    View.ld_unit_zero (S := S64x16384) hz2, View.ld_unit_zero (S := S128x64) hz2, View.ld_unit_zero (S := S128x1) hz2, View.ld_unit_zero (S := S64x128) hz2]

end Pieces

/-! ## The sums a point adds -/

/-- What point `t` adds to channel `d` of the sum: the lane sum of y2 over the point's block. -/
def sumAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d

/-- What point `t` adds to channel `d` of the sum of squares: the lane sum of y2 * y2 over the point's block. -/
def ssqAt (x : S64x131072.Idx → EReal) (W1f : S128x64.Idx → EReal) (t1 : S128x1.Idx → EReal) (W2 : S64x128.Idx → EReal)
    (t : Fin 8) (d : Fin 64) : EReal :=
  ∑ p : Fin 16384, y2At W1f t1 W2 (fun k => x (ix2 k (col t p))) d * y2At W1f t1 W2 (fun k => x (ix2 k (col t p))) d

/-- The sum array [2,64,1]: at (core, d, 0) the core's chain of lane sums of y2. -/
def G5_4 (x : S64x131072.Idx → EReal) (W1f : S128x64.Idx → EReal) (t1 : S128x1.Idx → EReal) (W2 : S64x128.Idx → EReal) :
    S2x64x1.Idx → EReal := fun i => chain (fun t => sumAt x W1f t1 W2 t (i 1)) (i 0)

/-- The sum-of-squares array [2,64,1]: at (core, d, 0) the core's chain of lane sums of y2 * y2. -/
def G5_5 (x : S64x131072.Idx → EReal) (W1f : S128x64.Idx → EReal) (t1 : S128x1.Idx → EReal) (W2 : S64x128.Idx → EReal) :
    S2x64x1.Idx → EReal := fun i => chain (fun t => ssqAt x W1f t1 W2 t (i 1)) (i 0)

/-! ## The blocks a point reads -/

theorem idx_0 : ∀ t : Fin cfg5.N, win5_0.index t (0 : Fin 2) = 0 ∧ win5_0.index t (1 : Fin 2) = t.val :=
  (by decide +kernel : ∀ t : Fin grid5.N, win5_0.index t (0 : Fin 2) = 0 ∧ win5_0.index t (1 : Fin 2) = t.val)
theorem idx_1 : ∀ t : Fin cfg5.N, win5_1.index t (0 : Fin 2) = 0 ∧ win5_1.index t (1 : Fin 2) = 0 :=
  (by decide +kernel : ∀ t : Fin grid5.N, win5_1.index t (0 : Fin 2) = 0 ∧ win5_1.index t (1 : Fin 2) = 0)
theorem idx_2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)
theorem idx_3 : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)
theorem idx_4 : ∀ t : Fin cfg5.N, win5_4.index t (0 : Fin 3) = t.val / 4 ∧ win5_4.index t (1 : Fin 3) = 0 ∧ win5_4.index t (2 : Fin 3) = 0 :=
  (by decide +kernel : ∀ t : Fin grid5.N, win5_4.index t (0 : Fin 3) = t.val / 4 ∧ win5_4.index t (1 : Fin 3) = 0 ∧ win5_4.index t (2 : Fin 3) = 0)
theorem idx_5 : ∀ t : Fin cfg5.N, win5_5.index t (0 : Fin 3) = t.val / 4 ∧ win5_5.index t (1 : Fin 3) = 0 ∧ win5_5.index t (2 : Fin 3) = 0 :=
  (by decide +kernel : ∀ t : Fin grid5.N, win5_5.index t (0 : Fin 3) = t.val / 4 ∧ win5_5.index t (1 : Fin 3) = 0 ∧ win5_5.index t (2 : Fin 3) = 0)

variable (V : (c : Dev nD) → (b : Ref sig .tc) → Buf (Elt Ideal) ((c : Thread nD τ).loc b))

/-- The activation block of point `t` at (k, p) is the array at (k, t·16384 + p). -/
theorem iblk_x (c : Dev nD) (t : Fin cfg5.N) (h8 : t.val < 8) (k : Fin 64) (p : Fin 16384) :
    (iblk5 V c 0 t : Vec Ideal S64x16384 .f32) (ix2 k p) = (V c (Pipeline.arrRef spec5 0)) (ix2 k (col ⟨t.val, h8⟩ p)) := by
  obtain ⟨e0, e1⟩ := idx_0 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 64 + 1 * k.val = k.val; rw [e0]; omega
  | ⟨1, _⟩ => show win5_0.index t (1 : Fin 2) * 16384 + 1 * p.val = t.val * 16384 + p.val; rw [e1]; omega

/-- The resident blocks of any point are their arrays. -/
theorem iblk_1 (c : Dev nD) (t : Fin cfg5.N) (r : Fin 128) (k : Fin 64) :
    (iblk5 V c 1 t : Vec Ideal S128x64 .f32) (ix2 r k) = (V c (Pipeline.arrRef spec5 1)) (ix2 r k) := by
  obtain ⟨e0, e1⟩ := idx_1 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 128 + 1 * r.val = r.val; rw [e0]; omega
  | ⟨1, _⟩ => show win5_1.index t (1 : Fin 2) * 64 + 1 * k.val = k.val; rw [e1]; omega

theorem iblk_2 (c : Dev nD) (t : Fin cfg5.N) (r : Fin 128) (z : Fin 1) :
    (iblk5 V c 2 t : Vec Ideal S128x1 .f32) (ix2 r z) = (V c (Pipeline.arrRef spec5 2)) (ix2 r z) := by
  obtain ⟨e0, e1⟩ := idx_2 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 128 + 1 * r.val = r.val; rw [e0]; omega
  | ⟨1, _⟩ => show win5_2.index t (1 : Fin 2) * 1 + 1 * z.val = z.val; rw [e1]; omega

theorem iblk_3 (c : Dev nD) (t : Fin cfg5.N) (d : Fin 64) (r : Fin 128) :
    (iblk5 V c 3 t : Vec Ideal S64x128 .f32) (ix2 d r) = (V c (Pipeline.arrRef spec5 3)) (ix2 d r) := by
  obtain ⟨e0, e1⟩ := idx_3 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 64 + 1 * d.val = d.val; rw [e0]; omega
  | ⟨1, _⟩ => show win5_3.index t (1 : Fin 2) * 128 + 1 * r.val = r.val; rw [e1]; omega

/-! ## A point's payloads over blocks that read the arrays -/

section Of
variable (W1b : Vec Ideal S128x64 .f32) (xb : Vec Ideal S64x16384 .f32) (t1b : Vec Ideal S128x1 .f32) (W2b : Vec Ideal S64x128 .f32)
  (x : S64x131072.Idx → EReal) (W1f : S128x64.Idx → EReal) (t1 : S128x1.Idx → EReal) (W2 : S64x128.Idx → EReal) (t : Fin 8)
  (hW1 : ∀ (r : Fin 128) (k : Fin 64), W1b (ix2 r k) = W1f (ix2 r k))
  (hx : ∀ (k : Fin 64) (p : Fin 16384), xb (ix2 k p) = x (ix2 k (col t p)))
  (ht1 : ∀ (r : Fin 128) (z : Fin 1), t1b (ix2 r z) = t1 (ix2 r z))
  (hW2 : ∀ (d : Fin 64) (r : Fin 128), W2b (ix2 d r) = W2 (ix2 d r))
include hW1 hx ht1 hW2

/-- y2 of a column read through the blocks is y2 of the arrays' column. -/
theorem y2_of (d : Fin 64) (p : Fin 16384) :
    y2At W1b t1b W2b (fun k => xb (ix2 k p)) d = y2At W1f t1 W2 (fun k => x (ix2 k (col t p))) d := by
  unfold y2At z1At
  refine Finset.sum_congr rfl fun r _ => congrArg₂ (· * ·) (hW2 d r) (congrArg lrelu (congrArg₂ (· + ·) ?_ (ht1 r 0)))
  exact Finset.sum_congr rfl fun k _ => congrArg₂ (· * ·) (hW1 r k) (hx k p)

theorem sum_of (acc : Vec Ideal S1x64x1 .f32) (d : Fin 64) :
    k5_pay5 W1b xb t1b W2b acc (ix3 (0 : Fin 1) d (0 : Fin 1)) = acc (ix3 (0 : Fin 1) d (0 : Fin 1)) + sumAt x W1f t1 W2 t d := by
  refine (pay5_apply W1b xb t1b W2b acc d).trans (congrArg (acc (ix3 (0 : Fin 1) d (0 : Fin 1)) + ·) ?_)
  exact Finset.sum_congr rfl fun p _ => y2_of W1b xb t1b W2b x W1f t1 W2 t hW1 hx ht1 hW2 d p

theorem ssq_of (acc : Vec Ideal S1x64x1 .f32) (d : Fin 64) :
    k5_pay1 (k5_pay6 W1b xb t1b W2b acc) (ix3 (0 : Fin 1) d (0 : Fin 1)) = acc (ix3 (0 : Fin 1) d (0 : Fin 1)) + ssqAt x W1f t1 W2 t d := by
  refine (pay16_apply W1b xb t1b W2b acc d).trans (congrArg (acc (ix3 (0 : Fin 1) d (0 : Fin 1)) + ·) ?_)
  exact Finset.sum_congr rfl fun p _ => congrArg₂ (· * ·) (y2_of W1b xb t1b W2b x W1f t1 W2 t hW1 hx ht1 hW2 d p)
    (y2_of W1b xb t1b W2b x W1f t1 W2 t hW1 hx ht1 hW2 d p)

end Of

theorem sum_step (c : Dev nD) (t : Fin cfg5.N) (h8 : t.val < 8) (acc : Vec Ideal S1x64x1 .f32) (d : Fin 64) :
    k5_pay5 (iblk5 V c 1 t) (iblk5 V c 0 t) (iblk5 V c 2 t) (iblk5 V c 3 t) acc (ix3 (0 : Fin 1) d (0 : Fin 1))
      = acc (ix3 (0 : Fin 1) d (0 : Fin 1)) + sumAt (V c (Pipeline.arrRef spec5 0)) (V c (Pipeline.arrRef spec5 1)) (V c (Pipeline.arrRef spec5 2)) (V c (Pipeline.arrRef spec5 3)) ⟨t.val, h8⟩ d :=
  sum_of (iblk5 V c 1 t) (iblk5 V c 0 t) (iblk5 V c 2 t) (iblk5 V c 3 t) (V c (Pipeline.arrRef spec5 0)) (V c (Pipeline.arrRef spec5 1)) (V c (Pipeline.arrRef spec5 2)) (V c (Pipeline.arrRef spec5 3)) ⟨t.val, h8⟩
    (iblk_1 V c t) (iblk_x V c t h8) (iblk_2 V c t) (iblk_3 V c t) acc d

theorem ssq_step (c : Dev nD) (t : Fin cfg5.N) (h8 : t.val < 8) (acc : Vec Ideal S1x64x1 .f32) (d : Fin 64) :
    k5_pay1 (k5_pay6 (iblk5 V c 1 t) (iblk5 V c 0 t) (iblk5 V c 2 t) (iblk5 V c 3 t) acc) (ix3 (0 : Fin 1) d (0 : Fin 1))
      = acc (ix3 (0 : Fin 1) d (0 : Fin 1)) + ssqAt (V c (Pipeline.arrRef spec5 0)) (V c (Pipeline.arrRef spec5 1)) (V c (Pipeline.arrRef spec5 2)) (V c (Pipeline.arrRef spec5 3)) ⟨t.val, h8⟩ d :=
  ssq_of (iblk5 V c 1 t) (iblk5 V c 0 t) (iblk5 V c 2 t) (iblk5 V c 3 t) (V c (Pipeline.arrRef spec5 0)) (V c (Pipeline.arrRef spec5 1)) (V c (Pipeline.arrRef spec5 2)) (V c (Pipeline.arrRef spec5 3)) ⟨t.val, h8⟩
    (iblk_1 V c t) (iblk_x V c t h8) (iblk_2 V c t) (iblk_3 V c t) acc d

/-! ## One point's step, over ANY staging memrefs and carried blocks -/

theorem stepA_4 (c : Dev nD) (t : Fin cfg5.N) (h8 : t.val < 8) {i : grid5.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond5_0 i} (d : Fin 64) :
    out5_A_4 c i arg2 harg2 arg3 harg3 arg4 harg4 arg5 harg5 arg6 harg6 arg7 harg7 hc0 (iblk5 V c 0 t) (iblk5 V c 1 t) (iblk5 V c 2 t) (iblk5 V c 3 t) (ix3 (0 : Fin 1) d (0 : Fin 1))
      = Ideal.ofBits .f32 0x00000000#32 + sumAt (V c (Pipeline.arrRef spec5 0)) (V c (Pipeline.arrRef spec5 1)) (V c (Pipeline.arrRef spec5 2)) (V c (Pipeline.arrRef spec5 3)) ⟨t.val, h8⟩ d := by
  rw [out_A_4 (F := Ideal) c]
  exact (sum_step V c t h8 _ d).trans (congrArg (· + _) (pay2_apply _))

theorem stepA_5 (c : Dev nD) (t : Fin cfg5.N) (h8 : t.val < 8) {i : grid5.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : cond5_0 i} (d : Fin 64) :
    out5_A_5 c i arg2 harg2 arg3 harg3 arg4 harg4 arg5 harg5 arg6 harg6 arg7 harg7 hc0 (iblk5 V c 0 t) (iblk5 V c 1 t) (iblk5 V c 2 t) (iblk5 V c 3 t) (ix3 (0 : Fin 1) d (0 : Fin 1))
      = Ideal.ofBits .f32 0x00000000#32 + ssqAt (V c (Pipeline.arrRef spec5 0)) (V c (Pipeline.arrRef spec5 1)) (V c (Pipeline.arrRef spec5 2)) (V c (Pipeline.arrRef spec5 3)) ⟨t.val, h8⟩ d := by
  rw [out_A_5 (F := Ideal) c]
  exact (ssq_step V c t h8 _ d).trans (congrArg (· + _) (pay3_apply _))

theorem stepB_4 (c : Dev nD) (t : Fin cfg5.N) (h8 : t.val < 8) {i : grid5.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond5_0 i}
    {xo4 xo5 : Vec Ideal S1x64x1 .f32} (d : Fin 64) :
    out5_B_4 c i arg2 harg2 arg3 harg3 arg4 harg4 arg5 harg5 arg6 harg6 arg7 harg7 hc0 (iblk5 V c 0 t) (iblk5 V c 1 t) (iblk5 V c 2 t) (iblk5 V c 3 t) xo4 xo5 (ix3 (0 : Fin 1) d (0 : Fin 1))
      = xo4 (ix3 (0 : Fin 1) d (0 : Fin 1)) + sumAt (V c (Pipeline.arrRef spec5 0)) (V c (Pipeline.arrRef spec5 1)) (V c (Pipeline.arrRef spec5 2)) (V c (Pipeline.arrRef spec5 3)) ⟨t.val, h8⟩ d := by
  rw [out_B_4 (F := Ideal) c]
  exact sum_step V c t h8 xo4 d

theorem stepB_5 (c : Dev nD) (t : Fin cfg5.N) (h8 : t.val < 8) {i : grid5.Coords} {arg2 : Memref sig .tc .vmem S64x16384 .f32} {harg2 : arg2.IsWhole} {arg3 : Memref sig .tc .vmem S128x64 .f32} {harg3 : arg3.IsWhole} {arg4 : Memref sig .tc .vmem S128x1 .f32} {harg4 : arg4.IsWhole} {arg5 : Memref sig .tc .vmem S64x128 .f32} {harg5 : arg5.IsWhole} {arg6 : Memref sig .tc .vmem S1x64x1 .f32} {harg6 : arg6.IsWhole} {arg7 : Memref sig .tc .vmem S1x64x1 .f32} {harg7 : arg7.IsWhole} {hc0 : ¬cond5_0 i}
    {xo4 xo5 : Vec Ideal S1x64x1 .f32} (d : Fin 64) :
    out5_B_5 c i arg2 harg2 arg3 harg3 arg4 harg4 arg5 harg5 arg6 harg6 arg7 harg7 hc0 (iblk5 V c 0 t) (iblk5 V c 1 t) (iblk5 V c 2 t) (iblk5 V c 3 t) xo4 xo5 (ix3 (0 : Fin 1) d (0 : Fin 1))
      = xo5 (ix3 (0 : Fin 1) d (0 : Fin 1)) + ssqAt (V c (Pipeline.arrRef spec5 0)) (V c (Pipeline.arrRef spec5 1)) (V c (Pipeline.arrRef spec5 2)) (V c (Pipeline.arrRef spec5 3)) ⟨t.val, h8⟩ d := by
  rw [out_B_5 (F := Ideal) c]
  exact ssq_step V c t h8 xo5 d

/-! ## The invariant: after point n the blocks hold the running accumulators -/

/-- At the first point of a core the accumulator blocks hold the zero literal plus the point's addends. -/
theorem outs_A (c : Dev nD) (t : Fin cfg5.N) (h8 : t.val < 8) (h0 : t.val % 4 = 0) (d : Fin 64) :
    (outsAt5 V c t.val t.isLt).1 (ix3 (0 : Fin 1) d (0 : Fin 1)) = Ideal.ofBits .f32 0x00000000#32 + sumAt (V c (Pipeline.arrRef spec5 0)) (V c (Pipeline.arrRef spec5 1)) (V c (Pipeline.arrRef spec5 2)) (V c (Pipeline.arrRef spec5 3)) ⟨t.val, h8⟩ d
    ∧ (outsAt5 V c t.val t.isLt).2 (ix3 (0 : Fin 1) d (0 : Fin 1)) = Ideal.ofBits .f32 0x00000000#32 + ssqAt (V c (Pipeline.arrRef spec5 0)) (V c (Pipeline.arrRef spec5 1)) (V c (Pipeline.arrRef spec5 2)) (V c (Pipeline.arrRef spec5 3)) ⟨t.val, h8⟩ d := by
  rw [outsAt5_A V c t h0]
  dsimp only
  exact ⟨stepA_4 V c t h8 d, stepA_5 V c t h8 d⟩

/-- At any other point they hold what the point before left plus the point's addends. -/
theorem outs_B (c : Dev nD) (t : Fin cfg5.N) (h8 : t.val < 8) (h0 : ¬t.val % 4 = 0) (d : Fin 64) :
    (outsAt5 V c t.val t.isLt).1 (ix3 (0 : Fin 1) d (0 : Fin 1)) = (outsAt5 V c (t.val - 1) (Nat.lt_of_le_of_lt (Nat.sub_le _ _) t.isLt)).1 (ix3 (0 : Fin 1) d (0 : Fin 1)) + sumAt (V c (Pipeline.arrRef spec5 0)) (V c (Pipeline.arrRef spec5 1)) (V c (Pipeline.arrRef spec5 2)) (V c (Pipeline.arrRef spec5 3)) ⟨t.val, h8⟩ d
    ∧ (outsAt5 V c t.val t.isLt).2 (ix3 (0 : Fin 1) d (0 : Fin 1)) = (outsAt5 V c (t.val - 1) (Nat.lt_of_le_of_lt (Nat.sub_le _ _) t.isLt)).2 (ix3 (0 : Fin 1) d (0 : Fin 1)) + ssqAt (V c (Pipeline.arrRef spec5 0)) (V c (Pipeline.arrRef spec5 1)) (V c (Pipeline.arrRef spec5 2)) (V c (Pipeline.arrRef spec5 3)) ⟨t.val, h8⟩ d := by
  rw [outsAt5_B V c t h0]
  dsimp only
  exact ⟨stepB_4 V c t h8 d, stepB_5 V c t h8 d⟩

set_option maxHeartbeats 1000000 in
/-- After point n the accumulator blocks hold the running accumulators: by induction on the point. -/
theorem outs_eq (c : Dev nD) (n : ℕ) : ∀ (h : n < cfg5.N) (h8 : n < 8) (d : Fin 64),
    (outsAt5 V c n h).1 (ix3 (0 : Fin 1) d (0 : Fin 1)) = run (fun t => sumAt (V c (Pipeline.arrRef spec5 0)) (V c (Pipeline.arrRef spec5 1)) (V c (Pipeline.arrRef spec5 2)) (V c (Pipeline.arrRef spec5 3)) t d) n h8
    ∧ (outsAt5 V c n h).2 (ix3 (0 : Fin 1) d (0 : Fin 1)) = run (fun t => ssqAt (V c (Pipeline.arrRef spec5 0)) (V c (Pipeline.arrRef spec5 1)) (V c (Pipeline.arrRef spec5 2)) (V c (Pipeline.arrRef spec5 3)) t d) n h8 := by
  induction n with
  | zero =>
    intro h h8 d
    exact outs_A V c ⟨0, h⟩ h8 rfl d
  | succ n ih =>
    intro h h8 d
    by_cases h0 : (n + 1) % 4 = 0
    · rw [run_reset _ n h8 h0, run_reset _ n h8 h0]
      exact outs_A V c ⟨n + 1, h⟩ h8 h0 d
    · have ih' := ih (Nat.lt_of_succ_lt h) (Nat.lt_of_succ_lt h8) d
      have hB := outs_B V c ⟨n + 1, h⟩ h8 h0 d
      rw [run_step _ n h8 h0, run_step _ n h8 h0]
      exact ⟨hB.1.trans (congrArg (· + _) ih'.1), hB.2.trans (congrArg (· + _) ih'.2)⟩

/-! ## From blocks to the arrays -/

theorem mem_blk4 (t : Fin cfg5.N) (i : S2x64x1.Idx) :
    i ∈ ((cfg5.win 4).blk t).view.set ↔ ∀ a : Fin 3, win5_4.index t a * S1x64x1.size a ≤ (i a).val ∧ (i a).val < win5_4.index t a * S1x64x1.size a + S1x64x1.size a := by
  show i ∈ ((View.whole main_v97_0).slice (win5_4.rect t)).set ↔ _
  rw [View.set_slice_whole, Rect.mem_set_unit]
  exact Iff.rfl

theorem mem_blk5 (t : Fin cfg5.N) (i : S2x64x1.Idx) :
    i ∈ ((cfg5.win 5).blk t).view.set ↔ ∀ a : Fin 3, win5_5.index t a * S1x64x1.size a ≤ (i a).val ∧ (i a).val < win5_5.index t a * S1x64x1.size a + S1x64x1.size a := by
  show i ∈ ((View.whole main_v97_1).slice (win5_5.rect t)).set ↔ _
  rw [View.set_slice_whole, Rect.mem_set_unit]
  exact Iff.rfl

/-- What the last point of a core writes back is its block of the sum array. -/
theorem flushed4_eq (c : Dev nD) (t : Fin cfg5.N) (hf : (cfg5.win 4).flush t = true) :
    (dat5 V c).flushed 4 t = ((cfg5.win 4).blk t).view.read (Elt Ideal) (G5_4 (V c (Pipeline.arrRef spec5 0)) (V c (Pipeline.arrRef spec5 1)) (V c (Pipeline.arrRef spec5 2)) (V c (Pipeline.arrRef spec5 3))) := by
  have hN : cfg5.N = 8 := N_5
  have h3 : t.val % 4 = 3 := (flush5_4 t).mp hf
  have h8 : t.val < 8 := by have := t.isLt; omega
  obtain ⟨e0, e1, e2⟩ := idx_4 t
  show (cfg5.win 4).cut (grid5.coords t) ((dat5 V c).after 4 t) = _
  rw [after5_4]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg5.win 4).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win5_4.index t (0 : Fin 3) * 1 + 1 * 0 = t.val / 4; rw [e0]; omega
    | ⟨1, _⟩ => show win5_4.index t (1 : Fin 3) * 64 + 1 * d.val = d.val; rw [e1]; omega
    | ⟨2, _⟩ => show win5_4.index t (2 : Fin 3) * 1 + 1 * 0 = 0; rw [e2]
  rw [hemb]
  show (outsAt5 V c t.val t.isLt).1 (ix3 (0 : Fin 1) d (0 : Fin 1)) = chain (fun t' => sumAt (V c (Pipeline.arrRef spec5 0)) (V c (Pipeline.arrRef spec5 1)) (V c (Pipeline.arrRef spec5 2)) (V c (Pipeline.arrRef spec5 3)) t' d) ⟨t.val / 4, _⟩
  rw [(outs_eq V c t.val t.isLt h8 d).1]
  exact run_flush _ t.val h8 h3 _

theorem flushed5_eq (c : Dev nD) (t : Fin cfg5.N) (hf : (cfg5.win 5).flush t = true) :
    (dat5 V c).flushed 5 t = ((cfg5.win 5).blk t).view.read (Elt Ideal) (G5_5 (V c (Pipeline.arrRef spec5 0)) (V c (Pipeline.arrRef spec5 1)) (V c (Pipeline.arrRef spec5 2)) (V c (Pipeline.arrRef spec5 3))) := by
  have hN : cfg5.N = 8 := N_5
  have h3 : t.val % 4 = 3 := (flush5_5 t).mp hf
  have h8 : t.val < 8 := by have := t.isLt; omega
  obtain ⟨e0, e1, e2⟩ := idx_5 t
  show (cfg5.win 5).cut (grid5.coords t) ((dat5 V c).after 5 t) = _
  rw [after5_5]
  refine funext fun (y : S1x64x1.Idx) => ?_
  obtain ⟨a, d, b, rfl⟩ : ∃ (a : Fin 1) (d : Fin 64) (b : Fin 1), y = ix3 a d b := ⟨y 0, y 1, y 2, eq_ix3 y⟩
  obtain rfl : a = 0 := Subsingleton.elim _ _
  obtain rfl : b = 0 := Subsingleton.elim _ _
  rw [View.read_apply]
  have hemb : ((cfg5.win 5).blk t).view.emb (ix3 (0 : Fin 1) d (0 : Fin 1)) = (ix3 (⟨t.val / 4, by omega⟩ : Fin 2) d (0 : Fin 1) : S2x64x1.Idx) := by
    funext a
    apply Fin.ext
    match a with
    | ⟨0, _⟩ => show win5_5.index t (0 : Fin 3) * 1 + 1 * 0 = t.val / 4; rw [e0]; omega
    | ⟨1, _⟩ => show win5_5.index t (1 : Fin 3) * 64 + 1 * d.val = d.val; rw [e1]; omega
    | ⟨2, _⟩ => show win5_5.index t (2 : Fin 3) * 1 + 1 * 0 = 0; rw [e2]
  rw [hemb]
  show (outsAt5 V c t.val t.isLt).2 (ix3 (0 : Fin 1) d (0 : Fin 1)) = chain (fun t' => ssqAt (V c (Pipeline.arrRef spec5 0)) (V c (Pipeline.arrRef spec5 1)) (V c (Pipeline.arrRef spec5 2)) (V c (Pipeline.arrRef spec5 3)) t' d) ⟨t.val / 4, _⟩
  rw [(outs_eq V c t.val t.isLt h8 d).2]
  exact run_flush _ t.val h8 h3 _

/-- The sum array after the region: at (core, d, 0) the core's chain of lane sums. -/
theorem arrAt_4 (c : Dev nD) :
    (Gen.dat5 (F := Ideal) V c).arrAt 4 cfg5.N = G5_4 (V c (Pipeline.arrRef spec5 0)) (V c (Pipeline.arrRef spec5 1)) (V c (Pipeline.arrRef spec5 2)) (V c (Pipeline.arrRef spec5 3)) :=
  (dat5 V c).arrAt_eq_of_cover 4 (G5_4 (V c (Pipeline.arrRef spec5 0)) (V c (Pipeline.arrRef spec5 1)) (V c (Pipeline.arrRef spec5 2)) (V c (Pipeline.arrRef spec5 3))) (flushed4_eq V c) fun (i : S2x64x1.Idx) => by
    have hi0 : (i 0).val < 2 := (i 0).isLt
    have hi1 : (i 1).val < 64 := (i 1).isLt
    have hi2 : (i 2).val < 1 := (i 2).isLt
    have hN : cfg5.N = 8 := N_5
    let t : Fin cfg5.N := ⟨(i 0).val * 4 + 3, by omega⟩
    obtain ⟨e0, e1, e2⟩ := idx_4 t
    have tv : t.val = (i 0).val * 4 + 3 := rfl
    refine ⟨t, (flush5_4 t).mpr (by rw [tv]; omega), ?_⟩
    rw [mem_blk4]
    intro a
    match a with
    | ⟨0, _⟩ => show win5_4.index t (0 : Fin 3) * 1 ≤ (i 0).val ∧ (i 0).val < win5_4.index t (0 : Fin 3) * 1 + 1; rw [e0, tv]; omega
    | ⟨1, _⟩ => show win5_4.index t (1 : Fin 3) * 64 ≤ (i 1).val ∧ (i 1).val < win5_4.index t (1 : Fin 3) * 64 + 64; rw [e1]; omega
    | ⟨2, _⟩ => show win5_4.index t (2 : Fin 3) * 1 ≤ (i 2).val ∧ (i 2).val < win5_4.index t (2 : Fin 3) * 1 + 1; rw [e2]; omega

/-- The sum-of-squares array after the region: at (core, d, 0) the core's chain of lane sums of squares. -/
theorem arrAt_5 (c : Dev nD) :
    (Gen.dat5 (F := Ideal) V c).arrAt 5 cfg5.N = G5_5 (V c (Pipeline.arrRef spec5 0)) (V c (Pipeline.arrRef spec5 1)) (V c (Pipeline.arrRef spec5 2)) (V c (Pipeline.arrRef spec5 3)) :=
  (dat5 V c).arrAt_eq_of_cover 5 (G5_5 (V c (Pipeline.arrRef spec5 0)) (V c (Pipeline.arrRef spec5 1)) (V c (Pipeline.arrRef spec5 2)) (V c (Pipeline.arrRef spec5 3))) (flushed5_eq V c) fun (i : S2x64x1.Idx) => by
    have hi0 : (i 0).val < 2 := (i 0).isLt
    have hi1 : (i 1).val < 64 := (i 1).isLt
    have hi2 : (i 2).val < 1 := (i 2).isLt
    have hN : cfg5.N = 8 := N_5
    let t : Fin cfg5.N := ⟨(i 0).val * 4 + 3, by omega⟩
    obtain ⟨e0, e1, e2⟩ := idx_5 t
    have tv : t.val = (i 0).val * 4 + 3 := rfl
    refine ⟨t, (flush5_5 t).mpr (by rw [tv]; omega), ?_⟩
    rw [mem_blk5]
    intro a
    match a with
    | ⟨0, _⟩ => show win5_5.index t (0 : Fin 3) * 1 ≤ (i 0).val ∧ (i 0).val < win5_5.index t (0 : Fin 3) * 1 + 1; rw [e0, tv]; omega
    | ⟨1, _⟩ => show win5_5.index t (1 : Fin 3) * 64 ≤ (i 1).val ∧ (i 1).val < win5_5.index t (1 : Fin 3) * 64 + 64; rw [e1]; omega
    | ⟨2, _⟩ => show win5_5.index t (2 : Fin 3) * 1 ≤ (i 2).val ∧ (i 2).val < win5_5.index t (2 : Fin 3) * 1 + 1; rw [e2]; omega

end Cert.ReferenceIdeal.RAcc5

end
-- ==== Proof.RFin6Pay.lean ====
/-
  The last kernel of the idealized reference on one block of columns: two 1x1 convolutions (matrix products over the channel
  axis), each followed by a per-channel shift and the leaky rectifier — read here at an index.
-/
import proofs.«126831_g2000503633499865_pallasbulk_555_4_alg».proof.Proof.Gen.ReferenceIdeal.Skeleton
import proofs.«126831_g2000503633499865_pallasbulk_555_4_alg».proof.Proof.LibPayIdx
import Idealize.ShloMosaic.PureOps.Ideal
import Idealize.ShloMosaic.Lib.ValueIdx
import Idealize.ShloMosaic.Lib.Pipeline.Value
import Idealize.ShloMosaic.Lib.ValueLayout

noncomputable section

namespace Cert.ReferenceIdeal.Fin6

open Cert.ReferenceIdeal Cert.ReferenceIdeal.Gen Cert.KernelIdeal.Hand
open Idealize.ShloMosaic Idealize.ShloMosaic.ValueIdx

/-- The leaky rectifier with slope 0.2 (the slope kept as the float's bit pattern): the larger of z and slope · z. -/
def lrelu (z : EReal) : EReal := max z (Scalar.ofBits (F := Ideal) .f32 0x3E4CCCCD#32 * z)

/-- The first product [128,64] x [64,16384] from the zero accumulator, at (c, q): the sum over the input channels. -/
theorem mm1_apply (A : FVec Ideal S128x64 .f32) (B : FVec Ideal S64x16384 .f32) (c : Fin 128) (q : Fin 16384) :
    matmul dot_S128x64_S64x16384_S128x16384_1_0_0_1_n_n none A B (constant (F := Ideal) S128x16384 .f32 0x00000000#32) (ix2 c q)
      = ∑ k : Fin 64, A (ix2 c k) * B (ix2 k q) :=
  matmul_plain_zero_apply dot_S128x64_S64x16384_S128x16384_1_0_0_1_n_n_wf none A B c q

/-- The second product [64,128] x [128,16384] from the zero accumulator, at (d, q): the sum over the hidden channels. -/
theorem mm2_apply (A : FVec Ideal S64x128 .f32) (B : FVec Ideal S128x16384 .f32) (d : Fin 64) (q : Fin 16384) :
    matmul dot_S64x128_S128x16384_S64x16384_1_0_0_1_n_n none A B (constant (F := Ideal) S64x16384 .f32 0x00000000#32) (ix2 d q)
      = ∑ c : Fin 128, A (ix2 d c) * B (ix2 c q) :=
  matmul_plain_zero_apply dot_S64x128_S128x16384_S64x16384_1_0_0_1_n_n_wf none A B d q

/-- A column [128,1] broadcast along the lanes reads, at (c, q), the column's entry at c. -/
theorem bcast128_apply (v : Vec Ideal S128x1 .f32) (c : Fin 128) (q : Fin 16384) :
    broadcastTo S128x16384 (shapeCast S128x1 v shapeCasts_S128x1_S128x1) broadcasts_S128x1_S128x16384 (ix2 c q) = v (ix2 c 0) := by
  rw [shapeCast_self]
  exact broadcastTo_apply v _ _ _ (fun a => match a with | ⟨0, _⟩ => rfl | ⟨1, _⟩ => rfl)

/-- A column [64,1] broadcast along the lanes reads, at (d, q), the column's entry at d. -/
theorem bcast64_apply (v : Vec Ideal S64x1 .f32) (d : Fin 64) (q : Fin 16384) :
    broadcastTo S64x16384 (shapeCast S64x1 v shapeCasts_S64x1_S64x1) broadcasts_S64x1_S64x16384 (ix2 d q) = v (ix2 d 0) := by
  rw [shapeCast_self]
  exact broadcastTo_apply v _ _ _ (fun a => match a with | ⟨0, _⟩ => rfl | ⟨1, _⟩ => rfl)

/-- The stored block at (d, q): the rectifier of the second convolution of the rectified first convolution, shifted. -/
theorem pay_apply (v0 : Vec Ideal S128x64 .f32) (v2 : Vec Ideal S64x16384 .f32) (v5 : Vec Ideal S128x1 .f32)
    (v12 : Vec Ideal S64x128 .f32) (v15 : Vec Ideal S64x1 .f32) (d : Fin 64) (q : Fin 16384) :
    k6_pay1 (F := Ideal) v0 v2 v5 v12 v15 (ix2 d q)
      = lrelu ((∑ c : Fin 128, v12 (ix2 d c) * lrelu ((∑ k : Fin 64, v0 (ix2 c k) * v2 (ix2 k q)) + v5 (ix2 c 0)))
          + v15 (ix2 d 0)) := by
  unfold k6_pay1
  show lrelu (matmul dot_S64x128_S128x16384_S64x16384_1_0_0_1_n_n none _ _ (constant (F := Ideal) S64x16384 .f32 0x00000000#32) (ix2 d q)
      + broadcastTo S64x16384 (shapeCast S64x1 v15 shapeCasts_S64x1_S64x1) broadcasts_S64x1_S64x16384 (ix2 d q)) = _
  rw [mm2_apply, bcast64_apply, shapeCast_self]
  congr 2
  refine Finset.sum_congr rfl fun c _ => ?_
  show v12 (ix2 d c) * lrelu (matmul dot_S128x64_S64x16384_S128x16384_1_0_0_1_n_n none _ _ (constant (F := Ideal) S128x16384 .f32 0x00000000#32) (ix2 c q)
      + broadcastTo S128x16384 (shapeCast S128x1 v5 shapeCasts_S128x1_S128x1) broadcasts_S128x1_S128x16384 (ix2 c q)) = _
  rw [mm1_apply, bcast128_apply, shapeCast_self, shapeCast_self]

end Cert.ReferenceIdeal.Fin6

end
-- ==== Proof.RFin6Val.lean ====
/-
  The last region of the idealized reference, as one array: every grid point writes its own block of 16384 columns, and
  the blocks tile the [64, 131072] array, so the output holds, at (d, col), the rectifier of the second convolution of
  the rectified, shifted first convolution of the input's column col, shifted.
-/
import proofs.«126831_g2000503633499865_pallasbulk_555_4_alg».proof.Proof.Gen.ReferenceIdeal.Frame
import proofs.«126831_g2000503633499865_pallasbulk_555_4_alg».proof.Proof.RFin6Pay
import Idealize.ShloMosaic.Lib.Pipeline.Value

set_option maxRecDepth 16384

noncomputable section

namespace Cert.ReferenceIdeal.Fin6

open Cert.ReferenceIdeal Cert.ReferenceIdeal.Gen
open Idealize.ShloMosaic Idealize.ShloMosaic.TcCoe Idealize.ShloMosaic.ValueIdx Idealize.SL.Sem
open Idealize.ShloMosaic.Pipeline (Dat Cfg Window)
open scoped BigOperators

theorem hz2 : (![0, 0] : Fin 2 → Nat) = fun _ => 0 := funext fun a => by fin_cases a <;> rfl

/-- The two rectified, shifted convolutions at output channel `d` of the input's column `col`. -/
def Garr (x : S64x131072.Idx → EReal) (w1 : S128x64.Idx → EReal) (t1 : S128x1.Idx → EReal) (w2 : S64x128.Idx → EReal)
    (t2 : S64x1.Idx → EReal) (d : Fin 64) (col : Fin 131072) : EReal :=
  lrelu ((∑ c : Fin 128, w2 (ix2 d c) * lrelu ((∑ k : Fin 64, w1 (ix2 c k) * x (ix2 k col)) + t1 (ix2 c (0 : Fin 1))))
    + t2 (ix2 d (0 : Fin 1)))

/-- The same of one block of 16384 columns, at its column `q`. -/
def Gblk (x0 : S64x16384.Idx → EReal) (w1 : S128x64.Idx → EReal) (t1 : S128x1.Idx → EReal) (w2 : S64x128.Idx → EReal)
    (t2 : S64x1.Idx → EReal) (d : Fin 64) (q : Fin 16384) : EReal :=
  lrelu ((∑ c : Fin 128, w2 (ix2 d c) * lrelu ((∑ k : Fin 64, w1 (ix2 c k) * x0 (ix2 k q)) + t1 (ix2 c (0 : Fin 1))))
    + t2 (ix2 d (0 : Fin 1)))

/-- The region's result as a function of the arrays it reads. -/
def G (x : S64x131072.Idx → EReal) (w1 : S128x64.Idx → EReal) (t1 : S128x1.Idx → EReal) (w2 : S64x128.Idx → EReal)
    (t2 : S64x1.Idx → EReal) : S64x131072.Idx → EReal :=
  fun i => lrelu ((∑ c : Fin 128, w2 (ix2 (i 0) c) * lrelu ((∑ k : Fin 64, w1 (ix2 c k) * x (ix2 k (i 1))) + t1 (ix2 c 0)))
    + t2 (ix2 (i 0) 0))

theorem G_apply (x : S64x131072.Idx → EReal) (w1 : S128x64.Idx → EReal) (t1 : S128x1.Idx → EReal) (w2 : S64x128.Idx → EReal)
    (t2 : S64x1.Idx → EReal) (d : Fin 64) (col : Fin 131072) : G x w1 t1 w2 t2 (ix2 d col) = Garr x w1 t1 w2 t2 d col := rfl

/-- The printed index maps over the grid: the input's block and the output's block are the point's own block of columns,
    the weights and shifts are whole. -/
theorem idx_facts : ∀ t : Fin cfg6.N, win6_0.index t (0 : Fin 2) = 0 ∧ win6_0.index t (1 : Fin 2) = t.val
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = t.val :=
  (by decide +kernel : ∀ t : Fin grid6.N, _)

variable (V : (c : Dev nD) → (b : Ref sig .tc) → Buf (Elt Ideal) ((c : Thread nD τ).loc b))

/-- Column `16384 t + q` of the array: column `q` of the block at point `t`. -/
def colAt (n : ℕ) (q : Fin 16384) (h : n < 8) : Fin 131072 := ⟨n * 16384 + q.val, by have := q.isLt; omega⟩

/-- The input's block at point `t`, at `(k, q)`: the array at column `16384 t + q`. -/
theorem blkX_at (c : Dev nD) (t : Fin cfg6.N) (ht : t.val < 8) (k : Fin 64) (q : Fin 16384) :
    iblk6 V c 0 t (ix2 k q) = V c (Pipeline.arrRef spec6 0) (ix2 k (colAt t.val q ht)) := by
  obtain ⟨e0, e1, -⟩ := idx_facts t
  show V c (Pipeline.arrRef spec6 0) (((cfg6.win 0).blk t).view.emb (ix2 k q)) = _
  refine congrArg _ (funext fun a => Fin.ext ?_)
  match a with
  | ⟨0, _⟩ => show win6_0.index t (0 : Fin 2) * 64 + 1 * k.val = k.val; rw [e0]; omega
  | ⟨1, _⟩ => show win6_0.index t (1 : Fin 2) * 16384 + 1 * q.val = t.val * 16384 + q.val; rw [e1]; omega

/-- The first weights' block at any point is the array. -/
theorem blkW1_at (c : Dev nD) (t : Fin cfg6.N) (i : Fin 128) (k : Fin 64) :
    iblk6 V c 1 t (ix2 i k) = V c (Pipeline.arrRef spec6 1) (ix2 i k) := by
  obtain ⟨-, -, e0, e1, -⟩ := idx_facts t
  show V c (Pipeline.arrRef spec6 1) (((cfg6.win 1).blk t).view.emb (ix2 i k)) = _
  refine congrArg _ (funext fun a => Fin.ext ?_)
  match a with
  | ⟨0, _⟩ => show win6_1.index t (0 : Fin 2) * 128 + 1 * i.val = i.val; rw [e0]; omega
  | ⟨1, _⟩ => show win6_1.index t (1 : Fin 2) * 64 + 1 * k.val = k.val; rw [e1]; omega

/-- The first shift's block at any point is the array. -/
theorem blkT1_at (c : Dev nD) (t : Fin cfg6.N) (i : Fin 128) (z : Fin 1) :
    iblk6 V c 2 t (ix2 i z) = V c (Pipeline.arrRef spec6 2) (ix2 i z) := by
  obtain ⟨-, -, -, -, e0, e1, -⟩ := idx_facts t
  show V c (Pipeline.arrRef spec6 2) (((cfg6.win 2).blk t).view.emb (ix2 i z)) = _
  refine congrArg _ (funext fun a => Fin.ext ?_)
  match a with
  | ⟨0, _⟩ => show win6_2.index t (0 : Fin 2) * 128 + 1 * i.val = i.val; rw [e0]; omega
  | ⟨1, _⟩ => show win6_2.index t (1 : Fin 2) * 1 + 1 * z.val = z.val; rw [e1]; omega

/-- The second weights' block at any point is the array. -/
theorem blkW2_at (c : Dev nD) (t : Fin cfg6.N) (d : Fin 64) (i : Fin 128) :
    iblk6 V c 3 t (ix2 d i) = V c (Pipeline.arrRef spec6 3) (ix2 d i) := by
  obtain ⟨-, -, -, -, -, -, e0, e1, -⟩ := idx_facts t
  show V c (Pipeline.arrRef spec6 3) (((cfg6.win 3).blk t).view.emb (ix2 d i)) = _
  refine congrArg _ (funext fun a => Fin.ext ?_)
  match a with
  | ⟨0, _⟩ => show win6_3.index t (0 : Fin 2) * 64 + 1 * d.val = d.val; rw [e0]; omega
  | ⟨1, _⟩ => show win6_3.index t (1 : Fin 2) * 128 + 1 * i.val = i.val; rw [e1]; omega

/-- The second shift's block at any point is the array. -/
theorem blkT2_at (c : Dev nD) (t : Fin cfg6.N) (d : Fin 64) (z : Fin 1) :
    iblk6 V c 4 t (ix2 d z) = V c (Pipeline.arrRef spec6 4) (ix2 d z) := by
  obtain ⟨-, -, -, -, -, -, -, -, e0, e1, -⟩ := idx_facts t
  show V c (Pipeline.arrRef spec6 4) (((cfg6.win 4).blk t).view.emb (ix2 d z)) = _
  refine congrArg _ (funext fun a => Fin.ext ?_)
  match a with
  | ⟨0, _⟩ => show win6_4.index t (0 : Fin 2) * 64 + 1 * d.val = d.val; rw [e0]; omega
  | ⟨1, _⟩ => show win6_4.index t (1 : Fin 2) * 1 + 1 * z.val = z.val; rw [e1]; omega

/-- The first weights' block is the array, as functions. -/
theorem blkW1_fn (c : Dev nD) (t : Fin cfg6.N) : iblk6 V c 1 t = V c (Pipeline.arrRef spec6 1) :=
  funext fun j => by
    obtain ⟨i, k, rfl⟩ : ∃ (i : Fin 128) (k : Fin 64), j = ix2 i k := ⟨j 0, j 1, eq_ix2 j⟩
    exact blkW1_at V c t i k

theorem blkT1_fn (c : Dev nD) (t : Fin cfg6.N) : iblk6 V c 2 t = V c (Pipeline.arrRef spec6 2) :=
  funext fun j => by
    obtain ⟨i, z, rfl⟩ : ∃ (i : Fin 128) (z : Fin 1), j = ix2 i z := ⟨j 0, j 1, eq_ix2 j⟩
    exact blkT1_at V c t i z

theorem blkW2_fn (c : Dev nD) (t : Fin cfg6.N) : iblk6 V c 3 t = V c (Pipeline.arrRef spec6 3) :=
  funext fun j => by
    obtain ⟨d, i, rfl⟩ : ∃ (d : Fin 64) (i : Fin 128), j = ix2 d i := ⟨j 0, j 1, eq_ix2 j⟩
    exact blkW2_at V c t d i

theorem blkT2_fn (c : Dev nD) (t : Fin cfg6.N) : iblk6 V c 4 t = V c (Pipeline.arrRef spec6 4) :=
  funext fun j => by
    obtain ⟨d, z, rfl⟩ : ∃ (d : Fin 64) (z : Fin 1), j = ix2 d z := ⟨j 0, j 1, eq_ix2 j⟩
    exact blkT2_at V c t d z

omit V in
/-- A block whose column `q` is the array's column `col` has the array's value there. -/
theorem Gblk_congr (x0 : S64x16384.Idx → EReal) (x : S64x131072.Idx → EReal) (w1 : S128x64.Idx → EReal)
    (t1 : S128x1.Idx → EReal) (w2 : S64x128.Idx → EReal) (t2 : S64x1.Idx → EReal) (d : Fin 64) (q : Fin 16384)
    (col : Fin 131072) (h : ∀ k : Fin 64, x0 (ix2 k q) = x (ix2 k col)) :
    Gblk x0 w1 t1 w2 t2 d q = Garr x w1 t1 w2 t2 d col := by
  unfold Gblk Garr
  exact congrArg (fun z => lrelu (z + t2 (ix2 d (0 : Fin 1)))) (Finset.sum_congr rfl fun i _ =>
    congrArg (fun z => w2 (ix2 d i) * lrelu (z + t1 (ix2 i (0 : Fin 1)))) (Finset.sum_congr rfl fun k _ =>
      congrArg (w1 (ix2 i k) * ·) (h k)))

set_option maxHeartbeats 4000000 in
/-- A block's value is the arrays' at the block's column. -/
theorem Gblk_eq (c : Dev nD) (t : Fin cfg6.N) (ht : t.val < 8) (d : Fin 64) (q : Fin 16384) :
    Gblk (iblk6 V c 0 t) (iblk6 V c 1 t) (iblk6 V c 2 t) (iblk6 V c 3 t) (iblk6 V c 4 t) d q
      = Garr (V c (Pipeline.arrRef spec6 0)) (V c (Pipeline.arrRef spec6 1)) (V c (Pipeline.arrRef spec6 2)) (V c (Pipeline.arrRef spec6 3)) (V c (Pipeline.arrRef spec6 4)) d (colAt t.val q ht) := by
  rw [blkW1_fn V c t, blkT1_fn V c t, blkW2_fn V c t, blkT2_fn V c t]
  exact Gblk_congr (iblk6 V c 0 t) (V c (Pipeline.arrRef spec6 0)) (V c (Pipeline.arrRef spec6 1))
    (V c (Pipeline.arrRef spec6 2)) (V c (Pipeline.arrRef spec6 3)) (V c (Pipeline.arrRef spec6 4)) d q
    (colAt t.val q ht) (fun k => blkX_at V c t ht k q)

set_option maxHeartbeats 4000000 in
/-- What point t writes back is block t of the function G of the arrays the region reads. -/
theorem flushed_eq (c : Dev nD) (t : Fin cfg6.N) :
    (dat6 (F := Ideal) V c).flushed 5 t = ((cfg6.win 5).blk t).view.read (Elt Ideal)
      (G (V c (Pipeline.arrRef spec6 0)) (V c (Pipeline.arrRef spec6 1)) (V c (Pipeline.arrRef spec6 2)) (V c (Pipeline.arrRef spec6 3)) (V c (Pipeline.arrRef spec6 4))) := by
  have hN : t.val < 8 := lt_of_lt_of_eq t.isLt (show cfg6.N = 8 from N_6)
  obtain ⟨-, -, -, -, -, -, -, -, -, -, e0, e1⟩ := idx_facts t
  show (cfg6.win 5).cut (grid6.coords t) ((dat6 V c).after 5 t) = _
  rw [after6_5]
  unfold out6_5
  rw [View.canon_unit_zero hz2]
  simp only [View.ld_unit_zero (S := S64x16384) hz2, View.ld_unit_zero (S := S128x64) hz2,
    View.ld_unit_zero (S := S128x1) hz2, View.ld_unit_zero (S := S64x128) hz2, View.ld_unit_zero (S := S64x1) hz2]
  funext y
  obtain ⟨d, q, rfl⟩ : ∃ (d : Fin 64) (q : Fin 16384), y = ix2 d q := ⟨y 0, y 1, eq_ix2 y⟩
  refine (pay_apply _ _ _ _ _ d q).trans ?_
  show Gblk (iblk6 V c 0 t) (iblk6 V c 1 t) (iblk6 V c 2 t) (iblk6 V c 3 t) (iblk6 V c 4 t) d q
    = G (V c (Pipeline.arrRef spec6 0)) (V c (Pipeline.arrRef spec6 1)) (V c (Pipeline.arrRef spec6 2)) (V c (Pipeline.arrRef spec6 3)) (V c (Pipeline.arrRef spec6 4)) (((cfg6.win 5).blk t).view.emb (ix2 d q))
  have hemb : ((cfg6.win 5).blk t).view.emb (ix2 d q) = ix2 d (colAt t.val q hN) := by
    funext a; apply Fin.ext
    match a with
    | ⟨0, _⟩ => show win6_5.index t (0 : Fin 2) * 64 + 1 * d.val = d.val; rw [e0]; omega
    | ⟨1, _⟩ => show win6_5.index t (1 : Fin 2) * 16384 + 1 * q.val = t.val * 16384 + q.val; rw [e1]; omega
  rw [hemb, G_apply]
  exact Gblk_eq V c t hN d q

/-- The point that writes column `col`: col / 16384. -/
def ptOf (col : Fin 131072) : Fin cfg6.N :=
  ⟨col.val / 16384, by rw [show cfg6.N = 8 from N_6]; have := col.isLt; omega⟩

/-- Every index of the output array is in the block of its column's point. -/
theorem cover (i : S64x131072.Idx) :
    ∃ t : Fin cfg6.N, (cfg6.win 5).flush t = true ∧ i ∈ ((cfg6.win 5).blk t).view.set := by
  have h0 : (i 0).val < 64 := (i 0).isLt
  have h1 : (i 1).val < 131072 := (i 1).isLt
  refine ⟨ptOf ⟨(i 1).val, h1⟩, flush6_5 _, ?_⟩
  obtain ⟨-, -, -, -, -, -, -, -, -, -, e0, e1⟩ := idx_facts (ptOf ⟨(i 1).val, h1⟩)
  have ev : (ptOf ⟨(i 1).val, h1⟩).val = (i 1).val / 16384 := rfl
  show i ∈ ((View.whole main_v116).slice (win6_5.rect (ptOf ⟨(i 1).val, h1⟩))).set
  rw [View.set_slice_whole, Rect.mem_set_unit]
  intro a
  match a with
  | ⟨0, _⟩ =>
    show win6_5.index (ptOf ⟨(i 1).val, h1⟩) (0 : Fin 2) * 64 ≤ (i 0).val
      ∧ (i 0).val < win6_5.index (ptOf ⟨(i 1).val, h1⟩) (0 : Fin 2) * 64 + 64
    rw [e0]; omega
  | ⟨1, _⟩ =>
    show win6_5.index (ptOf ⟨(i 1).val, h1⟩) (1 : Fin 2) * 16384 ≤ (i 1).val
      ∧ (i 1).val < win6_5.index (ptOf ⟨(i 1).val, h1⟩) (1 : Fin 2) * 16384 + 16384
    rw [e1, ev]; omega

/-- The output array after the region. -/
theorem arrAt_5 (c : Dev nD) :
    (dat6 (F := Ideal) V c).arrAt 5 cfg6.N
      = G (V c (Pipeline.arrRef spec6 0)) (V c (Pipeline.arrRef spec6 1)) (V c (Pipeline.arrRef spec6 2)) (V c (Pipeline.arrRef spec6 3)) (V c (Pipeline.arrRef spec6 4)) :=
  (dat6 V c).arrAt_eq_of_cover 5 _ (fun t _ => flushed_eq V c t) cover

end Cert.ReferenceIdeal.Fin6

end
-- ==== Proof.RFlowD.lean ====
/-
  The idealized reference's run, read as mathematics — last part: the third block, whose second pass is the last region and
  accumulates nothing, and the output's layout: the [64, 32 · 4096] result reshaped and transposed to [32, 64, 64, 64] is
  the network's output as an array.
-/
import proofs.«126831_g2000503633499865_pallasbulk_555_4_alg».proof.Proof.RFlowC
import proofs.«126831_g2000503633499865_pallasbulk_555_4_alg».proof.Proof.RAcc5Val
import proofs.«126831_g2000503633499865_pallasbulk_555_4_alg».proof.Proof.RFin6Val

set_option maxRecDepth 16384

noncomputable section

namespace Cert.ReferenceIdeal.Flow

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## Region 5's two sums in the shared vocabulary, for any arrays -/

section
open Cert.ReferenceIdeal.RAccL
open Cert.ReferenceIdeal.RAcc0 (col pt chain sum_points)

theorem r5_sum_eq (x : S64x131072.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (hx : ∀ (k : Fin 64) (n : Fin 32) (p : Fin 4096), x (ix2 k (Net.colOf n p)) = A k (n, p))
    (hw1 : ∀ (ch : Fin 128) (k : Fin 64), w1f (ix2 ch k) = W1f ch k)
    (ht1 : ∀ ch : Fin 128, t1 (ix2 ch 0) = T1 ch)
    (hw2 : ∀ (d : Fin 64) (ch : Fin 128), w2 (ix2 d ch) = W2 d ch) (d : Fin 64) (u : Fin 1) :
    ∑ core : Fin 2, RAcc5.G5_4 x w1f t1 w2 (ix3 core d u)
      = Net.tot (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d) (col t p)) core = _
  refine (sum_points (fun q : Fin 131072 => y2At w1f t1 w2 (fun k => x (ix2 k q)) d)).trans ?_
  unfold Net.tot
  rw [Fintype.sum_prod_type]
  exact Finset.sum_congr rfl fun n _ => Finset.sum_congr rfl fun p _ => y2_net x w1f t1 w2 A W1f T1 W2 hx hw1 ht1 hw2 d n p

theorem r5_ssq_eq (x : S64x131072.Idx → EReal) (w1f : S128x64.Idx → EReal) (t1 : S128x1.Idx → EReal) (w2 : S64x128.Idx → EReal)
    (A : Fin 64 → Net.Px → EReal) (W1f : Fin 128 → Fin 64 → EReal) (T1 : Fin 128 → EReal) (W2 : Fin 64 → Fin 128 → EReal)
    (hx : ∀ (k : Fin 64) (n : Fin 32) (p : Fin 4096), x (ix2 k (Net.colOf n p)) = A k (n, p))
    (hw1 : ∀ (ch : Fin 128) (k : Fin 64), w1f (ix2 ch k) = W1f ch k)
    (ht1 : ∀ ch : Fin 128, t1 (ix2 ch 0) = T1 ch)
    (hw2 : ∀ (d : Fin 64) (ch : Fin 128), w2 (ix2 d ch) = W2 d ch) (d : Fin 64) (u : Fin 1) :
    ∑ core : Fin 2, RAcc5.G5_5 x w1f t1 w2 (ix3 core d u)
      = Net.tot2 (Net.conv W2 (fun (ch : Fin 128) (px : Net.Px) => Net.lrelu Net.slopec (Net.conv W1f A ch px + T1 ch))) d := by
  show ∑ core : Fin 2, chain (fun t => ∑ p : Fin 16384,
      (fun q : Fin 131072 => y2At w1f t1 w2 (fun k => x (ix2 k q)) d * y2At w1f t1 w2 (fun k => x (ix2 k q)) d) (col t p)) core = _
  refine (sum_points (fun q : Fin 131072 => y2At w1f t1 w2 (fun k => x (ix2 k q)) d * y2At w1f t1 w2 (fun k => x (ix2 k q)) d)).trans ?_
  unfold Net.tot2
  rw [Fintype.sum_prod_type]
  exact Finset.sum_congr rfl fun n _ => Finset.sum_congr rfl fun p _ => congrArg₂ (· * ·)
    (y2_net x w1f t1 w2 A W1f T1 W2 hx hw1 ht1 hw2 d n p) (y2_net x w1f t1 w2 A W1f T1 W2 hx hw1 ht1 hw2 d n p)

end

/-! ## Buffers that reach a later point of the run unchanged -/

theorem w10_arg14 : W10 (F := Ideal) m ρ c (Proc.devRef .tc main_arg14) = m ((c : Thread nD τ).loc main_arg14) :=
  calc W10 (F := Ideal) m ρ c (Proc.devRef .tc main_arg14)
    _ = W9 m ρ c (Proc.devRef .tc main_arg14) := W10_of_ne m ρ c main_arg14 (by decide)
    _ = W8 m ρ c (Proc.devRef .tc main_arg14) := by show StableHlo.after hostOps4 (W8 m ρ c) (Proc.devRef .tc main_arg14) = _; host_keep
    _ = W7 m ρ c (Proc.devRef .tc main_arg14) := W8_of_ne m ρ c main_arg14 (by decide)
    _ = W6 m ρ c (Proc.devRef .tc main_arg14) := by show StableHlo.after hostOps3 (W6 m ρ c) (Proc.devRef .tc main_arg14) = _; host_keep
    _ = W5 m ρ c (Proc.devRef .tc main_arg14) := W6_of_ne m ρ c main_arg14 (by decide)
    _ = W4 m ρ c (Proc.devRef .tc main_arg14) := by show StableHlo.after hostOps2 (W4 m ρ c) (Proc.devRef .tc main_arg14) = _; host_keep
    _ = W3 m ρ c (Proc.devRef .tc main_arg14) := W4_of_ne m ρ c main_arg14 (by decide)
    _ = W2 m ρ c (Proc.devRef .tc main_arg14) := by show StableHlo.after hostOps1 (W2 m ρ c) (Proc.devRef .tc main_arg14) = _; host_keep
    _ = W1 m ρ c (Proc.devRef .tc main_arg14) := W2_of_ne m ρ c main_arg14 (by decide)
    _ = W0 m ρ c (Proc.devRef .tc main_arg14) := by show StableHlo.after hostOps0 (W0 m ρ c) (Proc.devRef .tc main_arg14) = _; host_keep
    _ = m ((c : Thread nD τ).loc main_arg14) := rfl

theorem w10_arg15 : W10 (F := Ideal) m ρ c (Proc.devRef .tc main_arg15) = m ((c : Thread nD τ).loc main_arg15) :=
  calc W10 (F := Ideal) m ρ c (Proc.devRef .tc main_arg15)
    _ = W9 m ρ c (Proc.devRef .tc main_arg15) := W10_of_ne m ρ c main_arg15 (by decide)
    _ = W8 m ρ c (Proc.devRef .tc main_arg15) := by show StableHlo.after hostOps4 (W8 m ρ c) (Proc.devRef .tc main_arg15) = _; host_keep
    _ = W7 m ρ c (Proc.devRef .tc main_arg15) := W8_of_ne m ρ c main_arg15 (by decide)
    _ = W6 m ρ c (Proc.devRef .tc main_arg15) := by show StableHlo.after hostOps3 (W6 m ρ c) (Proc.devRef .tc main_arg15) = _; host_keep
    _ = W5 m ρ c (Proc.devRef .tc main_arg15) := W6_of_ne m ρ c main_arg15 (by decide)
    _ = W4 m ρ c (Proc.devRef .tc main_arg15) := by show StableHlo.after hostOps2 (W4 m ρ c) (Proc.devRef .tc main_arg15) = _; host_keep
    _ = W3 m ρ c (Proc.devRef .tc main_arg15) := W4_of_ne m ρ c main_arg15 (by decide)
    _ = W2 m ρ c (Proc.devRef .tc main_arg15) := by show StableHlo.after hostOps1 (W2 m ρ c) (Proc.devRef .tc main_arg15) = _; host_keep
    _ = W1 m ρ c (Proc.devRef .tc main_arg15) := W2_of_ne m ρ c main_arg15 (by decide)
    _ = W0 m ρ c (Proc.devRef .tc main_arg15) := by show StableHlo.after hostOps0 (W0 m ρ c) (Proc.devRef .tc main_arg15) = _; host_keep
    _ = m ((c : Thread nD τ).loc main_arg15) := rfl

theorem w10_arg13 : W10 (F := Ideal) m ρ c (Proc.devRef .tc main_arg13) = m ((c : Thread nD τ).loc main_arg13) :=
  calc W10 (F := Ideal) m ρ c (Proc.devRef .tc main_arg13)
    _ = W9 m ρ c (Proc.devRef .tc main_arg13) := (W10_arr m ρ c 5).trans (((dat4 (V9 m ρ) c).arrAt_in 5 rfl _).trans (A_eq4 (V9 m ρ) c 5))
    _ = W8 m ρ c (Proc.devRef .tc main_arg13) := by show StableHlo.after hostOps4 (W8 m ρ c) (Proc.devRef .tc main_arg13) = _; host_keep
    _ = W7 m ρ c (Proc.devRef .tc main_arg13) := W8_of_ne m ρ c main_arg13 (by decide)
    _ = W6 m ρ c (Proc.devRef .tc main_arg13) := by show StableHlo.after hostOps3 (W6 m ρ c) (Proc.devRef .tc main_arg13) = _; host_keep
    _ = W5 m ρ c (Proc.devRef .tc main_arg13) := W6_of_ne m ρ c main_arg13 (by decide)
    _ = W4 m ρ c (Proc.devRef .tc main_arg13) := by show StableHlo.after hostOps2 (W4 m ρ c) (Proc.devRef .tc main_arg13) = _; host_keep
    _ = W3 m ρ c (Proc.devRef .tc main_arg13) := W4_of_ne m ρ c main_arg13 (by decide)
    _ = W2 m ρ c (Proc.devRef .tc main_arg13) := by show StableHlo.after hostOps1 (W2 m ρ c) (Proc.devRef .tc main_arg13) = _; host_keep
    _ = W1 m ρ c (Proc.devRef .tc main_arg13) := W2_of_ne m ρ c main_arg13 (by decide)
    _ = W0 m ρ c (Proc.devRef .tc main_arg13) := by show StableHlo.after hostOps0 (W0 m ρ c) (Proc.devRef .tc main_arg13) = _; host_keep
    _ = m ((c : Thread nD τ).loc main_arg13) := rfl

theorem w11_v78_0_w10 : W11 (F := Ideal) m ρ c (Proc.devRef .tc main_v78_0) = W10 m ρ c (Proc.devRef .tc main_v78_0) :=
  calc W11 (F := Ideal) m ρ c (Proc.devRef .tc main_v78_0)
    _ = W10 m ρ c (Proc.devRef .tc main_v78_0) := by show StableHlo.after hostOps5 (W10 m ρ c) (Proc.devRef .tc main_v78_0) = _; host_keep

theorem w11_arg16 : W11 (F := Ideal) m ρ c (Proc.devRef .tc main_arg16) = m ((c : Thread nD τ).loc main_arg16) :=
  calc W11 (F := Ideal) m ρ c (Proc.devRef .tc main_arg16)
    _ = W10 m ρ c (Proc.devRef .tc main_arg16) := by show StableHlo.after hostOps5 (W10 m ρ c) (Proc.devRef .tc main_arg16) = _; host_keep
    _ = W9 m ρ c (Proc.devRef .tc main_arg16) := W10_of_ne m ρ c main_arg16 (by decide)
    _ = W8 m ρ c (Proc.devRef .tc main_arg16) := by show StableHlo.after hostOps4 (W8 m ρ c) (Proc.devRef .tc main_arg16) = _; host_keep
    _ = W7 m ρ c (Proc.devRef .tc main_arg16) := W8_of_ne m ρ c main_arg16 (by decide)
    _ = W6 m ρ c (Proc.devRef .tc main_arg16) := by show StableHlo.after hostOps3 (W6 m ρ c) (Proc.devRef .tc main_arg16) = _; host_keep
    _ = W5 m ρ c (Proc.devRef .tc main_arg16) := W6_of_ne m ρ c main_arg16 (by decide)
    _ = W4 m ρ c (Proc.devRef .tc main_arg16) := by show StableHlo.after hostOps2 (W4 m ρ c) (Proc.devRef .tc main_arg16) = _; host_keep
    _ = W3 m ρ c (Proc.devRef .tc main_arg16) := W4_of_ne m ρ c main_arg16 (by decide)
    _ = W2 m ρ c (Proc.devRef .tc main_arg16) := by show StableHlo.after hostOps1 (W2 m ρ c) (Proc.devRef .tc main_arg16) = _; host_keep
    _ = W1 m ρ c (Proc.devRef .tc main_arg16) := W2_of_ne m ρ c main_arg16 (by decide)
    _ = W0 m ρ c (Proc.devRef .tc main_arg16) := by show StableHlo.after hostOps0 (W0 m ρ c) (Proc.devRef .tc main_arg16) = _; host_keep
    _ = m ((c : Thread nD τ).loc main_arg16) := rfl

theorem w12_arg17 : W12 (F := Ideal) m ρ c (Proc.devRef .tc main_arg17) = m ((c : Thread nD τ).loc main_arg17) :=
  calc W12 (F := Ideal) m ρ c (Proc.devRef .tc main_arg17)
    _ = W11 m ρ c (Proc.devRef .tc main_arg17) := W12_of_ne m ρ c main_arg17 (by decide)
    _ = W10 m ρ c (Proc.devRef .tc main_arg17) := by show StableHlo.after hostOps5 (W10 m ρ c) (Proc.devRef .tc main_arg17) = _; host_keep
    _ = W9 m ρ c (Proc.devRef .tc main_arg17) := W10_of_ne m ρ c main_arg17 (by decide)
    _ = W8 m ρ c (Proc.devRef .tc main_arg17) := by show StableHlo.after hostOps4 (W8 m ρ c) (Proc.devRef .tc main_arg17) = _; host_keep
    _ = W7 m ρ c (Proc.devRef .tc main_arg17) := W8_of_ne m ρ c main_arg17 (by decide)
    _ = W6 m ρ c (Proc.devRef .tc main_arg17) := by show StableHlo.after hostOps3 (W6 m ρ c) (Proc.devRef .tc main_arg17) = _; host_keep
    _ = W5 m ρ c (Proc.devRef .tc main_arg17) := W6_of_ne m ρ c main_arg17 (by decide)
    _ = W4 m ρ c (Proc.devRef .tc main_arg17) := by show StableHlo.after hostOps2 (W4 m ρ c) (Proc.devRef .tc main_arg17) = _; host_keep
    _ = W3 m ρ c (Proc.devRef .tc main_arg17) := W4_of_ne m ρ c main_arg17 (by decide)
    _ = W2 m ρ c (Proc.devRef .tc main_arg17) := by show StableHlo.after hostOps1 (W2 m ρ c) (Proc.devRef .tc main_arg17) = _; host_keep
    _ = W1 m ρ c (Proc.devRef .tc main_arg17) := W2_of_ne m ρ c main_arg17 (by decide)
    _ = W0 m ρ c (Proc.devRef .tc main_arg17) := by show StableHlo.after hostOps0 (W0 m ρ c) (Proc.devRef .tc main_arg17) = _; host_keep
    _ = m ((c : Thread nD τ).loc main_arg17) := rfl

theorem w12_arg18 : W12 (F := Ideal) m ρ c (Proc.devRef .tc main_arg18) = m ((c : Thread nD τ).loc main_arg18) :=
  calc W12 (F := Ideal) m ρ c (Proc.devRef .tc main_arg18)
    _ = W11 m ρ c (Proc.devRef .tc main_arg18) := W12_of_ne m ρ c main_arg18 (by decide)
    _ = W10 m ρ c (Proc.devRef .tc main_arg18) := by show StableHlo.after hostOps5 (W10 m ρ c) (Proc.devRef .tc main_arg18) = _; host_keep
    _ = W9 m ρ c (Proc.devRef .tc main_arg18) := W10_of_ne m ρ c main_arg18 (by decide)
    _ = W8 m ρ c (Proc.devRef .tc main_arg18) := by show StableHlo.after hostOps4 (W8 m ρ c) (Proc.devRef .tc main_arg18) = _; host_keep
    _ = W7 m ρ c (Proc.devRef .tc main_arg18) := W8_of_ne m ρ c main_arg18 (by decide)
    _ = W6 m ρ c (Proc.devRef .tc main_arg18) := by show StableHlo.after hostOps3 (W6 m ρ c) (Proc.devRef .tc main_arg18) = _; host_keep
    _ = W5 m ρ c (Proc.devRef .tc main_arg18) := W6_of_ne m ρ c main_arg18 (by decide)
    _ = W4 m ρ c (Proc.devRef .tc main_arg18) := by show StableHlo.after hostOps2 (W4 m ρ c) (Proc.devRef .tc main_arg18) = _; host_keep
    _ = W3 m ρ c (Proc.devRef .tc main_arg18) := W4_of_ne m ρ c main_arg18 (by decide)
    _ = W2 m ρ c (Proc.devRef .tc main_arg18) := by show StableHlo.after hostOps1 (W2 m ρ c) (Proc.devRef .tc main_arg18) = _; host_keep
    _ = W1 m ρ c (Proc.devRef .tc main_arg18) := W2_of_ne m ρ c main_arg18 (by decide)
    _ = W0 m ρ c (Proc.devRef .tc main_arg18) := by show StableHlo.after hostOps0 (W0 m ρ c) (Proc.devRef .tc main_arg18) = _; host_keep
    _ = m ((c : Thread nD τ).loc main_arg18) := rfl

theorem w12_arg16 : W12 (F := Ideal) m ρ c (Proc.devRef .tc main_arg16) = m ((c : Thread nD τ).loc main_arg16) :=
  calc W12 (F := Ideal) m ρ c (Proc.devRef .tc main_arg16)
    _ = W11 m ρ c (Proc.devRef .tc main_arg16) := (W12_arr m ρ c 3).trans (((dat5 (V11 m ρ) c).arrAt_in 3 rfl _).trans (A_eq5 (V11 m ρ) c 3))
    _ = W10 m ρ c (Proc.devRef .tc main_arg16) := by show StableHlo.after hostOps5 (W10 m ρ c) (Proc.devRef .tc main_arg16) = _; host_keep
    _ = W9 m ρ c (Proc.devRef .tc main_arg16) := W10_of_ne m ρ c main_arg16 (by decide)
    _ = W8 m ρ c (Proc.devRef .tc main_arg16) := by show StableHlo.after hostOps4 (W8 m ρ c) (Proc.devRef .tc main_arg16) = _; host_keep
    _ = W7 m ρ c (Proc.devRef .tc main_arg16) := W8_of_ne m ρ c main_arg16 (by decide)
    _ = W6 m ρ c (Proc.devRef .tc main_arg16) := by show StableHlo.after hostOps3 (W6 m ρ c) (Proc.devRef .tc main_arg16) = _; host_keep
    _ = W5 m ρ c (Proc.devRef .tc main_arg16) := W6_of_ne m ρ c main_arg16 (by decide)
    _ = W4 m ρ c (Proc.devRef .tc main_arg16) := by show StableHlo.after hostOps2 (W4 m ρ c) (Proc.devRef .tc main_arg16) = _; host_keep
    _ = W3 m ρ c (Proc.devRef .tc main_arg16) := W4_of_ne m ρ c main_arg16 (by decide)
    _ = W2 m ρ c (Proc.devRef .tc main_arg16) := by show StableHlo.after hostOps1 (W2 m ρ c) (Proc.devRef .tc main_arg16) = _; host_keep
    _ = W1 m ρ c (Proc.devRef .tc main_arg16) := W2_of_ne m ρ c main_arg16 (by decide)
    _ = W0 m ρ c (Proc.devRef .tc main_arg16) := by show StableHlo.after hostOps0 (W0 m ρ c) (Proc.devRef .tc main_arg16) = _; host_keep
    _ = m ((c : Thread nD τ).loc main_arg16) := rfl

theorem w13_v78_0_w10 : W13 (F := Ideal) m ρ c (Proc.devRef .tc main_v78_0) = W10 m ρ c (Proc.devRef .tc main_v78_0) :=
  calc W13 (F := Ideal) m ρ c (Proc.devRef .tc main_v78_0)
    _ = W12 m ρ c (Proc.devRef .tc main_v78_0) := by show StableHlo.after hostOps6 (W12 m ρ c) (Proc.devRef .tc main_v78_0) = _; host_keep
    _ = W11 m ρ c (Proc.devRef .tc main_v78_0) := (W12_arr m ρ c 0).trans (((dat5 (V11 m ρ) c).arrAt_in 0 rfl _).trans (A_eq5 (V11 m ρ) c 0))
    _ = W10 m ρ c (Proc.devRef .tc main_v78_0) := by show StableHlo.after hostOps5 (W10 m ρ c) (Proc.devRef .tc main_v78_0) = _; host_keep

theorem w13_v96_w11 : W13 (F := Ideal) m ρ c (Proc.devRef .tc main_v96) = W11 m ρ c (Proc.devRef .tc main_v96) :=
  calc W13 (F := Ideal) m ρ c (Proc.devRef .tc main_v96)
    _ = W12 m ρ c (Proc.devRef .tc main_v96) := by show StableHlo.after hostOps6 (W12 m ρ c) (Proc.devRef .tc main_v96) = _; host_keep
    _ = W11 m ρ c (Proc.devRef .tc main_v96) := (W12_arr m ρ c 1).trans (((dat5 (V11 m ρ) c).arrAt_in 1 rfl _).trans (A_eq5 (V11 m ρ) c 1))

theorem w13_v94_w11 : W13 (F := Ideal) m ρ c (Proc.devRef .tc main_v94) = W11 m ρ c (Proc.devRef .tc main_v94) :=
  calc W13 (F := Ideal) m ρ c (Proc.devRef .tc main_v94)
    _ = W12 m ρ c (Proc.devRef .tc main_v94) := by show StableHlo.after hostOps6 (W12 m ρ c) (Proc.devRef .tc main_v94) = _; host_keep
    _ = W11 m ρ c (Proc.devRef .tc main_v94) := (W12_arr m ρ c 2).trans (((dat5 (V11 m ρ) c).arrAt_in 2 rfl _).trans (A_eq5 (V11 m ρ) c 2))

/-! ## The host operations before block 2's first pass: its first normalisation's scale and shift, the scale folded into W1 -/

set_option maxHeartbeats 4000000 in
theorem s1_2_eq : V11 (F := Ideal) m ρ c main_v92
    = HostFold.scaleVec reducesTo_S2x128x1_S128x1_d0 h_S_ bcast_S_S128x1
        (W10 m ρ c (Proc.devRef .tc main_v78_1)) (W10 m ρ c (Proc.devRef .tc main_v78_2)) (W10 m ρ c (Proc.devRef .tc main_arg14)) := by
  show StableHlo.after hostOps5 (W10 m ρ c) (Proc.devRef .tc main_v92) = _
  after_results_simp
  rfl

theorem s1_2_at (ch : Fin 128) :
    V11 (F := Ideal) m ρ c main_v92 (ix2 ch 0) = Net.bnScale Net.Nc Net.epsc (Net.conv (q2 m c).W1 (A2 m c)) (q2 m c).g1 ch := by
  rw [s1_2_eq, HostFold.scaleVec_apply _ _ _ (by decide)]
  have e1 := sumN_1 m ρ c ch 0
  have e2 := ssqN_1 m ρ c ch 0
  unfold arr at e1 e2
  rw [e1, e2, w10_arg14]
  rfl

set_option maxHeartbeats 4000000 in
theorem t1_2_eq : V11 (F := Ideal) m ρ c main_v94
    = HostFold.shiftVec reducesTo_S2x128x1_S128x1_d0 h_S_ bcast_S_S128x1
        (W10 m ρ c (Proc.devRef .tc main_v78_1)) (W10 m ρ c (Proc.devRef .tc main_v78_2)) (W10 m ρ c (Proc.devRef .tc main_arg14))
        (W10 m ρ c (Proc.devRef .tc main_arg15)) := by
  show StableHlo.after hostOps5 (W10 m ρ c) (Proc.devRef .tc main_v94) = _
  after_results_simp
  rfl

theorem t1_2_at (ch : Fin 128) :
    V11 (F := Ideal) m ρ c main_v94 (ix2 ch 0)
      = Net.bnShift Net.Nc Net.epsc (Net.conv (q2 m c).W1 (A2 m c)) (q2 m c).g1 (q2 m c).b1 ch := by
  rw [t1_2_eq, HostFold.shiftVec_apply _ _ _ (by decide)]
  have e1 := sumN_1 m ρ c ch 0
  have e2 := ssqN_1 m ρ c ch 0
  unfold arr at e1 e2
  rw [e1, e2, w10_arg14, w10_arg15]
  rfl

set_option maxHeartbeats 4000000 in
theorem w1f_2_eq : V11 (F := Ideal) m ρ c main_v96
    = HostFold.scaleRows bcast_S128x1_S128x64_0_1 (W10 m ρ c (Proc.devRef .tc main_arg13))
        (HostFold.scaleVec reducesTo_S2x128x1_S128x1_d0 h_S_ bcast_S_S128x1
        (W10 m ρ c (Proc.devRef .tc main_v78_1)) (W10 m ρ c (Proc.devRef .tc main_v78_2)) (W10 m ρ c (Proc.devRef .tc main_arg14))) := by
  show StableHlo.after hostOps5 (W10 m ρ c) (Proc.devRef .tc main_v96) = _
  after_results_simp
  rfl

theorem w1f_2_at (ch : Fin 128) (k : Fin 64) :
    V11 (F := Ideal) m ρ c main_v96 (ix2 ch k)
      = (q2 m c).W1 ch k * Net.bnScale Net.Nc Net.epsc (Net.conv (q2 m c).W1 (A2 m c)) (q2 m c).g1 ch := by
  rw [w1f_2_eq, HostFold.scaleRows_apply, ← s1_2_eq, s1_2_at, w10_arg13]
  rfl

/-! ## Block 2's first pass (region 5): the sums of the second convolution before its normalisation -/

/-- Block 2's second convolution before its normalisation. -/
abbrev Y22 : Fin 64 → Net.Px → EReal :=
  Net.pre2 Net.Nc Net.epsc Net.slopec (q2 m c).W1 (q2 m c).g1 (q2 m c).b1 (q2 m c).W2 (A2 m c)

theorem e5_act_at (k : Fin 64) (n : Fin 32) (p : Fin 4096) :
    V11 (F := Ideal) m ρ c main_v78_0 (ix2 k (Net.colOf n p)) = (A2 m c) k (n, p) := by
  have e : V11 (F := Ideal) m ρ c main_v78_0 = W10 m ρ c (Proc.devRef .tc main_v78_0) := w11_v78_0_w10 m ρ c
  rw [e]; exact act_2_at m ρ c k n p

theorem e5_w2_at (d : Fin 64) (ch : Fin 128) :
    V11 (F := Ideal) m ρ c main_arg16 (ix2 d ch) = (q2 m c).W2 d ch := by
  have e : V11 (F := Ideal) m ρ c main_arg16 = m ((c : Thread nD τ).loc main_arg16) := w11_arg16 m ρ c
  rw [e]; rfl

theorem acc5_sum : W12 (F := Ideal) m ρ c (Proc.devRef .tc main_v97_0)
    = RAcc5.G5_4 (V11 m ρ c main_v78_0) (V11 m ρ c main_v96) (V11 m ρ c main_v94) (V11 m ρ c main_arg16) :=
  (W12_arr m ρ c 4).trans (RAcc5.arrAt_4 (V11 m ρ) c)

theorem acc5_ssq : W12 (F := Ideal) m ρ c (Proc.devRef .tc main_v97_1)
    = RAcc5.G5_5 (V11 m ρ c main_v78_0) (V11 m ρ c main_v96) (V11 m ρ c main_v94) (V11 m ρ c main_arg16) :=
  (W12_arr m ρ c 5).trans (RAcc5.arrAt_5 (V11 m ρ) c)

theorem sum2_2 (d : Fin 64) (u : Fin 1) :
    ∑ core : Fin 2, arr S2x64x1 (W12 (F := Ideal) m ρ c (Proc.devRef .tc main_v97_0)) (ix3 core d u) = Net.tot (Y22 m c) d := by
  unfold arr
  rw [acc5_sum]
  exact r5_sum_eq _ _ _ _ (A2 m c) (fun ch k => (q2 m c).W1 ch k * Net.bnScale Net.Nc Net.epsc (Net.conv (q2 m c).W1 (A2 m c)) (q2 m c).g1 ch) (fun ch => Net.bnShift Net.Nc Net.epsc (Net.conv (q2 m c).W1 (A2 m c)) (q2 m c).g1 (q2 m c).b1 ch) (q2 m c).W2
    (e5_act_at m ρ c) (w1f_2_at m ρ c) (t1_2_at m ρ c) (e5_w2_at m ρ c) d u

theorem ssq2_2 (d : Fin 64) (u : Fin 1) :
    ∑ core : Fin 2, arr S2x64x1 (W12 (F := Ideal) m ρ c (Proc.devRef .tc main_v97_1)) (ix3 core d u) = Net.tot2 (Y22 m c) d := by
  unfold arr
  rw [acc5_ssq]
  exact r5_ssq_eq _ _ _ _ (A2 m c) (fun ch k => (q2 m c).W1 ch k * Net.bnScale Net.Nc Net.epsc (Net.conv (q2 m c).W1 (A2 m c)) (q2 m c).g1 ch) (fun ch => Net.bnShift Net.Nc Net.epsc (Net.conv (q2 m c).W1 (A2 m c)) (q2 m c).g1 (q2 m c).b1 ch) (q2 m c).W2
    (e5_act_at m ρ c) (w1f_2_at m ρ c) (t1_2_at m ρ c) (e5_w2_at m ρ c) d u

/-! ## The host operations after it: the second normalisation's scale and shift, the scale folded into W2 -/

set_option maxHeartbeats 4000000 in
theorem s2_2_eq : V13 (F := Ideal) m ρ c main_v111
    = HostFold.scaleVec reducesTo_S2x64x1_S64x1_d0 h_S_ bcast_S_S64x1
        (W12 m ρ c (Proc.devRef .tc main_v97_0)) (W12 m ρ c (Proc.devRef .tc main_v97_1)) (W12 m ρ c (Proc.devRef .tc main_arg17)) := by
  show StableHlo.after hostOps6 (W12 m ρ c) (Proc.devRef .tc main_v111) = _
  after_results_simp
  rfl

theorem s2_2_at (d : Fin 64) :
    V13 (F := Ideal) m ρ c main_v111 (ix2 d 0) = Net.bnScale Net.Nc Net.epsc (Y22 m c) (q2 m c).g2 d := by
  rw [s2_2_eq, HostFold.scaleVec_apply _ _ _ (by decide)]
  have e1 := sum2_2 m ρ c d 0
  have e2 := ssq2_2 m ρ c d 0
  unfold arr at e1 e2
  rw [e1, e2, w12_arg17]
  rfl

set_option maxHeartbeats 4000000 in
theorem t2_2_eq : V13 (F := Ideal) m ρ c main_v113
    = HostFold.shiftVec reducesTo_S2x64x1_S64x1_d0 h_S_ bcast_S_S64x1
        (W12 m ρ c (Proc.devRef .tc main_v97_0)) (W12 m ρ c (Proc.devRef .tc main_v97_1)) (W12 m ρ c (Proc.devRef .tc main_arg17))
        (W12 m ρ c (Proc.devRef .tc main_arg18)) := by
  show StableHlo.after hostOps6 (W12 m ρ c) (Proc.devRef .tc main_v113) = _
  after_results_simp
  rfl

theorem t2_2_at (d : Fin 64) :
    V13 (F := Ideal) m ρ c main_v113 (ix2 d 0) = Net.bnShift Net.Nc Net.epsc (Y22 m c) (q2 m c).g2 (q2 m c).b2 d := by
  rw [t2_2_eq, HostFold.shiftVec_apply _ _ _ (by decide)]
  have e1 := sum2_2 m ρ c d 0
  have e2 := ssq2_2 m ρ c d 0
  unfold arr at e1 e2
  rw [e1, e2, w12_arg17, w12_arg18]
  rfl

set_option maxHeartbeats 4000000 in
theorem w2f_2_eq : V13 (F := Ideal) m ρ c main_v115
    = HostFold.scaleRows bcast_S64x1_S64x128_0_1 (W12 m ρ c (Proc.devRef .tc main_arg16))
        (HostFold.scaleVec reducesTo_S2x64x1_S64x1_d0 h_S_ bcast_S_S64x1
        (W12 m ρ c (Proc.devRef .tc main_v97_0)) (W12 m ρ c (Proc.devRef .tc main_v97_1)) (W12 m ρ c (Proc.devRef .tc main_arg17))) := by
  show StableHlo.after hostOps6 (W12 m ρ c) (Proc.devRef .tc main_v115) = _
  after_results_simp
  rfl

theorem w2f_2_at (d : Fin 64) (ch : Fin 128) :
    V13 (F := Ideal) m ρ c main_v115 (ix2 d ch) = (q2 m c).W2 d ch * Net.bnScale Net.Nc Net.epsc (Y22 m c) (q2 m c).g2 d := by
  rw [w2f_2_eq, HostFold.scaleRows_apply, ← s2_2_eq, s2_2_at, w12_arg16]
  rfl

/-! ## Block 2's second pass (region 6) -/

theorem e6_act_at (k : Fin 64) (n : Fin 32) (p : Fin 4096) :
    V13 (F := Ideal) m ρ c main_v78_0 (ix2 k (Net.colOf n p)) = (A2 m c) k (n, p) := by
  have e : V13 (F := Ideal) m ρ c main_v78_0 = W10 m ρ c (Proc.devRef .tc main_v78_0) := w13_v78_0_w10 m ρ c
  rw [e]; exact act_2_at m ρ c k n p

theorem e6_w1f_at (ch : Fin 128) (k : Fin 64) :
    V13 (F := Ideal) m ρ c main_v96 (ix2 ch k)
      = (q2 m c).W1 ch k * Net.bnScale Net.Nc Net.epsc (Net.conv (q2 m c).W1 (A2 m c)) (q2 m c).g1 ch := by
  have e : V13 (F := Ideal) m ρ c main_v96 = V11 m ρ c main_v96 := w13_v96_w11 m ρ c
  rw [e]; exact w1f_2_at m ρ c ch k

theorem e6_t1_at (ch : Fin 128) :
    V13 (F := Ideal) m ρ c main_v94 (ix2 ch 0)
      = Net.bnShift Net.Nc Net.epsc (Net.conv (q2 m c).W1 (A2 m c)) (q2 m c).g1 (q2 m c).b1 ch := by
  have e : V13 (F := Ideal) m ρ c main_v94 = V11 m ρ c main_v94 := w13_v94_w11 m ρ c
  rw [e]; exact t1_2_at m ρ c ch

/-! ## The last region and the output's layout -/

/-- The last region's value in the shared vocabulary, for ANY arrays that read the activation and the weights. -/
theorem fin6_net (x : S64x131072.Idx → EReal) (w1 : S128x64.Idx → EReal) (t1 : S128x1.Idx → EReal) (w2 : S64x128.Idx → EReal)
    (t2 : S64x1.Idx → EReal) (A : Fin 64 → Net.Px → EReal) (W1f : Fin 128 → Fin 64 → EReal) (T1 : Fin 128 → EReal)
    (W2f : Fin 64 → Fin 128 → EReal) (T2 : Fin 64 → EReal)
    (hx : ∀ (k : Fin 64) (n : Fin 32) (p : Fin 4096), x (ix2 k (Net.colOf n p)) = A k (n, p))
    (hw1 : ∀ (ch : Fin 128) (k : Fin 64), w1 (ix2 ch k) = W1f ch k) (ht1 : ∀ ch : Fin 128, t1 (ix2 ch 0) = T1 ch)
    (hw2 : ∀ (d : Fin 64) (ch : Fin 128), w2 (ix2 d ch) = W2f d ch) (ht2 : ∀ d : Fin 64, t2 (ix2 d 0) = T2 d)
    (d : Fin 64) (n : Fin 32) (p : Fin 4096) :
    Fin6.G x w1 t1 w2 t2 (ix2 d (Net.colOf n p))
      = Net.lrelu Net.slopec (Net.conv W2f (fun (ch : Fin 128) (px : Net.Px) =>
          Net.lrelu Net.slopec (Net.conv W1f A ch px + T1 ch)) d (n, p) + T2 d) := by
  show Net.lrelu Net.slopec ((∑ ch : Fin 128, w2 (ix2 d ch) * Net.lrelu Net.slopec
      ((∑ k : Fin 64, w1 (ix2 ch k) * x (ix2 k (Net.colOf n p))) + t1 (ix2 ch 0))) + t2 (ix2 d 0)) = _
  exact congrArg (Net.lrelu Net.slopec) (congrArg₂ (· + ·)
    (Finset.sum_congr rfl fun ch _ => congrArg₂ (· * ·) (hw2 d ch) (congrArg (Net.lrelu Net.slopec) (congrArg₂ (· + ·)
      (Finset.sum_congr rfl fun k _ => congrArg₂ (· * ·) (hw1 ch k) (hx k n p)) (ht1 ch)))) (ht2 d))

theorem out6_eq : W14 (F := Ideal) m ρ c (Proc.devRef .tc main_v116)
    = Fin6.G (V13 m ρ c main_v78_0) (V13 m ρ c main_v96) (V13 m ρ c main_v94) (V13 m ρ c main_v115) (V13 m ρ c main_v113) :=
  (W14_arr m ρ c 5).trans (Fin6.arrAt_5 (V13 m ρ) c)

/-- The network's output, in the column layout. -/
theorem act_3_at (d : Fin 64) (n : Fin 32) (p : Fin 4096) :
    W14 (F := Ideal) m ρ c (Proc.devRef .tc main_v116) (ix2 d (Net.colOf n p)) = (A3 m c) d (n, p) := by
  rw [out6_eq]
  exact fin6_net _ _ _ _ _ (A2 m c) (fun ch k => (q2 m c).W1 ch k * Net.bnScale Net.Nc Net.epsc (Net.conv (q2 m c).W1 (A2 m c)) (q2 m c).g1 ch) (fun ch => Net.bnShift Net.Nc Net.epsc (Net.conv (q2 m c).W1 (A2 m c)) (q2 m c).g1 (q2 m c).b1 ch) (fun d ch => (q2 m c).W2 d ch * Net.bnScale Net.Nc Net.epsc (Y22 m c) (q2 m c).g2 d) (fun d => Net.bnShift Net.Nc Net.epsc (Y22 m c) (q2 m c).g2 (q2 m c).b2 d)
    (e6_act_at m ρ c) (e6_w1f_at m ρ c) (e6_t1_at m ρ c) (w2f_2_at m ρ c) (t2_2_at m ρ c) d n p

theorem v118_eq : W15 (F := Ideal) m ρ c (Proc.devRef .tc main_v118)
    = transpose S32x64x64x64 [1, 0, 2, 3] (shapeCast S64x32x64x64 (W14 m ρ c (Proc.devRef .tc main_v116)) shapeCasts_S64x131072_S64x32x64x64)
        transposes_S64x32x64x64_S32x64x64x64_1_0_2_3 := by
  show StableHlo.after hostOps7 (W14 m ρ c) (Proc.devRef .tc main_v118) = _
  after_results
  rfl

/-- THE RESULT: the network's output laid out as [32, 64, 64, 64]. -/
theorem result_eq : W15 (F := Ideal) m ρ c (Proc.devRef .tc main_v118) = Net.outOf (A3 m c) := by
  rw [v118_eq]
  funext i
  obtain ⟨n, d, h, w, rfl⟩ : ∃ (n : Fin 32) (d : Fin 64) (h w : Fin 64), i = ix4 n d h w := ⟨i 0, i 1, i 2, i 3, eq_ix4 i⟩
  refine (transpose_apply _ _ _ _ (ix4 d n h w) fun b => match b with
      | ⟨0, _⟩ => rfl | ⟨1, _⟩ => rfl | ⟨2, _⟩ => rfl | ⟨3, _⟩ => rfl).trans ?_
  refine (shapeCast_apply _ _ _ (ix2 d (Net.colOf n (Net.posOf h w))) ?_).trans ?_
  · show (S64x131072.rowMajor (ix2 d (Net.colOf n (Net.posOf h w)))).val = (S64x32x64x64.rowMajor (ix4 d n h w)).val
    rw [Shape.rowMajor_val_four, Shape.rowMajor_val_two]
    show d.val * 131072 + (n.val * 4096 + (h.val * 64 + w.val)) = ((d.val * 32 + n.val) * 64 + h.val) * 64 + w.val
    omega
  · exact act_3_at m ρ c d n (Net.posOf h w)

end Cert.ReferenceIdeal.Flow

end
-- ==== Proof.FiniteElt.lean ====
/-
  From the precondition's test to a real number: an entry x whose test |x| < +inf holds is neither infinity, so it is a
  real; and a whole array passes jnp.all of that test only if every entry does.
-/
import Idealize.ShloMosaic.Lib.IdealHost
import Idealize.ShloMosaic.Lib.ReduceAll
import Idealize.ShloMosaic.Lib.ValueIdx
import Idealize.ShloMosaic.PureOps.Ideal.Laws

noncomputable section

namespace Cert.FiniteElt

open Idealize.ShloMosaic Idealize.ShloMosaic.ValueIdx

/-- The pattern of +inf denotes the top element. -/
theorem ofBits_inf : Ideal.ofBits .f32 0x7F800000#32 = (⊤ : EReal) := by simp [Ideal.ofBits, Ideal.ieee]

/-- An extended real whose absolute value is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- An array that passes the test "all |x| < +inf" holds real numbers only. -/
theorem real_of_all_lt_inf {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi (cmpf .olt (Host.absf x) (broadcastInDim S ![] hb (constant (F := Ideal) ⟨0, ![]⟩ .f32 0x7F800000#32)))
      (constantI ⟨0, ![]⟩ 1 1#1) hr hu ix0 = 1#1) (i : S.Idx) : ∃ r : ℝ, x i = (r : EReal) := by
  have e := Host.reduce_andi_all _ _ hr hu ix0 h i
  rw [cmpf_apply, broadcastInDim_scalar_apply, constant_apply, ofBits_inf] at e
  refine real_of_abs_lt_top (x i) ?_
  by_contra hn
  have : FloatOps.cmpf .olt (Host.absf x i) (⊤ : EReal) = 0#1 := by
    show Ideal.cmp .olt (max (x i) (-(x i))) ⊤ = 0#1
    unfold Ideal.cmp
    simp [hn]
  rw [this] at e
  exact absurd e (by decide)

end Cert.FiniteElt

end
-- ==== Proof.Finite.lean ====
/-
  The precondition read: "every float input is finite" is, array by array, jnp.all (|x| < +inf), and-ed together; where the
  conjunction is 1 every one of the nineteen arrays holds real numbers only.
-/
import proofs.«126831_g2000503633499865_pallasbulk_555_4_alg».proof.Pre_finite_inputs
import proofs.«126831_g2000503633499865_pallasbulk_555_4_alg».proof.Proof.FiniteElt
import Idealize.ShloMosaic.Lib.Affine

set_option maxRecDepth 16384

noncomputable section

namespace Cert.Pre_finite_inputs.Read

open Cert.Pre_finite_inputs Cert.Pre_finite_inputs.Facts Cert.FiniteElt
open Idealize.ShloMosaic Idealize.ShloMosaic.ValueIdx

variable [Facts]

/-- Where the precondition's word is 1, every entry of every argument array is a real number. -/
theorem reals_of_pre (a0 : FVec Ideal S32x64x64x64 .f32) (a1 : FVec Ideal S128x64 .f32) (a2 : FVec Ideal S128x1 .f32) (a3 : FVec Ideal S128x1 .f32) (a4 : FVec Ideal S64x128 .f32) (a5 : FVec Ideal S64x1 .f32) (a6 : FVec Ideal S64x1 .f32) (a7 : FVec Ideal S128x64 .f32) (a8 : FVec Ideal S128x1 .f32) (a9 : FVec Ideal S128x1 .f32) (a10 : FVec Ideal S64x128 .f32) (a11 : FVec Ideal S64x1 .f32) (a12 : FVec Ideal S64x1 .f32) (a13 : FVec Ideal S128x64 .f32) (a14 : FVec Ideal S128x1 .f32) (a15 : FVec Ideal S128x1 .f32) (a16 : FVec Ideal S64x128 .f32) (a17 : FVec Ideal S64x1 .f32) (a18 : FVec Ideal S64x1 .f32)
    (h : fn (F := Ideal) a0 a1 a2 a3 a4 a5 a6 a7 a8 a9 a10 a11 a12 a13 a14 a15 a16 a17 a18 = fun _ => 1#1) :
    (∀ i, ∃ r : ℝ, a0 i = (r : EReal))
    ∧ (∀ i, ∃ r : ℝ, a1 i = (r : EReal))
    ∧ (∀ i, ∃ r : ℝ, a2 i = (r : EReal))
    ∧ (∀ i, ∃ r : ℝ, a3 i = (r : EReal))
    ∧ (∀ i, ∃ r : ℝ, a4 i = (r : EReal))
    ∧ (∀ i, ∃ r : ℝ, a5 i = (r : EReal))
    ∧ (∀ i, ∃ r : ℝ, a6 i = (r : EReal))
    ∧ (∀ i, ∃ r : ℝ, a7 i = (r : EReal))
    ∧ (∀ i, ∃ r : ℝ, a8 i = (r : EReal))
    ∧ (∀ i, ∃ r : ℝ, a9 i = (r : EReal))
    ∧ (∀ i, ∃ r : ℝ, a10 i = (r : EReal))
    ∧ (∀ i, ∃ r : ℝ, a11 i = (r : EReal))
    ∧ (∀ i, ∃ r : ℝ, a12 i = (r : EReal))
    ∧ (∀ i, ∃ r : ℝ, a13 i = (r : EReal))
    ∧ (∀ i, ∃ r : ℝ, a14 i = (r : EReal))
    ∧ (∀ i, ∃ r : ℝ, a15 i = (r : EReal))
    ∧ (∀ i, ∃ r : ℝ, a16 i = (r : EReal))
    ∧ (∀ i, ∃ r : ℝ, a17 i = (r : EReal))
    ∧ (∀ i, ∃ r : ℝ, a18 i = (r : EReal)) := by
  have h0 := congrFun h ix0
  unfold fn fn_part1 fn_part2 fn_part3 fn_part4 fn_part5 at h0
  dsimp only at h0
  simp only [andi, IntOp.andi_eq_one] at h0
  obtain ⟨⟨⟨⟨⟨⟨⟨⟨⟨⟨⟨⟨⟨⟨⟨⟨⟨⟨h_0, h_1⟩, h_2⟩, h_3⟩, h_4⟩, h_5⟩, h_6⟩, h_7⟩, h_8⟩, h_9⟩, h_10⟩, h_11⟩, h_12⟩, h_13⟩, h_14⟩, h_15⟩, h_16⟩, h_17⟩, h_18⟩ := h0
  exact ⟨real_of_all_lt_inf a0 bcast_S_S32x64x64x64 reducesTo_S32x64x64x64_S_d0_1_2_3 h_S_ h_0,
    real_of_all_lt_inf a1 bcast_S_S128x64 reducesTo_S128x64_S_d0_1 h_S_ h_1,
    real_of_all_lt_inf a2 bcast_S_S128x1 reducesTo_S128x1_S_d0_1 h_S_ h_2,
    real_of_all_lt_inf a3 bcast_S_S128x1 reducesTo_S128x1_S_d0_1 h_S_ h_3,
    real_of_all_lt_inf a4 bcast_S_S64x128 reducesTo_S64x128_S_d0_1 h_S_ h_4,
    real_of_all_lt_inf a5 bcast_S_S64x1 reducesTo_S64x1_S_d0_1 h_S_ h_5,
    real_of_all_lt_inf a6 bcast_S_S64x1 reducesTo_S64x1_S_d0_1 h_S_ h_6,
    real_of_all_lt_inf a7 bcast_S_S128x64 reducesTo_S128x64_S_d0_1 h_S_ h_7,
    real_of_all_lt_inf a8 bcast_S_S128x1 reducesTo_S128x1_S_d0_1 h_S_ h_8,
    real_of_all_lt_inf a9 bcast_S_S128x1 reducesTo_S128x1_S_d0_1 h_S_ h_9,
    real_of_all_lt_inf a10 bcast_S_S64x128 reducesTo_S64x128_S_d0_1 h_S_ h_10,
    real_of_all_lt_inf a11 bcast_S_S64x1 reducesTo_S64x1_S_d0_1 h_S_ h_11,
    real_of_all_lt_inf a12 bcast_S_S64x1 reducesTo_S64x1_S_d0_1 h_S_ h_12,
    real_of_all_lt_inf a13 bcast_S_S128x64 reducesTo_S128x64_S_d0_1 h_S_ h_13,
    real_of_all_lt_inf a14 bcast_S_S128x1 reducesTo_S128x1_S_d0_1 h_S_ h_14,
    real_of_all_lt_inf a15 bcast_S_S128x1 reducesTo_S128x1_S_d0_1 h_S_ h_15,
    real_of_all_lt_inf a16 bcast_S_S64x128 reducesTo_S64x128_S_d0_1 h_S_ h_16,
    real_of_all_lt_inf a17 bcast_S_S64x1 reducesTo_S64x1_S_d0_1 h_S_ h_17,
    real_of_all_lt_inf a18 bcast_S_S64x1 reducesTo_S64x1_S_d0_1 h_S_ h_18⟩

end Cert.Pre_finite_inputs.Read

end
-- ==== Proof.Claims.lean ====
/-
  The five claims. The frames are the generated ones. For the algebraic claim both runs are re-posted with the result
  buffer named, each result is read as three blocks of the network (the kernel's with each second scale applied after the
  product, the reference's with it folded into the weights), the argument arrays agree by hypothesis, and the two forms
  agree because under the precondition every input is a real number.
-/
import proofs.«126831_g2000503633499865_pallasbulk_555_4_alg».proof.Defs
import proofs.«126831_g2000503633499865_pallasbulk_555_4_alg».proof.Proof.Gen.Kernel.Frame
import proofs.«126831_g2000503633499865_pallasbulk_555_4_alg».proof.Proof.RunK
import proofs.«126831_g2000503633499865_pallasbulk_555_4_alg».proof.Proof.RunR
import proofs.«126831_g2000503633499865_pallasbulk_555_4_alg».proof.Proof.KFlowD
import proofs.«126831_g2000503633499865_pallasbulk_555_4_alg».proof.Proof.RFlowD
import proofs.«126831_g2000503633499865_pallasbulk_555_4_alg».proof.Proof.Finite
import proofs.«126831_g2000503633499865_pallasbulk_555_4_alg».proof.Proof.Gen.Pre_finite_inputs
import proofs.«126831_g2000503633499865_pallasbulk_555_4_alg».proof.Proof.NetConsts

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

theorem preserves : Cert.preserves_Kernel_KernelIdeal := trivial

/-- Where the arguments agree and the kernel's are real, the reference's network output is the kernel's. -/
theorem nets_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Flow.A3 m' c = Cert.KernelIdeal.Flow.A3 m c := by
  obtain ⟨e0, e1, e2, e3, e4, e5, e6, e7, e8, e9, e10, e11, e12, e13, e14, e15, e16, e17, e18⟩ := hagree
  obtain ⟨r0, r1, r2, r3, r4, r5, r6, r7, r8, r9, r10, r11, r12, r13, r14, r15, r16, r17, r18⟩ := Cert.Pre_finite_inputs.Read.reals_of_pre _ _ _ _ _ _ _ _ _ _ _ _ _ _ _ _ _ _ _ (hpre c)
  show Net.stepR Net.Nc Net.epsc Net.slopec (Net.qOf _ _ _ _ _ _) (Net.stepR Net.Nc Net.epsc Net.slopec (Net.qOf _ _ _ _ _ _)
      (Net.stepR Net.Nc Net.epsc Net.slopec (Net.qOf _ _ _ _ _ _) (Net.Xof _))) = _
  rw [e0, e1, e2, e3, e4, e5, e6, e7, e8, e9, e10, e11, e12, e13, e14, e15, e16, e17, e18]
  exact (Net.net_eq Net.consts (Net.qOf_real r1 r2 r3 r4 r5 r6) (Net.qOf_real r7 r8 r9 r10 r11 r12)
    (Net.qOf_real r13 r14 r15 r16 r17 r18) (Net.Xof_real r0)).symm

theorem algebraic : Cert.algebraic_KernelIdeal_ReferenceIdeal := by
  intro m ρ m' ρ' hpre hagree
  refine ⟨fun c => Net.outOf (Cert.KernelIdeal.Flow.A3 m c), ?_, ?_⟩
  · exact (θ_run Cert.KernelIdeal.defs _ _).mono
      (fun r h c => ⟨(h c).1.trans (Cert.KernelIdeal.Flow.result_eq m ρ c), (h c).2⟩)
      (Cert.KernelIdeal.RunVal.run (F := Ideal) m ρ)
  · exact (θ_run Cert.ReferenceIdeal.defs _ _).mono
      (fun r h c => ⟨(h c).1.trans ((Cert.ReferenceIdeal.Flow.result_eq m' ρ' c).trans
          (congrArg Net.outOf (nets_agree m m' hpre c (hagree c)))), (h c).2⟩)
      (Cert.ReferenceIdeal.RunVal.run (F := Ideal) m' ρ')

end Cert.Proof.Claims

end
-- ==== Proof.lean ====
/-
  The proof of the certificate's claim: an idealized Pallas kernel for a stack of three blocks of
  (1x1 convolution, batch normalisation, leaky rectifier) pairs computes, on finite inputs and over the extended reals, what
  its reference computes. The kernel keeps each block's second convolution unnormalised and applies the normalisation's
  scale afterwards; the reference folds that scale into the convolution's weights. Proof/Claims.lean assembles the claims
  from the two runs read as mathematics (Proof/KFlow*.lean, Proof/RFlow*.lean over the per-region values) and the one law
  that joins them (Proof/NetSpec.lean).
-/
import proofs.«126831_g2000503633499865_pallasbulk_555_4_alg».proof.Defs
import proofs.«126831_g2000503633499865_pallasbulk_555_4_alg».proof.Proof.Claims
import proofs.«126831_g2000503633499865_pallasbulk_555_4_alg».proof.Proof.Gen.Kernel
import proofs.«126831_g2000503633499865_pallasbulk_555_4_alg».proof.Proof.Gen.KernelIdeal
import proofs.«126831_g2000503633499865_pallasbulk_555_4_alg».proof.Proof.Gen.ReferenceIdeal
import proofs.«126831_g2000503633499865_pallasbulk_555_4_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
